-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1165) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x32 : Shape := ⟨2, ![262144, 32]⟩
abbrev S32x32x32 : Shape := ⟨3, ![32, 32, 32]⟩
abbrev S32x32 : Shape := ⟨2, ![32, 32]⟩
abbrev S32x32x8 : Shape := ⟨3, ![32, 32, 8]⟩
abbrev S32x8 : Shape := ⟨2, ![32, 8]⟩
abbrev S_ : Shape := ⟨0, ![]⟩

class Facts : Prop where
  bcast_S_S262144x32 : S_.BroadcastsInDim S262144x32 (![] : Fin 0 → Fin S262144x32.rank)
  reducesTo_S262144x32_S_d0_1 : S262144x32.ReducesTo [0, 1] S_
  h_S_ : 0 < S_.numel
  bcast_S_S32x32x32 : S_.BroadcastsInDim S32x32x32 (![] : Fin 0 → Fin S32x32x32.rank)
  reducesTo_S32x32x32_S_d0_1_2 : S32x32x32.ReducesTo [0, 1, 2] S_
  bcast_S_S32x32 : S_.BroadcastsInDim S32x32 (![] : Fin 0 → Fin S32x32.rank)
  reducesTo_S32x32_S_d0_1 : S32x32.ReducesTo [0, 1] S_
  bcast_S_S32x32x8 : S_.BroadcastsInDim S32x32x8 (![] : Fin 0 → Fin S32x32x8.rank)
  reducesTo_S32x32x8_S_d0_1_2 : S32x32x8.ReducesTo [0, 1, 2] S_
  bcast_S_S32x8 : S_.BroadcastsInDim S32x8 (![] : Fin 0 → Fin S32x8.rank)
  reducesTo_S32x8_S_d0_1 : S32x8.ReducesTo [0, 1] S_

variable [Facts]

def fn_part1 {F : FTy → Type} [FloatOps F] (main_arg4 : FVec F S32x32 .f32) (main_arg5 : FVec F S32x32x8 .f32) (main_arg6 : FVec F S32x8 .f32) (main_v13 : IVec S_ 1) (main_v16 : IVec S32x32x32 1) : IVec S_ 1 :=
  let main_c_5 : IVec S_ 1 := constantI S_ 1 1#1
  let main_v17 : IVec S_ 1 := (fun x v => Host.reduce IntOp.andi x v reducesTo_S32x32x32_S_d0_1_2 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32x32x8 .f32 := Host.absf main_arg5
  let main_cst_8 : FVec F S_ .f32 := constant S_ .f32 0x7F800000#32
  let main_v25 : FVec F S32x32x8 .f32 := broadcastInDim S32x32x8 ![] bcast_S_S32x32x8 main_cst_8
  let main_v26 : IVec S32x32x8 1 := cmpf .olt main_v24 main_v25
  let main_c_9 : IVec S_ 1 := constantI S_ 1 1#1
  let main_v27 : IVec S_ 1 := (fun x v => Host.reduce IntOp.andi x v reducesTo_S32x32x8_S_d0_1_2 h_S_) main_v26 main_c_9
  let main_v28 : IVec S_ 1 := andi main_v23 main_v27
  let main_v29 : FVec F S32x8 .f32 := Host.absf main_arg6
  let main_cst_10 : FVec F S_ .f32 := constant S_ .f32 0x7F800000#32
  let main_v30 : FVec F S32x8 .f32 := broadcastInDim S32x8 ![] bcast_S_S32x8 main_cst_10
  let main_v31 : IVec S32x8 1 := cmpf .olt main_v29 main_v30
  let main_c_11 : IVec S_ 1 := constantI S_ 1 1#1
  let main_v32 : IVec S_ 1 := (fun x v => Host.reduce IntOp.andi x v reducesTo_S32x8_S_d0_1 h_S_) main_v31 main_c_11
  let main_v33 : IVec S_ 1 := andi main_v28 main_v32
  main_v33

def fn {F : FTy → Type} [FloatOps F] (main_arg0 : FVec F S262144x32 .f32) (main_arg1 : FVec F S32x32x32 .f32) (main_arg2 : FVec F S32x32 .f32) (main_arg3 : FVec F S32x32x32 .f32) (main_arg4 : FVec F S32x32 .f32) (main_arg5 : FVec F S32x32x8 .f32) (main_arg6 : FVec F S32x8 .f32) : IVec S_ 1 :=
  let main_v0 : FVec F S262144x32 .f32 := Host.absf main_arg0
  let main_cst : FVec F S_ .f32 := constant S_ .f32 0x7F800000#32
  let main_v1 : FVec F S262144x32 .f32 := broadcastInDim S262144x32 ![] bcast_S_S262144x32 main_cst
  let main_v2 : IVec S262144x32 1 := cmpf .olt main_v0 main_v1
  let main_c : IVec S_ 1 := constantI S_ 1 1#1
  let main_v3 : IVec S_ 1 := (fun x v => Host.reduce IntOp.andi x v reducesTo_S262144x32_S_d0_1 h_S_) main_v2 main_c
  let main_v4 : FVec F S32x32x32 .f32 := Host.absf main_arg1
  let main_cst_0 : FVec F S_ .f32 := constant S_ .f32 0x7F800000#32
  let main_v5 : FVec F S32x32x32 .f32 := broadcastInDim S32x32x32 ![] bcast_S_S32x32x32 main_cst_0
  let main_v6 : IVec S32x32x32 1 := cmpf .olt main_v4 main_v5
  let main_c_1 : IVec S_ 1 := constantI S_ 1 1#1
  let main_v7 : IVec S_ 1 := (fun x v => Host.reduce IntOp.andi x v reducesTo_S32x32x32_S_d0_1_2 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32x32x32 .f32 := Host.absf main_arg3
  let main_cst_4 : FVec F S_ .f32 := constant S_ .f32 0x7F800000#32
  let main_v15 : FVec F S32x32x32 .f32 := broadcastInDim S32x32x32 ![] bcast_S_S32x32x32 main_cst_4
  let main_v16 : IVec S32x32x32 1 := cmpf .olt main_v14 main_v15
  fn_part1 (F := F) main_arg4 main_arg5 main_arg6 main_v13 main_v16
-- ==== Kernel.lean ====
abbrev S262144x32 : Shape := ⟨2, ![262144, 32]⟩
abbrev S32x32x32 : Shape := ⟨3, ![32, 32, 32]⟩
abbrev S32x32 : Shape := ⟨2, ![32, 32]⟩
abbrev S32x32x8 : Shape := ⟨3, ![32, 32, 8]⟩
abbrev S32x8 : Shape := ⟨2, ![32, 8]⟩
abbrev S32 : Shape := ⟨1, ![32]⟩
abbrev S1x32 : Shape := ⟨2, ![1, 32]⟩
abbrev S32x1 : Shape := ⟨2, ![32, 1]⟩
abbrev S32x32x1 : Shape := ⟨3, ![32, 32, 1]⟩
abbrev S4x8x32x32 : Shape := ⟨4, ![4, 8, 32, 32]⟩
abbrev S4x32x8x32 : Shape := ⟨4, ![4, 32, 8, 32]⟩
abbrev S4x32x256 : Shape := ⟨3, ![4, 32, 256]⟩
abbrev S4x8x32 : Shape := ⟨3, ![4, 8, 32]⟩
abbrev S4x256 : Shape := ⟨2, ![4, 256]⟩
abbrev S32x1x32 : Shape := ⟨3, ![32, 1, 32]⟩
abbrev S8x8 : Shape := ⟨2, ![8, 8]⟩
abbrev S_ : Shape := ⟨0, ![]⟩
abbrev S4x8x32x1x32 : Shape := ⟨5, ![4, 8, 32, 1, 32]⟩
abbrev S1x8x1x8x1 : Shape := ⟨5, ![1, 8, 1, 8, 1]⟩
abbrev S4x8x32x8x32 : Shape := ⟨5, ![4, 8, 32, 8, 32]⟩
abbrev S4x256x256 : Shape := ⟨3, ![4, 256, 256]⟩
abbrev S4x8x32x8 : Shape := ⟨4, ![4, 8, 32, 8]⟩
abbrev S4x8x32x1x8 : Shape := ⟨5, ![4, 8, 32, 1, 8]⟩
abbrev S4x8x32x8x8 : Shape := ⟨5, ![4, 8, 32, 8, 8]⟩
abbrev S4x256x64 : Shape := ⟨3, ![4, 256, 64]⟩
abbrev S4x8x8 : Shape := ⟨3, ![4, 8, 8]⟩
abbrev S4x64 : Shape := ⟨2, ![4, 64]⟩
abbrev S32x2 : Shape := ⟨2, ![32, 2]⟩
abbrev S4x8x1x8 : Shape := ⟨4, ![4, 8, 1, 8]⟩
abbrev S1x8x8x1 : Shape := ⟨4, ![1, 8, 8, 1]⟩
abbrev S4x8x8x8 : Shape := ⟨4, ![4, 8, 8, 8]⟩
abbrev S4x8x64 : Shape := ⟨3, ![4, 8, 64]⟩
abbrev S1024x32 : Shape := ⟨2, ![1024, 32]⟩
abbrev S1024x8 : Shape := ⟨2, ![1024, 8]⟩
abbrev S1x32x256 : Shape := ⟨3, ![1, 32, 256]⟩
abbrev S32x256 : Shape := ⟨2, ![32, 256]⟩
abbrev S1x256 : Shape := ⟨2, ![1, 256]⟩
abbrev S256 : Shape := ⟨1, ![256]⟩
abbrev S1024x256 : Shape := ⟨2, ![1024, 256]⟩
abbrev S1x256x256 : Shape := ⟨3, ![1, 256, 256]⟩
abbrev S256x256 : Shape := ⟨2, ![256, 256]⟩
abbrev S1x256x64 : Shape := ⟨3, ![1, 256, 64]⟩
abbrev S256x64 : Shape := ⟨2, ![256, 64]⟩
abbrev S1x64 : Shape := ⟨2, ![1, 64]⟩
abbrev S64 : Shape := ⟨1, ![64]⟩
abbrev S1024x64 : Shape := ⟨2, ![1024, 64]⟩
abbrev S1x8x64 : Shape := ⟨3, ![1, 8, 64]⟩
abbrev S8x64 : Shape := ⟨2, ![8, 64]⟩
abbrev S1024x1 : Shape := ⟨2, ![1024, 1]⟩

abbrev nBuf : Space → Nat
  | .hbm => 114
  | .vmem => 11
  | .smem => 0
  | _ => 0

abbrev bufTy : (tb : Table) → Fin (tcTables nBuf tb) → BufTy
  | .hbm, ⟨0, _⟩ => ⟨S262144x32, .f32⟩
  | .hbm, ⟨1, _⟩ => ⟨S32x32x32, .f32⟩
  | .hbm, ⟨2, _⟩ => ⟨S32x32, .f32⟩
  | .hbm, ⟨3, _⟩ => ⟨S32x32x32, .f32⟩
  | .hbm, ⟨4, _⟩ => ⟨S32x32, .f32⟩
  | .hbm, ⟨5, _⟩ => ⟨S32x32x8, .f32⟩
  | .hbm, ⟨6, _⟩ => ⟨S32x8, .f32⟩
  | .hbm, ⟨7, _⟩ => ⟨S32, .i32⟩
  | .hbm, ⟨8, _⟩ => ⟨S32, .i32⟩
  | .hbm, ⟨9, _⟩ => ⟨S1x32, .i32⟩
  | .hbm, ⟨10, _⟩ => ⟨S32x1, .i32⟩
  | .hbm, ⟨11, _⟩ => ⟨S32x32, .i32⟩
  | .hbm, ⟨12, _⟩ => ⟨S32x32, .i32⟩
  | .hbm, ⟨13, _⟩ => ⟨S32x32, .i1⟩
  | .hbm, ⟨14, _⟩ => ⟨S32x32, .f32⟩
  | .hbm, ⟨15, _⟩ => ⟨S32x32x1, .f32⟩
  | .hbm, ⟨16, _⟩ => ⟨S32x32x32, .f32⟩
  | .hbm, ⟨17, _⟩ => ⟨S32x32x32, .f32⟩
  | .hbm, ⟨18, _⟩ => ⟨S4x8x32x32, .f32⟩
  | .hbm, ⟨19, _⟩ => ⟨S4x32x8x32, .f32⟩
  | .hbm, ⟨20, _⟩ => ⟨S4x32x256, .f32⟩
  | .hbm, ⟨21, _⟩ => ⟨S4x32x256, .bf16⟩
  | .hbm, ⟨22, _⟩ => ⟨S4x8x32, .f32⟩
  | .hbm, ⟨23, _⟩ => ⟨S4x256, .f32⟩
  | .hbm, ⟨24, _⟩ => ⟨S32, .i32⟩
  | .hbm, ⟨25, _⟩ => ⟨S1x32, .i32⟩
  | .hbm, ⟨26, _⟩ => ⟨S32x1, .i32⟩
  | .hbm, ⟨27, _⟩ => ⟨S32x32, .i32⟩
  | .hbm, ⟨28, _⟩ => ⟨S32x32, .i32⟩
  | .hbm, ⟨29, _⟩ => ⟨S32x32, .i1⟩
  | .hbm, ⟨30, _⟩ => ⟨S32x32, .f32⟩
  | .hbm, ⟨31, _⟩ => ⟨S32x1x32, .f32⟩
  | .hbm, ⟨32, _⟩ => ⟨S32x32x32, .f32⟩
  | .hbm, ⟨33, _⟩ => ⟨S32x32x32, .f32⟩
  | .hbm, ⟨34, _⟩ => ⟨S4x8x32x32, .f32⟩
  | .hbm, ⟨35, _⟩ => ⟨S8x8, .i32⟩
  | .hbm, ⟨36, _⟩ => ⟨S8x8, .i32⟩
  | .hbm, ⟨37, _⟩ => ⟨S_, .i32⟩
  | .hbm, ⟨38, _⟩ => ⟨S8x8, .i32⟩
  | .hbm, ⟨39, _⟩ => ⟨S8x8, .i32⟩
  | .hbm, ⟨40, _⟩ => ⟨S8x8, .i1⟩
  | .hbm, ⟨41, _⟩ => ⟨S8x8, .f32⟩
  | .hbm, ⟨42, _⟩ => ⟨S4x8x32x1x32, .f32⟩
  | .hbm, ⟨43, _⟩ => ⟨S1x8x1x8x1, .f32⟩
  | .hbm, ⟨44, _⟩ => ⟨S4x8x32x8x32, .f32⟩
  | .hbm, ⟨45, _⟩ => ⟨S4x8x32x8x32, .f32⟩
  | .hbm, ⟨46, _⟩ => ⟨S4x8x32x8x32, .f32⟩
  | .hbm, ⟨47, _⟩ => ⟨S4x256x256, .f32⟩
  | .hbm, ⟨48, _⟩ => ⟨S4x256x256, .bf16⟩
  | .hbm, ⟨49, _⟩ => ⟨S32x32, .f32⟩
  | .hbm, ⟨50, _⟩ => ⟨S4x8x32, .f32⟩
  | .hbm, ⟨51, _⟩ => ⟨S4x256, .f32⟩
  | .hbm, ⟨52, _⟩ => ⟨S32, .i32⟩
  | .hbm, ⟨53, _⟩ => ⟨S1x32, .i32⟩
  | .hbm, ⟨54, _⟩ => ⟨S32x1, .i32⟩
  | .hbm, ⟨55, _⟩ => ⟨S32x32, .i32⟩
  | .hbm, ⟨56, _⟩ => ⟨S32x32, .i32⟩
  | .hbm, ⟨57, _⟩ => ⟨S32x32, .i1⟩
  | .hbm, ⟨58, _⟩ => ⟨S32x32, .f32⟩
  | .hbm, ⟨59, _⟩ => ⟨S32x32x1, .f32⟩
  | .hbm, ⟨60, _⟩ => ⟨S32x32x8, .f32⟩
  | .hbm, ⟨61, _⟩ => ⟨S32x32x8, .f32⟩
  | .hbm, ⟨62, _⟩ => ⟨S4x8x32x8, .f32⟩
  | .hbm, ⟨63, _⟩ => ⟨S8x8, .i32⟩
  | .hbm, ⟨64, _⟩ => ⟨S8x8, .i32⟩
  | .hbm, ⟨65, _⟩ => ⟨S_, .i32⟩
  | .hbm, ⟨66, _⟩ => ⟨S8x8, .i32⟩
  | .hbm, ⟨67, _⟩ => ⟨S8x8, .i32⟩
  | .hbm, ⟨68, _⟩ => ⟨S8x8, .i1⟩
  | .hbm, ⟨69, _⟩ => ⟨S8x8, .f32⟩
  | .hbm, ⟨70, _⟩ => ⟨S4x8x32x1x8, .f32⟩
  | .hbm, ⟨71, _⟩ => ⟨S1x8x1x8x1, .f32⟩
  | .hbm, ⟨72, _⟩ => ⟨S4x8x32x8x8, .f32⟩
  | .hbm, ⟨73, _⟩ => ⟨S4x8x32x8x8, .f32⟩
  | .hbm, ⟨74, _⟩ => ⟨S4x8x32x8x8, .f32⟩
  | .hbm, ⟨75, _⟩ => ⟨S4x256x64, .f32⟩
  | .hbm, ⟨76, _⟩ => ⟨S4x256x64, .bf16⟩
  | .hbm, ⟨77, _⟩ => ⟨S4x8x8, .f32⟩
  | .hbm, ⟨78, _⟩ => ⟨S4x64, .f32⟩
  | .hbm, ⟨79, _⟩ => ⟨S32, .i32⟩
  | .hbm, ⟨80, _⟩ => ⟨S_, .i32⟩
  | .hbm, ⟨81, _⟩ => ⟨S32, .i32⟩
  | .hbm, ⟨82, _⟩ => ⟨S32, .i1⟩
  | .hbm, ⟨83, _⟩ => ⟨S_, .i32⟩
  | .hbm, ⟨84, _⟩ => ⟨S32, .i32⟩
  | .hbm, ⟨85, _⟩ => ⟨S32, .i32⟩
  | .hbm, ⟨86, _⟩ => ⟨S32, .i32⟩
  | .hbm, ⟨87, _⟩ => ⟨S_, .i32⟩
  | .hbm, ⟨88, _⟩ => ⟨S32, .i32⟩
  | .hbm, ⟨89, _⟩ => ⟨S32, .i1⟩
  | .hbm, ⟨90, _⟩ => ⟨S_, .i32⟩
  | .hbm, ⟨91, _⟩ => ⟨S32, .i32⟩
  | .hbm, ⟨92, _⟩ => ⟨S32, .i32⟩
  | .hbm, ⟨93, _⟩ => ⟨S32, .i32⟩
  | .hbm, ⟨94, _⟩ => ⟨S32x1, .i32⟩
  | .hbm, ⟨95, _⟩ => ⟨S32x1, .i32⟩
  | .hbm, ⟨96, _⟩ => ⟨S32x2, .i32⟩
  | .hbm, ⟨97, _⟩ => ⟨S32x8, .f32⟩
  | .hbm, ⟨98, _⟩ => ⟨S32x8, .f32⟩
  | .hbm, ⟨99, _⟩ => ⟨S4x8x8, .f32⟩
  | .hbm, ⟨100, _⟩ => ⟨S8x8, .i32⟩
  | .hbm, ⟨101, _⟩ => ⟨S8x8, .i32⟩
  | .hbm, ⟨102, _⟩ => ⟨S_, .i32⟩
  | .hbm, ⟨103, _⟩ => ⟨S8x8, .i32⟩
  | .hbm, ⟨104, _⟩ => ⟨S8x8, .i32⟩
  | .hbm, ⟨105, _⟩ => ⟨S8x8, .i1⟩
  | .hbm, ⟨106, _⟩ => ⟨S8x8, .f32⟩
  | .hbm, ⟨107, _⟩ => ⟨S4x8x1x8, .f32⟩
  | .hbm, ⟨108, _⟩ => ⟨S1x8x8x1, .f32⟩
  | .hbm, ⟨109, _⟩ => ⟨S4x8x8x8, .f32⟩
  | .hbm, ⟨110, _⟩ => ⟨S4x8x8x8, .f32⟩
  | .hbm, ⟨111, _⟩ => ⟨S4x8x8x8, .f32⟩
  | .hbm, ⟨112, _⟩ => ⟨S4x8x64, .f32⟩
  | .hbm, ⟨113, _⟩ => ⟨S262144x32, .f32⟩
  | .local _ .vmem, ⟨0, _⟩ => ⟨S1024x32, .f32⟩
  | .local _ .vmem, ⟨1, _⟩ => ⟨S1024x32, .f32⟩
  | .local _ .vmem, ⟨2, _⟩ => ⟨S4x32x256, .bf16⟩
  | .local _ .vmem, ⟨3, _⟩ => ⟨S4x256, .f32⟩
  | .local _ .vmem, ⟨4, _⟩ => ⟨S4x256x256, .bf16⟩
  | .local _ .vmem, ⟨5, _⟩ => ⟨S4x256, .f32⟩
  | .local _ .vmem, ⟨6, _⟩ => ⟨S4x256x64, .bf16⟩
  | .local _ .vmem, ⟨7, _⟩ => ⟨S4x64, .f32⟩
  | .local _ .vmem, ⟨8, _⟩ => ⟨S4x8x64, .f32⟩
  | .local _ .vmem, ⟨9, _⟩ => ⟨S1024x32, .f32⟩
  | .local _ .vmem, ⟨10, _⟩ => ⟨S1024x32, .f32⟩
  | _, _ => ⟨S262144x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_c_0 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_c_1 : Ref sig .tc := ⟨.hbm, 80, rfl⟩
abbrev main_v71 : Ref sig .tc := ⟨.hbm, 81, rfl⟩
abbrev main_v72 : Ref sig .tc := ⟨.hbm, 82, rfl⟩
abbrev main_c_2 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_c_3 : Ref sig .tc := ⟨.hbm, 87, rfl⟩
abbrev main_v76 : Ref sig .tc := ⟨.hbm, 88, rfl⟩
abbrev main_v77 : Ref sig .tc := ⟨.hbm, 89, rfl⟩
abbrev main_c_4 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_c_5 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x32x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x8x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S32_S1x32_1 : S32.BroadcastsInDim S1x32 (![1] : Fin 1 → Fin S1x32.rank)
  bcast_S32_S32x1_0 : S32.BroadcastsInDim S32x1 (![0] : Fin 1 → Fin S32x1.rank)
  bcast_S1x32_S32x32_0_1 : S1x32.BroadcastsInDim S32x32 (![0, 1] : Fin 2 → Fin S32x32.rank)
  bcast_S32x1_S32x32_0_1 : S32x1.BroadcastsInDim S32x32 (![0, 1] : Fin 2 → Fin S32x32.rank)
  bcast_S32x32_S32x32x1_0_1 : S32x32.BroadcastsInDim S32x32x1 (![0, 1] : Fin 2 → Fin S32x32x1.rank)
  bcast_S32x32x1_S32x32x32_0_1_2 : S32x32x1.BroadcastsInDim S32x32x32 (![0, 1, 2] : Fin 3 → Fin S32x32x32.rank)
  shapeCasts_S32x32x32_S4x8x32x32 : S32x32x32.ShapeCasts S4x8x32x32
  transposes_S4x8x32x32_S4x32x8x32_0_2_1_3 : S4x8x32x32.Transposes [0, 2, 1, 3] S4x32x8x32
  shapeCasts_S4x32x8x32_S4x32x256 : S4x32x8x32.ShapeCasts S4x32x256
  bitsLt_bf16_f32 : FTy.bits .bf16 < FTy.bits .f32
  shapeCasts_S32x32_S4x8x32 : S32x32.ShapeCasts S4x8x32
  shapeCasts_S4x8x32_S4x256 : S4x8x32.ShapeCasts S4x256
  bcast_S32x32_S32x1x32_0_2 : S32x32.BroadcastsInDim S32x1x32 (![0, 2] : Fin 2 → Fin S32x1x32.rank)
  bcast_S32x1x32_S32x32x32_0_1_2 : S32x1x32.BroadcastsInDim S32x32x32 (![0, 1, 2] : Fin 3 → Fin S32x32x32.rank)
  bcast_S_S8x8 : S_.BroadcastsInDim S8x8 (![] : Fin 0 → Fin S8x8.rank)
  bcast_S4x8x32x32_S4x8x32x1x32_0_1_2_4 : S4x8x32x32.BroadcastsInDim S4x8x32x1x32 (![0, 1, 2, 4] : Fin 4 → Fin S4x8x32x1x32.rank)
  bcast_S8x8_S1x8x1x8x1_1_3 : S8x8.BroadcastsInDim S1x8x1x8x1 (![1, 3] : Fin 2 → Fin S1x8x1x8x1.rank)
  bcast_S4x8x32x1x32_S4x8x32x8x32_0_1_2_3_4 : S4x8x32x1x32.BroadcastsInDim S4x8x32x8x32 (![0, 1, 2, 3, 4] : Fin 5 → Fin S4x8x32x8x32.rank)
  bcast_S1x8x1x8x1_S4x8x32x8x32_0_1_2_3_4 : S1x8x1x8x1.BroadcastsInDim S4x8x32x8x32 (![0, 1, 2, 3, 4] : Fin 5 → Fin S4x8x32x8x32.rank)
  shapeCasts_S4x8x32x8x32_S4x256x256 : S4x8x32x8x32.ShapeCasts S4x256x256
  bcast_S32x32x1_S32x32x8_0_1_2 : S32x32x1.BroadcastsInDim S32x32x8 (![0, 1, 2] : Fin 3 → Fin S32x32x8.rank)
  shapeCasts_S32x32x8_S4x8x32x8 : S32x32x8.ShapeCasts S4x8x32x8
  bcast_S4x8x32x8_S4x8x32x1x8_0_1_2_4 : S4x8x32x8.BroadcastsInDim S4x8x32x1x8 (![0, 1, 2, 4] : Fin 4 → Fin S4x8x32x1x8.rank)
  bcast_S4x8x32x1x8_S4x8x32x8x8_0_1_2_3_4 : S4x8x32x1x8.BroadcastsInDim S4x8x32x8x8 (![0, 1, 2, 3, 4] : Fin 5 → Fin S4x8x32x8x8.rank)
  bcast_S1x8x1x8x1_S4x8x32x8x8_0_1_2_3_4 : S1x8x1x8x1.BroadcastsInDim S4x8x32x8x8 (![0, 1, 2, 3, 4] : Fin 5 → Fin S4x8x32x8x8.rank)
  shapeCasts_S4x8x32x8x8_S4x256x64 : S4x8x32x8x8.ShapeCasts S4x256x64
  shapeCasts_S32x8_S4x8x8 : S32x8.ShapeCasts S4x8x8
  shapeCasts_S4x8x8_S4x64 : S4x8x8.ShapeCasts S4x64
  bcast_S_S32 : S_.BroadcastsInDim S32 (![] : Fin 0 → Fin S32.rank)
  concatenates_S32x1_S32x1_S32x2_d1 : Shape.Concatenates [S32x1, S32x1] S32x2 1
  bcast_S4x8x8_S4x8x1x8_0_1_3 : S4x8x8.BroadcastsInDim S4x8x1x8 (![0, 1, 3] : Fin 3 → Fin S4x8x1x8.rank)
  bcast_S8x8_S1x8x8x1_1_2 : S8x8.BroadcastsInDim S1x8x8x1 (![1, 2] : Fin 2 → Fin S1x8x8x1.rank)
  bcast_S4x8x1x8_S4x8x8x8_0_1_2_3 : S4x8x1x8.BroadcastsInDim S4x8x8x8 (![0, 1, 2, 3] : Fin 4 → Fin S4x8x8x8.rank)
  bcast_S1x8x8x1_S4x8x8x8_0_1_2_3 : S1x8x8x1.BroadcastsInDim S4x8x8x8 (![0, 1, 2, 3] : Fin 4 → Fin S4x8x8x8.rank)
  shapeCasts_S4x8x8x8_S4x8x64 : S4x8x8x8.ShapeCasts S4x8x64
  inb_S1024x32_S1024x32_0_0 : ∀ a, (![0, 0] : Fin 2 → Nat) a + S1024x32.size a ≤ S1024x32.size a
  h_S1024x32 : 0 < S1024x32.numel
  slices_S1024x32_o0_0_S1024x8 : S1024x32.Slices ![0, 0] S1024x8
  inb_S4x32x256_S1x32x256_0_0_0 : ∀ a, (![0, 0, 0] : Fin 3 → Nat) a + S1x32x256.size a ≤ S4x32x256.size a
  h_S1x32x256 : 0 < S1x32x256.numel
  shapeCasts_S1x32x256_S32x256 : S1x32x256.ShapeCasts S32x256
  inb_S4x256_S1x256_0_0 : ∀ a, (![0, 0] : Fin 2 → Nat) a + S1x256.size a ≤ S4x256.size a
  h_S1x256 : 0 < S1x256.numel
  shapeCasts_S1x256_S256 : S1x256.ShapeCasts S256
  shapeCasts_S256_S1x256 : S256.ShapeCasts S1x256
  broadcasts_S1x256_S1024x256 : S1x256.Broadcasts S1024x256
  inb_S4x256x256_S1x256x256_0_0_0 : ∀ a, (![0, 0, 0] : Fin 3 → Nat) a + S1x256x256.size a ≤ S4x256x256.size a
  h_S1x256x256 : 0 < S1x256x256.numel
  shapeCasts_S1x256x256_S256x256 : S1x256x256.ShapeCasts S256x256
  inb_S4x256x64_S1x256x64_0_0_0 : ∀ a, (![0, 0, 0] : Fin 3 → Nat) a + S1x256x64.size a ≤ S4x256x64.size a
  h_S1x256x64 : 0 < S1x256x64.numel
  shapeCasts_S1x256x64_S256x64 : S1x256x64.ShapeCasts S256x64
  inb_S4x64_S1x64_0_0 : ∀ a, (![0, 0] : Fin 2 → Nat) a + S1x64.size a ≤ S4x64.size a
  h_S1x64 : 0 < S1x64.numel
  shapeCasts_S1x64_S64 : S1x64.ShapeCasts S64
  shapeCasts_S64_S1x64 : S64.ShapeCasts S1x64
  broadcasts_S1x64_S1024x64 : S1x64.Broadcasts S1024x64
  inb_S4x8x64_S1x8x64_0_0_0 : ∀ a, (![0, 0, 0] : Fin 3 → Nat) a + S1x8x64.size a ≤ S4x8x64.size a
  h_S1x8x64 : 0 < S1x8x64.numel
  shapeCasts_S1x8x64_S8x64 : S1x8x64.ShapeCasts S8x64
  slices_S1024x64_o0_0_S1024x8 : S1024x64.Slices ![0, 0] S1024x8
  slices_S1024x8_o0_0_S1024x1 : S1024x8.Slices ![0, 0] S1024x1
  slices_S1024x8_o0_1_S1024x1 : S1024x8.Slices ![0, 1] S1024x1
  slices_S1024x8_o0_2_S1024x1 : S1024x8.Slices ![0, 2] S1024x1
  slices_S1024x8_o0_3_S1024x1 : S1024x8.Slices ![0, 3] S1024x1
  slices_S1024x8_o0_4_S1024x1 : S1024x8.Slices ![0, 4] S1024x1
  slices_S1024x8_o0_5_S1024x1 : S1024x8.Slices ![0, 5] S1024x1
  slices_S1024x8_o0_6_S1024x1 : S1024x8.Slices ![0, 6] S1024x1
  slices_S1024x8_o0_7_S1024x1 : S1024x8.Slices ![0, 7] S1024x1
  inb_S1024x32_S1024x1_0_0 : ∀ a, (![0, 0] : Fin 2 → Nat) a + S1024x1.size a ≤ S1024x32.size a
  h_S1024x1 : 0 < S1024x1.numel
  slices_S1024x64_o0_8_S1024x8 : S1024x64.Slices ![0, 8] S1024x8
  inb_S1024x32_S1024x1_0_1 : ∀ a, (![0, 1] : Fin 2 → Nat) a + S1024x1.size a ≤ S1024x32.size a
  slices_S1024x64_o0_16_S1024x8 : S1024x64.Slices ![0, 16] S1024x8
  inb_S1024x32_S1024x1_0_2 : ∀ a, (![0, 2] : Fin 2 → Nat) a + S1024x1.size a ≤ S1024x32.size a
  slices_S1024x64_o0_24_S1024x8 : S1024x64.Slices ![0, 24] S1024x8
  inb_S1024x32_S1024x1_0_3 : ∀ a, (![0, 3] : Fin 2 → Nat) a + S1024x1.size a ≤ S1024x32.size a
  slices_S1024x64_o0_32_S1024x8 : S1024x64.Slices ![0, 32] S1024x8
  inb_S1024x32_S1024x1_0_4 : ∀ a, (![0, 4] : Fin 2 → Nat) a + S1024x1.size a ≤ S1024x32.size a
  slices_S1024x64_o0_40_S1024x8 : S1024x64.Slices ![0, 40] S1024x8
  inb_S1024x32_S1024x1_0_5 : ∀ a, (![0, 5] : Fin 2 → Nat) a + S1024x1.size a ≤ S1024x32.size a
  slices_S1024x64_o0_48_S1024x8 : S1024x64.Slices ![0, 48] S1024x8
  inb_S1024x32_S1024x1_0_6 : ∀ a, (![0, 6] : Fin 2 → Nat) a + S1024x1.size a ≤ S1024x32.size a
  slices_S1024x64_o0_56_S1024x8 : S1024x64.Slices ![0, 56] S1024x8
  inb_S1024x32_S1024x1_0_7 : ∀ a, (![0, 7] : Fin 2 → Nat) a + S1024x1.size a ≤ S1024x32.size a
  slices_S1024x32_o0_8_S1024x8 : S1024x32.Slices ![0, 8] S1024x8
  inb_S4x32x256_S1x32x256_1_0_0 : ∀ a, (![1, 0, 0] : Fin 3 → Nat) a + S1x32x256.size a ≤ S4x32x256.size a
  inb_S4x256_S1x256_1_0 : ∀ a, (![1, 0] : Fin 2 → Nat) a + S1x256.size a ≤ S4x256.size a
  inb_S4x256x256_S1x256x256_1_0_0 : ∀ a, (![1, 0, 0] : Fin 3 → Nat) a + S1x256x256.size a ≤ S4x256x256.size a
  inb_S4x256x64_S1x256x64_1_0_0 : ∀ a, (![1, 0, 0] : Fin 3 → Nat) a + S1x256x64.size a ≤ S4x256x64.size a
  inb_S4x64_S1x64_1_0 : ∀ a, (![1, 0] : Fin 2 → Nat) a + S1x64.size a ≤ S4x64.size a
  inb_S4x8x64_S1x8x64_1_0_0 : ∀ a, (![1, 0, 0] : Fin 3 → Nat) a + S1x8x64.size a ≤ S4x8x64.size a
  inb_S1024x32_S1024x1_0_8 : ∀ a, (![0, 8] : Fin 2 → Nat) a + S1024x1.size a ≤ S1024x32.size a
  inb_S1024x32_S1024x1_0_9 : ∀ a, (![0, 9] : Fin 2 → Nat) a + S1024x1.size a ≤ S1024x32.size a
  inb_S1024x32_S1024x1_0_10 : ∀ a, (![0, 10] : Fin 2 → Nat) a + S1024x1.size a ≤ S1024x32.size a
  inb_S1024x32_S1024x1_0_11 : ∀ a, (![0, 11] : Fin 2 → Nat) a + S1024x1.size a ≤ S1024x32.size a
  inb_S1024x32_S1024x1_0_12 : ∀ a, (![0, 12] : Fin 2 → Nat) a + S1024x1.size a ≤ S1024x32.size a
  inb_S1024x32_S1024x1_0_13 : ∀ a, (![0, 13] : Fin 2 → Nat) a + S1024x1.size a ≤ S1024x32.size a
  inb_S1024x32_S1024x1_0_14 : ∀ a, (![0, 14] : Fin 2 → Nat) a + S1024x1.size a ≤ S1024x32.size a
  inb_S1024x32_S1024x1_0_15 : ∀ a, (![0, 15] : Fin 2 → Nat) a + S1024x1.size a ≤ S1024x32.size a
  slices_S1024x32_o0_16_S1024x8 : S1024x32.Slices ![0, 16] S1024x8
  inb_S4x32x256_S1x32x256_2_0_0 : ∀ a, (![2, 0, 0] : Fin 3 → Nat) a + S1x32x256.size a ≤ S4x32x256.size a
  inb_S4x256_S1x256_2_0 : ∀ a, (![2, 0] : Fin 2 → Nat) a + S1x256.size a ≤ S4x256.size a
  inb_S4x256x256_S1x256x256_2_0_0 : ∀ a, (![2, 0, 0] : Fin 3 → Nat) a + S1x256x256.size a ≤ S4x256x256.size a
  inb_S4x256x64_S1x256x64_2_0_0 : ∀ a, (![2, 0, 0] : Fin 3 → Nat) a + S1x256x64.size a ≤ S4x256x64.size a
  inb_S4x64_S1x64_2_0 : ∀ a, (![2, 0] : Fin 2 → Nat) a + S1x64.size a ≤ S4x64.size a
  inb_S4x8x64_S1x8x64_2_0_0 : ∀ a, (![2, 0, 0] : Fin 3 → Nat) a + S1x8x64.size a ≤ S4x8x64.size a
  inb_S1024x32_S1024x1_0_16 : ∀ a, (![0, 16] : Fin 2 → Nat) a + S1024x1.size a ≤ S1024x32.size a
  inb_S1024x32_S1024x1_0_17 : ∀ a, (![0, 17] : Fin 2 → Nat) a + S1024x1.size a ≤ S1024x32.size a
  inb_S1024x32_S1024x1_0_18 : ∀ a, (![0, 18] : Fin 2 → Nat) a + S1024x1.size a ≤ S1024x32.size a
  inb_S1024x32_S1024x1_0_19 : ∀ a, (![0, 19] : Fin 2 → Nat) a + S1024x1.size a ≤ S1024x32.size a
  inb_S1024x32_S1024x1_0_20 : ∀ a, (![0, 20] : Fin 2 → Nat) a + S1024x1.size a ≤ S1024x32.size a
  inb_S1024x32_S1024x1_0_21 : ∀ a, (![0, 21] : Fin 2 → Nat) a + S1024x1.size a ≤ S1024x32.size a
  inb_S1024x32_S1024x1_0_22 : ∀ a, (![0, 22] : Fin 2 → Nat) a + S1024x1.size a ≤ S1024x32.size a
  inb_S1024x32_S1024x1_0_23 : ∀ a, (![0, 23] : Fin 2 → Nat) a + S1024x1.size a ≤ S1024x32.size a
  slices_S1024x32_o0_24_S1024x8 : S1024x32.Slices ![0, 24] S1024x8
  inb_S4x32x256_S1x32x256_3_0_0 : ∀ a, (![3, 0, 0] : Fin 3 → Nat) a + S1x32x256.size a ≤ S4x32x256.size a
  inb_S4x256_S1x256_3_0 : ∀ a, (![3, 0] : Fin 2 → Nat) a + S1x256.size a ≤ S4x256.size a
  inb_S4x256x256_S1x256x256_3_0_0 : ∀ a, (![3, 0, 0] : Fin 3 → Nat) a + S1x256x256.size a ≤ S4x256x256.size a
  inb_S4x256x64_S1x256x64_3_0_0 : ∀ a, (![3, 0, 0] : Fin 3 → Nat) a + S1x256x64.size a ≤ S4x256x64.size a
  inb_S4x64_S1x64_3_0 : ∀ a, (![3, 0] : Fin 2 → Nat) a + S1x64.size a ≤ S4x64.size a
  inb_S4x8x64_S1x8x64_3_0_0 : ∀ a, (![3, 0, 0] : Fin 3 → Nat) a + S1x8x64.size a ≤ S4x8x64.size a
  inb_S1024x32_S1024x1_0_24 : ∀ a, (![0, 24] : Fin 2 → Nat) a + S1024x1.size a ≤ S1024x32.size a
  inb_S1024x32_S1024x1_0_25 : ∀ a, (![0, 25] : Fin 2 → Nat) a + S1024x1.size a ≤ S1024x32.size a
  inb_S1024x32_S1024x1_0_26 : ∀ a, (![0, 26] : Fin 2 → Nat) a + S1024x1.size a ≤ S1024x32.size a
  inb_S1024x32_S1024x1_0_27 : ∀ a, (![0, 27] : Fin 2 → Nat) a + S1024x1.size a ≤ S1024x32.size a
  inb_S1024x32_S1024x1_0_28 : ∀ a, (![0, 28] : Fin 2 → Nat) a + S1024x1.size a ≤ S1024x32.size a
  inb_S1024x32_S1024x1_0_29 : ∀ a, (![0, 29] : Fin 2 → Nat) a + S1024x1.size a ≤ S1024x32.size a
  inb_S1024x32_S1024x1_0_30 : ∀ a, (![0, 30] : Fin 2 → Nat) a + S1024x1.size a ≤ S1024x32.size a
  inb_S1024x32_S1024x1_0_31 : ∀ a, (![0, 31] : Fin 2 → Nat) a + S1024x1.size a ≤ S1024x32.size a
  gather_S32x32x8_S32x2_S32x8_1_01_n_n_01_1_118_wf : GatherDims.WF S32x32x8 S32x2 S32x8 [1] [0, 1] [] [0, 1] [] 1 ![1, 1, 8]
  dot_S1024x32_S32x256_S1024x256_1_0_0_1_n_n_wf : DotDims.WF S1024x32 S32x256 S1024x256 [1] [0] [0] [1] [] []
  dot_S1024x256_S256x256_S1024x256_1_0_0_1_n_n_wf : DotDims.WF S1024x256 S256x256 S1024x256 [1] [0] [0] [1] [] []
  dot_S1024x256_S256x64_S1024x64_1_0_0_1_n_n_wf : DotDims.WF S1024x256 S256x64 S1024x64 [1] [0] [0] [1] [] []
  dot_S1024x8_S8x64_S1024x64_1_0_0_1_n_n_wf : DotDims.WF S1024x8 S8x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x32.size a ≤ S262144x32.size a
  hwx0_0 : ∀ i : grid0.Coords, EltTy.bits .f32 = 32 ∨ (Rect.block (s := S262144x32) S1024x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x32x256.size a ≤ S4x32x256.size a
  hwx0_1 : ∀ i : grid0.Coords, EltTy.bits .bf16 = 32 ∨ (Rect.block (s := S4x32x256) S4x32x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x256.size a ≤ S4x256.size a
  hwx0_2 : ∀ i : grid0.Coords, EltTy.bits .f32 = 32 ∨ (Rect.block (s := S4x256) S4x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x256x256.size a ≤ S4x256x256.size a
  hwx0_3 : ∀ i : grid0.Coords, EltTy.bits .bf16 = 32 ∨ (Rect.block (s := S4x256x256) S4x256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x256.size a ≤ S4x256.size a
  hwx0_4 : ∀ i : grid0.Coords, EltTy.bits .f32 = 32 ∨ (Rect.block (s := S4x256) S4x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x256x64.size a ≤ S4x256x64.size a
  hwx0_5 : ∀ i : grid0.Coords, EltTy.bits .bf16 = 32 ∨ (Rect.block (s := S4x256x64) S4x256x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x64.size a ≤ S4x64.size a
  hwx0_6 : ∀ i : grid0.Coords, EltTy.bits .f32 = 32 ∨ (Rect.block (s := S4x64) S4x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x8x64.size a ≤ S4x8x64.size a
  hwx0_7 : ∀ i : grid0.Coords, EltTy.bits .f32 = 32 ∨ (Rect.block (s := S4x8x64) S4x8x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x32.size a ≤ S262144x32.size a
  hwx0_8 : ∀ i : grid0.Coords, EltTy.bits .f32 = 32 ∨ (Rect.block (s := S262144x32) S1024x32.size (cc0_transform_8 i) (hinb0_8 i)).WholeWords (EltTy.packing .f32)

variable [Facts₀]

def gather_S32x32x8_S32x2_S32x8_1_01_n_n_01_1_118 : GatherDims S32x32x8 S32x2 S32x8 where
  offsetDims := [1]
  collapsedSliceDims := [0, 1]
  operandBatchingDims := []
  startIndicesBatchingDims := []
  startIndexMap := [0, 1]
  indexVectorDim := 1
  sliceSizes := ![1, 1, 8]
  wf := gather_S32x32x8_S32x2_S32x8_1_01_n_n_01_1_118_wf
def dot_S1024x32_S32x256_S1024x256_1_0_0_1_n_n : DotDims S1024x32 S32x256 S1024x256 where
  lhsContracting := [1]
  rhsContracting := [0]
  lhsNonContracting := [0]
  rhsNonContracting := [1]
  lhsBatch := []
  rhsBatch := []
  wf := dot_S1024x32_S32x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S1024x8_S8x64_S1024x64_1_0_0_1_n_n : DotDims S1024x8 S8x64 S1024x64 where
  lhsContracting := [1]
  rhsContracting := [0]
  lhsNonContracting := [0]
  rhsNonContracting := [1]
  lhsBatch := []
  rhsBatch := []
  wf := dot_S1024x8_S8x64_S1024x64_1_0_0_1_n_n_wf

abbrev win0_0 : Pipeline.Window sig grid0 :=
  Pipeline.Window.ofSpec (Memref.whole main_arg0) S1024x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S4x32x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S4x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S4x256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v43) S4x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v67) S4x256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v69) S4x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v98) S4x8x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v99) S1024x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S262144x32 : Shape := ⟨2, ![262144, 32]⟩
abbrev S32x32x32 : Shape := ⟨3, ![32, 32, 32]⟩
abbrev S32x32 : Shape := ⟨2, ![32, 32]⟩
abbrev S32x32x8 : Shape := ⟨3, ![32, 32, 8]⟩
abbrev S32x8 : Shape := ⟨2, ![32, 8]⟩
abbrev S1x1x8 : Shape := ⟨3, ![1, 1, 8]⟩
abbrev S1x8 : Shape := ⟨2, ![1, 8]⟩
abbrev S0x8 : Shape := ⟨2, ![0, 8]⟩
abbrev S262144x1 : Shape := ⟨2, ![262144, 1]⟩
abbrev S262144x8 : Shape := ⟨2, ![262144, 8]⟩
abbrev S8 : Shape := ⟨1, ![8]⟩
abbrev S262144x4x2 : Shape := ⟨3, ![262144, 4, 2]⟩
abbrev S_ : Shape := ⟨0, ![]⟩
abbrev S262144x4 : Shape := ⟨2, ![262144, 4]⟩
abbrev S262144 : Shape := ⟨1, ![262144]⟩
abbrev S1x2x8 : Shape := ⟨3, ![1, 2, 8]⟩
abbrev S2x8 : Shape := ⟨2, ![2, 8]⟩
abbrev S1x1x32 : Shape := ⟨3, ![1, 1, 32]⟩
abbrev S1x32 : Shape := ⟨2, ![1, 32]⟩
abbrev S32 : Shape := ⟨1, ![32]⟩
abbrev S1x32x1 : Shape := ⟨3, ![1, 32, 1]⟩
abbrev S32x1 : Shape := ⟨2, ![32, 1]⟩
abbrev S1x1 : Shape := ⟨2, ![1, 1]⟩
abbrev S1 : Shape := ⟨1, ![1]⟩
abbrev S262144x2 : Shape := ⟨2, ![262144, 2]⟩
abbrev S1x3x8 : Shape := ⟨3, ![1, 3, 8]⟩
abbrev S3x8 : Shape := ⟨2, ![3, 8]⟩
abbrev S1x2x32 : Shape := ⟨3, ![1, 2, 32]⟩
abbrev S2x32 : Shape := ⟨2, ![2, 32]⟩
abbrev S1x32x2 : Shape := ⟨3, ![1, 32, 2]⟩
abbrev S32x2 : Shape := ⟨2, ![32, 2]⟩
abbrev S1x2 : Shape := ⟨2, ![1, 2]⟩
abbrev S2 : Shape := ⟨1, ![2]⟩
abbrev S262144x3 : Shape := ⟨2, ![262144, 3]⟩
abbrev S1x4x8 : Shape := ⟨3, ![1, 4, 8]⟩
abbrev S4x8 : Shape := ⟨2, ![4, 8]⟩
abbrev S1x3x32 : Shape := ⟨3, ![1, 3, 32]⟩
abbrev S3x32 : Shape := ⟨2, ![3, 32]⟩
abbrev S1x32x3 : Shape := ⟨3, ![1, 32, 3]⟩
abbrev S32x3 : Shape := ⟨2, ![32, 3]⟩
abbrev S1x3 : Shape := ⟨2, ![1, 3]⟩
abbrev S3 : Shape := ⟨1, ![3]⟩
abbrev S1x5x8 : Shape := ⟨3, ![1, 5, 8]⟩
abbrev S5x8 : Shape := ⟨2, ![5, 8]⟩
abbrev S1x4x32 : Shape := ⟨3, ![1, 4, 32]⟩
abbrev S4x32 : Shape := ⟨2, ![4, 32]⟩
abbrev S1x32x4 : Shape := ⟨3, ![1, 32, 4]⟩
abbrev S32x4 : Shape := ⟨2, ![32, 4]⟩
abbrev S1x4 : Shape := ⟨2, ![1, 4]⟩
abbrev S4 : Shape := ⟨1, ![4]⟩
abbrev S262144x5 : Shape := ⟨2, ![262144, 5]⟩
abbrev S1x6x8 : Shape := ⟨3, ![1, 6, 8]⟩
abbrev S6x8 : Shape := ⟨2, ![6, 8]⟩
abbrev S1x5x32 : Shape := ⟨3, ![1, 5, 32]⟩
abbrev S5x32 : Shape := ⟨2, ![5, 32]⟩
abbrev S1x32x5 : Shape := ⟨3, ![1, 32, 5]⟩
abbrev S32x5 : Shape := ⟨2, ![32, 5]⟩
abbrev S1x5 : Shape := ⟨2, ![1, 5]⟩
abbrev S5 : Shape := ⟨1, ![5]⟩
abbrev S262144x6 : Shape := ⟨2, ![262144, 6]⟩
abbrev S1x7x8 : Shape := ⟨3, ![1, 7, 8]⟩
abbrev S7x8 : Shape := ⟨2, ![7, 8]⟩
abbrev S1x6x32 : Shape := ⟨3, ![1, 6, 32]⟩
abbrev S6x32 : Shape := ⟨2, ![6, 32]⟩
abbrev S1x32x6 : Shape := ⟨3, ![1, 32, 6]⟩
abbrev S32x6 : Shape := ⟨2, ![32, 6]⟩
abbrev S1x6 : Shape := ⟨2, ![1, 6]⟩
abbrev S6 : Shape := ⟨1, ![6]⟩
abbrev S262144x7 : Shape := ⟨2, ![262144, 7]⟩
abbrev S1x8x8 : Shape := ⟨3, ![1, 8, 8]⟩
abbrev S8x8 : Shape := ⟨2, ![8, 8]⟩
abbrev S1x7x32 : Shape := ⟨3, ![1, 7, 32]⟩
abbrev S7x32 : Shape := ⟨2, ![7, 32]⟩
abbrev S1x32x7 : Shape := ⟨3, ![1, 32, 7]⟩
abbrev S32x7 : Shape := ⟨2, ![32, 7]⟩
abbrev S1x7 : Shape := ⟨2, ![1, 7]⟩
abbrev S7 : Shape := ⟨1, ![7]⟩
abbrev S1x9x8 : Shape := ⟨3, ![1, 9, 8]⟩
abbrev S9x8 : Shape := ⟨2, ![9, 8]⟩
abbrev S1x8x32 : Shape := ⟨3, ![1, 8, 32]⟩
abbrev S8x32 : Shape := ⟨2, ![8, 32]⟩
abbrev S1x32x8 : Shape := ⟨3, ![1, 32, 8]⟩
abbrev S262144x9 : Shape := ⟨2, ![262144, 9]⟩
abbrev S1x10x8 : Shape := ⟨3, ![1, 10, 8]⟩
abbrev S10x8 : Shape := ⟨2, ![10, 8]⟩
abbrev S1x9x32 : Shape := ⟨3, ![1, 9, 32]⟩
abbrev S9x32 : Shape := ⟨2, ![9, 32]⟩
abbrev S1x32x9 : Shape := ⟨3, ![1, 32, 9]⟩
abbrev S32x9 : Shape := ⟨2, ![32, 9]⟩
abbrev S1x9 : Shape := ⟨2, ![1, 9]⟩
abbrev S9 : Shape := ⟨1, ![9]⟩
abbrev S262144x10 : Shape := ⟨2, ![262144, 10]⟩
abbrev S1x11x8 : Shape := ⟨3, ![1, 11, 8]⟩
abbrev S11x8 : Shape := ⟨2, ![11, 8]⟩
abbrev S1x10x32 : Shape := ⟨3, ![1, 10, 32]⟩
abbrev S10x32 : Shape := ⟨2, ![10, 32]⟩
abbrev S1x32x10 : Shape := ⟨3, ![1, 32, 10]⟩
abbrev S32x10 : Shape := ⟨2, ![32, 10]⟩
abbrev S1x10 : Shape := ⟨2, ![1, 10]⟩
abbrev S10 : Shape := ⟨1, ![10]⟩
abbrev S262144x11 : Shape := ⟨2, ![262144, 11]⟩
abbrev S1x12x8 : Shape := ⟨3, ![1, 12, 8]⟩
abbrev S12x8 : Shape := ⟨2, ![12, 8]⟩
abbrev S1x11x32 : Shape := ⟨3, ![1, 11, 32]⟩
abbrev S11x32 : Shape := ⟨2, ![11, 32]⟩
abbrev S1x32x11 : Shape := ⟨3, ![1, 32, 11]⟩
abbrev S32x11 : Shape := ⟨2, ![32, 11]⟩
abbrev S1x11 : Shape := ⟨2, ![1, 11]⟩
abbrev S11 : Shape := ⟨1, ![11]⟩
abbrev S262144x12 : Shape := ⟨2, ![262144, 12]⟩
abbrev S1x13x8 : Shape := ⟨3, ![1, 13, 8]⟩
abbrev S13x8 : Shape := ⟨2, ![13, 8]⟩
abbrev S1x12x32 : Shape := ⟨3, ![1, 12, 32]⟩
abbrev S12x32 : Shape := ⟨2, ![12, 32]⟩
abbrev S1x32x12 : Shape := ⟨3, ![1, 32, 12]⟩
abbrev S32x12 : Shape := ⟨2, ![32, 12]⟩
abbrev S1x12 : Shape := ⟨2, ![1, 12]⟩
abbrev S12 : Shape := ⟨1, ![12]⟩
abbrev S262144x13 : Shape := ⟨2, ![262144, 13]⟩
abbrev S1x14x8 : Shape := ⟨3, ![1, 14, 8]⟩
abbrev S14x8 : Shape := ⟨2, ![14, 8]⟩
abbrev S1x13x32 : Shape := ⟨3, ![1, 13, 32]⟩
abbrev S13x32 : Shape := ⟨2, ![13, 32]⟩
abbrev S1x32x13 : Shape := ⟨3, ![1, 32, 13]⟩
abbrev S32x13 : Shape := ⟨2, ![32, 13]⟩
abbrev S1x13 : Shape := ⟨2, ![1, 13]⟩
abbrev S13 : Shape := ⟨1, ![13]⟩
abbrev S262144x14 : Shape := ⟨2, ![262144, 14]⟩
abbrev S1x15x8 : Shape := ⟨3, ![1, 15, 8]⟩
abbrev S15x8 : Shape := ⟨2, ![15, 8]⟩
abbrev S1x14x32 : Shape := ⟨3, ![1, 14, 32]⟩
abbrev S14x32 : Shape := ⟨2, ![14, 32]⟩
abbrev S1x32x14 : Shape := ⟨3, ![1, 32, 14]⟩
abbrev S32x14 : Shape := ⟨2, ![32, 14]⟩
abbrev S1x14 : Shape := ⟨2, ![1, 14]⟩
abbrev S14 : Shape := ⟨1, ![14]⟩
abbrev S262144x15 : Shape := ⟨2, ![262144, 15]⟩
abbrev S1x16x8 : Shape := ⟨3, ![1, 16, 8]⟩
abbrev S16x8 : Shape := ⟨2, ![16, 8]⟩
abbrev S1x15x32 : Shape := ⟨3, ![1, 15, 32]⟩
abbrev S15x32 : Shape := ⟨2, ![15, 32]⟩
abbrev S1x32x15 : Shape := ⟨3, ![1, 32, 15]⟩
abbrev S32x15 : Shape := ⟨2, ![32, 15]⟩
abbrev S1x15 : Shape := ⟨2, ![1, 15]⟩
abbrev S15 : Shape := ⟨1, ![15]⟩
abbrev S262144x16 : Shape := ⟨2, ![262144, 16]⟩
abbrev S1x17x8 : Shape := ⟨3, ![1, 17, 8]⟩
abbrev S17x8 : Shape := ⟨2, ![17, 8]⟩
abbrev S1x16x32 : Shape := ⟨3, ![1, 16, 32]⟩
abbrev S16x32 : Shape := ⟨2, ![16, 32]⟩
abbrev S1x32x16 : Shape := ⟨3, ![1, 32, 16]⟩
abbrev S32x16 : Shape := ⟨2, ![32, 16]⟩
abbrev S1x16 : Shape := ⟨2, ![1, 16]⟩
abbrev S16 : Shape := ⟨1, ![16]⟩
abbrev S262144x17 : Shape := ⟨2, ![262144, 17]⟩
abbrev S1x18x8 : Shape := ⟨3, ![1, 18, 8]⟩
abbrev S18x8 : Shape := ⟨2, ![18, 8]⟩
abbrev S1x17x32 : Shape := ⟨3, ![1, 17, 32]⟩
abbrev S17x32 : Shape := ⟨2, ![17, 32]⟩
abbrev S1x32x17 : Shape := ⟨3, ![1, 32, 17]⟩
abbrev S32x17 : Shape := ⟨2, ![32, 17]⟩
abbrev S1x17 : Shape := ⟨2, ![1, 17]⟩
abbrev S17 : Shape := ⟨1, ![17]⟩
abbrev S262144x18 : Shape := ⟨2, ![262144, 18]⟩
abbrev S1x19x8 : Shape := ⟨3, ![1, 19, 8]⟩
abbrev S19x8 : Shape := ⟨2, ![19, 8]⟩
abbrev S1x18x32 : Shape := ⟨3, ![1, 18, 32]⟩
abbrev S18x32 : Shape := ⟨2, ![18, 32]⟩
abbrev S1x32x18 : Shape := ⟨3, ![1, 32, 18]⟩
abbrev S32x18 : Shape := ⟨2, ![32, 18]⟩
abbrev S1x18 : Shape := ⟨2, ![1, 18]⟩
abbrev S18 : Shape := ⟨1, ![18]⟩
abbrev S262144x19 : Shape := ⟨2, ![262144, 19]⟩
abbrev S1x20x8 : Shape := ⟨3, ![1, 20, 8]⟩
abbrev S20x8 : Shape := ⟨2, ![20, 8]⟩
abbrev S1x19x32 : Shape := ⟨3, ![1, 19, 32]⟩
abbrev S19x32 : Shape := ⟨2, ![19, 32]⟩
abbrev S1x32x19 : Shape := ⟨3, ![1, 32, 19]⟩
abbrev S32x19 : Shape := ⟨2, ![32, 19]⟩
abbrev S1x19 : Shape := ⟨2, ![1, 19]⟩
abbrev S19 : Shape := ⟨1, ![19]⟩
abbrev S262144x20 : Shape := ⟨2, ![262144, 20]⟩
abbrev S1x21x8 : Shape := ⟨3, ![1, 21, 8]⟩
abbrev S21x8 : Shape := ⟨2, ![21, 8]⟩
abbrev S1x20x32 : Shape := ⟨3, ![1, 20, 32]⟩
abbrev S20x32 : Shape := ⟨2, ![20, 32]⟩
abbrev S1x32x20 : Shape := ⟨3, ![1, 32, 20]⟩
abbrev S32x20 : Shape := ⟨2, ![32, 20]⟩
abbrev S1x20 : Shape := ⟨2, ![1, 20]⟩
abbrev S20 : Shape := ⟨1, ![20]⟩
abbrev S262144x21 : Shape := ⟨2, ![262144, 21]⟩
abbrev S1x22x8 : Shape := ⟨3, ![1, 22, 8]⟩
abbrev S22x8 : Shape := ⟨2, ![22, 8]⟩
abbrev S1x21x32 : Shape := ⟨3, ![1, 21, 32]⟩
abbrev S21x32 : Shape := ⟨2, ![21, 32]⟩
abbrev S1x32x21 : Shape := ⟨3, ![1, 32, 21]⟩
abbrev S32x21 : Shape := ⟨2, ![32, 21]⟩
abbrev S1x21 : Shape := ⟨2, ![1, 21]⟩
abbrev S21 : Shape := ⟨1, ![21]⟩
abbrev S262144x22 : Shape := ⟨2, ![262144, 22]⟩
abbrev S1x23x8 : Shape := ⟨3, ![1, 23, 8]⟩
abbrev S23x8 : Shape := ⟨2, ![23, 8]⟩
abbrev S1x22x32 : Shape := ⟨3, ![1, 22, 32]⟩
abbrev S22x32 : Shape := ⟨2, ![22, 32]⟩
abbrev S1x32x22 : Shape := ⟨3, ![1, 32, 22]⟩
abbrev S32x22 : Shape := ⟨2, ![32, 22]⟩
abbrev S1x22 : Shape := ⟨2, ![1, 22]⟩
abbrev S22 : Shape := ⟨1, ![22]⟩
abbrev S262144x23 : Shape := ⟨2, ![262144, 23]⟩
abbrev S1x24x8 : Shape := ⟨3, ![1, 24, 8]⟩
abbrev S24x8 : Shape := ⟨2, ![24, 8]⟩
abbrev S1x23x32 : Shape := ⟨3, ![1, 23, 32]⟩
abbrev S23x32 : Shape := ⟨2, ![23, 32]⟩
abbrev S1x32x23 : Shape := ⟨3, ![1, 32, 23]⟩
abbrev S32x23 : Shape := ⟨2, ![32, 23]⟩
abbrev S1x23 : Shape := ⟨2, ![1, 23]⟩
abbrev S23 : Shape := ⟨1, ![23]⟩
abbrev S262144x24 : Shape := ⟨2, ![262144, 24]⟩
abbrev S1x25x8 : Shape := ⟨3, ![1, 25, 8]⟩
abbrev S25x8 : Shape := ⟨2, ![25, 8]⟩
abbrev S1x24x32 : Shape := ⟨3, ![1, 24, 32]⟩
abbrev S24x32 : Shape := ⟨2, ![24, 32]⟩
abbrev S1x32x24 : Shape := ⟨3, ![1, 32, 24]⟩
abbrev S32x24 : Shape := ⟨2, ![32, 24]⟩
abbrev S1x24 : Shape := ⟨2, ![1, 24]⟩
abbrev S24 : Shape := ⟨1, ![24]⟩
abbrev S262144x25 : Shape := ⟨2, ![262144, 25]⟩
abbrev S1x26x8 : Shape := ⟨3, ![1, 26, 8]⟩
abbrev S26x8 : Shape := ⟨2, ![26, 8]⟩
abbrev S1x25x32 : Shape := ⟨3, ![1, 25, 32]⟩
abbrev S25x32 : Shape := ⟨2, ![25, 32]⟩
abbrev S1x32x25 : Shape := ⟨3, ![1, 32, 25]⟩
abbrev S32x25 : Shape := ⟨2, ![32, 25]⟩
abbrev S1x25 : Shape := ⟨2, ![1, 25]⟩
abbrev S25 : Shape := ⟨1, ![25]⟩
abbrev S262144x26 : Shape := ⟨2, ![262144, 26]⟩
abbrev S1x27x8 : Shape := ⟨3, ![1, 27, 8]⟩
abbrev S27x8 : Shape := ⟨2, ![27, 8]⟩
abbrev S1x26x32 : Shape := ⟨3, ![1, 26, 32]⟩
abbrev S26x32 : Shape := ⟨2, ![26, 32]⟩
abbrev S1x32x26 : Shape := ⟨3, ![1, 32, 26]⟩
abbrev S32x26 : Shape := ⟨2, ![32, 26]⟩
abbrev S1x26 : Shape := ⟨2, ![1, 26]⟩
abbrev S26 : Shape := ⟨1, ![26]⟩
abbrev S262144x27 : Shape := ⟨2, ![262144, 27]⟩
abbrev S1x28x8 : Shape := ⟨3, ![1, 28, 8]⟩
abbrev S28x8 : Shape := ⟨2, ![28, 8]⟩
abbrev S1x27x32 : Shape := ⟨3, ![1, 27, 32]⟩
abbrev S27x32 : Shape := ⟨2, ![27, 32]⟩
abbrev S1x32x27 : Shape := ⟨3, ![1, 32, 27]⟩
abbrev S32x27 : Shape := ⟨2, ![32, 27]⟩
abbrev S1x27 : Shape := ⟨2, ![1, 27]⟩
abbrev S27 : Shape := ⟨1, ![27]⟩
abbrev S262144x28 : Shape := ⟨2, ![262144, 28]⟩
abbrev S1x29x8 : Shape := ⟨3, ![1, 29, 8]⟩
abbrev S29x8 : Shape := ⟨2, ![29, 8]⟩
abbrev S1x28x32 : Shape := ⟨3, ![1, 28, 32]⟩
abbrev S28x32 : Shape := ⟨2, ![28, 32]⟩
abbrev S1x32x28 : Shape := ⟨3, ![1, 32, 28]⟩
abbrev S32x28 : Shape := ⟨2, ![32, 28]⟩
abbrev S1x28 : Shape := ⟨2, ![1, 28]⟩
abbrev S28 : Shape := ⟨1, ![28]⟩
abbrev S262144x29 : Shape := ⟨2, ![262144, 29]⟩
abbrev S1x30x8 : Shape := ⟨3, ![1, 30, 8]⟩
abbrev S30x8 : Shape := ⟨2, ![30, 8]⟩
abbrev S1x29x32 : Shape := ⟨3, ![1, 29, 32]⟩
abbrev S29x32 : Shape := ⟨2, ![29, 32]⟩
abbrev S1x32x29 : Shape := ⟨3, ![1, 32, 29]⟩
abbrev S32x29 : Shape := ⟨2, ![32, 29]⟩
abbrev S1x29 : Shape := ⟨2, ![1, 29]⟩
abbrev S29 : Shape := ⟨1, ![29]⟩
abbrev S262144x30 : Shape := ⟨2, ![262144, 30]⟩
abbrev S1x31x8 : Shape := ⟨3, ![1, 31, 8]⟩
abbrev S31x8 : Shape := ⟨2, ![31, 8]⟩
abbrev S1x30x32 : Shape := ⟨3, ![1, 30, 32]⟩
abbrev S30x32 : Shape := ⟨2, ![30, 32]⟩
abbrev S1x32x30 : Shape := ⟨3, ![1, 32, 30]⟩
abbrev S32x30 : Shape := ⟨2, ![32, 30]⟩
abbrev S1x30 : Shape := ⟨2, ![1, 30]⟩
abbrev S30 : Shape := ⟨1, ![30]⟩
abbrev S262144x31 : Shape := ⟨2, ![262144, 31]⟩
abbrev S1x31x32 : Shape := ⟨3, ![1, 31, 32]⟩
abbrev S31x32 : Shape := ⟨2, ![31, 32]⟩
abbrev S1x32x31 : Shape := ⟨3, ![1, 32, 31]⟩
abbrev S32x31 : Shape := ⟨2, ![32, 31]⟩
abbrev S1x31 : Shape := ⟨2, ![1, 31]⟩
abbrev S31 : Shape := ⟨1, ![31]⟩

abbrev nBuf : Space → Nat
  | .hbm => 1361
  | .vmem => 0
  | .smem => 0
  | _ => 0

abbrev hbmTy0_0 (i : Nat) : BufTy := match i % 128 with
  | 0 => ⟨S262144x32, .f32⟩
  | 1 => ⟨S32x32x32, .f32⟩
  | 2 => ⟨S32x32, .f32⟩
  | 3 => ⟨S32x32x32, .f32⟩
  | 4 => ⟨S32x32, .f32⟩
  | 5 => ⟨S32x32x8, .f32⟩
  | 6 => ⟨S32x8, .f32⟩
  | 7 => ⟨S1x1x8, .f32⟩
  | 8 => ⟨S1x8, .f32⟩
  | 9 => ⟨S0x8, .f32⟩
  | 10 => ⟨S1x8, .f32⟩
  | 11 => ⟨S1x8, .f32⟩
  | 12 => ⟨S262144x1, .f32⟩
  | 13 => ⟨S262144x8, .f32⟩
  | 14 => ⟨S1x8, .f32⟩
  | 15 => ⟨S8, .f32⟩
  | 16 => ⟨S1x8, .f32⟩
  | 17 => ⟨S262144x8, .f32⟩
  | 18 => ⟨S262144x8, .f32⟩
  | 19 => ⟨S262144x4x2, .f32⟩
  | 20 => ⟨S_, .f32⟩
  | 21 => ⟨S262144x4, .f32⟩
  | 22 => ⟨S_, .f32⟩
  | 23 => ⟨S262144, .f32⟩
  | 24 => ⟨S262144x1, .f32⟩
  | 25 => ⟨S1x2x8, .f32⟩
  | 26 => ⟨S2x8, .f32⟩
  | 27 => ⟨S1x8, .f32⟩
  | 28 => ⟨S1x8, .f32⟩
  | 29 => ⟨S1x8, .f32⟩
  | 30 => ⟨S2x8, .f32⟩
  | 31 => ⟨S262144x1, .f32⟩
  | 32 => ⟨S1x1x32, .f32⟩
  | 33 => ⟨S1x32, .f32⟩
  | 34 => ⟨S262144x32, .f32⟩
  | 35 => ⟨S1x32, .f32⟩
  | 36 => ⟨S32, .f32⟩
  | 37 => ⟨S1x32, .f32⟩
  | 38 => ⟨S262144x32, .f32⟩
  | 39 => ⟨S262144x32, .f32⟩
  | 40 => ⟨S_, .f32⟩
  | 41 => ⟨S262144x32, .f32⟩
  | 42 => ⟨S262144x32, .f32⟩
  | 43 => ⟨S1x32x1, .f32⟩
  | 44 => ⟨S32x1, .f32⟩
  | 45 => ⟨S262144x1, .f32⟩
  | 46 => ⟨S1x1, .f32⟩
  | 47 => ⟨S1, .f32⟩
  | 48 => ⟨S1x1, .f32⟩
  | 49 => ⟨S262144x1, .f32⟩
  | 50 => ⟨S262144x1, .f32⟩
  | 51 => ⟨S_, .f32⟩
  | 52 => ⟨S262144x1, .f32⟩
  | 53 => ⟨S262144x1, .f32⟩
  | 54 => ⟨S262144x1, .f32⟩
  | 55 => ⟨S262144x2, .f32⟩
  | 56 => ⟨S262144x8, .f32⟩
  | 57 => ⟨S1x8, .f32⟩
  | 58 => ⟨S8, .f32⟩
  | 59 => ⟨S1x8, .f32⟩
  | 60 => ⟨S262144x8, .f32⟩
  | 61 => ⟨S262144x8, .f32⟩
  | 62 => ⟨S262144x4x2, .f32⟩
  | 63 => ⟨S_, .f32⟩
  | 64 => ⟨S262144x4, .f32⟩
  | 65 => ⟨S_, .f32⟩
  | 66 => ⟨S262144, .f32⟩
  | 67 => ⟨S262144x1, .f32⟩
  | 68 => ⟨S1x3x8, .f32⟩
  | 69 => ⟨S3x8, .f32⟩
  | 70 => ⟨S2x8, .f32⟩
  | 71 => ⟨S1x8, .f32⟩
  | 72 => ⟨S1x8, .f32⟩
  | 73 => ⟨S3x8, .f32⟩
  | 74 => ⟨S262144x2, .f32⟩
  | 75 => ⟨S1x2x32, .f32⟩
  | 76 => ⟨S2x32, .f32⟩
  | 77 => ⟨S262144x32, .f32⟩
  | 78 => ⟨S1x32, .f32⟩
  | 79 => ⟨S32, .f32⟩
  | 80 => ⟨S1x32, .f32⟩
  | 81 => ⟨S262144x32, .f32⟩
  | 82 => ⟨S262144x32, .f32⟩
  | 83 => ⟨S_, .f32⟩
  | 84 => ⟨S262144x32, .f32⟩
  | 85 => ⟨S262144x32, .f32⟩
  | 86 => ⟨S1x32x2, .f32⟩
  | 87 => ⟨S32x2, .f32⟩
  | 88 => ⟨S262144x2, .f32⟩
  | 89 => ⟨S1x2, .f32⟩
  | 90 => ⟨S2, .f32⟩
  | 91 => ⟨S1x2, .f32⟩
  | 92 => ⟨S262144x2, .f32⟩
  | 93 => ⟨S262144x2, .f32⟩
  | 94 => ⟨S_, .f32⟩
  | 95 => ⟨S262144x2, .f32⟩
  | 96 => ⟨S262144x2, .f32⟩
  | 97 => ⟨S262144x1, .f32⟩
  | 98 => ⟨S262144x3, .f32⟩
  | 99 => ⟨S262144x8, .f32⟩
  | 100 => ⟨S1x8, .f32⟩
  | 101 => ⟨S8, .f32⟩
  | 102 => ⟨S1x8, .f32⟩
  | 103 => ⟨S262144x8, .f32⟩
  | 104 => ⟨S262144x8, .f32⟩
  | 105 => ⟨S262144x4x2, .f32⟩
  | 106 => ⟨S_, .f32⟩
  | 107 => ⟨S262144x4, .f32⟩
  | 108 => ⟨S_, .f32⟩
  | 109 => ⟨S262144, .f32⟩
  | 110 => ⟨S262144x1, .f32⟩
  | 111 => ⟨S1x4x8, .f32⟩
  | 112 => ⟨S4x8, .f32⟩
  | 113 => ⟨S3x8, .f32⟩
  | 114 => ⟨S1x8, .f32⟩
  | 115 => ⟨S1x8, .f32⟩
  | 116 => ⟨S4x8, .f32⟩
  | 117 => ⟨S262144x3, .f32⟩
  | 118 => ⟨S1x3x32, .f32⟩
  | 119 => ⟨S3x32, .f32⟩
  | 120 => ⟨S262144x32, .f32⟩
  | 121 => ⟨S1x32, .f32⟩
  | 122 => ⟨S32, .f32⟩
  | 123 => ⟨S1x32, .f32⟩
  | 124 => ⟨S262144x32, .f32⟩
  | 125 => ⟨S262144x32, .f32⟩
  | 126 => ⟨S_, .f32⟩
  | 127 => ⟨S262144x32, .f32⟩
  | _ => ⟨S262144x32, .f32⟩

abbrev hbmTy0_1 (i : Nat) : BufTy := match i % 128 with
  | 0 => ⟨S262144x32, .f32⟩
  | 1 => ⟨S1x32x3, .f32⟩
  | 2 => ⟨S32x3, .f32⟩
  | 3 => ⟨S262144x3, .f32⟩
  | 4 => ⟨S1x3, .f32⟩
  | 5 => ⟨S3, .f32⟩
  | 6 => ⟨S1x3, .f32⟩
  | 7 => ⟨S262144x3, .f32⟩
  | 8 => ⟨S262144x3, .f32⟩
  | 9 => ⟨S_, .f32⟩
  | 10 => ⟨S262144x3, .f32⟩
  | 11 => ⟨S262144x3, .f32⟩
  | 12 => ⟨S262144x1, .f32⟩
  | 13 => ⟨S262144x4, .f32⟩
  | 14 => ⟨S262144x8, .f32⟩
  | 15 => ⟨S1x8, .f32⟩
  | 16 => ⟨S8, .f32⟩
  | 17 => ⟨S1x8, .f32⟩
  | 18 => ⟨S262144x8, .f32⟩
  | 19 => ⟨S262144x8, .f32⟩
  | 20 => ⟨S262144x4x2, .f32⟩
  | 21 => ⟨S_, .f32⟩
  | 22 => ⟨S262144x4, .f32⟩
  | 23 => ⟨S_, .f32⟩
  | 24 => ⟨S262144, .f32⟩
  | 25 => ⟨S262144x1, .f32⟩
  | 26 => ⟨S1x5x8, .f32⟩
  | 27 => ⟨S5x8, .f32⟩
  | 28 => ⟨S4x8, .f32⟩
  | 29 => ⟨S1x8, .f32⟩
  | 30 => ⟨S1x8, .f32⟩
  | 31 => ⟨S5x8, .f32⟩
  | 32 => ⟨S262144x4, .f32⟩
  | 33 => ⟨S1x4x32, .f32⟩
  | 34 => ⟨S4x32, .f32⟩
  | 35 => ⟨S262144x32, .f32⟩
  | 36 => ⟨S1x32, .f32⟩
  | 37 => ⟨S32, .f32⟩
  | 38 => ⟨S1x32, .f32⟩
  | 39 => ⟨S262144x32, .f32⟩
  | 40 => ⟨S262144x32, .f32⟩
  | 41 => ⟨S_, .f32⟩
  | 42 => ⟨S262144x32, .f32⟩
  | 43 => ⟨S262144x32, .f32⟩
  | 44 => ⟨S1x32x4, .f32⟩
  | 45 => ⟨S32x4, .f32⟩
  | 46 => ⟨S262144x4, .f32⟩
  | 47 => ⟨S1x4, .f32⟩
  | 48 => ⟨S4, .f32⟩
  | 49 => ⟨S1x4, .f32⟩
  | 50 => ⟨S262144x4, .f32⟩
  | 51 => ⟨S262144x4, .f32⟩
  | 52 => ⟨S_, .f32⟩
  | 53 => ⟨S262144x4, .f32⟩
  | 54 => ⟨S262144x4, .f32⟩
  | 55 => ⟨S262144x1, .f32⟩
  | 56 => ⟨S262144x5, .f32⟩
  | 57 => ⟨S262144x8, .f32⟩
  | 58 => ⟨S1x8, .f32⟩
  | 59 => ⟨S8, .f32⟩
  | 60 => ⟨S1x8, .f32⟩
  | 61 => ⟨S262144x8, .f32⟩
  | 62 => ⟨S262144x8, .f32⟩
  | 63 => ⟨S262144x4x2, .f32⟩
  | 64 => ⟨S_, .f32⟩
  | 65 => ⟨S262144x4, .f32⟩
  | 66 => ⟨S_, .f32⟩
  | 67 => ⟨S262144, .f32⟩
  | 68 => ⟨S262144x1, .f32⟩
  | 69 => ⟨S1x6x8, .f32⟩
  | 70 => ⟨S6x8, .f32⟩
  | 71 => ⟨S5x8, .f32⟩
  | 72 => ⟨S1x8, .f32⟩
  | 73 => ⟨S1x8, .f32⟩
  | 74 => ⟨S6x8, .f32⟩
  | 75 => ⟨S262144x5, .f32⟩
  | 76 => ⟨S1x5x32, .f32⟩
  | 77 => ⟨S5x32, .f32⟩
  | 78 => ⟨S262144x32, .f32⟩
  | 79 => ⟨S1x32, .f32⟩
  | 80 => ⟨S32, .f32⟩
  | 81 => ⟨S1x32, .f32⟩
  | 82 => ⟨S262144x32, .f32⟩
  | 83 => ⟨S262144x32, .f32⟩
  | 84 => ⟨S_, .f32⟩
  | 85 => ⟨S262144x32, .f32⟩
  | 86 => ⟨S262144x32, .f32⟩
  | 87 => ⟨S1x32x5, .f32⟩
  | 88 => ⟨S32x5, .f32⟩
  | 89 => ⟨S262144x5, .f32⟩
  | 90 => ⟨S1x5, .f32⟩
  | 91 => ⟨S5, .f32⟩
  | 92 => ⟨S1x5, .f32⟩
  | 93 => ⟨S262144x5, .f32⟩
  | 94 => ⟨S262144x5, .f32⟩
  | 95 => ⟨S_, .f32⟩
  | 96 => ⟨S262144x5, .f32⟩
  | 97 => ⟨S262144x5, .f32⟩
  | 98 => ⟨S262144x1, .f32⟩
  | 99 => ⟨S262144x6, .f32⟩
  | 100 => ⟨S262144x8, .f32⟩
  | 101 => ⟨S1x8, .f32⟩
  | 102 => ⟨S8, .f32⟩
  | 103 => ⟨S1x8, .f32⟩
  | 104 => ⟨S262144x8, .f32⟩
  | 105 => ⟨S262144x8, .f32⟩
  | 106 => ⟨S262144x4x2, .f32⟩
  | 107 => ⟨S_, .f32⟩
  | 108 => ⟨S262144x4, .f32⟩
  | 109 => ⟨S_, .f32⟩
  | 110 => ⟨S262144, .f32⟩
  | 111 => ⟨S262144x1, .f32⟩
  | 112 => ⟨S1x7x8, .f32⟩
  | 113 => ⟨S7x8, .f32⟩
  | 114 => ⟨S6x8, .f32⟩
  | 115 => ⟨S1x8, .f32⟩
  | 116 => ⟨S1x8, .f32⟩
  | 117 => ⟨S7x8, .f32⟩
  | 118 => ⟨S262144x6, .f32⟩
  | 119 => ⟨S1x6x32, .f32⟩
  | 120 => ⟨S6x32, .f32⟩
  | 121 => ⟨S262144x32, .f32⟩
  | 122 => ⟨S1x32, .f32⟩
  | 123 => ⟨S32, .f32⟩
  | 124 => ⟨S1x32, .f32⟩
  | 125 => ⟨S262144x32, .f32⟩
  | 126 => ⟨S262144x32, .f32⟩
  | 127 => ⟨S_, .f32⟩
  | _ => ⟨S262144x32, .f32⟩

abbrev hbmTy0_2 (i : Nat) : BufTy := match i % 128 with
  | 0 => ⟨S262144x32, .f32⟩
  | 1 => ⟨S262144x32, .f32⟩
  | 2 => ⟨S1x32x6, .f32⟩
  | 3 => ⟨S32x6, .f32⟩
  | 4 => ⟨S262144x6, .f32⟩
  | 5 => ⟨S1x6, .f32⟩
  | 6 => ⟨S6, .f32⟩
  | 7 => ⟨S1x6, .f32⟩
  | 8 => ⟨S262144x6, .f32⟩
  | 9 => ⟨S262144x6, .f32⟩
  | 10 => ⟨S_, .f32⟩
  | 11 => ⟨S262144x6, .f32⟩
  | 12 => ⟨S262144x6, .f32⟩
  | 13 => ⟨S262144x1, .f32⟩
  | 14 => ⟨S262144x7, .f32⟩
  | 15 => ⟨S262144x8, .f32⟩
  | 16 => ⟨S1x8, .f32⟩
  | 17 => ⟨S8, .f32⟩
  | 18 => ⟨S1x8, .f32⟩
  | 19 => ⟨S262144x8, .f32⟩
  | 20 => ⟨S262144x8, .f32⟩
  | 21 => ⟨S262144x4x2, .f32⟩
  | 22 => ⟨S_, .f32⟩
  | 23 => ⟨S262144x4, .f32⟩
  | 24 => ⟨S_, .f32⟩
  | 25 => ⟨S262144, .f32⟩
  | 26 => ⟨S262144x1, .f32⟩
  | 27 => ⟨S1x8x8, .f32⟩
  | 28 => ⟨S8x8, .f32⟩
  | 29 => ⟨S7x8, .f32⟩
  | 30 => ⟨S1x8, .f32⟩
  | 31 => ⟨S1x8, .f32⟩
  | 32 => ⟨S8x8, .f32⟩
  | 33 => ⟨S262144x7, .f32⟩
  | 34 => ⟨S1x7x32, .f32⟩
  | 35 => ⟨S7x32, .f32⟩
  | 36 => ⟨S262144x32, .f32⟩
  | 37 => ⟨S1x32, .f32⟩
  | 38 => ⟨S32, .f32⟩
  | 39 => ⟨S1x32, .f32⟩
  | 40 => ⟨S262144x32, .f32⟩
  | 41 => ⟨S262144x32, .f32⟩
  | 42 => ⟨S_, .f32⟩
  | 43 => ⟨S262144x32, .f32⟩
  | 44 => ⟨S262144x32, .f32⟩
  | 45 => ⟨S1x32x7, .f32⟩
  | 46 => ⟨S32x7, .f32⟩
  | 47 => ⟨S262144x7, .f32⟩
  | 48 => ⟨S1x7, .f32⟩
  | 49 => ⟨S7, .f32⟩
  | 50 => ⟨S1x7, .f32⟩
  | 51 => ⟨S262144x7, .f32⟩
  | 52 => ⟨S262144x7, .f32⟩
  | 53 => ⟨S_, .f32⟩
  | 54 => ⟨S262144x7, .f32⟩
  | 55 => ⟨S262144x7, .f32⟩
  | 56 => ⟨S262144x1, .f32⟩
  | 57 => ⟨S262144x8, .f32⟩
  | 58 => ⟨S262144x8, .f32⟩
  | 59 => ⟨S1x8, .f32⟩
  | 60 => ⟨S8, .f32⟩
  | 61 => ⟨S1x8, .f32⟩
  | 62 => ⟨S262144x8, .f32⟩
  | 63 => ⟨S262144x8, .f32⟩
  | 64 => ⟨S262144x4x2, .f32⟩
  | 65 => ⟨S_, .f32⟩
  | 66 => ⟨S262144x4, .f32⟩
  | 67 => ⟨S_, .f32⟩
  | 68 => ⟨S262144, .f32⟩
  | 69 => ⟨S262144x1, .f32⟩
  | 70 => ⟨S1x9x8, .f32⟩
  | 71 => ⟨S9x8, .f32⟩
  | 72 => ⟨S8x8, .f32⟩
  | 73 => ⟨S1x8, .f32⟩
  | 74 => ⟨S1x8, .f32⟩
  | 75 => ⟨S9x8, .f32⟩
  | 76 => ⟨S262144x8, .f32⟩
  | 77 => ⟨S1x8x32, .f32⟩
  | 78 => ⟨S8x32, .f32⟩
  | 79 => ⟨S262144x32, .f32⟩
  | 80 => ⟨S1x32, .f32⟩
  | 81 => ⟨S32, .f32⟩
  | 82 => ⟨S1x32, .f32⟩
  | 83 => ⟨S262144x32, .f32⟩
  | 84 => ⟨S262144x32, .f32⟩
  | 85 => ⟨S_, .f32⟩
  | 86 => ⟨S262144x32, .f32⟩
  | 87 => ⟨S262144x32, .f32⟩
  | 88 => ⟨S1x32x8, .f32⟩
  | 89 => ⟨S32x8, .f32⟩
  | 90 => ⟨S262144x8, .f32⟩
  | 91 => ⟨S1x8, .f32⟩
  | 92 => ⟨S8, .f32⟩
  | 93 => ⟨S1x8, .f32⟩
  | 94 => ⟨S262144x8, .f32⟩
  | 95 => ⟨S262144x8, .f32⟩
  | 96 => ⟨S_, .f32⟩
  | 97 => ⟨S262144x8, .f32⟩
  | 98 => ⟨S262144x8, .f32⟩
  | 99 => ⟨S262144x1, .f32⟩
  | 100 => ⟨S262144x9, .f32⟩
  | 101 => ⟨S262144x8, .f32⟩
  | 102 => ⟨S1x8, .f32⟩
  | 103 => ⟨S8, .f32⟩
  | 104 => ⟨S1x8, .f32⟩
  | 105 => ⟨S262144x8, .f32⟩
  | 106 => ⟨S262144x8, .f32⟩
  | 107 => ⟨S262144x4x2, .f32⟩
  | 108 => ⟨S_, .f32⟩
  | 109 => ⟨S262144x4, .f32⟩
  | 110 => ⟨S_, .f32⟩
  | 111 => ⟨S262144, .f32⟩
  | 112 => ⟨S262144x1, .f32⟩
  | 113 => ⟨S1x10x8, .f32⟩
  | 114 => ⟨S10x8, .f32⟩
  | 115 => ⟨S9x8, .f32⟩
  | 116 => ⟨S1x8, .f32⟩
  | 117 => ⟨S1x8, .f32⟩
  | 118 => ⟨S10x8, .f32⟩
  | 119 => ⟨S262144x9, .f32⟩
  | 120 => ⟨S1x9x32, .f32⟩
  | 121 => ⟨S9x32, .f32⟩
  | 122 => ⟨S262144x32, .f32⟩
  | 123 => ⟨S1x32, .f32⟩
  | 124 => ⟨S32, .f32⟩
  | 125 => ⟨S1x32, .f32⟩
  | 126 => ⟨S262144x32, .f32⟩
  | 127 => ⟨S262144x32, .f32⟩
  | _ => ⟨S262144x32, .f32⟩

abbrev hbmTy0_3 (i : Nat) : BufTy := match i % 128 with
  | 0 => ⟨S_, .f32⟩
  | 1 => ⟨S262144x32, .f32⟩
  | 2 => ⟨S262144x32, .f32⟩
  | 3 => ⟨S1x32x9, .f32⟩
  | 4 => ⟨S32x9, .f32⟩
  | 5 => ⟨S262144x9, .f32⟩
  | 6 => ⟨S1x9, .f32⟩
  | 7 => ⟨S9, .f32⟩
  | 8 => ⟨S1x9, .f32⟩
  | 9 => ⟨S262144x9, .f32⟩
  | 10 => ⟨S262144x9, .f32⟩
  | 11 => ⟨S_, .f32⟩
  | 12 => ⟨S262144x9, .f32⟩
  | 13 => ⟨S262144x9, .f32⟩
  | 14 => ⟨S262144x1, .f32⟩
  | 15 => ⟨S262144x10, .f32⟩
  | 16 => ⟨S262144x8, .f32⟩
  | 17 => ⟨S1x8, .f32⟩
  | 18 => ⟨S8, .f32⟩
  | 19 => ⟨S1x8, .f32⟩
  | 20 => ⟨S262144x8, .f32⟩
  | 21 => ⟨S262144x8, .f32⟩
  | 22 => ⟨S262144x4x2, .f32⟩
  | 23 => ⟨S_, .f32⟩
  | 24 => ⟨S262144x4, .f32⟩
  | 25 => ⟨S_, .f32⟩
  | 26 => ⟨S262144, .f32⟩
  | 27 => ⟨S262144x1, .f32⟩
  | 28 => ⟨S1x11x8, .f32⟩
  | 29 => ⟨S11x8, .f32⟩
  | 30 => ⟨S10x8, .f32⟩
  | 31 => ⟨S1x8, .f32⟩
  | 32 => ⟨S1x8, .f32⟩
  | 33 => ⟨S11x8, .f32⟩
  | 34 => ⟨S262144x10, .f32⟩
  | 35 => ⟨S1x10x32, .f32⟩
  | 36 => ⟨S10x32, .f32⟩
  | 37 => ⟨S262144x32, .f32⟩
  | 38 => ⟨S1x32, .f32⟩
  | 39 => ⟨S32, .f32⟩
  | 40 => ⟨S1x32, .f32⟩
  | 41 => ⟨S262144x32, .f32⟩
  | 42 => ⟨S262144x32, .f32⟩
  | 43 => ⟨S_, .f32⟩
  | 44 => ⟨S262144x32, .f32⟩
  | 45 => ⟨S262144x32, .f32⟩
  | 46 => ⟨S1x32x10, .f32⟩
  | 47 => ⟨S32x10, .f32⟩
  | 48 => ⟨S262144x10, .f32⟩
  | 49 => ⟨S1x10, .f32⟩
  | 50 => ⟨S10, .f32⟩
  | 51 => ⟨S1x10, .f32⟩
  | 52 => ⟨S262144x10, .f32⟩
  | 53 => ⟨S262144x10, .f32⟩
  | 54 => ⟨S_, .f32⟩
  | 55 => ⟨S262144x10, .f32⟩
  | 56 => ⟨S262144x10, .f32⟩
  | 57 => ⟨S262144x1, .f32⟩
  | 58 => ⟨S262144x11, .f32⟩
  | 59 => ⟨S262144x8, .f32⟩
  | 60 => ⟨S1x8, .f32⟩
  | 61 => ⟨S8, .f32⟩
  | 62 => ⟨S1x8, .f32⟩
  | 63 => ⟨S262144x8, .f32⟩
  | 64 => ⟨S262144x8, .f32⟩
  | 65 => ⟨S262144x4x2, .f32⟩
  | 66 => ⟨S_, .f32⟩
  | 67 => ⟨S262144x4, .f32⟩
  | 68 => ⟨S_, .f32⟩
  | 69 => ⟨S262144, .f32⟩
  | 70 => ⟨S262144x1, .f32⟩
  | 71 => ⟨S1x12x8, .f32⟩
  | 72 => ⟨S12x8, .f32⟩
  | 73 => ⟨S11x8, .f32⟩
  | 74 => ⟨S1x8, .f32⟩
  | 75 => ⟨S1x8, .f32⟩
  | 76 => ⟨S12x8, .f32⟩
  | 77 => ⟨S262144x11, .f32⟩
  | 78 => ⟨S1x11x32, .f32⟩
  | 79 => ⟨S11x32, .f32⟩
  | 80 => ⟨S262144x32, .f32⟩
  | 81 => ⟨S1x32, .f32⟩
  | 82 => ⟨S32, .f32⟩
  | 83 => ⟨S1x32, .f32⟩
  | 84 => ⟨S262144x32, .f32⟩
  | 85 => ⟨S262144x32, .f32⟩
  | 86 => ⟨S_, .f32⟩
  | 87 => ⟨S262144x32, .f32⟩
  | 88 => ⟨S262144x32, .f32⟩
  | 89 => ⟨S1x32x11, .f32⟩
  | 90 => ⟨S32x11, .f32⟩
  | 91 => ⟨S262144x11, .f32⟩
  | 92 => ⟨S1x11, .f32⟩
  | 93 => ⟨S11, .f32⟩
  | 94 => ⟨S1x11, .f32⟩
  | 95 => ⟨S262144x11, .f32⟩
  | 96 => ⟨S262144x11, .f32⟩
  | 97 => ⟨S_, .f32⟩
  | 98 => ⟨S262144x11, .f32⟩
  | 99 => ⟨S262144x11, .f32⟩
  | 100 => ⟨S262144x1, .f32⟩
  | 101 => ⟨S262144x12, .f32⟩
  | 102 => ⟨S262144x8, .f32⟩
  | 103 => ⟨S1x8, .f32⟩
  | 104 => ⟨S8, .f32⟩
  | 105 => ⟨S1x8, .f32⟩
  | 106 => ⟨S262144x8, .f32⟩
  | 107 => ⟨S262144x8, .f32⟩
  | 108 => ⟨S262144x4x2, .f32⟩
  | 109 => ⟨S_, .f32⟩
  | 110 => ⟨S262144x4, .f32⟩
  | 111 => ⟨S_, .f32⟩
  | 112 => ⟨S262144, .f32⟩
  | 113 => ⟨S262144x1, .f32⟩
  | 114 => ⟨S1x13x8, .f32⟩
  | 115 => ⟨S13x8, .f32⟩
  | 116 => ⟨S12x8, .f32⟩
  | 117 => ⟨S1x8, .f32⟩
  | 118 => ⟨S1x8, .f32⟩
  | 119 => ⟨S13x8, .f32⟩
  | 120 => ⟨S262144x12, .f32⟩
  | 121 => ⟨S1x12x32, .f32⟩
  | 122 => ⟨S12x32, .f32⟩
  | 123 => ⟨S262144x32, .f32⟩
  | 124 => ⟨S1x32, .f32⟩
  | 125 => ⟨S32, .f32⟩
  | 126 => ⟨S1x32, .f32⟩
  | 127 => ⟨S262144x32, .f32⟩
  | _ => ⟨S262144x32, .f32⟩

abbrev hbmTy0_4 (i : Nat) : BufTy := match i % 128 with
  | 0 => ⟨S262144x32, .f32⟩
  | 1 => ⟨S_, .f32⟩
  | 2 => ⟨S262144x32, .f32⟩
  | 3 => ⟨S262144x32, .f32⟩
  | 4 => ⟨S1x32x12, .f32⟩
  | 5 => ⟨S32x12, .f32⟩
  | 6 => ⟨S262144x12, .f32⟩
  | 7 => ⟨S1x12, .f32⟩
  | 8 => ⟨S12, .f32⟩
  | 9 => ⟨S1x12, .f32⟩
  | 10 => ⟨S262144x12, .f32⟩
  | 11 => ⟨S262144x12, .f32⟩
  | 12 => ⟨S_, .f32⟩
  | 13 => ⟨S262144x12, .f32⟩
  | 14 => ⟨S262144x12, .f32⟩
  | 15 => ⟨S262144x1, .f32⟩
  | 16 => ⟨S262144x13, .f32⟩
  | 17 => ⟨S262144x8, .f32⟩
  | 18 => ⟨S1x8, .f32⟩
  | 19 => ⟨S8, .f32⟩
  | 20 => ⟨S1x8, .f32⟩
  | 21 => ⟨S262144x8, .f32⟩
  | 22 => ⟨S262144x8, .f32⟩
  | 23 => ⟨S262144x4x2, .f32⟩
  | 24 => ⟨S_, .f32⟩
  | 25 => ⟨S262144x4, .f32⟩
  | 26 => ⟨S_, .f32⟩
  | 27 => ⟨S262144, .f32⟩
  | 28 => ⟨S262144x1, .f32⟩
  | 29 => ⟨S1x14x8, .f32⟩
  | 30 => ⟨S14x8, .f32⟩
  | 31 => ⟨S13x8, .f32⟩
  | 32 => ⟨S1x8, .f32⟩
  | 33 => ⟨S1x8, .f32⟩
  | 34 => ⟨S14x8, .f32⟩
  | 35 => ⟨S262144x13, .f32⟩
  | 36 => ⟨S1x13x32, .f32⟩
  | 37 => ⟨S13x32, .f32⟩
  | 38 => ⟨S262144x32, .f32⟩
  | 39 => ⟨S1x32, .f32⟩
  | 40 => ⟨S32, .f32⟩
  | 41 => ⟨S1x32, .f32⟩
  | 42 => ⟨S262144x32, .f32⟩
  | 43 => ⟨S262144x32, .f32⟩
  | 44 => ⟨S_, .f32⟩
  | 45 => ⟨S262144x32, .f32⟩
  | 46 => ⟨S262144x32, .f32⟩
  | 47 => ⟨S1x32x13, .f32⟩
  | 48 => ⟨S32x13, .f32⟩
  | 49 => ⟨S262144x13, .f32⟩
  | 50 => ⟨S1x13, .f32⟩
  | 51 => ⟨S13, .f32⟩
  | 52 => ⟨S1x13, .f32⟩
  | 53 => ⟨S262144x13, .f32⟩
  | 54 => ⟨S262144x13, .f32⟩
  | 55 => ⟨S_, .f32⟩
  | 56 => ⟨S262144x13, .f32⟩
  | 57 => ⟨S262144x13, .f32⟩
  | 58 => ⟨S262144x1, .f32⟩
  | 59 => ⟨S262144x14, .f32⟩
  | 60 => ⟨S262144x8, .f32⟩
  | 61 => ⟨S1x8, .f32⟩
  | 62 => ⟨S8, .f32⟩
  | 63 => ⟨S1x8, .f32⟩
  | 64 => ⟨S262144x8, .f32⟩
  | 65 => ⟨S262144x8, .f32⟩
  | 66 => ⟨S262144x4x2, .f32⟩
  | 67 => ⟨S_, .f32⟩
  | 68 => ⟨S262144x4, .f32⟩
  | 69 => ⟨S_, .f32⟩
  | 70 => ⟨S262144, .f32⟩
  | 71 => ⟨S262144x1, .f32⟩
  | 72 => ⟨S1x15x8, .f32⟩
  | 73 => ⟨S15x8, .f32⟩
  | 74 => ⟨S14x8, .f32⟩
  | 75 => ⟨S1x8, .f32⟩
  | 76 => ⟨S1x8, .f32⟩
  | 77 => ⟨S15x8, .f32⟩
  | 78 => ⟨S262144x14, .f32⟩
  | 79 => ⟨S1x14x32, .f32⟩
  | 80 => ⟨S14x32, .f32⟩
  | 81 => ⟨S262144x32, .f32⟩
  | 82 => ⟨S1x32, .f32⟩
  | 83 => ⟨S32, .f32⟩
  | 84 => ⟨S1x32, .f32⟩
  | 85 => ⟨S262144x32, .f32⟩
  | 86 => ⟨S262144x32, .f32⟩
  | 87 => ⟨S_, .f32⟩
  | 88 => ⟨S262144x32, .f32⟩
  | 89 => ⟨S262144x32, .f32⟩
  | 90 => ⟨S1x32x14, .f32⟩
  | 91 => ⟨S32x14, .f32⟩
  | 92 => ⟨S262144x14, .f32⟩
  | 93 => ⟨S1x14, .f32⟩
  | 94 => ⟨S14, .f32⟩
  | 95 => ⟨S1x14, .f32⟩
  | 96 => ⟨S262144x14, .f32⟩
  | 97 => ⟨S262144x14, .f32⟩
  | 98 => ⟨S_, .f32⟩
  | 99 => ⟨S262144x14, .f32⟩
  | 100 => ⟨S262144x14, .f32⟩
  | 101 => ⟨S262144x1, .f32⟩
  | 102 => ⟨S262144x15, .f32⟩
  | 103 => ⟨S262144x8, .f32⟩
  | 104 => ⟨S1x8, .f32⟩
  | 105 => ⟨S8, .f32⟩
  | 106 => ⟨S1x8, .f32⟩
  | 107 => ⟨S262144x8, .f32⟩
  | 108 => ⟨S262144x8, .f32⟩
  | 109 => ⟨S262144x4x2, .f32⟩
  | 110 => ⟨S_, .f32⟩
  | 111 => ⟨S262144x4, .f32⟩
  | 112 => ⟨S_, .f32⟩
  | 113 => ⟨S262144, .f32⟩
  | 114 => ⟨S262144x1, .f32⟩
  | 115 => ⟨S1x16x8, .f32⟩
  | 116 => ⟨S16x8, .f32⟩
  | 117 => ⟨S15x8, .f32⟩
  | 118 => ⟨S1x8, .f32⟩
  | 119 => ⟨S1x8, .f32⟩
  | 120 => ⟨S16x8, .f32⟩
  | 121 => ⟨S262144x15, .f32⟩
  | 122 => ⟨S1x15x32, .f32⟩
  | 123 => ⟨S15x32, .f32⟩
  | 124 => ⟨S262144x32, .f32⟩
  | 125 => ⟨S1x32, .f32⟩
  | 126 => ⟨S32, .f32⟩
  | 127 => ⟨S1x32, .f32⟩
  | _ => ⟨S262144x32, .f32⟩

abbrev hbmTy0_5 (i : Nat) : BufTy := match i % 128 with
  | 0 => ⟨S262144x32, .f32⟩
  | 1 => ⟨S262144x32, .f32⟩
  | 2 => ⟨S_, .f32⟩
  | 3 => ⟨S262144x32, .f32⟩
  | 4 => ⟨S262144x32, .f32⟩
  | 5 => ⟨S1x32x15, .f32⟩
  | 6 => ⟨S32x15, .f32⟩
  | 7 => ⟨S262144x15, .f32⟩
  | 8 => ⟨S1x15, .f32⟩
  | 9 => ⟨S15, .f32⟩
  | 10 => ⟨S1x15, .f32⟩
  | 11 => ⟨S262144x15, .f32⟩
  | 12 => ⟨S262144x15, .f32⟩
  | 13 => ⟨S_, .f32⟩
  | 14 => ⟨S262144x15, .f32⟩
  | 15 => ⟨S262144x15, .f32⟩
  | 16 => ⟨S262144x1, .f32⟩
  | 17 => ⟨S262144x16, .f32⟩
  | 18 => ⟨S262144x8, .f32⟩
  | 19 => ⟨S1x8, .f32⟩
  | 20 => ⟨S8, .f32⟩
  | 21 => ⟨S1x8, .f32⟩
  | 22 => ⟨S262144x8, .f32⟩
  | 23 => ⟨S262144x8, .f32⟩
  | 24 => ⟨S262144x4x2, .f32⟩
  | 25 => ⟨S_, .f32⟩
  | 26 => ⟨S262144x4, .f32⟩
  | 27 => ⟨S_, .f32⟩
  | 28 => ⟨S262144, .f32⟩
  | 29 => ⟨S262144x1, .f32⟩
  | 30 => ⟨S1x17x8, .f32⟩
  | 31 => ⟨S17x8, .f32⟩
  | 32 => ⟨S16x8, .f32⟩
  | 33 => ⟨S1x8, .f32⟩
  | 34 => ⟨S1x8, .f32⟩
  | 35 => ⟨S17x8, .f32⟩
  | 36 => ⟨S262144x16, .f32⟩
  | 37 => ⟨S1x16x32, .f32⟩
  | 38 => ⟨S16x32, .f32⟩
  | 39 => ⟨S262144x32, .f32⟩
  | 40 => ⟨S1x32, .f32⟩
  | 41 => ⟨S32, .f32⟩
  | 42 => ⟨S1x32, .f32⟩
  | 43 => ⟨S262144x32, .f32⟩
  | 44 => ⟨S262144x32, .f32⟩
  | 45 => ⟨S_, .f32⟩
  | 46 => ⟨S262144x32, .f32⟩
  | 47 => ⟨S262144x32, .f32⟩
  | 48 => ⟨S1x32x16, .f32⟩
  | 49 => ⟨S32x16, .f32⟩
  | 50 => ⟨S262144x16, .f32⟩
  | 51 => ⟨S1x16, .f32⟩
  | 52 => ⟨S16, .f32⟩
  | 53 => ⟨S1x16, .f32⟩
  | 54 => ⟨S262144x16, .f32⟩
  | 55 => ⟨S262144x16, .f32⟩
  | 56 => ⟨S_, .f32⟩
  | 57 => ⟨S262144x16, .f32⟩
  | 58 => ⟨S262144x16, .f32⟩
  | 59 => ⟨S262144x1, .f32⟩
  | 60 => ⟨S262144x17, .f32⟩
  | 61 => ⟨S262144x8, .f32⟩
  | 62 => ⟨S1x8, .f32⟩
  | 63 => ⟨S8, .f32⟩
  | 64 => ⟨S1x8, .f32⟩
  | 65 => ⟨S262144x8, .f32⟩
  | 66 => ⟨S262144x8, .f32⟩
  | 67 => ⟨S262144x4x2, .f32⟩
  | 68 => ⟨S_, .f32⟩
  | 69 => ⟨S262144x4, .f32⟩
  | 70 => ⟨S_, .f32⟩
  | 71 => ⟨S262144, .f32⟩
  | 72 => ⟨S262144x1, .f32⟩
  | 73 => ⟨S1x18x8, .f32⟩
  | 74 => ⟨S18x8, .f32⟩
  | 75 => ⟨S17x8, .f32⟩
  | 76 => ⟨S1x8, .f32⟩
  | 77 => ⟨S1x8, .f32⟩
  | 78 => ⟨S18x8, .f32⟩
  | 79 => ⟨S262144x17, .f32⟩
  | 80 => ⟨S1x17x32, .f32⟩
  | 81 => ⟨S17x32, .f32⟩
  | 82 => ⟨S262144x32, .f32⟩
  | 83 => ⟨S1x32, .f32⟩
  | 84 => ⟨S32, .f32⟩
  | 85 => ⟨S1x32, .f32⟩
  | 86 => ⟨S262144x32, .f32⟩
  | 87 => ⟨S262144x32, .f32⟩
  | 88 => ⟨S_, .f32⟩
  | 89 => ⟨S262144x32, .f32⟩
  | 90 => ⟨S262144x32, .f32⟩
  | 91 => ⟨S1x32x17, .f32⟩
  | 92 => ⟨S32x17, .f32⟩
  | 93 => ⟨S262144x17, .f32⟩
  | 94 => ⟨S1x17, .f32⟩
  | 95 => ⟨S17, .f32⟩
  | 96 => ⟨S1x17, .f32⟩
  | 97 => ⟨S262144x17, .f32⟩
  | 98 => ⟨S262144x17, .f32⟩
  | 99 => ⟨S_, .f32⟩
  | 100 => ⟨S262144x17, .f32⟩
  | 101 => ⟨S262144x17, .f32⟩
  | 102 => ⟨S262144x1, .f32⟩
  | 103 => ⟨S262144x18, .f32⟩
  | 104 => ⟨S262144x8, .f32⟩
  | 105 => ⟨S1x8, .f32⟩
  | 106 => ⟨S8, .f32⟩
  | 107 => ⟨S1x8, .f32⟩
  | 108 => ⟨S262144x8, .f32⟩
  | 109 => ⟨S262144x8, .f32⟩
  | 110 => ⟨S262144x4x2, .f32⟩
  | 111 => ⟨S_, .f32⟩
  | 112 => ⟨S262144x4, .f32⟩
  | 113 => ⟨S_, .f32⟩
  | 114 => ⟨S262144, .f32⟩
  | 115 => ⟨S262144x1, .f32⟩
  | 116 => ⟨S1x19x8, .f32⟩
  | 117 => ⟨S19x8, .f32⟩
  | 118 => ⟨S18x8, .f32⟩
  | 119 => ⟨S1x8, .f32⟩
  | 120 => ⟨S1x8, .f32⟩
  | 121 => ⟨S19x8, .f32⟩
  | 122 => ⟨S262144x18, .f32⟩
  | 123 => ⟨S1x18x32, .f32⟩
  | 124 => ⟨S18x32, .f32⟩
  | 125 => ⟨S262144x32, .f32⟩
  | 126 => ⟨S1x32, .f32⟩
  | 127 => ⟨S32, .f32⟩
  | _ => ⟨S262144x32, .f32⟩

abbrev hbmTy0_6 (i : Nat) : BufTy := match i % 128 with
  | 0 => ⟨S1x32, .f32⟩
  | 1 => ⟨S262144x32, .f32⟩
  | 2 => ⟨S262144x32, .f32⟩
  | 3 => ⟨S_, .f32⟩
  | 4 => ⟨S262144x32, .f32⟩
  | 5 => ⟨S262144x32, .f32⟩
  | 6 => ⟨S1x32x18, .f32⟩
  | 7 => ⟨S32x18, .f32⟩
  | 8 => ⟨S262144x18, .f32⟩
  | 9 => ⟨S1x18, .f32⟩
  | 10 => ⟨S18, .f32⟩
  | 11 => ⟨S1x18, .f32⟩
  | 12 => ⟨S262144x18, .f32⟩
  | 13 => ⟨S262144x18, .f32⟩
  | 14 => ⟨S_, .f32⟩
  | 15 => ⟨S262144x18, .f32⟩
  | 16 => ⟨S262144x18, .f32⟩
  | 17 => ⟨S262144x1, .f32⟩
  | 18 => ⟨S262144x19, .f32⟩
  | 19 => ⟨S262144x8, .f32⟩
  | 20 => ⟨S1x8, .f32⟩
  | 21 => ⟨S8, .f32⟩
  | 22 => ⟨S1x8, .f32⟩
  | 23 => ⟨S262144x8, .f32⟩
  | 24 => ⟨S262144x8, .f32⟩
  | 25 => ⟨S262144x4x2, .f32⟩
  | 26 => ⟨S_, .f32⟩
  | 27 => ⟨S262144x4, .f32⟩
  | 28 => ⟨S_, .f32⟩
  | 29 => ⟨S262144, .f32⟩
  | 30 => ⟨S262144x1, .f32⟩
  | 31 => ⟨S1x20x8, .f32⟩
  | 32 => ⟨S20x8, .f32⟩
  | 33 => ⟨S19x8, .f32⟩
  | 34 => ⟨S1x8, .f32⟩
  | 35 => ⟨S1x8, .f32⟩
  | 36 => ⟨S20x8, .f32⟩
  | 37 => ⟨S262144x19, .f32⟩
  | 38 => ⟨S1x19x32, .f32⟩
  | 39 => ⟨S19x32, .f32⟩
  | 40 => ⟨S262144x32, .f32⟩
  | 41 => ⟨S1x32, .f32⟩
  | 42 => ⟨S32, .f32⟩
  | 43 => ⟨S1x32, .f32⟩
  | 44 => ⟨S262144x32, .f32⟩
  | 45 => ⟨S262144x32, .f32⟩
  | 46 => ⟨S_, .f32⟩
  | 47 => ⟨S262144x32, .f32⟩
  | 48 => ⟨S262144x32, .f32⟩
  | 49 => ⟨S1x32x19, .f32⟩
  | 50 => ⟨S32x19, .f32⟩
  | 51 => ⟨S262144x19, .f32⟩
  | 52 => ⟨S1x19, .f32⟩
  | 53 => ⟨S19, .f32⟩
  | 54 => ⟨S1x19, .f32⟩
  | 55 => ⟨S262144x19, .f32⟩
  | 56 => ⟨S262144x19, .f32⟩
  | 57 => ⟨S_, .f32⟩
  | 58 => ⟨S262144x19, .f32⟩
  | 59 => ⟨S262144x19, .f32⟩
  | 60 => ⟨S262144x1, .f32⟩
  | 61 => ⟨S262144x20, .f32⟩
  | 62 => ⟨S262144x8, .f32⟩
  | 63 => ⟨S1x8, .f32⟩
  | 64 => ⟨S8, .f32⟩
  | 65 => ⟨S1x8, .f32⟩
  | 66 => ⟨S262144x8, .f32⟩
  | 67 => ⟨S262144x8, .f32⟩
  | 68 => ⟨S262144x4x2, .f32⟩
  | 69 => ⟨S_, .f32⟩
  | 70 => ⟨S262144x4, .f32⟩
  | 71 => ⟨S_, .f32⟩
  | 72 => ⟨S262144, .f32⟩
  | 73 => ⟨S262144x1, .f32⟩
  | 74 => ⟨S1x21x8, .f32⟩
  | 75 => ⟨S21x8, .f32⟩
  | 76 => ⟨S20x8, .f32⟩
  | 77 => ⟨S1x8, .f32⟩
  | 78 => ⟨S1x8, .f32⟩
  | 79 => ⟨S21x8, .f32⟩
  | 80 => ⟨S262144x20, .f32⟩
  | 81 => ⟨S1x20x32, .f32⟩
  | 82 => ⟨S20x32, .f32⟩
  | 83 => ⟨S262144x32, .f32⟩
  | 84 => ⟨S1x32, .f32⟩
  | 85 => ⟨S32, .f32⟩
  | 86 => ⟨S1x32, .f32⟩
  | 87 => ⟨S262144x32, .f32⟩
  | 88 => ⟨S262144x32, .f32⟩
  | 89 => ⟨S_, .f32⟩
  | 90 => ⟨S262144x32, .f32⟩
  | 91 => ⟨S262144x32, .f32⟩
  | 92 => ⟨S1x32x20, .f32⟩
  | 93 => ⟨S32x20, .f32⟩
  | 94 => ⟨S262144x20, .f32⟩
  | 95 => ⟨S1x20, .f32⟩
  | 96 => ⟨S20, .f32⟩
  | 97 => ⟨S1x20, .f32⟩
  | 98 => ⟨S262144x20, .f32⟩
  | 99 => ⟨S262144x20, .f32⟩
  | 100 => ⟨S_, .f32⟩
  | 101 => ⟨S262144x20, .f32⟩
  | 102 => ⟨S262144x20, .f32⟩
  | 103 => ⟨S262144x1, .f32⟩
  | 104 => ⟨S262144x21, .f32⟩
  | 105 => ⟨S262144x8, .f32⟩
  | 106 => ⟨S1x8, .f32⟩
  | 107 => ⟨S8, .f32⟩
  | 108 => ⟨S1x8, .f32⟩
  | 109 => ⟨S262144x8, .f32⟩
  | 110 => ⟨S262144x8, .f32⟩
  | 111 => ⟨S262144x4x2, .f32⟩
  | 112 => ⟨S_, .f32⟩
  | 113 => ⟨S262144x4, .f32⟩
  | 114 => ⟨S_, .f32⟩
  | 115 => ⟨S262144, .f32⟩
  | 116 => ⟨S262144x1, .f32⟩
  | 117 => ⟨S1x22x8, .f32⟩
  | 118 => ⟨S22x8, .f32⟩
  | 119 => ⟨S21x8, .f32⟩
  | 120 => ⟨S1x8, .f32⟩
  | 121 => ⟨S1x8, .f32⟩
  | 122 => ⟨S22x8, .f32⟩
  | 123 => ⟨S262144x21, .f32⟩
  | 124 => ⟨S1x21x32, .f32⟩
  | 125 => ⟨S21x32, .f32⟩
  | 126 => ⟨S262144x32, .f32⟩
  | 127 => ⟨S1x32, .f32⟩
  | _ => ⟨S262144x32, .f32⟩

abbrev hbmTy0_7 (i : Nat) : BufTy := match i % 128 with
  | 0 => ⟨S32, .f32⟩
  | 1 => ⟨S1x32, .f32⟩
  | 2 => ⟨S262144x32, .f32⟩
  | 3 => ⟨S262144x32, .f32⟩
  | 4 => ⟨S_, .f32⟩
  | 5 => ⟨S262144x32, .f32⟩
  | 6 => ⟨S262144x32, .f32⟩
  | 7 => ⟨S1x32x21, .f32⟩
  | 8 => ⟨S32x21, .f32⟩
  | 9 => ⟨S262144x21, .f32⟩
  | 10 => ⟨S1x21, .f32⟩
  | 11 => ⟨S21, .f32⟩
  | 12 => ⟨S1x21, .f32⟩
  | 13 => ⟨S262144x21, .f32⟩
  | 14 => ⟨S262144x21, .f32⟩
  | 15 => ⟨S_, .f32⟩
  | 16 => ⟨S262144x21, .f32⟩
  | 17 => ⟨S262144x21, .f32⟩
  | 18 => ⟨S262144x1, .f32⟩
  | 19 => ⟨S262144x22, .f32⟩
  | 20 => ⟨S262144x8, .f32⟩
  | 21 => ⟨S1x8, .f32⟩
  | 22 => ⟨S8, .f32⟩
  | 23 => ⟨S1x8, .f32⟩
  | 24 => ⟨S262144x8, .f32⟩
  | 25 => ⟨S262144x8, .f32⟩
  | 26 => ⟨S262144x4x2, .f32⟩
  | 27 => ⟨S_, .f32⟩
  | 28 => ⟨S262144x4, .f32⟩
  | 29 => ⟨S_, .f32⟩
  | 30 => ⟨S262144, .f32⟩
  | 31 => ⟨S262144x1, .f32⟩
  | 32 => ⟨S1x23x8, .f32⟩
  | 33 => ⟨S23x8, .f32⟩
  | 34 => ⟨S22x8, .f32⟩
  | 35 => ⟨S1x8, .f32⟩
  | 36 => ⟨S1x8, .f32⟩
  | 37 => ⟨S23x8, .f32⟩
  | 38 => ⟨S262144x22, .f32⟩
  | 39 => ⟨S1x22x32, .f32⟩
  | 40 => ⟨S22x32, .f32⟩
  | 41 => ⟨S262144x32, .f32⟩
  | 42 => ⟨S1x32, .f32⟩
  | 43 => ⟨S32, .f32⟩
  | 44 => ⟨S1x32, .f32⟩
  | 45 => ⟨S262144x32, .f32⟩
  | 46 => ⟨S262144x32, .f32⟩
  | 47 => ⟨S_, .f32⟩
  | 48 => ⟨S262144x32, .f32⟩
  | 49 => ⟨S262144x32, .f32⟩
  | 50 => ⟨S1x32x22, .f32⟩
  | 51 => ⟨S32x22, .f32⟩
  | 52 => ⟨S262144x22, .f32⟩
  | 53 => ⟨S1x22, .f32⟩
  | 54 => ⟨S22, .f32⟩
  | 55 => ⟨S1x22, .f32⟩
  | 56 => ⟨S262144x22, .f32⟩
  | 57 => ⟨S262144x22, .f32⟩
  | 58 => ⟨S_, .f32⟩
  | 59 => ⟨S262144x22, .f32⟩
  | 60 => ⟨S262144x22, .f32⟩
  | 61 => ⟨S262144x1, .f32⟩
  | 62 => ⟨S262144x23, .f32⟩
  | 63 => ⟨S262144x8, .f32⟩
  | 64 => ⟨S1x8, .f32⟩
  | 65 => ⟨S8, .f32⟩
  | 66 => ⟨S1x8, .f32⟩
  | 67 => ⟨S262144x8, .f32⟩
  | 68 => ⟨S262144x8, .f32⟩
  | 69 => ⟨S262144x4x2, .f32⟩
  | 70 => ⟨S_, .f32⟩
  | 71 => ⟨S262144x4, .f32⟩
  | 72 => ⟨S_, .f32⟩
  | 73 => ⟨S262144, .f32⟩
  | 74 => ⟨S262144x1, .f32⟩
  | 75 => ⟨S1x24x8, .f32⟩
  | 76 => ⟨S24x8, .f32⟩
  | 77 => ⟨S23x8, .f32⟩
  | 78 => ⟨S1x8, .f32⟩
  | 79 => ⟨S1x8, .f32⟩
  | 80 => ⟨S24x8, .f32⟩
  | 81 => ⟨S262144x23, .f32⟩
  | 82 => ⟨S1x23x32, .f32⟩
  | 83 => ⟨S23x32, .f32⟩
  | 84 => ⟨S262144x32, .f32⟩
  | 85 => ⟨S1x32, .f32⟩
  | 86 => ⟨S32, .f32⟩
  | 87 => ⟨S1x32, .f32⟩
  | 88 => ⟨S262144x32, .f32⟩
  | 89 => ⟨S262144x32, .f32⟩
  | 90 => ⟨S_, .f32⟩
  | 91 => ⟨S262144x32, .f32⟩
  | 92 => ⟨S262144x32, .f32⟩
  | 93 => ⟨S1x32x23, .f32⟩
  | 94 => ⟨S32x23, .f32⟩
  | 95 => ⟨S262144x23, .f32⟩
  | 96 => ⟨S1x23, .f32⟩
  | 97 => ⟨S23, .f32⟩
  | 98 => ⟨S1x23, .f32⟩
  | 99 => ⟨S262144x23, .f32⟩
  | 100 => ⟨S262144x23, .f32⟩
  | 101 => ⟨S_, .f32⟩
  | 102 => ⟨S262144x23, .f32⟩
  | 103 => ⟨S262144x23, .f32⟩
  | 104 => ⟨S262144x1, .f32⟩
  | 105 => ⟨S262144x24, .f32⟩
  | 106 => ⟨S262144x8, .f32⟩
  | 107 => ⟨S1x8, .f32⟩
  | 108 => ⟨S8, .f32⟩
  | 109 => ⟨S1x8, .f32⟩
  | 110 => ⟨S262144x8, .f32⟩
  | 111 => ⟨S262144x8, .f32⟩
  | 112 => ⟨S262144x4x2, .f32⟩
  | 113 => ⟨S_, .f32⟩
  | 114 => ⟨S262144x4, .f32⟩
  | 115 => ⟨S_, .f32⟩
  | 116 => ⟨S262144, .f32⟩
  | 117 => ⟨S262144x1, .f32⟩
  | 118 => ⟨S1x25x8, .f32⟩
  | 119 => ⟨S25x8, .f32⟩
  | 120 => ⟨S24x8, .f32⟩
  | 121 => ⟨S1x8, .f32⟩
  | 122 => ⟨S1x8, .f32⟩
  | 123 => ⟨S25x8, .f32⟩
  | 124 => ⟨S262144x24, .f32⟩
  | 125 => ⟨S1x24x32, .f32⟩
  | 126 => ⟨S24x32, .f32⟩
  | 127 => ⟨S262144x32, .f32⟩
  | _ => ⟨S262144x32, .f32⟩

abbrev hbmTy0_8 (i : Nat) : BufTy := match i % 128 with
  | 0 => ⟨S1x32, .f32⟩
  | 1 => ⟨S32, .f32⟩
  | 2 => ⟨S1x32, .f32⟩
  | 3 => ⟨S262144x32, .f32⟩
  | 4 => ⟨S262144x32, .f32⟩
  | 5 => ⟨S_, .f32⟩
  | 6 => ⟨S262144x32, .f32⟩
  | 7 => ⟨S262144x32, .f32⟩
  | 8 => ⟨S1x32x24, .f32⟩
  | 9 => ⟨S32x24, .f32⟩
  | 10 => ⟨S262144x24, .f32⟩
  | 11 => ⟨S1x24, .f32⟩
  | 12 => ⟨S24, .f32⟩
  | 13 => ⟨S1x24, .f32⟩
  | 14 => ⟨S262144x24, .f32⟩
  | 15 => ⟨S262144x24, .f32⟩
  | 16 => ⟨S_, .f32⟩
  | 17 => ⟨S262144x24, .f32⟩
  | 18 => ⟨S262144x24, .f32⟩
  | 19 => ⟨S262144x1, .f32⟩
  | 20 => ⟨S262144x25, .f32⟩
  | 21 => ⟨S262144x8, .f32⟩
  | 22 => ⟨S1x8, .f32⟩
  | 23 => ⟨S8, .f32⟩
  | 24 => ⟨S1x8, .f32⟩
  | 25 => ⟨S262144x8, .f32⟩
  | 26 => ⟨S262144x8, .f32⟩
  | 27 => ⟨S262144x4x2, .f32⟩
  | 28 => ⟨S_, .f32⟩
  | 29 => ⟨S262144x4, .f32⟩
  | 30 => ⟨S_, .f32⟩
  | 31 => ⟨S262144, .f32⟩
  | 32 => ⟨S262144x1, .f32⟩
  | 33 => ⟨S1x26x8, .f32⟩
  | 34 => ⟨S26x8, .f32⟩
  | 35 => ⟨S25x8, .f32⟩
  | 36 => ⟨S1x8, .f32⟩
  | 37 => ⟨S1x8, .f32⟩
  | 38 => ⟨S26x8, .f32⟩
  | 39 => ⟨S262144x25, .f32⟩
  | 40 => ⟨S1x25x32, .f32⟩
  | 41 => ⟨S25x32, .f32⟩
  | 42 => ⟨S262144x32, .f32⟩
  | 43 => ⟨S1x32, .f32⟩
  | 44 => ⟨S32, .f32⟩
  | 45 => ⟨S1x32, .f32⟩
  | 46 => ⟨S262144x32, .f32⟩
  | 47 => ⟨S262144x32, .f32⟩
  | 48 => ⟨S_, .f32⟩
  | 49 => ⟨S262144x32, .f32⟩
  | 50 => ⟨S262144x32, .f32⟩
  | 51 => ⟨S1x32x25, .f32⟩
  | 52 => ⟨S32x25, .f32⟩
  | 53 => ⟨S262144x25, .f32⟩
  | 54 => ⟨S1x25, .f32⟩
  | 55 => ⟨S25, .f32⟩
  | 56 => ⟨S1x25, .f32⟩
  | 57 => ⟨S262144x25, .f32⟩
  | 58 => ⟨S262144x25, .f32⟩
  | 59 => ⟨S_, .f32⟩
  | 60 => ⟨S262144x25, .f32⟩
  | 61 => ⟨S262144x25, .f32⟩
  | 62 => ⟨S262144x1, .f32⟩
  | 63 => ⟨S262144x26, .f32⟩
  | 64 => ⟨S262144x8, .f32⟩
  | 65 => ⟨S1x8, .f32⟩
  | 66 => ⟨S8, .f32⟩
  | 67 => ⟨S1x8, .f32⟩
  | 68 => ⟨S262144x8, .f32⟩
  | 69 => ⟨S262144x8, .f32⟩
  | 70 => ⟨S262144x4x2, .f32⟩
  | 71 => ⟨S_, .f32⟩
  | 72 => ⟨S262144x4, .f32⟩
  | 73 => ⟨S_, .f32⟩
  | 74 => ⟨S262144, .f32⟩
  | 75 => ⟨S262144x1, .f32⟩
  | 76 => ⟨S1x27x8, .f32⟩
  | 77 => ⟨S27x8, .f32⟩
  | 78 => ⟨S26x8, .f32⟩
  | 79 => ⟨S1x8, .f32⟩
  | 80 => ⟨S1x8, .f32⟩
  | 81 => ⟨S27x8, .f32⟩
  | 82 => ⟨S262144x26, .f32⟩
  | 83 => ⟨S1x26x32, .f32⟩
  | 84 => ⟨S26x32, .f32⟩
  | 85 => ⟨S262144x32, .f32⟩
  | 86 => ⟨S1x32, .f32⟩
  | 87 => ⟨S32, .f32⟩
  | 88 => ⟨S1x32, .f32⟩
  | 89 => ⟨S262144x32, .f32⟩
  | 90 => ⟨S262144x32, .f32⟩
  | 91 => ⟨S_, .f32⟩
  | 92 => ⟨S262144x32, .f32⟩
  | 93 => ⟨S262144x32, .f32⟩
  | 94 => ⟨S1x32x26, .f32⟩
  | 95 => ⟨S32x26, .f32⟩
  | 96 => ⟨S262144x26, .f32⟩
  | 97 => ⟨S1x26, .f32⟩
  | 98 => ⟨S26, .f32⟩
  | 99 => ⟨S1x26, .f32⟩
  | 100 => ⟨S262144x26, .f32⟩
  | 101 => ⟨S262144x26, .f32⟩
  | 102 => ⟨S_, .f32⟩
  | 103 => ⟨S262144x26, .f32⟩
  | 104 => ⟨S262144x26, .f32⟩
  | 105 => ⟨S262144x1, .f32⟩
  | 106 => ⟨S262144x27, .f32⟩
  | 107 => ⟨S262144x8, .f32⟩
  | 108 => ⟨S1x8, .f32⟩
  | 109 => ⟨S8, .f32⟩
  | 110 => ⟨S1x8, .f32⟩
  | 111 => ⟨S262144x8, .f32⟩
  | 112 => ⟨S262144x8, .f32⟩
  | 113 => ⟨S262144x4x2, .f32⟩
  | 114 => ⟨S_, .f32⟩
  | 115 => ⟨S262144x4, .f32⟩
  | 116 => ⟨S_, .f32⟩
  | 117 => ⟨S262144, .f32⟩
  | 118 => ⟨S262144x1, .f32⟩
  | 119 => ⟨S1x28x8, .f32⟩
  | 120 => ⟨S28x8, .f32⟩
  | 121 => ⟨S27x8, .f32⟩
  | 122 => ⟨S1x8, .f32⟩
  | 123 => ⟨S1x8, .f32⟩
  | 124 => ⟨S28x8, .f32⟩
  | 125 => ⟨S262144x27, .f32⟩
  | 126 => ⟨S1x27x32, .f32⟩
  | 127 => ⟨S27x32, .f32⟩
  | _ => ⟨S262144x32, .f32⟩

abbrev hbmTy0_9 (i : Nat) : BufTy := match i % 128 with
  | 0 => ⟨S262144x32, .f32⟩
  | 1 => ⟨S1x32, .f32⟩
  | 2 => ⟨S32, .f32⟩
  | 3 => ⟨S1x32, .f32⟩
  | 4 => ⟨S262144x32, .f32⟩
  | 5 => ⟨S262144x32, .f32⟩
  | 6 => ⟨S_, .f32⟩
  | 7 => ⟨S262144x32, .f32⟩
  | 8 => ⟨S262144x32, .f32⟩
  | 9 => ⟨S1x32x27, .f32⟩
  | 10 => ⟨S32x27, .f32⟩
  | 11 => ⟨S262144x27, .f32⟩
  | 12 => ⟨S1x27, .f32⟩
  | 13 => ⟨S27, .f32⟩
  | 14 => ⟨S1x27, .f32⟩
  | 15 => ⟨S262144x27, .f32⟩
  | 16 => ⟨S262144x27, .f32⟩
  | 17 => ⟨S_, .f32⟩
  | 18 => ⟨S262144x27, .f32⟩
  | 19 => ⟨S262144x27, .f32⟩
  | 20 => ⟨S262144x1, .f32⟩
  | 21 => ⟨S262144x28, .f32⟩
  | 22 => ⟨S262144x8, .f32⟩
  | 23 => ⟨S1x8, .f32⟩
  | 24 => ⟨S8, .f32⟩
  | 25 => ⟨S1x8, .f32⟩
  | 26 => ⟨S262144x8, .f32⟩
  | 27 => ⟨S262144x8, .f32⟩
  | 28 => ⟨S262144x4x2, .f32⟩
  | 29 => ⟨S_, .f32⟩
  | 30 => ⟨S262144x4, .f32⟩
  | 31 => ⟨S_, .f32⟩
  | 32 => ⟨S262144, .f32⟩
  | 33 => ⟨S262144x1, .f32⟩
  | 34 => ⟨S1x29x8, .f32⟩
  | 35 => ⟨S29x8, .f32⟩
  | 36 => ⟨S28x8, .f32⟩
  | 37 => ⟨S1x8, .f32⟩
  | 38 => ⟨S1x8, .f32⟩
  | 39 => ⟨S29x8, .f32⟩
  | 40 => ⟨S262144x28, .f32⟩
  | 41 => ⟨S1x28x32, .f32⟩
  | 42 => ⟨S28x32, .f32⟩
  | 43 => ⟨S262144x32, .f32⟩
  | 44 => ⟨S1x32, .f32⟩
  | 45 => ⟨S32, .f32⟩
  | 46 => ⟨S1x32, .f32⟩
  | 47 => ⟨S262144x32, .f32⟩
  | 48 => ⟨S262144x32, .f32⟩
  | 49 => ⟨S_, .f32⟩
  | 50 => ⟨S262144x32, .f32⟩
  | 51 => ⟨S262144x32, .f32⟩
  | 52 => ⟨S1x32x28, .f32⟩
  | 53 => ⟨S32x28, .f32⟩
  | 54 => ⟨S262144x28, .f32⟩
  | 55 => ⟨S1x28, .f32⟩
  | 56 => ⟨S28, .f32⟩
  | 57 => ⟨S1x28, .f32⟩
  | 58 => ⟨S262144x28, .f32⟩
  | 59 => ⟨S262144x28, .f32⟩
  | 60 => ⟨S_, .f32⟩
  | 61 => ⟨S262144x28, .f32⟩
  | 62 => ⟨S262144x28, .f32⟩
  | 63 => ⟨S262144x1, .f32⟩
  | 64 => ⟨S262144x29, .f32⟩
  | 65 => ⟨S262144x8, .f32⟩
  | 66 => ⟨S1x8, .f32⟩
  | 67 => ⟨S8, .f32⟩
  | 68 => ⟨S1x8, .f32⟩
  | 69 => ⟨S262144x8, .f32⟩
  | 70 => ⟨S262144x8, .f32⟩
  | 71 => ⟨S262144x4x2, .f32⟩
  | 72 => ⟨S_, .f32⟩
  | 73 => ⟨S262144x4, .f32⟩
  | 74 => ⟨S_, .f32⟩
  | 75 => ⟨S262144, .f32⟩
  | 76 => ⟨S262144x1, .f32⟩
  | 77 => ⟨S1x30x8, .f32⟩
  | 78 => ⟨S30x8, .f32⟩
  | 79 => ⟨S29x8, .f32⟩
  | 80 => ⟨S1x8, .f32⟩
  | 81 => ⟨S1x8, .f32⟩
  | 82 => ⟨S30x8, .f32⟩
  | 83 => ⟨S262144x29, .f32⟩
  | 84 => ⟨S1x29x32, .f32⟩
  | 85 => ⟨S29x32, .f32⟩
  | 86 => ⟨S262144x32, .f32⟩
  | 87 => ⟨S1x32, .f32⟩
  | 88 => ⟨S32, .f32⟩
  | 89 => ⟨S1x32, .f32⟩
  | 90 => ⟨S262144x32, .f32⟩
  | 91 => ⟨S262144x32, .f32⟩
  | 92 => ⟨S_, .f32⟩
  | 93 => ⟨S262144x32, .f32⟩
  | 94 => ⟨S262144x32, .f32⟩
  | 95 => ⟨S1x32x29, .f32⟩
  | 96 => ⟨S32x29, .f32⟩
  | 97 => ⟨S262144x29, .f32⟩
  | 98 => ⟨S1x29, .f32⟩
  | 99 => ⟨S29, .f32⟩
  | 100 => ⟨S1x29, .f32⟩
  | 101 => ⟨S262144x29, .f32⟩
  | 102 => ⟨S262144x29, .f32⟩
  | 103 => ⟨S_, .f32⟩
  | 104 => ⟨S262144x29, .f32⟩
  | 105 => ⟨S262144x29, .f32⟩
  | 106 => ⟨S262144x1, .f32⟩
  | 107 => ⟨S262144x30, .f32⟩
  | 108 => ⟨S262144x8, .f32⟩
  | 109 => ⟨S1x8, .f32⟩
  | 110 => ⟨S8, .f32⟩
  | 111 => ⟨S1x8, .f32⟩
  | 112 => ⟨S262144x8, .f32⟩
  | 113 => ⟨S262144x8, .f32⟩
  | 114 => ⟨S262144x4x2, .f32⟩
  | 115 => ⟨S_, .f32⟩
  | 116 => ⟨S262144x4, .f32⟩
  | 117 => ⟨S_, .f32⟩
  | 118 => ⟨S262144, .f32⟩
  | 119 => ⟨S262144x1, .f32⟩
  | 120 => ⟨S1x31x8, .f32⟩
  | 121 => ⟨S31x8, .f32⟩
  | 122 => ⟨S30x8, .f32⟩
  | 123 => ⟨S1x8, .f32⟩
  | 124 => ⟨S1x8, .f32⟩
  | 125 => ⟨S31x8, .f32⟩
  | 126 => ⟨S262144x30, .f32⟩
  | 127 => ⟨S1x30x32, .f32⟩
  | _ => ⟨S262144x32, .f32⟩

abbrev hbmTy0_10 (i : Nat) : BufTy := match i % 128 with
  | 0 => ⟨S30x32, .f32⟩
  | 1 => ⟨S262144x32, .f32⟩
  | 2 => ⟨S1x32, .f32⟩
  | 3 => ⟨S32, .f32⟩
  | 4 => ⟨S1x32, .f32⟩
  | 5 => ⟨S262144x32, .f32⟩
  | 6 => ⟨S262144x32, .f32⟩
  | 7 => ⟨S_, .f32⟩
  | 8 => ⟨S262144x32, .f32⟩
  | 9 => ⟨S262144x32, .f32⟩
  | 10 => ⟨S1x32x30, .f32⟩
  | 11 => ⟨S32x30, .f32⟩
  | 12 => ⟨S262144x30, .f32⟩
  | 13 => ⟨S1x30, .f32⟩
  | 14 => ⟨S30, .f32⟩
  | 15 => ⟨S1x30, .f32⟩
  | 16 => ⟨S262144x30, .f32⟩
  | 17 => ⟨S262144x30, .f32⟩
  | 18 => ⟨S_, .f32⟩
  | 19 => ⟨S262144x30, .f32⟩
  | 20 => ⟨S262144x30, .f32⟩
  | 21 => ⟨S262144x1, .f32⟩
  | 22 => ⟨S262144x31, .f32⟩
  | 23 => ⟨S262144x8, .f32⟩
  | 24 => ⟨S1x8, .f32⟩
  | 25 => ⟨S8, .f32⟩
  | 26 => ⟨S1x8, .f32⟩
  | 27 => ⟨S262144x8, .f32⟩
  | 28 => ⟨S262144x8, .f32⟩
  | 29 => ⟨S262144x4x2, .f32⟩
  | 30 => ⟨S_, .f32⟩
  | 31 => ⟨S262144x4, .f32⟩
  | 32 => ⟨S_, .f32⟩
  | 33 => ⟨S262144, .f32⟩
  | 34 => ⟨S262144x1, .f32⟩
  | 35 => ⟨S1x32x8, .f32⟩
  | 36 => ⟨S32x8, .f32⟩
  | 37 => ⟨S31x8, .f32⟩
  | 38 => ⟨S1x8, .f32⟩
  | 39 => ⟨S1x8, .f32⟩
  | 40 => ⟨S32x8, .f32⟩
  | 41 => ⟨S262144x31, .f32⟩
  | 42 => ⟨S1x31x32, .f32⟩
  | 43 => ⟨S31x32, .f32⟩
  | 44 => ⟨S262144x32, .f32⟩
  | 45 => ⟨S1x32, .f32⟩
  | 46 => ⟨S32, .f32⟩
  | 47 => ⟨S1x32, .f32⟩
  | 48 => ⟨S262144x32, .f32⟩
  | 49 => ⟨S262144x32, .f32⟩
  | 50 => ⟨S_, .f32⟩
  | 51 => ⟨S262144x32, .f32⟩
  | 52 => ⟨S262144x32, .f32⟩
  | 53 => ⟨S1x32x31, .f32⟩
  | 54 => ⟨S32x31, .f32⟩
  | 55 => ⟨S262144x31, .f32⟩
  | 56 => ⟨S1x31, .f32⟩
  | 57 => ⟨S31, .f32⟩
  | 58 => ⟨S1x31, .f32⟩
  | 59 => ⟨S262144x31, .f32⟩
  | 60 => ⟨S262144x31, .f32⟩
  | 61 => ⟨S_, .f32⟩
  | 62 => ⟨S262144x31, .f32⟩
  | 63 => ⟨S262144x31, .f32⟩
  | 64 => ⟨S262144x1, .f32⟩
  | 65 => ⟨S262144x32, .f32⟩
  | 66 => ⟨S262144x8, .f32⟩
  | 67 => ⟨S1x8, .f32⟩
  | 68 => ⟨S8, .f32⟩
  | 69 => ⟨S1x8, .f32⟩
  | 70 => ⟨S262144x8, .f32⟩
  | 71 => ⟨S262144x8, .f32⟩
  | 72 => ⟨S262144x4x2, .f32⟩
  | 73 => ⟨S_, .f32⟩
  | 74 => ⟨S262144x4, .f32⟩
  | 75 => ⟨S_, .f32⟩
  | 76 => ⟨S262144, .f32⟩
  | 77 => ⟨S262144x1, .f32⟩
  | 78 => ⟨S262144x16, .f32⟩
  | 79 => ⟨S262144x16, .f32⟩
  | 80 => ⟨S262144x32, .f32⟩
  | _ => ⟨S262144x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S262144x32, .f32⟩

abbrev bufTy : (tb : Table) → Fin (tcTables nBuf tb) → BufTy
  | .hbm, ⟨i, _⟩ => hbmTy i
  | _, _ => ⟨S262144x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_call0_cst : Ref sig .tc := ⟨.hbm, 40, rfl⟩
abbrev main_call0_v0 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_call1_cst : Ref sig .tc := ⟨.hbm, 51, rfl⟩
abbrev main_call1_v0 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_1 : Ref sig .tc := ⟨.hbm, 63, rfl⟩
abbrev main_v50 : Ref sig .tc := ⟨.hbm, 64, rfl⟩
abbrev main_cst_2 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_call2_cst : Ref sig .tc := ⟨.hbm, 83, rfl⟩
abbrev main_call2_v0 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_call3_cst : Ref sig .tc := ⟨.hbm, 94, rfl⟩
abbrev main_call3_v0 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_cst_3 : Ref sig .tc := ⟨.hbm, 106, rfl⟩
abbrev main_v87 : Ref sig .tc := ⟨.hbm, 107, rfl⟩
abbrev main_cst_4 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_call4_cst : Ref sig .tc := ⟨.hbm, 126, rfl⟩
abbrev main_call4_v0 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_call5_cst : Ref sig .tc := ⟨.hbm, 137, rfl⟩
abbrev main_call5_v0 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_cst_5 : Ref sig .tc := ⟨.hbm, 149, rfl⟩
abbrev main_v124 : Ref sig .tc := ⟨.hbm, 150, rfl⟩
abbrev main_cst_6 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_call6_cst : Ref sig .tc := ⟨.hbm, 169, rfl⟩
abbrev main_call6_v0 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_call7_cst : Ref sig .tc := ⟨.hbm, 180, rfl⟩
abbrev main_call7_v0 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_cst_7 : Ref sig .tc := ⟨.hbm, 192, rfl⟩
abbrev main_v161 : Ref sig .tc := ⟨.hbm, 193, rfl⟩
abbrev main_cst_8 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_call8_cst : Ref sig .tc := ⟨.hbm, 212, rfl⟩
abbrev main_call8_v0 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_call9_cst : Ref sig .tc := ⟨.hbm, 223, rfl⟩
abbrev main_call9_v0 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_cst_9 : Ref sig .tc := ⟨.hbm, 235, rfl⟩
abbrev main_v198 : Ref sig .tc := ⟨.hbm, 236, rfl⟩
abbrev main_cst_10 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_v211 : Ref sig .tc := ⟨.hbm, 250, rfl⟩
abbrev main_v212 : Ref sig .tc := ⟨.hbm, 251, rfl⟩
abbrev main_v213 : Ref sig .tc := ⟨.hbm, 252, rfl⟩
abbrev main_v214 : Ref sig .tc := ⟨.hbm, 253, rfl⟩
abbrev main_v215 : Ref sig .tc := ⟨.hbm, 254, rfl⟩
abbrev main_call10_cst : Ref sig .tc := ⟨.hbm, 255, rfl⟩
abbrev main_call10_v0 : Ref sig .tc := ⟨.hbm, 256, rfl⟩
abbrev main_v216 : Ref sig .tc := ⟨.hbm, 257, rfl⟩
abbrev main_v217 : Ref sig .tc := ⟨.hbm, 258, rfl⟩
abbrev main_v218 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_v222 : Ref sig .tc := ⟨.hbm, 263, rfl⟩
abbrev main_v223 : Ref sig .tc := ⟨.hbm, 264, rfl⟩
abbrev main_v224 : Ref sig .tc := ⟨.hbm, 265, rfl⟩
abbrev main_call11_cst : Ref sig .tc := ⟨.hbm, 266, rfl⟩
abbrev main_call11_v0 : Ref sig .tc := ⟨.hbm, 267, rfl⟩
abbrev main_v225 : Ref sig .tc := ⟨.hbm, 268, rfl⟩
abbrev main_v226 : Ref sig .tc := ⟨.hbm, 269, rfl⟩
abbrev main_v227 : Ref sig .tc := ⟨.hbm, 270, rfl⟩
abbrev main_v228 : Ref sig .tc := ⟨.hbm, 271, rfl⟩
abbrev main_v229 : Ref sig .tc := ⟨.hbm, 272, rfl⟩
abbrev main_v230 : Ref sig .tc := ⟨.hbm, 273, rfl⟩
abbrev main_v231 : Ref sig .tc := ⟨.hbm, 274, rfl⟩
abbrev main_v232 : Ref sig .tc := ⟨.hbm, 275, rfl⟩
abbrev main_v233 : Ref sig .tc := ⟨.hbm, 276, rfl⟩
abbrev main_v234 : Ref sig .tc := ⟨.hbm, 277, rfl⟩
abbrev main_cst_11 : Ref sig .tc := ⟨.hbm, 278, rfl⟩
abbrev main_v235 : Ref sig .tc := ⟨.hbm, 279, rfl⟩
abbrev main_cst_12 : Ref sig .tc := ⟨.hbm, 280, rfl⟩
abbrev main_v236 : Ref sig .tc := ⟨.hbm, 281, rfl⟩
abbrev main_v237 : Ref sig .tc := ⟨.hbm, 282, rfl⟩
abbrev main_v238 : Ref sig .tc := ⟨.hbm, 283, rfl⟩
abbrev main_v239 : Ref sig .tc := ⟨.hbm, 284, rfl⟩
abbrev main_v240 : Ref sig .tc := ⟨.hbm, 285, rfl⟩
abbrev main_v241 : Ref sig .tc := ⟨.hbm, 286, rfl⟩
abbrev main_v242 : Ref sig .tc := ⟨.hbm, 287, rfl⟩
abbrev main_v243 : Ref sig .tc := ⟨.hbm, 288, rfl⟩
abbrev main_v244 : Ref sig .tc := ⟨.hbm, 289, rfl⟩
abbrev main_v245 : Ref sig .tc := ⟨.hbm, 290, rfl⟩
abbrev main_v246 : Ref sig .tc := ⟨.hbm, 291, rfl⟩
abbrev main_v247 : Ref sig .tc := ⟨.hbm, 292, rfl⟩
abbrev main_v248 : Ref sig .tc := ⟨.hbm, 293, rfl⟩
abbrev main_v249 : Ref sig .tc := ⟨.hbm, 294, rfl⟩
abbrev main_v250 : Ref sig .tc := ⟨.hbm, 295, rfl⟩
abbrev main_v251 : Ref sig .tc := ⟨.hbm, 296, rfl⟩
abbrev main_v252 : Ref sig .tc := ⟨.hbm, 297, rfl⟩
abbrev main_call12_cst : Ref sig .tc := ⟨.hbm, 298, rfl⟩
abbrev main_call12_v0 : Ref sig .tc := ⟨.hbm, 299, rfl⟩
abbrev main_v253 : Ref sig .tc := ⟨.hbm, 300, rfl⟩
abbrev main_v254 : Ref sig .tc := ⟨.hbm, 301, rfl⟩
abbrev main_v255 : Ref sig .tc := ⟨.hbm, 302, rfl⟩
abbrev main_v256 : Ref sig .tc := ⟨.hbm, 303, rfl⟩
abbrev main_v257 : Ref sig .tc := ⟨.hbm, 304, rfl⟩
abbrev main_v258 : Ref sig .tc := ⟨.hbm, 305, rfl⟩
abbrev main_v259 : Ref sig .tc := ⟨.hbm, 306, rfl⟩
abbrev main_v260 : Ref sig .tc := ⟨.hbm, 307, rfl⟩
abbrev main_v261 : Ref sig .tc := ⟨.hbm, 308, rfl⟩
abbrev main_call13_cst : Ref sig .tc := ⟨.hbm, 309, rfl⟩
abbrev main_call13_v0 : Ref sig .tc := ⟨.hbm, 310, rfl⟩
abbrev main_v262 : Ref sig .tc := ⟨.hbm, 311, rfl⟩
abbrev main_v263 : Ref sig .tc := ⟨.hbm, 312, rfl⟩
abbrev main_v264 : Ref sig .tc := ⟨.hbm, 313, rfl⟩
abbrev main_v265 : Ref sig .tc := ⟨.hbm, 314, rfl⟩
abbrev main_v266 : Ref sig .tc := ⟨.hbm, 315, rfl⟩
abbrev main_v267 : Ref sig .tc := ⟨.hbm, 316, rfl⟩
abbrev main_v268 : Ref sig .tc := ⟨.hbm, 317, rfl⟩
abbrev main_v269 : Ref sig .tc := ⟨.hbm, 318, rfl⟩
abbrev main_v270 : Ref sig .tc := ⟨.hbm, 319, rfl⟩
abbrev main_v271 : Ref sig .tc := ⟨.hbm, 320, rfl⟩
abbrev main_cst_13 : Ref sig .tc := ⟨.hbm, 321, rfl⟩
abbrev main_v272 : Ref sig .tc := ⟨.hbm, 322, rfl⟩
abbrev main_cst_14 : Ref sig .tc := ⟨.hbm, 323, rfl⟩
abbrev main_v273 : Ref sig .tc := ⟨.hbm, 324, rfl⟩
abbrev main_v274 : Ref sig .tc := ⟨.hbm, 325, rfl⟩
abbrev main_v275 : Ref sig .tc := ⟨.hbm, 326, rfl⟩
abbrev main_v276 : Ref sig .tc := ⟨.hbm, 327, rfl⟩
abbrev main_v277 : Ref sig .tc := ⟨.hbm, 328, rfl⟩
abbrev main_v278 : Ref sig .tc := ⟨.hbm, 329, rfl⟩
abbrev main_v279 : Ref sig .tc := ⟨.hbm, 330, rfl⟩
abbrev main_v280 : Ref sig .tc := ⟨.hbm, 331, rfl⟩
abbrev main_v281 : Ref sig .tc := ⟨.hbm, 332, rfl⟩
abbrev main_v282 : Ref sig .tc := ⟨.hbm, 333, rfl⟩
abbrev main_v283 : Ref sig .tc := ⟨.hbm, 334, rfl⟩
abbrev main_v284 : Ref sig .tc := ⟨.hbm, 335, rfl⟩
abbrev main_v285 : Ref sig .tc := ⟨.hbm, 336, rfl⟩
abbrev main_v286 : Ref sig .tc := ⟨.hbm, 337, rfl⟩
abbrev main_v287 : Ref sig .tc := ⟨.hbm, 338, rfl⟩
abbrev main_v288 : Ref sig .tc := ⟨.hbm, 339, rfl⟩
abbrev main_v289 : Ref sig .tc := ⟨.hbm, 340, rfl⟩
abbrev main_call14_cst : Ref sig .tc := ⟨.hbm, 341, rfl⟩
abbrev main_call14_v0 : Ref sig .tc := ⟨.hbm, 342, rfl⟩
abbrev main_v290 : Ref sig .tc := ⟨.hbm, 343, rfl⟩
abbrev main_v291 : Ref sig .tc := ⟨.hbm, 344, rfl⟩
abbrev main_v292 : Ref sig .tc := ⟨.hbm, 345, rfl⟩
abbrev main_v293 : Ref sig .tc := ⟨.hbm, 346, rfl⟩
abbrev main_v294 : Ref sig .tc := ⟨.hbm, 347, rfl⟩
abbrev main_v295 : Ref sig .tc := ⟨.hbm, 348, rfl⟩
abbrev main_v296 : Ref sig .tc := ⟨.hbm, 349, rfl⟩
abbrev main_v297 : Ref sig .tc := ⟨.hbm, 350, rfl⟩
abbrev main_v298 : Ref sig .tc := ⟨.hbm, 351, rfl⟩
abbrev main_call15_cst : Ref sig .tc := ⟨.hbm, 352, rfl⟩
abbrev main_call15_v0 : Ref sig .tc := ⟨.hbm, 353, rfl⟩
abbrev main_v299 : Ref sig .tc := ⟨.hbm, 354, rfl⟩
abbrev main_v300 : Ref sig .tc := ⟨.hbm, 355, rfl⟩
abbrev main_v301 : Ref sig .tc := ⟨.hbm, 356, rfl⟩
abbrev main_v302 : Ref sig .tc := ⟨.hbm, 357, rfl⟩
abbrev main_v303 : Ref sig .tc := ⟨.hbm, 358, rfl⟩
abbrev main_v304 : Ref sig .tc := ⟨.hbm, 359, rfl⟩
abbrev main_v305 : Ref sig .tc := ⟨.hbm, 360, rfl⟩
abbrev main_v306 : Ref sig .tc := ⟨.hbm, 361, rfl⟩
abbrev main_v307 : Ref sig .tc := ⟨.hbm, 362, rfl⟩
abbrev main_v308 : Ref sig .tc := ⟨.hbm, 363, rfl⟩
abbrev main_cst_15 : Ref sig .tc := ⟨.hbm, 364, rfl⟩
abbrev main_v309 : Ref sig .tc := ⟨.hbm, 365, rfl⟩
abbrev main_cst_16 : Ref sig .tc := ⟨.hbm, 366, rfl⟩
abbrev main_v310 : Ref sig .tc := ⟨.hbm, 367, rfl⟩
abbrev main_v311 : Ref sig .tc := ⟨.hbm, 368, rfl⟩
abbrev main_v312 : Ref sig .tc := ⟨.hbm, 369, rfl⟩
abbrev main_v313 : Ref sig .tc := ⟨.hbm, 370, rfl⟩
abbrev main_v314 : Ref sig .tc := ⟨.hbm, 371, rfl⟩
abbrev main_v315 : Ref sig .tc := ⟨.hbm, 372, rfl⟩
abbrev main_v316 : Ref sig .tc := ⟨.hbm, 373, rfl⟩
abbrev main_v317 : Ref sig .tc := ⟨.hbm, 374, rfl⟩
abbrev main_v318 : Ref sig .tc := ⟨.hbm, 375, rfl⟩
abbrev main_v319 : Ref sig .tc := ⟨.hbm, 376, rfl⟩
abbrev main_v320 : Ref sig .tc := ⟨.hbm, 377, rfl⟩
abbrev main_v321 : Ref sig .tc := ⟨.hbm, 378, rfl⟩
abbrev main_v322 : Ref sig .tc := ⟨.hbm, 379, rfl⟩
abbrev main_v323 : Ref sig .tc := ⟨.hbm, 380, rfl⟩
abbrev main_v324 : Ref sig .tc := ⟨.hbm, 381, rfl⟩
abbrev main_v325 : Ref sig .tc := ⟨.hbm, 382, rfl⟩
abbrev main_v326 : Ref sig .tc := ⟨.hbm, 383, rfl⟩
abbrev main_call16_cst : Ref sig .tc := ⟨.hbm, 384, rfl⟩
abbrev main_call16_v0 : Ref sig .tc := ⟨.hbm, 385, rfl⟩
abbrev main_v327 : Ref sig .tc := ⟨.hbm, 386, rfl⟩
abbrev main_v328 : Ref sig .tc := ⟨.hbm, 387, rfl⟩
abbrev main_v329 : Ref sig .tc := ⟨.hbm, 388, rfl⟩
abbrev main_v330 : Ref sig .tc := ⟨.hbm, 389, rfl⟩
abbrev main_v331 : Ref sig .tc := ⟨.hbm, 390, rfl⟩
abbrev main_v332 : Ref sig .tc := ⟨.hbm, 391, rfl⟩
abbrev main_v333 : Ref sig .tc := ⟨.hbm, 392, rfl⟩
abbrev main_v334 : Ref sig .tc := ⟨.hbm, 393, rfl⟩
abbrev main_v335 : Ref sig .tc := ⟨.hbm, 394, rfl⟩
abbrev main_call17_cst : Ref sig .tc := ⟨.hbm, 395, rfl⟩
abbrev main_call17_v0 : Ref sig .tc := ⟨.hbm, 396, rfl⟩
abbrev main_v336 : Ref sig .tc := ⟨.hbm, 397, rfl⟩
abbrev main_v337 : Ref sig .tc := ⟨.hbm, 398, rfl⟩
abbrev main_v338 : Ref sig .tc := ⟨.hbm, 399, rfl⟩
abbrev main_v339 : Ref sig .tc := ⟨.hbm, 400, rfl⟩
abbrev main_v340 : Ref sig .tc := ⟨.hbm, 401, rfl⟩
abbrev main_v341 : Ref sig .tc := ⟨.hbm, 402, rfl⟩
abbrev main_v342 : Ref sig .tc := ⟨.hbm, 403, rfl⟩
abbrev main_v343 : Ref sig .tc := ⟨.hbm, 404, rfl⟩
abbrev main_v344 : Ref sig .tc := ⟨.hbm, 405, rfl⟩
abbrev main_v345 : Ref sig .tc := ⟨.hbm, 406, rfl⟩
abbrev main_cst_17 : Ref sig .tc := ⟨.hbm, 407, rfl⟩
abbrev main_v346 : Ref sig .tc := ⟨.hbm, 408, rfl⟩
abbrev main_cst_18 : Ref sig .tc := ⟨.hbm, 409, rfl⟩
abbrev main_v347 : Ref sig .tc := ⟨.hbm, 410, rfl⟩
abbrev main_v348 : Ref sig .tc := ⟨.hbm, 411, rfl⟩
abbrev main_v349 : Ref sig .tc := ⟨.hbm, 412, rfl⟩
abbrev main_v350 : Ref sig .tc := ⟨.hbm, 413, rfl⟩
abbrev main_v351 : Ref sig .tc := ⟨.hbm, 414, rfl⟩
abbrev main_v352 : Ref sig .tc := ⟨.hbm, 415, rfl⟩
abbrev main_v353 : Ref sig .tc := ⟨.hbm, 416, rfl⟩
abbrev main_v354 : Ref sig .tc := ⟨.hbm, 417, rfl⟩
abbrev main_v355 : Ref sig .tc := ⟨.hbm, 418, rfl⟩
abbrev main_v356 : Ref sig .tc := ⟨.hbm, 419, rfl⟩
abbrev main_v357 : Ref sig .tc := ⟨.hbm, 420, rfl⟩
abbrev main_v358 : Ref sig .tc := ⟨.hbm, 421, rfl⟩
abbrev main_v359 : Ref sig .tc := ⟨.hbm, 422, rfl⟩
abbrev main_v360 : Ref sig .tc := ⟨.hbm, 423, rfl⟩
abbrev main_v361 : Ref sig .tc := ⟨.hbm, 424, rfl⟩
abbrev main_v362 : Ref sig .tc := ⟨.hbm, 425, rfl⟩
abbrev main_v363 : Ref sig .tc := ⟨.hbm, 426, rfl⟩
abbrev main_call18_cst : Ref sig .tc := ⟨.hbm, 427, rfl⟩
abbrev main_call18_v0 : Ref sig .tc := ⟨.hbm, 428, rfl⟩
abbrev main_v364 : Ref sig .tc := ⟨.hbm, 429, rfl⟩
abbrev main_v365 : Ref sig .tc := ⟨.hbm, 430, rfl⟩
abbrev main_v366 : Ref sig .tc := ⟨.hbm, 431, rfl⟩
abbrev main_v367 : Ref sig .tc := ⟨.hbm, 432, rfl⟩
abbrev main_v368 : Ref sig .tc := ⟨.hbm, 433, rfl⟩
abbrev main_v369 : Ref sig .tc := ⟨.hbm, 434, rfl⟩
abbrev main_v370 : Ref sig .tc := ⟨.hbm, 435, rfl⟩
abbrev main_v371 : Ref sig .tc := ⟨.hbm, 436, rfl⟩
abbrev main_v372 : Ref sig .tc := ⟨.hbm, 437, rfl⟩
abbrev main_call19_cst : Ref sig .tc := ⟨.hbm, 438, rfl⟩
abbrev main_call19_v0 : Ref sig .tc := ⟨.hbm, 439, rfl⟩
abbrev main_v373 : Ref sig .tc := ⟨.hbm, 440, rfl⟩
abbrev main_v374 : Ref sig .tc := ⟨.hbm, 441, rfl⟩
abbrev main_v375 : Ref sig .tc := ⟨.hbm, 442, rfl⟩
abbrev main_v376 : Ref sig .tc := ⟨.hbm, 443, rfl⟩
abbrev main_v377 : Ref sig .tc := ⟨.hbm, 444, rfl⟩
abbrev main_v378 : Ref sig .tc := ⟨.hbm, 445, rfl⟩
abbrev main_v379 : Ref sig .tc := ⟨.hbm, 446, rfl⟩
abbrev main_v380 : Ref sig .tc := ⟨.hbm, 447, rfl⟩
abbrev main_v381 : Ref sig .tc := ⟨.hbm, 448, rfl⟩
abbrev main_v382 : Ref sig .tc := ⟨.hbm, 449, rfl⟩
abbrev main_cst_19 : Ref sig .tc := ⟨.hbm, 450, rfl⟩
abbrev main_v383 : Ref sig .tc := ⟨.hbm, 451, rfl⟩
abbrev main_cst_20 : Ref sig .tc := ⟨.hbm, 452, rfl⟩
abbrev main_v384 : Ref sig .tc := ⟨.hbm, 453, rfl⟩
abbrev main_v385 : Ref sig .tc := ⟨.hbm, 454, rfl⟩
abbrev main_v386 : Ref sig .tc := ⟨.hbm, 455, rfl⟩
abbrev main_v387 : Ref sig .tc := ⟨.hbm, 456, rfl⟩
abbrev main_v388 : Ref sig .tc := ⟨.hbm, 457, rfl⟩
abbrev main_v389 : Ref sig .tc := ⟨.hbm, 458, rfl⟩
abbrev main_v390 : Ref sig .tc := ⟨.hbm, 459, rfl⟩
abbrev main_v391 : Ref sig .tc := ⟨.hbm, 460, rfl⟩
abbrev main_v392 : Ref sig .tc := ⟨.hbm, 461, rfl⟩
abbrev main_v393 : Ref sig .tc := ⟨.hbm, 462, rfl⟩
abbrev main_v394 : Ref sig .tc := ⟨.hbm, 463, rfl⟩
abbrev main_v395 : Ref sig .tc := ⟨.hbm, 464, rfl⟩
abbrev main_v396 : Ref sig .tc := ⟨.hbm, 465, rfl⟩
abbrev main_v397 : Ref sig .tc := ⟨.hbm, 466, rfl⟩
abbrev main_v398 : Ref sig .tc := ⟨.hbm, 467, rfl⟩
abbrev main_v399 : Ref sig .tc := ⟨.hbm, 468, rfl⟩
abbrev main_v400 : Ref sig .tc := ⟨.hbm, 469, rfl⟩
abbrev main_call20_cst : Ref sig .tc := ⟨.hbm, 470, rfl⟩
abbrev main_call20_v0 : Ref sig .tc := ⟨.hbm, 471, rfl⟩
abbrev main_v401 : Ref sig .tc := ⟨.hbm, 472, rfl⟩
abbrev main_v402 : Ref sig .tc := ⟨.hbm, 473, rfl⟩
abbrev main_v403 : Ref sig .tc := ⟨.hbm, 474, rfl⟩
abbrev main_v404 : Ref sig .tc := ⟨.hbm, 475, rfl⟩
abbrev main_v405 : Ref sig .tc := ⟨.hbm, 476, rfl⟩
abbrev main_v406 : Ref sig .tc := ⟨.hbm, 477, rfl⟩
abbrev main_v407 : Ref sig .tc := ⟨.hbm, 478, rfl⟩
abbrev main_v408 : Ref sig .tc := ⟨.hbm, 479, rfl⟩
abbrev main_v409 : Ref sig .tc := ⟨.hbm, 480, rfl⟩
abbrev main_call21_cst : Ref sig .tc := ⟨.hbm, 481, rfl⟩
abbrev main_call21_v0 : Ref sig .tc := ⟨.hbm, 482, rfl⟩
abbrev main_v410 : Ref sig .tc := ⟨.hbm, 483, rfl⟩
abbrev main_v411 : Ref sig .tc := ⟨.hbm, 484, rfl⟩
abbrev main_v412 : Ref sig .tc := ⟨.hbm, 485, rfl⟩
abbrev main_v413 : Ref sig .tc := ⟨.hbm, 486, rfl⟩
abbrev main_v414 : Ref sig .tc := ⟨.hbm, 487, rfl⟩
abbrev main_v415 : Ref sig .tc := ⟨.hbm, 488, rfl⟩
abbrev main_v416 : Ref sig .tc := ⟨.hbm, 489, rfl⟩
abbrev main_v417 : Ref sig .tc := ⟨.hbm, 490, rfl⟩
abbrev main_v418 : Ref sig .tc := ⟨.hbm, 491, rfl⟩
abbrev main_v419 : Ref sig .tc := ⟨.hbm, 492, rfl⟩
abbrev main_cst_21 : Ref sig .tc := ⟨.hbm, 493, rfl⟩
abbrev main_v420 : Ref sig .tc := ⟨.hbm, 494, rfl⟩
abbrev main_cst_22 : Ref sig .tc := ⟨.hbm, 495, rfl⟩
abbrev main_v421 : Ref sig .tc := ⟨.hbm, 496, rfl⟩
abbrev main_v422 : Ref sig .tc := ⟨.hbm, 497, rfl⟩
abbrev main_v423 : Ref sig .tc := ⟨.hbm, 498, rfl⟩
abbrev main_v424 : Ref sig .tc := ⟨.hbm, 499, rfl⟩
abbrev main_v425 : Ref sig .tc := ⟨.hbm, 500, rfl⟩
abbrev main_v426 : Ref sig .tc := ⟨.hbm, 501, rfl⟩
abbrev main_v427 : Ref sig .tc := ⟨.hbm, 502, rfl⟩
abbrev main_v428 : Ref sig .tc := ⟨.hbm, 503, rfl⟩
abbrev main_v429 : Ref sig .tc := ⟨.hbm, 504, rfl⟩
abbrev main_v430 : Ref sig .tc := ⟨.hbm, 505, rfl⟩
abbrev main_v431 : Ref sig .tc := ⟨.hbm, 506, rfl⟩
abbrev main_v432 : Ref sig .tc := ⟨.hbm, 507, rfl⟩
abbrev main_v433 : Ref sig .tc := ⟨.hbm, 508, rfl⟩
abbrev main_v434 : Ref sig .tc := ⟨.hbm, 509, rfl⟩
abbrev main_v435 : Ref sig .tc := ⟨.hbm, 510, rfl⟩
abbrev main_v436 : Ref sig .tc := ⟨.hbm, 511, rfl⟩
abbrev main_v437 : Ref sig .tc := ⟨.hbm, 512, rfl⟩
abbrev main_call22_cst : Ref sig .tc := ⟨.hbm, 513, rfl⟩
abbrev main_call22_v0 : Ref sig .tc := ⟨.hbm, 514, rfl⟩
abbrev main_v438 : Ref sig .tc := ⟨.hbm, 515, rfl⟩
abbrev main_v439 : Ref sig .tc := ⟨.hbm, 516, rfl⟩
abbrev main_v440 : Ref sig .tc := ⟨.hbm, 517, rfl⟩
abbrev main_v441 : Ref sig .tc := ⟨.hbm, 518, rfl⟩
abbrev main_v442 : Ref sig .tc := ⟨.hbm, 519, rfl⟩
abbrev main_v443 : Ref sig .tc := ⟨.hbm, 520, rfl⟩
abbrev main_v444 : Ref sig .tc := ⟨.hbm, 521, rfl⟩
abbrev main_v445 : Ref sig .tc := ⟨.hbm, 522, rfl⟩
abbrev main_v446 : Ref sig .tc := ⟨.hbm, 523, rfl⟩
abbrev main_call23_cst : Ref sig .tc := ⟨.hbm, 524, rfl⟩
abbrev main_call23_v0 : Ref sig .tc := ⟨.hbm, 525, rfl⟩
abbrev main_v447 : Ref sig .tc := ⟨.hbm, 526, rfl⟩
abbrev main_v448 : Ref sig .tc := ⟨.hbm, 527, rfl⟩
abbrev main_v449 : Ref sig .tc := ⟨.hbm, 528, rfl⟩
abbrev main_v450 : Ref sig .tc := ⟨.hbm, 529, rfl⟩
abbrev main_v451 : Ref sig .tc := ⟨.hbm, 530, rfl⟩
abbrev main_v452 : Ref sig .tc := ⟨.hbm, 531, rfl⟩
abbrev main_v453 : Ref sig .tc := ⟨.hbm, 532, rfl⟩
abbrev main_v454 : Ref sig .tc := ⟨.hbm, 533, rfl⟩
abbrev main_v455 : Ref sig .tc := ⟨.hbm, 534, rfl⟩
abbrev main_v456 : Ref sig .tc := ⟨.hbm, 535, rfl⟩
abbrev main_cst_23 : Ref sig .tc := ⟨.hbm, 536, rfl⟩
abbrev main_v457 : Ref sig .tc := ⟨.hbm, 537, rfl⟩
abbrev main_cst_24 : Ref sig .tc := ⟨.hbm, 538, rfl⟩
abbrev main_v458 : Ref sig .tc := ⟨.hbm, 539, rfl⟩
abbrev main_v459 : Ref sig .tc := ⟨.hbm, 540, rfl⟩
abbrev main_v460 : Ref sig .tc := ⟨.hbm, 541, rfl⟩
abbrev main_v461 : Ref sig .tc := ⟨.hbm, 542, rfl⟩
abbrev main_v462 : Ref sig .tc := ⟨.hbm, 543, rfl⟩
abbrev main_v463 : Ref sig .tc := ⟨.hbm, 544, rfl⟩
abbrev main_v464 : Ref sig .tc := ⟨.hbm, 545, rfl⟩
abbrev main_v465 : Ref sig .tc := ⟨.hbm, 546, rfl⟩
abbrev main_v466 : Ref sig .tc := ⟨.hbm, 547, rfl⟩
abbrev main_v467 : Ref sig .tc := ⟨.hbm, 548, rfl⟩
abbrev main_v468 : Ref sig .tc := ⟨.hbm, 549, rfl⟩
abbrev main_v469 : Ref sig .tc := ⟨.hbm, 550, rfl⟩
abbrev main_v470 : Ref sig .tc := ⟨.hbm, 551, rfl⟩
abbrev main_v471 : Ref sig .tc := ⟨.hbm, 552, rfl⟩
abbrev main_v472 : Ref sig .tc := ⟨.hbm, 553, rfl⟩
abbrev main_v473 : Ref sig .tc := ⟨.hbm, 554, rfl⟩
abbrev main_v474 : Ref sig .tc := ⟨.hbm, 555, rfl⟩
abbrev main_call24_cst : Ref sig .tc := ⟨.hbm, 556, rfl⟩
abbrev main_call24_v0 : Ref sig .tc := ⟨.hbm, 557, rfl⟩
abbrev main_v475 : Ref sig .tc := ⟨.hbm, 558, rfl⟩
abbrev main_v476 : Ref sig .tc := ⟨.hbm, 559, rfl⟩
abbrev main_v477 : Ref sig .tc := ⟨.hbm, 560, rfl⟩
abbrev main_v478 : Ref sig .tc := ⟨.hbm, 561, rfl⟩
abbrev main_v479 : Ref sig .tc := ⟨.hbm, 562, rfl⟩
abbrev main_v480 : Ref sig .tc := ⟨.hbm, 563, rfl⟩
abbrev main_v481 : Ref sig .tc := ⟨.hbm, 564, rfl⟩
abbrev main_v482 : Ref sig .tc := ⟨.hbm, 565, rfl⟩
abbrev main_v483 : Ref sig .tc := ⟨.hbm, 566, rfl⟩
abbrev main_call25_cst : Ref sig .tc := ⟨.hbm, 567, rfl⟩
abbrev main_call25_v0 : Ref sig .tc := ⟨.hbm, 568, rfl⟩
abbrev main_v484 : Ref sig .tc := ⟨.hbm, 569, rfl⟩
abbrev main_v485 : Ref sig .tc := ⟨.hbm, 570, rfl⟩
abbrev main_v486 : Ref sig .tc := ⟨.hbm, 571, rfl⟩
abbrev main_v487 : Ref sig .tc := ⟨.hbm, 572, rfl⟩
abbrev main_v488 : Ref sig .tc := ⟨.hbm, 573, rfl⟩
abbrev main_v489 : Ref sig .tc := ⟨.hbm, 574, rfl⟩
abbrev main_v490 : Ref sig .tc := ⟨.hbm, 575, rfl⟩
abbrev main_v491 : Ref sig .tc := ⟨.hbm, 576, rfl⟩
abbrev main_v492 : Ref sig .tc := ⟨.hbm, 577, rfl⟩
abbrev main_v493 : Ref sig .tc := ⟨.hbm, 578, rfl⟩
abbrev main_cst_25 : Ref sig .tc := ⟨.hbm, 579, rfl⟩
abbrev main_v494 : Ref sig .tc := ⟨.hbm, 580, rfl⟩
abbrev main_cst_26 : Ref sig .tc := ⟨.hbm, 581, rfl⟩
abbrev main_v495 : Ref sig .tc := ⟨.hbm, 582, rfl⟩
abbrev main_v496 : Ref sig .tc := ⟨.hbm, 583, rfl⟩
abbrev main_v497 : Ref sig .tc := ⟨.hbm, 584, rfl⟩
abbrev main_v498 : Ref sig .tc := ⟨.hbm, 585, rfl⟩
abbrev main_v499 : Ref sig .tc := ⟨.hbm, 586, rfl⟩
abbrev main_v500 : Ref sig .tc := ⟨.hbm, 587, rfl⟩
abbrev main_v501 : Ref sig .tc := ⟨.hbm, 588, rfl⟩
abbrev main_v502 : Ref sig .tc := ⟨.hbm, 589, rfl⟩
abbrev main_v503 : Ref sig .tc := ⟨.hbm, 590, rfl⟩
abbrev main_v504 : Ref sig .tc := ⟨.hbm, 591, rfl⟩
abbrev main_v505 : Ref sig .tc := ⟨.hbm, 592, rfl⟩
abbrev main_v506 : Ref sig .tc := ⟨.hbm, 593, rfl⟩
abbrev main_v507 : Ref sig .tc := ⟨.hbm, 594, rfl⟩
abbrev main_v508 : Ref sig .tc := ⟨.hbm, 595, rfl⟩
abbrev main_v509 : Ref sig .tc := ⟨.hbm, 596, rfl⟩
abbrev main_v510 : Ref sig .tc := ⟨.hbm, 597, rfl⟩
abbrev main_v511 : Ref sig .tc := ⟨.hbm, 598, rfl⟩
abbrev main_call26_cst : Ref sig .tc := ⟨.hbm, 599, rfl⟩
abbrev main_call26_v0 : Ref sig .tc := ⟨.hbm, 600, rfl⟩
abbrev main_v512 : Ref sig .tc := ⟨.hbm, 601, rfl⟩
abbrev main_v513 : Ref sig .tc := ⟨.hbm, 602, rfl⟩
abbrev main_v514 : Ref sig .tc := ⟨.hbm, 603, rfl⟩
abbrev main_v515 : Ref sig .tc := ⟨.hbm, 604, rfl⟩
abbrev main_v516 : Ref sig .tc := ⟨.hbm, 605, rfl⟩
abbrev main_v517 : Ref sig .tc := ⟨.hbm, 606, rfl⟩
abbrev main_v518 : Ref sig .tc := ⟨.hbm, 607, rfl⟩
abbrev main_v519 : Ref sig .tc := ⟨.hbm, 608, rfl⟩
abbrev main_v520 : Ref sig .tc := ⟨.hbm, 609, rfl⟩
abbrev main_call27_cst : Ref sig .tc := ⟨.hbm, 610, rfl⟩
abbrev main_call27_v0 : Ref sig .tc := ⟨.hbm, 611, rfl⟩
abbrev main_v521 : Ref sig .tc := ⟨.hbm, 612, rfl⟩
abbrev main_v522 : Ref sig .tc := ⟨.hbm, 613, rfl⟩
abbrev main_v523 : Ref sig .tc := ⟨.hbm, 614, rfl⟩
abbrev main_v524 : Ref sig .tc := ⟨.hbm, 615, rfl⟩
abbrev main_v525 : Ref sig .tc := ⟨.hbm, 616, rfl⟩
abbrev main_v526 : Ref sig .tc := ⟨.hbm, 617, rfl⟩
abbrev main_v527 : Ref sig .tc := ⟨.hbm, 618, rfl⟩
abbrev main_v528 : Ref sig .tc := ⟨.hbm, 619, rfl⟩
abbrev main_v529 : Ref sig .tc := ⟨.hbm, 620, rfl⟩
abbrev main_v530 : Ref sig .tc := ⟨.hbm, 621, rfl⟩
abbrev main_cst_27 : Ref sig .tc := ⟨.hbm, 622, rfl⟩
abbrev main_v531 : Ref sig .tc := ⟨.hbm, 623, rfl⟩
abbrev main_cst_28 : Ref sig .tc := ⟨.hbm, 624, rfl⟩
abbrev main_v532 : Ref sig .tc := ⟨.hbm, 625, rfl⟩
abbrev main_v533 : Ref sig .tc := ⟨.hbm, 626, rfl⟩
abbrev main_v534 : Ref sig .tc := ⟨.hbm, 627, rfl⟩
abbrev main_v535 : Ref sig .tc := ⟨.hbm, 628, rfl⟩
abbrev main_v536 : Ref sig .tc := ⟨.hbm, 629, rfl⟩
abbrev main_v537 : Ref sig .tc := ⟨.hbm, 630, rfl⟩
abbrev main_v538 : Ref sig .tc := ⟨.hbm, 631, rfl⟩
abbrev main_v539 : Ref sig .tc := ⟨.hbm, 632, rfl⟩
abbrev main_v540 : Ref sig .tc := ⟨.hbm, 633, rfl⟩
abbrev main_v541 : Ref sig .tc := ⟨.hbm, 634, rfl⟩
abbrev main_v542 : Ref sig .tc := ⟨.hbm, 635, rfl⟩
abbrev main_v543 : Ref sig .tc := ⟨.hbm, 636, rfl⟩
abbrev main_v544 : Ref sig .tc := ⟨.hbm, 637, rfl⟩
abbrev main_v545 : Ref sig .tc := ⟨.hbm, 638, rfl⟩
abbrev main_v546 : Ref sig .tc := ⟨.hbm, 639, rfl⟩
abbrev main_v547 : Ref sig .tc := ⟨.hbm, 640, rfl⟩
abbrev main_v548 : Ref sig .tc := ⟨.hbm, 641, rfl⟩
abbrev main_call28_cst : Ref sig .tc := ⟨.hbm, 642, rfl⟩
abbrev main_call28_v0 : Ref sig .tc := ⟨.hbm, 643, rfl⟩
abbrev main_v549 : Ref sig .tc := ⟨.hbm, 644, rfl⟩
abbrev main_v550 : Ref sig .tc := ⟨.hbm, 645, rfl⟩
abbrev main_v551 : Ref sig .tc := ⟨.hbm, 646, rfl⟩
abbrev main_v552 : Ref sig .tc := ⟨.hbm, 647, rfl⟩
abbrev main_v553 : Ref sig .tc := ⟨.hbm, 648, rfl⟩
abbrev main_v554 : Ref sig .tc := ⟨.hbm, 649, rfl⟩
abbrev main_v555 : Ref sig .tc := ⟨.hbm, 650, rfl⟩
abbrev main_v556 : Ref sig .tc := ⟨.hbm, 651, rfl⟩
abbrev main_v557 : Ref sig .tc := ⟨.hbm, 652, rfl⟩
abbrev main_call29_cst : Ref sig .tc := ⟨.hbm, 653, rfl⟩
abbrev main_call29_v0 : Ref sig .tc := ⟨.hbm, 654, rfl⟩
abbrev main_v558 : Ref sig .tc := ⟨.hbm, 655, rfl⟩
abbrev main_v559 : Ref sig .tc := ⟨.hbm, 656, rfl⟩
abbrev main_v560 : Ref sig .tc := ⟨.hbm, 657, rfl⟩
abbrev main_v561 : Ref sig .tc := ⟨.hbm, 658, rfl⟩
abbrev main_v562 : Ref sig .tc := ⟨.hbm, 659, rfl⟩
abbrev main_v563 : Ref sig .tc := ⟨.hbm, 660, rfl⟩
abbrev main_v564 : Ref sig .tc := ⟨.hbm, 661, rfl⟩
abbrev main_v565 : Ref sig .tc := ⟨.hbm, 662, rfl⟩
abbrev main_v566 : Ref sig .tc := ⟨.hbm, 663, rfl⟩
abbrev main_v567 : Ref sig .tc := ⟨.hbm, 664, rfl⟩
abbrev main_cst_29 : Ref sig .tc := ⟨.hbm, 665, rfl⟩
abbrev main_v568 : Ref sig .tc := ⟨.hbm, 666, rfl⟩
abbrev main_cst_30 : Ref sig .tc := ⟨.hbm, 667, rfl⟩
abbrev main_v569 : Ref sig .tc := ⟨.hbm, 668, rfl⟩
abbrev main_v570 : Ref sig .tc := ⟨.hbm, 669, rfl⟩
abbrev main_v571 : Ref sig .tc := ⟨.hbm, 670, rfl⟩
abbrev main_v572 : Ref sig .tc := ⟨.hbm, 671, rfl⟩
abbrev main_v573 : Ref sig .tc := ⟨.hbm, 672, rfl⟩
abbrev main_v574 : Ref sig .tc := ⟨.hbm, 673, rfl⟩
abbrev main_v575 : Ref sig .tc := ⟨.hbm, 674, rfl⟩
abbrev main_v576 : Ref sig .tc := ⟨.hbm, 675, rfl⟩
abbrev main_v577 : Ref sig .tc := ⟨.hbm, 676, rfl⟩
abbrev main_v578 : Ref sig .tc := ⟨.hbm, 677, rfl⟩
abbrev main_v579 : Ref sig .tc := ⟨.hbm, 678, rfl⟩
abbrev main_v580 : Ref sig .tc := ⟨.hbm, 679, rfl⟩
abbrev main_v581 : Ref sig .tc := ⟨.hbm, 680, rfl⟩
abbrev main_v582 : Ref sig .tc := ⟨.hbm, 681, rfl⟩
abbrev main_v583 : Ref sig .tc := ⟨.hbm, 682, rfl⟩
abbrev main_v584 : Ref sig .tc := ⟨.hbm, 683, rfl⟩
abbrev main_v585 : Ref sig .tc := ⟨.hbm, 684, rfl⟩
abbrev main_call30_cst : Ref sig .tc := ⟨.hbm, 685, rfl⟩
abbrev main_call30_v0 : Ref sig .tc := ⟨.hbm, 686, rfl⟩
abbrev main_v586 : Ref sig .tc := ⟨.hbm, 687, rfl⟩
abbrev main_v587 : Ref sig .tc := ⟨.hbm, 688, rfl⟩
abbrev main_v588 : Ref sig .tc := ⟨.hbm, 689, rfl⟩
abbrev main_v589 : Ref sig .tc := ⟨.hbm, 690, rfl⟩
abbrev main_v590 : Ref sig .tc := ⟨.hbm, 691, rfl⟩
abbrev main_v591 : Ref sig .tc := ⟨.hbm, 692, rfl⟩
abbrev main_v592 : Ref sig .tc := ⟨.hbm, 693, rfl⟩
abbrev main_v593 : Ref sig .tc := ⟨.hbm, 694, rfl⟩
abbrev main_v594 : Ref sig .tc := ⟨.hbm, 695, rfl⟩
abbrev main_call31_cst : Ref sig .tc := ⟨.hbm, 696, rfl⟩
abbrev main_call31_v0 : Ref sig .tc := ⟨.hbm, 697, rfl⟩
abbrev main_v595 : Ref sig .tc := ⟨.hbm, 698, rfl⟩
abbrev main_v596 : Ref sig .tc := ⟨.hbm, 699, rfl⟩
abbrev main_v597 : Ref sig .tc := ⟨.hbm, 700, rfl⟩
abbrev main_v598 : Ref sig .tc := ⟨.hbm, 701, rfl⟩
abbrev main_v599 : Ref sig .tc := ⟨.hbm, 702, rfl⟩
abbrev main_v600 : Ref sig .tc := ⟨.hbm, 703, rfl⟩
abbrev main_v601 : Ref sig .tc := ⟨.hbm, 704, rfl⟩
abbrev main_v602 : Ref sig .tc := ⟨.hbm, 705, rfl⟩
abbrev main_v603 : Ref sig .tc := ⟨.hbm, 706, rfl⟩
abbrev main_v604 : Ref sig .tc := ⟨.hbm, 707, rfl⟩
abbrev main_cst_31 : Ref sig .tc := ⟨.hbm, 708, rfl⟩
abbrev main_v605 : Ref sig .tc := ⟨.hbm, 709, rfl⟩
abbrev main_cst_32 : Ref sig .tc := ⟨.hbm, 710, rfl⟩
abbrev main_v606 : Ref sig .tc := ⟨.hbm, 711, rfl⟩
abbrev main_v607 : Ref sig .tc := ⟨.hbm, 712, rfl⟩
abbrev main_v608 : Ref sig .tc := ⟨.hbm, 713, rfl⟩
abbrev main_v609 : Ref sig .tc := ⟨.hbm, 714, rfl⟩
abbrev main_v610 : Ref sig .tc := ⟨.hbm, 715, rfl⟩
abbrev main_v611 : Ref sig .tc := ⟨.hbm, 716, rfl⟩
abbrev main_v612 : Ref sig .tc := ⟨.hbm, 717, rfl⟩
abbrev main_v613 : Ref sig .tc := ⟨.hbm, 718, rfl⟩
abbrev main_v614 : Ref sig .tc := ⟨.hbm, 719, rfl⟩
abbrev main_v615 : Ref sig .tc := ⟨.hbm, 720, rfl⟩
abbrev main_v616 : Ref sig .tc := ⟨.hbm, 721, rfl⟩
abbrev main_v617 : Ref sig .tc := ⟨.hbm, 722, rfl⟩
abbrev main_v618 : Ref sig .tc := ⟨.hbm, 723, rfl⟩
abbrev main_v619 : Ref sig .tc := ⟨.hbm, 724, rfl⟩
abbrev main_v620 : Ref sig .tc := ⟨.hbm, 725, rfl⟩
abbrev main_v621 : Ref sig .tc := ⟨.hbm, 726, rfl⟩
abbrev main_v622 : Ref sig .tc := ⟨.hbm, 727, rfl⟩
abbrev main_call32_cst : Ref sig .tc := ⟨.hbm, 728, rfl⟩
abbrev main_call32_v0 : Ref sig .tc := ⟨.hbm, 729, rfl⟩
abbrev main_v623 : Ref sig .tc := ⟨.hbm, 730, rfl⟩
abbrev main_v624 : Ref sig .tc := ⟨.hbm, 731, rfl⟩
abbrev main_v625 : Ref sig .tc := ⟨.hbm, 732, rfl⟩
abbrev main_v626 : Ref sig .tc := ⟨.hbm, 733, rfl⟩
abbrev main_v627 : Ref sig .tc := ⟨.hbm, 734, rfl⟩
abbrev main_v628 : Ref sig .tc := ⟨.hbm, 735, rfl⟩
abbrev main_v629 : Ref sig .tc := ⟨.hbm, 736, rfl⟩
abbrev main_v630 : Ref sig .tc := ⟨.hbm, 737, rfl⟩
abbrev main_v631 : Ref sig .tc := ⟨.hbm, 738, rfl⟩
abbrev main_call33_cst : Ref sig .tc := ⟨.hbm, 739, rfl⟩
abbrev main_call33_v0 : Ref sig .tc := ⟨.hbm, 740, rfl⟩
abbrev main_v632 : Ref sig .tc := ⟨.hbm, 741, rfl⟩
abbrev main_v633 : Ref sig .tc := ⟨.hbm, 742, rfl⟩
abbrev main_v634 : Ref sig .tc := ⟨.hbm, 743, rfl⟩
abbrev main_v635 : Ref sig .tc := ⟨.hbm, 744, rfl⟩
abbrev main_v636 : Ref sig .tc := ⟨.hbm, 745, rfl⟩
abbrev main_v637 : Ref sig .tc := ⟨.hbm, 746, rfl⟩
abbrev main_v638 : Ref sig .tc := ⟨.hbm, 747, rfl⟩
abbrev main_v639 : Ref sig .tc := ⟨.hbm, 748, rfl⟩
abbrev main_v640 : Ref sig .tc := ⟨.hbm, 749, rfl⟩
abbrev main_v641 : Ref sig .tc := ⟨.hbm, 750, rfl⟩
abbrev main_cst_33 : Ref sig .tc := ⟨.hbm, 751, rfl⟩
abbrev main_v642 : Ref sig .tc := ⟨.hbm, 752, rfl⟩
abbrev main_cst_34 : Ref sig .tc := ⟨.hbm, 753, rfl⟩
abbrev main_v643 : Ref sig .tc := ⟨.hbm, 754, rfl⟩
abbrev main_v644 : Ref sig .tc := ⟨.hbm, 755, rfl⟩
abbrev main_v645 : Ref sig .tc := ⟨.hbm, 756, rfl⟩
abbrev main_v646 : Ref sig .tc := ⟨.hbm, 757, rfl⟩
abbrev main_v647 : Ref sig .tc := ⟨.hbm, 758, rfl⟩
abbrev main_v648 : Ref sig .tc := ⟨.hbm, 759, rfl⟩
abbrev main_v649 : Ref sig .tc := ⟨.hbm, 760, rfl⟩
abbrev main_v650 : Ref sig .tc := ⟨.hbm, 761, rfl⟩
abbrev main_v651 : Ref sig .tc := ⟨.hbm, 762, rfl⟩
abbrev main_v652 : Ref sig .tc := ⟨.hbm, 763, rfl⟩
abbrev main_v653 : Ref sig .tc := ⟨.hbm, 764, rfl⟩
abbrev main_v654 : Ref sig .tc := ⟨.hbm, 765, rfl⟩
abbrev main_v655 : Ref sig .tc := ⟨.hbm, 766, rfl⟩
abbrev main_v656 : Ref sig .tc := ⟨.hbm, 767, rfl⟩
abbrev main_v657 : Ref sig .tc := ⟨.hbm, 768, rfl⟩
abbrev main_v658 : Ref sig .tc := ⟨.hbm, 769, rfl⟩
abbrev main_v659 : Ref sig .tc := ⟨.hbm, 770, rfl⟩
abbrev main_call34_cst : Ref sig .tc := ⟨.hbm, 771, rfl⟩
abbrev main_call34_v0 : Ref sig .tc := ⟨.hbm, 772, rfl⟩
abbrev main_v660 : Ref sig .tc := ⟨.hbm, 773, rfl⟩
abbrev main_v661 : Ref sig .tc := ⟨.hbm, 774, rfl⟩
abbrev main_v662 : Ref sig .tc := ⟨.hbm, 775, rfl⟩
abbrev main_v663 : Ref sig .tc := ⟨.hbm, 776, rfl⟩
abbrev main_v664 : Ref sig .tc := ⟨.hbm, 777, rfl⟩
abbrev main_v665 : Ref sig .tc := ⟨.hbm, 778, rfl⟩
abbrev main_v666 : Ref sig .tc := ⟨.hbm, 779, rfl⟩
abbrev main_v667 : Ref sig .tc := ⟨.hbm, 780, rfl⟩
abbrev main_v668 : Ref sig .tc := ⟨.hbm, 781, rfl⟩
abbrev main_call35_cst : Ref sig .tc := ⟨.hbm, 782, rfl⟩
abbrev main_call35_v0 : Ref sig .tc := ⟨.hbm, 783, rfl⟩
abbrev main_v669 : Ref sig .tc := ⟨.hbm, 784, rfl⟩
abbrev main_v670 : Ref sig .tc := ⟨.hbm, 785, rfl⟩
abbrev main_v671 : Ref sig .tc := ⟨.hbm, 786, rfl⟩
abbrev main_v672 : Ref sig .tc := ⟨.hbm, 787, rfl⟩
abbrev main_v673 : Ref sig .tc := ⟨.hbm, 788, rfl⟩
abbrev main_v674 : Ref sig .tc := ⟨.hbm, 789, rfl⟩
abbrev main_v675 : Ref sig .tc := ⟨.hbm, 790, rfl⟩
abbrev main_v676 : Ref sig .tc := ⟨.hbm, 791, rfl⟩
abbrev main_v677 : Ref sig .tc := ⟨.hbm, 792, rfl⟩
abbrev main_v678 : Ref sig .tc := ⟨.hbm, 793, rfl⟩
abbrev main_cst_35 : Ref sig .tc := ⟨.hbm, 794, rfl⟩
abbrev main_v679 : Ref sig .tc := ⟨.hbm, 795, rfl⟩
abbrev main_cst_36 : Ref sig .tc := ⟨.hbm, 796, rfl⟩
abbrev main_v680 : Ref sig .tc := ⟨.hbm, 797, rfl⟩
abbrev main_v681 : Ref sig .tc := ⟨.hbm, 798, rfl⟩
abbrev main_v682 : Ref sig .tc := ⟨.hbm, 799, rfl⟩
abbrev main_v683 : Ref sig .tc := ⟨.hbm, 800, rfl⟩
abbrev main_v684 : Ref sig .tc := ⟨.hbm, 801, rfl⟩
abbrev main_v685 : Ref sig .tc := ⟨.hbm, 802, rfl⟩
abbrev main_v686 : Ref sig .tc := ⟨.hbm, 803, rfl⟩
abbrev main_v687 : Ref sig .tc := ⟨.hbm, 804, rfl⟩
abbrev main_v688 : Ref sig .tc := ⟨.hbm, 805, rfl⟩
abbrev main_v689 : Ref sig .tc := ⟨.hbm, 806, rfl⟩
abbrev main_v690 : Ref sig .tc := ⟨.hbm, 807, rfl⟩
abbrev main_v691 : Ref sig .tc := ⟨.hbm, 808, rfl⟩
abbrev main_v692 : Ref sig .tc := ⟨.hbm, 809, rfl⟩
abbrev main_v693 : Ref sig .tc := ⟨.hbm, 810, rfl⟩
abbrev main_v694 : Ref sig .tc := ⟨.hbm, 811, rfl⟩
abbrev main_v695 : Ref sig .tc := ⟨.hbm, 812, rfl⟩
abbrev main_v696 : Ref sig .tc := ⟨.hbm, 813, rfl⟩
abbrev main_call36_cst : Ref sig .tc := ⟨.hbm, 814, rfl⟩
abbrev main_call36_v0 : Ref sig .tc := ⟨.hbm, 815, rfl⟩
abbrev main_v697 : Ref sig .tc := ⟨.hbm, 816, rfl⟩
abbrev main_v698 : Ref sig .tc := ⟨.hbm, 817, rfl⟩
abbrev main_v699 : Ref sig .tc := ⟨.hbm, 818, rfl⟩
abbrev main_v700 : Ref sig .tc := ⟨.hbm, 819, rfl⟩
abbrev main_v701 : Ref sig .tc := ⟨.hbm, 820, rfl⟩
abbrev main_v702 : Ref sig .tc := ⟨.hbm, 821, rfl⟩
abbrev main_v703 : Ref sig .tc := ⟨.hbm, 822, rfl⟩
abbrev main_v704 : Ref sig .tc := ⟨.hbm, 823, rfl⟩
abbrev main_v705 : Ref sig .tc := ⟨.hbm, 824, rfl⟩
abbrev main_call37_cst : Ref sig .tc := ⟨.hbm, 825, rfl⟩
abbrev main_call37_v0 : Ref sig .tc := ⟨.hbm, 826, rfl⟩
abbrev main_v706 : Ref sig .tc := ⟨.hbm, 827, rfl⟩
abbrev main_v707 : Ref sig .tc := ⟨.hbm, 828, rfl⟩
abbrev main_v708 : Ref sig .tc := ⟨.hbm, 829, rfl⟩
abbrev main_v709 : Ref sig .tc := ⟨.hbm, 830, rfl⟩
abbrev main_v710 : Ref sig .tc := ⟨.hbm, 831, rfl⟩
abbrev main_v711 : Ref sig .tc := ⟨.hbm, 832, rfl⟩
abbrev main_v712 : Ref sig .tc := ⟨.hbm, 833, rfl⟩
abbrev main_v713 : Ref sig .tc := ⟨.hbm, 834, rfl⟩
abbrev main_v714 : Ref sig .tc := ⟨.hbm, 835, rfl⟩
abbrev main_v715 : Ref sig .tc := ⟨.hbm, 836, rfl⟩
abbrev main_cst_37 : Ref sig .tc := ⟨.hbm, 837, rfl⟩
abbrev main_v716 : Ref sig .tc := ⟨.hbm, 838, rfl⟩
abbrev main_cst_38 : Ref sig .tc := ⟨.hbm, 839, rfl⟩
abbrev main_v717 : Ref sig .tc := ⟨.hbm, 840, rfl⟩
abbrev main_v718 : Ref sig .tc := ⟨.hbm, 841, rfl⟩
abbrev main_v719 : Ref sig .tc := ⟨.hbm, 842, rfl⟩
abbrev main_v720 : Ref sig .tc := ⟨.hbm, 843, rfl⟩
abbrev main_v721 : Ref sig .tc := ⟨.hbm, 844, rfl⟩
abbrev main_v722 : Ref sig .tc := ⟨.hbm, 845, rfl⟩
abbrev main_v723 : Ref sig .tc := ⟨.hbm, 846, rfl⟩
abbrev main_v724 : Ref sig .tc := ⟨.hbm, 847, rfl⟩
abbrev main_v725 : Ref sig .tc := ⟨.hbm, 848, rfl⟩
abbrev main_v726 : Ref sig .tc := ⟨.hbm, 849, rfl⟩
abbrev main_v727 : Ref sig .tc := ⟨.hbm, 850, rfl⟩
abbrev main_v728 : Ref sig .tc := ⟨.hbm, 851, rfl⟩
abbrev main_v729 : Ref sig .tc := ⟨.hbm, 852, rfl⟩
abbrev main_v730 : Ref sig .tc := ⟨.hbm, 853, rfl⟩
abbrev main_v731 : Ref sig .tc := ⟨.hbm, 854, rfl⟩
abbrev main_v732 : Ref sig .tc := ⟨.hbm, 855, rfl⟩
abbrev main_v733 : Ref sig .tc := ⟨.hbm, 856, rfl⟩
abbrev main_call38_cst : Ref sig .tc := ⟨.hbm, 857, rfl⟩
abbrev main_call38_v0 : Ref sig .tc := ⟨.hbm, 858, rfl⟩
abbrev main_v734 : Ref sig .tc := ⟨.hbm, 859, rfl⟩
abbrev main_v735 : Ref sig .tc := ⟨.hbm, 860, rfl⟩
abbrev main_v736 : Ref sig .tc := ⟨.hbm, 861, rfl⟩
abbrev main_v737 : Ref sig .tc := ⟨.hbm, 862, rfl⟩
abbrev main_v738 : Ref sig .tc := ⟨.hbm, 863, rfl⟩
abbrev main_v739 : Ref sig .tc := ⟨.hbm, 864, rfl⟩
abbrev main_v740 : Ref sig .tc := ⟨.hbm, 865, rfl⟩
abbrev main_v741 : Ref sig .tc := ⟨.hbm, 866, rfl⟩
abbrev main_v742 : Ref sig .tc := ⟨.hbm, 867, rfl⟩
abbrev main_call39_cst : Ref sig .tc := ⟨.hbm, 868, rfl⟩
abbrev main_call39_v0 : Ref sig .tc := ⟨.hbm, 869, rfl⟩
abbrev main_v743 : Ref sig .tc := ⟨.hbm, 870, rfl⟩
abbrev main_v744 : Ref sig .tc := ⟨.hbm, 871, rfl⟩
abbrev main_v745 : Ref sig .tc := ⟨.hbm, 872, rfl⟩
abbrev main_v746 : Ref sig .tc := ⟨.hbm, 873, rfl⟩
abbrev main_v747 : Ref sig .tc := ⟨.hbm, 874, rfl⟩
abbrev main_v748 : Ref sig .tc := ⟨.hbm, 875, rfl⟩
abbrev main_v749 : Ref sig .tc := ⟨.hbm, 876, rfl⟩
abbrev main_v750 : Ref sig .tc := ⟨.hbm, 877, rfl⟩
abbrev main_v751 : Ref sig .tc := ⟨.hbm, 878, rfl⟩
abbrev main_v752 : Ref sig .tc := ⟨.hbm, 879, rfl⟩
abbrev main_cst_39 : Ref sig .tc := ⟨.hbm, 880, rfl⟩
abbrev main_v753 : Ref sig .tc := ⟨.hbm, 881, rfl⟩
abbrev main_cst_40 : Ref sig .tc := ⟨.hbm, 882, rfl⟩
abbrev main_v754 : Ref sig .tc := ⟨.hbm, 883, rfl⟩
abbrev main_v755 : Ref sig .tc := ⟨.hbm, 884, rfl⟩
abbrev main_v756 : Ref sig .tc := ⟨.hbm, 885, rfl⟩
abbrev main_v757 : Ref sig .tc := ⟨.hbm, 886, rfl⟩
abbrev main_v758 : Ref sig .tc := ⟨.hbm, 887, rfl⟩
abbrev main_v759 : Ref sig .tc := ⟨.hbm, 888, rfl⟩
abbrev main_v760 : Ref sig .tc := ⟨.hbm, 889, rfl⟩
abbrev main_v761 : Ref sig .tc := ⟨.hbm, 890, rfl⟩
abbrev main_v762 : Ref sig .tc := ⟨.hbm, 891, rfl⟩
abbrev main_v763 : Ref sig .tc := ⟨.hbm, 892, rfl⟩
abbrev main_v764 : Ref sig .tc := ⟨.hbm, 893, rfl⟩
abbrev main_v765 : Ref sig .tc := ⟨.hbm, 894, rfl⟩
abbrev main_v766 : Ref sig .tc := ⟨.hbm, 895, rfl⟩
abbrev main_v767 : Ref sig .tc := ⟨.hbm, 896, rfl⟩
abbrev main_v768 : Ref sig .tc := ⟨.hbm, 897, rfl⟩
abbrev main_v769 : Ref sig .tc := ⟨.hbm, 898, rfl⟩
abbrev main_v770 : Ref sig .tc := ⟨.hbm, 899, rfl⟩
abbrev main_call40_cst : Ref sig .tc := ⟨.hbm, 900, rfl⟩
abbrev main_call40_v0 : Ref sig .tc := ⟨.hbm, 901, rfl⟩
abbrev main_v771 : Ref sig .tc := ⟨.hbm, 902, rfl⟩
abbrev main_v772 : Ref sig .tc := ⟨.hbm, 903, rfl⟩
abbrev main_v773 : Ref sig .tc := ⟨.hbm, 904, rfl⟩
abbrev main_v774 : Ref sig .tc := ⟨.hbm, 905, rfl⟩
abbrev main_v775 : Ref sig .tc := ⟨.hbm, 906, rfl⟩
abbrev main_v776 : Ref sig .tc := ⟨.hbm, 907, rfl⟩
abbrev main_v777 : Ref sig .tc := ⟨.hbm, 908, rfl⟩
abbrev main_v778 : Ref sig .tc := ⟨.hbm, 909, rfl⟩
abbrev main_v779 : Ref sig .tc := ⟨.hbm, 910, rfl⟩
abbrev main_call41_cst : Ref sig .tc := ⟨.hbm, 911, rfl⟩
abbrev main_call41_v0 : Ref sig .tc := ⟨.hbm, 912, rfl⟩
abbrev main_v780 : Ref sig .tc := ⟨.hbm, 913, rfl⟩
abbrev main_v781 : Ref sig .tc := ⟨.hbm, 914, rfl⟩
abbrev main_v782 : Ref sig .tc := ⟨.hbm, 915, rfl⟩
abbrev main_v783 : Ref sig .tc := ⟨.hbm, 916, rfl⟩
abbrev main_v784 : Ref sig .tc := ⟨.hbm, 917, rfl⟩
abbrev main_v785 : Ref sig .tc := ⟨.hbm, 918, rfl⟩
abbrev main_v786 : Ref sig .tc := ⟨.hbm, 919, rfl⟩
abbrev main_v787 : Ref sig .tc := ⟨.hbm, 920, rfl⟩
abbrev main_v788 : Ref sig .tc := ⟨.hbm, 921, rfl⟩
abbrev main_v789 : Ref sig .tc := ⟨.hbm, 922, rfl⟩
abbrev main_cst_41 : Ref sig .tc := ⟨.hbm, 923, rfl⟩
abbrev main_v790 : Ref sig .tc := ⟨.hbm, 924, rfl⟩
abbrev main_cst_42 : Ref sig .tc := ⟨.hbm, 925, rfl⟩
abbrev main_v791 : Ref sig .tc := ⟨.hbm, 926, rfl⟩
abbrev main_v792 : Ref sig .tc := ⟨.hbm, 927, rfl⟩
abbrev main_v793 : Ref sig .tc := ⟨.hbm, 928, rfl⟩
abbrev main_v794 : Ref sig .tc := ⟨.hbm, 929, rfl⟩
abbrev main_v795 : Ref sig .tc := ⟨.hbm, 930, rfl⟩
abbrev main_v796 : Ref sig .tc := ⟨.hbm, 931, rfl⟩
abbrev main_v797 : Ref sig .tc := ⟨.hbm, 932, rfl⟩
abbrev main_v798 : Ref sig .tc := ⟨.hbm, 933, rfl⟩
abbrev main_v799 : Ref sig .tc := ⟨.hbm, 934, rfl⟩
abbrev main_v800 : Ref sig .tc := ⟨.hbm, 935, rfl⟩
abbrev main_v801 : Ref sig .tc := ⟨.hbm, 936, rfl⟩
abbrev main_v802 : Ref sig .tc := ⟨.hbm, 937, rfl⟩
abbrev main_v803 : Ref sig .tc := ⟨.hbm, 938, rfl⟩
abbrev main_v804 : Ref sig .tc := ⟨.hbm, 939, rfl⟩
abbrev main_v805 : Ref sig .tc := ⟨.hbm, 940, rfl⟩
abbrev main_v806 : Ref sig .tc := ⟨.hbm, 941, rfl⟩
abbrev main_v807 : Ref sig .tc := ⟨.hbm, 942, rfl⟩
abbrev main_call42_cst : Ref sig .tc := ⟨.hbm, 943, rfl⟩
abbrev main_call42_v0 : Ref sig .tc := ⟨.hbm, 944, rfl⟩
abbrev main_v808 : Ref sig .tc := ⟨.hbm, 945, rfl⟩
abbrev main_v809 : Ref sig .tc := ⟨.hbm, 946, rfl⟩
abbrev main_v810 : Ref sig .tc := ⟨.hbm, 947, rfl⟩
abbrev main_v811 : Ref sig .tc := ⟨.hbm, 948, rfl⟩
abbrev main_v812 : Ref sig .tc := ⟨.hbm, 949, rfl⟩
abbrev main_v813 : Ref sig .tc := ⟨.hbm, 950, rfl⟩
abbrev main_v814 : Ref sig .tc := ⟨.hbm, 951, rfl⟩
abbrev main_v815 : Ref sig .tc := ⟨.hbm, 952, rfl⟩
abbrev main_v816 : Ref sig .tc := ⟨.hbm, 953, rfl⟩
abbrev main_call43_cst : Ref sig .tc := ⟨.hbm, 954, rfl⟩
abbrev main_call43_v0 : Ref sig .tc := ⟨.hbm, 955, rfl⟩
abbrev main_v817 : Ref sig .tc := ⟨.hbm, 956, rfl⟩
abbrev main_v818 : Ref sig .tc := ⟨.hbm, 957, rfl⟩
abbrev main_v819 : Ref sig .tc := ⟨.hbm, 958, rfl⟩
abbrev main_v820 : Ref sig .tc := ⟨.hbm, 959, rfl⟩
abbrev main_v821 : Ref sig .tc := ⟨.hbm, 960, rfl⟩
abbrev main_v822 : Ref sig .tc := ⟨.hbm, 961, rfl⟩
abbrev main_v823 : Ref sig .tc := ⟨.hbm, 962, rfl⟩
abbrev main_v824 : Ref sig .tc := ⟨.hbm, 963, rfl⟩
abbrev main_v825 : Ref sig .tc := ⟨.hbm, 964, rfl⟩
abbrev main_v826 : Ref sig .tc := ⟨.hbm, 965, rfl⟩
abbrev main_cst_43 : Ref sig .tc := ⟨.hbm, 966, rfl⟩
abbrev main_v827 : Ref sig .tc := ⟨.hbm, 967, rfl⟩
abbrev main_cst_44 : Ref sig .tc := ⟨.hbm, 968, rfl⟩
abbrev main_v828 : Ref sig .tc := ⟨.hbm, 969, rfl⟩
abbrev main_v829 : Ref sig .tc := ⟨.hbm, 970, rfl⟩
abbrev main_v830 : Ref sig .tc := ⟨.hbm, 971, rfl⟩
abbrev main_v831 : Ref sig .tc := ⟨.hbm, 972, rfl⟩
abbrev main_v832 : Ref sig .tc := ⟨.hbm, 973, rfl⟩
abbrev main_v833 : Ref sig .tc := ⟨.hbm, 974, rfl⟩
abbrev main_v834 : Ref sig .tc := ⟨.hbm, 975, rfl⟩
abbrev main_v835 : Ref sig .tc := ⟨.hbm, 976, rfl⟩
abbrev main_v836 : Ref sig .tc := ⟨.hbm, 977, rfl⟩
abbrev main_v837 : Ref sig .tc := ⟨.hbm, 978, rfl⟩
abbrev main_v838 : Ref sig .tc := ⟨.hbm, 979, rfl⟩
abbrev main_v839 : Ref sig .tc := ⟨.hbm, 980, rfl⟩
abbrev main_v840 : Ref sig .tc := ⟨.hbm, 981, rfl⟩
abbrev main_v841 : Ref sig .tc := ⟨.hbm, 982, rfl⟩
abbrev main_v842 : Ref sig .tc := ⟨.hbm, 983, rfl⟩
abbrev main_v843 : Ref sig .tc := ⟨.hbm, 984, rfl⟩
abbrev main_v844 : Ref sig .tc := ⟨.hbm, 985, rfl⟩
abbrev main_call44_cst : Ref sig .tc := ⟨.hbm, 986, rfl⟩
abbrev main_call44_v0 : Ref sig .tc := ⟨.hbm, 987, rfl⟩
abbrev main_v845 : Ref sig .tc := ⟨.hbm, 988, rfl⟩
abbrev main_v846 : Ref sig .tc := ⟨.hbm, 989, rfl⟩
abbrev main_v847 : Ref sig .tc := ⟨.hbm, 990, rfl⟩
abbrev main_v848 : Ref sig .tc := ⟨.hbm, 991, rfl⟩
abbrev main_v849 : Ref sig .tc := ⟨.hbm, 992, rfl⟩
abbrev main_v850 : Ref sig .tc := ⟨.hbm, 993, rfl⟩
abbrev main_v851 : Ref sig .tc := ⟨.hbm, 994, rfl⟩
abbrev main_v852 : Ref sig .tc := ⟨.hbm, 995, rfl⟩
abbrev main_v853 : Ref sig .tc := ⟨.hbm, 996, rfl⟩
abbrev main_call45_cst : Ref sig .tc := ⟨.hbm, 997, rfl⟩
abbrev main_call45_v0 : Ref sig .tc := ⟨.hbm, 998, rfl⟩
abbrev main_v854 : Ref sig .tc := ⟨.hbm, 999, rfl⟩
abbrev main_v855 : Ref sig .tc := ⟨.hbm, 1000, rfl⟩
abbrev main_v856 : Ref sig .tc := ⟨.hbm, 1001, rfl⟩
abbrev main_v857 : Ref sig .tc := ⟨.hbm, 1002, rfl⟩
abbrev main_v858 : Ref sig .tc := ⟨.hbm, 1003, rfl⟩
abbrev main_v859 : Ref sig .tc := ⟨.hbm, 1004, rfl⟩
abbrev main_v860 : Ref sig .tc := ⟨.hbm, 1005, rfl⟩
abbrev main_v861 : Ref sig .tc := ⟨.hbm, 1006, rfl⟩
abbrev main_v862 : Ref sig .tc := ⟨.hbm, 1007, rfl⟩
abbrev main_v863 : Ref sig .tc := ⟨.hbm, 1008, rfl⟩
abbrev main_cst_45 : Ref sig .tc := ⟨.hbm, 1009, rfl⟩
abbrev main_v864 : Ref sig .tc := ⟨.hbm, 1010, rfl⟩
abbrev main_cst_46 : Ref sig .tc := ⟨.hbm, 1011, rfl⟩
abbrev main_v865 : Ref sig .tc := ⟨.hbm, 1012, rfl⟩
abbrev main_v866 : Ref sig .tc := ⟨.hbm, 1013, rfl⟩
abbrev main_v867 : Ref sig .tc := ⟨.hbm, 1014, rfl⟩
abbrev main_v868 : Ref sig .tc := ⟨.hbm, 1015, rfl⟩
abbrev main_v869 : Ref sig .tc := ⟨.hbm, 1016, rfl⟩
abbrev main_v870 : Ref sig .tc := ⟨.hbm, 1017, rfl⟩
abbrev main_v871 : Ref sig .tc := ⟨.hbm, 1018, rfl⟩
abbrev main_v872 : Ref sig .tc := ⟨.hbm, 1019, rfl⟩
abbrev main_v873 : Ref sig .tc := ⟨.hbm, 1020, rfl⟩
abbrev main_v874 : Ref sig .tc := ⟨.hbm, 1021, rfl⟩
abbrev main_v875 : Ref sig .tc := ⟨.hbm, 1022, rfl⟩
abbrev main_v876 : Ref sig .tc := ⟨.hbm, 1023, rfl⟩
abbrev main_v877 : Ref sig .tc := ⟨.hbm, 1024, rfl⟩
abbrev main_v878 : Ref sig .tc := ⟨.hbm, 1025, rfl⟩
abbrev main_v879 : Ref sig .tc := ⟨.hbm, 1026, rfl⟩
abbrev main_v880 : Ref sig .tc := ⟨.hbm, 1027, rfl⟩
abbrev main_v881 : Ref sig .tc := ⟨.hbm, 1028, rfl⟩
abbrev main_call46_cst : Ref sig .tc := ⟨.hbm, 1029, rfl⟩
abbrev main_call46_v0 : Ref sig .tc := ⟨.hbm, 1030, rfl⟩
abbrev main_v882 : Ref sig .tc := ⟨.hbm, 1031, rfl⟩
abbrev main_v883 : Ref sig .tc := ⟨.hbm, 1032, rfl⟩
abbrev main_v884 : Ref sig .tc := ⟨.hbm, 1033, rfl⟩
abbrev main_v885 : Ref sig .tc := ⟨.hbm, 1034, rfl⟩
abbrev main_v886 : Ref sig .tc := ⟨.hbm, 1035, rfl⟩
abbrev main_v887 : Ref sig .tc := ⟨.hbm, 1036, rfl⟩
abbrev main_v888 : Ref sig .tc := ⟨.hbm, 1037, rfl⟩
abbrev main_v889 : Ref sig .tc := ⟨.hbm, 1038, rfl⟩
abbrev main_v890 : Ref sig .tc := ⟨.hbm, 1039, rfl⟩
abbrev main_call47_cst : Ref sig .tc := ⟨.hbm, 1040, rfl⟩
abbrev main_call47_v0 : Ref sig .tc := ⟨.hbm, 1041, rfl⟩
abbrev main_v891 : Ref sig .tc := ⟨.hbm, 1042, rfl⟩
abbrev main_v892 : Ref sig .tc := ⟨.hbm, 1043, rfl⟩
abbrev main_v893 : Ref sig .tc := ⟨.hbm, 1044, rfl⟩
abbrev main_v894 : Ref sig .tc := ⟨.hbm, 1045, rfl⟩
abbrev main_v895 : Ref sig .tc := ⟨.hbm, 1046, rfl⟩
abbrev main_v896 : Ref sig .tc := ⟨.hbm, 1047, rfl⟩
abbrev main_v897 : Ref sig .tc := ⟨.hbm, 1048, rfl⟩
abbrev main_v898 : Ref sig .tc := ⟨.hbm, 1049, rfl⟩
abbrev main_v899 : Ref sig .tc := ⟨.hbm, 1050, rfl⟩
abbrev main_v900 : Ref sig .tc := ⟨.hbm, 1051, rfl⟩
abbrev main_cst_47 : Ref sig .tc := ⟨.hbm, 1052, rfl⟩
abbrev main_v901 : Ref sig .tc := ⟨.hbm, 1053, rfl⟩
abbrev main_cst_48 : Ref sig .tc := ⟨.hbm, 1054, rfl⟩
abbrev main_v902 : Ref sig .tc := ⟨.hbm, 1055, rfl⟩
abbrev main_v903 : Ref sig .tc := ⟨.hbm, 1056, rfl⟩
abbrev main_v904 : Ref sig .tc := ⟨.hbm, 1057, rfl⟩
abbrev main_v905 : Ref sig .tc := ⟨.hbm, 1058, rfl⟩
abbrev main_v906 : Ref sig .tc := ⟨.hbm, 1059, rfl⟩
abbrev main_v907 : Ref sig .tc := ⟨.hbm, 1060, rfl⟩
abbrev main_v908 : Ref sig .tc := ⟨.hbm, 1061, rfl⟩
abbrev main_v909 : Ref sig .tc := ⟨.hbm, 1062, rfl⟩
abbrev main_v910 : Ref sig .tc := ⟨.hbm, 1063, rfl⟩
abbrev main_v911 : Ref sig .tc := ⟨.hbm, 1064, rfl⟩
abbrev main_v912 : Ref sig .tc := ⟨.hbm, 1065, rfl⟩
abbrev main_v913 : Ref sig .tc := ⟨.hbm, 1066, rfl⟩
abbrev main_v914 : Ref sig .tc := ⟨.hbm, 1067, rfl⟩
abbrev main_v915 : Ref sig .tc := ⟨.hbm, 1068, rfl⟩
abbrev main_v916 : Ref sig .tc := ⟨.hbm, 1069, rfl⟩
abbrev main_v917 : Ref sig .tc := ⟨.hbm, 1070, rfl⟩
abbrev main_v918 : Ref sig .tc := ⟨.hbm, 1071, rfl⟩
abbrev main_call48_cst : Ref sig .tc := ⟨.hbm, 1072, rfl⟩
abbrev main_call48_v0 : Ref sig .tc := ⟨.hbm, 1073, rfl⟩
abbrev main_v919 : Ref sig .tc := ⟨.hbm, 1074, rfl⟩
abbrev main_v920 : Ref sig .tc := ⟨.hbm, 1075, rfl⟩
abbrev main_v921 : Ref sig .tc := ⟨.hbm, 1076, rfl⟩
abbrev main_v922 : Ref sig .tc := ⟨.hbm, 1077, rfl⟩
abbrev main_v923 : Ref sig .tc := ⟨.hbm, 1078, rfl⟩
abbrev main_v924 : Ref sig .tc := ⟨.hbm, 1079, rfl⟩
abbrev main_v925 : Ref sig .tc := ⟨.hbm, 1080, rfl⟩
abbrev main_v926 : Ref sig .tc := ⟨.hbm, 1081, rfl⟩
abbrev main_v927 : Ref sig .tc := ⟨.hbm, 1082, rfl⟩
abbrev main_call49_cst : Ref sig .tc := ⟨.hbm, 1083, rfl⟩
abbrev main_call49_v0 : Ref sig .tc := ⟨.hbm, 1084, rfl⟩
abbrev main_v928 : Ref sig .tc := ⟨.hbm, 1085, rfl⟩
abbrev main_v929 : Ref sig .tc := ⟨.hbm, 1086, rfl⟩
abbrev main_v930 : Ref sig .tc := ⟨.hbm, 1087, rfl⟩
abbrev main_v931 : Ref sig .tc := ⟨.hbm, 1088, rfl⟩
abbrev main_v932 : Ref sig .tc := ⟨.hbm, 1089, rfl⟩
abbrev main_v933 : Ref sig .tc := ⟨.hbm, 1090, rfl⟩
abbrev main_v934 : Ref sig .tc := ⟨.hbm, 1091, rfl⟩
abbrev main_v935 : Ref sig .tc := ⟨.hbm, 1092, rfl⟩
abbrev main_v936 : Ref sig .tc := ⟨.hbm, 1093, rfl⟩
abbrev main_v937 : Ref sig .tc := ⟨.hbm, 1094, rfl⟩
abbrev main_cst_49 : Ref sig .tc := ⟨.hbm, 1095, rfl⟩
abbrev main_v938 : Ref sig .tc := ⟨.hbm, 1096, rfl⟩
abbrev main_cst_50 : Ref sig .tc := ⟨.hbm, 1097, rfl⟩
abbrev main_v939 : Ref sig .tc := ⟨.hbm, 1098, rfl⟩
abbrev main_v940 : Ref sig .tc := ⟨.hbm, 1099, rfl⟩
abbrev main_v941 : Ref sig .tc := ⟨.hbm, 1100, rfl⟩
abbrev main_v942 : Ref sig .tc := ⟨.hbm, 1101, rfl⟩
abbrev main_v943 : Ref sig .tc := ⟨.hbm, 1102, rfl⟩
abbrev main_v944 : Ref sig .tc := ⟨.hbm, 1103, rfl⟩
abbrev main_v945 : Ref sig .tc := ⟨.hbm, 1104, rfl⟩
abbrev main_v946 : Ref sig .tc := ⟨.hbm, 1105, rfl⟩
abbrev main_v947 : Ref sig .tc := ⟨.hbm, 1106, rfl⟩
abbrev main_v948 : Ref sig .tc := ⟨.hbm, 1107, rfl⟩
abbrev main_v949 : Ref sig .tc := ⟨.hbm, 1108, rfl⟩
abbrev main_v950 : Ref sig .tc := ⟨.hbm, 1109, rfl⟩
abbrev main_v951 : Ref sig .tc := ⟨.hbm, 1110, rfl⟩
abbrev main_v952 : Ref sig .tc := ⟨.hbm, 1111, rfl⟩
abbrev main_v953 : Ref sig .tc := ⟨.hbm, 1112, rfl⟩
abbrev main_v954 : Ref sig .tc := ⟨.hbm, 1113, rfl⟩
abbrev main_v955 : Ref sig .tc := ⟨.hbm, 1114, rfl⟩
abbrev main_call50_cst : Ref sig .tc := ⟨.hbm, 1115, rfl⟩
abbrev main_call50_v0 : Ref sig .tc := ⟨.hbm, 1116, rfl⟩
abbrev main_v956 : Ref sig .tc := ⟨.hbm, 1117, rfl⟩
abbrev main_v957 : Ref sig .tc := ⟨.hbm, 1118, rfl⟩
abbrev main_v958 : Ref sig .tc := ⟨.hbm, 1119, rfl⟩
abbrev main_v959 : Ref sig .tc := ⟨.hbm, 1120, rfl⟩
abbrev main_v960 : Ref sig .tc := ⟨.hbm, 1121, rfl⟩
abbrev main_v961 : Ref sig .tc := ⟨.hbm, 1122, rfl⟩
abbrev main_v962 : Ref sig .tc := ⟨.hbm, 1123, rfl⟩
abbrev main_v963 : Ref sig .tc := ⟨.hbm, 1124, rfl⟩
abbrev main_v964 : Ref sig .tc := ⟨.hbm, 1125, rfl⟩
abbrev main_call51_cst : Ref sig .tc := ⟨.hbm, 1126, rfl⟩
abbrev main_call51_v0 : Ref sig .tc := ⟨.hbm, 1127, rfl⟩
abbrev main_v965 : Ref sig .tc := ⟨.hbm, 1128, rfl⟩
abbrev main_v966 : Ref sig .tc := ⟨.hbm, 1129, rfl⟩
abbrev main_v967 : Ref sig .tc := ⟨.hbm, 1130, rfl⟩
abbrev main_v968 : Ref sig .tc := ⟨.hbm, 1131, rfl⟩
abbrev main_v969 : Ref sig .tc := ⟨.hbm, 1132, rfl⟩
abbrev main_v970 : Ref sig .tc := ⟨.hbm, 1133, rfl⟩
abbrev main_v971 : Ref sig .tc := ⟨.hbm, 1134, rfl⟩
abbrev main_v972 : Ref sig .tc := ⟨.hbm, 1135, rfl⟩
abbrev main_v973 : Ref sig .tc := ⟨.hbm, 1136, rfl⟩
abbrev main_v974 : Ref sig .tc := ⟨.hbm, 1137, rfl⟩
abbrev main_cst_51 : Ref sig .tc := ⟨.hbm, 1138, rfl⟩
abbrev main_v975 : Ref sig .tc := ⟨.hbm, 1139, rfl⟩
abbrev main_cst_52 : Ref sig .tc := ⟨.hbm, 1140, rfl⟩
abbrev main_v976 : Ref sig .tc := ⟨.hbm, 1141, rfl⟩
abbrev main_v977 : Ref sig .tc := ⟨.hbm, 1142, rfl⟩
abbrev main_v978 : Ref sig .tc := ⟨.hbm, 1143, rfl⟩
abbrev main_v979 : Ref sig .tc := ⟨.hbm, 1144, rfl⟩
abbrev main_v980 : Ref sig .tc := ⟨.hbm, 1145, rfl⟩
abbrev main_v981 : Ref sig .tc := ⟨.hbm, 1146, rfl⟩
abbrev main_v982 : Ref sig .tc := ⟨.hbm, 1147, rfl⟩
abbrev main_v983 : Ref sig .tc := ⟨.hbm, 1148, rfl⟩
abbrev main_v984 : Ref sig .tc := ⟨.hbm, 1149, rfl⟩
abbrev main_v985 : Ref sig .tc := ⟨.hbm, 1150, rfl⟩
abbrev main_v986 : Ref sig .tc := ⟨.hbm, 1151, rfl⟩
abbrev main_v987 : Ref sig .tc := ⟨.hbm, 1152, rfl⟩
abbrev main_v988 : Ref sig .tc := ⟨.hbm, 1153, rfl⟩
abbrev main_v989 : Ref sig .tc := ⟨.hbm, 1154, rfl⟩
abbrev main_v990 : Ref sig .tc := ⟨.hbm, 1155, rfl⟩
abbrev main_v991 : Ref sig .tc := ⟨.hbm, 1156, rfl⟩
abbrev main_v992 : Ref sig .tc := ⟨.hbm, 1157, rfl⟩
abbrev main_call52_cst : Ref sig .tc := ⟨.hbm, 1158, rfl⟩
abbrev main_call52_v0 : Ref sig .tc := ⟨.hbm, 1159, rfl⟩
abbrev main_v993 : Ref sig .tc := ⟨.hbm, 1160, rfl⟩
abbrev main_v994 : Ref sig .tc := ⟨.hbm, 1161, rfl⟩
abbrev main_v995 : Ref sig .tc := ⟨.hbm, 1162, rfl⟩
abbrev main_v996 : Ref sig .tc := ⟨.hbm, 1163, rfl⟩
abbrev main_v997 : Ref sig .tc := ⟨.hbm, 1164, rfl⟩
abbrev main_v998 : Ref sig .tc := ⟨.hbm, 1165, rfl⟩
abbrev main_v999 : Ref sig .tc := ⟨.hbm, 1166, rfl⟩
abbrev main_v1000 : Ref sig .tc := ⟨.hbm, 1167, rfl⟩
abbrev main_v1001 : Ref sig .tc := ⟨.hbm, 1168, rfl⟩
abbrev main_call53_cst : Ref sig .tc := ⟨.hbm, 1169, rfl⟩
abbrev main_call53_v0 : Ref sig .tc := ⟨.hbm, 1170, rfl⟩
abbrev main_v1002 : Ref sig .tc := ⟨.hbm, 1171, rfl⟩
abbrev main_v1003 : Ref sig .tc := ⟨.hbm, 1172, rfl⟩
abbrev main_v1004 : Ref sig .tc := ⟨.hbm, 1173, rfl⟩
abbrev main_v1005 : Ref sig .tc := ⟨.hbm, 1174, rfl⟩
abbrev main_v1006 : Ref sig .tc := ⟨.hbm, 1175, rfl⟩
abbrev main_v1007 : Ref sig .tc := ⟨.hbm, 1176, rfl⟩
abbrev main_v1008 : Ref sig .tc := ⟨.hbm, 1177, rfl⟩
abbrev main_v1009 : Ref sig .tc := ⟨.hbm, 1178, rfl⟩
abbrev main_v1010 : Ref sig .tc := ⟨.hbm, 1179, rfl⟩
abbrev main_v1011 : Ref sig .tc := ⟨.hbm, 1180, rfl⟩
abbrev main_cst_53 : Ref sig .tc := ⟨.hbm, 1181, rfl⟩
abbrev main_v1012 : Ref sig .tc := ⟨.hbm, 1182, rfl⟩
abbrev main_cst_54 : Ref sig .tc := ⟨.hbm, 1183, rfl⟩
abbrev main_v1013 : Ref sig .tc := ⟨.hbm, 1184, rfl⟩
abbrev main_v1014 : Ref sig .tc := ⟨.hbm, 1185, rfl⟩
abbrev main_v1015 : Ref sig .tc := ⟨.hbm, 1186, rfl⟩
abbrev main_v1016 : Ref sig .tc := ⟨.hbm, 1187, rfl⟩
abbrev main_v1017 : Ref sig .tc := ⟨.hbm, 1188, rfl⟩
abbrev main_v1018 : Ref sig .tc := ⟨.hbm, 1189, rfl⟩
abbrev main_v1019 : Ref sig .tc := ⟨.hbm, 1190, rfl⟩
abbrev main_v1020 : Ref sig .tc := ⟨.hbm, 1191, rfl⟩
abbrev main_v1021 : Ref sig .tc := ⟨.hbm, 1192, rfl⟩
abbrev main_v1022 : Ref sig .tc := ⟨.hbm, 1193, rfl⟩
abbrev main_v1023 : Ref sig .tc := ⟨.hbm, 1194, rfl⟩
abbrev main_v1024 : Ref sig .tc := ⟨.hbm, 1195, rfl⟩
abbrev main_v1025 : Ref sig .tc := ⟨.hbm, 1196, rfl⟩
abbrev main_v1026 : Ref sig .tc := ⟨.hbm, 1197, rfl⟩
abbrev main_v1027 : Ref sig .tc := ⟨.hbm, 1198, rfl⟩
abbrev main_v1028 : Ref sig .tc := ⟨.hbm, 1199, rfl⟩
abbrev main_v1029 : Ref sig .tc := ⟨.hbm, 1200, rfl⟩
abbrev main_call54_cst : Ref sig .tc := ⟨.hbm, 1201, rfl⟩
abbrev main_call54_v0 : Ref sig .tc := ⟨.hbm, 1202, rfl⟩
abbrev main_v1030 : Ref sig .tc := ⟨.hbm, 1203, rfl⟩
abbrev main_v1031 : Ref sig .tc := ⟨.hbm, 1204, rfl⟩
abbrev main_v1032 : Ref sig .tc := ⟨.hbm, 1205, rfl⟩
abbrev main_v1033 : Ref sig .tc := ⟨.hbm, 1206, rfl⟩
abbrev main_v1034 : Ref sig .tc := ⟨.hbm, 1207, rfl⟩
abbrev main_v1035 : Ref sig .tc := ⟨.hbm, 1208, rfl⟩
abbrev main_v1036 : Ref sig .tc := ⟨.hbm, 1209, rfl⟩
abbrev main_v1037 : Ref sig .tc := ⟨.hbm, 1210, rfl⟩
abbrev main_v1038 : Ref sig .tc := ⟨.hbm, 1211, rfl⟩
abbrev main_call55_cst : Ref sig .tc := ⟨.hbm, 1212, rfl⟩
abbrev main_call55_v0 : Ref sig .tc := ⟨.hbm, 1213, rfl⟩
abbrev main_v1039 : Ref sig .tc := ⟨.hbm, 1214, rfl⟩
abbrev main_v1040 : Ref sig .tc := ⟨.hbm, 1215, rfl⟩
abbrev main_v1041 : Ref sig .tc := ⟨.hbm, 1216, rfl⟩
abbrev main_v1042 : Ref sig .tc := ⟨.hbm, 1217, rfl⟩
abbrev main_v1043 : Ref sig .tc := ⟨.hbm, 1218, rfl⟩
abbrev main_v1044 : Ref sig .tc := ⟨.hbm, 1219, rfl⟩
abbrev main_v1045 : Ref sig .tc := ⟨.hbm, 1220, rfl⟩
abbrev main_v1046 : Ref sig .tc := ⟨.hbm, 1221, rfl⟩
abbrev main_v1047 : Ref sig .tc := ⟨.hbm, 1222, rfl⟩
abbrev main_v1048 : Ref sig .tc := ⟨.hbm, 1223, rfl⟩
abbrev main_cst_55 : Ref sig .tc := ⟨.hbm, 1224, rfl⟩
abbrev main_v1049 : Ref sig .tc := ⟨.hbm, 1225, rfl⟩
abbrev main_cst_56 : Ref sig .tc := ⟨.hbm, 1226, rfl⟩
abbrev main_v1050 : Ref sig .tc := ⟨.hbm, 1227, rfl⟩
abbrev main_v1051 : Ref sig .tc := ⟨.hbm, 1228, rfl⟩
abbrev main_v1052 : Ref sig .tc := ⟨.hbm, 1229, rfl⟩
abbrev main_v1053 : Ref sig .tc := ⟨.hbm, 1230, rfl⟩
abbrev main_v1054 : Ref sig .tc := ⟨.hbm, 1231, rfl⟩
abbrev main_v1055 : Ref sig .tc := ⟨.hbm, 1232, rfl⟩
abbrev main_v1056 : Ref sig .tc := ⟨.hbm, 1233, rfl⟩
abbrev main_v1057 : Ref sig .tc := ⟨.hbm, 1234, rfl⟩
abbrev main_v1058 : Ref sig .tc := ⟨.hbm, 1235, rfl⟩
abbrev main_v1059 : Ref sig .tc := ⟨.hbm, 1236, rfl⟩
abbrev main_v1060 : Ref sig .tc := ⟨.hbm, 1237, rfl⟩
abbrev main_v1061 : Ref sig .tc := ⟨.hbm, 1238, rfl⟩
abbrev main_v1062 : Ref sig .tc := ⟨.hbm, 1239, rfl⟩
abbrev main_v1063 : Ref sig .tc := ⟨.hbm, 1240, rfl⟩
abbrev main_v1064 : Ref sig .tc := ⟨.hbm, 1241, rfl⟩
abbrev main_v1065 : Ref sig .tc := ⟨.hbm, 1242, rfl⟩
abbrev main_v1066 : Ref sig .tc := ⟨.hbm, 1243, rfl⟩
abbrev main_call56_cst : Ref sig .tc := ⟨.hbm, 1244, rfl⟩
abbrev main_call56_v0 : Ref sig .tc := ⟨.hbm, 1245, rfl⟩
abbrev main_v1067 : Ref sig .tc := ⟨.hbm, 1246, rfl⟩
abbrev main_v1068 : Ref sig .tc := ⟨.hbm, 1247, rfl⟩
abbrev main_v1069 : Ref sig .tc := ⟨.hbm, 1248, rfl⟩
abbrev main_v1070 : Ref sig .tc := ⟨.hbm, 1249, rfl⟩
abbrev main_v1071 : Ref sig .tc := ⟨.hbm, 1250, rfl⟩
abbrev main_v1072 : Ref sig .tc := ⟨.hbm, 1251, rfl⟩
abbrev main_v1073 : Ref sig .tc := ⟨.hbm, 1252, rfl⟩
abbrev main_v1074 : Ref sig .tc := ⟨.hbm, 1253, rfl⟩
abbrev main_v1075 : Ref sig .tc := ⟨.hbm, 1254, rfl⟩
abbrev main_call57_cst : Ref sig .tc := ⟨.hbm, 1255, rfl⟩
abbrev main_call57_v0 : Ref sig .tc := ⟨.hbm, 1256, rfl⟩
abbrev main_v1076 : Ref sig .tc := ⟨.hbm, 1257, rfl⟩
abbrev main_v1077 : Ref sig .tc := ⟨.hbm, 1258, rfl⟩
abbrev main_v1078 : Ref sig .tc := ⟨.hbm, 1259, rfl⟩
abbrev main_v1079 : Ref sig .tc := ⟨.hbm, 1260, rfl⟩
abbrev main_v1080 : Ref sig .tc := ⟨.hbm, 1261, rfl⟩
abbrev main_v1081 : Ref sig .tc := ⟨.hbm, 1262, rfl⟩
abbrev main_v1082 : Ref sig .tc := ⟨.hbm, 1263, rfl⟩
abbrev main_v1083 : Ref sig .tc := ⟨.hbm, 1264, rfl⟩
abbrev main_v1084 : Ref sig .tc := ⟨.hbm, 1265, rfl⟩
abbrev main_v1085 : Ref sig .tc := ⟨.hbm, 1266, rfl⟩
abbrev main_cst_57 : Ref sig .tc := ⟨.hbm, 1267, rfl⟩
abbrev main_v1086 : Ref sig .tc := ⟨.hbm, 1268, rfl⟩
abbrev main_cst_58 : Ref sig .tc := ⟨.hbm, 1269, rfl⟩
abbrev main_v1087 : Ref sig .tc := ⟨.hbm, 1270, rfl⟩
abbrev main_v1088 : Ref sig .tc := ⟨.hbm, 1271, rfl⟩
abbrev main_v1089 : Ref sig .tc := ⟨.hbm, 1272, rfl⟩
abbrev main_v1090 : Ref sig .tc := ⟨.hbm, 1273, rfl⟩
abbrev main_v1091 : Ref sig .tc := ⟨.hbm, 1274, rfl⟩
abbrev main_v1092 : Ref sig .tc := ⟨.hbm, 1275, rfl⟩
abbrev main_v1093 : Ref sig .tc := ⟨.hbm, 1276, rfl⟩
abbrev main_v1094 : Ref sig .tc := ⟨.hbm, 1277, rfl⟩
abbrev main_v1095 : Ref sig .tc := ⟨.hbm, 1278, rfl⟩
abbrev main_v1096 : Ref sig .tc := ⟨.hbm, 1279, rfl⟩
abbrev main_v1097 : Ref sig .tc := ⟨.hbm, 1280, rfl⟩
abbrev main_v1098 : Ref sig .tc := ⟨.hbm, 1281, rfl⟩
abbrev main_v1099 : Ref sig .tc := ⟨.hbm, 1282, rfl⟩
abbrev main_v1100 : Ref sig .tc := ⟨.hbm, 1283, rfl⟩
abbrev main_v1101 : Ref sig .tc := ⟨.hbm, 1284, rfl⟩
abbrev main_v1102 : Ref sig .tc := ⟨.hbm, 1285, rfl⟩
abbrev main_v1103 : Ref sig .tc := ⟨.hbm, 1286, rfl⟩
abbrev main_call58_cst : Ref sig .tc := ⟨.hbm, 1287, rfl⟩
abbrev main_call58_v0 : Ref sig .tc := ⟨.hbm, 1288, rfl⟩
abbrev main_v1104 : Ref sig .tc := ⟨.hbm, 1289, rfl⟩
abbrev main_v1105 : Ref sig .tc := ⟨.hbm, 1290, rfl⟩
abbrev main_v1106 : Ref sig .tc := ⟨.hbm, 1291, rfl⟩
abbrev main_v1107 : Ref sig .tc := ⟨.hbm, 1292, rfl⟩
abbrev main_v1108 : Ref sig .tc := ⟨.hbm, 1293, rfl⟩
abbrev main_v1109 : Ref sig .tc := ⟨.hbm, 1294, rfl⟩
abbrev main_v1110 : Ref sig .tc := ⟨.hbm, 1295, rfl⟩
abbrev main_v1111 : Ref sig .tc := ⟨.hbm, 1296, rfl⟩
abbrev main_v1112 : Ref sig .tc := ⟨.hbm, 1297, rfl⟩
abbrev main_call59_cst : Ref sig .tc := ⟨.hbm, 1298, rfl⟩
abbrev main_call59_v0 : Ref sig .tc := ⟨.hbm, 1299, rfl⟩
abbrev main_v1113 : Ref sig .tc := ⟨.hbm, 1300, rfl⟩
abbrev main_v1114 : Ref sig .tc := ⟨.hbm, 1301, rfl⟩
abbrev main_v1115 : Ref sig .tc := ⟨.hbm, 1302, rfl⟩
abbrev main_v1116 : Ref sig .tc := ⟨.hbm, 1303, rfl⟩
abbrev main_v1117 : Ref sig .tc := ⟨.hbm, 1304, rfl⟩
abbrev main_v1118 : Ref sig .tc := ⟨.hbm, 1305, rfl⟩
abbrev main_v1119 : Ref sig .tc := ⟨.hbm, 1306, rfl⟩
abbrev main_v1120 : Ref sig .tc := ⟨.hbm, 1307, rfl⟩
abbrev main_v1121 : Ref sig .tc := ⟨.hbm, 1308, rfl⟩
abbrev main_v1122 : Ref sig .tc := ⟨.hbm, 1309, rfl⟩
abbrev main_cst_59 : Ref sig .tc := ⟨.hbm, 1310, rfl⟩
abbrev main_v1123 : Ref sig .tc := ⟨.hbm, 1311, rfl⟩
abbrev main_cst_60 : Ref sig .tc := ⟨.hbm, 1312, rfl⟩
abbrev main_v1124 : Ref sig .tc := ⟨.hbm, 1313, rfl⟩
abbrev main_v1125 : Ref sig .tc := ⟨.hbm, 1314, rfl⟩
abbrev main_v1126 : Ref sig .tc := ⟨.hbm, 1315, rfl⟩
abbrev main_v1127 : Ref sig .tc := ⟨.hbm, 1316, rfl⟩
abbrev main_v1128 : Ref sig .tc := ⟨.hbm, 1317, rfl⟩
abbrev main_v1129 : Ref sig .tc := ⟨.hbm, 1318, rfl⟩
abbrev main_v1130 : Ref sig .tc := ⟨.hbm, 1319, rfl⟩
abbrev main_v1131 : Ref sig .tc := ⟨.hbm, 1320, rfl⟩
abbrev main_v1132 : Ref sig .tc := ⟨.hbm, 1321, rfl⟩
abbrev main_v1133 : Ref sig .tc := ⟨.hbm, 1322, rfl⟩
abbrev main_v1134 : Ref sig .tc := ⟨.hbm, 1323, rfl⟩
abbrev main_v1135 : Ref sig .tc := ⟨.hbm, 1324, rfl⟩
abbrev main_v1136 : Ref sig .tc := ⟨.hbm, 1325, rfl⟩
abbrev main_v1137 : Ref sig .tc := ⟨.hbm, 1326, rfl⟩
abbrev main_v1138 : Ref sig .tc := ⟨.hbm, 1327, rfl⟩
abbrev main_v1139 : Ref sig .tc := ⟨.hbm, 1328, rfl⟩
abbrev main_v1140 : Ref sig .tc := ⟨.hbm, 1329, rfl⟩
abbrev main_call60_cst : Ref sig .tc := ⟨.hbm, 1330, rfl⟩
abbrev main_call60_v0 : Ref sig .tc := ⟨.hbm, 1331, rfl⟩
abbrev main_v1141 : Ref sig .tc := ⟨.hbm, 1332, rfl⟩
abbrev main_v1142 : Ref sig .tc := ⟨.hbm, 1333, rfl⟩
abbrev main_v1143 : Ref sig .tc := ⟨.hbm, 1334, rfl⟩
abbrev main_v1144 : Ref sig .tc := ⟨.hbm, 1335, rfl⟩
abbrev main_v1145 : Ref sig .tc := ⟨.hbm, 1336, rfl⟩
abbrev main_v1146 : Ref sig .tc := ⟨.hbm, 1337, rfl⟩
abbrev main_v1147 : Ref sig .tc := ⟨.hbm, 1338, rfl⟩
abbrev main_v1148 : Ref sig .tc := ⟨.hbm, 1339, rfl⟩
abbrev main_v1149 : Ref sig .tc := ⟨.hbm, 1340, rfl⟩
abbrev main_call61_cst : Ref sig .tc := ⟨.hbm, 1341, rfl⟩
abbrev main_call61_v0 : Ref sig .tc := ⟨.hbm, 1342, rfl⟩
abbrev main_v1150 : Ref sig .tc := ⟨.hbm, 1343, rfl⟩
abbrev main_v1151 : Ref sig .tc := ⟨.hbm, 1344, rfl⟩
abbrev main_v1152 : Ref sig .tc := ⟨.hbm, 1345, rfl⟩
abbrev main_v1153 : Ref sig .tc := ⟨.hbm, 1346, rfl⟩
abbrev main_v1154 : Ref sig .tc := ⟨.hbm, 1347, rfl⟩
abbrev main_v1155 : Ref sig .tc := ⟨.hbm, 1348, rfl⟩
abbrev main_v1156 : Ref sig .tc := ⟨.hbm, 1349, rfl⟩
abbrev main_v1157 : Ref sig .tc := ⟨.hbm, 1350, rfl⟩
abbrev main_v1158 : Ref sig .tc := ⟨.hbm, 1351, rfl⟩
abbrev main_v1159 : Ref sig .tc := ⟨.hbm, 1352, rfl⟩
abbrev main_cst_61 : Ref sig .tc := ⟨.hbm, 1353, rfl⟩
abbrev main_v1160 : Ref sig .tc := ⟨.hbm, 1354, rfl⟩
abbrev main_cst_62 : Ref sig .tc := ⟨.hbm, 1355, rfl⟩
abbrev main_v1161 : Ref sig .tc := ⟨.hbm, 1356, rfl⟩
abbrev main_v1162 : Ref sig .tc := ⟨.hbm, 1357, rfl⟩
abbrev main_v1163 : Ref sig .tc := ⟨.hbm, 1358, rfl⟩
abbrev main_v1164 : Ref sig .tc := ⟨.hbm, 1359, rfl⟩
abbrev main_v1165 : Ref sig .tc := ⟨.hbm, 1360, rfl⟩

abbrev nD : Nat := 1
abbrev τ : Topo := Topo.v7x

variable {F : FTy → Type} [FloatOps F]

class Facts₀ : Prop where
  slices_S32x32x8_S1x1x8_0_0_0 : S32x32x8.Slices ![0, 0, 0] S1x1x8
  shapeCasts_S1x1x8_S1x8 : S1x1x8.ShapeCasts S1x8
  slices_S1x8_S0x8_0_0 : S1x8.Slices ![0, 0] S0x8
  concatenates_S0x8_S1x8_S1x8_d0 : Shape.Concatenates [S0x8, S1x8] S1x8 0
  slices_S262144x32_S262144x1_0_0 : S262144x32.Slices ![0, 0] S262144x1
  slices_S32x8_S1x8_0_0 : S32x8.Slices ![0, 0] S1x8
  shapeCasts_S1x8_S8 : S1x8.ShapeCasts S8
  bcast_S8_S1x8_1 : S8.BroadcastsInDim S1x8 (![1] : Fin 1 → Fin S1x8.rank)
  bcast_S1x8_S262144x8_0_1 : S1x8.BroadcastsInDim S262144x8 (![0, 1] : Fin 2 → Fin S262144x8.rank)
  shapeCasts_S262144x8_S262144x4x2 : S262144x8.ShapeCasts S262144x4x2
  reducesTo_S262144x4x2_S262144x4_d2 : S262144x4x2.ReducesTo [2] S262144x4
  h_S_ : 0 < S_.numel
  reducesTo_S262144x4_S262144_d1 : S262144x4.ReducesTo [1] S262144
  bcast_S262144_S262144x1_0 : S262144.BroadcastsInDim S262144x1 (![0] : Fin 1 → Fin S262144x1.rank)
  slices_S32x32x8_S1x2x8_1_0_0 : S32x32x8.Slices ![1, 0, 0] S1x2x8
  shapeCasts_S1x2x8_S2x8 : S1x2x8.ShapeCasts S2x8
  slices_S2x8_S1x8_0_0 : S2x8.Slices ![0, 0] S1x8
  slices_S2x8_S1x8_1_0 : S2x8.Slices ![1, 0] S1x8
  concatenates_S1x8_S1x8_S2x8_d0 : Shape.Concatenates [S1x8, S1x8] S2x8 0
  slices_S32x32x32_S1x1x32_1_0_0 : S32x32x32.Slices ![1, 0, 0] S1x1x32
  shapeCasts_S1x1x32_S1x32 : S1x1x32.ShapeCasts S1x32
  slices_S32x32_S1x32_1_0 : S32x32.Slices ![1, 0] S1x32
  shapeCasts_S1x32_S32 : S1x32.ShapeCasts S32
  bcast_S32_S1x32_1 : S32.BroadcastsInDim S1x32 (![1] : Fin 1 → Fin S1x32.rank)
  bcast_S1x32_S262144x32_0_1 : S1x32.BroadcastsInDim S262144x32 (![0, 1] : Fin 2 → Fin S262144x32.rank)
  bcast_S_S262144x32 : S_.BroadcastsInDim S262144x32 (![] : Fin 0 → Fin S262144x32.rank)
  slices_S32x32x32_S1x32x1_1_0_0 : S32x32x32.Slices ![1, 0, 0] S1x32x1
  shapeCasts_S1x32x1_S32x1 : S1x32x1.ShapeCasts S32x1
  slices_S32x32_S1x1_1_0 : S32x32.Slices ![1, 0] S1x1
  shapeCasts_S1x1_S1 : S1x1.ShapeCasts S1
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  bcast_S_S262144x1 : S_.BroadcastsInDim S262144x1 (![] : Fin 0 → Fin S262144x1.rank)
  slices_S262144x32_S262144x1_0_1 : S262144x32.Slices ![0, 1] S262144x1
  concatenates_S262144x1_S262144x1_S262144x2_d1 : Shape.Concatenates [S262144x1, S262144x1] S262144x2 1
  slices_S32x8_S1x8_1_0 : S32x8.Slices ![1, 0] S1x8
  slices_S32x32x8_S1x3x8_2_0_0 : S32x32x8.Slices ![2, 0, 0] S1x3x8
  shapeCasts_S1x3x8_S3x8 : S1x3x8.ShapeCasts S3x8
  slices_S3x8_S2x8_0_0 : S3x8.Slices ![0, 0] S2x8
  slices_S3x8_S1x8_2_0 : S3x8.Slices ![2, 0] S1x8
  concatenates_S2x8_S1x8_S3x8_d0 : Shape.Concatenates [S2x8, S1x8] S3x8 0
  slices_S262144x32_S262144x2_0_0 : S262144x32.Slices ![0, 0] S262144x2
  slices_S32x32x32_S1x2x32_2_0_0 : S32x32x32.Slices ![2, 0, 0] S1x2x32
  shapeCasts_S1x2x32_S2x32 : S1x2x32.ShapeCasts S2x32
  slices_S32x32_S1x32_2_0 : S32x32.Slices ![2, 0] S1x32
  slices_S32x32x32_S1x32x2_2_0_0 : S32x32x32.Slices ![2, 0, 0] S1x32x2
  shapeCasts_S1x32x2_S32x2 : S1x32x2.ShapeCasts S32x2
  slices_S32x32_S1x2_2_0 : S32x32.Slices ![2, 0] S1x2
  shapeCasts_S1x2_S2 : S1x2.ShapeCasts S2
  bcast_S2_S1x2_1 : S2.BroadcastsInDim S1x2 (![1] : Fin 1 → Fin S1x2.rank)
  bcast_S1x2_S262144x2_0_1 : S1x2.BroadcastsInDim S262144x2 (![0, 1] : Fin 2 → Fin S262144x2.rank)
  bcast_S_S262144x2 : S_.BroadcastsInDim S262144x2 (![] : Fin 0 → Fin S262144x2.rank)
  slices_S262144x32_S262144x1_0_2 : S262144x32.Slices ![0, 2] S262144x1
  concatenates_S262144x2_S262144x1_S262144x3_d1 : Shape.Concatenates [S262144x2, S262144x1] S262144x3 1
  slices_S32x8_S1x8_2_0 : S32x8.Slices ![2, 0] S1x8
  slices_S32x32x8_S1x4x8_3_0_0 : S32x32x8.Slices ![3, 0, 0] S1x4x8
  shapeCasts_S1x4x8_S4x8 : S1x4x8.ShapeCasts S4x8
  slices_S4x8_S3x8_0_0 : S4x8.Slices ![0, 0] S3x8
  slices_S4x8_S1x8_3_0 : S4x8.Slices ![3, 0] S1x8
  concatenates_S3x8_S1x8_S4x8_d0 : Shape.Concatenates [S3x8, S1x8] S4x8 0
  slices_S262144x32_S262144x3_0_0 : S262144x32.Slices ![0, 0] S262144x3
  slices_S32x32x32_S1x3x32_3_0_0 : S32x32x32.Slices ![3, 0, 0] S1x3x32
  shapeCasts_S1x3x32_S3x32 : S1x3x32.ShapeCasts S3x32
  slices_S32x32_S1x32_3_0 : S32x32.Slices ![3, 0] S1x32
  slices_S32x32x32_S1x32x3_3_0_0 : S32x32x32.Slices ![3, 0, 0] S1x32x3
  shapeCasts_S1x32x3_S32x3 : S1x32x3.ShapeCasts S32x3
  slices_S32x32_S1x3_3_0 : S32x32.Slices ![3, 0] S1x3
  shapeCasts_S1x3_S3 : S1x3.ShapeCasts S3
  bcast_S3_S1x3_1 : S3.BroadcastsInDim S1x3 (![1] : Fin 1 → Fin S1x3.rank)
  bcast_S1x3_S262144x3_0_1 : S1x3.BroadcastsInDim S262144x3 (![0, 1] : Fin 2 → Fin S262144x3.rank)
  bcast_S_S262144x3 : S_.BroadcastsInDim S262144x3 (![] : Fin 0 → Fin S262144x3.rank)
  slices_S262144x32_S262144x1_0_3 : S262144x32.Slices ![0, 3] S262144x1
  concatenates_S262144x3_S262144x1_S262144x4_d1 : Shape.Concatenates [S262144x3, S262144x1] S262144x4 1
  slices_S32x8_S1x8_3_0 : S32x8.Slices ![3, 0] S1x8
  slices_S32x32x8_S1x5x8_4_0_0 : S32x32x8.Slices ![4, 0, 0] S1x5x8
  shapeCasts_S1x5x8_S5x8 : S1x5x8.ShapeCasts S5x8
  slices_S5x8_S4x8_0_0 : S5x8.Slices ![0, 0] S4x8
  slices_S5x8_S1x8_4_0 : S5x8.Slices ![4, 0] S1x8
  concatenates_S4x8_S1x8_S5x8_d0 : Shape.Concatenates [S4x8, S1x8] S5x8 0
  slices_S262144x32_S262144x4_0_0 : S262144x32.Slices ![0, 0] S262144x4
  slices_S32x32x32_S1x4x32_4_0_0 : S32x32x32.Slices ![4, 0, 0] S1x4x32
  shapeCasts_S1x4x32_S4x32 : S1x4x32.ShapeCasts S4x32
  slices_S32x32_S1x32_4_0 : S32x32.Slices ![4, 0] S1x32
  slices_S32x32x32_S1x32x4_4_0_0 : S32x32x32.Slices ![4, 0, 0] S1x32x4
  shapeCasts_S1x32x4_S32x4 : S1x32x4.ShapeCasts S32x4
  slices_S32x32_S1x4_4_0 : S32x32.Slices ![4, 0] S1x4
  shapeCasts_S1x4_S4 : S1x4.ShapeCasts S4
  bcast_S4_S1x4_1 : S4.BroadcastsInDim S1x4 (![1] : Fin 1 → Fin S1x4.rank)
  bcast_S1x4_S262144x4_0_1 : S1x4.BroadcastsInDim S262144x4 (![0, 1] : Fin 2 → Fin S262144x4.rank)
  bcast_S_S262144x4 : S_.BroadcastsInDim S262144x4 (![] : Fin 0 → Fin S262144x4.rank)
  slices_S262144x32_S262144x1_0_4 : S262144x32.Slices ![0, 4] S262144x1
  concatenates_S262144x4_S262144x1_S262144x5_d1 : Shape.Concatenates [S262144x4, S262144x1] S262144x5 1
  slices_S32x8_S1x8_4_0 : S32x8.Slices ![4, 0] S1x8
  slices_S32x32x8_S1x6x8_5_0_0 : S32x32x8.Slices ![5, 0, 0] S1x6x8
  shapeCasts_S1x6x8_S6x8 : S1x6x8.ShapeCasts S6x8
  slices_S6x8_S5x8_0_0 : S6x8.Slices ![0, 0] S5x8
  slices_S6x8_S1x8_5_0 : S6x8.Slices ![5, 0] S1x8
  concatenates_S5x8_S1x8_S6x8_d0 : Shape.Concatenates [S5x8, S1x8] S6x8 0
  slices_S262144x32_S262144x5_0_0 : S262144x32.Slices ![0, 0] S262144x5
  slices_S32x32x32_S1x5x32_5_0_0 : S32x32x32.Slices ![5, 0, 0] S1x5x32
  shapeCasts_S1x5x32_S5x32 : S1x5x32.ShapeCasts S5x32
  slices_S32x32_S1x32_5_0 : S32x32.Slices ![5, 0] S1x32
  slices_S32x32x32_S1x32x5_5_0_0 : S32x32x32.Slices ![5, 0, 0] S1x32x5
  shapeCasts_S1x32x5_S32x5 : S1x32x5.ShapeCasts S32x5
  slices_S32x32_S1x5_5_0 : S32x32.Slices ![5, 0] S1x5
  shapeCasts_S1x5_S5 : S1x5.ShapeCasts S5
  bcast_S5_S1x5_1 : S5.BroadcastsInDim S1x5 (![1] : Fin 1 → Fin S1x5.rank)
  bcast_S1x5_S262144x5_0_1 : S1x5.BroadcastsInDim S262144x5 (![0, 1] : Fin 2 → Fin S262144x5.rank)
  bcast_S_S262144x5 : S_.BroadcastsInDim S262144x5 (![] : Fin 0 → Fin S262144x5.rank)
  slices_S262144x32_S262144x1_0_5 : S262144x32.Slices ![0, 5] S262144x1
  concatenates_S262144x5_S262144x1_S262144x6_d1 : Shape.Concatenates [S262144x5, S262144x1] S262144x6 1
  slices_S32x8_S1x8_5_0 : S32x8.Slices ![5, 0] S1x8
  slices_S32x32x8_S1x7x8_6_0_0 : S32x32x8.Slices ![6, 0, 0] S1x7x8
  shapeCasts_S1x7x8_S7x8 : S1x7x8.ShapeCasts S7x8
  slices_S7x8_S6x8_0_0 : S7x8.Slices ![0, 0] S6x8
  slices_S7x8_S1x8_6_0 : S7x8.Slices ![6, 0] S1x8
  concatenates_S6x8_S1x8_S7x8_d0 : Shape.Concatenates [S6x8, S1x8] S7x8 0
  slices_S262144x32_S262144x6_0_0 : S262144x32.Slices ![0, 0] S262144x6
  slices_S32x32x32_S1x6x32_6_0_0 : S32x32x32.Slices ![6, 0, 0] S1x6x32
  shapeCasts_S1x6x32_S6x32 : S1x6x32.ShapeCasts S6x32
  slices_S32x32_S1x32_6_0 : S32x32.Slices ![6, 0] S1x32
  slices_S32x32x32_S1x32x6_6_0_0 : S32x32x32.Slices ![6, 0, 0] S1x32x6
  shapeCasts_S1x32x6_S32x6 : S1x32x6.ShapeCasts S32x6
  slices_S32x32_S1x6_6_0 : S32x32.Slices ![6, 0] S1x6
  shapeCasts_S1x6_S6 : S1x6.ShapeCasts S6
  bcast_S6_S1x6_1 : S6.BroadcastsInDim S1x6 (![1] : Fin 1 → Fin S1x6.rank)
  bcast_S1x6_S262144x6_0_1 : S1x6.BroadcastsInDim S262144x6 (![0, 1] : Fin 2 → Fin S262144x6.rank)
  bcast_S_S262144x6 : S_.BroadcastsInDim S262144x6 (![] : Fin 0 → Fin S262144x6.rank)
  slices_S262144x32_S262144x1_0_6 : S262144x32.Slices ![0, 6] S262144x1
  concatenates_S262144x6_S262144x1_S262144x7_d1 : Shape.Concatenates [S262144x6, S262144x1] S262144x7 1
  slices_S32x8_S1x8_6_0 : S32x8.Slices ![6, 0] S1x8
  slices_S32x32x8_S1x8x8_7_0_0 : S32x32x8.Slices ![7, 0, 0] S1x8x8
  shapeCasts_S1x8x8_S8x8 : S1x8x8.ShapeCasts S8x8
  slices_S8x8_S7x8_0_0 : S8x8.Slices ![0, 0] S7x8
  slices_S8x8_S1x8_7_0 : S8x8.Slices ![7, 0] S1x8
  concatenates_S7x8_S1x8_S8x8_d0 : Shape.Concatenates [S7x8, S1x8] S8x8 0
  slices_S262144x32_S262144x7_0_0 : S262144x32.Slices ![0, 0] S262144x7
  slices_S32x32x32_S1x7x32_7_0_0 : S32x32x32.Slices ![7, 0, 0] S1x7x32
  shapeCasts_S1x7x32_S7x32 : S1x7x32.ShapeCasts S7x32
  slices_S32x32_S1x32_7_0 : S32x32.Slices ![7, 0] S1x32
  slices_S32x32x32_S1x32x7_7_0_0 : S32x32x32.Slices ![7, 0, 0] S1x32x7
  shapeCasts_S1x32x7_S32x7 : S1x32x7.ShapeCasts S32x7
  slices_S32x32_S1x7_7_0 : S32x32.Slices ![7, 0] S1x7
  shapeCasts_S1x7_S7 : S1x7.ShapeCasts S7
  bcast_S7_S1x7_1 : S7.BroadcastsInDim S1x7 (![1] : Fin 1 → Fin S1x7.rank)
  bcast_S1x7_S262144x7_0_1 : S1x7.BroadcastsInDim S262144x7 (![0, 1] : Fin 2 → Fin S262144x7.rank)
  bcast_S_S262144x7 : S_.BroadcastsInDim S262144x7 (![] : Fin 0 → Fin S262144x7.rank)
  slices_S262144x32_S262144x1_0_7 : S262144x32.Slices ![0, 7] S262144x1
  concatenates_S262144x7_S262144x1_S262144x8_d1 : Shape.Concatenates [S262144x7, S262144x1] S262144x8 1
  slices_S32x8_S1x8_7_0 : S32x8.Slices ![7, 0] S1x8
  slices_S32x32x8_S1x9x8_8_0_0 : S32x32x8.Slices ![8, 0, 0] S1x9x8
  shapeCasts_S1x9x8_S9x8 : S1x9x8.ShapeCasts S9x8
  slices_S9x8_S8x8_0_0 : S9x8.Slices ![0, 0] S8x8
  slices_S9x8_S1x8_8_0 : S9x8.Slices ![8, 0] S1x8
  concatenates_S8x8_S1x8_S9x8_d0 : Shape.Concatenates [S8x8, S1x8] S9x8 0
  slices_S262144x32_S262144x8_0_0 : S262144x32.Slices ![0, 0] S262144x8
  slices_S32x32x32_S1x8x32_8_0_0 : S32x32x32.Slices ![8, 0, 0] S1x8x32
  shapeCasts_S1x8x32_S8x32 : S1x8x32.ShapeCasts S8x32
  slices_S32x32_S1x32_8_0 : S32x32.Slices ![8, 0] S1x32
  slices_S32x32x32_S1x32x8_8_0_0 : S32x32x32.Slices ![8, 0, 0] S1x32x8
  shapeCasts_S1x32x8_S32x8 : S1x32x8.ShapeCasts S32x8
  slices_S32x32_S1x8_8_0 : S32x32.Slices ![8, 0] S1x8
  bcast_S_S262144x8 : S_.BroadcastsInDim S262144x8 (![] : Fin 0 → Fin S262144x8.rank)
  slices_S262144x32_S262144x1_0_8 : S262144x32.Slices ![0, 8] S262144x1
  concatenates_S262144x8_S262144x1_S262144x9_d1 : Shape.Concatenates [S262144x8, S262144x1] S262144x9 1
  slices_S32x8_S1x8_8_0 : S32x8.Slices ![8, 0] S1x8
  slices_S32x32x8_S1x10x8_9_0_0 : S32x32x8.Slices ![9, 0, 0] S1x10x8
  shapeCasts_S1x10x8_S10x8 : S1x10x8.ShapeCasts S10x8
  slices_S10x8_S9x8_0_0 : S10x8.Slices ![0, 0] S9x8
  slices_S10x8_S1x8_9_0 : S10x8.Slices ![9, 0] S1x8
  concatenates_S9x8_S1x8_S10x8_d0 : Shape.Concatenates [S9x8, S1x8] S10x8 0
  slices_S262144x32_S262144x9_0_0 : S262144x32.Slices ![0, 0] S262144x9
  slices_S32x32x32_S1x9x32_9_0_0 : S32x32x32.Slices ![9, 0, 0] S1x9x32
  shapeCasts_S1x9x32_S9x32 : S1x9x32.ShapeCasts S9x32
  slices_S32x32_S1x32_9_0 : S32x32.Slices ![9, 0] S1x32
  slices_S32x32x32_S1x32x9_9_0_0 : S32x32x32.Slices ![9, 0, 0] S1x32x9
  shapeCasts_S1x32x9_S32x9 : S1x32x9.ShapeCasts S32x9
  slices_S32x32_S1x9_9_0 : S32x32.Slices ![9, 0] S1x9
  shapeCasts_S1x9_S9 : S1x9.ShapeCasts S9
  bcast_S9_S1x9_1 : S9.BroadcastsInDim S1x9 (![1] : Fin 1 → Fin S1x9.rank)
  bcast_S1x9_S262144x9_0_1 : S1x9.BroadcastsInDim S262144x9 (![0, 1] : Fin 2 → Fin S262144x9.rank)
  bcast_S_S262144x9 : S_.BroadcastsInDim S262144x9 (![] : Fin 0 → Fin S262144x9.rank)
  slices_S262144x32_S262144x1_0_9 : S262144x32.Slices ![0, 9] S262144x1
  concatenates_S262144x9_S262144x1_S262144x10_d1 : Shape.Concatenates [S262144x9, S262144x1] S262144x10 1
  slices_S32x8_S1x8_9_0 : S32x8.Slices ![9, 0] S1x8
  slices_S32x32x8_S1x11x8_10_0_0 : S32x32x8.Slices ![10, 0, 0] S1x11x8
  shapeCasts_S1x11x8_S11x8 : S1x11x8.ShapeCasts S11x8
  slices_S11x8_S10x8_0_0 : S11x8.Slices ![0, 0] S10x8
  slices_S11x8_S1x8_10_0 : S11x8.Slices ![10, 0] S1x8
  concatenates_S10x8_S1x8_S11x8_d0 : Shape.Concatenates [S10x8, S1x8] S11x8 0
  slices_S262144x32_S262144x10_0_0 : S262144x32.Slices ![0, 0] S262144x10
  slices_S32x32x32_S1x10x32_10_0_0 : S32x32x32.Slices ![10, 0, 0] S1x10x32
  shapeCasts_S1x10x32_S10x32 : S1x10x32.ShapeCasts S10x32
  slices_S32x32_S1x32_10_0 : S32x32.Slices ![10, 0] S1x32
  slices_S32x32x32_S1x32x10_10_0_0 : S32x32x32.Slices ![10, 0, 0] S1x32x10
  shapeCasts_S1x32x10_S32x10 : S1x32x10.ShapeCasts S32x10
  slices_S32x32_S1x10_10_0 : S32x32.Slices ![10, 0] S1x10
  shapeCasts_S1x10_S10 : S1x10.ShapeCasts S10
  bcast_S10_S1x10_1 : S10.BroadcastsInDim S1x10 (![1] : Fin 1 → Fin S1x10.rank)
  bcast_S1x10_S262144x10_0_1 : S1x10.BroadcastsInDim S262144x10 (![0, 1] : Fin 2 → Fin S262144x10.rank)
  bcast_S_S262144x10 : S_.BroadcastsInDim S262144x10 (![] : Fin 0 → Fin S262144x10.rank)
  slices_S262144x32_S262144x1_0_10 : S262144x32.Slices ![0, 10] S262144x1
  concatenates_S262144x10_S262144x1_S262144x11_d1 : Shape.Concatenates [S262144x10, S262144x1] S262144x11 1
  slices_S32x8_S1x8_10_0 : S32x8.Slices ![10, 0] S1x8
  slices_S32x32x8_S1x12x8_11_0_0 : S32x32x8.Slices ![11, 0, 0] S1x12x8
  shapeCasts_S1x12x8_S12x8 : S1x12x8.ShapeCasts S12x8
  slices_S12x8_S11x8_0_0 : S12x8.Slices ![0, 0] S11x8
  slices_S12x8_S1x8_11_0 : S12x8.Slices ![11, 0] S1x8
  concatenates_S11x8_S1x8_S12x8_d0 : Shape.Concatenates [S11x8, S1x8] S12x8 0
  slices_S262144x32_S262144x11_0_0 : S262144x32.Slices ![0, 0] S262144x11
  slices_S32x32x32_S1x11x32_11_0_0 : S32x32x32.Slices ![11, 0, 0] S1x11x32
  shapeCasts_S1x11x32_S11x32 : S1x11x32.ShapeCasts S11x32
  slices_S32x32_S1x32_11_0 : S32x32.Slices ![11, 0] S1x32
  slices_S32x32x32_S1x32x11_11_0_0 : S32x32x32.Slices ![11, 0, 0] S1x32x11
  shapeCasts_S1x32x11_S32x11 : S1x32x11.ShapeCasts S32x11
  slices_S32x32_S1x11_11_0 : S32x32.Slices ![11, 0] S1x11
  shapeCasts_S1x11_S11 : S1x11.ShapeCasts S11
  bcast_S11_S1x11_1 : S11.BroadcastsInDim S1x11 (![1] : Fin 1 → Fin S1x11.rank)
  bcast_S1x11_S262144x11_0_1 : S1x11.BroadcastsInDim S262144x11 (![0, 1] : Fin 2 → Fin S262144x11.rank)
  bcast_S_S262144x11 : S_.BroadcastsInDim S262144x11 (![] : Fin 0 → Fin S262144x11.rank)
  slices_S262144x32_S262144x1_0_11 : S262144x32.Slices ![0, 11] S262144x1
  concatenates_S262144x11_S262144x1_S262144x12_d1 : Shape.Concatenates [S262144x11, S262144x1] S262144x12 1
  slices_S32x8_S1x8_11_0 : S32x8.Slices ![11, 0] S1x8
  slices_S32x32x8_S1x13x8_12_0_0 : S32x32x8.Slices ![12, 0, 0] S1x13x8
  shapeCasts_S1x13x8_S13x8 : S1x13x8.ShapeCasts S13x8
  slices_S13x8_S12x8_0_0 : S13x8.Slices ![0, 0] S12x8
  slices_S13x8_S1x8_12_0 : S13x8.Slices ![12, 0] S1x8
  concatenates_S12x8_S1x8_S13x8_d0 : Shape.Concatenates [S12x8, S1x8] S13x8 0
  slices_S262144x32_S262144x12_0_0 : S262144x32.Slices ![0, 0] S262144x12
  slices_S32x32x32_S1x12x32_12_0_0 : S32x32x32.Slices ![12, 0, 0] S1x12x32
  shapeCasts_S1x12x32_S12x32 : S1x12x32.ShapeCasts S12x32
  slices_S32x32_S1x32_12_0 : S32x32.Slices ![12, 0] S1x32
  slices_S32x32x32_S1x32x12_12_0_0 : S32x32x32.Slices ![12, 0, 0] S1x32x12
  shapeCasts_S1x32x12_S32x12 : S1x32x12.ShapeCasts S32x12
  slices_S32x32_S1x12_12_0 : S32x32.Slices ![12, 0] S1x12
  shapeCasts_S1x12_S12 : S1x12.ShapeCasts S12
  bcast_S12_S1x12_1 : S12.BroadcastsInDim S1x12 (![1] : Fin 1 → Fin S1x12.rank)
  bcast_S1x12_S262144x12_0_1 : S1x12.BroadcastsInDim S262144x12 (![0, 1] : Fin 2 → Fin S262144x12.rank)
  bcast_S_S262144x12 : S_.BroadcastsInDim S262144x12 (![] : Fin 0 → Fin S262144x12.rank)
  slices_S262144x32_S262144x1_0_12 : S262144x32.Slices ![0, 12] S262144x1
  concatenates_S262144x12_S262144x1_S262144x13_d1 : Shape.Concatenates [S262144x12, S262144x1] S262144x13 1
  slices_S32x8_S1x8_12_0 : S32x8.Slices ![12, 0] S1x8
  slices_S32x32x8_S1x14x8_13_0_0 : S32x32x8.Slices ![13, 0, 0] S1x14x8
  shapeCasts_S1x14x8_S14x8 : S1x14x8.ShapeCasts S14x8
  slices_S14x8_S13x8_0_0 : S14x8.Slices ![0, 0] S13x8
  slices_S14x8_S1x8_13_0 : S14x8.Slices ![13, 0] S1x8
  concatenates_S13x8_S1x8_S14x8_d0 : Shape.Concatenates [S13x8, S1x8] S14x8 0
  slices_S262144x32_S262144x13_0_0 : S262144x32.Slices ![0, 0] S262144x13
  slices_S32x32x32_S1x13x32_13_0_0 : S32x32x32.Slices ![13, 0, 0] S1x13x32
  shapeCasts_S1x13x32_S13x32 : S1x13x32.ShapeCasts S13x32
  slices_S32x32_S1x32_13_0 : S32x32.Slices ![13, 0] S1x32
  slices_S32x32x32_S1x32x13_13_0_0 : S32x32x32.Slices ![13, 0, 0] S1x32x13
  shapeCasts_S1x32x13_S32x13 : S1x32x13.ShapeCasts S32x13
  slices_S32x32_S1x13_13_0 : S32x32.Slices ![13, 0] S1x13
  shapeCasts_S1x13_S13 : S1x13.ShapeCasts S13
  bcast_S13_S1x13_1 : S13.BroadcastsInDim S1x13 (![1] : Fin 1 → Fin S1x13.rank)
  bcast_S1x13_S262144x13_0_1 : S1x13.BroadcastsInDim S262144x13 (![0, 1] : Fin 2 → Fin S262144x13.rank)
  bcast_S_S262144x13 : S_.BroadcastsInDim S262144x13 (![] : Fin 0 → Fin S262144x13.rank)
  slices_S262144x32_S262144x1_0_13 : S262144x32.Slices ![0, 13] S262144x1
  concatenates_S262144x13_S262144x1_S262144x14_d1 : Shape.Concatenates [S262144x13, S262144x1] S262144x14 1
  slices_S32x8_S1x8_13_0 : S32x8.Slices ![13, 0] S1x8
  slices_S32x32x8_S1x15x8_14_0_0 : S32x32x8.Slices ![14, 0, 0] S1x15x8
  shapeCasts_S1x15x8_S15x8 : S1x15x8.ShapeCasts S15x8
  slices_S15x8_S14x8_0_0 : S15x8.Slices ![0, 0] S14x8
  slices_S15x8_S1x8_14_0 : S15x8.Slices ![14, 0] S1x8
  concatenates_S14x8_S1x8_S15x8_d0 : Shape.Concatenates [S14x8, S1x8] S15x8 0
  slices_S262144x32_S262144x14_0_0 : S262144x32.Slices ![0, 0] S262144x14
  slices_S32x32x32_S1x14x32_14_0_0 : S32x32x32.Slices ![14, 0, 0] S1x14x32
  shapeCasts_S1x14x32_S14x32 : S1x14x32.ShapeCasts S14x32
  slices_S32x32_S1x32_14_0 : S32x32.Slices ![14, 0] S1x32
  slices_S32x32x32_S1x32x14_14_0_0 : S32x32x32.Slices ![14, 0, 0] S1x32x14
  shapeCasts_S1x32x14_S32x14 : S1x32x14.ShapeCasts S32x14
  slices_S32x32_S1x14_14_0 : S32x32.Slices ![14, 0] S1x14
  shapeCasts_S1x14_S14 : S1x14.ShapeCasts S14
  bcast_S14_S1x14_1 : S14.BroadcastsInDim S1x14 (![1] : Fin 1 → Fin S1x14.rank)
  bcast_S1x14_S262144x14_0_1 : S1x14.BroadcastsInDim S262144x14 (![0, 1] : Fin 2 → Fin S262144x14.rank)
  bcast_S_S262144x14 : S_.BroadcastsInDim S262144x14 (![] : Fin 0 → Fin S262144x14.rank)
  slices_S262144x32_S262144x1_0_14 : S262144x32.Slices ![0, 14] S262144x1
  concatenates_S262144x14_S262144x1_S262144x15_d1 : Shape.Concatenates [S262144x14, S262144x1] S262144x15 1
  slices_S32x8_S1x8_14_0 : S32x8.Slices ![14, 0] S1x8
  slices_S32x32x8_S1x16x8_15_0_0 : S32x32x8.Slices ![15, 0, 0] S1x16x8
  shapeCasts_S1x16x8_S16x8 : S1x16x8.ShapeCasts S16x8
  slices_S16x8_S15x8_0_0 : S16x8.Slices ![0, 0] S15x8
  slices_S16x8_S1x8_15_0 : S16x8.Slices ![15, 0] S1x8
  concatenates_S15x8_S1x8_S16x8_d0 : Shape.Concatenates [S15x8, S1x8] S16x8 0
  slices_S262144x32_S262144x15_0_0 : S262144x32.Slices ![0, 0] S262144x15
  slices_S32x32x32_S1x15x32_15_0_0 : S32x32x32.Slices ![15, 0, 0] S1x15x32
  shapeCasts_S1x15x32_S15x32 : S1x15x32.ShapeCasts S15x32
  slices_S32x32_S1x32_15_0 : S32x32.Slices ![15, 0] S1x32
  slices_S32x32x32_S1x32x15_15_0_0 : S32x32x32.Slices ![15, 0, 0] S1x32x15
  shapeCasts_S1x32x15_S32x15 : S1x32x15.ShapeCasts S32x15
  slices_S32x32_S1x15_15_0 : S32x32.Slices ![15, 0] S1x15
  shapeCasts_S1x15_S15 : S1x15.ShapeCasts S15
  bcast_S15_S1x15_1 : S15.BroadcastsInDim S1x15 (![1] : Fin 1 → Fin S1x15.rank)
  bcast_S1x15_S262144x15_0_1 : S1x15.BroadcastsInDim S262144x15 (![0, 1] : Fin 2 → Fin S262144x15.rank)
  bcast_S_S262144x15 : S_.BroadcastsInDim S262144x15 (![] : Fin 0 → Fin S262144x15.rank)
  slices_S262144x32_S262144x1_0_15 : S262144x32.Slices ![0, 15] S262144x1
  concatenates_S262144x15_S262144x1_S262144x16_d1 : Shape.Concatenates [S262144x15, S262144x1] S262144x16 1
  slices_S32x8_S1x8_15_0 : S32x8.Slices ![15, 0] S1x8
  slices_S32x32x8_S1x17x8_16_0_0 : S32x32x8.Slices ![16, 0, 0] S1x17x8
  shapeCasts_S1x17x8_S17x8 : S1x17x8.ShapeCasts S17x8
  slices_S17x8_S16x8_0_0 : S17x8.Slices ![0, 0] S16x8
  slices_S17x8_S1x8_16_0 : S17x8.Slices ![16, 0] S1x8
  concatenates_S16x8_S1x8_S17x8_d0 : Shape.Concatenates [S16x8, S1x8] S17x8 0
  slices_S262144x32_S262144x16_0_0 : S262144x32.Slices ![0, 0] S262144x16
  slices_S32x32x32_S1x16x32_16_0_0 : S32x32x32.Slices ![16, 0, 0] S1x16x32
  shapeCasts_S1x16x32_S16x32 : S1x16x32.ShapeCasts S16x32
  slices_S32x32_S1x32_16_0 : S32x32.Slices ![16, 0] S1x32
  slices_S32x32x32_S1x32x16_16_0_0 : S32x32x32.Slices ![16, 0, 0] S1x32x16
  shapeCasts_S1x32x16_S32x16 : S1x32x16.ShapeCasts S32x16
  slices_S32x32_S1x16_16_0 : S32x32.Slices ![16, 0] S1x16
  shapeCasts_S1x16_S16 : S1x16.ShapeCasts S16
  bcast_S16_S1x16_1 : S16.BroadcastsInDim S1x16 (![1] : Fin 1 → Fin S1x16.rank)
  bcast_S1x16_S262144x16_0_1 : S1x16.BroadcastsInDim S262144x16 (![0, 1] : Fin 2 → Fin S262144x16.rank)
  bcast_S_S262144x16 : S_.BroadcastsInDim S262144x16 (![] : Fin 0 → Fin S262144x16.rank)
  slices_S262144x32_S262144x1_0_16 : S262144x32.Slices ![0, 16] S262144x1
  concatenates_S262144x16_S262144x1_S262144x17_d1 : Shape.Concatenates [S262144x16, S262144x1] S262144x17 1
  slices_S32x8_S1x8_16_0 : S32x8.Slices ![16, 0] S1x8
  slices_S32x32x8_S1x18x8_17_0_0 : S32x32x8.Slices ![17, 0, 0] S1x18x8
  shapeCasts_S1x18x8_S18x8 : S1x18x8.ShapeCasts S18x8
  slices_S18x8_S17x8_0_0 : S18x8.Slices ![0, 0] S17x8
  slices_S18x8_S1x8_17_0 : S18x8.Slices ![17, 0] S1x8
  concatenates_S17x8_S1x8_S18x8_d0 : Shape.Concatenates [S17x8, S1x8] S18x8 0
  slices_S262144x32_S262144x17_0_0 : S262144x32.Slices ![0, 0] S262144x17
  slices_S32x32x32_S1x17x32_17_0_0 : S32x32x32.Slices ![17, 0, 0] S1x17x32
  shapeCasts_S1x17x32_S17x32 : S1x17x32.ShapeCasts S17x32
  slices_S32x32_S1x32_17_0 : S32x32.Slices ![17, 0] S1x32
  slices_S32x32x32_S1x32x17_17_0_0 : S32x32x32.Slices ![17, 0, 0] S1x32x17
  shapeCasts_S1x32x17_S32x17 : S1x32x17.ShapeCasts S32x17
  slices_S32x32_S1x17_17_0 : S32x32.Slices ![17, 0] S1x17
  shapeCasts_S1x17_S17 : S1x17.ShapeCasts S17
  bcast_S17_S1x17_1 : S17.BroadcastsInDim S1x17 (![1] : Fin 1 → Fin S1x17.rank)
  bcast_S1x17_S262144x17_0_1 : S1x17.BroadcastsInDim S262144x17 (![0, 1] : Fin 2 → Fin S262144x17.rank)
  bcast_S_S262144x17 : S_.BroadcastsInDim S262144x17 (![] : Fin 0 → Fin S262144x17.rank)
  slices_S262144x32_S262144x1_0_17 : S262144x32.Slices ![0, 17] S262144x1
  concatenates_S262144x17_S262144x1_S262144x18_d1 : Shape.Concatenates [S262144x17, S262144x1] S262144x18 1
  slices_S32x8_S1x8_17_0 : S32x8.Slices ![17, 0] S1x8
  slices_S32x32x8_S1x19x8_18_0_0 : S32x32x8.Slices ![18, 0, 0] S1x19x8
  shapeCasts_S1x19x8_S19x8 : S1x19x8.ShapeCasts S19x8
  slices_S19x8_S18x8_0_0 : S19x8.Slices ![0, 0] S18x8
  slices_S19x8_S1x8_18_0 : S19x8.Slices ![18, 0] S1x8
  concatenates_S18x8_S1x8_S19x8_d0 : Shape.Concatenates [S18x8, S1x8] S19x8 0
  slices_S262144x32_S262144x18_0_0 : S262144x32.Slices ![0, 0] S262144x18
  slices_S32x32x32_S1x18x32_18_0_0 : S32x32x32.Slices ![18, 0, 0] S1x18x32
  shapeCasts_S1x18x32_S18x32 : S1x18x32.ShapeCasts S18x32
  slices_S32x32_S1x32_18_0 : S32x32.Slices ![18, 0] S1x32
  slices_S32x32x32_S1x32x18_18_0_0 : S32x32x32.Slices ![18, 0, 0] S1x32x18
  shapeCasts_S1x32x18_S32x18 : S1x32x18.ShapeCasts S32x18
  slices_S32x32_S1x18_18_0 : S32x32.Slices ![18, 0] S1x18
  shapeCasts_S1x18_S18 : S1x18.ShapeCasts S18
  bcast_S18_S1x18_1 : S18.BroadcastsInDim S1x18 (![1] : Fin 1 → Fin S1x18.rank)
  bcast_S1x18_S262144x18_0_1 : S1x18.BroadcastsInDim S262144x18 (![0, 1] : Fin 2 → Fin S262144x18.rank)
  bcast_S_S262144x18 : S_.BroadcastsInDim S262144x18 (![] : Fin 0 → Fin S262144x18.rank)
  slices_S262144x32_S262144x1_0_18 : S262144x32.Slices ![0, 18] S262144x1
  concatenates_S262144x18_S262144x1_S262144x19_d1 : Shape.Concatenates [S262144x18, S262144x1] S262144x19 1
  slices_S32x8_S1x8_18_0 : S32x8.Slices ![18, 0] S1x8
  slices_S32x32x8_S1x20x8_19_0_0 : S32x32x8.Slices ![19, 0, 0] S1x20x8
  shapeCasts_S1x20x8_S20x8 : S1x20x8.ShapeCasts S20x8
  slices_S20x8_S19x8_0_0 : S20x8.Slices ![0, 0] S19x8
  slices_S20x8_S1x8_19_0 : S20x8.Slices ![19, 0] S1x8
  concatenates_S19x8_S1x8_S20x8_d0 : Shape.Concatenates [S19x8, S1x8] S20x8 0
  slices_S262144x32_S262144x19_0_0 : S262144x32.Slices ![0, 0] S262144x19
  slices_S32x32x32_S1x19x32_19_0_0 : S32x32x32.Slices ![19, 0, 0] S1x19x32
  shapeCasts_S1x19x32_S19x32 : S1x19x32.ShapeCasts S19x32
  slices_S32x32_S1x32_19_0 : S32x32.Slices ![19, 0] S1x32
  slices_S32x32x32_S1x32x19_19_0_0 : S32x32x32.Slices ![19, 0, 0] S1x32x19
  shapeCasts_S1x32x19_S32x19 : S1x32x19.ShapeCasts S32x19
  slices_S32x32_S1x19_19_0 : S32x32.Slices ![19, 0] S1x19
  shapeCasts_S1x19_S19 : S1x19.ShapeCasts S19
  bcast_S19_S1x19_1 : S19.BroadcastsInDim S1x19 (![1] : Fin 1 → Fin S1x19.rank)
  bcast_S1x19_S262144x19_0_1 : S1x19.BroadcastsInDim S262144x19 (![0, 1] : Fin 2 → Fin S262144x19.rank)
  bcast_S_S262144x19 : S_.BroadcastsInDim S262144x19 (![] : Fin 0 → Fin S262144x19.rank)
  slices_S262144x32_S262144x1_0_19 : S262144x32.Slices ![0, 19] S262144x1
  concatenates_S262144x19_S262144x1_S262144x20_d1 : Shape.Concatenates [S262144x19, S262144x1] S262144x20 1
  slices_S32x8_S1x8_19_0 : S32x8.Slices ![19, 0] S1x8
  slices_S32x32x8_S1x21x8_20_0_0 : S32x32x8.Slices ![20, 0, 0] S1x21x8
  shapeCasts_S1x21x8_S21x8 : S1x21x8.ShapeCasts S21x8
  slices_S21x8_S20x8_0_0 : S21x8.Slices ![0, 0] S20x8
  slices_S21x8_S1x8_20_0 : S21x8.Slices ![20, 0] S1x8
  concatenates_S20x8_S1x8_S21x8_d0 : Shape.Concatenates [S20x8, S1x8] S21x8 0
  slices_S262144x32_S262144x20_0_0 : S262144x32.Slices ![0, 0] S262144x20
  slices_S32x32x32_S1x20x32_20_0_0 : S32x32x32.Slices ![20, 0, 0] S1x20x32
  shapeCasts_S1x20x32_S20x32 : S1x20x32.ShapeCasts S20x32
  slices_S32x32_S1x32_20_0 : S32x32.Slices ![20, 0] S1x32
  slices_S32x32x32_S1x32x20_20_0_0 : S32x32x32.Slices ![20, 0, 0] S1x32x20
  shapeCasts_S1x32x20_S32x20 : S1x32x20.ShapeCasts S32x20
  slices_S32x32_S1x20_20_0 : S32x32.Slices ![20, 0] S1x20
  shapeCasts_S1x20_S20 : S1x20.ShapeCasts S20
  bcast_S20_S1x20_1 : S20.BroadcastsInDim S1x20 (![1] : Fin 1 → Fin S1x20.rank)
  bcast_S1x20_S262144x20_0_1 : S1x20.BroadcastsInDim S262144x20 (![0, 1] : Fin 2 → Fin S262144x20.rank)
  bcast_S_S262144x20 : S_.BroadcastsInDim S262144x20 (![] : Fin 0 → Fin S262144x20.rank)
  slices_S262144x32_S262144x1_0_20 : S262144x32.Slices ![0, 20] S262144x1
  concatenates_S262144x20_S262144x1_S262144x21_d1 : Shape.Concatenates [S262144x20, S262144x1] S262144x21 1
  slices_S32x8_S1x8_20_0 : S32x8.Slices ![20, 0] S1x8
  slices_S32x32x8_S1x22x8_21_0_0 : S32x32x8.Slices ![21, 0, 0] S1x22x8
  shapeCasts_S1x22x8_S22x8 : S1x22x8.ShapeCasts S22x8
  slices_S22x8_S21x8_0_0 : S22x8.Slices ![0, 0] S21x8
  slices_S22x8_S1x8_21_0 : S22x8.Slices ![21, 0] S1x8
  concatenates_S21x8_S1x8_S22x8_d0 : Shape.Concatenates [S21x8, S1x8] S22x8 0
  slices_S262144x32_S262144x21_0_0 : S262144x32.Slices ![0, 0] S262144x21
  slices_S32x32x32_S1x21x32_21_0_0 : S32x32x32.Slices ![21, 0, 0] S1x21x32
  shapeCasts_S1x21x32_S21x32 : S1x21x32.ShapeCasts S21x32
  slices_S32x32_S1x32_21_0 : S32x32.Slices ![21, 0] S1x32
  slices_S32x32x32_S1x32x21_21_0_0 : S32x32x32.Slices ![21, 0, 0] S1x32x21
  shapeCasts_S1x32x21_S32x21 : S1x32x21.ShapeCasts S32x21
  slices_S32x32_S1x21_21_0 : S32x32.Slices ![21, 0] S1x21
  shapeCasts_S1x21_S21 : S1x21.ShapeCasts S21
  bcast_S21_S1x21_1 : S21.BroadcastsInDim S1x21 (![1] : Fin 1 → Fin S1x21.rank)
  bcast_S1x21_S262144x21_0_1 : S1x21.BroadcastsInDim S262144x21 (![0, 1] : Fin 2 → Fin S262144x21.rank)
  bcast_S_S262144x21 : S_.BroadcastsInDim S262144x21 (![] : Fin 0 → Fin S262144x21.rank)
  slices_S262144x32_S262144x1_0_21 : S262144x32.Slices ![0, 21] S262144x1
  concatenates_S262144x21_S262144x1_S262144x22_d1 : Shape.Concatenates [S262144x21, S262144x1] S262144x22 1
  slices_S32x8_S1x8_21_0 : S32x8.Slices ![21, 0] S1x8
  slices_S32x32x8_S1x23x8_22_0_0 : S32x32x8.Slices ![22, 0, 0] S1x23x8
  shapeCasts_S1x23x8_S23x8 : S1x23x8.ShapeCasts S23x8
  slices_S23x8_S22x8_0_0 : S23x8.Slices ![0, 0] S22x8
  slices_S23x8_S1x8_22_0 : S23x8.Slices ![22, 0] S1x8
  concatenates_S22x8_S1x8_S23x8_d0 : Shape.Concatenates [S22x8, S1x8] S23x8 0
  slices_S262144x32_S262144x22_0_0 : S262144x32.Slices ![0, 0] S262144x22
  slices_S32x32x32_S1x22x32_22_0_0 : S32x32x32.Slices ![22, 0, 0] S1x22x32
  shapeCasts_S1x22x32_S22x32 : S1x22x32.ShapeCasts S22x32
  slices_S32x32_S1x32_22_0 : S32x32.Slices ![22, 0] S1x32
  slices_S32x32x32_S1x32x22_22_0_0 : S32x32x32.Slices ![22, 0, 0] S1x32x22
  shapeCasts_S1x32x22_S32x22 : S1x32x22.ShapeCasts S32x22
  slices_S32x32_S1x22_22_0 : S32x32.Slices ![22, 0] S1x22
  shapeCasts_S1x22_S22 : S1x22.ShapeCasts S22
  bcast_S22_S1x22_1 : S22.BroadcastsInDim S1x22 (![1] : Fin 1 → Fin S1x22.rank)
  bcast_S1x22_S262144x22_0_1 : S1x22.BroadcastsInDim S262144x22 (![0, 1] : Fin 2 → Fin S262144x22.rank)
  bcast_S_S262144x22 : S_.BroadcastsInDim S262144x22 (![] : Fin 0 → Fin S262144x22.rank)
  slices_S262144x32_S262144x1_0_22 : S262144x32.Slices ![0, 22] S262144x1
  concatenates_S262144x22_S262144x1_S262144x23_d1 : Shape.Concatenates [S262144x22, S262144x1] S262144x23 1
  slices_S32x8_S1x8_22_0 : S32x8.Slices ![22, 0] S1x8
  slices_S32x32x8_S1x24x8_23_0_0 : S32x32x8.Slices ![23, 0, 0] S1x24x8
  shapeCasts_S1x24x8_S24x8 : S1x24x8.ShapeCasts S24x8
  slices_S24x8_S23x8_0_0 : S24x8.Slices ![0, 0] S23x8
  slices_S24x8_S1x8_23_0 : S24x8.Slices ![23, 0] S1x8
  concatenates_S23x8_S1x8_S24x8_d0 : Shape.Concatenates [S23x8, S1x8] S24x8 0
  slices_S262144x32_S262144x23_0_0 : S262144x32.Slices ![0, 0] S262144x23
  slices_S32x32x32_S1x23x32_23_0_0 : S32x32x32.Slices ![23, 0, 0] S1x23x32
  shapeCasts_S1x23x32_S23x32 : S1x23x32.ShapeCasts S23x32
  slices_S32x32_S1x32_23_0 : S32x32.Slices ![23, 0] S1x32
  slices_S32x32x32_S1x32x23_23_0_0 : S32x32x32.Slices ![23, 0, 0] S1x32x23
  shapeCasts_S1x32x23_S32x23 : S1x32x23.ShapeCasts S32x23
  slices_S32x32_S1x23_23_0 : S32x32.Slices ![23, 0] S1x23
  shapeCasts_S1x23_S23 : S1x23.ShapeCasts S23
  bcast_S23_S1x23_1 : S23.BroadcastsInDim S1x23 (![1] : Fin 1 → Fin S1x23.rank)
  bcast_S1x23_S262144x23_0_1 : S1x23.BroadcastsInDim S262144x23 (![0, 1] : Fin 2 → Fin S262144x23.rank)
  bcast_S_S262144x23 : S_.BroadcastsInDim S262144x23 (![] : Fin 0 → Fin S262144x23.rank)
  slices_S262144x32_S262144x1_0_23 : S262144x32.Slices ![0, 23] S262144x1
  concatenates_S262144x23_S262144x1_S262144x24_d1 : Shape.Concatenates [S262144x23, S262144x1] S262144x24 1
  slices_S32x8_S1x8_23_0 : S32x8.Slices ![23, 0] S1x8
  slices_S32x32x8_S1x25x8_24_0_0 : S32x32x8.Slices ![24, 0, 0] S1x25x8
  shapeCasts_S1x25x8_S25x8 : S1x25x8.ShapeCasts S25x8
  slices_S25x8_S24x8_0_0 : S25x8.Slices ![0, 0] S24x8
  slices_S25x8_S1x8_24_0 : S25x8.Slices ![24, 0] S1x8
  concatenates_S24x8_S1x8_S25x8_d0 : Shape.Concatenates [S24x8, S1x8] S25x8 0
  slices_S262144x32_S262144x24_0_0 : S262144x32.Slices ![0, 0] S262144x24
  slices_S32x32x32_S1x24x32_24_0_0 : S32x32x32.Slices ![24, 0, 0] S1x24x32
  shapeCasts_S1x24x32_S24x32 : S1x24x32.ShapeCasts S24x32
  slices_S32x32_S1x32_24_0 : S32x32.Slices ![24, 0] S1x32
  slices_S32x32x32_S1x32x24_24_0_0 : S32x32x32.Slices ![24, 0, 0] S1x32x24
  shapeCasts_S1x32x24_S32x24 : S1x32x24.ShapeCasts S32x24
  slices_S32x32_S1x24_24_0 : S32x32.Slices ![24, 0] S1x24
  shapeCasts_S1x24_S24 : S1x24.ShapeCasts S24
  bcast_S24_S1x24_1 : S24.BroadcastsInDim S1x24 (![1] : Fin 1 → Fin S1x24.rank)
  bcast_S1x24_S262144x24_0_1 : S1x24.BroadcastsInDim S262144x24 (![0, 1] : Fin 2 → Fin S262144x24.rank)
  bcast_S_S262144x24 : S_.BroadcastsInDim S262144x24 (![] : Fin 0 → Fin S262144x24.rank)
  slices_S262144x32_S262144x1_0_24 : S262144x32.Slices ![0, 24] S262144x1
  concatenates_S262144x24_S262144x1_S262144x25_d1 : Shape.Concatenates [S262144x24, S262144x1] S262144x25 1
  slices_S32x8_S1x8_24_0 : S32x8.Slices ![24, 0] S1x8
  slices_S32x32x8_S1x26x8_25_0_0 : S32x32x8.Slices ![25, 0, 0] S1x26x8
  shapeCasts_S1x26x8_S26x8 : S1x26x8.ShapeCasts S26x8
  slices_S26x8_S25x8_0_0 : S26x8.Slices ![0, 0] S25x8
  slices_S26x8_S1x8_25_0 : S26x8.Slices ![25, 0] S1x8
  concatenates_S25x8_S1x8_S26x8_d0 : Shape.Concatenates [S25x8, S1x8] S26x8 0
  slices_S262144x32_S262144x25_0_0 : S262144x32.Slices ![0, 0] S262144x25
  slices_S32x32x32_S1x25x32_25_0_0 : S32x32x32.Slices ![25, 0, 0] S1x25x32
  shapeCasts_S1x25x32_S25x32 : S1x25x32.ShapeCasts S25x32
  slices_S32x32_S1x32_25_0 : S32x32.Slices ![25, 0] S1x32
  slices_S32x32x32_S1x32x25_25_0_0 : S32x32x32.Slices ![25, 0, 0] S1x32x25
  shapeCasts_S1x32x25_S32x25 : S1x32x25.ShapeCasts S32x25
  slices_S32x32_S1x25_25_0 : S32x32.Slices ![25, 0] S1x25
  shapeCasts_S1x25_S25 : S1x25.ShapeCasts S25
  bcast_S25_S1x25_1 : S25.BroadcastsInDim S1x25 (![1] : Fin 1 → Fin S1x25.rank)
  bcast_S1x25_S262144x25_0_1 : S1x25.BroadcastsInDim S262144x25 (![0, 1] : Fin 2 → Fin S262144x25.rank)
  bcast_S_S262144x25 : S_.BroadcastsInDim S262144x25 (![] : Fin 0 → Fin S262144x25.rank)
  slices_S262144x32_S262144x1_0_25 : S262144x32.Slices ![0, 25] S262144x1
  concatenates_S262144x25_S262144x1_S262144x26_d1 : Shape.Concatenates [S262144x25, S262144x1] S262144x26 1
  slices_S32x8_S1x8_25_0 : S32x8.Slices ![25, 0] S1x8
  slices_S32x32x8_S1x27x8_26_0_0 : S32x32x8.Slices ![26, 0, 0] S1x27x8
  shapeCasts_S1x27x8_S27x8 : S1x27x8.ShapeCasts S27x8
  slices_S27x8_S26x8_0_0 : S27x8.Slices ![0, 0] S26x8
  slices_S27x8_S1x8_26_0 : S27x8.Slices ![26, 0] S1x8
  concatenates_S26x8_S1x8_S27x8_d0 : Shape.Concatenates [S26x8, S1x8] S27x8 0
  slices_S262144x32_S262144x26_0_0 : S262144x32.Slices ![0, 0] S262144x26
  slices_S32x32x32_S1x26x32_26_0_0 : S32x32x32.Slices ![26, 0, 0] S1x26x32
  shapeCasts_S1x26x32_S26x32 : S1x26x32.ShapeCasts S26x32
  slices_S32x32_S1x32_26_0 : S32x32.Slices ![26, 0] S1x32
  slices_S32x32x32_S1x32x26_26_0_0 : S32x32x32.Slices ![26, 0, 0] S1x32x26
  shapeCasts_S1x32x26_S32x26 : S1x32x26.ShapeCasts S32x26
  slices_S32x32_S1x26_26_0 : S32x32.Slices ![26, 0] S1x26
  shapeCasts_S1x26_S26 : S1x26.ShapeCasts S26
  bcast_S26_S1x26_1 : S26.BroadcastsInDim S1x26 (![1] : Fin 1 → Fin S1x26.rank)
  bcast_S1x26_S262144x26_0_1 : S1x26.BroadcastsInDim S262144x26 (![0, 1] : Fin 2 → Fin S262144x26.rank)
  bcast_S_S262144x26 : S_.BroadcastsInDim S262144x26 (![] : Fin 0 → Fin S262144x26.rank)
  slices_S262144x32_S262144x1_0_26 : S262144x32.Slices ![0, 26] S262144x1
  concatenates_S262144x26_S262144x1_S262144x27_d1 : Shape.Concatenates [S262144x26, S262144x1] S262144x27 1
  slices_S32x8_S1x8_26_0 : S32x8.Slices ![26, 0] S1x8
  slices_S32x32x8_S1x28x8_27_0_0 : S32x32x8.Slices ![27, 0, 0] S1x28x8
  shapeCasts_S1x28x8_S28x8 : S1x28x8.ShapeCasts S28x8
  slices_S28x8_S27x8_0_0 : S28x8.Slices ![0, 0] S27x8
  slices_S28x8_S1x8_27_0 : S28x8.Slices ![27, 0] S1x8
  concatenates_S27x8_S1x8_S28x8_d0 : Shape.Concatenates [S27x8, S1x8] S28x8 0
  slices_S262144x32_S262144x27_0_0 : S262144x32.Slices ![0, 0] S262144x27
  slices_S32x32x32_S1x27x32_27_0_0 : S32x32x32.Slices ![27, 0, 0] S1x27x32
  shapeCasts_S1x27x32_S27x32 : S1x27x32.ShapeCasts S27x32
  slices_S32x32_S1x32_27_0 : S32x32.Slices ![27, 0] S1x32
  slices_S32x32x32_S1x32x27_27_0_0 : S32x32x32.Slices ![27, 0, 0] S1x32x27
  shapeCasts_S1x32x27_S32x27 : S1x32x27.ShapeCasts S32x27
  slices_S32x32_S1x27_27_0 : S32x32.Slices ![27, 0] S1x27
  shapeCasts_S1x27_S27 : S1x27.ShapeCasts S27
  bcast_S27_S1x27_1 : S27.BroadcastsInDim S1x27 (![1] : Fin 1 → Fin S1x27.rank)
  bcast_S1x27_S262144x27_0_1 : S1x27.BroadcastsInDim S262144x27 (![0, 1] : Fin 2 → Fin S262144x27.rank)
  bcast_S_S262144x27 : S_.BroadcastsInDim S262144x27 (![] : Fin 0 → Fin S262144x27.rank)
  slices_S262144x32_S262144x1_0_27 : S262144x32.Slices ![0, 27] S262144x1
  concatenates_S262144x27_S262144x1_S262144x28_d1 : Shape.Concatenates [S262144x27, S262144x1] S262144x28 1
  slices_S32x8_S1x8_27_0 : S32x8.Slices ![27, 0] S1x8
  slices_S32x32x8_S1x29x8_28_0_0 : S32x32x8.Slices ![28, 0, 0] S1x29x8
  shapeCasts_S1x29x8_S29x8 : S1x29x8.ShapeCasts S29x8
  slices_S29x8_S28x8_0_0 : S29x8.Slices ![0, 0] S28x8
  slices_S29x8_S1x8_28_0 : S29x8.Slices ![28, 0] S1x8
  concatenates_S28x8_S1x8_S29x8_d0 : Shape.Concatenates [S28x8, S1x8] S29x8 0
  slices_S262144x32_S262144x28_0_0 : S262144x32.Slices ![0, 0] S262144x28
  slices_S32x32x32_S1x28x32_28_0_0 : S32x32x32.Slices ![28, 0, 0] S1x28x32
  shapeCasts_S1x28x32_S28x32 : S1x28x32.ShapeCasts S28x32
  slices_S32x32_S1x32_28_0 : S32x32.Slices ![28, 0] S1x32
  slices_S32x32x32_S1x32x28_28_0_0 : S32x32x32.Slices ![28, 0, 0] S1x32x28
  shapeCasts_S1x32x28_S32x28 : S1x32x28.ShapeCasts S32x28
  slices_S32x32_S1x28_28_0 : S32x32.Slices ![28, 0] S1x28
  shapeCasts_S1x28_S28 : S1x28.ShapeCasts S28
  bcast_S28_S1x28_1 : S28.BroadcastsInDim S1x28 (![1] : Fin 1 → Fin S1x28.rank)
  bcast_S1x28_S262144x28_0_1 : S1x28.BroadcastsInDim S262144x28 (![0, 1] : Fin 2 → Fin S262144x28.rank)
  bcast_S_S262144x28 : S_.BroadcastsInDim S262144x28 (![] : Fin 0 → Fin S262144x28.rank)
  slices_S262144x32_S262144x1_0_28 : S262144x32.Slices ![0, 28] S262144x1
  concatenates_S262144x28_S262144x1_S262144x29_d1 : Shape.Concatenates [S262144x28, S262144x1] S262144x29 1
  slices_S32x8_S1x8_28_0 : S32x8.Slices ![28, 0] S1x8
  slices_S32x32x8_S1x30x8_29_0_0 : S32x32x8.Slices ![29, 0, 0] S1x30x8
  shapeCasts_S1x30x8_S30x8 : S1x30x8.ShapeCasts S30x8
  slices_S30x8_S29x8_0_0 : S30x8.Slices ![0, 0] S29x8
  slices_S30x8_S1x8_29_0 : S30x8.Slices ![29, 0] S1x8
  concatenates_S29x8_S1x8_S30x8_d0 : Shape.Concatenates [S29x8, S1x8] S30x8 0
  slices_S262144x32_S262144x29_0_0 : S262144x32.Slices ![0, 0] S262144x29
  slices_S32x32x32_S1x29x32_29_0_0 : S32x32x32.Slices ![29, 0, 0] S1x29x32
  shapeCasts_S1x29x32_S29x32 : S1x29x32.ShapeCasts S29x32
  slices_S32x32_S1x32_29_0 : S32x32.Slices ![29, 0] S1x32
  slices_S32x32x32_S1x32x29_29_0_0 : S32x32x32.Slices ![29, 0, 0] S1x32x29
  shapeCasts_S1x32x29_S32x29 : S1x32x29.ShapeCasts S32x29
  slices_S32x32_S1x29_29_0 : S32x32.Slices ![29, 0] S1x29
  shapeCasts_S1x29_S29 : S1x29.ShapeCasts S29
  bcast_S29_S1x29_1 : S29.BroadcastsInDim S1x29 (![1] : Fin 1 → Fin S1x29.rank)
  bcast_S1x29_S262144x29_0_1 : S1x29.BroadcastsInDim S262144x29 (![0, 1] : Fin 2 → Fin S262144x29.rank)
  bcast_S_S262144x29 : S_.BroadcastsInDim S262144x29 (![] : Fin 0 → Fin S262144x29.rank)
  slices_S262144x32_S262144x1_0_29 : S262144x32.Slices ![0, 29] S262144x1
  concatenates_S262144x29_S262144x1_S262144x30_d1 : Shape.Concatenates [S262144x29, S262144x1] S262144x30 1
  slices_S32x8_S1x8_29_0 : S32x8.Slices ![29, 0] S1x8
  slices_S32x32x8_S1x31x8_30_0_0 : S32x32x8.Slices ![30, 0, 0] S1x31x8
  shapeCasts_S1x31x8_S31x8 : S1x31x8.ShapeCasts S31x8
  slices_S31x8_S30x8_0_0 : S31x8.Slices ![0, 0] S30x8
  slices_S31x8_S1x8_30_0 : S31x8.Slices ![30, 0] S1x8
  concatenates_S30x8_S1x8_S31x8_d0 : Shape.Concatenates [S30x8, S1x8] S31x8 0
  slices_S262144x32_S262144x30_0_0 : S262144x32.Slices ![0, 0] S262144x30
  slices_S32x32x32_S1x30x32_30_0_0 : S32x32x32.Slices ![30, 0, 0] S1x30x32
  shapeCasts_S1x30x32_S30x32 : S1x30x32.ShapeCasts S30x32
  slices_S32x32_S1x32_30_0 : S32x32.Slices ![30, 0] S1x32
  slices_S32x32x32_S1x32x30_30_0_0 : S32x32x32.Slices ![30, 0, 0] S1x32x30
  shapeCasts_S1x32x30_S32x30 : S1x32x30.ShapeCasts S32x30
  slices_S32x32_S1x30_30_0 : S32x32.Slices ![30, 0] S1x30
  shapeCasts_S1x30_S30 : S1x30.ShapeCasts S30
  bcast_S30_S1x30_1 : S30.BroadcastsInDim S1x30 (![1] : Fin 1 → Fin S1x30.rank)
  bcast_S1x30_S262144x30_0_1 : S1x30.BroadcastsInDim S262144x30 (![0, 1] : Fin 2 → Fin S262144x30.rank)
  bcast_S_S262144x30 : S_.BroadcastsInDim S262144x30 (![] : Fin 0 → Fin S262144x30.rank)
  slices_S262144x32_S262144x1_0_30 : S262144x32.Slices ![0, 30] S262144x1
  concatenates_S262144x30_S262144x1_S262144x31_d1 : Shape.Concatenates [S262144x30, S262144x1] S262144x31 1
  slices_S32x8_S1x8_30_0 : S32x8.Slices ![30, 0] S1x8
  slices_S32x32x8_S1x32x8_31_0_0 : S32x32x8.Slices ![31, 0, 0] S1x32x8
  slices_S32x8_S31x8_0_0 : S32x8.Slices ![0, 0] S31x8
  slices_S32x8_S1x8_31_0 : S32x8.Slices ![31, 0] S1x8
  concatenates_S31x8_S1x8_S32x8_d0 : Shape.Concatenates [S31x8, S1x8] S32x8 0
  slices_S262144x32_S262144x31_0_0 : S262144x32.Slices ![0, 0] S262144x31
  slices_S32x32x32_S1x31x32_31_0_0 : S32x32x32.Slices ![31, 0, 0] S1x31x32
  shapeCasts_S1x31x32_S31x32 : S1x31x32.ShapeCasts S31x32
  slices_S32x32_S1x32_31_0 : S32x32.Slices ![31, 0] S1x32
  slices_S32x32x32_S1x32x31_31_0_0 : S32x32x32.Slices ![31, 0, 0] S1x32x31
  shapeCasts_S1x32x31_S32x31 : S1x32x31.ShapeCasts S32x31
  slices_S32x32_S1x31_31_0 : S32x32.Slices ![31, 0] S1x31
  shapeCasts_S1x31_S31 : S1x31.ShapeCasts S31
  bcast_S31_S1x31_1 : S31.BroadcastsInDim S1x31 (![1] : Fin 1 → Fin S1x31.rank)
  bcast_S1x31_S262144x31_0_1 : S1x31.BroadcastsInDim S262144x31 (![0, 1] : Fin 2 → Fin S262144x31.rank)
  bcast_S_S262144x31 : S_.BroadcastsInDim S262144x31 (![] : Fin 0 → Fin S262144x31.rank)
  slices_S262144x32_S262144x1_0_31 : S262144x32.Slices ![0, 31] S262144x1
  concatenates_S262144x31_S262144x1_S262144x32_d1 : Shape.Concatenates [S262144x31, S262144x1] S262144x32 1
  concatenates_S262144x1_S262144x1_S262144x1_S262144x1_S262144x1_S262144x1_S262144x1_S262144x1_S262144x1_S262144x1_S262144x1_S262144x1_S262144x1_S262144x1_S262144x1_S262144x1_S262144x16_d1 : Shape.Concatenates [S262144x1, S262144x1, S262144x1, S262144x1, S262144x1, S262144x1, S262144x1, S262144x1, S262144x1, S262144x1, S262144x1, S262144x1, S262144x1, S262144x1, S262144x1, S262144x1] S262144x16 1
  concatenates_S262144x16_S262144x16_S262144x32_d1 : Shape.Concatenates [S262144x16, S262144x16] S262144x32 1
  dot_S262144x1_S1x8_S262144x8_1_0_0_1_n_n_wf : DotDims.WF S262144x1 S1x8 S262144x8 [1] [0] [0] [1] [] []
  dot_S262144x1_S1x32_S262144x32_1_0_0_1_n_n_wf : DotDims.WF S262144x1 S1x32 S262144x32 [1] [0] [0] [1] [] []
  dot_S262144x32_S32x1_S262144x1_1_0_0_1_n_n_wf : DotDims.WF S262144x32 S32x1 S262144x1 [1] [0] [0] [1] [] []
  dot_S262144x2_S2x8_S262144x8_1_0_0_1_n_n_wf : DotDims.WF S262144x2 S2x8 S262144x8 [1] [0] [0] [1] [] []
  dot_S262144x2_S2x32_S262144x32_1_0_0_1_n_n_wf : DotDims.WF S262144x2 S2x32 S262144x32 [1] [0] [0] [1] [] []
  dot_S262144x32_S32x2_S262144x2_1_0_0_1_n_n_wf : DotDims.WF S262144x32 S32x2 S262144x2 [1] [0] [0] [1] [] []
  dot_S262144x3_S3x8_S262144x8_1_0_0_1_n_n_wf : DotDims.WF S262144x3 S3x8 S262144x8 [1] [0] [0] [1] [] []
  dot_S262144x3_S3x32_S262144x32_1_0_0_1_n_n_wf : DotDims.WF S262144x3 S3x32 S262144x32 [1] [0] [0] [1] [] []
  dot_S262144x32_S32x3_S262144x3_1_0_0_1_n_n_wf : DotDims.WF S262144x32 S32x3 S262144x3 [1] [0] [0] [1] [] []
  dot_S262144x4_S4x8_S262144x8_1_0_0_1_n_n_wf : DotDims.WF S262144x4 S4x8 S262144x8 [1] [0] [0] [1] [] []
  dot_S262144x4_S4x32_S262144x32_1_0_0_1_n_n_wf : DotDims.WF S262144x4 S4x32 S262144x32 [1] [0] [0] [1] [] []
  dot_S262144x32_S32x4_S262144x4_1_0_0_1_n_n_wf : DotDims.WF S262144x32 S32x4 S262144x4 [1] [0] [0] [1] [] []
  dot_S262144x5_S5x8_S262144x8_1_0_0_1_n_n_wf : DotDims.WF S262144x5 S5x8 S262144x8 [1] [0] [0] [1] [] []
  dot_S262144x5_S5x32_S262144x32_1_0_0_1_n_n_wf : DotDims.WF S262144x5 S5x32 S262144x32 [1] [0] [0] [1] [] []
  dot_S262144x32_S32x5_S262144x5_1_0_0_1_n_n_wf : DotDims.WF S262144x32 S32x5 S262144x5 [1] [0] [0] [1] [] []
  dot_S262144x6_S6x8_S262144x8_1_0_0_1_n_n_wf : DotDims.WF S262144x6 S6x8 S262144x8 [1] [0] [0] [1] [] []
  dot_S262144x6_S6x32_S262144x32_1_0_0_1_n_n_wf : DotDims.WF S262144x6 S6x32 S262144x32 [1] [0] [0] [1] [] []
  dot_S262144x32_S32x6_S262144x6_1_0_0_1_n_n_wf : DotDims.WF S262144x32 S32x6 S262144x6 [1] [0] [0] [1] [] []
  dot_S262144x7_S7x8_S262144x8_1_0_0_1_n_n_wf : DotDims.WF S262144x7 S7x8 S262144x8 [1] [0] [0] [1] [] []
  dot_S262144x7_S7x32_S262144x32_1_0_0_1_n_n_wf : DotDims.WF S262144x7 S7x32 S262144x32 [1] [0] [0] [1] [] []
  dot_S262144x32_S32x7_S262144x7_1_0_0_1_n_n_wf : DotDims.WF S262144x32 S32x7 S262144x7 [1] [0] [0] [1] [] []
  dot_S262144x8_S8x8_S262144x8_1_0_0_1_n_n_wf : DotDims.WF S262144x8 S8x8 S262144x8 [1] [0] [0] [1] [] []
  dot_S262144x8_S8x32_S262144x32_1_0_0_1_n_n_wf : DotDims.WF S262144x8 S8x32 S262144x32 [1] [0] [0] [1] [] []
  dot_S262144x32_S32x8_S262144x8_1_0_0_1_n_n_wf : DotDims.WF S262144x32 S32x8 S262144x8 [1] [0] [0] [1] [] []
  dot_S262144x9_S9x8_S262144x8_1_0_0_1_n_n_wf : DotDims.WF S262144x9 S9x8 S262144x8 [1] [0] [0] [1] [] []
  dot_S262144x9_S9x32_S262144x32_1_0_0_1_n_n_wf : DotDims.WF S262144x9 S9x32 S262144x32 [1] [0] [0] [1] [] []
  dot_S262144x32_S32x9_S262144x9_1_0_0_1_n_n_wf : DotDims.WF S262144x32 S32x9 S262144x9 [1] [0] [0] [1] [] []
  dot_S262144x10_S10x8_S262144x8_1_0_0_1_n_n_wf : DotDims.WF S262144x10 S10x8 S262144x8 [1] [0] [0] [1] [] []
  dot_S262144x10_S10x32_S262144x32_1_0_0_1_n_n_wf : DotDims.WF S262144x10 S10x32 S262144x32 [1] [0] [0] [1] [] []
  dot_S262144x32_S32x10_S262144x10_1_0_0_1_n_n_wf : DotDims.WF S262144x32 S32x10 S262144x10 [1] [0] [0] [1] [] []
  dot_S262144x11_S11x8_S262144x8_1_0_0_1_n_n_wf : DotDims.WF S262144x11 S11x8 S262144x8 [1] [0] [0] [1] [] []
  dot_S262144x11_S11x32_S262144x32_1_0_0_1_n_n_wf : DotDims.WF S262144x11 S11x32 S262144x32 [1] [0] [0] [1] [] []
  dot_S262144x32_S32x11_S262144x11_1_0_0_1_n_n_wf : DotDims.WF S262144x32 S32x11 S262144x11 [1] [0] [0] [1] [] []
  dot_S262144x12_S12x8_S262144x8_1_0_0_1_n_n_wf : DotDims.WF S262144x12 S12x8 S262144x8 [1] [0] [0] [1] [] []
  dot_S262144x12_S12x32_S262144x32_1_0_0_1_n_n_wf : DotDims.WF S262144x12 S12x32 S262144x32 [1] [0] [0] [1] [] []
  dot_S262144x32_S32x12_S262144x12_1_0_0_1_n_n_wf : DotDims.WF S262144x32 S32x12 S262144x12 [1] [0] [0] [1] [] []
  dot_S262144x13_S13x8_S262144x8_1_0_0_1_n_n_wf : DotDims.WF S262144x13 S13x8 S262144x8 [1] [0] [0] [1] [] []
  dot_S262144x13_S13x32_S262144x32_1_0_0_1_n_n_wf : DotDims.WF S262144x13 S13x32 S262144x32 [1] [0] [0] [1] [] []
  dot_S262144x32_S32x13_S262144x13_1_0_0_1_n_n_wf : DotDims.WF S262144x32 S32x13 S262144x13 [1] [0] [0] [1] [] []
  dot_S262144x14_S14x8_S262144x8_1_0_0_1_n_n_wf : DotDims.WF S262144x14 S14x8 S262144x8 [1] [0] [0] [1] [] []
  dot_S262144x14_S14x32_S262144x32_1_0_0_1_n_n_wf : DotDims.WF S262144x14 S14x32 S262144x32 [1] [0] [0] [1] [] []
  dot_S262144x32_S32x14_S262144x14_1_0_0_1_n_n_wf : DotDims.WF S262144x32 S32x14 S262144x14 [1] [0] [0] [1] [] []
  dot_S262144x15_S15x8_S262144x8_1_0_0_1_n_n_wf : DotDims.WF S262144x15 S15x8 S262144x8 [1] [0] [0] [1] [] []
  dot_S262144x15_S15x32_S262144x32_1_0_0_1_n_n_wf : DotDims.WF S262144x15 S15x32 S262144x32 [1] [0] [0] [1] [] []
  dot_S262144x32_S32x15_S262144x15_1_0_0_1_n_n_wf : DotDims.WF S262144x32 S32x15 S262144x15 [1] [0] [0] [1] [] []
  dot_S262144x16_S16x8_S262144x8_1_0_0_1_n_n_wf : DotDims.WF S262144x16 S16x8 S262144x8 [1] [0] [0] [1] [] []
  dot_S262144x16_S16x32_S262144x32_1_0_0_1_n_n_wf : DotDims.WF S262144x16 S16x32 S262144x32 [1] [0] [0] [1] [] []
  dot_S262144x32_S32x16_S262144x16_1_0_0_1_n_n_wf : DotDims.WF S262144x32 S32x16 S262144x16 [1] [0] [0] [1] [] []
  dot_S262144x17_S17x8_S262144x8_1_0_0_1_n_n_wf : DotDims.WF S262144x17 S17x8 S262144x8 [1] [0] [0] [1] [] []
  dot_S262144x17_S17x32_S262144x32_1_0_0_1_n_n_wf : DotDims.WF S262144x17 S17x32 S262144x32 [1] [0] [0] [1] [] []
  dot_S262144x32_S32x17_S262144x17_1_0_0_1_n_n_wf : DotDims.WF S262144x32 S32x17 S262144x17 [1] [0] [0] [1] [] []
  dot_S262144x18_S18x8_S262144x8_1_0_0_1_n_n_wf : DotDims.WF S262144x18 S18x8 S262144x8 [1] [0] [0] [1] [] []
  dot_S262144x18_S18x32_S262144x32_1_0_0_1_n_n_wf : DotDims.WF S262144x18 S18x32 S262144x32 [1] [0] [0] [1] [] []
  dot_S262144x32_S32x18_S262144x18_1_0_0_1_n_n_wf : DotDims.WF S262144x32 S32x18 S262144x18 [1] [0] [0] [1] [] []
  dot_S262144x19_S19x8_S262144x8_1_0_0_1_n_n_wf : DotDims.WF S262144x19 S19x8 S262144x8 [1] [0] [0] [1] [] []
  dot_S262144x19_S19x32_S262144x32_1_0_0_1_n_n_wf : DotDims.WF S262144x19 S19x32 S262144x32 [1] [0] [0] [1] [] []
  dot_S262144x32_S32x19_S262144x19_1_0_0_1_n_n_wf : DotDims.WF S262144x32 S32x19 S262144x19 [1] [0] [0] [1] [] []
  dot_S262144x20_S20x8_S262144x8_1_0_0_1_n_n_wf : DotDims.WF S262144x20 S20x8 S262144x8 [1] [0] [0] [1] [] []
  dot_S262144x20_S20x32_S262144x32_1_0_0_1_n_n_wf : DotDims.WF S262144x20 S20x32 S262144x32 [1] [0] [0] [1] [] []
  dot_S262144x32_S32x20_S262144x20_1_0_0_1_n_n_wf : DotDims.WF S262144x32 S32x20 S262144x20 [1] [0] [0] [1] [] []
  dot_S262144x21_S21x8_S262144x8_1_0_0_1_n_n_wf : DotDims.WF S262144x21 S21x8 S262144x8 [1] [0] [0] [1] [] []
  dot_S262144x21_S21x32_S262144x32_1_0_0_1_n_n_wf : DotDims.WF S262144x21 S21x32 S262144x32 [1] [0] [0] [1] [] []
  dot_S262144x32_S32x21_S262144x21_1_0_0_1_n_n_wf : DotDims.WF S262144x32 S32x21 S262144x21 [1] [0] [0] [1] [] []
  dot_S262144x22_S22x8_S262144x8_1_0_0_1_n_n_wf : DotDims.WF S262144x22 S22x8 S262144x8 [1] [0] [0] [1] [] []
  dot_S262144x22_S22x32_S262144x32_1_0_0_1_n_n_wf : DotDims.WF S262144x22 S22x32 S262144x32 [1] [0] [0] [1] [] []
  dot_S262144x32_S32x22_S262144x22_1_0_0_1_n_n_wf : DotDims.WF S262144x32 S32x22 S262144x22 [1] [0] [0] [1] [] []
  dot_S262144x23_S23x8_S262144x8_1_0_0_1_n_n_wf : DotDims.WF S262144x23 S23x8 S262144x8 [1] [0] [0] [1] [] []
  dot_S262144x23_S23x32_S262144x32_1_0_0_1_n_n_wf : DotDims.WF S262144x23 S23x32 S262144x32 [1] [0] [0] [1] [] []
  dot_S262144x32_S32x23_S262144x23_1_0_0_1_n_n_wf : DotDims.WF S262144x32 S32x23 S262144x23 [1] [0] [0] [1] [] []
  dot_S262144x24_S24x8_S262144x8_1_0_0_1_n_n_wf : DotDims.WF S262144x24 S24x8 S262144x8 [1] [0] [0] [1] [] []
  dot_S262144x24_S24x32_S262144x32_1_0_0_1_n_n_wf : DotDims.WF S262144x24 S24x32 S262144x32 [1] [0] [0] [1] [] []
  dot_S262144x32_S32x24_S262144x24_1_0_0_1_n_n_wf : DotDims.WF S262144x32 S32x24 S262144x24 [1] [0] [0] [1] [] []
  dot_S262144x25_S25x8_S262144x8_1_0_0_1_n_n_wf : DotDims.WF S262144x25 S25x8 S262144x8 [1] [0] [0] [1] [] []
  dot_S262144x25_S25x32_S262144x32_1_0_0_1_n_n_wf : DotDims.WF S262144x25 S25x32 S262144x32 [1] [0] [0] [1] [] []
  dot_S262144x32_S32x25_S262144x25_1_0_0_1_n_n_wf : DotDims.WF S262144x32 S32x25 S262144x25 [1] [0] [0] [1] [] []
  dot_S262144x26_S26x8_S262144x8_1_0_0_1_n_n_wf : DotDims.WF S262144x26 S26x8 S262144x8 [1] [0] [0] [1] [] []
  dot_S262144x26_S26x32_S262144x32_1_0_0_1_n_n_wf : DotDims.WF S262144x26 S26x32 S262144x32 [1] [0] [0] [1] [] []
  dot_S262144x32_S32x26_S262144x26_1_0_0_1_n_n_wf : DotDims.WF S262144x32 S32x26 S262144x26 [1] [0] [0] [1] [] []
  dot_S262144x27_S27x8_S262144x8_1_0_0_1_n_n_wf : DotDims.WF S262144x27 S27x8 S262144x8 [1] [0] [0] [1] [] []
  dot_S262144x27_S27x32_S262144x32_1_0_0_1_n_n_wf : DotDims.WF S262144x27 S27x32 S262144x32 [1] [0] [0] [1] [] []
  dot_S262144x32_S32x27_S262144x27_1_0_0_1_n_n_wf : DotDims.WF S262144x32 S32x27 S262144x27 [1] [0] [0] [1] [] []
  dot_S262144x28_S28x8_S262144x8_1_0_0_1_n_n_wf : DotDims.WF S262144x28 S28x8 S262144x8 [1] [0] [0] [1] [] []
  dot_S262144x28_S28x32_S262144x32_1_0_0_1_n_n_wf : DotDims.WF S262144x28 S28x32 S262144x32 [1] [0] [0] [1] [] []
  dot_S262144x32_S32x28_S262144x28_1_0_0_1_n_n_wf : DotDims.WF S262144x32 S32x28 S262144x28 [1] [0] [0] [1] [] []
  dot_S262144x29_S29x8_S262144x8_1_0_0_1_n_n_wf : DotDims.WF S262144x29 S29x8 S262144x8 [1] [0] [0] [1] [] []
  dot_S262144x29_S29x32_S262144x32_1_0_0_1_n_n_wf : DotDims.WF S262144x29 S29x32 S262144x32 [1] [0] [0] [1] [] []
  dot_S262144x32_S32x29_S262144x29_1_0_0_1_n_n_wf : DotDims.WF S262144x32 S32x29 S262144x29 [1] [0] [0] [1] [] []
  dot_S262144x30_S30x8_S262144x8_1_0_0_1_n_n_wf : DotDims.WF S262144x30 S30x8 S262144x8 [1] [0] [0] [1] [] []
  dot_S262144x30_S30x32_S262144x32_1_0_0_1_n_n_wf : DotDims.WF S262144x30 S30x32 S262144x32 [1] [0] [0] [1] [] []
  dot_S262144x32_S32x30_S262144x30_1_0_0_1_n_n_wf : DotDims.WF S262144x32 S32x30 S262144x30 [1] [0] [0] [1] [] []
  dot_S262144x31_S31x8_S262144x8_1_0_0_1_n_n_wf : DotDims.WF S262144x31 S31x8 S262144x8 [1] [0] [0] [1] [] []
  dot_S262144x31_S31x32_S262144x32_1_0_0_1_n_n_wf : DotDims.WF S262144x31 S31x32 S262144x32 [1] [0] [0] [1] [] []
  dot_S262144x32_S32x31_S262144x31_1_0_0_1_n_n_wf : DotDims.WF S262144x32 S32x31 S262144x31 [1] [0] [0] [1] [] []

variable [Facts₀]

def dot_S262144x1_S1x8_S262144x8_1_0_0_1_n_n : DotDims S262144x1 S1x8 S262144x8 where
  lhsContracting := [1]
  rhsContracting := [0]
  lhsNonContracting := [0]
  rhsNonContracting := [1]
  lhsBatch := []
  rhsBatch := []
  wf := dot_S262144x1_S1x8_S262144x8_1_0_0_1_n_n_wf
def dot_S262144x1_S1x32_S262144x32_1_0_0_1_n_n : DotDims S262144x1 S1x32 S262144x32 where
  lhsContracting := [1]
  rhsContracting := [0]
  lhsNonContracting := [0]
  rhsNonContracting := [1]
  lhsBatch := []
  rhsBatch := []
  wf := dot_S262144x1_S1x32_S262144x32_1_0_0_1_n_n_wf
def dot_S262144x32_S32x1_S262144x1_1_0_0_1_n_n : DotDims S262144x32 S32x1 S262144x1 where
  lhsContracting := [1]
  rhsContracting := [0]
  lhsNonContracting := [0]
  rhsNonContracting := [1]
  lhsBatch := []
  rhsBatch := []
  wf := dot_S262144x32_S32x1_S262144x1_1_0_0_1_n_n_wf
def dot_S262144x2_S2x8_S262144x8_1_0_0_1_n_n : DotDims S262144x2 S2x8 S262144x8 where
  lhsContracting := [1]
  rhsContracting := [0]
  lhsNonContracting := [0]
  rhsNonContracting := [1]
  lhsBatch := []
  rhsBatch := []
  wf := dot_S262144x2_S2x8_S262144x8_1_0_0_1_n_n_wf
def dot_S262144x2_S2x32_S262144x32_1_0_0_1_n_n : DotDims S262144x2 S2x32 S262144x32 where
  lhsContracting := [1]
  rhsContracting := [0]
  lhsNonContracting := [0]
  rhsNonContracting := [1]
  lhsBatch := []
  rhsBatch := []
  wf := dot_S262144x2_S2x32_S262144x32_1_0_0_1_n_n_wf
def dot_S262144x32_S32x2_S262144x2_1_0_0_1_n_n : DotDims S262144x32 S32x2 S262144x2 where
  lhsContracting := [1]
  rhsContracting := [0]
  lhsNonContracting := [0]
  rhsNonContracting := [1]
  lhsBatch := []
  rhsBatch := []
  wf := dot_S262144x32_S32x2_S262144x2_1_0_0_1_n_n_wf
def dot_S262144x3_S3x8_S262144x8_1_0_0_1_n_n : DotDims S262144x3 S3x8 S262144x8 where
  lhsContracting := [1]
  rhsContracting := [0]
  lhsNonContracting := [0]
  rhsNonContracting := [1]
  lhsBatch := []
  rhsBatch := []
  wf := dot_S262144x3_S3x8_S262144x8_1_0_0_1_n_n_wf
def dot_S262144x3_S3x32_S262144x32_1_0_0_1_n_n : DotDims S262144x3 S3x32 S262144x32 where
  lhsContracting := [1]
  rhsContracting := [0]
  lhsNonContracting := [0]
  rhsNonContracting := [1]
  lhsBatch := []
  rhsBatch := []
  wf := dot_S262144x3_S3x32_S262144x32_1_0_0_1_n_n_wf
def dot_S262144x32_S32x3_S262144x3_1_0_0_1_n_n : DotDims S262144x32 S32x3 S262144x3 where
  lhsContracting := [1]
  rhsContracting := [0]
  lhsNonContracting := [0]
  rhsNonContracting := [1]
  lhsBatch := []
  rhsBatch := []
  wf := dot_S262144x32_S32x3_S262144x3_1_0_0_1_n_n_wf
def dot_S262144x4_S4x8_S262144x8_1_0_0_1_n_n : DotDims S262144x4 S4x8 S262144x8 where
  lhsContracting := [1]
  rhsContracting := [0]
  lhsNonContracting := [0]
  rhsNonContracting := [1]
  lhsBatch := []
  rhsBatch := []
  wf := dot_S262144x4_S4x8_S262144x8_1_0_0_1_n_n_wf
def dot_S262144x4_S4x32_S262144x32_1_0_0_1_n_n : DotDims S262144x4 S4x32 S262144x32 where
  lhsContracting := [1]
  rhsContracting := [0]
  lhsNonContracting := [0]
  rhsNonContracting := [1]
  lhsBatch := []
  rhsBatch := []
  wf := dot_S262144x4_S4x32_S262144x32_1_0_0_1_n_n_wf
def dot_S262144x32_S32x4_S262144x4_1_0_0_1_n_n : DotDims S262144x32 S32x4 S262144x4 where
  lhsContracting := [1]
  rhsContracting := [0]
  lhsNonContracting := [0]
  rhsNonContracting := [1]
  lhsBatch := []
  rhsBatch := []
  wf := dot_S262144x32_S32x4_S262144x4_1_0_0_1_n_n_wf
def dot_S262144x5_S5x8_S262144x8_1_0_0_1_n_n : DotDims S262144x5 S5x8 S262144x8 where
  lhsContracting := [1]
  rhsContracting := [0]
  lhsNonContracting := [0]
  rhsNonContracting := [1]
  lhsBatch := []
  rhsBatch := []
  wf := dot_S262144x5_S5x8_S262144x8_1_0_0_1_n_n_wf
def dot_S262144x5_S5x32_S262144x32_1_0_0_1_n_n : DotDims S262144x5 S5x32 S262144x32 where
  lhsContracting := [1]
  rhsContracting := [0]
  lhsNonContracting := [0]
  rhsNonContracting := [1]
  lhsBatch := []
  rhsBatch := []
  wf := dot_S262144x5_S5x32_S262144x32_1_0_0_1_n_n_wf
def dot_S262144x32_S32x5_S262144x5_1_0_0_1_n_n : DotDims S262144x32 S32x5 S262144x5 where
  lhsContracting := [1]
  rhsContracting := [0]
  lhsNonContracting := [0]
  rhsNonContracting := [1]
  lhsBatch := []
  rhsBatch := []
  wf := dot_S262144x32_S32x5_S262144x5_1_0_0_1_n_n_wf
def dot_S262144x6_S6x8_S262144x8_1_0_0_1_n_n : DotDims S262144x6 S6x8 S262144x8 where
  lhsContracting := [1]
  rhsContracting := [0]
  lhsNonContracting := [0]
  rhsNonContracting := [1]
  lhsBatch := []
  rhsBatch := []
  wf := dot_S262144x6_S6x8_S262144x8_1_0_0_1_n_n_wf
def dot_S262144x6_S6x32_S262144x32_1_0_0_1_n_n : DotDims S262144x6 S6x32 S262144x32 where
  lhsContracting := [1]
  rhsContracting := [0]
  lhsNonContracting := [0]
  rhsNonContracting := [1]
  lhsBatch := []
  rhsBatch := []
  wf := dot_S262144x6_S6x32_S262144x32_1_0_0_1_n_n_wf
def dot_S262144x32_S32x6_S262144x6_1_0_0_1_n_n : DotDims S262144x32 S32x6 S262144x6 where
  lhsContracting := [1]
  rhsContracting := [0]
  lhsNonContracting := [0]
  rhsNonContracting := [1]
  lhsBatch := []
  rhsBatch := []
  wf := dot_S262144x32_S32x6_S262144x6_1_0_0_1_n_n_wf
def dot_S262144x7_S7x8_S262144x8_1_0_0_1_n_n : DotDims S262144x7 S7x8 S262144x8 where
  lhsContracting := [1]
  rhsContracting := [0]
  lhsNonContracting := [0]
  rhsNonContracting := [1]
  lhsBatch := []
  rhsBatch := []
  wf := dot_S262144x7_S7x8_S262144x8_1_0_0_1_n_n_wf
def dot_S262144x7_S7x32_S262144x32_1_0_0_1_n_n : DotDims S262144x7 S7x32 S262144x32 where
  lhsContracting := [1]
  rhsContracting := [0]
  lhsNonContracting := [0]
  rhsNonContracting := [1]
  lhsBatch := []
  rhsBatch := []
  wf := dot_S262144x7_S7x32_S262144x32_1_0_0_1_n_n_wf
def dot_S262144x32_S32x7_S262144x7_1_0_0_1_n_n : DotDims S262144x32 S32x7 S262144x7 where
  lhsContracting := [1]
  rhsContracting := [0]
  lhsNonContracting := [0]
  rhsNonContracting := [1]
  lhsBatch := []
  rhsBatch := []
  wf := dot_S262144x32_S32x7_S262144x7_1_0_0_1_n_n_wf
def dot_S262144x8_S8x8_S262144x8_1_0_0_1_n_n : DotDims S262144x8 S8x8 S262144x8 where
  lhsContracting := [1]
  rhsContracting := [0]
  lhsNonContracting := [0]
  rhsNonContracting := [1]
  lhsBatch := []
  rhsBatch := []
  wf := dot_S262144x8_S8x8_S262144x8_1_0_0_1_n_n_wf
def dot_S262144x8_S8x32_S262144x32_1_0_0_1_n_n : DotDims S262144x8 S8x32 S262144x32 where
  lhsContracting := [1]
  rhsContracting := [0]
  lhsNonContracting := [0]
  rhsNonContracting := [1]
  lhsBatch := []
  rhsBatch := []
  wf := dot_S262144x8_S8x32_S262144x32_1_0_0_1_n_n_wf
def dot_S262144x32_S32x8_S262144x8_1_0_0_1_n_n : DotDims S262144x32 S32x8 S262144x8 where
  lhsContracting := [1]
  rhsContracting := [0]
  lhsNonContracting := [0]
  rhsNonContracting := [1]
  lhsBatch := []
  rhsBatch := []
  wf := dot_S262144x32_S32x8_S262144x8_1_0_0_1_n_n_wf
def dot_S262144x9_S9x8_S262144x8_1_0_0_1_n_n : DotDims S262144x9 S9x8 S262144x8 where
  lhsContracting := [1]
  rhsContracting := [0]
  lhsNonContracting := [0]
  rhsNonContracting := [1]
  lhsBatch := []
  rhsBatch := []
  wf := dot_S262144x9_S9x8_S262144x8_1_0_0_1_n_n_wf
def dot_S262144x9_S9x32_S262144x32_1_0_0_1_n_n : DotDims S262144x9 S9x32 S262144x32 where
  lhsContracting := [1]
  rhsContracting := [0]
  lhsNonContracting := [0]
  rhsNonContracting := [1]
  lhsBatch := []
  rhsBatch := []
  wf := dot_S262144x9_S9x32_S262144x32_1_0_0_1_n_n_wf
def dot_S262144x32_S32x9_S262144x9_1_0_0_1_n_n : DotDims S262144x32 S32x9 S262144x9 where
  lhsContracting := [1]
  rhsContracting := [0]
  lhsNonContracting := [0]
  rhsNonContracting := [1]
  lhsBatch := []
  rhsBatch := []
  wf := dot_S262144x32_S32x9_S262144x9_1_0_0_1_n_n_wf
def dot_S262144x10_S10x8_S262144x8_1_0_0_1_n_n : DotDims S262144x10 S10x8 S262144x8 where
  lhsContracting := [1]
  rhsContracting := [0]
  lhsNonContracting := [0]
  rhsNonContracting := [1]
  lhsBatch := []
  rhsBatch := []
  wf := dot_S262144x10_S10x8_S262144x8_1_0_0_1_n_n_wf
def dot_S262144x10_S10x32_S262144x32_1_0_0_1_n_n : DotDims S262144x10 S10x32 S262144x32 where
  lhsContracting := [1]
  rhsContracting := [0]
  lhsNonContracting := [0]
  rhsNonContracting := [1]
  lhsBatch := []
  rhsBatch := []
  wf := dot_S262144x10_S10x32_S262144x32_1_0_0_1_n_n_wf
def dot_S262144x32_S32x10_S262144x10_1_0_0_1_n_n : DotDims S262144x32 S32x10 S262144x10 where
  lhsContracting := [1]
  rhsContracting := [0]
  lhsNonContracting := [0]
  rhsNonContracting := [1]
  lhsBatch := []
  rhsBatch := []
  wf := dot_S262144x32_S32x10_S262144x10_1_0_0_1_n_n_wf
def dot_S262144x11_S11x8_S262144x8_1_0_0_1_n_n : DotDims S262144x11 S11x8 S262144x8 where
  lhsContracting := [1]
  rhsContracting := [0]
  lhsNonContracting := [0]
  rhsNonContracting := [1]
  lhsBatch := []
  rhsBatch := []
  wf := dot_S262144x11_S11x8_S262144x8_1_0_0_1_n_n_wf
def dot_S262144x11_S11x32_S262144x32_1_0_0_1_n_n : DotDims S262144x11 S11x32 S262144x32 where
  lhsContracting := [1]
  rhsContracting := [0]
  lhsNonContracting := [0]
  rhsNonContracting := [1]
  lhsBatch := []
  rhsBatch := []
  wf := dot_S262144x11_S11x32_S262144x32_1_0_0_1_n_n_wf
def dot_S262144x32_S32x11_S262144x11_1_0_0_1_n_n : DotDims S262144x32 S32x11 S262144x11 where
  lhsContracting := [1]
  rhsContracting := [0]
  lhsNonContracting := [0]
  rhsNonContracting := [1]
  lhsBatch := []
  rhsBatch := []
  wf := dot_S262144x32_S32x11_S262144x11_1_0_0_1_n_n_wf
def dot_S262144x12_S12x8_S262144x8_1_0_0_1_n_n : DotDims S262144x12 S12x8 S262144x8 where
  lhsContracting := [1]
  rhsContracting := [0]
  lhsNonContracting := [0]
  rhsNonContracting := [1]
  lhsBatch := []
  rhsBatch := []
  wf := dot_S262144x12_S12x8_S262144x8_1_0_0_1_n_n_wf
def dot_S262144x12_S12x32_S262144x32_1_0_0_1_n_n : DotDims S262144x12 S12x32 S262144x32 where
  lhsContracting := [1]
  rhsContracting := [0]
  lhsNonContracting := [0]
  rhsNonContracting := [1]
  lhsBatch := []
  rhsBatch := []
  wf := dot_S262144x12_S12x32_S262144x32_1_0_0_1_n_n_wf
def dot_S262144x32_S32x12_S262144x12_1_0_0_1_n_n : DotDims S262144x32 S32x12 S262144x12 where
  lhsContracting := [1]
  rhsContracting := [0]
  lhsNonContracting := [0]
  rhsNonContracting := [1]
  lhsBatch := []
  rhsBatch := []
  wf := dot_S262144x32_S32x12_S262144x12_1_0_0_1_n_n_wf
def dot_S262144x13_S13x8_S262144x8_1_0_0_1_n_n : DotDims S262144x13 S13x8 S262144x8 where
  lhsContracting := [1]
  rhsContracting := [0]
  lhsNonContracting := [0]
  rhsNonContracting := [1]
  lhsBatch := []
  rhsBatch := []
  wf := dot_S262144x13_S13x8_S262144x8_1_0_0_1_n_n_wf
def dot_S262144x13_S13x32_S262144x32_1_0_0_1_n_n : DotDims S262144x13 S13x32 S262144x32 where
  lhsContracting := [1]
  rhsContracting := [0]
  lhsNonContracting := [0]
  rhsNonContracting := [1]
  lhsBatch := []
  rhsBatch := []
  wf := dot_S262144x13_S13x32_S262144x32_1_0_0_1_n_n_wf
def dot_S262144x32_S32x13_S262144x13_1_0_0_1_n_n : DotDims S262144x32 S32x13 S262144x13 where
  lhsContracting := [1]
  rhsContracting := [0]
  lhsNonContracting := [0]
  rhsNonContracting := [1]
  lhsBatch := []
  rhsBatch := []
  wf := dot_S262144x32_S32x13_S262144x13_1_0_0_1_n_n_wf
def dot_S262144x14_S14x8_S262144x8_1_0_0_1_n_n : DotDims S262144x14 S14x8 S262144x8 where
  lhsContracting := [1]
  rhsContracting := [0]
  lhsNonContracting := [0]
  rhsNonContracting := [1]
  lhsBatch := []
  rhsBatch := []
  wf := dot_S262144x14_S14x8_S262144x8_1_0_0_1_n_n_wf
def dot_S262144x14_S14x32_S262144x32_1_0_0_1_n_n : DotDims S262144x14 S14x32 S262144x32 where
  lhsContracting := [1]
  rhsContracting := [0]
  lhsNonContracting := [0]
  rhsNonContracting := [1]
  lhsBatch := []
  rhsBatch := []
  wf := dot_S262144x14_S14x32_S262144x32_1_0_0_1_n_n_wf
def dot_S262144x32_S32x14_S262144x14_1_0_0_1_n_n : DotDims S262144x32 S32x14 S262144x14 where
  lhsContracting := [1]
  rhsContracting := [0]
  lhsNonContracting := [0]
  rhsNonContracting := [1]
  lhsBatch := []
  rhsBatch := []
  wf := dot_S262144x32_S32x14_S262144x14_1_0_0_1_n_n_wf
def dot_S262144x15_S15x8_S262144x8_1_0_0_1_n_n : DotDims S262144x15 S15x8 S262144x8 where
  lhsContracting := [1]
  rhsContracting := [0]
  lhsNonContracting := [0]
  rhsNonContracting := [1]
  lhsBatch := []
  rhsBatch := []
  wf := dot_S262144x15_S15x8_S262144x8_1_0_0_1_n_n_wf
def dot_S262144x15_S15x32_S262144x32_1_0_0_1_n_n : DotDims S262144x15 S15x32 S262144x32 where
  lhsContracting := [1]
  rhsContracting := [0]
  lhsNonContracting := [0]
  rhsNonContracting := [1]
  lhsBatch := []
  rhsBatch := []
  wf := dot_S262144x15_S15x32_S262144x32_1_0_0_1_n_n_wf
def dot_S262144x32_S32x15_S262144x15_1_0_0_1_n_n : DotDims S262144x32 S32x15 S262144x15 where
  lhsContracting := [1]
  rhsContracting := [0]
  lhsNonContracting := [0]
  rhsNonContracting := [1]
  lhsBatch := []
  rhsBatch := []
  wf := dot_S262144x32_S32x15_S262144x15_1_0_0_1_n_n_wf
def dot_S262144x16_S16x8_S262144x8_1_0_0_1_n_n : DotDims S262144x16 S16x8 S262144x8 where
  lhsContracting := [1]
  rhsContracting := [0]
  lhsNonContracting := [0]
  rhsNonContracting := [1]
  lhsBatch := []
  rhsBatch := []
  wf := dot_S262144x16_S16x8_S262144x8_1_0_0_1_n_n_wf
def dot_S262144x16_S16x32_S262144x32_1_0_0_1_n_n : DotDims S262144x16 S16x32 S262144x32 where
  lhsContracting := [1]
  rhsContracting := [0]
  lhsNonContracting := [0]
  rhsNonContracting := [1]
  lhsBatch := []
  rhsBatch := []
  wf := dot_S262144x16_S16x32_S262144x32_1_0_0_1_n_n_wf
def dot_S262144x32_S32x16_S262144x16_1_0_0_1_n_n : DotDims S262144x32 S32x16 S262144x16 where
  lhsContracting := [1]
  rhsContracting := [0]
  lhsNonContracting := [0]
  rhsNonContracting := [1]
  lhsBatch := []
  rhsBatch := []
  wf := dot_S262144x32_S32x16_S262144x16_1_0_0_1_n_n_wf
def dot_S262144x17_S17x8_S262144x8_1_0_0_1_n_n : DotDims S262144x17 S17x8 S262144x8 where
  lhsContracting := [1]
  rhsContracting := [0]
  lhsNonContracting := [0]
  rhsNonContracting := [1]
  lhsBatch := []
  rhsBatch := []
  wf := dot_S262144x17_S17x8_S262144x8_1_0_0_1_n_n_wf
def dot_S262144x17_S17x32_S262144x32_1_0_0_1_n_n : DotDims S262144x17 S17x32 S262144x32 where
  lhsContracting := [1]
  rhsContracting := [0]
  lhsNonContracting := [0]
  rhsNonContracting := [1]
  lhsBatch := []
  rhsBatch := []
  wf := dot_S262144x17_S17x32_S262144x32_1_0_0_1_n_n_wf
def dot_S262144x32_S32x17_S262144x17_1_0_0_1_n_n : DotDims S262144x32 S32x17 S262144x17 where
  lhsContracting := [1]
  rhsContracting := [0]
  lhsNonContracting := [0]
  rhsNonContracting := [1]
  lhsBatch := []
  rhsBatch := []
  wf := dot_S262144x32_S32x17_S262144x17_1_0_0_1_n_n_wf
def dot_S262144x18_S18x8_S262144x8_1_0_0_1_n_n : DotDims S262144x18 S18x8 S262144x8 where
  lhsContracting := [1]
  rhsContracting := [0]
  lhsNonContracting := [0]
  rhsNonContracting := [1]
  lhsBatch := []
  rhsBatch := []
  wf := dot_S262144x18_S18x8_S262144x8_1_0_0_1_n_n_wf
def dot_S262144x18_S18x32_S262144x32_1_0_0_1_n_n : DotDims S262144x18 S18x32 S262144x32 where
  lhsContracting := [1]
  rhsContracting := [0]
  lhsNonContracting := [0]
  rhsNonContracting := [1]
  lhsBatch := []
  rhsBatch := []
  wf := dot_S262144x18_S18x32_S262144x32_1_0_0_1_n_n_wf
def dot_S262144x32_S32x18_S262144x18_1_0_0_1_n_n : DotDims S262144x32 S32x18 S262144x18 where
  lhsContracting := [1]
  rhsContracting := [0]
  lhsNonContracting := [0]
  rhsNonContracting := [1]
  lhsBatch := []
  rhsBatch := []
  wf := dot_S262144x32_S32x18_S262144x18_1_0_0_1_n_n_wf
def dot_S262144x19_S19x8_S262144x8_1_0_0_1_n_n : DotDims S262144x19 S19x8 S262144x8 where
  lhsContracting := [1]
  rhsContracting := [0]
  lhsNonContracting := [0]
  rhsNonContracting := [1]
  lhsBatch := []
  rhsBatch := []
  wf := dot_S262144x19_S19x8_S262144x8_1_0_0_1_n_n_wf
def dot_S262144x19_S19x32_S262144x32_1_0_0_1_n_n : DotDims S262144x19 S19x32 S262144x32 where
  lhsContracting := [1]
  rhsContracting := [0]
  lhsNonContracting := [0]
  rhsNonContracting := [1]
  lhsBatch := []
  rhsBatch := []
  wf := dot_S262144x19_S19x32_S262144x32_1_0_0_1_n_n_wf
def dot_S262144x32_S32x19_S262144x19_1_0_0_1_n_n : DotDims S262144x32 S32x19 S262144x19 where
  lhsContracting := [1]
  rhsContracting := [0]
  lhsNonContracting := [0]
  rhsNonContracting := [1]
  lhsBatch := []
  rhsBatch := []
  wf := dot_S262144x32_S32x19_S262144x19_1_0_0_1_n_n_wf
def dot_S262144x20_S20x8_S262144x8_1_0_0_1_n_n : DotDims S262144x20 S20x8 S262144x8 where
  lhsContracting := [1]
  rhsContracting := [0]
  lhsNonContracting := [0]
  rhsNonContracting := [1]
  lhsBatch := []
  rhsBatch := []
  wf := dot_S262144x20_S20x8_S262144x8_1_0_0_1_n_n_wf
def dot_S262144x20_S20x32_S262144x32_1_0_0_1_n_n : DotDims S262144x20 S20x32 S262144x32 where
  lhsContracting := [1]
  rhsContracting := [0]
  lhsNonContracting := [0]
  rhsNonContracting := [1]
  lhsBatch := []
  rhsBatch := []
  wf := dot_S262144x20_S20x32_S262144x32_1_0_0_1_n_n_wf
def dot_S262144x32_S32x20_S262144x20_1_0_0_1_n_n : DotDims S262144x32 S32x20 S262144x20 where
  lhsContracting := [1]
  rhsContracting := [0]
  lhsNonContracting := [0]
  rhsNonContracting := [1]
  lhsBatch := []
  rhsBatch := []
  wf := dot_S262144x32_S32x20_S262144x20_1_0_0_1_n_n_wf
def dot_S262144x21_S21x8_S262144x8_1_0_0_1_n_n : DotDims S262144x21 S21x8 S262144x8 where
  lhsContracting := [1]
  rhsContracting := [0]
  lhsNonContracting := [0]
  rhsNonContracting := [1]
  lhsBatch := []
  rhsBatch := []
  wf := dot_S262144x21_S21x8_S262144x8_1_0_0_1_n_n_wf
def dot_S262144x21_S21x32_S262144x32_1_0_0_1_n_n : DotDims S262144x21 S21x32 S262144x32 where
  lhsContracting := [1]
  rhsContracting := [0]
  lhsNonContracting := [0]
  rhsNonContracting := [1]
  lhsBatch := []
  rhsBatch := []
  wf := dot_S262144x21_S21x32_S262144x32_1_0_0_1_n_n_wf
def dot_S262144x32_S32x21_S262144x21_1_0_0_1_n_n : DotDims S262144x32 S32x21 S262144x21 where
  lhsContracting := [1]
  rhsContracting := [0]
  lhsNonContracting := [0]
  rhsNonContracting := [1]
  lhsBatch := []
  rhsBatch := []
  wf := dot_S262144x32_S32x21_S262144x21_1_0_0_1_n_n_wf
def dot_S262144x22_S22x8_S262144x8_1_0_0_1_n_n : DotDims S262144x22 S22x8 S262144x8 where
  lhsContracting := [1]
  rhsContracting := [0]
  lhsNonContracting := [0]
  rhsNonContracting := [1]
  lhsBatch := []
  rhsBatch := []
  wf := dot_S262144x22_S22x8_S262144x8_1_0_0_1_n_n_wf
def dot_S262144x22_S22x32_S262144x32_1_0_0_1_n_n : DotDims S262144x22 S22x32 S262144x32 where
  lhsContracting := [1]
  rhsContracting := [0]
  lhsNonContracting := [0]
  rhsNonContracting := [1]
  lhsBatch := []
  rhsBatch := []
  wf := dot_S262144x22_S22x32_S262144x32_1_0_0_1_n_n_wf
def dot_S262144x32_S32x22_S262144x22_1_0_0_1_n_n : DotDims S262144x32 S32x22 S262144x22 where
  lhsContracting := [1]
  rhsContracting := [0]
  lhsNonContracting := [0]
  rhsNonContracting := [1]
  lhsBatch := []
  rhsBatch := []
  wf := dot_S262144x32_S32x22_S262144x22_1_0_0_1_n_n_wf
def dot_S262144x23_S23x8_S262144x8_1_0_0_1_n_n : DotDims S262144x23 S23x8 S262144x8 where
  lhsContracting := [1]
  rhsContracting := [0]
  lhsNonContracting := [0]
  rhsNonContracting := [1]
  lhsBatch := []
  rhsBatch := []
  wf := dot_S262144x23_S23x8_S262144x8_1_0_0_1_n_n_wf
def dot_S262144x23_S23x32_S262144x32_1_0_0_1_n_n : DotDims S262144x23 S23x32 S262144x32 where
  lhsContracting := [1]
  rhsContracting := [0]
  lhsNonContracting := [0]
  rhsNonContracting := [1]
  lhsBatch := []
  rhsBatch := []
  wf := dot_S262144x23_S23x32_S262144x32_1_0_0_1_n_n_wf
def dot_S262144x32_S32x23_S262144x23_1_0_0_1_n_n : DotDims S262144x32 S32x23 S262144x23 where
  lhsContracting := [1]
  rhsContracting := [0]
  lhsNonContracting := [0]
  rhsNonContracting := [1]
  lhsBatch := []
  rhsBatch := []
  wf := dot_S262144x32_S32x23_S262144x23_1_0_0_1_n_n_wf
def dot_S262144x24_S24x8_S262144x8_1_0_0_1_n_n : DotDims S262144x24 S24x8 S262144x8 where
  lhsContracting := [1]
  rhsContracting := [0]
  lhsNonContracting := [0]
  rhsNonContracting := [1]
  lhsBatch := []
  rhsBatch := []
  wf := dot_S262144x24_S24x8_S262144x8_1_0_0_1_n_n_wf
def dot_S262144x24_S24x32_S262144x32_1_0_0_1_n_n : DotDims S262144x24 S24x32 S262144x32 where
  lhsContracting := [1]
  rhsContracting := [0]
  lhsNonContracting := [0]
  rhsNonContracting := [1]
  lhsBatch := []
  rhsBatch := []
  wf := dot_S262144x24_S24x32_S262144x32_1_0_0_1_n_n_wf
def dot_S262144x32_S32x24_S262144x24_1_0_0_1_n_n : DotDims S262144x32 S32x24 S262144x24 where
  lhsContracting := [1]
  rhsContracting := [0]
  lhsNonContracting := [0]
  rhsNonContracting := [1]
  lhsBatch := []
  rhsBatch := []
  wf := dot_S262144x32_S32x24_S262144x24_1_0_0_1_n_n_wf
def dot_S262144x25_S25x8_S262144x8_1_0_0_1_n_n : DotDims S262144x25 S25x8 S262144x8 where
  lhsContracting := [1]
  rhsContracting := [0]
  lhsNonContracting := [0]
  rhsNonContracting := [1]
  lhsBatch := []
  rhsBatch := []
  wf := dot_S262144x25_S25x8_S262144x8_1_0_0_1_n_n_wf
def dot_S262144x25_S25x32_S262144x32_1_0_0_1_n_n : DotDims S262144x25 S25x32 S262144x32 where
  lhsContracting := [1]
  rhsContracting := [0]
  lhsNonContracting := [0]
  rhsNonContracting := [1]
  lhsBatch := []
  rhsBatch := []
  wf := dot_S262144x25_S25x32_S262144x32_1_0_0_1_n_n_wf
def dot_S262144x32_S32x25_S262144x25_1_0_0_1_n_n : DotDims S262144x32 S32x25 S262144x25 where
  lhsContracting := [1]
  rhsContracting := [0]
  lhsNonContracting := [0]
  rhsNonContracting := [1]
  lhsBatch := []
  rhsBatch := []
  wf := dot_S262144x32_S32x25_S262144x25_1_0_0_1_n_n_wf
def dot_S262144x26_S26x8_S262144x8_1_0_0_1_n_n : DotDims S262144x26 S26x8 S262144x8 where
  lhsContracting := [1]
  rhsContracting := [0]
  lhsNonContracting := [0]
  rhsNonContracting := [1]
  lhsBatch := []
  rhsBatch := []
  wf := dot_S262144x26_S26x8_S262144x8_1_0_0_1_n_n_wf
def dot_S262144x26_S26x32_S262144x32_1_0_0_1_n_n : DotDims S262144x26 S26x32 S262144x32 where
  lhsContracting := [1]
  rhsContracting := [0]
  lhsNonContracting := [0]
  rhsNonContracting := [1]
  lhsBatch := []
  rhsBatch := []
  wf := dot_S262144x26_S26x32_S262144x32_1_0_0_1_n_n_wf
def dot_S262144x32_S32x26_S262144x26_1_0_0_1_n_n : DotDims S262144x32 S32x26 S262144x26 where
  lhsContracting := [1]
  rhsContracting := [0]
  lhsNonContracting := [0]
  rhsNonContracting := [1]
  lhsBatch := []
  rhsBatch := []
  wf := dot_S262144x32_S32x26_S262144x26_1_0_0_1_n_n_wf
def dot_S262144x27_S27x8_S262144x8_1_0_0_1_n_n : DotDims S262144x27 S27x8 S262144x8 where
  lhsContracting := [1]
  rhsContracting := [0]
  lhsNonContracting := [0]
  rhsNonContracting := [1]
  lhsBatch := []
  rhsBatch := []
  wf := dot_S262144x27_S27x8_S262144x8_1_0_0_1_n_n_wf
def dot_S262144x27_S27x32_S262144x32_1_0_0_1_n_n : DotDims S262144x27 S27x32 S262144x32 where
  lhsContracting := [1]
  rhsContracting := [0]
  lhsNonContracting := [0]
  rhsNonContracting := [1]
  lhsBatch := []
  rhsBatch := []
  wf := dot_S262144x27_S27x32_S262144x32_1_0_0_1_n_n_wf
def dot_S262144x32_S32x27_S262144x27_1_0_0_1_n_n : DotDims S262144x32 S32x27 S262144x27 where
  lhsContracting := [1]
  rhsContracting := [0]
  lhsNonContracting := [0]
  rhsNonContracting := [1]
  lhsBatch := []
  rhsBatch := []
  wf := dot_S262144x32_S32x27_S262144x27_1_0_0_1_n_n_wf
def dot_S262144x28_S28x8_S262144x8_1_0_0_1_n_n : DotDims S262144x28 S28x8 S262144x8 where
  lhsContracting := [1]
  rhsContracting := [0]
  lhsNonContracting := [0]
  rhsNonContracting := [1]
  lhsBatch := []
  rhsBatch := []
  wf := dot_S262144x28_S28x8_S262144x8_1_0_0_1_n_n_wf
def dot_S262144x28_S28x32_S262144x32_1_0_0_1_n_n : DotDims S262144x28 S28x32 S262144x32 where
  lhsContracting := [1]
  rhsContracting := [0]
  lhsNonContracting := [0]
  rhsNonContracting := [1]
  lhsBatch := []
  rhsBatch := []
  wf := dot_S262144x28_S28x32_S262144x32_1_0_0_1_n_n_wf
def dot_S262144x32_S32x28_S262144x28_1_0_0_1_n_n : DotDims S262144x32 S32x28 S262144x28 where
  lhsContracting := [1]
  rhsContracting := [0]
  lhsNonContracting := [0]
  rhsNonContracting := [1]
  lhsBatch := []
  rhsBatch := []
  wf := dot_S262144x32_S32x28_S262144x28_1_0_0_1_n_n_wf
def dot_S262144x29_S29x8_S262144x8_1_0_0_1_n_n : DotDims S262144x29 S29x8 S262144x8 where
  lhsContracting := [1]
  rhsContracting := [0]
  lhsNonContracting := [0]
  rhsNonContracting := [1]
  lhsBatch := []
  rhsBatch := []
  wf := dot_S262144x29_S29x8_S262144x8_1_0_0_1_n_n_wf
def dot_S262144x29_S29x32_S262144x32_1_0_0_1_n_n : DotDims S262144x29 S29x32 S262144x32 where
  lhsContracting := [1]
  rhsContracting := [0]
  lhsNonContracting := [0]
  rhsNonContracting := [1]
  lhsBatch := []
  rhsBatch := []
  wf := dot_S262144x29_S29x32_S262144x32_1_0_0_1_n_n_wf
def dot_S262144x32_S32x29_S262144x29_1_0_0_1_n_n : DotDims S262144x32 S32x29 S262144x29 where
  lhsContracting := [1]
  rhsContracting := [0]
  lhsNonContracting := [0]
  rhsNonContracting := [1]
  lhsBatch := []
  rhsBatch := []
  wf := dot_S262144x32_S32x29_S262144x29_1_0_0_1_n_n_wf
def dot_S262144x30_S30x8_S262144x8_1_0_0_1_n_n : DotDims S262144x30 S30x8 S262144x8 where
  lhsContracting := [1]
  rhsContracting := [0]
  lhsNonContracting := [0]
  rhsNonContracting := [1]
  lhsBatch := []
  rhsBatch := []
  wf := dot_S262144x30_S30x8_S262144x8_1_0_0_1_n_n_wf
def dot_S262144x30_S30x32_S262144x32_1_0_0_1_n_n : DotDims S262144x30 S30x32 S262144x32 where
  lhsContracting := [1]
  rhsContracting := [0]
  lhsNonContracting := [0]
  rhsNonContracting := [1]
  lhsBatch := []
  rhsBatch := []
  wf := dot_S262144x30_S30x32_S262144x32_1_0_0_1_n_n_wf
def dot_S262144x32_S32x30_S262144x30_1_0_0_1_n_n : DotDims S262144x32 S32x30 S262144x30 where
  lhsContracting := [1]
  rhsContracting := [0]
  lhsNonContracting := [0]
  rhsNonContracting := [1]
  lhsBatch := []
  rhsBatch := []
  wf := dot_S262144x32_S32x30_S262144x30_1_0_0_1_n_n_wf
def dot_S262144x31_S31x8_S262144x8_1_0_0_1_n_n : DotDims S262144x31 S31x8 S262144x8 where
  lhsContracting := [1]
  rhsContracting := [0]
  lhsNonContracting := [0]
  rhsNonContracting := [1]
  lhsBatch := []
  rhsBatch := []
  wf := dot_S262144x31_S31x8_S262144x8_1_0_0_1_n_n_wf
def dot_S262144x31_S31x32_S262144x32_1_0_0_1_n_n : DotDims S262144x31 S31x32 S262144x32 where
  lhsContracting := [1]
  rhsContracting := [0]
  lhsNonContracting := [0]
  rhsNonContracting := [1]
  lhsBatch := []
  rhsBatch := []
  wf := dot_S262144x31_S31x32_S262144x32_1_0_0_1_n_n_wf
def dot_S262144x32_S32x31_S262144x31_1_0_0_1_n_n : DotDims S262144x32 S32x31 S262144x31 where
  lhsContracting := [1]
  rhsContracting := [0]
  lhsNonContracting := [0]
  rhsNonContracting := [1]
  lhsBatch := []
  rhsBatch := []
  wf := dot_S262144x32_S32x31_S262144x31_1_0_0_1_n_n_wf

class Facts : Prop extends Facts₀ where

variable [Facts]
-- ==== Proof.RunWin.lean ====
/-
  The reference's @main as the straight line of its 1354 operations, window by window.

  The operations are cut into 52 consecutive windows (Proof/RunOps0 … 3). A component's operations `w d` are one or two
  of them; so is each `main_partN` of the printed program, which is that stretch of the line by computation; @main, the
  parts in order, is therefore the whole line `opsAll` (appends reassociated), and the line runs: every weakly fair
  execution terminates with each buffer at the fold of the operations over the launch contents.
-/
import proofs.«166035_j57586921505191_2_alg».proof.Proof.RunOps0
import proofs.«166035_j57586921505191_2_alg».proof.Proof.RunOps1
import proofs.«166035_j57586921505191_2_alg».proof.Proof.RunOps2
import proofs.«166035_j57586921505191_2_alg».proof.Proof.RunOps3

noncomputable section

namespace Cert.ReferenceIdeal.RunW

open Cert.ReferenceIdeal Cert.ReferenceIdeal.Gen Idealize.ShloMosaic Idealize.ShloMosaic.TcCoe Idealize.SL.Sem Idealize.ShloMosaic.StableHlo

variable {F : FTy → Type} [FloatOps F]

/-- The fold of a concatenation is the fold of the second line over the fold of the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem forall_append {p : HloOp τ sig (Elt F) → Prop} {l₁ l₂ : List (HloOp τ sig (Elt F))}
    (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

theorem fresh_append {l₁ l₂ : List (HloOp τ sig (Elt F))} (h₁ : ∀ op ∈ l₁, op.fresh = ∅) (h₂ : ∀ op ∈ l₂, op.fresh = ∅) :
    ∀ op ∈ l₁ ++ l₂, op.fresh = ∅ :=
  fun op h => (List.mem_append.1 h).elim (h₁ op) (h₂ op)

/-! ## No window allocates: every operation determines its results -/
theorem f0_0_fresh : ∀ op ∈ (f0_0 : List (HloOp τ sig (Elt F))), op.fresh = ∅ := by
  unfold f0_0
  intro _ h
  (repeat (cases h with | head => rfl | tail _ h => ?_))
  exact nomatch h
theorem f1_0_fresh : ∀ op ∈ (f1_0 : List (HloOp τ sig (Elt F))), op.fresh = ∅ := by
  unfold f1_0
  intro _ h
  (repeat (cases h with | head => rfl | tail _ h => ?_))
  exact nomatch h
theorem f2_0_fresh : ∀ op ∈ (f2_0 : List (HloOp τ sig (Elt F))), op.fresh = ∅ := by
  unfold f2_0
  intro _ h
  (repeat (cases h with | head => rfl | tail _ h => ?_))
  exact nomatch h
theorem f2_1_fresh : ∀ op ∈ (f2_1 : List (HloOp τ sig (Elt F))), op.fresh = ∅ := by
  unfold f2_1
  intro _ h
  (repeat (cases h with | head => rfl | tail _ h => ?_))
  exact nomatch h
theorem f3_0_fresh : ∀ op ∈ (f3_0 : List (HloOp τ sig (Elt F))), op.fresh = ∅ := by
  unfold f3_0
  intro _ h
  (repeat (cases h with | head => rfl | tail _ h => ?_))
  exact nomatch h
theorem f3_1_fresh : ∀ op ∈ (f3_1 : List (HloOp τ sig (Elt F))), op.fresh = ∅ := by
  unfold f3_1
  intro _ h
  (repeat (cases h with | head => rfl | tail _ h => ?_))
  exact nomatch h
theorem f4_0_fresh : ∀ op ∈ (f4_0 : List (HloOp τ sig (Elt F))), op.fresh = ∅ := by
  unfold f4_0
  intro _ h
  (repeat (cases h with | head => rfl | tail _ h => ?_))
  exact nomatch h
theorem f5_0_fresh : ∀ op ∈ (f5_0 : List (HloOp τ sig (Elt F))), op.fresh = ∅ := by
  unfold f5_0
  intro _ h
  (repeat (cases h with | head => rfl | tail _ h => ?_))
  exact nomatch h
theorem f5_1_fresh : ∀ op ∈ (f5_1 : List (HloOp τ sig (Elt F))), op.fresh = ∅ := by
  unfold f5_1
  intro _ h
  (repeat (cases h with | head => rfl | tail _ h => ?_))
  exact nomatch h
theorem f6_0_fresh : ∀ op ∈ (f6_0 : List (HloOp τ sig (Elt F))), op.fresh = ∅ := by
  unfold f6_0
  intro _ h
  (repeat (cases h with | head => rfl | tail _ h => ?_))
  exact nomatch h
theorem f6_1_fresh : ∀ op ∈ (f6_1 : List (HloOp τ sig (Elt F))), op.fresh = ∅ := by
  unfold f6_1
  intro _ h
  (repeat (cases h with | head => rfl | tail _ h => ?_))
  exact nomatch h
theorem f7_0_fresh : ∀ op ∈ (f7_0 : List (HloOp τ sig (Elt F))), op.fresh = ∅ := by
  unfold f7_0
  intro _ h
  (repeat (cases h with | head => rfl | tail _ h => ?_))
  exact nomatch h
theorem f8_0_fresh : ∀ op ∈ (f8_0 : List (HloOp τ sig (Elt F))), op.fresh = ∅ := by
  unfold f8_0
  intro _ h
  (repeat (cases h with | head => rfl | tail _ h => ?_))
  exact nomatch h
theorem f8_1_fresh : ∀ op ∈ (f8_1 : List (HloOp τ sig (Elt F))), op.fresh = ∅ := by
  unfold f8_1
  intro _ h
  (repeat (cases h with | head => rfl | tail _ h => ?_))
  exact nomatch h
theorem f9_0_fresh : ∀ op ∈ (f9_0 : List (HloOp τ sig (Elt F))), op.fresh = ∅ := by
  unfold f9_0
  intro _ h
  (repeat (cases h with | head => rfl | tail _ h => ?_))
  exact nomatch h
theorem f9_1_fresh : ∀ op ∈ (f9_1 : List (HloOp τ sig (Elt F))), op.fresh = ∅ := by
  unfold f9_1
  intro _ h
  (repeat (cases h with | head => rfl | tail _ h => ?_))
  exact nomatch h
theorem f10_0_fresh : ∀ op ∈ (f10_0 : List (HloOp τ sig (Elt F))), op.fresh = ∅ := by
  unfold f10_0
  intro _ h
  (repeat (cases h with | head => rfl | tail _ h => ?_))
  exact nomatch h
theorem f11_0_fresh : ∀ op ∈ (f11_0 : List (HloOp τ sig (Elt F))), op.fresh = ∅ := by
  unfold f11_0
  intro _ h
  (repeat (cases h with | head => rfl | tail _ h => ?_))
  exact nomatch h
theorem f11_1_fresh : ∀ op ∈ (f11_1 : List (HloOp τ sig (Elt F))), op.fresh = ∅ := by
  unfold f11_1
  intro _ h
  (repeat (cases h with | head => rfl | tail _ h => ?_))
  exact nomatch h
theorem f12_0_fresh : ∀ op ∈ (f12_0 : List (HloOp τ sig (Elt F))), op.fresh = ∅ := by
  unfold f12_0
  intro _ h
  (repeat (cases h with | head => rfl | tail _ h => ?_))
  exact nomatch h
theorem f12_1_fresh : ∀ op ∈ (f12_1 : List (HloOp τ sig (Elt F))), op.fresh = ∅ := by
  unfold f12_1
  intro _ h
  (repeat (cases h with | head => rfl | tail _ h => ?_))
  exact nomatch h
theorem f13_0_fresh : ∀ op ∈ (f13_0 : List (HloOp τ sig (Elt F))), op.fresh = ∅ := by
  unfold f13_0
  intro _ h
  (repeat (cases h with | head => rfl | tail _ h => ?_))
  exact nomatch h
theorem f14_0_fresh : ∀ op ∈ (f14_0 : List (HloOp τ sig (Elt F))), op.fresh = ∅ := by
  unfold f14_0
  intro _ h
  (repeat (cases h with | head => rfl | tail _ h => ?_))
  exact nomatch h
theorem f14_1_fresh : ∀ op ∈ (f14_1 : List (HloOp τ sig (Elt F))), op.fresh = ∅ := by
  unfold f14_1
  intro _ h
  (repeat (cases h with | head => rfl | tail _ h => ?_))
  exact nomatch h
theorem f15_0_fresh : ∀ op ∈ (f15_0 : List (HloOp τ sig (Elt F))), op.fresh = ∅ := by
  unfold f15_0
  intro _ h
  (repeat (cases h with | head => rfl | tail _ h => ?_))
  exact nomatch h
theorem f15_1_fresh : ∀ op ∈ (f15_1 : List (HloOp τ sig (Elt F))), op.fresh = ∅ := by
  unfold f15_1
  intro _ h
  (repeat (cases h with | head => rfl | tail _ h => ?_))
  exact nomatch h
theorem f16_0_fresh : ∀ op ∈ (f16_0 : List (HloOp τ sig (Elt F))), op.fresh = ∅ := by
  unfold f16_0
  intro _ h
  (repeat (cases h with | head => rfl | tail _ h => ?_))
  exact nomatch h
theorem f17_0_fresh : ∀ op ∈ (f17_0 : List (HloOp τ sig (Elt F))), op.fresh = ∅ := by
  unfold f17_0
  intro _ h
  (repeat (cases h with | head => rfl | tail _ h => ?_))
  exact nomatch h
theorem f17_1_fresh : ∀ op ∈ (f17_1 : List (HloOp τ sig (Elt F))), op.fresh = ∅ := by
  unfold f17_1
  intro _ h
  (repeat (cases h with | head => rfl | tail _ h => ?_))
  exact nomatch h
theorem f18_0_fresh : ∀ op ∈ (f18_0 : List (HloOp τ sig (Elt F))), op.fresh = ∅ := by
  unfold f18_0
  intro _ h
  (repeat (cases h with | head => rfl | tail _ h => ?_))
  exact nomatch h
theorem f19_0_fresh : ∀ op ∈ (f19_0 : List (HloOp τ sig (Elt F))), op.fresh = ∅ := by
  unfold f19_0
  intro _ h
  (repeat (cases h with | head => rfl | tail _ h => ?_))
  exact nomatch h
theorem f20_0_fresh : ∀ op ∈ (f20_0 : List (HloOp τ sig (Elt F))), op.fresh = ∅ := by
  unfold f20_0
  intro _ h
  (repeat (cases h with | head => rfl | tail _ h => ?_))
  exact nomatch h
theorem f20_1_fresh : ∀ op ∈ (f20_1 : List (HloOp τ sig (Elt F))), op.fresh = ∅ := by
  unfold f20_1
  intro _ h
  (repeat (cases h with | head => rfl | tail _ h => ?_))
  exact nomatch h
theorem f21_0_fresh : ∀ op ∈ (f21_0 : List (HloOp τ sig (Elt F))), op.fresh = ∅ := by
  unfold f21_0
  intro _ h
  (repeat (cases h with | head => rfl | tail _ h => ?_))
  exact nomatch h
theorem f22_0_fresh : ∀ op ∈ (f22_0 : List (HloOp τ sig (Elt F))), op.fresh = ∅ := by
  unfold f22_0
  intro _ h
  (repeat (cases h with | head => rfl | tail _ h => ?_))
  exact nomatch h
theorem f22_1_fresh : ∀ op ∈ (f22_1 : List (HloOp τ sig (Elt F))), op.fresh = ∅ := by
  unfold f22_1
  intro _ h
  (repeat (cases h with | head => rfl | tail _ h => ?_))
  exact nomatch h
theorem f23_0_fresh : ∀ op ∈ (f23_0 : List (HloOp τ sig (Elt F))), op.fresh = ∅ := by
  unfold f23_0
  intro _ h
  (repeat (cases h with | head => rfl | tail _ h => ?_))
  exact nomatch h
theorem f23_1_fresh : ∀ op ∈ (f23_1 : List (HloOp τ sig (Elt F))), op.fresh = ∅ := by
  unfold f23_1
  intro _ h
  (repeat (cases h with | head => rfl | tail _ h => ?_))
  exact nomatch h
theorem f24_0_fresh : ∀ op ∈ (f24_0 : List (HloOp τ sig (Elt F))), op.fresh = ∅ := by
  unfold f24_0
  intro _ h
  (repeat (cases h with | head => rfl | tail _ h => ?_))
  exact nomatch h
theorem f25_0_fresh : ∀ op ∈ (f25_0 : List (HloOp τ sig (Elt F))), op.fresh = ∅ := by
  unfold f25_0
  intro _ h
  (repeat (cases h with | head => rfl | tail _ h => ?_))
  exact nomatch h
theorem f25_1_fresh : ∀ op ∈ (f25_1 : List (HloOp τ sig (Elt F))), op.fresh = ∅ := by
  unfold f25_1
  intro _ h
  (repeat (cases h with | head => rfl | tail _ h => ?_))
  exact nomatch h
theorem f26_0_fresh : ∀ op ∈ (f26_0 : List (HloOp τ sig (Elt F))), op.fresh = ∅ := by
  unfold f26_0
  intro _ h
  (repeat (cases h with | head => rfl | tail _ h => ?_))
  exact nomatch h
theorem f26_1_fresh : ∀ op ∈ (f26_1 : List (HloOp τ sig (Elt F))), op.fresh = ∅ := by
  unfold f26_1
  intro _ h
  (repeat (cases h with | head => rfl | tail _ h => ?_))
  exact nomatch h
theorem f27_0_fresh : ∀ op ∈ (f27_0 : List (HloOp τ sig (Elt F))), op.fresh = ∅ := by
  unfold f27_0
  intro _ h
  (repeat (cases h with | head => rfl | tail _ h => ?_))
  exact nomatch h
theorem f28_0_fresh : ∀ op ∈ (f28_0 : List (HloOp τ sig (Elt F))), op.fresh = ∅ := by
  unfold f28_0
  intro _ h
  (repeat (cases h with | head => rfl | tail _ h => ?_))
  exact nomatch h
theorem f28_1_fresh : ∀ op ∈ (f28_1 : List (HloOp τ sig (Elt F))), op.fresh = ∅ := by
  unfold f28_1
  intro _ h
  (repeat (cases h with | head => rfl | tail _ h => ?_))
  exact nomatch h
theorem f29_0_fresh : ∀ op ∈ (f29_0 : List (HloOp τ sig (Elt F))), op.fresh = ∅ := by
  unfold f29_0
  intro _ h
  (repeat (cases h with | head => rfl | tail _ h => ?_))
  exact nomatch h
theorem f29_1_fresh : ∀ op ∈ (f29_1 : List (HloOp τ sig (Elt F))), op.fresh = ∅ := by
  unfold f29_1
  intro _ h
  (repeat (cases h with | head => rfl | tail _ h => ?_))
  exact nomatch h
theorem f30_0_fresh : ∀ op ∈ (f30_0 : List (HloOp τ sig (Elt F))), op.fresh = ∅ := by
  unfold f30_0
  intro _ h
  (repeat (cases h with | head => rfl | tail _ h => ?_))
  exact nomatch h
theorem f31_0_fresh : ∀ op ∈ (f31_0 : List (HloOp τ sig (Elt F))), op.fresh = ∅ := by
  unfold f31_0
  intro _ h
  (repeat (cases h with | head => rfl | tail _ h => ?_))
  exact nomatch h
theorem f31_1_fresh : ∀ op ∈ (f31_1 : List (HloOp τ sig (Elt F))), op.fresh = ∅ := by
  unfold f31_1
  intro _ h
  (repeat (cases h with | head => rfl | tail _ h => ?_))
  exact nomatch h
theorem fT_0_fresh : ∀ op ∈ (fT_0 : List (HloOp τ sig (Elt F))), op.fresh = ∅ := by
  unfold fT_0
  intro _ h
  (repeat (cases h with | head => rfl | tail _ h => ?_))
  exact nomatch h

/-! ## The components' windows -/
/-- Component 0's operations. -/
def w0 : List (HloOp τ sig (Elt F)) := f0_0
theorem w0_sub : (w0 : List (HloOp τ sig (Elt F))).Forall fun op => op.bufs ⊆ tcRefs τ sig := by
  unfold w0
  exact f0_0_sub
theorem w0_fresh : ∀ op ∈ (w0 : List (HloOp τ sig (Elt F))), op.fresh = ∅ := by
  unfold w0
  exact f0_0_fresh
/-- Component 1's operations. -/
def w1 : List (HloOp τ sig (Elt F)) := f1_0
theorem w1_sub : (w1 : List (HloOp τ sig (Elt F))).Forall fun op => op.bufs ⊆ tcRefs τ sig := by
  unfold w1
  exact f1_0_sub
theorem w1_fresh : ∀ op ∈ (w1 : List (HloOp τ sig (Elt F))), op.fresh = ∅ := by
  unfold w1
  exact f1_0_fresh
/-- Component 2's operations. -/
def w2 : List (HloOp τ sig (Elt F)) := f2_0 ++ (f2_1)
theorem w2_sub : (w2 : List (HloOp τ sig (Elt F))).Forall fun op => op.bufs ⊆ tcRefs τ sig := by
  unfold w2
  exact forall_append f2_0_sub (f2_1_sub)
theorem w2_fresh : ∀ op ∈ (w2 : List (HloOp τ sig (Elt F))), op.fresh = ∅ := by
  unfold w2
  exact fresh_append f2_0_fresh (f2_1_fresh)
/-- Component 3's operations. -/
def w3 : List (HloOp τ sig (Elt F)) := f3_0 ++ (f3_1)
theorem w3_sub : (w3 : List (HloOp τ sig (Elt F))).Forall fun op => op.bufs ⊆ tcRefs τ sig := by
  unfold w3
  exact forall_append f3_0_sub (f3_1_sub)
theorem w3_fresh : ∀ op ∈ (w3 : List (HloOp τ sig (Elt F))), op.fresh = ∅ := by
  unfold w3
  exact fresh_append f3_0_fresh (f3_1_fresh)
/-- Component 4's operations. -/
def w4 : List (HloOp τ sig (Elt F)) := f4_0
theorem w4_sub : (w4 : List (HloOp τ sig (Elt F))).Forall fun op => op.bufs ⊆ tcRefs τ sig := by
  unfold w4
  exact f4_0_sub
theorem w4_fresh : ∀ op ∈ (w4 : List (HloOp τ sig (Elt F))), op.fresh = ∅ := by
  unfold w4
  exact f4_0_fresh
/-- Component 5's operations. -/
def w5 : List (HloOp τ sig (Elt F)) := f5_0 ++ (f5_1)
theorem w5_sub : (w5 : List (HloOp τ sig (Elt F))).Forall fun op => op.bufs ⊆ tcRefs τ sig := by
  unfold w5
  exact forall_append f5_0_sub (f5_1_sub)
theorem w5_fresh : ∀ op ∈ (w5 : List (HloOp τ sig (Elt F))), op.fresh = ∅ := by
  unfold w5
  exact fresh_append f5_0_fresh (f5_1_fresh)
/-- Component 6's operations. -/
def w6 : List (HloOp τ sig (Elt F)) := f6_0 ++ (f6_1)
theorem w6_sub : (w6 : List (HloOp τ sig (Elt F))).Forall fun op => op.bufs ⊆ tcRefs τ sig := by
  unfold w6
  exact forall_append f6_0_sub (f6_1_sub)
theorem w6_fresh : ∀ op ∈ (w6 : List (HloOp τ sig (Elt F))), op.fresh = ∅ := by
  unfold w6
  exact fresh_append f6_0_fresh (f6_1_fresh)
/-- Component 7's operations. -/
def w7 : List (HloOp τ sig (Elt F)) := f7_0
theorem w7_sub : (w7 : List (HloOp τ sig (Elt F))).Forall fun op => op.bufs ⊆ tcRefs τ sig := by
  unfold w7
  exact f7_0_sub
theorem w7_fresh : ∀ op ∈ (w7 : List (HloOp τ sig (Elt F))), op.fresh = ∅ := by
  unfold w7
  exact f7_0_fresh
/-- Component 8's operations. -/
def w8 : List (HloOp τ sig (Elt F)) := f8_0 ++ (f8_1)
theorem w8_sub : (w8 : List (HloOp τ sig (Elt F))).Forall fun op => op.bufs ⊆ tcRefs τ sig := by
  unfold w8
  exact forall_append f8_0_sub (f8_1_sub)
theorem w8_fresh : ∀ op ∈ (w8 : List (HloOp τ sig (Elt F))), op.fresh = ∅ := by
  unfold w8
  exact fresh_append f8_0_fresh (f8_1_fresh)
/-- Component 9's operations. -/
def w9 : List (HloOp τ sig (Elt F)) := f9_0 ++ (f9_1)
theorem w9_sub : (w9 : List (HloOp τ sig (Elt F))).Forall fun op => op.bufs ⊆ tcRefs τ sig := by
  unfold w9
  exact forall_append f9_0_sub (f9_1_sub)
theorem w9_fresh : ∀ op ∈ (w9 : List (HloOp τ sig (Elt F))), op.fresh = ∅ := by
  unfold w9
  exact fresh_append f9_0_fresh (f9_1_fresh)
/-- Component 10's operations. -/
def w10 : List (HloOp τ sig (Elt F)) := f10_0
theorem w10_sub : (w10 : List (HloOp τ sig (Elt F))).Forall fun op => op.bufs ⊆ tcRefs τ sig := by
  unfold w10
  exact f10_0_sub
theorem w10_fresh : ∀ op ∈ (w10 : List (HloOp τ sig (Elt F))), op.fresh = ∅ := by
  unfold w10
  exact f10_0_fresh
/-- Component 11's operations. -/
def w11 : List (HloOp τ sig (Elt F)) := f11_0 ++ (f11_1)
theorem w11_sub : (w11 : List (HloOp τ sig (Elt F))).Forall fun op => op.bufs ⊆ tcRefs τ sig := by
  unfold w11
  exact forall_append f11_0_sub (f11_1_sub)
theorem w11_fresh : ∀ op ∈ (w11 : List (HloOp τ sig (Elt F))), op.fresh = ∅ := by
  unfold w11
  exact fresh_append f11_0_fresh (f11_1_fresh)
/-- Component 12's operations. -/
def w12 : List (HloOp τ sig (Elt F)) := f12_0 ++ (f12_1)
theorem w12_sub : (w12 : List (HloOp τ sig (Elt F))).Forall fun op => op.bufs ⊆ tcRefs τ sig := by
  unfold w12
  exact forall_append f12_0_sub (f12_1_sub)
theorem w12_fresh : ∀ op ∈ (w12 : List (HloOp τ sig (Elt F))), op.fresh = ∅ := by
  unfold w12
  exact fresh_append f12_0_fresh (f12_1_fresh)
/-- Component 13's operations. -/
def w13 : List (HloOp τ sig (Elt F)) := f13_0
theorem w13_sub : (w13 : List (HloOp τ sig (Elt F))).Forall fun op => op.bufs ⊆ tcRefs τ sig := by
  unfold w13
  exact f13_0_sub
theorem w13_fresh : ∀ op ∈ (w13 : List (HloOp τ sig (Elt F))), op.fresh = ∅ := by
  unfold w13
  exact f13_0_fresh
/-- Component 14's operations. -/
def w14 : List (HloOp τ sig (Elt F)) := f14_0 ++ (f14_1)
theorem w14_sub : (w14 : List (HloOp τ sig (Elt F))).Forall fun op => op.bufs ⊆ tcRefs τ sig := by
  unfold w14
  exact forall_append f14_0_sub (f14_1_sub)
theorem w14_fresh : ∀ op ∈ (w14 : List (HloOp τ sig (Elt F))), op.fresh = ∅ := by
  unfold w14
  exact fresh_append f14_0_fresh (f14_1_fresh)
/-- Component 15's operations. -/
def w15 : List (HloOp τ sig (Elt F)) := f15_0 ++ (f15_1)
theorem w15_sub : (w15 : List (HloOp τ sig (Elt F))).Forall fun op => op.bufs ⊆ tcRefs τ sig := by
  unfold w15
  exact forall_append f15_0_sub (f15_1_sub)
theorem w15_fresh : ∀ op ∈ (w15 : List (HloOp τ sig (Elt F))), op.fresh = ∅ := by
  unfold w15
  exact fresh_append f15_0_fresh (f15_1_fresh)
/-- Component 16's operations. -/
def w16 : List (HloOp τ sig (Elt F)) := f16_0
theorem w16_sub : (w16 : List (HloOp τ sig (Elt F))).Forall fun op => op.bufs ⊆ tcRefs τ sig := by
  unfold w16
  exact f16_0_sub
theorem w16_fresh : ∀ op ∈ (w16 : List (HloOp τ sig (Elt F))), op.fresh = ∅ := by
  unfold w16
  exact f16_0_fresh
/-- Component 17's operations. -/
def w17 : List (HloOp τ sig (Elt F)) := f17_0 ++ (f17_1)
theorem w17_sub : (w17 : List (HloOp τ sig (Elt F))).Forall fun op => op.bufs ⊆ tcRefs τ sig := by
  unfold w17
  exact forall_append f17_0_sub (f17_1_sub)
theorem w17_fresh : ∀ op ∈ (w17 : List (HloOp τ sig (Elt F))), op.fresh = ∅ := by
  unfold w17
  exact fresh_append f17_0_fresh (f17_1_fresh)
/-- Component 18's operations. -/
def w18 : List (HloOp τ sig (Elt F)) := f18_0
theorem w18_sub : (w18 : List (HloOp τ sig (Elt F))).Forall fun op => op.bufs ⊆ tcRefs τ sig := by
  unfold w18
  exact f18_0_sub
theorem w18_fresh : ∀ op ∈ (w18 : List (HloOp τ sig (Elt F))), op.fresh = ∅ := by
  unfold w18
  exact f18_0_fresh
/-- Component 19's operations. -/
def w19 : List (HloOp τ sig (Elt F)) := f19_0
theorem w19_sub : (w19 : List (HloOp τ sig (Elt F))).Forall fun op => op.bufs ⊆ tcRefs τ sig := by
  unfold w19
  exact f19_0_sub
theorem w19_fresh : ∀ op ∈ (w19 : List (HloOp τ sig (Elt F))), op.fresh = ∅ := by
  unfold w19
  exact f19_0_fresh
/-- Component 20's operations. -/
def w20 : List (HloOp τ sig (Elt F)) := f20_0 ++ (f20_1)
theorem w20_sub : (w20 : List (HloOp τ sig (Elt F))).Forall fun op => op.bufs ⊆ tcRefs τ sig := by
  unfold w20
  exact forall_append f20_0_sub (f20_1_sub)
theorem w20_fresh : ∀ op ∈ (w20 : List (HloOp τ sig (Elt F))), op.fresh = ∅ := by
  unfold w20
  exact fresh_append f20_0_fresh (f20_1_fresh)
/-- Component 21's operations. -/
def w21 : List (HloOp τ sig (Elt F)) := f21_0
theorem w21_sub : (w21 : List (HloOp τ sig (Elt F))).Forall fun op => op.bufs ⊆ tcRefs τ sig := by
  unfold w21
  exact f21_0_sub
theorem w21_fresh : ∀ op ∈ (w21 : List (HloOp τ sig (Elt F))), op.fresh = ∅ := by
  unfold w21
  exact f21_0_fresh
/-- Component 22's operations. -/
def w22 : List (HloOp τ sig (Elt F)) := f22_0 ++ (f22_1)
theorem w22_sub : (w22 : List (HloOp τ sig (Elt F))).Forall fun op => op.bufs ⊆ tcRefs τ sig := by
  unfold w22
  exact forall_append f22_0_sub (f22_1_sub)
theorem w22_fresh : ∀ op ∈ (w22 : List (HloOp τ sig (Elt F))), op.fresh = ∅ := by
  unfold w22
  exact fresh_append f22_0_fresh (f22_1_fresh)
/-- Component 23's operations. -/
def w23 : List (HloOp τ sig (Elt F)) := f23_0 ++ (f23_1)
theorem w23_sub : (w23 : List (HloOp τ sig (Elt F))).Forall fun op => op.bufs ⊆ tcRefs τ sig := by
  unfold w23
  exact forall_append f23_0_sub (f23_1_sub)
theorem w23_fresh : ∀ op ∈ (w23 : List (HloOp τ sig (Elt F))), op.fresh = ∅ := by
  unfold w23
  exact fresh_append f23_0_fresh (f23_1_fresh)
/-- Component 24's operations. -/
def w24 : List (HloOp τ sig (Elt F)) := f24_0
theorem w24_sub : (w24 : List (HloOp τ sig (Elt F))).Forall fun op => op.bufs ⊆ tcRefs τ sig := by
  unfold w24
  exact f24_0_sub
theorem w24_fresh : ∀ op ∈ (w24 : List (HloOp τ sig (Elt F))), op.fresh = ∅ := by
  unfold w24
  exact f24_0_fresh
/-- Component 25's operations. -/
def w25 : List (HloOp τ sig (Elt F)) := f25_0 ++ (f25_1)
theorem w25_sub : (w25 : List (HloOp τ sig (Elt F))).Forall fun op => op.bufs ⊆ tcRefs τ sig := by
  unfold w25
  exact forall_append f25_0_sub (f25_1_sub)
theorem w25_fresh : ∀ op ∈ (w25 : List (HloOp τ sig (Elt F))), op.fresh = ∅ := by
  unfold w25
  exact fresh_append f25_0_fresh (f25_1_fresh)
/-- Component 26's operations. -/
def w26 : List (HloOp τ sig (Elt F)) := f26_0 ++ (f26_1)
theorem w26_sub : (w26 : List (HloOp τ sig (Elt F))).Forall fun op => op.bufs ⊆ tcRefs τ sig := by
  unfold w26
  exact forall_append f26_0_sub (f26_1_sub)
theorem w26_fresh : ∀ op ∈ (w26 : List (HloOp τ sig (Elt F))), op.fresh = ∅ := by
  unfold w26
  exact fresh_append f26_0_fresh (f26_1_fresh)
/-- Component 27's operations. -/
def w27 : List (HloOp τ sig (Elt F)) := f27_0
theorem w27_sub : (w27 : List (HloOp τ sig (Elt F))).Forall fun op => op.bufs ⊆ tcRefs τ sig := by
  unfold w27
  exact f27_0_sub
theorem w27_fresh : ∀ op ∈ (w27 : List (HloOp τ sig (Elt F))), op.fresh = ∅ := by
  unfold w27
  exact f27_0_fresh
/-- Component 28's operations. -/
def w28 : List (HloOp τ sig (Elt F)) := f28_0 ++ (f28_1)
theorem w28_sub : (w28 : List (HloOp τ sig (Elt F))).Forall fun op => op.bufs ⊆ tcRefs τ sig := by
  unfold w28
  exact forall_append f28_0_sub (f28_1_sub)
theorem w28_fresh : ∀ op ∈ (w28 : List (HloOp τ sig (Elt F))), op.fresh = ∅ := by
  unfold w28
  exact fresh_append f28_0_fresh (f28_1_fresh)
/-- Component 29's operations. -/
def w29 : List (HloOp τ sig (Elt F)) := f29_0 ++ (f29_1)
theorem w29_sub : (w29 : List (HloOp τ sig (Elt F))).Forall fun op => op.bufs ⊆ tcRefs τ sig := by
  unfold w29
  exact forall_append f29_0_sub (f29_1_sub)
theorem w29_fresh : ∀ op ∈ (w29 : List (HloOp τ sig (Elt F))), op.fresh = ∅ := by
  unfold w29
  exact fresh_append f29_0_fresh (f29_1_fresh)
/-- Component 30's operations. -/
def w30 : List (HloOp τ sig (Elt F)) := f30_0
theorem w30_sub : (w30 : List (HloOp τ sig (Elt F))).Forall fun op => op.bufs ⊆ tcRefs τ sig := by
  unfold w30
  exact f30_0_sub
theorem w30_fresh : ∀ op ∈ (w30 : List (HloOp τ sig (Elt F))), op.fresh = ∅ := by
  unfold w30
  exact f30_0_fresh
/-- Component 31's operations. -/
def w31 : List (HloOp τ sig (Elt F)) := f31_0 ++ (f31_1)
theorem w31_sub : (w31 : List (HloOp τ sig (Elt F))).Forall fun op => op.bufs ⊆ tcRefs τ sig := by
  unfold w31
  exact forall_append f31_0_sub (f31_1_sub)
theorem w31_fresh : ∀ op ∈ (w31 : List (HloOp τ sig (Elt F))), op.fresh = ∅ := by
  unfold w31
  exact fresh_append f31_0_fresh (f31_1_fresh)
/-- The three concatenations. -/
def wT : List (HloOp τ sig (Elt F)) := fT_0
theorem wT_sub : (wT : List (HloOp τ sig (Elt F))).Forall fun op => op.bufs ⊆ tcRefs τ sig := by
  unfold wT
  exact fT_0_sub
theorem wT_fresh : ∀ op ∈ (wT : List (HloOp τ sig (Elt F))), op.fresh = ∅ := by
  unfold wT
  exact fT_0_fresh

/-! ## The whole line, and @main -/

/-- The 1354 operations: the 32 components' windows in order, then the three concatenations. -/
def opsAll : List (HloOp τ sig (Elt F)) :=
  w0 ++ (w1 ++ (w2 ++ (w3 ++ (w4 ++ (w5 ++ (w6 ++ (w7 ++ (w8 ++ (w9 ++ (w10 ++ (w11 ++ (w12 ++ (w13 ++ (w14 ++ (w15 ++ (w16 ++ (w17 ++ (w18 ++ (w19 ++ (w20 ++ (w21 ++ (w22 ++ (w23 ++ (w24 ++ (w25 ++ (w26 ++ (w27 ++ (w28 ++ (w29 ++ (w30 ++ (w31 ++ (wT))))))))))))))))))))))))))))))))

set_option maxRecDepth 8192 in
set_option maxHeartbeats 4000000 in
theorem part0_eq (c : Dev nD) : main_part0 (F := F) c = seq (f0_0 ++ (f1_0 ++ (f2_0))) := rfl
set_option maxRecDepth 8192 in
set_option maxHeartbeats 4000000 in
theorem part1_eq (c : Dev nD) : main_part1 (F := F) c = seq (f2_1 ++ (f3_0)) := rfl
set_option maxRecDepth 8192 in
set_option maxHeartbeats 4000000 in
theorem part2_eq (c : Dev nD) : main_part2 (F := F) c = seq (f3_1 ++ (f4_0 ++ (f5_0))) := rfl
set_option maxRecDepth 8192 in
set_option maxHeartbeats 4000000 in
theorem part3_eq (c : Dev nD) : main_part3 (F := F) c = seq (f5_1 ++ (f6_0)) := rfl
set_option maxRecDepth 8192 in
set_option maxHeartbeats 4000000 in
theorem part4_eq (c : Dev nD) : main_part4 (F := F) c = seq (f6_1 ++ (f7_0 ++ (f8_0))) := rfl
set_option maxRecDepth 8192 in
set_option maxHeartbeats 4000000 in
theorem part5_eq (c : Dev nD) : main_part5 (F := F) c = seq (f8_1 ++ (f9_0)) := rfl
set_option maxRecDepth 8192 in
set_option maxHeartbeats 4000000 in
theorem part6_eq (c : Dev nD) : main_part6 (F := F) c = seq (f9_1 ++ (f10_0 ++ (f11_0))) := rfl
set_option maxRecDepth 8192 in
set_option maxHeartbeats 4000000 in
theorem part7_eq (c : Dev nD) : main_part7 (F := F) c = seq (f11_1 ++ (f12_0)) := rfl
set_option maxRecDepth 8192 in
set_option maxHeartbeats 4000000 in
theorem part8_eq (c : Dev nD) : main_part8 (F := F) c = seq (f12_1 ++ (f13_0 ++ (f14_0))) := rfl
set_option maxRecDepth 8192 in
set_option maxHeartbeats 4000000 in
theorem part9_eq (c : Dev nD) : main_part9 (F := F) c = seq (f14_1 ++ (f15_0)) := rfl
set_option maxRecDepth 8192 in
set_option maxHeartbeats 4000000 in
theorem part10_eq (c : Dev nD) : main_part10 (F := F) c = seq (f15_1 ++ (f16_0 ++ (f17_0))) := rfl
set_option maxRecDepth 8192 in
set_option maxHeartbeats 4000000 in
theorem part11_eq (c : Dev nD) : main_part11 (F := F) c = seq (f17_1 ++ (f18_0)) := rfl
set_option maxRecDepth 8192 in
set_option maxHeartbeats 4000000 in
theorem part12_eq (c : Dev nD) : main_part12 (F := F) c = seq (f19_0 ++ (f20_0)) := rfl
set_option maxRecDepth 8192 in
set_option maxHeartbeats 4000000 in
theorem part13_eq (c : Dev nD) : main_part13 (F := F) c = seq (f20_1 ++ (f21_0 ++ (f22_0))) := rfl
set_option maxRecDepth 8192 in
set_option maxHeartbeats 4000000 in
theorem part14_eq (c : Dev nD) : main_part14 (F := F) c = seq (f22_1 ++ (f23_0)) := rfl
set_option maxRecDepth 8192 in
set_option maxHeartbeats 4000000 in
theorem part15_eq (c : Dev nD) : main_part15 (F := F) c = seq (f23_1 ++ (f24_0 ++ (f25_0))) := rfl
set_option maxRecDepth 8192 in
set_option maxHeartbeats 4000000 in
theorem part16_eq (c : Dev nD) : main_part16 (F := F) c = seq (f25_1 ++ (f26_0)) := rfl
set_option maxRecDepth 8192 in
set_option maxHeartbeats 4000000 in
theorem part17_eq (c : Dev nD) : main_part17 (F := F) c = seq (f26_1 ++ (f27_0 ++ (f28_0))) := rfl
set_option maxRecDepth 8192 in
set_option maxHeartbeats 4000000 in
theorem part18_eq (c : Dev nD) : main_part18 (F := F) c = seq (f28_1 ++ (f29_0)) := rfl
set_option maxRecDepth 8192 in
set_option maxHeartbeats 4000000 in
theorem part19_eq (c : Dev nD) : main_part19 (F := F) c = seq (f29_1 ++ (f30_0 ++ (f31_0))) := rfl
set_option maxRecDepth 8192 in
set_option maxHeartbeats 4000000 in
theorem part20_eq (c : Dev nD) : main_part20 (F := F) c = seq (f31_1 ++ (fT_0)) := rfl

/-- @main, the parts in order, is the line. -/
theorem main_eq (c : Dev nD) : main (F := F) c = seq opsAll := by
  show (do main_part0 (F := F) c; main_part1 (F := F) c; main_part2 (F := F) c; main_part3 (F := F) c; main_part4 (F := F) c; main_part5 (F := F) c; main_part6 (F := F) c; main_part7 (F := F) c; main_part8 (F := F) c; main_part9 (F := F) c; main_part10 (F := F) c; main_part11 (F := F) c; main_part12 (F := F) c; main_part13 (F := F) c; main_part14 (F := F) c; main_part15 (F := F) c; main_part16 (F := F) c; main_part17 (F := F) c; main_part18 (F := F) c; main_part19 (F := F) c; main_part20 (F := F) c) = _
  rw [part0_eq, part1_eq, part2_eq, part3_eq, part4_eq, part5_eq, part6_eq, part7_eq, part8_eq, part9_eq, part10_eq, part11_eq, part12_eq, part13_eq, part14_eq, part15_eq, part16_eq, part17_eq, part18_eq, part19_eq, part20_eq]
  unfold opsAll w0 w1 w2 w3 w4 w5 w6 w7 w8 w9 w10 w11 w12 w13 w14 w15 w16 w17 w18 w19 w20 w21 w22 w23 w24 w25 w26 w27 w28 w29 w30 w31 wT
  simp only [← seq_append, List.append_assoc]

theorem scopedRefs_eq : (Finset.univ.filter fun b : Ref sig .tc => b.isScoped) = ∅ := by decide
theorem scopedSems_eq : (Finset.univ.filter fun sm : SemLoc sig => sm.isScoped .tc) = ∅ := by decide

theorem opsAll_sub : (opsAll : List (HloOp τ sig (Elt F))).Forall fun op => op.bufs ⊆ tcRefs τ sig := by
  unfold opsAll
  exact forall_append w0_sub (forall_append w1_sub (forall_append w2_sub (forall_append w3_sub (forall_append w4_sub (forall_append w5_sub (forall_append w6_sub (forall_append w7_sub (forall_append w8_sub (forall_append w9_sub (forall_append w10_sub (forall_append w11_sub (forall_append w12_sub (forall_append w13_sub (forall_append w14_sub (forall_append w15_sub (forall_append w16_sub (forall_append w17_sub (forall_append w18_sub (forall_append w19_sub (forall_append w20_sub (forall_append w21_sub (forall_append w22_sub (forall_append w23_sub (forall_append w24_sub (forall_append w25_sub (forall_append w26_sub (forall_append w27_sub (forall_append w28_sub (forall_append w29_sub (forall_append w30_sub (forall_append w31_sub (wT_sub))))))))))))))))))))))))))))))))

theorem opsAll_fresh : ∀ op ∈ (opsAll : List (HloOp τ sig (Elt F))), op.fresh = ∅ := by
  unfold opsAll
  exact fresh_append w0_fresh (fresh_append w1_fresh (fresh_append w2_fresh (fresh_append w3_fresh (fresh_append w4_fresh (fresh_append w5_fresh (fresh_append w6_fresh (fresh_append w7_fresh (fresh_append w8_fresh (fresh_append w9_fresh (fresh_append w10_fresh (fresh_append w11_fresh (fresh_append w12_fresh (fresh_append w13_fresh (fresh_append w14_fresh (fresh_append w15_fresh (fresh_append w16_fresh (fresh_append w17_fresh (fresh_append w18_fresh (fresh_append w19_fresh (fresh_append w20_fresh (fresh_append w21_fresh (fresh_append w22_fresh (fresh_append w23_fresh (fresh_append w24_fresh (fresh_append w25_fresh (fresh_append w26_fresh (fresh_append w27_fresh (fresh_append w28_fresh (fresh_append w29_fresh (fresh_append w30_fresh (fresh_append w31_fresh (wT_fresh))))))))))))))))))))))))))))))))

/-- Every weakly fair execution of the reference terminates, each buffer at the fold of the line over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after opsAll (launchContents m d) (Proc.devRef .tc b) :=
  run_seq scopedRefs_eq scopedSems_eq defs main (fun _ => opsAll) main_eq (fun _ => opsAll_sub) m ρ (fun _ => opsAll_fresh)

end Cert.ReferenceIdeal.RunW

end
-- ==== Proof.RW0.lean ====
/-
  The reference's operations, one component's window at a time: what a window leaves in the buffers that matter.

  Window `w d` (the operations of component `d`) reads only the seven argument arrays and writes only its own buffers.
  So, from ANY contents `W` of the buffers: it leaves the argument arrays as they were (`w d_arg j`), it leaves the
  result column of every earlier component as it was (`w d_keep e`, `e < d`), and it leaves in its own result column the
  component's stage function of the argument arrays as `W` holds them (`w d_out`). Each is read off the fold of the
  window's operations, one operation at a time.
-/
import proofs.«166035_j57586921505191_2_alg».proof.Proof.RunWin
import proofs.«166035_j57586921505191_2_alg».proof.Proof.ReadP

noncomputable section

namespace Cert.ReferenceIdeal.RunW

open Cert.ReferenceIdeal Cert.ReferenceIdeal.Gen Idealize.ShloMosaic Idealize.ShloMosaic.TcCoe Idealize.SL.Sem Idealize.ShloMosaic.StableHlo

variable {F : FTy → Type} [FloatOps F]

open Cert.ReferenceIdeal.Read

/-! ## Component 0 -/

theorem w0_arg0 (W : Valuation τ sig (Elt F)) :
    after w0 W (Proc.devRef .tc main_arg0) = W (Proc.devRef .tc main_arg0) := by
  unfold w0 f0_0; after_results_simp
theorem w0_arg1 (W : Valuation τ sig (Elt F)) :
    after w0 W (Proc.devRef .tc main_arg1) = W (Proc.devRef .tc main_arg1) := by
  unfold w0 f0_0; after_results_simp
theorem w0_arg2 (W : Valuation τ sig (Elt F)) :
    after w0 W (Proc.devRef .tc main_arg2) = W (Proc.devRef .tc main_arg2) := by
  unfold w0 f0_0; after_results_simp
theorem w0_arg3 (W : Valuation τ sig (Elt F)) :
    after w0 W (Proc.devRef .tc main_arg3) = W (Proc.devRef .tc main_arg3) := by
  unfold w0 f0_0; after_results_simp
theorem w0_arg4 (W : Valuation τ sig (Elt F)) :
    after w0 W (Proc.devRef .tc main_arg4) = W (Proc.devRef .tc main_arg4) := by
  unfold w0 f0_0; after_results_simp
theorem w0_arg5 (W : Valuation τ sig (Elt F)) :
    after w0 W (Proc.devRef .tc main_arg5) = W (Proc.devRef .tc main_arg5) := by
  unfold w0 f0_0; after_results_simp
theorem w0_arg6 (W : Valuation τ sig (Elt F)) :
    after w0 W (Proc.devRef .tc main_arg6) = W (Proc.devRef .tc main_arg6) := by
  unfold w0 f0_0; after_results_simp
theorem w0_out (W : Valuation τ sig (Elt F)) :
    after w0 W (Proc.devRef .tc main_v15) = val_main_v15 (F := F) (W (Proc.devRef .tc main_arg0)) (W (Proc.devRef .tc main_arg5)) (W (Proc.devRef .tc main_arg6)) := by
  unfold w0 f0_0; after_results_simp <;> rfl

/-! ## Component 1 -/

theorem w1_arg0 (W : Valuation τ sig (Elt F)) :
    after w1 W (Proc.devRef .tc main_arg0) = W (Proc.devRef .tc main_arg0) := by
  unfold w1 f1_0; after_results_simp
theorem w1_arg1 (W : Valuation τ sig (Elt F)) :
    after w1 W (Proc.devRef .tc main_arg1) = W (Proc.devRef .tc main_arg1) := by
  unfold w1 f1_0; after_results_simp
theorem w1_arg2 (W : Valuation τ sig (Elt F)) :
    after w1 W (Proc.devRef .tc main_arg2) = W (Proc.devRef .tc main_arg2) := by
  unfold w1 f1_0; after_results_simp
theorem w1_arg3 (W : Valuation τ sig (Elt F)) :
    after w1 W (Proc.devRef .tc main_arg3) = W (Proc.devRef .tc main_arg3) := by
  unfold w1 f1_0; after_results_simp
theorem w1_arg4 (W : Valuation τ sig (Elt F)) :
    after w1 W (Proc.devRef .tc main_arg4) = W (Proc.devRef .tc main_arg4) := by
  unfold w1 f1_0; after_results_simp
theorem w1_arg5 (W : Valuation τ sig (Elt F)) :
    after w1 W (Proc.devRef .tc main_arg5) = W (Proc.devRef .tc main_arg5) := by
  unfold w1 f1_0; after_results_simp
theorem w1_arg6 (W : Valuation τ sig (Elt F)) :
    after w1 W (Proc.devRef .tc main_arg6) = W (Proc.devRef .tc main_arg6) := by
  unfold w1 f1_0; after_results_simp
theorem w1_keep0 (W : Valuation τ sig (Elt F)) :
    after w1 W (Proc.devRef .tc main_v15) = W (Proc.devRef .tc main_v15) := by
  unfold w1 f1_0; after_results_simp
theorem w1_out (W : Valuation τ sig (Elt F)) :
    after w1 W (Proc.devRef .tc main_v52) = val_main_v52 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  unfold w1 f1_0; after_results_simp <;> rfl

/-! ## Component 2 -/

theorem w2_arg0 (W : Valuation τ sig (Elt F)) :
    after w2 W (Proc.devRef .tc main_arg0) = W (Proc.devRef .tc main_arg0) := by
  unfold w2; rw [after_append]; unfold f2_0 f2_1; after_results_simp
theorem w2_arg1 (W : Valuation τ sig (Elt F)) :
    after w2 W (Proc.devRef .tc main_arg1) = W (Proc.devRef .tc main_arg1) := by
  unfold w2; rw [after_append]; unfold f2_0 f2_1; after_results_simp
theorem w2_arg2 (W : Valuation τ sig (Elt F)) :
    after w2 W (Proc.devRef .tc main_arg2) = W (Proc.devRef .tc main_arg2) := by
  unfold w2; rw [after_append]; unfold f2_0 f2_1; after_results_simp
theorem w2_arg3 (W : Valuation τ sig (Elt F)) :
    after w2 W (Proc.devRef .tc main_arg3) = W (Proc.devRef .tc main_arg3) := by
  unfold w2; rw [after_append]; unfold f2_0 f2_1; after_results_simp
theorem w2_arg4 (W : Valuation τ sig (Elt F)) :
    after w2 W (Proc.devRef .tc main_arg4) = W (Proc.devRef .tc main_arg4) := by
  unfold w2; rw [after_append]; unfold f2_0 f2_1; after_results_simp
theorem w2_arg5 (W : Valuation τ sig (Elt F)) :
    after w2 W (Proc.devRef .tc main_arg5) = W (Proc.devRef .tc main_arg5) := by
  unfold w2; rw [after_append]; unfold f2_0 f2_1; after_results_simp
theorem w2_arg6 (W : Valuation τ sig (Elt F)) :
    after w2 W (Proc.devRef .tc main_arg6) = W (Proc.devRef .tc main_arg6) := by
  unfold w2; rw [after_append]; unfold f2_0 f2_1; after_results_simp
theorem w2_keep0 (W : Valuation τ sig (Elt F)) :
    after w2 W (Proc.devRef .tc main_v15) = W (Proc.devRef .tc main_v15) := by
  unfold w2; rw [after_append]; unfold f2_0 f2_1; after_results_simp
theorem w2_keep1 (W : Valuation τ sig (Elt F)) :
    after w2 W (Proc.devRef .tc main_v52) = W (Proc.devRef .tc main_v52) := by
  unfold w2; rw [after_append]; unfold f2_0 f2_1; after_results_simp
theorem w2_out (W : Valuation τ sig (Elt F)) :
    after w2 W (Proc.devRef .tc main_v89) = val_main_v89 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  unfold w2; rw [after_append]; unfold f2_0 f2_1; after_results_simp <;> rfl

/-! ## Component 3 -/

theorem w3_arg0 (W : Valuation τ sig (Elt F)) :
    after w3 W (Proc.devRef .tc main_arg0) = W (Proc.devRef .tc main_arg0) := by
  unfold w3; rw [after_append]; unfold f3_0 f3_1; after_results_simp
theorem w3_arg1 (W : Valuation τ sig (Elt F)) :
    after w3 W (Proc.devRef .tc main_arg1) = W (Proc.devRef .tc main_arg1) := by
  unfold w3; rw [after_append]; unfold f3_0 f3_1; after_results_simp
theorem w3_arg2 (W : Valuation τ sig (Elt F)) :
    after w3 W (Proc.devRef .tc main_arg2) = W (Proc.devRef .tc main_arg2) := by
  unfold w3; rw [after_append]; unfold f3_0 f3_1; after_results_simp
theorem w3_arg3 (W : Valuation τ sig (Elt F)) :
    after w3 W (Proc.devRef .tc main_arg3) = W (Proc.devRef .tc main_arg3) := by
  unfold w3; rw [after_append]; unfold f3_0 f3_1; after_results_simp
theorem w3_arg4 (W : Valuation τ sig (Elt F)) :
    after w3 W (Proc.devRef .tc main_arg4) = W (Proc.devRef .tc main_arg4) := by
  unfold w3; rw [after_append]; unfold f3_0 f3_1; after_results_simp
theorem w3_arg5 (W : Valuation τ sig (Elt F)) :
    after w3 W (Proc.devRef .tc main_arg5) = W (Proc.devRef .tc main_arg5) := by
  unfold w3; rw [after_append]; unfold f3_0 f3_1; after_results_simp
theorem w3_arg6 (W : Valuation τ sig (Elt F)) :
    after w3 W (Proc.devRef .tc main_arg6) = W (Proc.devRef .tc main_arg6) := by
  unfold w3; rw [after_append]; unfold f3_0 f3_1; after_results_simp
theorem w3_keep0 (W : Valuation τ sig (Elt F)) :
    after w3 W (Proc.devRef .tc main_v15) = W (Proc.devRef .tc main_v15) := by
  unfold w3; rw [after_append]; unfold f3_0 f3_1; after_results_simp
theorem w3_keep1 (W : Valuation τ sig (Elt F)) :
    after w3 W (Proc.devRef .tc main_v52) = W (Proc.devRef .tc main_v52) := by
  unfold w3; rw [after_append]; unfold f3_0 f3_1; after_results_simp
theorem w3_keep2 (W : Valuation τ sig (Elt F)) :
    after w3 W (Proc.devRef .tc main_v89) = W (Proc.devRef .tc main_v89) := by
  unfold w3; rw [after_append]; unfold f3_0 f3_1; after_results_simp
theorem w3_out (W : Valuation τ sig (Elt F)) :
    after w3 W (Proc.devRef .tc main_v126) = val_main_v126 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  unfold w3; rw [after_append]; unfold f3_0 f3_1; after_results_simp <;> rfl

/-! ## Component 4 -/

theorem w4_arg0 (W : Valuation τ sig (Elt F)) :
    after w4 W (Proc.devRef .tc main_arg0) = W (Proc.devRef .tc main_arg0) := by
  unfold w4 f4_0; after_results_simp
theorem w4_arg1 (W : Valuation τ sig (Elt F)) :
    after w4 W (Proc.devRef .tc main_arg1) = W (Proc.devRef .tc main_arg1) := by
  unfold w4 f4_0; after_results_simp
theorem w4_arg2 (W : Valuation τ sig (Elt F)) :
    after w4 W (Proc.devRef .tc main_arg2) = W (Proc.devRef .tc main_arg2) := by
  unfold w4 f4_0; after_results_simp
theorem w4_arg3 (W : Valuation τ sig (Elt F)) :
    after w4 W (Proc.devRef .tc main_arg3) = W (Proc.devRef .tc main_arg3) := by
  unfold w4 f4_0; after_results_simp
theorem w4_arg4 (W : Valuation τ sig (Elt F)) :
    after w4 W (Proc.devRef .tc main_arg4) = W (Proc.devRef .tc main_arg4) := by
  unfold w4 f4_0; after_results_simp
theorem w4_arg5 (W : Valuation τ sig (Elt F)) :
    after w4 W (Proc.devRef .tc main_arg5) = W (Proc.devRef .tc main_arg5) := by
  unfold w4 f4_0; after_results_simp
theorem w4_arg6 (W : Valuation τ sig (Elt F)) :
    after w4 W (Proc.devRef .tc main_arg6) = W (Proc.devRef .tc main_arg6) := by
  unfold w4 f4_0; after_results_simp
theorem w4_keep0 (W : Valuation τ sig (Elt F)) :
    after w4 W (Proc.devRef .tc main_v15) = W (Proc.devRef .tc main_v15) := by
  unfold w4 f4_0; after_results_simp
theorem w4_keep1 (W : Valuation τ sig (Elt F)) :
    after w4 W (Proc.devRef .tc main_v52) = W (Proc.devRef .tc main_v52) := by
  unfold w4 f4_0; after_results_simp
theorem w4_keep2 (W : Valuation τ sig (Elt F)) :
    after w4 W (Proc.devRef .tc main_v89) = W (Proc.devRef .tc main_v89) := by
  unfold w4 f4_0; after_results_simp
theorem w4_keep3 (W : Valuation τ sig (Elt F)) :
    after w4 W (Proc.devRef .tc main_v126) = W (Proc.devRef .tc main_v126) := by
  unfold w4 f4_0; after_results_simp
theorem w4_out (W : Valuation τ sig (Elt F)) :
    after w4 W (Proc.devRef .tc main_v163) = val_main_v163 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  unfold w4 f4_0; after_results_simp <;> rfl

/-! ## Component 5 -/

theorem w5_arg0 (W : Valuation τ sig (Elt F)) :
    after w5 W (Proc.devRef .tc main_arg0) = W (Proc.devRef .tc main_arg0) := by
  unfold w5; rw [after_append]; unfold f5_0 f5_1; after_results_simp
theorem w5_arg1 (W : Valuation τ sig (Elt F)) :
    after w5 W (Proc.devRef .tc main_arg1) = W (Proc.devRef .tc main_arg1) := by
  unfold w5; rw [after_append]; unfold f5_0 f5_1; after_results_simp
theorem w5_arg2 (W : Valuation τ sig (Elt F)) :
    after w5 W (Proc.devRef .tc main_arg2) = W (Proc.devRef .tc main_arg2) := by
  unfold w5; rw [after_append]; unfold f5_0 f5_1; after_results_simp
theorem w5_arg3 (W : Valuation τ sig (Elt F)) :
    after w5 W (Proc.devRef .tc main_arg3) = W (Proc.devRef .tc main_arg3) := by
  unfold w5; rw [after_append]; unfold f5_0 f5_1; after_results_simp
theorem w5_arg4 (W : Valuation τ sig (Elt F)) :
    after w5 W (Proc.devRef .tc main_arg4) = W (Proc.devRef .tc main_arg4) := by
  unfold w5; rw [after_append]; unfold f5_0 f5_1; after_results_simp
theorem w5_arg5 (W : Valuation τ sig (Elt F)) :
    after w5 W (Proc.devRef .tc main_arg5) = W (Proc.devRef .tc main_arg5) := by
  unfold w5; rw [after_append]; unfold f5_0 f5_1; after_results_simp
theorem w5_arg6 (W : Valuation τ sig (Elt F)) :
    after w5 W (Proc.devRef .tc main_arg6) = W (Proc.devRef .tc main_arg6) := by
  unfold w5; rw [after_append]; unfold f5_0 f5_1; after_results_simp
theorem w5_keep0 (W : Valuation τ sig (Elt F)) :
    after w5 W (Proc.devRef .tc main_v15) = W (Proc.devRef .tc main_v15) := by
  unfold w5; rw [after_append]; unfold f5_0 f5_1; after_results_simp
theorem w5_keep1 (W : Valuation τ sig (Elt F)) :
    after w5 W (Proc.devRef .tc main_v52) = W (Proc.devRef .tc main_v52) := by
  unfold w5; rw [after_append]; unfold f5_0 f5_1; after_results_simp
theorem w5_keep2 (W : Valuation τ sig (Elt F)) :
    after w5 W (Proc.devRef .tc main_v89) = W (Proc.devRef .tc main_v89) := by
  unfold w5; rw [after_append]; unfold f5_0 f5_1; after_results_simp
theorem w5_keep3 (W : Valuation τ sig (Elt F)) :
    after w5 W (Proc.devRef .tc main_v126) = W (Proc.devRef .tc main_v126) := by
  unfold w5; rw [after_append]; unfold f5_0 f5_1; after_results_simp
theorem w5_keep4 (W : Valuation τ sig (Elt F)) :
    after w5 W (Proc.devRef .tc main_v163) = W (Proc.devRef .tc main_v163) := by
  unfold w5; rw [after_append]; unfold f5_0 f5_1; after_results_simp
theorem w5_out (W : Valuation τ sig (Elt F)) :
    after w5 W (Proc.devRef .tc main_v200) = val_main_v200 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  unfold w5; rw [after_append]; unfold f5_0 f5_1; after_results_simp <;> rfl

/-! ## Component 6 -/

theorem w6_arg0 (W : Valuation τ sig (Elt F)) :
    after w6 W (Proc.devRef .tc main_arg0) = W (Proc.devRef .tc main_arg0) := by
  unfold w6; rw [after_append]; unfold f6_0 f6_1; after_results_simp
theorem w6_arg1 (W : Valuation τ sig (Elt F)) :
    after w6 W (Proc.devRef .tc main_arg1) = W (Proc.devRef .tc main_arg1) := by
  unfold w6; rw [after_append]; unfold f6_0 f6_1; after_results_simp
theorem w6_arg2 (W : Valuation τ sig (Elt F)) :
    after w6 W (Proc.devRef .tc main_arg2) = W (Proc.devRef .tc main_arg2) := by
  unfold w6; rw [after_append]; unfold f6_0 f6_1; after_results_simp
theorem w6_arg3 (W : Valuation τ sig (Elt F)) :
    after w6 W (Proc.devRef .tc main_arg3) = W (Proc.devRef .tc main_arg3) := by
  unfold w6; rw [after_append]; unfold f6_0 f6_1; after_results_simp
theorem w6_arg4 (W : Valuation τ sig (Elt F)) :
    after w6 W (Proc.devRef .tc main_arg4) = W (Proc.devRef .tc main_arg4) := by
  unfold w6; rw [after_append]; unfold f6_0 f6_1; after_results_simp
theorem w6_arg5 (W : Valuation τ sig (Elt F)) :
    after w6 W (Proc.devRef .tc main_arg5) = W (Proc.devRef .tc main_arg5) := by
  unfold w6; rw [after_append]; unfold f6_0 f6_1; after_results_simp
theorem w6_arg6 (W : Valuation τ sig (Elt F)) :
    after w6 W (Proc.devRef .tc main_arg6) = W (Proc.devRef .tc main_arg6) := by
  unfold w6; rw [after_append]; unfold f6_0 f6_1; after_results_simp
theorem w6_keep0 (W : Valuation τ sig (Elt F)) :
    after w6 W (Proc.devRef .tc main_v15) = W (Proc.devRef .tc main_v15) := by
  unfold w6; rw [after_append]; unfold f6_0 f6_1; after_results_simp
theorem w6_keep1 (W : Valuation τ sig (Elt F)) :
    after w6 W (Proc.devRef .tc main_v52) = W (Proc.devRef .tc main_v52) := by
  unfold w6; rw [after_append]; unfold f6_0 f6_1; after_results_simp
theorem w6_keep2 (W : Valuation τ sig (Elt F)) :
    after w6 W (Proc.devRef .tc main_v89) = W (Proc.devRef .tc main_v89) := by
  unfold w6; rw [after_append]; unfold f6_0 f6_1; after_results_simp
theorem w6_keep3 (W : Valuation τ sig (Elt F)) :
    after w6 W (Proc.devRef .tc main_v126) = W (Proc.devRef .tc main_v126) := by
  unfold w6; rw [after_append]; unfold f6_0 f6_1; after_results_simp
theorem w6_keep4 (W : Valuation τ sig (Elt F)) :
    after w6 W (Proc.devRef .tc main_v163) = W (Proc.devRef .tc main_v163) := by
  unfold w6; rw [after_append]; unfold f6_0 f6_1; after_results_simp
theorem w6_keep5 (W : Valuation τ sig (Elt F)) :
    after w6 W (Proc.devRef .tc main_v200) = W (Proc.devRef .tc main_v200) := by
  unfold w6; rw [after_append]; unfold f6_0 f6_1; after_results_simp
theorem w6_out (W : Valuation τ sig (Elt F)) :
    after w6 W (Proc.devRef .tc main_v237) = val_main_v237 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  unfold w6; rw [after_append]; unfold f6_0 f6_1; after_results_simp <;> rfl

/-! ## Component 7 -/

theorem w7_arg0 (W : Valuation τ sig (Elt F)) :
    after w7 W (Proc.devRef .tc main_arg0) = W (Proc.devRef .tc main_arg0) := by
  unfold w7 f7_0; after_results_simp
theorem w7_arg1 (W : Valuation τ sig (Elt F)) :
    after w7 W (Proc.devRef .tc main_arg1) = W (Proc.devRef .tc main_arg1) := by
  unfold w7 f7_0; after_results_simp
theorem w7_arg2 (W : Valuation τ sig (Elt F)) :
    after w7 W (Proc.devRef .tc main_arg2) = W (Proc.devRef .tc main_arg2) := by
  unfold w7 f7_0; after_results_simp
theorem w7_arg3 (W : Valuation τ sig (Elt F)) :
    after w7 W (Proc.devRef .tc main_arg3) = W (Proc.devRef .tc main_arg3) := by
  unfold w7 f7_0; after_results_simp
theorem w7_arg4 (W : Valuation τ sig (Elt F)) :
    after w7 W (Proc.devRef .tc main_arg4) = W (Proc.devRef .tc main_arg4) := by
  unfold w7 f7_0; after_results_simp
theorem w7_arg5 (W : Valuation τ sig (Elt F)) :
    after w7 W (Proc.devRef .tc main_arg5) = W (Proc.devRef .tc main_arg5) := by
  unfold w7 f7_0; after_results_simp
theorem w7_arg6 (W : Valuation τ sig (Elt F)) :
    after w7 W (Proc.devRef .tc main_arg6) = W (Proc.devRef .tc main_arg6) := by
  unfold w7 f7_0; after_results_simp
theorem w7_keep0 (W : Valuation τ sig (Elt F)) :
    after w7 W (Proc.devRef .tc main_v15) = W (Proc.devRef .tc main_v15) := by
  unfold w7 f7_0; after_results_simp
theorem w7_keep1 (W : Valuation τ sig (Elt F)) :
    after w7 W (Proc.devRef .tc main_v52) = W (Proc.devRef .tc main_v52) := by
  unfold w7 f7_0; after_results_simp
theorem w7_keep2 (W : Valuation τ sig (Elt F)) :
    after w7 W (Proc.devRef .tc main_v89) = W (Proc.devRef .tc main_v89) := by
  unfold w7 f7_0; after_results_simp
theorem w7_keep3 (W : Valuation τ sig (Elt F)) :
    after w7 W (Proc.devRef .tc main_v126) = W (Proc.devRef .tc main_v126) := by
  unfold w7 f7_0; after_results_simp
theorem w7_keep4 (W : Valuation τ sig (Elt F)) :
    after w7 W (Proc.devRef .tc main_v163) = W (Proc.devRef .tc main_v163) := by
  unfold w7 f7_0; after_results_simp
theorem w7_keep5 (W : Valuation τ sig (Elt F)) :
    after w7 W (Proc.devRef .tc main_v200) = W (Proc.devRef .tc main_v200) := by
  unfold w7 f7_0; after_results_simp
theorem w7_keep6 (W : Valuation τ sig (Elt F)) :
    after w7 W (Proc.devRef .tc main_v237) = W (Proc.devRef .tc main_v237) := by
  unfold w7 f7_0; after_results_simp
theorem w7_out (W : Valuation τ sig (Elt F)) :
    after w7 W (Proc.devRef .tc main_v274) = val_main_v274 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  unfold w7 f7_0; after_results_simp <;> rfl

end Cert.ReferenceIdeal.RunW

end
-- ==== Proof.RW1.lean ====
/-
  The reference's operations, one component's window at a time: what a window leaves in the buffers that matter.

  Window `w d` (the operations of component `d`) reads only the seven argument arrays and writes only its own buffers.
  So, from ANY contents `W` of the buffers: it leaves the argument arrays as they were (`w d_arg j`), it leaves the
  result column of every earlier component as it was (`w d_keep e`, `e < d`), and it leaves in its own result column the
  component's stage function of the argument arrays as `W` holds them (`w d_out`). Each is read off the fold of the
  window's operations, one operation at a time.
-/
import proofs.«166035_j57586921505191_2_alg».proof.Proof.RunWin
import proofs.«166035_j57586921505191_2_alg».proof.Proof.ReadP

noncomputable section

namespace Cert.ReferenceIdeal.RunW

open Cert.ReferenceIdeal Cert.ReferenceIdeal.Gen Idealize.ShloMosaic Idealize.ShloMosaic.TcCoe Idealize.SL.Sem Idealize.ShloMosaic.StableHlo

variable {F : FTy → Type} [FloatOps F]

open Cert.ReferenceIdeal.Read

/-! ## Component 8 -/

theorem w8_arg0 (W : Valuation τ sig (Elt F)) :
    after w8 W (Proc.devRef .tc main_arg0) = W (Proc.devRef .tc main_arg0) := by
  unfold w8; rw [after_append]; unfold f8_0 f8_1; after_results_simp
theorem w8_arg1 (W : Valuation τ sig (Elt F)) :
    after w8 W (Proc.devRef .tc main_arg1) = W (Proc.devRef .tc main_arg1) := by
  unfold w8; rw [after_append]; unfold f8_0 f8_1; after_results_simp
theorem w8_arg2 (W : Valuation τ sig (Elt F)) :
    after w8 W (Proc.devRef .tc main_arg2) = W (Proc.devRef .tc main_arg2) := by
  unfold w8; rw [after_append]; unfold f8_0 f8_1; after_results_simp
theorem w8_arg3 (W : Valuation τ sig (Elt F)) :
    after w8 W (Proc.devRef .tc main_arg3) = W (Proc.devRef .tc main_arg3) := by
  unfold w8; rw [after_append]; unfold f8_0 f8_1; after_results_simp
theorem w8_arg4 (W : Valuation τ sig (Elt F)) :
    after w8 W (Proc.devRef .tc main_arg4) = W (Proc.devRef .tc main_arg4) := by
  unfold w8; rw [after_append]; unfold f8_0 f8_1; after_results_simp
theorem w8_arg5 (W : Valuation τ sig (Elt F)) :
    after w8 W (Proc.devRef .tc main_arg5) = W (Proc.devRef .tc main_arg5) := by
  unfold w8; rw [after_append]; unfold f8_0 f8_1; after_results_simp
theorem w8_arg6 (W : Valuation τ sig (Elt F)) :
    after w8 W (Proc.devRef .tc main_arg6) = W (Proc.devRef .tc main_arg6) := by
  unfold w8; rw [after_append]; unfold f8_0 f8_1; after_results_simp
theorem w8_keep0 (W : Valuation τ sig (Elt F)) :
    after w8 W (Proc.devRef .tc main_v15) = W (Proc.devRef .tc main_v15) := by
  unfold w8; rw [after_append]; unfold f8_0 f8_1; after_results_simp
theorem w8_keep1 (W : Valuation τ sig (Elt F)) :
    after w8 W (Proc.devRef .tc main_v52) = W (Proc.devRef .tc main_v52) := by
  unfold w8; rw [after_append]; unfold f8_0 f8_1; after_results_simp
theorem w8_keep2 (W : Valuation τ sig (Elt F)) :
    after w8 W (Proc.devRef .tc main_v89) = W (Proc.devRef .tc main_v89) := by
  unfold w8; rw [after_append]; unfold f8_0 f8_1; after_results_simp
theorem w8_keep3 (W : Valuation τ sig (Elt F)) :
    after w8 W (Proc.devRef .tc main_v126) = W (Proc.devRef .tc main_v126) := by
  unfold w8; rw [after_append]; unfold f8_0 f8_1; after_results_simp
theorem w8_keep4 (W : Valuation τ sig (Elt F)) :
    after w8 W (Proc.devRef .tc main_v163) = W (Proc.devRef .tc main_v163) := by
  unfold w8; rw [after_append]; unfold f8_0 f8_1; after_results_simp
theorem w8_keep5 (W : Valuation τ sig (Elt F)) :
    after w8 W (Proc.devRef .tc main_v200) = W (Proc.devRef .tc main_v200) := by
  unfold w8; rw [after_append]; unfold f8_0 f8_1; after_results_simp
theorem w8_keep6 (W : Valuation τ sig (Elt F)) :
    after w8 W (Proc.devRef .tc main_v237) = W (Proc.devRef .tc main_v237) := by
  unfold w8; rw [after_append]; unfold f8_0 f8_1; after_results_simp
theorem w8_keep7 (W : Valuation τ sig (Elt F)) :
    after w8 W (Proc.devRef .tc main_v274) = W (Proc.devRef .tc main_v274) := by
  unfold w8; rw [after_append]; unfold f8_0 f8_1; after_results_simp
theorem w8_out (W : Valuation τ sig (Elt F)) :
    after w8 W (Proc.devRef .tc main_v311) = val_main_v311 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  unfold w8; rw [after_append]; unfold f8_0 f8_1; after_results_simp <;> rfl

/-! ## Component 9 -/

theorem w9_arg0 (W : Valuation τ sig (Elt F)) :
    after w9 W (Proc.devRef .tc main_arg0) = W (Proc.devRef .tc main_arg0) := by
  unfold w9; rw [after_append]; unfold f9_0 f9_1; after_results_simp
theorem w9_arg1 (W : Valuation τ sig (Elt F)) :
    after w9 W (Proc.devRef .tc main_arg1) = W (Proc.devRef .tc main_arg1) := by
  unfold w9; rw [after_append]; unfold f9_0 f9_1; after_results_simp
theorem w9_arg2 (W : Valuation τ sig (Elt F)) :
    after w9 W (Proc.devRef .tc main_arg2) = W (Proc.devRef .tc main_arg2) := by
  unfold w9; rw [after_append]; unfold f9_0 f9_1; after_results_simp
theorem w9_arg3 (W : Valuation τ sig (Elt F)) :
    after w9 W (Proc.devRef .tc main_arg3) = W (Proc.devRef .tc main_arg3) := by
  unfold w9; rw [after_append]; unfold f9_0 f9_1; after_results_simp
theorem w9_arg4 (W : Valuation τ sig (Elt F)) :
    after w9 W (Proc.devRef .tc main_arg4) = W (Proc.devRef .tc main_arg4) := by
  unfold w9; rw [after_append]; unfold f9_0 f9_1; after_results_simp
theorem w9_arg5 (W : Valuation τ sig (Elt F)) :
    after w9 W (Proc.devRef .tc main_arg5) = W (Proc.devRef .tc main_arg5) := by
  unfold w9; rw [after_append]; unfold f9_0 f9_1; after_results_simp
theorem w9_arg6 (W : Valuation τ sig (Elt F)) :
    after w9 W (Proc.devRef .tc main_arg6) = W (Proc.devRef .tc main_arg6) := by
  unfold w9; rw [after_append]; unfold f9_0 f9_1; after_results_simp
theorem w9_keep0 (W : Valuation τ sig (Elt F)) :
    after w9 W (Proc.devRef .tc main_v15) = W (Proc.devRef .tc main_v15) := by
  unfold w9; rw [after_append]; unfold f9_0 f9_1; after_results_simp
theorem w9_keep1 (W : Valuation τ sig (Elt F)) :
    after w9 W (Proc.devRef .tc main_v52) = W (Proc.devRef .tc main_v52) := by
  unfold w9; rw [after_append]; unfold f9_0 f9_1; after_results_simp
theorem w9_keep2 (W : Valuation τ sig (Elt F)) :
    after w9 W (Proc.devRef .tc main_v89) = W (Proc.devRef .tc main_v89) := by
  unfold w9; rw [after_append]; unfold f9_0 f9_1; after_results_simp
theorem w9_keep3 (W : Valuation τ sig (Elt F)) :
    after w9 W (Proc.devRef .tc main_v126) = W (Proc.devRef .tc main_v126) := by
  unfold w9; rw [after_append]; unfold f9_0 f9_1; after_results_simp
theorem w9_keep4 (W : Valuation τ sig (Elt F)) :
    after w9 W (Proc.devRef .tc main_v163) = W (Proc.devRef .tc main_v163) := by
  unfold w9; rw [after_append]; unfold f9_0 f9_1; after_results_simp
theorem w9_keep5 (W : Valuation τ sig (Elt F)) :
    after w9 W (Proc.devRef .tc main_v200) = W (Proc.devRef .tc main_v200) := by
  unfold w9; rw [after_append]; unfold f9_0 f9_1; after_results_simp
theorem w9_keep6 (W : Valuation τ sig (Elt F)) :
    after w9 W (Proc.devRef .tc main_v237) = W (Proc.devRef .tc main_v237) := by
  unfold w9; rw [after_append]; unfold f9_0 f9_1; after_results_simp
theorem w9_keep7 (W : Valuation τ sig (Elt F)) :
    after w9 W (Proc.devRef .tc main_v274) = W (Proc.devRef .tc main_v274) := by
  unfold w9; rw [after_append]; unfold f9_0 f9_1; after_results_simp
theorem w9_keep8 (W : Valuation τ sig (Elt F)) :
    after w9 W (Proc.devRef .tc main_v311) = W (Proc.devRef .tc main_v311) := by
  unfold w9; rw [after_append]; unfold f9_0 f9_1; after_results_simp
theorem w9_out (W : Valuation τ sig (Elt F)) :
    after w9 W (Proc.devRef .tc main_v348) = val_main_v348 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  unfold w9; rw [after_append]; unfold f9_0 f9_1; after_results_simp <;> rfl

/-! ## Component 10 -/

theorem w10_arg0 (W : Valuation τ sig (Elt F)) :
    after w10 W (Proc.devRef .tc main_arg0) = W (Proc.devRef .tc main_arg0) := by
  unfold w10 f10_0; after_results_simp
theorem w10_arg1 (W : Valuation τ sig (Elt F)) :
    after w10 W (Proc.devRef .tc main_arg1) = W (Proc.devRef .tc main_arg1) := by
  unfold w10 f10_0; after_results_simp
theorem w10_arg2 (W : Valuation τ sig (Elt F)) :
    after w10 W (Proc.devRef .tc main_arg2) = W (Proc.devRef .tc main_arg2) := by
  unfold w10 f10_0; after_results_simp
theorem w10_arg3 (W : Valuation τ sig (Elt F)) :
    after w10 W (Proc.devRef .tc main_arg3) = W (Proc.devRef .tc main_arg3) := by
  unfold w10 f10_0; after_results_simp
theorem w10_arg4 (W : Valuation τ sig (Elt F)) :
    after w10 W (Proc.devRef .tc main_arg4) = W (Proc.devRef .tc main_arg4) := by
  unfold w10 f10_0; after_results_simp
theorem w10_arg5 (W : Valuation τ sig (Elt F)) :
    after w10 W (Proc.devRef .tc main_arg5) = W (Proc.devRef .tc main_arg5) := by
  unfold w10 f10_0; after_results_simp
theorem w10_arg6 (W : Valuation τ sig (Elt F)) :
    after w10 W (Proc.devRef .tc main_arg6) = W (Proc.devRef .tc main_arg6) := by
  unfold w10 f10_0; after_results_simp
theorem w10_keep0 (W : Valuation τ sig (Elt F)) :
    after w10 W (Proc.devRef .tc main_v15) = W (Proc.devRef .tc main_v15) := by
  unfold w10 f10_0; after_results_simp
theorem w10_keep1 (W : Valuation τ sig (Elt F)) :
    after w10 W (Proc.devRef .tc main_v52) = W (Proc.devRef .tc main_v52) := by
  unfold w10 f10_0; after_results_simp
theorem w10_keep2 (W : Valuation τ sig (Elt F)) :
    after w10 W (Proc.devRef .tc main_v89) = W (Proc.devRef .tc main_v89) := by
  unfold w10 f10_0; after_results_simp
theorem w10_keep3 (W : Valuation τ sig (Elt F)) :
    after w10 W (Proc.devRef .tc main_v126) = W (Proc.devRef .tc main_v126) := by
  unfold w10 f10_0; after_results_simp
theorem w10_keep4 (W : Valuation τ sig (Elt F)) :
    after w10 W (Proc.devRef .tc main_v163) = W (Proc.devRef .tc main_v163) := by
  unfold w10 f10_0; after_results_simp
theorem w10_keep5 (W : Valuation τ sig (Elt F)) :
    after w10 W (Proc.devRef .tc main_v200) = W (Proc.devRef .tc main_v200) := by
  unfold w10 f10_0; after_results_simp
theorem w10_keep6 (W : Valuation τ sig (Elt F)) :
    after w10 W (Proc.devRef .tc main_v237) = W (Proc.devRef .tc main_v237) := by
  unfold w10 f10_0; after_results_simp
theorem w10_keep7 (W : Valuation τ sig (Elt F)) :
    after w10 W (Proc.devRef .tc main_v274) = W (Proc.devRef .tc main_v274) := by
  unfold w10 f10_0; after_results_simp
theorem w10_keep8 (W : Valuation τ sig (Elt F)) :
    after w10 W (Proc.devRef .tc main_v311) = W (Proc.devRef .tc main_v311) := by
  unfold w10 f10_0; after_results_simp
theorem w10_keep9 (W : Valuation τ sig (Elt F)) :
    after w10 W (Proc.devRef .tc main_v348) = W (Proc.devRef .tc main_v348) := by
  unfold w10 f10_0; after_results_simp
theorem w10_out (W : Valuation τ sig (Elt F)) :
    after w10 W (Proc.devRef .tc main_v385) = val_main_v385 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  unfold w10 f10_0; after_results_simp <;> rfl

/-! ## Component 11 -/

theorem w11_arg0 (W : Valuation τ sig (Elt F)) :
    after w11 W (Proc.devRef .tc main_arg0) = W (Proc.devRef .tc main_arg0) := by
  unfold w11; rw [after_append]; unfold f11_0 f11_1; after_results_simp
theorem w11_arg1 (W : Valuation τ sig (Elt F)) :
    after w11 W (Proc.devRef .tc main_arg1) = W (Proc.devRef .tc main_arg1) := by
  unfold w11; rw [after_append]; unfold f11_0 f11_1; after_results_simp
theorem w11_arg2 (W : Valuation τ sig (Elt F)) :
    after w11 W (Proc.devRef .tc main_arg2) = W (Proc.devRef .tc main_arg2) := by
  unfold w11; rw [after_append]; unfold f11_0 f11_1; after_results_simp
theorem w11_arg3 (W : Valuation τ sig (Elt F)) :
    after w11 W (Proc.devRef .tc main_arg3) = W (Proc.devRef .tc main_arg3) := by
  unfold w11; rw [after_append]; unfold f11_0 f11_1; after_results_simp
theorem w11_arg4 (W : Valuation τ sig (Elt F)) :
    after w11 W (Proc.devRef .tc main_arg4) = W (Proc.devRef .tc main_arg4) := by
  unfold w11; rw [after_append]; unfold f11_0 f11_1; after_results_simp
theorem w11_arg5 (W : Valuation τ sig (Elt F)) :
    after w11 W (Proc.devRef .tc main_arg5) = W (Proc.devRef .tc main_arg5) := by
  unfold w11; rw [after_append]; unfold f11_0 f11_1; after_results_simp
theorem w11_arg6 (W : Valuation τ sig (Elt F)) :
    after w11 W (Proc.devRef .tc main_arg6) = W (Proc.devRef .tc main_arg6) := by
  unfold w11; rw [after_append]; unfold f11_0 f11_1; after_results_simp
theorem w11_keep0 (W : Valuation τ sig (Elt F)) :
    after w11 W (Proc.devRef .tc main_v15) = W (Proc.devRef .tc main_v15) := by
  unfold w11; rw [after_append]; unfold f11_0 f11_1; after_results_simp
theorem w11_keep1 (W : Valuation τ sig (Elt F)) :
    after w11 W (Proc.devRef .tc main_v52) = W (Proc.devRef .tc main_v52) := by
  unfold w11; rw [after_append]; unfold f11_0 f11_1; after_results_simp
theorem w11_keep2 (W : Valuation τ sig (Elt F)) :
    after w11 W (Proc.devRef .tc main_v89) = W (Proc.devRef .tc main_v89) := by
  unfold w11; rw [after_append]; unfold f11_0 f11_1; after_results_simp
theorem w11_keep3 (W : Valuation τ sig (Elt F)) :
    after w11 W (Proc.devRef .tc main_v126) = W (Proc.devRef .tc main_v126) := by
  unfold w11; rw [after_append]; unfold f11_0 f11_1; after_results_simp
theorem w11_keep4 (W : Valuation τ sig (Elt F)) :
    after w11 W (Proc.devRef .tc main_v163) = W (Proc.devRef .tc main_v163) := by
  unfold w11; rw [after_append]; unfold f11_0 f11_1; after_results_simp
theorem w11_keep5 (W : Valuation τ sig (Elt F)) :
    after w11 W (Proc.devRef .tc main_v200) = W (Proc.devRef .tc main_v200) := by
  unfold w11; rw [after_append]; unfold f11_0 f11_1; after_results_simp
theorem w11_keep6 (W : Valuation τ sig (Elt F)) :
    after w11 W (Proc.devRef .tc main_v237) = W (Proc.devRef .tc main_v237) := by
  unfold w11; rw [after_append]; unfold f11_0 f11_1; after_results_simp
theorem w11_keep7 (W : Valuation τ sig (Elt F)) :
    after w11 W (Proc.devRef .tc main_v274) = W (Proc.devRef .tc main_v274) := by
  unfold w11; rw [after_append]; unfold f11_0 f11_1; after_results_simp
theorem w11_keep8 (W : Valuation τ sig (Elt F)) :
    after w11 W (Proc.devRef .tc main_v311) = W (Proc.devRef .tc main_v311) := by
  unfold w11; rw [after_append]; unfold f11_0 f11_1; after_results_simp
theorem w11_keep9 (W : Valuation τ sig (Elt F)) :
    after w11 W (Proc.devRef .tc main_v348) = W (Proc.devRef .tc main_v348) := by
  unfold w11; rw [after_append]; unfold f11_0 f11_1; after_results_simp
theorem w11_keep10 (W : Valuation τ sig (Elt F)) :
    after w11 W (Proc.devRef .tc main_v385) = W (Proc.devRef .tc main_v385) := by
  unfold w11; rw [after_append]; unfold f11_0 f11_1; after_results_simp
theorem w11_out (W : Valuation τ sig (Elt F)) :
    after w11 W (Proc.devRef .tc main_v422) = val_main_v422 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  unfold w11; rw [after_append]; unfold f11_0 f11_1; after_results_simp <;> rfl

/-! ## Component 12 -/

theorem w12_arg0 (W : Valuation τ sig (Elt F)) :
    after w12 W (Proc.devRef .tc main_arg0) = W (Proc.devRef .tc main_arg0) := by
  unfold w12; rw [after_append]; unfold f12_0 f12_1; after_results_simp
theorem w12_arg1 (W : Valuation τ sig (Elt F)) :
    after w12 W (Proc.devRef .tc main_arg1) = W (Proc.devRef .tc main_arg1) := by
  unfold w12; rw [after_append]; unfold f12_0 f12_1; after_results_simp
theorem w12_arg2 (W : Valuation τ sig (Elt F)) :
    after w12 W (Proc.devRef .tc main_arg2) = W (Proc.devRef .tc main_arg2) := by
  unfold w12; rw [after_append]; unfold f12_0 f12_1; after_results_simp
theorem w12_arg3 (W : Valuation τ sig (Elt F)) :
    after w12 W (Proc.devRef .tc main_arg3) = W (Proc.devRef .tc main_arg3) := by
  unfold w12; rw [after_append]; unfold f12_0 f12_1; after_results_simp
theorem w12_arg4 (W : Valuation τ sig (Elt F)) :
    after w12 W (Proc.devRef .tc main_arg4) = W (Proc.devRef .tc main_arg4) := by
  unfold w12; rw [after_append]; unfold f12_0 f12_1; after_results_simp
theorem w12_arg5 (W : Valuation τ sig (Elt F)) :
    after w12 W (Proc.devRef .tc main_arg5) = W (Proc.devRef .tc main_arg5) := by
  unfold w12; rw [after_append]; unfold f12_0 f12_1; after_results_simp
theorem w12_arg6 (W : Valuation τ sig (Elt F)) :
    after w12 W (Proc.devRef .tc main_arg6) = W (Proc.devRef .tc main_arg6) := by
  unfold w12; rw [after_append]; unfold f12_0 f12_1; after_results_simp
theorem w12_keep0 (W : Valuation τ sig (Elt F)) :
    after w12 W (Proc.devRef .tc main_v15) = W (Proc.devRef .tc main_v15) := by
  unfold w12; rw [after_append]; unfold f12_0 f12_1; after_results_simp
theorem w12_keep1 (W : Valuation τ sig (Elt F)) :
    after w12 W (Proc.devRef .tc main_v52) = W (Proc.devRef .tc main_v52) := by
  unfold w12; rw [after_append]; unfold f12_0 f12_1; after_results_simp
theorem w12_keep2 (W : Valuation τ sig (Elt F)) :
    after w12 W (Proc.devRef .tc main_v89) = W (Proc.devRef .tc main_v89) := by
  unfold w12; rw [after_append]; unfold f12_0 f12_1; after_results_simp
theorem w12_keep3 (W : Valuation τ sig (Elt F)) :
    after w12 W (Proc.devRef .tc main_v126) = W (Proc.devRef .tc main_v126) := by
  unfold w12; rw [after_append]; unfold f12_0 f12_1; after_results_simp
theorem w12_keep4 (W : Valuation τ sig (Elt F)) :
    after w12 W (Proc.devRef .tc main_v163) = W (Proc.devRef .tc main_v163) := by
  unfold w12; rw [after_append]; unfold f12_0 f12_1; after_results_simp
theorem w12_keep5 (W : Valuation τ sig (Elt F)) :
    after w12 W (Proc.devRef .tc main_v200) = W (Proc.devRef .tc main_v200) := by
  unfold w12; rw [after_append]; unfold f12_0 f12_1; after_results_simp
theorem w12_keep6 (W : Valuation τ sig (Elt F)) :
    after w12 W (Proc.devRef .tc main_v237) = W (Proc.devRef .tc main_v237) := by
  unfold w12; rw [after_append]; unfold f12_0 f12_1; after_results_simp
theorem w12_keep7 (W : Valuation τ sig (Elt F)) :
    after w12 W (Proc.devRef .tc main_v274) = W (Proc.devRef .tc main_v274) := by
  unfold w12; rw [after_append]; unfold f12_0 f12_1; after_results_simp
theorem w12_keep8 (W : Valuation τ sig (Elt F)) :
    after w12 W (Proc.devRef .tc main_v311) = W (Proc.devRef .tc main_v311) := by
  unfold w12; rw [after_append]; unfold f12_0 f12_1; after_results_simp
theorem w12_keep9 (W : Valuation τ sig (Elt F)) :
    after w12 W (Proc.devRef .tc main_v348) = W (Proc.devRef .tc main_v348) := by
  unfold w12; rw [after_append]; unfold f12_0 f12_1; after_results_simp
theorem w12_keep10 (W : Valuation τ sig (Elt F)) :
    after w12 W (Proc.devRef .tc main_v385) = W (Proc.devRef .tc main_v385) := by
  unfold w12; rw [after_append]; unfold f12_0 f12_1; after_results_simp
theorem w12_keep11 (W : Valuation τ sig (Elt F)) :
    after w12 W (Proc.devRef .tc main_v422) = W (Proc.devRef .tc main_v422) := by
  unfold w12; rw [after_append]; unfold f12_0 f12_1; after_results_simp
theorem w12_out (W : Valuation τ sig (Elt F)) :
    after w12 W (Proc.devRef .tc main_v459) = val_main_v459 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  unfold w12; rw [after_append]; unfold f12_0 f12_1; after_results_simp <;> rfl

/-! ## Component 13 -/

theorem w13_arg0 (W : Valuation τ sig (Elt F)) :
    after w13 W (Proc.devRef .tc main_arg0) = W (Proc.devRef .tc main_arg0) := by
  unfold w13 f13_0; after_results_simp
theorem w13_arg1 (W : Valuation τ sig (Elt F)) :
    after w13 W (Proc.devRef .tc main_arg1) = W (Proc.devRef .tc main_arg1) := by
  unfold w13 f13_0; after_results_simp
theorem w13_arg2 (W : Valuation τ sig (Elt F)) :
    after w13 W (Proc.devRef .tc main_arg2) = W (Proc.devRef .tc main_arg2) := by
  unfold w13 f13_0; after_results_simp
theorem w13_arg3 (W : Valuation τ sig (Elt F)) :
    after w13 W (Proc.devRef .tc main_arg3) = W (Proc.devRef .tc main_arg3) := by
  unfold w13 f13_0; after_results_simp
theorem w13_arg4 (W : Valuation τ sig (Elt F)) :
    after w13 W (Proc.devRef .tc main_arg4) = W (Proc.devRef .tc main_arg4) := by
  unfold w13 f13_0; after_results_simp
theorem w13_arg5 (W : Valuation τ sig (Elt F)) :
    after w13 W (Proc.devRef .tc main_arg5) = W (Proc.devRef .tc main_arg5) := by
  unfold w13 f13_0; after_results_simp
theorem w13_arg6 (W : Valuation τ sig (Elt F)) :
    after w13 W (Proc.devRef .tc main_arg6) = W (Proc.devRef .tc main_arg6) := by
  unfold w13 f13_0; after_results_simp
theorem w13_keep0 (W : Valuation τ sig (Elt F)) :
    after w13 W (Proc.devRef .tc main_v15) = W (Proc.devRef .tc main_v15) := by
  unfold w13 f13_0; after_results_simp
theorem w13_keep1 (W : Valuation τ sig (Elt F)) :
    after w13 W (Proc.devRef .tc main_v52) = W (Proc.devRef .tc main_v52) := by
  unfold w13 f13_0; after_results_simp
theorem w13_keep2 (W : Valuation τ sig (Elt F)) :
    after w13 W (Proc.devRef .tc main_v89) = W (Proc.devRef .tc main_v89) := by
  unfold w13 f13_0; after_results_simp
theorem w13_keep3 (W : Valuation τ sig (Elt F)) :
    after w13 W (Proc.devRef .tc main_v126) = W (Proc.devRef .tc main_v126) := by
  unfold w13 f13_0; after_results_simp
theorem w13_keep4 (W : Valuation τ sig (Elt F)) :
    after w13 W (Proc.devRef .tc main_v163) = W (Proc.devRef .tc main_v163) := by
  unfold w13 f13_0; after_results_simp
theorem w13_keep5 (W : Valuation τ sig (Elt F)) :
    after w13 W (Proc.devRef .tc main_v200) = W (Proc.devRef .tc main_v200) := by
  unfold w13 f13_0; after_results_simp
theorem w13_keep6 (W : Valuation τ sig (Elt F)) :
    after w13 W (Proc.devRef .tc main_v237) = W (Proc.devRef .tc main_v237) := by
  unfold w13 f13_0; after_results_simp
theorem w13_keep7 (W : Valuation τ sig (Elt F)) :
    after w13 W (Proc.devRef .tc main_v274) = W (Proc.devRef .tc main_v274) := by
  unfold w13 f13_0; after_results_simp
theorem w13_keep8 (W : Valuation τ sig (Elt F)) :
    after w13 W (Proc.devRef .tc main_v311) = W (Proc.devRef .tc main_v311) := by
  unfold w13 f13_0; after_results_simp
theorem w13_keep9 (W : Valuation τ sig (Elt F)) :
    after w13 W (Proc.devRef .tc main_v348) = W (Proc.devRef .tc main_v348) := by
  unfold w13 f13_0; after_results_simp
theorem w13_keep10 (W : Valuation τ sig (Elt F)) :
    after w13 W (Proc.devRef .tc main_v385) = W (Proc.devRef .tc main_v385) := by
  unfold w13 f13_0; after_results_simp
theorem w13_keep11 (W : Valuation τ sig (Elt F)) :
    after w13 W (Proc.devRef .tc main_v422) = W (Proc.devRef .tc main_v422) := by
  unfold w13 f13_0; after_results_simp
theorem w13_keep12 (W : Valuation τ sig (Elt F)) :
    after w13 W (Proc.devRef .tc main_v459) = W (Proc.devRef .tc main_v459) := by
  unfold w13 f13_0; after_results_simp
theorem w13_out (W : Valuation τ sig (Elt F)) :
    after w13 W (Proc.devRef .tc main_v496) = val_main_v496 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  unfold w13 f13_0; after_results_simp <;> rfl

/-! ## Component 14 -/

theorem w14_arg0 (W : Valuation τ sig (Elt F)) :
    after w14 W (Proc.devRef .tc main_arg0) = W (Proc.devRef .tc main_arg0) := by
  unfold w14; rw [after_append]; unfold f14_0 f14_1; after_results_simp
theorem w14_arg1 (W : Valuation τ sig (Elt F)) :
    after w14 W (Proc.devRef .tc main_arg1) = W (Proc.devRef .tc main_arg1) := by
  unfold w14; rw [after_append]; unfold f14_0 f14_1; after_results_simp
theorem w14_arg2 (W : Valuation τ sig (Elt F)) :
    after w14 W (Proc.devRef .tc main_arg2) = W (Proc.devRef .tc main_arg2) := by
  unfold w14; rw [after_append]; unfold f14_0 f14_1; after_results_simp
theorem w14_arg3 (W : Valuation τ sig (Elt F)) :
    after w14 W (Proc.devRef .tc main_arg3) = W (Proc.devRef .tc main_arg3) := by
  unfold w14; rw [after_append]; unfold f14_0 f14_1; after_results_simp
theorem w14_arg4 (W : Valuation τ sig (Elt F)) :
    after w14 W (Proc.devRef .tc main_arg4) = W (Proc.devRef .tc main_arg4) := by
  unfold w14; rw [after_append]; unfold f14_0 f14_1; after_results_simp
theorem w14_arg5 (W : Valuation τ sig (Elt F)) :
    after w14 W (Proc.devRef .tc main_arg5) = W (Proc.devRef .tc main_arg5) := by
  unfold w14; rw [after_append]; unfold f14_0 f14_1; after_results_simp
theorem w14_arg6 (W : Valuation τ sig (Elt F)) :
    after w14 W (Proc.devRef .tc main_arg6) = W (Proc.devRef .tc main_arg6) := by
  unfold w14; rw [after_append]; unfold f14_0 f14_1; after_results_simp
theorem w14_keep0 (W : Valuation τ sig (Elt F)) :
    after w14 W (Proc.devRef .tc main_v15) = W (Proc.devRef .tc main_v15) := by
  unfold w14; rw [after_append]; unfold f14_0 f14_1; after_results_simp
theorem w14_keep1 (W : Valuation τ sig (Elt F)) :
    after w14 W (Proc.devRef .tc main_v52) = W (Proc.devRef .tc main_v52) := by
  unfold w14; rw [after_append]; unfold f14_0 f14_1; after_results_simp
theorem w14_keep2 (W : Valuation τ sig (Elt F)) :
    after w14 W (Proc.devRef .tc main_v89) = W (Proc.devRef .tc main_v89) := by
  unfold w14; rw [after_append]; unfold f14_0 f14_1; after_results_simp
theorem w14_keep3 (W : Valuation τ sig (Elt F)) :
    after w14 W (Proc.devRef .tc main_v126) = W (Proc.devRef .tc main_v126) := by
  unfold w14; rw [after_append]; unfold f14_0 f14_1; after_results_simp
theorem w14_keep4 (W : Valuation τ sig (Elt F)) :
    after w14 W (Proc.devRef .tc main_v163) = W (Proc.devRef .tc main_v163) := by
  unfold w14; rw [after_append]; unfold f14_0 f14_1; after_results_simp
theorem w14_keep5 (W : Valuation τ sig (Elt F)) :
    after w14 W (Proc.devRef .tc main_v200) = W (Proc.devRef .tc main_v200) := by
  unfold w14; rw [after_append]; unfold f14_0 f14_1; after_results_simp
theorem w14_keep6 (W : Valuation τ sig (Elt F)) :
    after w14 W (Proc.devRef .tc main_v237) = W (Proc.devRef .tc main_v237) := by
  unfold w14; rw [after_append]; unfold f14_0 f14_1; after_results_simp
theorem w14_keep7 (W : Valuation τ sig (Elt F)) :
    after w14 W (Proc.devRef .tc main_v274) = W (Proc.devRef .tc main_v274) := by
  unfold w14; rw [after_append]; unfold f14_0 f14_1; after_results_simp
theorem w14_keep8 (W : Valuation τ sig (Elt F)) :
    after w14 W (Proc.devRef .tc main_v311) = W (Proc.devRef .tc main_v311) := by
  unfold w14; rw [after_append]; unfold f14_0 f14_1; after_results_simp
theorem w14_keep9 (W : Valuation τ sig (Elt F)) :
    after w14 W (Proc.devRef .tc main_v348) = W (Proc.devRef .tc main_v348) := by
  unfold w14; rw [after_append]; unfold f14_0 f14_1; after_results_simp
theorem w14_keep10 (W : Valuation τ sig (Elt F)) :
    after w14 W (Proc.devRef .tc main_v385) = W (Proc.devRef .tc main_v385) := by
  unfold w14; rw [after_append]; unfold f14_0 f14_1; after_results_simp
theorem w14_keep11 (W : Valuation τ sig (Elt F)) :
    after w14 W (Proc.devRef .tc main_v422) = W (Proc.devRef .tc main_v422) := by
  unfold w14; rw [after_append]; unfold f14_0 f14_1; after_results_simp
theorem w14_keep12 (W : Valuation τ sig (Elt F)) :
    after w14 W (Proc.devRef .tc main_v459) = W (Proc.devRef .tc main_v459) := by
  unfold w14; rw [after_append]; unfold f14_0 f14_1; after_results_simp
theorem w14_keep13 (W : Valuation τ sig (Elt F)) :
    after w14 W (Proc.devRef .tc main_v496) = W (Proc.devRef .tc main_v496) := by
  unfold w14; rw [after_append]; unfold f14_0 f14_1; after_results_simp
theorem w14_out (W : Valuation τ sig (Elt F)) :
    after w14 W (Proc.devRef .tc main_v533) = val_main_v533 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  unfold w14; rw [after_append]; unfold f14_0 f14_1; after_results_simp <;> rfl

/-! ## Component 15 -/

theorem w15_arg0 (W : Valuation τ sig (Elt F)) :
    after w15 W (Proc.devRef .tc main_arg0) = W (Proc.devRef .tc main_arg0) := by
  unfold w15; rw [after_append]; unfold f15_0 f15_1; after_results_simp
theorem w15_arg1 (W : Valuation τ sig (Elt F)) :
    after w15 W (Proc.devRef .tc main_arg1) = W (Proc.devRef .tc main_arg1) := by
  unfold w15; rw [after_append]; unfold f15_0 f15_1; after_results_simp
theorem w15_arg2 (W : Valuation τ sig (Elt F)) :
    after w15 W (Proc.devRef .tc main_arg2) = W (Proc.devRef .tc main_arg2) := by
  unfold w15; rw [after_append]; unfold f15_0 f15_1; after_results_simp
theorem w15_arg3 (W : Valuation τ sig (Elt F)) :
    after w15 W (Proc.devRef .tc main_arg3) = W (Proc.devRef .tc main_arg3) := by
  unfold w15; rw [after_append]; unfold f15_0 f15_1; after_results_simp
theorem w15_arg4 (W : Valuation τ sig (Elt F)) :
    after w15 W (Proc.devRef .tc main_arg4) = W (Proc.devRef .tc main_arg4) := by
  unfold w15; rw [after_append]; unfold f15_0 f15_1; after_results_simp
theorem w15_arg5 (W : Valuation τ sig (Elt F)) :
    after w15 W (Proc.devRef .tc main_arg5) = W (Proc.devRef .tc main_arg5) := by
  unfold w15; rw [after_append]; unfold f15_0 f15_1; after_results_simp
theorem w15_arg6 (W : Valuation τ sig (Elt F)) :
    after w15 W (Proc.devRef .tc main_arg6) = W (Proc.devRef .tc main_arg6) := by
  unfold w15; rw [after_append]; unfold f15_0 f15_1; after_results_simp
theorem w15_keep0 (W : Valuation τ sig (Elt F)) :
    after w15 W (Proc.devRef .tc main_v15) = W (Proc.devRef .tc main_v15) := by
  unfold w15; rw [after_append]; unfold f15_0 f15_1; after_results_simp
theorem w15_keep1 (W : Valuation τ sig (Elt F)) :
    after w15 W (Proc.devRef .tc main_v52) = W (Proc.devRef .tc main_v52) := by
  unfold w15; rw [after_append]; unfold f15_0 f15_1; after_results_simp
theorem w15_keep2 (W : Valuation τ sig (Elt F)) :
    after w15 W (Proc.devRef .tc main_v89) = W (Proc.devRef .tc main_v89) := by
  unfold w15; rw [after_append]; unfold f15_0 f15_1; after_results_simp
theorem w15_keep3 (W : Valuation τ sig (Elt F)) :
    after w15 W (Proc.devRef .tc main_v126) = W (Proc.devRef .tc main_v126) := by
  unfold w15; rw [after_append]; unfold f15_0 f15_1; after_results_simp
theorem w15_keep4 (W : Valuation τ sig (Elt F)) :
    after w15 W (Proc.devRef .tc main_v163) = W (Proc.devRef .tc main_v163) := by
  unfold w15; rw [after_append]; unfold f15_0 f15_1; after_results_simp
theorem w15_keep5 (W : Valuation τ sig (Elt F)) :
    after w15 W (Proc.devRef .tc main_v200) = W (Proc.devRef .tc main_v200) := by
  unfold w15; rw [after_append]; unfold f15_0 f15_1; after_results_simp
theorem w15_keep6 (W : Valuation τ sig (Elt F)) :
    after w15 W (Proc.devRef .tc main_v237) = W (Proc.devRef .tc main_v237) := by
  unfold w15; rw [after_append]; unfold f15_0 f15_1; after_results_simp
theorem w15_keep7 (W : Valuation τ sig (Elt F)) :
    after w15 W (Proc.devRef .tc main_v274) = W (Proc.devRef .tc main_v274) := by
  unfold w15; rw [after_append]; unfold f15_0 f15_1; after_results_simp
theorem w15_keep8 (W : Valuation τ sig (Elt F)) :
    after w15 W (Proc.devRef .tc main_v311) = W (Proc.devRef .tc main_v311) := by
  unfold w15; rw [after_append]; unfold f15_0 f15_1; after_results_simp
theorem w15_keep9 (W : Valuation τ sig (Elt F)) :
    after w15 W (Proc.devRef .tc main_v348) = W (Proc.devRef .tc main_v348) := by
  unfold w15; rw [after_append]; unfold f15_0 f15_1; after_results_simp
theorem w15_keep10 (W : Valuation τ sig (Elt F)) :
    after w15 W (Proc.devRef .tc main_v385) = W (Proc.devRef .tc main_v385) := by
  unfold w15; rw [after_append]; unfold f15_0 f15_1; after_results_simp
theorem w15_keep11 (W : Valuation τ sig (Elt F)) :
    after w15 W (Proc.devRef .tc main_v422) = W (Proc.devRef .tc main_v422) := by
  unfold w15; rw [after_append]; unfold f15_0 f15_1; after_results_simp
theorem w15_keep12 (W : Valuation τ sig (Elt F)) :
    after w15 W (Proc.devRef .tc main_v459) = W (Proc.devRef .tc main_v459) := by
  unfold w15; rw [after_append]; unfold f15_0 f15_1; after_results_simp
theorem w15_keep13 (W : Valuation τ sig (Elt F)) :
    after w15 W (Proc.devRef .tc main_v496) = W (Proc.devRef .tc main_v496) := by
  unfold w15; rw [after_append]; unfold f15_0 f15_1; after_results_simp
theorem w15_keep14 (W : Valuation τ sig (Elt F)) :
    after w15 W (Proc.devRef .tc main_v533) = W (Proc.devRef .tc main_v533) := by
  unfold w15; rw [after_append]; unfold f15_0 f15_1; after_results_simp
theorem w15_out (W : Valuation τ sig (Elt F)) :
    after w15 W (Proc.devRef .tc main_v570) = val_main_v570 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  unfold w15; rw [after_append]; unfold f15_0 f15_1; after_results_simp <;> rfl

end Cert.ReferenceIdeal.RunW

end
-- ==== Proof.RW2.lean ====
/-
  The reference's operations, one component's window at a time: what a window leaves in the buffers that matter.

  Window `w d` (the operations of component `d`) reads only the seven argument arrays and writes only its own buffers.
  So, from ANY contents `W` of the buffers: it leaves the argument arrays as they were (`w d_arg j`), it leaves the
  result column of every earlier component as it was (`w d_keep e`, `e < d`), and it leaves in its own result column the
  component's stage function of the argument arrays as `W` holds them (`w d_out`). Each is read off the fold of the
  window's operations, one operation at a time.
-/
import proofs.«166035_j57586921505191_2_alg».proof.Proof.RunWin
import proofs.«166035_j57586921505191_2_alg».proof.Proof.ReadP

noncomputable section

namespace Cert.ReferenceIdeal.RunW

open Cert.ReferenceIdeal Cert.ReferenceIdeal.Gen Idealize.ShloMosaic Idealize.ShloMosaic.TcCoe Idealize.SL.Sem Idealize.ShloMosaic.StableHlo

variable {F : FTy → Type} [FloatOps F]

open Cert.ReferenceIdeal.Read

/-! ## Component 16 -/

theorem w16_arg0 (W : Valuation τ sig (Elt F)) :
    after w16 W (Proc.devRef .tc main_arg0) = W (Proc.devRef .tc main_arg0) := by
  unfold w16 f16_0; after_results_simp
theorem w16_arg1 (W : Valuation τ sig (Elt F)) :
    after w16 W (Proc.devRef .tc main_arg1) = W (Proc.devRef .tc main_arg1) := by
  unfold w16 f16_0; after_results_simp
theorem w16_arg2 (W : Valuation τ sig (Elt F)) :
    after w16 W (Proc.devRef .tc main_arg2) = W (Proc.devRef .tc main_arg2) := by
  unfold w16 f16_0; after_results_simp
theorem w16_arg3 (W : Valuation τ sig (Elt F)) :
    after w16 W (Proc.devRef .tc main_arg3) = W (Proc.devRef .tc main_arg3) := by
  unfold w16 f16_0; after_results_simp
theorem w16_arg4 (W : Valuation τ sig (Elt F)) :
    after w16 W (Proc.devRef .tc main_arg4) = W (Proc.devRef .tc main_arg4) := by
  unfold w16 f16_0; after_results_simp
theorem w16_arg5 (W : Valuation τ sig (Elt F)) :
    after w16 W (Proc.devRef .tc main_arg5) = W (Proc.devRef .tc main_arg5) := by
  unfold w16 f16_0; after_results_simp
theorem w16_arg6 (W : Valuation τ sig (Elt F)) :
    after w16 W (Proc.devRef .tc main_arg6) = W (Proc.devRef .tc main_arg6) := by
  unfold w16 f16_0; after_results_simp
theorem w16_keep0 (W : Valuation τ sig (Elt F)) :
    after w16 W (Proc.devRef .tc main_v15) = W (Proc.devRef .tc main_v15) := by
  unfold w16 f16_0; after_results_simp
theorem w16_keep1 (W : Valuation τ sig (Elt F)) :
    after w16 W (Proc.devRef .tc main_v52) = W (Proc.devRef .tc main_v52) := by
  unfold w16 f16_0; after_results_simp
theorem w16_keep2 (W : Valuation τ sig (Elt F)) :
    after w16 W (Proc.devRef .tc main_v89) = W (Proc.devRef .tc main_v89) := by
  unfold w16 f16_0; after_results_simp
theorem w16_keep3 (W : Valuation τ sig (Elt F)) :
    after w16 W (Proc.devRef .tc main_v126) = W (Proc.devRef .tc main_v126) := by
  unfold w16 f16_0; after_results_simp
theorem w16_keep4 (W : Valuation τ sig (Elt F)) :
    after w16 W (Proc.devRef .tc main_v163) = W (Proc.devRef .tc main_v163) := by
  unfold w16 f16_0; after_results_simp
theorem w16_keep5 (W : Valuation τ sig (Elt F)) :
    after w16 W (Proc.devRef .tc main_v200) = W (Proc.devRef .tc main_v200) := by
  unfold w16 f16_0; after_results_simp
theorem w16_keep6 (W : Valuation τ sig (Elt F)) :
    after w16 W (Proc.devRef .tc main_v237) = W (Proc.devRef .tc main_v237) := by
  unfold w16 f16_0; after_results_simp
theorem w16_keep7 (W : Valuation τ sig (Elt F)) :
    after w16 W (Proc.devRef .tc main_v274) = W (Proc.devRef .tc main_v274) := by
  unfold w16 f16_0; after_results_simp
theorem w16_keep8 (W : Valuation τ sig (Elt F)) :
    after w16 W (Proc.devRef .tc main_v311) = W (Proc.devRef .tc main_v311) := by
  unfold w16 f16_0; after_results_simp
theorem w16_keep9 (W : Valuation τ sig (Elt F)) :
    after w16 W (Proc.devRef .tc main_v348) = W (Proc.devRef .tc main_v348) := by
  unfold w16 f16_0; after_results_simp
theorem w16_keep10 (W : Valuation τ sig (Elt F)) :
    after w16 W (Proc.devRef .tc main_v385) = W (Proc.devRef .tc main_v385) := by
  unfold w16 f16_0; after_results_simp
theorem w16_keep11 (W : Valuation τ sig (Elt F)) :
    after w16 W (Proc.devRef .tc main_v422) = W (Proc.devRef .tc main_v422) := by
  unfold w16 f16_0; after_results_simp
theorem w16_keep12 (W : Valuation τ sig (Elt F)) :
    after w16 W (Proc.devRef .tc main_v459) = W (Proc.devRef .tc main_v459) := by
  unfold w16 f16_0; after_results_simp
theorem w16_keep13 (W : Valuation τ sig (Elt F)) :
    after w16 W (Proc.devRef .tc main_v496) = W (Proc.devRef .tc main_v496) := by
  unfold w16 f16_0; after_results_simp
theorem w16_keep14 (W : Valuation τ sig (Elt F)) :
    after w16 W (Proc.devRef .tc main_v533) = W (Proc.devRef .tc main_v533) := by
  unfold w16 f16_0; after_results_simp
theorem w16_keep15 (W : Valuation τ sig (Elt F)) :
    after w16 W (Proc.devRef .tc main_v570) = W (Proc.devRef .tc main_v570) := by
  unfold w16 f16_0; after_results_simp
theorem w16_out (W : Valuation τ sig (Elt F)) :
    after w16 W (Proc.devRef .tc main_v607) = val_main_v607 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  unfold w16 f16_0; after_results_simp <;> rfl

/-! ## Component 17 -/

theorem w17_arg0 (W : Valuation τ sig (Elt F)) :
    after w17 W (Proc.devRef .tc main_arg0) = W (Proc.devRef .tc main_arg0) := by
  unfold w17; rw [after_append]; unfold f17_0 f17_1; after_results_simp
theorem w17_arg1 (W : Valuation τ sig (Elt F)) :
    after w17 W (Proc.devRef .tc main_arg1) = W (Proc.devRef .tc main_arg1) := by
  unfold w17; rw [after_append]; unfold f17_0 f17_1; after_results_simp
theorem w17_arg2 (W : Valuation τ sig (Elt F)) :
    after w17 W (Proc.devRef .tc main_arg2) = W (Proc.devRef .tc main_arg2) := by
  unfold w17; rw [after_append]; unfold f17_0 f17_1; after_results_simp
theorem w17_arg3 (W : Valuation τ sig (Elt F)) :
    after w17 W (Proc.devRef .tc main_arg3) = W (Proc.devRef .tc main_arg3) := by
  unfold w17; rw [after_append]; unfold f17_0 f17_1; after_results_simp
theorem w17_arg4 (W : Valuation τ sig (Elt F)) :
    after w17 W (Proc.devRef .tc main_arg4) = W (Proc.devRef .tc main_arg4) := by
  unfold w17; rw [after_append]; unfold f17_0 f17_1; after_results_simp
theorem w17_arg5 (W : Valuation τ sig (Elt F)) :
    after w17 W (Proc.devRef .tc main_arg5) = W (Proc.devRef .tc main_arg5) := by
  unfold w17; rw [after_append]; unfold f17_0 f17_1; after_results_simp
theorem w17_arg6 (W : Valuation τ sig (Elt F)) :
    after w17 W (Proc.devRef .tc main_arg6) = W (Proc.devRef .tc main_arg6) := by
  unfold w17; rw [after_append]; unfold f17_0 f17_1; after_results_simp
theorem w17_keep0 (W : Valuation τ sig (Elt F)) :
    after w17 W (Proc.devRef .tc main_v15) = W (Proc.devRef .tc main_v15) := by
  unfold w17; rw [after_append]; unfold f17_0 f17_1; after_results_simp
theorem w17_keep1 (W : Valuation τ sig (Elt F)) :
    after w17 W (Proc.devRef .tc main_v52) = W (Proc.devRef .tc main_v52) := by
  unfold w17; rw [after_append]; unfold f17_0 f17_1; after_results_simp
theorem w17_keep2 (W : Valuation τ sig (Elt F)) :
    after w17 W (Proc.devRef .tc main_v89) = W (Proc.devRef .tc main_v89) := by
  unfold w17; rw [after_append]; unfold f17_0 f17_1; after_results_simp
theorem w17_keep3 (W : Valuation τ sig (Elt F)) :
    after w17 W (Proc.devRef .tc main_v126) = W (Proc.devRef .tc main_v126) := by
  unfold w17; rw [after_append]; unfold f17_0 f17_1; after_results_simp
theorem w17_keep4 (W : Valuation τ sig (Elt F)) :
    after w17 W (Proc.devRef .tc main_v163) = W (Proc.devRef .tc main_v163) := by
  unfold w17; rw [after_append]; unfold f17_0 f17_1; after_results_simp
theorem w17_keep5 (W : Valuation τ sig (Elt F)) :
    after w17 W (Proc.devRef .tc main_v200) = W (Proc.devRef .tc main_v200) := by
  unfold w17; rw [after_append]; unfold f17_0 f17_1; after_results_simp
theorem w17_keep6 (W : Valuation τ sig (Elt F)) :
    after w17 W (Proc.devRef .tc main_v237) = W (Proc.devRef .tc main_v237) := by
  unfold w17; rw [after_append]; unfold f17_0 f17_1; after_results_simp
theorem w17_keep7 (W : Valuation τ sig (Elt F)) :
    after w17 W (Proc.devRef .tc main_v274) = W (Proc.devRef .tc main_v274) := by
  unfold w17; rw [after_append]; unfold f17_0 f17_1; after_results_simp
theorem w17_keep8 (W : Valuation τ sig (Elt F)) :
    after w17 W (Proc.devRef .tc main_v311) = W (Proc.devRef .tc main_v311) := by
  unfold w17; rw [after_append]; unfold f17_0 f17_1; after_results_simp
theorem w17_keep9 (W : Valuation τ sig (Elt F)) :
    after w17 W (Proc.devRef .tc main_v348) = W (Proc.devRef .tc main_v348) := by
  unfold w17; rw [after_append]; unfold f17_0 f17_1; after_results_simp
theorem w17_keep10 (W : Valuation τ sig (Elt F)) :
    after w17 W (Proc.devRef .tc main_v385) = W (Proc.devRef .tc main_v385) := by
  unfold w17; rw [after_append]; unfold f17_0 f17_1; after_results_simp
theorem w17_keep11 (W : Valuation τ sig (Elt F)) :
    after w17 W (Proc.devRef .tc main_v422) = W (Proc.devRef .tc main_v422) := by
  unfold w17; rw [after_append]; unfold f17_0 f17_1; after_results_simp
theorem w17_keep12 (W : Valuation τ sig (Elt F)) :
    after w17 W (Proc.devRef .tc main_v459) = W (Proc.devRef .tc main_v459) := by
  unfold w17; rw [after_append]; unfold f17_0 f17_1; after_results_simp
theorem w17_keep13 (W : Valuation τ sig (Elt F)) :
    after w17 W (Proc.devRef .tc main_v496) = W (Proc.devRef .tc main_v496) := by
  unfold w17; rw [after_append]; unfold f17_0 f17_1; after_results_simp
theorem w17_keep14 (W : Valuation τ sig (Elt F)) :
    after w17 W (Proc.devRef .tc main_v533) = W (Proc.devRef .tc main_v533) := by
  unfold w17; rw [after_append]; unfold f17_0 f17_1; after_results_simp
theorem w17_keep15 (W : Valuation τ sig (Elt F)) :
    after w17 W (Proc.devRef .tc main_v570) = W (Proc.devRef .tc main_v570) := by
  unfold w17; rw [after_append]; unfold f17_0 f17_1; after_results_simp
theorem w17_keep16 (W : Valuation τ sig (Elt F)) :
    after w17 W (Proc.devRef .tc main_v607) = W (Proc.devRef .tc main_v607) := by
  unfold w17; rw [after_append]; unfold f17_0 f17_1; after_results_simp
theorem w17_out (W : Valuation τ sig (Elt F)) :
    after w17 W (Proc.devRef .tc main_v644) = val_main_v644 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  unfold w17; rw [after_append]; unfold f17_0 f17_1; after_results_simp <;> rfl

/-! ## Component 18 -/

theorem w18_arg0 (W : Valuation τ sig (Elt F)) :
    after w18 W (Proc.devRef .tc main_arg0) = W (Proc.devRef .tc main_arg0) := by
  unfold w18 f18_0; after_results_simp
theorem w18_arg1 (W : Valuation τ sig (Elt F)) :
    after w18 W (Proc.devRef .tc main_arg1) = W (Proc.devRef .tc main_arg1) := by
  unfold w18 f18_0; after_results_simp
theorem w18_arg2 (W : Valuation τ sig (Elt F)) :
    after w18 W (Proc.devRef .tc main_arg2) = W (Proc.devRef .tc main_arg2) := by
  unfold w18 f18_0; after_results_simp
theorem w18_arg3 (W : Valuation τ sig (Elt F)) :
    after w18 W (Proc.devRef .tc main_arg3) = W (Proc.devRef .tc main_arg3) := by
  unfold w18 f18_0; after_results_simp
theorem w18_arg4 (W : Valuation τ sig (Elt F)) :
    after w18 W (Proc.devRef .tc main_arg4) = W (Proc.devRef .tc main_arg4) := by
  unfold w18 f18_0; after_results_simp
theorem w18_arg5 (W : Valuation τ sig (Elt F)) :
    after w18 W (Proc.devRef .tc main_arg5) = W (Proc.devRef .tc main_arg5) := by
  unfold w18 f18_0; after_results_simp
theorem w18_arg6 (W : Valuation τ sig (Elt F)) :
    after w18 W (Proc.devRef .tc main_arg6) = W (Proc.devRef .tc main_arg6) := by
  unfold w18 f18_0; after_results_simp
theorem w18_keep0 (W : Valuation τ sig (Elt F)) :
    after w18 W (Proc.devRef .tc main_v15) = W (Proc.devRef .tc main_v15) := by
  unfold w18 f18_0; after_results_simp
theorem w18_keep1 (W : Valuation τ sig (Elt F)) :
    after w18 W (Proc.devRef .tc main_v52) = W (Proc.devRef .tc main_v52) := by
  unfold w18 f18_0; after_results_simp
theorem w18_keep2 (W : Valuation τ sig (Elt F)) :
    after w18 W (Proc.devRef .tc main_v89) = W (Proc.devRef .tc main_v89) := by
  unfold w18 f18_0; after_results_simp
theorem w18_keep3 (W : Valuation τ sig (Elt F)) :
    after w18 W (Proc.devRef .tc main_v126) = W (Proc.devRef .tc main_v126) := by
  unfold w18 f18_0; after_results_simp
theorem w18_keep4 (W : Valuation τ sig (Elt F)) :
    after w18 W (Proc.devRef .tc main_v163) = W (Proc.devRef .tc main_v163) := by
  unfold w18 f18_0; after_results_simp
theorem w18_keep5 (W : Valuation τ sig (Elt F)) :
    after w18 W (Proc.devRef .tc main_v200) = W (Proc.devRef .tc main_v200) := by
  unfold w18 f18_0; after_results_simp
theorem w18_keep6 (W : Valuation τ sig (Elt F)) :
    after w18 W (Proc.devRef .tc main_v237) = W (Proc.devRef .tc main_v237) := by
  unfold w18 f18_0; after_results_simp
theorem w18_keep7 (W : Valuation τ sig (Elt F)) :
    after w18 W (Proc.devRef .tc main_v274) = W (Proc.devRef .tc main_v274) := by
  unfold w18 f18_0; after_results_simp
theorem w18_keep8 (W : Valuation τ sig (Elt F)) :
    after w18 W (Proc.devRef .tc main_v311) = W (Proc.devRef .tc main_v311) := by
  unfold w18 f18_0; after_results_simp
theorem w18_keep9 (W : Valuation τ sig (Elt F)) :
    after w18 W (Proc.devRef .tc main_v348) = W (Proc.devRef .tc main_v348) := by
  unfold w18 f18_0; after_results_simp
theorem w18_keep10 (W : Valuation τ sig (Elt F)) :
    after w18 W (Proc.devRef .tc main_v385) = W (Proc.devRef .tc main_v385) := by
  unfold w18 f18_0; after_results_simp
theorem w18_keep11 (W : Valuation τ sig (Elt F)) :
    after w18 W (Proc.devRef .tc main_v422) = W (Proc.devRef .tc main_v422) := by
  unfold w18 f18_0; after_results_simp
theorem w18_keep12 (W : Valuation τ sig (Elt F)) :
    after w18 W (Proc.devRef .tc main_v459) = W (Proc.devRef .tc main_v459) := by
  unfold w18 f18_0; after_results_simp
theorem w18_keep13 (W : Valuation τ sig (Elt F)) :
    after w18 W (Proc.devRef .tc main_v496) = W (Proc.devRef .tc main_v496) := by
  unfold w18 f18_0; after_results_simp
theorem w18_keep14 (W : Valuation τ sig (Elt F)) :
    after w18 W (Proc.devRef .tc main_v533) = W (Proc.devRef .tc main_v533) := by
  unfold w18 f18_0; after_results_simp
theorem w18_keep15 (W : Valuation τ sig (Elt F)) :
    after w18 W (Proc.devRef .tc main_v570) = W (Proc.devRef .tc main_v570) := by
  unfold w18 f18_0; after_results_simp
theorem w18_keep16 (W : Valuation τ sig (Elt F)) :
    after w18 W (Proc.devRef .tc main_v607) = W (Proc.devRef .tc main_v607) := by
  unfold w18 f18_0; after_results_simp
theorem w18_keep17 (W : Valuation τ sig (Elt F)) :
    after w18 W (Proc.devRef .tc main_v644) = W (Proc.devRef .tc main_v644) := by
  unfold w18 f18_0; after_results_simp
theorem w18_out (W : Valuation τ sig (Elt F)) :
    after w18 W (Proc.devRef .tc main_v681) = val_main_v681 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  unfold w18 f18_0; after_results_simp <;> rfl

/-! ## Component 19 -/

theorem w19_arg0 (W : Valuation τ sig (Elt F)) :
    after w19 W (Proc.devRef .tc main_arg0) = W (Proc.devRef .tc main_arg0) := by
  unfold w19 f19_0; after_results_simp
theorem w19_arg1 (W : Valuation τ sig (Elt F)) :
    after w19 W (Proc.devRef .tc main_arg1) = W (Proc.devRef .tc main_arg1) := by
  unfold w19 f19_0; after_results_simp
theorem w19_arg2 (W : Valuation τ sig (Elt F)) :
    after w19 W (Proc.devRef .tc main_arg2) = W (Proc.devRef .tc main_arg2) := by
  unfold w19 f19_0; after_results_simp
theorem w19_arg3 (W : Valuation τ sig (Elt F)) :
    after w19 W (Proc.devRef .tc main_arg3) = W (Proc.devRef .tc main_arg3) := by
  unfold w19 f19_0; after_results_simp
theorem w19_arg4 (W : Valuation τ sig (Elt F)) :
    after w19 W (Proc.devRef .tc main_arg4) = W (Proc.devRef .tc main_arg4) := by
  unfold w19 f19_0; after_results_simp
theorem w19_arg5 (W : Valuation τ sig (Elt F)) :
    after w19 W (Proc.devRef .tc main_arg5) = W (Proc.devRef .tc main_arg5) := by
  unfold w19 f19_0; after_results_simp
theorem w19_arg6 (W : Valuation τ sig (Elt F)) :
    after w19 W (Proc.devRef .tc main_arg6) = W (Proc.devRef .tc main_arg6) := by
  unfold w19 f19_0; after_results_simp
theorem w19_keep0 (W : Valuation τ sig (Elt F)) :
    after w19 W (Proc.devRef .tc main_v15) = W (Proc.devRef .tc main_v15) := by
  unfold w19 f19_0; after_results_simp
theorem w19_keep1 (W : Valuation τ sig (Elt F)) :
    after w19 W (Proc.devRef .tc main_v52) = W (Proc.devRef .tc main_v52) := by
  unfold w19 f19_0; after_results_simp
theorem w19_keep2 (W : Valuation τ sig (Elt F)) :
    after w19 W (Proc.devRef .tc main_v89) = W (Proc.devRef .tc main_v89) := by
  unfold w19 f19_0; after_results_simp
theorem w19_keep3 (W : Valuation τ sig (Elt F)) :
    after w19 W (Proc.devRef .tc main_v126) = W (Proc.devRef .tc main_v126) := by
  unfold w19 f19_0; after_results_simp
theorem w19_keep4 (W : Valuation τ sig (Elt F)) :
    after w19 W (Proc.devRef .tc main_v163) = W (Proc.devRef .tc main_v163) := by
  unfold w19 f19_0; after_results_simp
theorem w19_keep5 (W : Valuation τ sig (Elt F)) :
    after w19 W (Proc.devRef .tc main_v200) = W (Proc.devRef .tc main_v200) := by
  unfold w19 f19_0; after_results_simp
theorem w19_keep6 (W : Valuation τ sig (Elt F)) :
    after w19 W (Proc.devRef .tc main_v237) = W (Proc.devRef .tc main_v237) := by
  unfold w19 f19_0; after_results_simp
theorem w19_keep7 (W : Valuation τ sig (Elt F)) :
    after w19 W (Proc.devRef .tc main_v274) = W (Proc.devRef .tc main_v274) := by
  unfold w19 f19_0; after_results_simp
theorem w19_keep8 (W : Valuation τ sig (Elt F)) :
    after w19 W (Proc.devRef .tc main_v311) = W (Proc.devRef .tc main_v311) := by
  unfold w19 f19_0; after_results_simp
theorem w19_keep9 (W : Valuation τ sig (Elt F)) :
    after w19 W (Proc.devRef .tc main_v348) = W (Proc.devRef .tc main_v348) := by
  unfold w19 f19_0; after_results_simp
theorem w19_keep10 (W : Valuation τ sig (Elt F)) :
    after w19 W (Proc.devRef .tc main_v385) = W (Proc.devRef .tc main_v385) := by
  unfold w19 f19_0; after_results_simp
theorem w19_keep11 (W : Valuation τ sig (Elt F)) :
    after w19 W (Proc.devRef .tc main_v422) = W (Proc.devRef .tc main_v422) := by
  unfold w19 f19_0; after_results_simp
theorem w19_keep12 (W : Valuation τ sig (Elt F)) :
    after w19 W (Proc.devRef .tc main_v459) = W (Proc.devRef .tc main_v459) := by
  unfold w19 f19_0; after_results_simp
theorem w19_keep13 (W : Valuation τ sig (Elt F)) :
    after w19 W (Proc.devRef .tc main_v496) = W (Proc.devRef .tc main_v496) := by
  unfold w19 f19_0; after_results_simp
theorem w19_keep14 (W : Valuation τ sig (Elt F)) :
    after w19 W (Proc.devRef .tc main_v533) = W (Proc.devRef .tc main_v533) := by
  unfold w19 f19_0; after_results_simp
theorem w19_keep15 (W : Valuation τ sig (Elt F)) :
    after w19 W (Proc.devRef .tc main_v570) = W (Proc.devRef .tc main_v570) := by
  unfold w19 f19_0; after_results_simp
theorem w19_keep16 (W : Valuation τ sig (Elt F)) :
    after w19 W (Proc.devRef .tc main_v607) = W (Proc.devRef .tc main_v607) := by
  unfold w19 f19_0; after_results_simp
theorem w19_keep17 (W : Valuation τ sig (Elt F)) :
    after w19 W (Proc.devRef .tc main_v644) = W (Proc.devRef .tc main_v644) := by
  unfold w19 f19_0; after_results_simp
theorem w19_keep18 (W : Valuation τ sig (Elt F)) :
    after w19 W (Proc.devRef .tc main_v681) = W (Proc.devRef .tc main_v681) := by
  unfold w19 f19_0; after_results_simp
theorem w19_out (W : Valuation τ sig (Elt F)) :
    after w19 W (Proc.devRef .tc main_v718) = val_main_v718 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  unfold w19 f19_0; after_results_simp <;> rfl

/-! ## Component 20 -/

theorem w20_arg0 (W : Valuation τ sig (Elt F)) :
    after w20 W (Proc.devRef .tc main_arg0) = W (Proc.devRef .tc main_arg0) := by
  unfold w20; rw [after_append]; unfold f20_0 f20_1; after_results_simp
theorem w20_arg1 (W : Valuation τ sig (Elt F)) :
    after w20 W (Proc.devRef .tc main_arg1) = W (Proc.devRef .tc main_arg1) := by
  unfold w20; rw [after_append]; unfold f20_0 f20_1; after_results_simp
theorem w20_arg2 (W : Valuation τ sig (Elt F)) :
    after w20 W (Proc.devRef .tc main_arg2) = W (Proc.devRef .tc main_arg2) := by
  unfold w20; rw [after_append]; unfold f20_0 f20_1; after_results_simp
theorem w20_arg3 (W : Valuation τ sig (Elt F)) :
    after w20 W (Proc.devRef .tc main_arg3) = W (Proc.devRef .tc main_arg3) := by
  unfold w20; rw [after_append]; unfold f20_0 f20_1; after_results_simp
theorem w20_arg4 (W : Valuation τ sig (Elt F)) :
    after w20 W (Proc.devRef .tc main_arg4) = W (Proc.devRef .tc main_arg4) := by
  unfold w20; rw [after_append]; unfold f20_0 f20_1; after_results_simp
theorem w20_arg5 (W : Valuation τ sig (Elt F)) :
    after w20 W (Proc.devRef .tc main_arg5) = W (Proc.devRef .tc main_arg5) := by
  unfold w20; rw [after_append]; unfold f20_0 f20_1; after_results_simp
theorem w20_arg6 (W : Valuation τ sig (Elt F)) :
    after w20 W (Proc.devRef .tc main_arg6) = W (Proc.devRef .tc main_arg6) := by
  unfold w20; rw [after_append]; unfold f20_0 f20_1; after_results_simp
theorem w20_keep0 (W : Valuation τ sig (Elt F)) :
    after w20 W (Proc.devRef .tc main_v15) = W (Proc.devRef .tc main_v15) := by
  unfold w20; rw [after_append]; unfold f20_0 f20_1; after_results_simp
theorem w20_keep1 (W : Valuation τ sig (Elt F)) :
    after w20 W (Proc.devRef .tc main_v52) = W (Proc.devRef .tc main_v52) := by
  unfold w20; rw [after_append]; unfold f20_0 f20_1; after_results_simp
theorem w20_keep2 (W : Valuation τ sig (Elt F)) :
    after w20 W (Proc.devRef .tc main_v89) = W (Proc.devRef .tc main_v89) := by
  unfold w20; rw [after_append]; unfold f20_0 f20_1; after_results_simp
theorem w20_keep3 (W : Valuation τ sig (Elt F)) :
    after w20 W (Proc.devRef .tc main_v126) = W (Proc.devRef .tc main_v126) := by
  unfold w20; rw [after_append]; unfold f20_0 f20_1; after_results_simp
theorem w20_keep4 (W : Valuation τ sig (Elt F)) :
    after w20 W (Proc.devRef .tc main_v163) = W (Proc.devRef .tc main_v163) := by
  unfold w20; rw [after_append]; unfold f20_0 f20_1; after_results_simp
theorem w20_keep5 (W : Valuation τ sig (Elt F)) :
    after w20 W (Proc.devRef .tc main_v200) = W (Proc.devRef .tc main_v200) := by
  unfold w20; rw [after_append]; unfold f20_0 f20_1; after_results_simp
theorem w20_keep6 (W : Valuation τ sig (Elt F)) :
    after w20 W (Proc.devRef .tc main_v237) = W (Proc.devRef .tc main_v237) := by
  unfold w20; rw [after_append]; unfold f20_0 f20_1; after_results_simp
theorem w20_keep7 (W : Valuation τ sig (Elt F)) :
    after w20 W (Proc.devRef .tc main_v274) = W (Proc.devRef .tc main_v274) := by
  unfold w20; rw [after_append]; unfold f20_0 f20_1; after_results_simp
theorem w20_keep8 (W : Valuation τ sig (Elt F)) :
    after w20 W (Proc.devRef .tc main_v311) = W (Proc.devRef .tc main_v311) := by
  unfold w20; rw [after_append]; unfold f20_0 f20_1; after_results_simp
theorem w20_keep9 (W : Valuation τ sig (Elt F)) :
    after w20 W (Proc.devRef .tc main_v348) = W (Proc.devRef .tc main_v348) := by
  unfold w20; rw [after_append]; unfold f20_0 f20_1; after_results_simp
theorem w20_keep10 (W : Valuation τ sig (Elt F)) :
    after w20 W (Proc.devRef .tc main_v385) = W (Proc.devRef .tc main_v385) := by
  unfold w20; rw [after_append]; unfold f20_0 f20_1; after_results_simp
theorem w20_keep11 (W : Valuation τ sig (Elt F)) :
    after w20 W (Proc.devRef .tc main_v422) = W (Proc.devRef .tc main_v422) := by
  unfold w20; rw [after_append]; unfold f20_0 f20_1; after_results_simp
theorem w20_keep12 (W : Valuation τ sig (Elt F)) :
    after w20 W (Proc.devRef .tc main_v459) = W (Proc.devRef .tc main_v459) := by
  unfold w20; rw [after_append]; unfold f20_0 f20_1; after_results_simp
theorem w20_keep13 (W : Valuation τ sig (Elt F)) :
    after w20 W (Proc.devRef .tc main_v496) = W (Proc.devRef .tc main_v496) := by
  unfold w20; rw [after_append]; unfold f20_0 f20_1; after_results_simp
theorem w20_keep14 (W : Valuation τ sig (Elt F)) :
    after w20 W (Proc.devRef .tc main_v533) = W (Proc.devRef .tc main_v533) := by
  unfold w20; rw [after_append]; unfold f20_0 f20_1; after_results_simp
theorem w20_keep15 (W : Valuation τ sig (Elt F)) :
    after w20 W (Proc.devRef .tc main_v570) = W (Proc.devRef .tc main_v570) := by
  unfold w20; rw [after_append]; unfold f20_0 f20_1; after_results_simp
theorem w20_keep16 (W : Valuation τ sig (Elt F)) :
    after w20 W (Proc.devRef .tc main_v607) = W (Proc.devRef .tc main_v607) := by
  unfold w20; rw [after_append]; unfold f20_0 f20_1; after_results_simp
theorem w20_keep17 (W : Valuation τ sig (Elt F)) :
    after w20 W (Proc.devRef .tc main_v644) = W (Proc.devRef .tc main_v644) := by
  unfold w20; rw [after_append]; unfold f20_0 f20_1; after_results_simp
theorem w20_keep18 (W : Valuation τ sig (Elt F)) :
    after w20 W (Proc.devRef .tc main_v681) = W (Proc.devRef .tc main_v681) := by
  unfold w20; rw [after_append]; unfold f20_0 f20_1; after_results_simp
theorem w20_keep19 (W : Valuation τ sig (Elt F)) :
    after w20 W (Proc.devRef .tc main_v718) = W (Proc.devRef .tc main_v718) := by
  unfold w20; rw [after_append]; unfold f20_0 f20_1; after_results_simp
theorem w20_out (W : Valuation τ sig (Elt F)) :
    after w20 W (Proc.devRef .tc main_v755) = val_main_v755 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  unfold w20; rw [after_append]; unfold f20_0 f20_1; after_results_simp <;> rfl

/-! ## Component 21 -/

theorem w21_arg0 (W : Valuation τ sig (Elt F)) :
    after w21 W (Proc.devRef .tc main_arg0) = W (Proc.devRef .tc main_arg0) := by
  unfold w21 f21_0; after_results_simp
theorem w21_arg1 (W : Valuation τ sig (Elt F)) :
    after w21 W (Proc.devRef .tc main_arg1) = W (Proc.devRef .tc main_arg1) := by
  unfold w21 f21_0; after_results_simp
theorem w21_arg2 (W : Valuation τ sig (Elt F)) :
    after w21 W (Proc.devRef .tc main_arg2) = W (Proc.devRef .tc main_arg2) := by
  unfold w21 f21_0; after_results_simp
theorem w21_arg3 (W : Valuation τ sig (Elt F)) :
    after w21 W (Proc.devRef .tc main_arg3) = W (Proc.devRef .tc main_arg3) := by
  unfold w21 f21_0; after_results_simp
theorem w21_arg4 (W : Valuation τ sig (Elt F)) :
    after w21 W (Proc.devRef .tc main_arg4) = W (Proc.devRef .tc main_arg4) := by
  unfold w21 f21_0; after_results_simp
theorem w21_arg5 (W : Valuation τ sig (Elt F)) :
    after w21 W (Proc.devRef .tc main_arg5) = W (Proc.devRef .tc main_arg5) := by
  unfold w21 f21_0; after_results_simp
theorem w21_arg6 (W : Valuation τ sig (Elt F)) :
    after w21 W (Proc.devRef .tc main_arg6) = W (Proc.devRef .tc main_arg6) := by
  unfold w21 f21_0; after_results_simp
theorem w21_keep0 (W : Valuation τ sig (Elt F)) :
    after w21 W (Proc.devRef .tc main_v15) = W (Proc.devRef .tc main_v15) := by
  unfold w21 f21_0; after_results_simp
theorem w21_keep1 (W : Valuation τ sig (Elt F)) :
    after w21 W (Proc.devRef .tc main_v52) = W (Proc.devRef .tc main_v52) := by
  unfold w21 f21_0; after_results_simp
theorem w21_keep2 (W : Valuation τ sig (Elt F)) :
    after w21 W (Proc.devRef .tc main_v89) = W (Proc.devRef .tc main_v89) := by
  unfold w21 f21_0; after_results_simp
theorem w21_keep3 (W : Valuation τ sig (Elt F)) :
    after w21 W (Proc.devRef .tc main_v126) = W (Proc.devRef .tc main_v126) := by
  unfold w21 f21_0; after_results_simp
theorem w21_keep4 (W : Valuation τ sig (Elt F)) :
    after w21 W (Proc.devRef .tc main_v163) = W (Proc.devRef .tc main_v163) := by
  unfold w21 f21_0; after_results_simp
theorem w21_keep5 (W : Valuation τ sig (Elt F)) :
    after w21 W (Proc.devRef .tc main_v200) = W (Proc.devRef .tc main_v200) := by
  unfold w21 f21_0; after_results_simp
theorem w21_keep6 (W : Valuation τ sig (Elt F)) :
    after w21 W (Proc.devRef .tc main_v237) = W (Proc.devRef .tc main_v237) := by
  unfold w21 f21_0; after_results_simp
theorem w21_keep7 (W : Valuation τ sig (Elt F)) :
    after w21 W (Proc.devRef .tc main_v274) = W (Proc.devRef .tc main_v274) := by
  unfold w21 f21_0; after_results_simp
theorem w21_keep8 (W : Valuation τ sig (Elt F)) :
    after w21 W (Proc.devRef .tc main_v311) = W (Proc.devRef .tc main_v311) := by
  unfold w21 f21_0; after_results_simp
theorem w21_keep9 (W : Valuation τ sig (Elt F)) :
    after w21 W (Proc.devRef .tc main_v348) = W (Proc.devRef .tc main_v348) := by
  unfold w21 f21_0; after_results_simp
theorem w21_keep10 (W : Valuation τ sig (Elt F)) :
    after w21 W (Proc.devRef .tc main_v385) = W (Proc.devRef .tc main_v385) := by
  unfold w21 f21_0; after_results_simp
theorem w21_keep11 (W : Valuation τ sig (Elt F)) :
    after w21 W (Proc.devRef .tc main_v422) = W (Proc.devRef .tc main_v422) := by
  unfold w21 f21_0; after_results_simp
theorem w21_keep12 (W : Valuation τ sig (Elt F)) :
    after w21 W (Proc.devRef .tc main_v459) = W (Proc.devRef .tc main_v459) := by
  unfold w21 f21_0; after_results_simp
theorem w21_keep13 (W : Valuation τ sig (Elt F)) :
    after w21 W (Proc.devRef .tc main_v496) = W (Proc.devRef .tc main_v496) := by
  unfold w21 f21_0; after_results_simp
theorem w21_keep14 (W : Valuation τ sig (Elt F)) :
    after w21 W (Proc.devRef .tc main_v533) = W (Proc.devRef .tc main_v533) := by
  unfold w21 f21_0; after_results_simp
theorem w21_keep15 (W : Valuation τ sig (Elt F)) :
    after w21 W (Proc.devRef .tc main_v570) = W (Proc.devRef .tc main_v570) := by
  unfold w21 f21_0; after_results_simp
theorem w21_keep16 (W : Valuation τ sig (Elt F)) :
    after w21 W (Proc.devRef .tc main_v607) = W (Proc.devRef .tc main_v607) := by
  unfold w21 f21_0; after_results_simp
theorem w21_keep17 (W : Valuation τ sig (Elt F)) :
    after w21 W (Proc.devRef .tc main_v644) = W (Proc.devRef .tc main_v644) := by
  unfold w21 f21_0; after_results_simp
theorem w21_keep18 (W : Valuation τ sig (Elt F)) :
    after w21 W (Proc.devRef .tc main_v681) = W (Proc.devRef .tc main_v681) := by
  unfold w21 f21_0; after_results_simp
theorem w21_keep19 (W : Valuation τ sig (Elt F)) :
    after w21 W (Proc.devRef .tc main_v718) = W (Proc.devRef .tc main_v718) := by
  unfold w21 f21_0; after_results_simp
theorem w21_keep20 (W : Valuation τ sig (Elt F)) :
    after w21 W (Proc.devRef .tc main_v755) = W (Proc.devRef .tc main_v755) := by
  unfold w21 f21_0; after_results_simp
theorem w21_out (W : Valuation τ sig (Elt F)) :
    after w21 W (Proc.devRef .tc main_v792) = val_main_v792 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  unfold w21 f21_0; after_results_simp <;> rfl

/-! ## Component 22 -/

theorem w22_arg0 (W : Valuation τ sig (Elt F)) :
    after w22 W (Proc.devRef .tc main_arg0) = W (Proc.devRef .tc main_arg0) := by
  unfold w22; rw [after_append]; unfold f22_0 f22_1; after_results_simp
theorem w22_arg1 (W : Valuation τ sig (Elt F)) :
    after w22 W (Proc.devRef .tc main_arg1) = W (Proc.devRef .tc main_arg1) := by
  unfold w22; rw [after_append]; unfold f22_0 f22_1; after_results_simp
theorem w22_arg2 (W : Valuation τ sig (Elt F)) :
    after w22 W (Proc.devRef .tc main_arg2) = W (Proc.devRef .tc main_arg2) := by
  unfold w22; rw [after_append]; unfold f22_0 f22_1; after_results_simp
theorem w22_arg3 (W : Valuation τ sig (Elt F)) :
    after w22 W (Proc.devRef .tc main_arg3) = W (Proc.devRef .tc main_arg3) := by
  unfold w22; rw [after_append]; unfold f22_0 f22_1; after_results_simp
theorem w22_arg4 (W : Valuation τ sig (Elt F)) :
    after w22 W (Proc.devRef .tc main_arg4) = W (Proc.devRef .tc main_arg4) := by
  unfold w22; rw [after_append]; unfold f22_0 f22_1; after_results_simp
theorem w22_arg5 (W : Valuation τ sig (Elt F)) :
    after w22 W (Proc.devRef .tc main_arg5) = W (Proc.devRef .tc main_arg5) := by
  unfold w22; rw [after_append]; unfold f22_0 f22_1; after_results_simp
theorem w22_arg6 (W : Valuation τ sig (Elt F)) :
    after w22 W (Proc.devRef .tc main_arg6) = W (Proc.devRef .tc main_arg6) := by
  unfold w22; rw [after_append]; unfold f22_0 f22_1; after_results_simp
theorem w22_keep0 (W : Valuation τ sig (Elt F)) :
    after w22 W (Proc.devRef .tc main_v15) = W (Proc.devRef .tc main_v15) := by
  unfold w22; rw [after_append]; unfold f22_0 f22_1; after_results_simp
theorem w22_keep1 (W : Valuation τ sig (Elt F)) :
    after w22 W (Proc.devRef .tc main_v52) = W (Proc.devRef .tc main_v52) := by
  unfold w22; rw [after_append]; unfold f22_0 f22_1; after_results_simp
theorem w22_keep2 (W : Valuation τ sig (Elt F)) :
    after w22 W (Proc.devRef .tc main_v89) = W (Proc.devRef .tc main_v89) := by
  unfold w22; rw [after_append]; unfold f22_0 f22_1; after_results_simp
theorem w22_keep3 (W : Valuation τ sig (Elt F)) :
    after w22 W (Proc.devRef .tc main_v126) = W (Proc.devRef .tc main_v126) := by
  unfold w22; rw [after_append]; unfold f22_0 f22_1; after_results_simp
theorem w22_keep4 (W : Valuation τ sig (Elt F)) :
    after w22 W (Proc.devRef .tc main_v163) = W (Proc.devRef .tc main_v163) := by
  unfold w22; rw [after_append]; unfold f22_0 f22_1; after_results_simp
theorem w22_keep5 (W : Valuation τ sig (Elt F)) :
    after w22 W (Proc.devRef .tc main_v200) = W (Proc.devRef .tc main_v200) := by
  unfold w22; rw [after_append]; unfold f22_0 f22_1; after_results_simp
theorem w22_keep6 (W : Valuation τ sig (Elt F)) :
    after w22 W (Proc.devRef .tc main_v237) = W (Proc.devRef .tc main_v237) := by
  unfold w22; rw [after_append]; unfold f22_0 f22_1; after_results_simp
theorem w22_keep7 (W : Valuation τ sig (Elt F)) :
    after w22 W (Proc.devRef .tc main_v274) = W (Proc.devRef .tc main_v274) := by
  unfold w22; rw [after_append]; unfold f22_0 f22_1; after_results_simp
theorem w22_keep8 (W : Valuation τ sig (Elt F)) :
    after w22 W (Proc.devRef .tc main_v311) = W (Proc.devRef .tc main_v311) := by
  unfold w22; rw [after_append]; unfold f22_0 f22_1; after_results_simp
theorem w22_keep9 (W : Valuation τ sig (Elt F)) :
    after w22 W (Proc.devRef .tc main_v348) = W (Proc.devRef .tc main_v348) := by
  unfold w22; rw [after_append]; unfold f22_0 f22_1; after_results_simp
theorem w22_keep10 (W : Valuation τ sig (Elt F)) :
    after w22 W (Proc.devRef .tc main_v385) = W (Proc.devRef .tc main_v385) := by
  unfold w22; rw [after_append]; unfold f22_0 f22_1; after_results_simp
theorem w22_keep11 (W : Valuation τ sig (Elt F)) :
    after w22 W (Proc.devRef .tc main_v422) = W (Proc.devRef .tc main_v422) := by
  unfold w22; rw [after_append]; unfold f22_0 f22_1; after_results_simp
theorem w22_keep12 (W : Valuation τ sig (Elt F)) :
    after w22 W (Proc.devRef .tc main_v459) = W (Proc.devRef .tc main_v459) := by
  unfold w22; rw [after_append]; unfold f22_0 f22_1; after_results_simp
theorem w22_keep13 (W : Valuation τ sig (Elt F)) :
    after w22 W (Proc.devRef .tc main_v496) = W (Proc.devRef .tc main_v496) := by
  unfold w22; rw [after_append]; unfold f22_0 f22_1; after_results_simp
theorem w22_keep14 (W : Valuation τ sig (Elt F)) :
    after w22 W (Proc.devRef .tc main_v533) = W (Proc.devRef .tc main_v533) := by
  unfold w22; rw [after_append]; unfold f22_0 f22_1; after_results_simp
theorem w22_keep15 (W : Valuation τ sig (Elt F)) :
    after w22 W (Proc.devRef .tc main_v570) = W (Proc.devRef .tc main_v570) := by
  unfold w22; rw [after_append]; unfold f22_0 f22_1; after_results_simp
theorem w22_keep16 (W : Valuation τ sig (Elt F)) :
    after w22 W (Proc.devRef .tc main_v607) = W (Proc.devRef .tc main_v607) := by
  unfold w22; rw [after_append]; unfold f22_0 f22_1; after_results_simp
theorem w22_keep17 (W : Valuation τ sig (Elt F)) :
    after w22 W (Proc.devRef .tc main_v644) = W (Proc.devRef .tc main_v644) := by
  unfold w22; rw [after_append]; unfold f22_0 f22_1; after_results_simp
theorem w22_keep18 (W : Valuation τ sig (Elt F)) :
    after w22 W (Proc.devRef .tc main_v681) = W (Proc.devRef .tc main_v681) := by
  unfold w22; rw [after_append]; unfold f22_0 f22_1; after_results_simp
theorem w22_keep19 (W : Valuation τ sig (Elt F)) :
    after w22 W (Proc.devRef .tc main_v718) = W (Proc.devRef .tc main_v718) := by
  unfold w22; rw [after_append]; unfold f22_0 f22_1; after_results_simp
theorem w22_keep20 (W : Valuation τ sig (Elt F)) :
    after w22 W (Proc.devRef .tc main_v755) = W (Proc.devRef .tc main_v755) := by
  unfold w22; rw [after_append]; unfold f22_0 f22_1; after_results_simp
theorem w22_keep21 (W : Valuation τ sig (Elt F)) :
    after w22 W (Proc.devRef .tc main_v792) = W (Proc.devRef .tc main_v792) := by
  unfold w22; rw [after_append]; unfold f22_0 f22_1; after_results_simp
theorem w22_out (W : Valuation τ sig (Elt F)) :
    after w22 W (Proc.devRef .tc main_v829) = val_main_v829 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  unfold w22; rw [after_append]; unfold f22_0 f22_1; after_results_simp <;> rfl

/-! ## Component 23 -/

theorem w23_arg0 (W : Valuation τ sig (Elt F)) :
    after w23 W (Proc.devRef .tc main_arg0) = W (Proc.devRef .tc main_arg0) := by
  unfold w23; rw [after_append]; unfold f23_0 f23_1; after_results_simp
theorem w23_arg1 (W : Valuation τ sig (Elt F)) :
    after w23 W (Proc.devRef .tc main_arg1) = W (Proc.devRef .tc main_arg1) := by
  unfold w23; rw [after_append]; unfold f23_0 f23_1; after_results_simp
theorem w23_arg2 (W : Valuation τ sig (Elt F)) :
    after w23 W (Proc.devRef .tc main_arg2) = W (Proc.devRef .tc main_arg2) := by
  unfold w23; rw [after_append]; unfold f23_0 f23_1; after_results_simp
theorem w23_arg3 (W : Valuation τ sig (Elt F)) :
    after w23 W (Proc.devRef .tc main_arg3) = W (Proc.devRef .tc main_arg3) := by
  unfold w23; rw [after_append]; unfold f23_0 f23_1; after_results_simp
theorem w23_arg4 (W : Valuation τ sig (Elt F)) :
    after w23 W (Proc.devRef .tc main_arg4) = W (Proc.devRef .tc main_arg4) := by
  unfold w23; rw [after_append]; unfold f23_0 f23_1; after_results_simp
theorem w23_arg5 (W : Valuation τ sig (Elt F)) :
    after w23 W (Proc.devRef .tc main_arg5) = W (Proc.devRef .tc main_arg5) := by
  unfold w23; rw [after_append]; unfold f23_0 f23_1; after_results_simp
theorem w23_arg6 (W : Valuation τ sig (Elt F)) :
    after w23 W (Proc.devRef .tc main_arg6) = W (Proc.devRef .tc main_arg6) := by
  unfold w23; rw [after_append]; unfold f23_0 f23_1; after_results_simp
theorem w23_keep0 (W : Valuation τ sig (Elt F)) :
    after w23 W (Proc.devRef .tc main_v15) = W (Proc.devRef .tc main_v15) := by
  unfold w23; rw [after_append]; unfold f23_0 f23_1; after_results_simp
theorem w23_keep1 (W : Valuation τ sig (Elt F)) :
    after w23 W (Proc.devRef .tc main_v52) = W (Proc.devRef .tc main_v52) := by
  unfold w23; rw [after_append]; unfold f23_0 f23_1; after_results_simp
theorem w23_keep2 (W : Valuation τ sig (Elt F)) :
    after w23 W (Proc.devRef .tc main_v89) = W (Proc.devRef .tc main_v89) := by
  unfold w23; rw [after_append]; unfold f23_0 f23_1; after_results_simp
theorem w23_keep3 (W : Valuation τ sig (Elt F)) :
    after w23 W (Proc.devRef .tc main_v126) = W (Proc.devRef .tc main_v126) := by
  unfold w23; rw [after_append]; unfold f23_0 f23_1; after_results_simp
theorem w23_keep4 (W : Valuation τ sig (Elt F)) :
    after w23 W (Proc.devRef .tc main_v163) = W (Proc.devRef .tc main_v163) := by
  unfold w23; rw [after_append]; unfold f23_0 f23_1; after_results_simp
theorem w23_keep5 (W : Valuation τ sig (Elt F)) :
    after w23 W (Proc.devRef .tc main_v200) = W (Proc.devRef .tc main_v200) := by
  unfold w23; rw [after_append]; unfold f23_0 f23_1; after_results_simp
theorem w23_keep6 (W : Valuation τ sig (Elt F)) :
    after w23 W (Proc.devRef .tc main_v237) = W (Proc.devRef .tc main_v237) := by
  unfold w23; rw [after_append]; unfold f23_0 f23_1; after_results_simp
theorem w23_keep7 (W : Valuation τ sig (Elt F)) :
    after w23 W (Proc.devRef .tc main_v274) = W (Proc.devRef .tc main_v274) := by
  unfold w23; rw [after_append]; unfold f23_0 f23_1; after_results_simp
theorem w23_keep8 (W : Valuation τ sig (Elt F)) :
    after w23 W (Proc.devRef .tc main_v311) = W (Proc.devRef .tc main_v311) := by
  unfold w23; rw [after_append]; unfold f23_0 f23_1; after_results_simp
theorem w23_keep9 (W : Valuation τ sig (Elt F)) :
    after w23 W (Proc.devRef .tc main_v348) = W (Proc.devRef .tc main_v348) := by
  unfold w23; rw [after_append]; unfold f23_0 f23_1; after_results_simp
theorem w23_keep10 (W : Valuation τ sig (Elt F)) :
    after w23 W (Proc.devRef .tc main_v385) = W (Proc.devRef .tc main_v385) := by
  unfold w23; rw [after_append]; unfold f23_0 f23_1; after_results_simp
theorem w23_keep11 (W : Valuation τ sig (Elt F)) :
    after w23 W (Proc.devRef .tc main_v422) = W (Proc.devRef .tc main_v422) := by
  unfold w23; rw [after_append]; unfold f23_0 f23_1; after_results_simp
theorem w23_keep12 (W : Valuation τ sig (Elt F)) :
    after w23 W (Proc.devRef .tc main_v459) = W (Proc.devRef .tc main_v459) := by
  unfold w23; rw [after_append]; unfold f23_0 f23_1; after_results_simp
theorem w23_keep13 (W : Valuation τ sig (Elt F)) :
    after w23 W (Proc.devRef .tc main_v496) = W (Proc.devRef .tc main_v496) := by
  unfold w23; rw [after_append]; unfold f23_0 f23_1; after_results_simp
theorem w23_keep14 (W : Valuation τ sig (Elt F)) :
    after w23 W (Proc.devRef .tc main_v533) = W (Proc.devRef .tc main_v533) := by
  unfold w23; rw [after_append]; unfold f23_0 f23_1; after_results_simp
theorem w23_keep15 (W : Valuation τ sig (Elt F)) :
    after w23 W (Proc.devRef .tc main_v570) = W (Proc.devRef .tc main_v570) := by
  unfold w23; rw [after_append]; unfold f23_0 f23_1; after_results_simp
theorem w23_keep16 (W : Valuation τ sig (Elt F)) :
    after w23 W (Proc.devRef .tc main_v607) = W (Proc.devRef .tc main_v607) := by
  unfold w23; rw [after_append]; unfold f23_0 f23_1; after_results_simp
theorem w23_keep17 (W : Valuation τ sig (Elt F)) :
    after w23 W (Proc.devRef .tc main_v644) = W (Proc.devRef .tc main_v644) := by
  unfold w23; rw [after_append]; unfold f23_0 f23_1; after_results_simp
theorem w23_keep18 (W : Valuation τ sig (Elt F)) :
    after w23 W (Proc.devRef .tc main_v681) = W (Proc.devRef .tc main_v681) := by
  unfold w23; rw [after_append]; unfold f23_0 f23_1; after_results_simp
theorem w23_keep19 (W : Valuation τ sig (Elt F)) :
    after w23 W (Proc.devRef .tc main_v718) = W (Proc.devRef .tc main_v718) := by
  unfold w23; rw [after_append]; unfold f23_0 f23_1; after_results_simp
theorem w23_keep20 (W : Valuation τ sig (Elt F)) :
    after w23 W (Proc.devRef .tc main_v755) = W (Proc.devRef .tc main_v755) := by
  unfold w23; rw [after_append]; unfold f23_0 f23_1; after_results_simp
theorem w23_keep21 (W : Valuation τ sig (Elt F)) :
    after w23 W (Proc.devRef .tc main_v792) = W (Proc.devRef .tc main_v792) := by
  unfold w23; rw [after_append]; unfold f23_0 f23_1; after_results_simp
theorem w23_keep22 (W : Valuation τ sig (Elt F)) :
    after w23 W (Proc.devRef .tc main_v829) = W (Proc.devRef .tc main_v829) := by
  unfold w23; rw [after_append]; unfold f23_0 f23_1; after_results_simp
theorem w23_out (W : Valuation τ sig (Elt F)) :
    after w23 W (Proc.devRef .tc main_v866) = val_main_v866 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  unfold w23; rw [after_append]; unfold f23_0 f23_1; after_results_simp <;> rfl

end Cert.ReferenceIdeal.RunW

end
-- ==== Proof.RW3.lean ====
/-
  The reference's operations, one component's window at a time: what a window leaves in the buffers that matter.

  Window `w d` (the operations of component `d`) reads only the seven argument arrays and writes only its own buffers.
  So, from ANY contents `W` of the buffers: it leaves the argument arrays as they were (`w d_arg j`), it leaves the
  result column of every earlier component as it was (`w d_keep e`, `e < d`), and it leaves in its own result column the
  component's stage function of the argument arrays as `W` holds them (`w d_out`). Each is read off the fold of the
  window's operations, one operation at a time.
-/
import proofs.«166035_j57586921505191_2_alg».proof.Proof.RunWin
import proofs.«166035_j57586921505191_2_alg».proof.Proof.ReadP

noncomputable section

namespace Cert.ReferenceIdeal.RunW

open Cert.ReferenceIdeal Cert.ReferenceIdeal.Gen Idealize.ShloMosaic Idealize.ShloMosaic.TcCoe Idealize.SL.Sem Idealize.ShloMosaic.StableHlo

variable {F : FTy → Type} [FloatOps F]

open Cert.ReferenceIdeal.Read

/-! ## Component 24 -/

theorem w24_arg0 (W : Valuation τ sig (Elt F)) :
    after w24 W (Proc.devRef .tc main_arg0) = W (Proc.devRef .tc main_arg0) := by
  unfold w24 f24_0; after_results_simp
theorem w24_arg1 (W : Valuation τ sig (Elt F)) :
    after w24 W (Proc.devRef .tc main_arg1) = W (Proc.devRef .tc main_arg1) := by
  unfold w24 f24_0; after_results_simp
theorem w24_arg2 (W : Valuation τ sig (Elt F)) :
    after w24 W (Proc.devRef .tc main_arg2) = W (Proc.devRef .tc main_arg2) := by
  unfold w24 f24_0; after_results_simp
theorem w24_arg3 (W : Valuation τ sig (Elt F)) :
    after w24 W (Proc.devRef .tc main_arg3) = W (Proc.devRef .tc main_arg3) := by
  unfold w24 f24_0; after_results_simp
theorem w24_arg4 (W : Valuation τ sig (Elt F)) :
    after w24 W (Proc.devRef .tc main_arg4) = W (Proc.devRef .tc main_arg4) := by
  unfold w24 f24_0; after_results_simp
theorem w24_arg5 (W : Valuation τ sig (Elt F)) :
    after w24 W (Proc.devRef .tc main_arg5) = W (Proc.devRef .tc main_arg5) := by
  unfold w24 f24_0; after_results_simp
theorem w24_arg6 (W : Valuation τ sig (Elt F)) :
    after w24 W (Proc.devRef .tc main_arg6) = W (Proc.devRef .tc main_arg6) := by
  unfold w24 f24_0; after_results_simp
theorem w24_keep0 (W : Valuation τ sig (Elt F)) :
    after w24 W (Proc.devRef .tc main_v15) = W (Proc.devRef .tc main_v15) := by
  unfold w24 f24_0; after_results_simp
theorem w24_keep1 (W : Valuation τ sig (Elt F)) :
    after w24 W (Proc.devRef .tc main_v52) = W (Proc.devRef .tc main_v52) := by
  unfold w24 f24_0; after_results_simp
theorem w24_keep2 (W : Valuation τ sig (Elt F)) :
    after w24 W (Proc.devRef .tc main_v89) = W (Proc.devRef .tc main_v89) := by
  unfold w24 f24_0; after_results_simp
theorem w24_keep3 (W : Valuation τ sig (Elt F)) :
    after w24 W (Proc.devRef .tc main_v126) = W (Proc.devRef .tc main_v126) := by
  unfold w24 f24_0; after_results_simp
theorem w24_keep4 (W : Valuation τ sig (Elt F)) :
    after w24 W (Proc.devRef .tc main_v163) = W (Proc.devRef .tc main_v163) := by
  unfold w24 f24_0; after_results_simp
theorem w24_keep5 (W : Valuation τ sig (Elt F)) :
    after w24 W (Proc.devRef .tc main_v200) = W (Proc.devRef .tc main_v200) := by
  unfold w24 f24_0; after_results_simp
theorem w24_keep6 (W : Valuation τ sig (Elt F)) :
    after w24 W (Proc.devRef .tc main_v237) = W (Proc.devRef .tc main_v237) := by
  unfold w24 f24_0; after_results_simp
theorem w24_keep7 (W : Valuation τ sig (Elt F)) :
    after w24 W (Proc.devRef .tc main_v274) = W (Proc.devRef .tc main_v274) := by
  unfold w24 f24_0; after_results_simp
theorem w24_keep8 (W : Valuation τ sig (Elt F)) :
    after w24 W (Proc.devRef .tc main_v311) = W (Proc.devRef .tc main_v311) := by
  unfold w24 f24_0; after_results_simp
theorem w24_keep9 (W : Valuation τ sig (Elt F)) :
    after w24 W (Proc.devRef .tc main_v348) = W (Proc.devRef .tc main_v348) := by
  unfold w24 f24_0; after_results_simp
theorem w24_keep10 (W : Valuation τ sig (Elt F)) :
    after w24 W (Proc.devRef .tc main_v385) = W (Proc.devRef .tc main_v385) := by
  unfold w24 f24_0; after_results_simp
theorem w24_keep11 (W : Valuation τ sig (Elt F)) :
    after w24 W (Proc.devRef .tc main_v422) = W (Proc.devRef .tc main_v422) := by
  unfold w24 f24_0; after_results_simp
theorem w24_keep12 (W : Valuation τ sig (Elt F)) :
    after w24 W (Proc.devRef .tc main_v459) = W (Proc.devRef .tc main_v459) := by
  unfold w24 f24_0; after_results_simp
theorem w24_keep13 (W : Valuation τ sig (Elt F)) :
    after w24 W (Proc.devRef .tc main_v496) = W (Proc.devRef .tc main_v496) := by
  unfold w24 f24_0; after_results_simp
theorem w24_keep14 (W : Valuation τ sig (Elt F)) :
    after w24 W (Proc.devRef .tc main_v533) = W (Proc.devRef .tc main_v533) := by
  unfold w24 f24_0; after_results_simp
theorem w24_keep15 (W : Valuation τ sig (Elt F)) :
    after w24 W (Proc.devRef .tc main_v570) = W (Proc.devRef .tc main_v570) := by
  unfold w24 f24_0; after_results_simp
theorem w24_keep16 (W : Valuation τ sig (Elt F)) :
    after w24 W (Proc.devRef .tc main_v607) = W (Proc.devRef .tc main_v607) := by
  unfold w24 f24_0; after_results_simp
theorem w24_keep17 (W : Valuation τ sig (Elt F)) :
    after w24 W (Proc.devRef .tc main_v644) = W (Proc.devRef .tc main_v644) := by
  unfold w24 f24_0; after_results_simp
theorem w24_keep18 (W : Valuation τ sig (Elt F)) :
    after w24 W (Proc.devRef .tc main_v681) = W (Proc.devRef .tc main_v681) := by
  unfold w24 f24_0; after_results_simp
theorem w24_keep19 (W : Valuation τ sig (Elt F)) :
    after w24 W (Proc.devRef .tc main_v718) = W (Proc.devRef .tc main_v718) := by
  unfold w24 f24_0; after_results_simp
theorem w24_keep20 (W : Valuation τ sig (Elt F)) :
    after w24 W (Proc.devRef .tc main_v755) = W (Proc.devRef .tc main_v755) := by
  unfold w24 f24_0; after_results_simp
theorem w24_keep21 (W : Valuation τ sig (Elt F)) :
    after w24 W (Proc.devRef .tc main_v792) = W (Proc.devRef .tc main_v792) := by
  unfold w24 f24_0; after_results_simp
theorem w24_keep22 (W : Valuation τ sig (Elt F)) :
    after w24 W (Proc.devRef .tc main_v829) = W (Proc.devRef .tc main_v829) := by
  unfold w24 f24_0; after_results_simp
theorem w24_keep23 (W : Valuation τ sig (Elt F)) :
    after w24 W (Proc.devRef .tc main_v866) = W (Proc.devRef .tc main_v866) := by
  unfold w24 f24_0; after_results_simp
theorem w24_out (W : Valuation τ sig (Elt F)) :
    after w24 W (Proc.devRef .tc main_v903) = val_main_v903 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  unfold w24 f24_0; after_results_simp <;> rfl

/-! ## Component 25 -/

theorem w25_arg0 (W : Valuation τ sig (Elt F)) :
    after w25 W (Proc.devRef .tc main_arg0) = W (Proc.devRef .tc main_arg0) := by
  unfold w25; rw [after_append]; unfold f25_0 f25_1; after_results_simp
theorem w25_arg1 (W : Valuation τ sig (Elt F)) :
    after w25 W (Proc.devRef .tc main_arg1) = W (Proc.devRef .tc main_arg1) := by
  unfold w25; rw [after_append]; unfold f25_0 f25_1; after_results_simp
theorem w25_arg2 (W : Valuation τ sig (Elt F)) :
    after w25 W (Proc.devRef .tc main_arg2) = W (Proc.devRef .tc main_arg2) := by
  unfold w25; rw [after_append]; unfold f25_0 f25_1; after_results_simp
theorem w25_arg3 (W : Valuation τ sig (Elt F)) :
    after w25 W (Proc.devRef .tc main_arg3) = W (Proc.devRef .tc main_arg3) := by
  unfold w25; rw [after_append]; unfold f25_0 f25_1; after_results_simp
theorem w25_arg4 (W : Valuation τ sig (Elt F)) :
    after w25 W (Proc.devRef .tc main_arg4) = W (Proc.devRef .tc main_arg4) := by
  unfold w25; rw [after_append]; unfold f25_0 f25_1; after_results_simp
theorem w25_arg5 (W : Valuation τ sig (Elt F)) :
    after w25 W (Proc.devRef .tc main_arg5) = W (Proc.devRef .tc main_arg5) := by
  unfold w25; rw [after_append]; unfold f25_0 f25_1; after_results_simp
theorem w25_arg6 (W : Valuation τ sig (Elt F)) :
    after w25 W (Proc.devRef .tc main_arg6) = W (Proc.devRef .tc main_arg6) := by
  unfold w25; rw [after_append]; unfold f25_0 f25_1; after_results_simp
theorem w25_keep0 (W : Valuation τ sig (Elt F)) :
    after w25 W (Proc.devRef .tc main_v15) = W (Proc.devRef .tc main_v15) := by
  unfold w25; rw [after_append]; unfold f25_0 f25_1; after_results_simp
theorem w25_keep1 (W : Valuation τ sig (Elt F)) :
    after w25 W (Proc.devRef .tc main_v52) = W (Proc.devRef .tc main_v52) := by
  unfold w25; rw [after_append]; unfold f25_0 f25_1; after_results_simp
theorem w25_keep2 (W : Valuation τ sig (Elt F)) :
    after w25 W (Proc.devRef .tc main_v89) = W (Proc.devRef .tc main_v89) := by
  unfold w25; rw [after_append]; unfold f25_0 f25_1; after_results_simp
theorem w25_keep3 (W : Valuation τ sig (Elt F)) :
    after w25 W (Proc.devRef .tc main_v126) = W (Proc.devRef .tc main_v126) := by
  unfold w25; rw [after_append]; unfold f25_0 f25_1; after_results_simp
theorem w25_keep4 (W : Valuation τ sig (Elt F)) :
    after w25 W (Proc.devRef .tc main_v163) = W (Proc.devRef .tc main_v163) := by
  unfold w25; rw [after_append]; unfold f25_0 f25_1; after_results_simp
theorem w25_keep5 (W : Valuation τ sig (Elt F)) :
    after w25 W (Proc.devRef .tc main_v200) = W (Proc.devRef .tc main_v200) := by
  unfold w25; rw [after_append]; unfold f25_0 f25_1; after_results_simp
theorem w25_keep6 (W : Valuation τ sig (Elt F)) :
    after w25 W (Proc.devRef .tc main_v237) = W (Proc.devRef .tc main_v237) := by
  unfold w25; rw [after_append]; unfold f25_0 f25_1; after_results_simp
theorem w25_keep7 (W : Valuation τ sig (Elt F)) :
    after w25 W (Proc.devRef .tc main_v274) = W (Proc.devRef .tc main_v274) := by
  unfold w25; rw [after_append]; unfold f25_0 f25_1; after_results_simp
theorem w25_keep8 (W : Valuation τ sig (Elt F)) :
    after w25 W (Proc.devRef .tc main_v311) = W (Proc.devRef .tc main_v311) := by
  unfold w25; rw [after_append]; unfold f25_0 f25_1; after_results_simp
theorem w25_keep9 (W : Valuation τ sig (Elt F)) :
    after w25 W (Proc.devRef .tc main_v348) = W (Proc.devRef .tc main_v348) := by
  unfold w25; rw [after_append]; unfold f25_0 f25_1; after_results_simp
theorem w25_keep10 (W : Valuation τ sig (Elt F)) :
    after w25 W (Proc.devRef .tc main_v385) = W (Proc.devRef .tc main_v385) := by
  unfold w25; rw [after_append]; unfold f25_0 f25_1; after_results_simp
theorem w25_keep11 (W : Valuation τ sig (Elt F)) :
    after w25 W (Proc.devRef .tc main_v422) = W (Proc.devRef .tc main_v422) := by
  unfold w25; rw [after_append]; unfold f25_0 f25_1; after_results_simp
theorem w25_keep12 (W : Valuation τ sig (Elt F)) :
    after w25 W (Proc.devRef .tc main_v459) = W (Proc.devRef .tc main_v459) := by
  unfold w25; rw [after_append]; unfold f25_0 f25_1; after_results_simp
theorem w25_keep13 (W : Valuation τ sig (Elt F)) :
    after w25 W (Proc.devRef .tc main_v496) = W (Proc.devRef .tc main_v496) := by
  unfold w25; rw [after_append]; unfold f25_0 f25_1; after_results_simp
theorem w25_keep14 (W : Valuation τ sig (Elt F)) :
    after w25 W (Proc.devRef .tc main_v533) = W (Proc.devRef .tc main_v533) := by
  unfold w25; rw [after_append]; unfold f25_0 f25_1; after_results_simp
theorem w25_keep15 (W : Valuation τ sig (Elt F)) :
    after w25 W (Proc.devRef .tc main_v570) = W (Proc.devRef .tc main_v570) := by
  unfold w25; rw [after_append]; unfold f25_0 f25_1; after_results_simp
theorem w25_keep16 (W : Valuation τ sig (Elt F)) :
    after w25 W (Proc.devRef .tc main_v607) = W (Proc.devRef .tc main_v607) := by
  unfold w25; rw [after_append]; unfold f25_0 f25_1; after_results_simp
theorem w25_keep17 (W : Valuation τ sig (Elt F)) :
    after w25 W (Proc.devRef .tc main_v644) = W (Proc.devRef .tc main_v644) := by
  unfold w25; rw [after_append]; unfold f25_0 f25_1; after_results_simp
theorem w25_keep18 (W : Valuation τ sig (Elt F)) :
    after w25 W (Proc.devRef .tc main_v681) = W (Proc.devRef .tc main_v681) := by
  unfold w25; rw [after_append]; unfold f25_0 f25_1; after_results_simp
theorem w25_keep19 (W : Valuation τ sig (Elt F)) :
    after w25 W (Proc.devRef .tc main_v718) = W (Proc.devRef .tc main_v718) := by
  unfold w25; rw [after_append]; unfold f25_0 f25_1; after_results_simp
theorem w25_keep20 (W : Valuation τ sig (Elt F)) :
    after w25 W (Proc.devRef .tc main_v755) = W (Proc.devRef .tc main_v755) := by
  unfold w25; rw [after_append]; unfold f25_0 f25_1; after_results_simp
theorem w25_keep21 (W : Valuation τ sig (Elt F)) :
    after w25 W (Proc.devRef .tc main_v792) = W (Proc.devRef .tc main_v792) := by
  unfold w25; rw [after_append]; unfold f25_0 f25_1; after_results_simp
theorem w25_keep22 (W : Valuation τ sig (Elt F)) :
    after w25 W (Proc.devRef .tc main_v829) = W (Proc.devRef .tc main_v829) := by
  unfold w25; rw [after_append]; unfold f25_0 f25_1; after_results_simp
theorem w25_keep23 (W : Valuation τ sig (Elt F)) :
    after w25 W (Proc.devRef .tc main_v866) = W (Proc.devRef .tc main_v866) := by
  unfold w25; rw [after_append]; unfold f25_0 f25_1; after_results_simp
theorem w25_keep24 (W : Valuation τ sig (Elt F)) :
    after w25 W (Proc.devRef .tc main_v903) = W (Proc.devRef .tc main_v903) := by
  unfold w25; rw [after_append]; unfold f25_0 f25_1; after_results_simp
theorem w25_out (W : Valuation τ sig (Elt F)) :
    after w25 W (Proc.devRef .tc main_v940) = val_main_v940 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  unfold w25; rw [after_append]; unfold f25_0 f25_1; after_results_simp <;> rfl

/-! ## Component 26 -/

theorem w26_arg0 (W : Valuation τ sig (Elt F)) :
    after w26 W (Proc.devRef .tc main_arg0) = W (Proc.devRef .tc main_arg0) := by
  unfold w26; rw [after_append]; unfold f26_0 f26_1; after_results_simp
theorem w26_arg1 (W : Valuation τ sig (Elt F)) :
    after w26 W (Proc.devRef .tc main_arg1) = W (Proc.devRef .tc main_arg1) := by
  unfold w26; rw [after_append]; unfold f26_0 f26_1; after_results_simp
theorem w26_arg2 (W : Valuation τ sig (Elt F)) :
    after w26 W (Proc.devRef .tc main_arg2) = W (Proc.devRef .tc main_arg2) := by
  unfold w26; rw [after_append]; unfold f26_0 f26_1; after_results_simp
theorem w26_arg3 (W : Valuation τ sig (Elt F)) :
    after w26 W (Proc.devRef .tc main_arg3) = W (Proc.devRef .tc main_arg3) := by
  unfold w26; rw [after_append]; unfold f26_0 f26_1; after_results_simp
theorem w26_arg4 (W : Valuation τ sig (Elt F)) :
    after w26 W (Proc.devRef .tc main_arg4) = W (Proc.devRef .tc main_arg4) := by
  unfold w26; rw [after_append]; unfold f26_0 f26_1; after_results_simp
theorem w26_arg5 (W : Valuation τ sig (Elt F)) :
    after w26 W (Proc.devRef .tc main_arg5) = W (Proc.devRef .tc main_arg5) := by
  unfold w26; rw [after_append]; unfold f26_0 f26_1; after_results_simp
theorem w26_arg6 (W : Valuation τ sig (Elt F)) :
    after w26 W (Proc.devRef .tc main_arg6) = W (Proc.devRef .tc main_arg6) := by
  unfold w26; rw [after_append]; unfold f26_0 f26_1; after_results_simp
theorem w26_keep0 (W : Valuation τ sig (Elt F)) :
    after w26 W (Proc.devRef .tc main_v15) = W (Proc.devRef .tc main_v15) := by
  unfold w26; rw [after_append]; unfold f26_0 f26_1; after_results_simp
theorem w26_keep1 (W : Valuation τ sig (Elt F)) :
    after w26 W (Proc.devRef .tc main_v52) = W (Proc.devRef .tc main_v52) := by
  unfold w26; rw [after_append]; unfold f26_0 f26_1; after_results_simp
theorem w26_keep2 (W : Valuation τ sig (Elt F)) :
    after w26 W (Proc.devRef .tc main_v89) = W (Proc.devRef .tc main_v89) := by
  unfold w26; rw [after_append]; unfold f26_0 f26_1; after_results_simp
theorem w26_keep3 (W : Valuation τ sig (Elt F)) :
    after w26 W (Proc.devRef .tc main_v126) = W (Proc.devRef .tc main_v126) := by
  unfold w26; rw [after_append]; unfold f26_0 f26_1; after_results_simp
theorem w26_keep4 (W : Valuation τ sig (Elt F)) :
    after w26 W (Proc.devRef .tc main_v163) = W (Proc.devRef .tc main_v163) := by
  unfold w26; rw [after_append]; unfold f26_0 f26_1; after_results_simp
theorem w26_keep5 (W : Valuation τ sig (Elt F)) :
    after w26 W (Proc.devRef .tc main_v200) = W (Proc.devRef .tc main_v200) := by
  unfold w26; rw [after_append]; unfold f26_0 f26_1; after_results_simp
theorem w26_keep6 (W : Valuation τ sig (Elt F)) :
    after w26 W (Proc.devRef .tc main_v237) = W (Proc.devRef .tc main_v237) := by
  unfold w26; rw [after_append]; unfold f26_0 f26_1; after_results_simp
theorem w26_keep7 (W : Valuation τ sig (Elt F)) :
    after w26 W (Proc.devRef .tc main_v274) = W (Proc.devRef .tc main_v274) := by
  unfold w26; rw [after_append]; unfold f26_0 f26_1; after_results_simp
theorem w26_keep8 (W : Valuation τ sig (Elt F)) :
    after w26 W (Proc.devRef .tc main_v311) = W (Proc.devRef .tc main_v311) := by
  unfold w26; rw [after_append]; unfold f26_0 f26_1; after_results_simp
theorem w26_keep9 (W : Valuation τ sig (Elt F)) :
    after w26 W (Proc.devRef .tc main_v348) = W (Proc.devRef .tc main_v348) := by
  unfold w26; rw [after_append]; unfold f26_0 f26_1; after_results_simp
theorem w26_keep10 (W : Valuation τ sig (Elt F)) :
    after w26 W (Proc.devRef .tc main_v385) = W (Proc.devRef .tc main_v385) := by
  unfold w26; rw [after_append]; unfold f26_0 f26_1; after_results_simp
theorem w26_keep11 (W : Valuation τ sig (Elt F)) :
    after w26 W (Proc.devRef .tc main_v422) = W (Proc.devRef .tc main_v422) := by
  unfold w26; rw [after_append]; unfold f26_0 f26_1; after_results_simp
theorem w26_keep12 (W : Valuation τ sig (Elt F)) :
    after w26 W (Proc.devRef .tc main_v459) = W (Proc.devRef .tc main_v459) := by
  unfold w26; rw [after_append]; unfold f26_0 f26_1; after_results_simp
theorem w26_keep13 (W : Valuation τ sig (Elt F)) :
    after w26 W (Proc.devRef .tc main_v496) = W (Proc.devRef .tc main_v496) := by
  unfold w26; rw [after_append]; unfold f26_0 f26_1; after_results_simp
theorem w26_keep14 (W : Valuation τ sig (Elt F)) :
    after w26 W (Proc.devRef .tc main_v533) = W (Proc.devRef .tc main_v533) := by
  unfold w26; rw [after_append]; unfold f26_0 f26_1; after_results_simp
theorem w26_keep15 (W : Valuation τ sig (Elt F)) :
    after w26 W (Proc.devRef .tc main_v570) = W (Proc.devRef .tc main_v570) := by
  unfold w26; rw [after_append]; unfold f26_0 f26_1; after_results_simp
theorem w26_keep16 (W : Valuation τ sig (Elt F)) :
    after w26 W (Proc.devRef .tc main_v607) = W (Proc.devRef .tc main_v607) := by
  unfold w26; rw [after_append]; unfold f26_0 f26_1; after_results_simp
theorem w26_keep17 (W : Valuation τ sig (Elt F)) :
    after w26 W (Proc.devRef .tc main_v644) = W (Proc.devRef .tc main_v644) := by
  unfold w26; rw [after_append]; unfold f26_0 f26_1; after_results_simp
theorem w26_keep18 (W : Valuation τ sig (Elt F)) :
    after w26 W (Proc.devRef .tc main_v681) = W (Proc.devRef .tc main_v681) := by
  unfold w26; rw [after_append]; unfold f26_0 f26_1; after_results_simp
theorem w26_keep19 (W : Valuation τ sig (Elt F)) :
    after w26 W (Proc.devRef .tc main_v718) = W (Proc.devRef .tc main_v718) := by
  unfold w26; rw [after_append]; unfold f26_0 f26_1; after_results_simp
theorem w26_keep20 (W : Valuation τ sig (Elt F)) :
    after w26 W (Proc.devRef .tc main_v755) = W (Proc.devRef .tc main_v755) := by
  unfold w26; rw [after_append]; unfold f26_0 f26_1; after_results_simp
theorem w26_keep21 (W : Valuation τ sig (Elt F)) :
    after w26 W (Proc.devRef .tc main_v792) = W (Proc.devRef .tc main_v792) := by
  unfold w26; rw [after_append]; unfold f26_0 f26_1; after_results_simp
theorem w26_keep22 (W : Valuation τ sig (Elt F)) :
    after w26 W (Proc.devRef .tc main_v829) = W (Proc.devRef .tc main_v829) := by
  unfold w26; rw [after_append]; unfold f26_0 f26_1; after_results_simp
theorem w26_keep23 (W : Valuation τ sig (Elt F)) :
    after w26 W (Proc.devRef .tc main_v866) = W (Proc.devRef .tc main_v866) := by
  unfold w26; rw [after_append]; unfold f26_0 f26_1; after_results_simp
theorem w26_keep24 (W : Valuation τ sig (Elt F)) :
    after w26 W (Proc.devRef .tc main_v903) = W (Proc.devRef .tc main_v903) := by
  unfold w26; rw [after_append]; unfold f26_0 f26_1; after_results_simp
theorem w26_keep25 (W : Valuation τ sig (Elt F)) :
    after w26 W (Proc.devRef .tc main_v940) = W (Proc.devRef .tc main_v940) := by
  unfold w26; rw [after_append]; unfold f26_0 f26_1; after_results_simp
theorem w26_out (W : Valuation τ sig (Elt F)) :
    after w26 W (Proc.devRef .tc main_v977) = val_main_v977 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  unfold w26; rw [after_append]; unfold f26_0 f26_1; after_results_simp <;> rfl

/-! ## Component 27 -/

theorem w27_arg0 (W : Valuation τ sig (Elt F)) :
    after w27 W (Proc.devRef .tc main_arg0) = W (Proc.devRef .tc main_arg0) := by
  unfold w27 f27_0; after_results_simp
theorem w27_arg1 (W : Valuation τ sig (Elt F)) :
    after w27 W (Proc.devRef .tc main_arg1) = W (Proc.devRef .tc main_arg1) := by
  unfold w27 f27_0; after_results_simp
theorem w27_arg2 (W : Valuation τ sig (Elt F)) :
    after w27 W (Proc.devRef .tc main_arg2) = W (Proc.devRef .tc main_arg2) := by
  unfold w27 f27_0; after_results_simp
theorem w27_arg3 (W : Valuation τ sig (Elt F)) :
    after w27 W (Proc.devRef .tc main_arg3) = W (Proc.devRef .tc main_arg3) := by
  unfold w27 f27_0; after_results_simp
theorem w27_arg4 (W : Valuation τ sig (Elt F)) :
    after w27 W (Proc.devRef .tc main_arg4) = W (Proc.devRef .tc main_arg4) := by
  unfold w27 f27_0; after_results_simp
theorem w27_arg5 (W : Valuation τ sig (Elt F)) :
    after w27 W (Proc.devRef .tc main_arg5) = W (Proc.devRef .tc main_arg5) := by
  unfold w27 f27_0; after_results_simp
theorem w27_arg6 (W : Valuation τ sig (Elt F)) :
    after w27 W (Proc.devRef .tc main_arg6) = W (Proc.devRef .tc main_arg6) := by
  unfold w27 f27_0; after_results_simp
theorem w27_keep0 (W : Valuation τ sig (Elt F)) :
    after w27 W (Proc.devRef .tc main_v15) = W (Proc.devRef .tc main_v15) := by
  unfold w27 f27_0; after_results_simp
theorem w27_keep1 (W : Valuation τ sig (Elt F)) :
    after w27 W (Proc.devRef .tc main_v52) = W (Proc.devRef .tc main_v52) := by
  unfold w27 f27_0; after_results_simp
theorem w27_keep2 (W : Valuation τ sig (Elt F)) :
    after w27 W (Proc.devRef .tc main_v89) = W (Proc.devRef .tc main_v89) := by
  unfold w27 f27_0; after_results_simp
theorem w27_keep3 (W : Valuation τ sig (Elt F)) :
    after w27 W (Proc.devRef .tc main_v126) = W (Proc.devRef .tc main_v126) := by
  unfold w27 f27_0; after_results_simp
theorem w27_keep4 (W : Valuation τ sig (Elt F)) :
    after w27 W (Proc.devRef .tc main_v163) = W (Proc.devRef .tc main_v163) := by
  unfold w27 f27_0; after_results_simp
theorem w27_keep5 (W : Valuation τ sig (Elt F)) :
    after w27 W (Proc.devRef .tc main_v200) = W (Proc.devRef .tc main_v200) := by
  unfold w27 f27_0; after_results_simp
theorem w27_keep6 (W : Valuation τ sig (Elt F)) :
    after w27 W (Proc.devRef .tc main_v237) = W (Proc.devRef .tc main_v237) := by
  unfold w27 f27_0; after_results_simp
theorem w27_keep7 (W : Valuation τ sig (Elt F)) :
    after w27 W (Proc.devRef .tc main_v274) = W (Proc.devRef .tc main_v274) := by
  unfold w27 f27_0; after_results_simp
theorem w27_keep8 (W : Valuation τ sig (Elt F)) :
    after w27 W (Proc.devRef .tc main_v311) = W (Proc.devRef .tc main_v311) := by
  unfold w27 f27_0; after_results_simp
theorem w27_keep9 (W : Valuation τ sig (Elt F)) :
    after w27 W (Proc.devRef .tc main_v348) = W (Proc.devRef .tc main_v348) := by
  unfold w27 f27_0; after_results_simp
theorem w27_keep10 (W : Valuation τ sig (Elt F)) :
    after w27 W (Proc.devRef .tc main_v385) = W (Proc.devRef .tc main_v385) := by
  unfold w27 f27_0; after_results_simp
theorem w27_keep11 (W : Valuation τ sig (Elt F)) :
    after w27 W (Proc.devRef .tc main_v422) = W (Proc.devRef .tc main_v422) := by
  unfold w27 f27_0; after_results_simp
theorem w27_keep12 (W : Valuation τ sig (Elt F)) :
    after w27 W (Proc.devRef .tc main_v459) = W (Proc.devRef .tc main_v459) := by
  unfold w27 f27_0; after_results_simp
theorem w27_keep13 (W : Valuation τ sig (Elt F)) :
    after w27 W (Proc.devRef .tc main_v496) = W (Proc.devRef .tc main_v496) := by
  unfold w27 f27_0; after_results_simp
theorem w27_keep14 (W : Valuation τ sig (Elt F)) :
    after w27 W (Proc.devRef .tc main_v533) = W (Proc.devRef .tc main_v533) := by
  unfold w27 f27_0; after_results_simp
theorem w27_keep15 (W : Valuation τ sig (Elt F)) :
    after w27 W (Proc.devRef .tc main_v570) = W (Proc.devRef .tc main_v570) := by
  unfold w27 f27_0; after_results_simp
theorem w27_keep16 (W : Valuation τ sig (Elt F)) :
    after w27 W (Proc.devRef .tc main_v607) = W (Proc.devRef .tc main_v607) := by
  unfold w27 f27_0; after_results_simp
theorem w27_keep17 (W : Valuation τ sig (Elt F)) :
    after w27 W (Proc.devRef .tc main_v644) = W (Proc.devRef .tc main_v644) := by
  unfold w27 f27_0; after_results_simp
theorem w27_keep18 (W : Valuation τ sig (Elt F)) :
    after w27 W (Proc.devRef .tc main_v681) = W (Proc.devRef .tc main_v681) := by
  unfold w27 f27_0; after_results_simp
theorem w27_keep19 (W : Valuation τ sig (Elt F)) :
    after w27 W (Proc.devRef .tc main_v718) = W (Proc.devRef .tc main_v718) := by
  unfold w27 f27_0; after_results_simp
theorem w27_keep20 (W : Valuation τ sig (Elt F)) :
    after w27 W (Proc.devRef .tc main_v755) = W (Proc.devRef .tc main_v755) := by
  unfold w27 f27_0; after_results_simp
theorem w27_keep21 (W : Valuation τ sig (Elt F)) :
    after w27 W (Proc.devRef .tc main_v792) = W (Proc.devRef .tc main_v792) := by
  unfold w27 f27_0; after_results_simp
theorem w27_keep22 (W : Valuation τ sig (Elt F)) :
    after w27 W (Proc.devRef .tc main_v829) = W (Proc.devRef .tc main_v829) := by
  unfold w27 f27_0; after_results_simp
theorem w27_keep23 (W : Valuation τ sig (Elt F)) :
    after w27 W (Proc.devRef .tc main_v866) = W (Proc.devRef .tc main_v866) := by
  unfold w27 f27_0; after_results_simp
theorem w27_keep24 (W : Valuation τ sig (Elt F)) :
    after w27 W (Proc.devRef .tc main_v903) = W (Proc.devRef .tc main_v903) := by
  unfold w27 f27_0; after_results_simp
theorem w27_keep25 (W : Valuation τ sig (Elt F)) :
    after w27 W (Proc.devRef .tc main_v940) = W (Proc.devRef .tc main_v940) := by
  unfold w27 f27_0; after_results_simp
theorem w27_keep26 (W : Valuation τ sig (Elt F)) :
    after w27 W (Proc.devRef .tc main_v977) = W (Proc.devRef .tc main_v977) := by
  unfold w27 f27_0; after_results_simp
theorem w27_out (W : Valuation τ sig (Elt F)) :
    after w27 W (Proc.devRef .tc main_v1014) = val_main_v1014 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  unfold w27 f27_0; after_results_simp <;> rfl

/-! ## Component 28 -/

theorem w28_arg0 (W : Valuation τ sig (Elt F)) :
    after w28 W (Proc.devRef .tc main_arg0) = W (Proc.devRef .tc main_arg0) := by
  unfold w28; rw [after_append]; unfold f28_0 f28_1; after_results_simp
theorem w28_arg1 (W : Valuation τ sig (Elt F)) :
    after w28 W (Proc.devRef .tc main_arg1) = W (Proc.devRef .tc main_arg1) := by
  unfold w28; rw [after_append]; unfold f28_0 f28_1; after_results_simp
theorem w28_arg2 (W : Valuation τ sig (Elt F)) :
    after w28 W (Proc.devRef .tc main_arg2) = W (Proc.devRef .tc main_arg2) := by
  unfold w28; rw [after_append]; unfold f28_0 f28_1; after_results_simp
theorem w28_arg3 (W : Valuation τ sig (Elt F)) :
    after w28 W (Proc.devRef .tc main_arg3) = W (Proc.devRef .tc main_arg3) := by
  unfold w28; rw [after_append]; unfold f28_0 f28_1; after_results_simp
theorem w28_arg4 (W : Valuation τ sig (Elt F)) :
    after w28 W (Proc.devRef .tc main_arg4) = W (Proc.devRef .tc main_arg4) := by
  unfold w28; rw [after_append]; unfold f28_0 f28_1; after_results_simp
theorem w28_arg5 (W : Valuation τ sig (Elt F)) :
    after w28 W (Proc.devRef .tc main_arg5) = W (Proc.devRef .tc main_arg5) := by
  unfold w28; rw [after_append]; unfold f28_0 f28_1; after_results_simp
theorem w28_arg6 (W : Valuation τ sig (Elt F)) :
    after w28 W (Proc.devRef .tc main_arg6) = W (Proc.devRef .tc main_arg6) := by
  unfold w28; rw [after_append]; unfold f28_0 f28_1; after_results_simp
theorem w28_keep0 (W : Valuation τ sig (Elt F)) :
    after w28 W (Proc.devRef .tc main_v15) = W (Proc.devRef .tc main_v15) := by
  unfold w28; rw [after_append]; unfold f28_0 f28_1; after_results_simp
theorem w28_keep1 (W : Valuation τ sig (Elt F)) :
    after w28 W (Proc.devRef .tc main_v52) = W (Proc.devRef .tc main_v52) := by
  unfold w28; rw [after_append]; unfold f28_0 f28_1; after_results_simp
theorem w28_keep2 (W : Valuation τ sig (Elt F)) :
    after w28 W (Proc.devRef .tc main_v89) = W (Proc.devRef .tc main_v89) := by
  unfold w28; rw [after_append]; unfold f28_0 f28_1; after_results_simp
theorem w28_keep3 (W : Valuation τ sig (Elt F)) :
    after w28 W (Proc.devRef .tc main_v126) = W (Proc.devRef .tc main_v126) := by
  unfold w28; rw [after_append]; unfold f28_0 f28_1; after_results_simp
theorem w28_keep4 (W : Valuation τ sig (Elt F)) :
    after w28 W (Proc.devRef .tc main_v163) = W (Proc.devRef .tc main_v163) := by
  unfold w28; rw [after_append]; unfold f28_0 f28_1; after_results_simp
theorem w28_keep5 (W : Valuation τ sig (Elt F)) :
    after w28 W (Proc.devRef .tc main_v200) = W (Proc.devRef .tc main_v200) := by
  unfold w28; rw [after_append]; unfold f28_0 f28_1; after_results_simp
theorem w28_keep6 (W : Valuation τ sig (Elt F)) :
    after w28 W (Proc.devRef .tc main_v237) = W (Proc.devRef .tc main_v237) := by
  unfold w28; rw [after_append]; unfold f28_0 f28_1; after_results_simp
theorem w28_keep7 (W : Valuation τ sig (Elt F)) :
    after w28 W (Proc.devRef .tc main_v274) = W (Proc.devRef .tc main_v274) := by
  unfold w28; rw [after_append]; unfold f28_0 f28_1; after_results_simp
theorem w28_keep8 (W : Valuation τ sig (Elt F)) :
    after w28 W (Proc.devRef .tc main_v311) = W (Proc.devRef .tc main_v311) := by
  unfold w28; rw [after_append]; unfold f28_0 f28_1; after_results_simp
theorem w28_keep9 (W : Valuation τ sig (Elt F)) :
    after w28 W (Proc.devRef .tc main_v348) = W (Proc.devRef .tc main_v348) := by
  unfold w28; rw [after_append]; unfold f28_0 f28_1; after_results_simp
theorem w28_keep10 (W : Valuation τ sig (Elt F)) :
    after w28 W (Proc.devRef .tc main_v385) = W (Proc.devRef .tc main_v385) := by
  unfold w28; rw [after_append]; unfold f28_0 f28_1; after_results_simp
theorem w28_keep11 (W : Valuation τ sig (Elt F)) :
    after w28 W (Proc.devRef .tc main_v422) = W (Proc.devRef .tc main_v422) := by
  unfold w28; rw [after_append]; unfold f28_0 f28_1; after_results_simp
theorem w28_keep12 (W : Valuation τ sig (Elt F)) :
    after w28 W (Proc.devRef .tc main_v459) = W (Proc.devRef .tc main_v459) := by
  unfold w28; rw [after_append]; unfold f28_0 f28_1; after_results_simp
theorem w28_keep13 (W : Valuation τ sig (Elt F)) :
    after w28 W (Proc.devRef .tc main_v496) = W (Proc.devRef .tc main_v496) := by
  unfold w28; rw [after_append]; unfold f28_0 f28_1; after_results_simp
theorem w28_keep14 (W : Valuation τ sig (Elt F)) :
    after w28 W (Proc.devRef .tc main_v533) = W (Proc.devRef .tc main_v533) := by
  unfold w28; rw [after_append]; unfold f28_0 f28_1; after_results_simp
theorem w28_keep15 (W : Valuation τ sig (Elt F)) :
    after w28 W (Proc.devRef .tc main_v570) = W (Proc.devRef .tc main_v570) := by
  unfold w28; rw [after_append]; unfold f28_0 f28_1; after_results_simp
theorem w28_keep16 (W : Valuation τ sig (Elt F)) :
    after w28 W (Proc.devRef .tc main_v607) = W (Proc.devRef .tc main_v607) := by
  unfold w28; rw [after_append]; unfold f28_0 f28_1; after_results_simp
theorem w28_keep17 (W : Valuation τ sig (Elt F)) :
    after w28 W (Proc.devRef .tc main_v644) = W (Proc.devRef .tc main_v644) := by
  unfold w28; rw [after_append]; unfold f28_0 f28_1; after_results_simp
theorem w28_keep18 (W : Valuation τ sig (Elt F)) :
    after w28 W (Proc.devRef .tc main_v681) = W (Proc.devRef .tc main_v681) := by
  unfold w28; rw [after_append]; unfold f28_0 f28_1; after_results_simp
theorem w28_keep19 (W : Valuation τ sig (Elt F)) :
    after w28 W (Proc.devRef .tc main_v718) = W (Proc.devRef .tc main_v718) := by
  unfold w28; rw [after_append]; unfold f28_0 f28_1; after_results_simp
theorem w28_keep20 (W : Valuation τ sig (Elt F)) :
    after w28 W (Proc.devRef .tc main_v755) = W (Proc.devRef .tc main_v755) := by
  unfold w28; rw [after_append]; unfold f28_0 f28_1; after_results_simp
theorem w28_keep21 (W : Valuation τ sig (Elt F)) :
    after w28 W (Proc.devRef .tc main_v792) = W (Proc.devRef .tc main_v792) := by
  unfold w28; rw [after_append]; unfold f28_0 f28_1; after_results_simp
theorem w28_keep22 (W : Valuation τ sig (Elt F)) :
    after w28 W (Proc.devRef .tc main_v829) = W (Proc.devRef .tc main_v829) := by
  unfold w28; rw [after_append]; unfold f28_0 f28_1; after_results_simp
theorem w28_keep23 (W : Valuation τ sig (Elt F)) :
    after w28 W (Proc.devRef .tc main_v866) = W (Proc.devRef .tc main_v866) := by
  unfold w28; rw [after_append]; unfold f28_0 f28_1; after_results_simp
theorem w28_keep24 (W : Valuation τ sig (Elt F)) :
    after w28 W (Proc.devRef .tc main_v903) = W (Proc.devRef .tc main_v903) := by
  unfold w28; rw [after_append]; unfold f28_0 f28_1; after_results_simp
theorem w28_keep25 (W : Valuation τ sig (Elt F)) :
    after w28 W (Proc.devRef .tc main_v940) = W (Proc.devRef .tc main_v940) := by
  unfold w28; rw [after_append]; unfold f28_0 f28_1; after_results_simp
theorem w28_keep26 (W : Valuation τ sig (Elt F)) :
    after w28 W (Proc.devRef .tc main_v977) = W (Proc.devRef .tc main_v977) := by
  unfold w28; rw [after_append]; unfold f28_0 f28_1; after_results_simp
theorem w28_keep27 (W : Valuation τ sig (Elt F)) :
    after w28 W (Proc.devRef .tc main_v1014) = W (Proc.devRef .tc main_v1014) := by
  unfold w28; rw [after_append]; unfold f28_0 f28_1; after_results_simp
theorem w28_out (W : Valuation τ sig (Elt F)) :
    after w28 W (Proc.devRef .tc main_v1051) = val_main_v1051 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  unfold w28; rw [after_append]; unfold f28_0 f28_1; after_results_simp <;> rfl

/-! ## Component 29 -/

theorem w29_arg0 (W : Valuation τ sig (Elt F)) :
    after w29 W (Proc.devRef .tc main_arg0) = W (Proc.devRef .tc main_arg0) := by
  unfold w29; rw [after_append]; unfold f29_0 f29_1; after_results_simp
theorem w29_arg1 (W : Valuation τ sig (Elt F)) :
    after w29 W (Proc.devRef .tc main_arg1) = W (Proc.devRef .tc main_arg1) := by
  unfold w29; rw [after_append]; unfold f29_0 f29_1; after_results_simp
theorem w29_arg2 (W : Valuation τ sig (Elt F)) :
    after w29 W (Proc.devRef .tc main_arg2) = W (Proc.devRef .tc main_arg2) := by
  unfold w29; rw [after_append]; unfold f29_0 f29_1; after_results_simp
theorem w29_arg3 (W : Valuation τ sig (Elt F)) :
    after w29 W (Proc.devRef .tc main_arg3) = W (Proc.devRef .tc main_arg3) := by
  unfold w29; rw [after_append]; unfold f29_0 f29_1; after_results_simp
theorem w29_arg4 (W : Valuation τ sig (Elt F)) :
    after w29 W (Proc.devRef .tc main_arg4) = W (Proc.devRef .tc main_arg4) := by
  unfold w29; rw [after_append]; unfold f29_0 f29_1; after_results_simp
theorem w29_arg5 (W : Valuation τ sig (Elt F)) :
    after w29 W (Proc.devRef .tc main_arg5) = W (Proc.devRef .tc main_arg5) := by
  unfold w29; rw [after_append]; unfold f29_0 f29_1; after_results_simp
theorem w29_arg6 (W : Valuation τ sig (Elt F)) :
    after w29 W (Proc.devRef .tc main_arg6) = W (Proc.devRef .tc main_arg6) := by
  unfold w29; rw [after_append]; unfold f29_0 f29_1; after_results_simp
theorem w29_keep0 (W : Valuation τ sig (Elt F)) :
    after w29 W (Proc.devRef .tc main_v15) = W (Proc.devRef .tc main_v15) := by
  unfold w29; rw [after_append]; unfold f29_0 f29_1; after_results_simp
theorem w29_keep1 (W : Valuation τ sig (Elt F)) :
    after w29 W (Proc.devRef .tc main_v52) = W (Proc.devRef .tc main_v52) := by
  unfold w29; rw [after_append]; unfold f29_0 f29_1; after_results_simp
theorem w29_keep2 (W : Valuation τ sig (Elt F)) :
    after w29 W (Proc.devRef .tc main_v89) = W (Proc.devRef .tc main_v89) := by
  unfold w29; rw [after_append]; unfold f29_0 f29_1; after_results_simp
theorem w29_keep3 (W : Valuation τ sig (Elt F)) :
    after w29 W (Proc.devRef .tc main_v126) = W (Proc.devRef .tc main_v126) := by
  unfold w29; rw [after_append]; unfold f29_0 f29_1; after_results_simp
theorem w29_keep4 (W : Valuation τ sig (Elt F)) :
    after w29 W (Proc.devRef .tc main_v163) = W (Proc.devRef .tc main_v163) := by
  unfold w29; rw [after_append]; unfold f29_0 f29_1; after_results_simp
theorem w29_keep5 (W : Valuation τ sig (Elt F)) :
    after w29 W (Proc.devRef .tc main_v200) = W (Proc.devRef .tc main_v200) := by
  unfold w29; rw [after_append]; unfold f29_0 f29_1; after_results_simp
theorem w29_keep6 (W : Valuation τ sig (Elt F)) :
    after w29 W (Proc.devRef .tc main_v237) = W (Proc.devRef .tc main_v237) := by
  unfold w29; rw [after_append]; unfold f29_0 f29_1; after_results_simp
theorem w29_keep7 (W : Valuation τ sig (Elt F)) :
    after w29 W (Proc.devRef .tc main_v274) = W (Proc.devRef .tc main_v274) := by
  unfold w29; rw [after_append]; unfold f29_0 f29_1; after_results_simp
theorem w29_keep8 (W : Valuation τ sig (Elt F)) :
    after w29 W (Proc.devRef .tc main_v311) = W (Proc.devRef .tc main_v311) := by
  unfold w29; rw [after_append]; unfold f29_0 f29_1; after_results_simp
theorem w29_keep9 (W : Valuation τ sig (Elt F)) :
    after w29 W (Proc.devRef .tc main_v348) = W (Proc.devRef .tc main_v348) := by
  unfold w29; rw [after_append]; unfold f29_0 f29_1; after_results_simp
theorem w29_keep10 (W : Valuation τ sig (Elt F)) :
    after w29 W (Proc.devRef .tc main_v385) = W (Proc.devRef .tc main_v385) := by
  unfold w29; rw [after_append]; unfold f29_0 f29_1; after_results_simp
theorem w29_keep11 (W : Valuation τ sig (Elt F)) :
    after w29 W (Proc.devRef .tc main_v422) = W (Proc.devRef .tc main_v422) := by
  unfold w29; rw [after_append]; unfold f29_0 f29_1; after_results_simp
theorem w29_keep12 (W : Valuation τ sig (Elt F)) :
    after w29 W (Proc.devRef .tc main_v459) = W (Proc.devRef .tc main_v459) := by
  unfold w29; rw [after_append]; unfold f29_0 f29_1; after_results_simp
theorem w29_keep13 (W : Valuation τ sig (Elt F)) :
    after w29 W (Proc.devRef .tc main_v496) = W (Proc.devRef .tc main_v496) := by
  unfold w29; rw [after_append]; unfold f29_0 f29_1; after_results_simp
theorem w29_keep14 (W : Valuation τ sig (Elt F)) :
    after w29 W (Proc.devRef .tc main_v533) = W (Proc.devRef .tc main_v533) := by
  unfold w29; rw [after_append]; unfold f29_0 f29_1; after_results_simp
theorem w29_keep15 (W : Valuation τ sig (Elt F)) :
    after w29 W (Proc.devRef .tc main_v570) = W (Proc.devRef .tc main_v570) := by
  unfold w29; rw [after_append]; unfold f29_0 f29_1; after_results_simp
theorem w29_keep16 (W : Valuation τ sig (Elt F)) :
    after w29 W (Proc.devRef .tc main_v607) = W (Proc.devRef .tc main_v607) := by
  unfold w29; rw [after_append]; unfold f29_0 f29_1; after_results_simp
theorem w29_keep17 (W : Valuation τ sig (Elt F)) :
    after w29 W (Proc.devRef .tc main_v644) = W (Proc.devRef .tc main_v644) := by
  unfold w29; rw [after_append]; unfold f29_0 f29_1; after_results_simp
theorem w29_keep18 (W : Valuation τ sig (Elt F)) :
    after w29 W (Proc.devRef .tc main_v681) = W (Proc.devRef .tc main_v681) := by
  unfold w29; rw [after_append]; unfold f29_0 f29_1; after_results_simp
theorem w29_keep19 (W : Valuation τ sig (Elt F)) :
    after w29 W (Proc.devRef .tc main_v718) = W (Proc.devRef .tc main_v718) := by
  unfold w29; rw [after_append]; unfold f29_0 f29_1; after_results_simp
theorem w29_keep20 (W : Valuation τ sig (Elt F)) :
    after w29 W (Proc.devRef .tc main_v755) = W (Proc.devRef .tc main_v755) := by
  unfold w29; rw [after_append]; unfold f29_0 f29_1; after_results_simp
theorem w29_keep21 (W : Valuation τ sig (Elt F)) :
    after w29 W (Proc.devRef .tc main_v792) = W (Proc.devRef .tc main_v792) := by
  unfold w29; rw [after_append]; unfold f29_0 f29_1; after_results_simp
theorem w29_keep22 (W : Valuation τ sig (Elt F)) :
    after w29 W (Proc.devRef .tc main_v829) = W (Proc.devRef .tc main_v829) := by
  unfold w29; rw [after_append]; unfold f29_0 f29_1; after_results_simp
theorem w29_keep23 (W : Valuation τ sig (Elt F)) :
    after w29 W (Proc.devRef .tc main_v866) = W (Proc.devRef .tc main_v866) := by
  unfold w29; rw [after_append]; unfold f29_0 f29_1; after_results_simp
theorem w29_keep24 (W : Valuation τ sig (Elt F)) :
    after w29 W (Proc.devRef .tc main_v903) = W (Proc.devRef .tc main_v903) := by
  unfold w29; rw [after_append]; unfold f29_0 f29_1; after_results_simp
theorem w29_keep25 (W : Valuation τ sig (Elt F)) :
    after w29 W (Proc.devRef .tc main_v940) = W (Proc.devRef .tc main_v940) := by
  unfold w29; rw [after_append]; unfold f29_0 f29_1; after_results_simp
theorem w29_keep26 (W : Valuation τ sig (Elt F)) :
    after w29 W (Proc.devRef .tc main_v977) = W (Proc.devRef .tc main_v977) := by
  unfold w29; rw [after_append]; unfold f29_0 f29_1; after_results_simp
theorem w29_keep27 (W : Valuation τ sig (Elt F)) :
    after w29 W (Proc.devRef .tc main_v1014) = W (Proc.devRef .tc main_v1014) := by
  unfold w29; rw [after_append]; unfold f29_0 f29_1; after_results_simp
theorem w29_keep28 (W : Valuation τ sig (Elt F)) :
    after w29 W (Proc.devRef .tc main_v1051) = W (Proc.devRef .tc main_v1051) := by
  unfold w29; rw [after_append]; unfold f29_0 f29_1; after_results_simp
theorem w29_out (W : Valuation τ sig (Elt F)) :
    after w29 W (Proc.devRef .tc main_v1088) = val_main_v1088 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  unfold w29; rw [after_append]; unfold f29_0 f29_1; after_results_simp <;> rfl

/-! ## Component 30 -/

theorem w30_arg0 (W : Valuation τ sig (Elt F)) :
    after w30 W (Proc.devRef .tc main_arg0) = W (Proc.devRef .tc main_arg0) := by
  unfold w30 f30_0; after_results_simp
theorem w30_arg1 (W : Valuation τ sig (Elt F)) :
    after w30 W (Proc.devRef .tc main_arg1) = W (Proc.devRef .tc main_arg1) := by
  unfold w30 f30_0; after_results_simp
theorem w30_arg2 (W : Valuation τ sig (Elt F)) :
    after w30 W (Proc.devRef .tc main_arg2) = W (Proc.devRef .tc main_arg2) := by
  unfold w30 f30_0; after_results_simp
theorem w30_arg3 (W : Valuation τ sig (Elt F)) :
    after w30 W (Proc.devRef .tc main_arg3) = W (Proc.devRef .tc main_arg3) := by
  unfold w30 f30_0; after_results_simp
theorem w30_arg4 (W : Valuation τ sig (Elt F)) :
    after w30 W (Proc.devRef .tc main_arg4) = W (Proc.devRef .tc main_arg4) := by
  unfold w30 f30_0; after_results_simp
theorem w30_arg5 (W : Valuation τ sig (Elt F)) :
    after w30 W (Proc.devRef .tc main_arg5) = W (Proc.devRef .tc main_arg5) := by
  unfold w30 f30_0; after_results_simp
theorem w30_arg6 (W : Valuation τ sig (Elt F)) :
    after w30 W (Proc.devRef .tc main_arg6) = W (Proc.devRef .tc main_arg6) := by
  unfold w30 f30_0; after_results_simp
theorem w30_keep0 (W : Valuation τ sig (Elt F)) :
    after w30 W (Proc.devRef .tc main_v15) = W (Proc.devRef .tc main_v15) := by
  unfold w30 f30_0; after_results_simp
theorem w30_keep1 (W : Valuation τ sig (Elt F)) :
    after w30 W (Proc.devRef .tc main_v52) = W (Proc.devRef .tc main_v52) := by
  unfold w30 f30_0; after_results_simp
theorem w30_keep2 (W : Valuation τ sig (Elt F)) :
    after w30 W (Proc.devRef .tc main_v89) = W (Proc.devRef .tc main_v89) := by
  unfold w30 f30_0; after_results_simp
theorem w30_keep3 (W : Valuation τ sig (Elt F)) :
    after w30 W (Proc.devRef .tc main_v126) = W (Proc.devRef .tc main_v126) := by
  unfold w30 f30_0; after_results_simp
theorem w30_keep4 (W : Valuation τ sig (Elt F)) :
    after w30 W (Proc.devRef .tc main_v163) = W (Proc.devRef .tc main_v163) := by
  unfold w30 f30_0; after_results_simp
theorem w30_keep5 (W : Valuation τ sig (Elt F)) :
    after w30 W (Proc.devRef .tc main_v200) = W (Proc.devRef .tc main_v200) := by
  unfold w30 f30_0; after_results_simp
theorem w30_keep6 (W : Valuation τ sig (Elt F)) :
    after w30 W (Proc.devRef .tc main_v237) = W (Proc.devRef .tc main_v237) := by
  unfold w30 f30_0; after_results_simp
theorem w30_keep7 (W : Valuation τ sig (Elt F)) :
    after w30 W (Proc.devRef .tc main_v274) = W (Proc.devRef .tc main_v274) := by
  unfold w30 f30_0; after_results_simp
theorem w30_keep8 (W : Valuation τ sig (Elt F)) :
    after w30 W (Proc.devRef .tc main_v311) = W (Proc.devRef .tc main_v311) := by
  unfold w30 f30_0; after_results_simp
theorem w30_keep9 (W : Valuation τ sig (Elt F)) :
    after w30 W (Proc.devRef .tc main_v348) = W (Proc.devRef .tc main_v348) := by
  unfold w30 f30_0; after_results_simp
theorem w30_keep10 (W : Valuation τ sig (Elt F)) :
    after w30 W (Proc.devRef .tc main_v385) = W (Proc.devRef .tc main_v385) := by
  unfold w30 f30_0; after_results_simp
theorem w30_keep11 (W : Valuation τ sig (Elt F)) :
    after w30 W (Proc.devRef .tc main_v422) = W (Proc.devRef .tc main_v422) := by
  unfold w30 f30_0; after_results_simp
theorem w30_keep12 (W : Valuation τ sig (Elt F)) :
    after w30 W (Proc.devRef .tc main_v459) = W (Proc.devRef .tc main_v459) := by
  unfold w30 f30_0; after_results_simp
theorem w30_keep13 (W : Valuation τ sig (Elt F)) :
    after w30 W (Proc.devRef .tc main_v496) = W (Proc.devRef .tc main_v496) := by
  unfold w30 f30_0; after_results_simp
theorem w30_keep14 (W : Valuation τ sig (Elt F)) :
    after w30 W (Proc.devRef .tc main_v533) = W (Proc.devRef .tc main_v533) := by
  unfold w30 f30_0; after_results_simp
theorem w30_keep15 (W : Valuation τ sig (Elt F)) :
    after w30 W (Proc.devRef .tc main_v570) = W (Proc.devRef .tc main_v570) := by
  unfold w30 f30_0; after_results_simp
theorem w30_keep16 (W : Valuation τ sig (Elt F)) :
    after w30 W (Proc.devRef .tc main_v607) = W (Proc.devRef .tc main_v607) := by
  unfold w30 f30_0; after_results_simp
theorem w30_keep17 (W : Valuation τ sig (Elt F)) :
    after w30 W (Proc.devRef .tc main_v644) = W (Proc.devRef .tc main_v644) := by
  unfold w30 f30_0; after_results_simp
theorem w30_keep18 (W : Valuation τ sig (Elt F)) :
    after w30 W (Proc.devRef .tc main_v681) = W (Proc.devRef .tc main_v681) := by
  unfold w30 f30_0; after_results_simp
theorem w30_keep19 (W : Valuation τ sig (Elt F)) :
    after w30 W (Proc.devRef .tc main_v718) = W (Proc.devRef .tc main_v718) := by
  unfold w30 f30_0; after_results_simp
theorem w30_keep20 (W : Valuation τ sig (Elt F)) :
    after w30 W (Proc.devRef .tc main_v755) = W (Proc.devRef .tc main_v755) := by
  unfold w30 f30_0; after_results_simp
theorem w30_keep21 (W : Valuation τ sig (Elt F)) :
    after w30 W (Proc.devRef .tc main_v792) = W (Proc.devRef .tc main_v792) := by
  unfold w30 f30_0; after_results_simp
theorem w30_keep22 (W : Valuation τ sig (Elt F)) :
    after w30 W (Proc.devRef .tc main_v829) = W (Proc.devRef .tc main_v829) := by
  unfold w30 f30_0; after_results_simp
theorem w30_keep23 (W : Valuation τ sig (Elt F)) :
    after w30 W (Proc.devRef .tc main_v866) = W (Proc.devRef .tc main_v866) := by
  unfold w30 f30_0; after_results_simp
theorem w30_keep24 (W : Valuation τ sig (Elt F)) :
    after w30 W (Proc.devRef .tc main_v903) = W (Proc.devRef .tc main_v903) := by
  unfold w30 f30_0; after_results_simp
theorem w30_keep25 (W : Valuation τ sig (Elt F)) :
    after w30 W (Proc.devRef .tc main_v940) = W (Proc.devRef .tc main_v940) := by
  unfold w30 f30_0; after_results_simp
theorem w30_keep26 (W : Valuation τ sig (Elt F)) :
    after w30 W (Proc.devRef .tc main_v977) = W (Proc.devRef .tc main_v977) := by
  unfold w30 f30_0; after_results_simp
theorem w30_keep27 (W : Valuation τ sig (Elt F)) :
    after w30 W (Proc.devRef .tc main_v1014) = W (Proc.devRef .tc main_v1014) := by
  unfold w30 f30_0; after_results_simp
theorem w30_keep28 (W : Valuation τ sig (Elt F)) :
    after w30 W (Proc.devRef .tc main_v1051) = W (Proc.devRef .tc main_v1051) := by
  unfold w30 f30_0; after_results_simp
theorem w30_keep29 (W : Valuation τ sig (Elt F)) :
    after w30 W (Proc.devRef .tc main_v1088) = W (Proc.devRef .tc main_v1088) := by
  unfold w30 f30_0; after_results_simp
theorem w30_out (W : Valuation τ sig (Elt F)) :
    after w30 W (Proc.devRef .tc main_v1125) = val_main_v1125 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  unfold w30 f30_0; after_results_simp <;> rfl

/-! ## Component 31 -/

theorem w31_arg0 (W : Valuation τ sig (Elt F)) :
    after w31 W (Proc.devRef .tc main_arg0) = W (Proc.devRef .tc main_arg0) := by
  unfold w31; rw [after_append]; unfold f31_0 f31_1; after_results_simp
theorem w31_arg1 (W : Valuation τ sig (Elt F)) :
    after w31 W (Proc.devRef .tc main_arg1) = W (Proc.devRef .tc main_arg1) := by
  unfold w31; rw [after_append]; unfold f31_0 f31_1; after_results_simp
theorem w31_arg2 (W : Valuation τ sig (Elt F)) :
    after w31 W (Proc.devRef .tc main_arg2) = W (Proc.devRef .tc main_arg2) := by
  unfold w31; rw [after_append]; unfold f31_0 f31_1; after_results_simp
theorem w31_arg3 (W : Valuation τ sig (Elt F)) :
    after w31 W (Proc.devRef .tc main_arg3) = W (Proc.devRef .tc main_arg3) := by
  unfold w31; rw [after_append]; unfold f31_0 f31_1; after_results_simp
theorem w31_arg4 (W : Valuation τ sig (Elt F)) :
    after w31 W (Proc.devRef .tc main_arg4) = W (Proc.devRef .tc main_arg4) := by
  unfold w31; rw [after_append]; unfold f31_0 f31_1; after_results_simp
theorem w31_arg5 (W : Valuation τ sig (Elt F)) :
    after w31 W (Proc.devRef .tc main_arg5) = W (Proc.devRef .tc main_arg5) := by
  unfold w31; rw [after_append]; unfold f31_0 f31_1; after_results_simp
theorem w31_arg6 (W : Valuation τ sig (Elt F)) :
    after w31 W (Proc.devRef .tc main_arg6) = W (Proc.devRef .tc main_arg6) := by
  unfold w31; rw [after_append]; unfold f31_0 f31_1; after_results_simp
theorem w31_keep0 (W : Valuation τ sig (Elt F)) :
    after w31 W (Proc.devRef .tc main_v15) = W (Proc.devRef .tc main_v15) := by
  unfold w31; rw [after_append]; unfold f31_0 f31_1; after_results_simp
theorem w31_keep1 (W : Valuation τ sig (Elt F)) :
    after w31 W (Proc.devRef .tc main_v52) = W (Proc.devRef .tc main_v52) := by
  unfold w31; rw [after_append]; unfold f31_0 f31_1; after_results_simp
theorem w31_keep2 (W : Valuation τ sig (Elt F)) :
    after w31 W (Proc.devRef .tc main_v89) = W (Proc.devRef .tc main_v89) := by
  unfold w31; rw [after_append]; unfold f31_0 f31_1; after_results_simp
theorem w31_keep3 (W : Valuation τ sig (Elt F)) :
    after w31 W (Proc.devRef .tc main_v126) = W (Proc.devRef .tc main_v126) := by
  unfold w31; rw [after_append]; unfold f31_0 f31_1; after_results_simp
theorem w31_keep4 (W : Valuation τ sig (Elt F)) :
    after w31 W (Proc.devRef .tc main_v163) = W (Proc.devRef .tc main_v163) := by
  unfold w31; rw [after_append]; unfold f31_0 f31_1; after_results_simp
theorem w31_keep5 (W : Valuation τ sig (Elt F)) :
    after w31 W (Proc.devRef .tc main_v200) = W (Proc.devRef .tc main_v200) := by
  unfold w31; rw [after_append]; unfold f31_0 f31_1; after_results_simp
theorem w31_keep6 (W : Valuation τ sig (Elt F)) :
    after w31 W (Proc.devRef .tc main_v237) = W (Proc.devRef .tc main_v237) := by
  unfold w31; rw [after_append]; unfold f31_0 f31_1; after_results_simp
theorem w31_keep7 (W : Valuation τ sig (Elt F)) :
    after w31 W (Proc.devRef .tc main_v274) = W (Proc.devRef .tc main_v274) := by
  unfold w31; rw [after_append]; unfold f31_0 f31_1; after_results_simp
theorem w31_keep8 (W : Valuation τ sig (Elt F)) :
    after w31 W (Proc.devRef .tc main_v311) = W (Proc.devRef .tc main_v311) := by
  unfold w31; rw [after_append]; unfold f31_0 f31_1; after_results_simp
theorem w31_keep9 (W : Valuation τ sig (Elt F)) :
    after w31 W (Proc.devRef .tc main_v348) = W (Proc.devRef .tc main_v348) := by
  unfold w31; rw [after_append]; unfold f31_0 f31_1; after_results_simp
theorem w31_keep10 (W : Valuation τ sig (Elt F)) :
    after w31 W (Proc.devRef .tc main_v385) = W (Proc.devRef .tc main_v385) := by
  unfold w31; rw [after_append]; unfold f31_0 f31_1; after_results_simp
theorem w31_keep11 (W : Valuation τ sig (Elt F)) :
    after w31 W (Proc.devRef .tc main_v422) = W (Proc.devRef .tc main_v422) := by
  unfold w31; rw [after_append]; unfold f31_0 f31_1; after_results_simp
theorem w31_keep12 (W : Valuation τ sig (Elt F)) :
    after w31 W (Proc.devRef .tc main_v459) = W (Proc.devRef .tc main_v459) := by
  unfold w31; rw [after_append]; unfold f31_0 f31_1; after_results_simp
theorem w31_keep13 (W : Valuation τ sig (Elt F)) :
    after w31 W (Proc.devRef .tc main_v496) = W (Proc.devRef .tc main_v496) := by
  unfold w31; rw [after_append]; unfold f31_0 f31_1; after_results_simp
theorem w31_keep14 (W : Valuation τ sig (Elt F)) :
    after w31 W (Proc.devRef .tc main_v533) = W (Proc.devRef .tc main_v533) := by
  unfold w31; rw [after_append]; unfold f31_0 f31_1; after_results_simp
theorem w31_keep15 (W : Valuation τ sig (Elt F)) :
    after w31 W (Proc.devRef .tc main_v570) = W (Proc.devRef .tc main_v570) := by
  unfold w31; rw [after_append]; unfold f31_0 f31_1; after_results_simp
theorem w31_keep16 (W : Valuation τ sig (Elt F)) :
    after w31 W (Proc.devRef .tc main_v607) = W (Proc.devRef .tc main_v607) := by
  unfold w31; rw [after_append]; unfold f31_0 f31_1; after_results_simp
theorem w31_keep17 (W : Valuation τ sig (Elt F)) :
    after w31 W (Proc.devRef .tc main_v644) = W (Proc.devRef .tc main_v644) := by
  unfold w31; rw [after_append]; unfold f31_0 f31_1; after_results_simp
theorem w31_keep18 (W : Valuation τ sig (Elt F)) :
    after w31 W (Proc.devRef .tc main_v681) = W (Proc.devRef .tc main_v681) := by
  unfold w31; rw [after_append]; unfold f31_0 f31_1; after_results_simp
theorem w31_keep19 (W : Valuation τ sig (Elt F)) :
    after w31 W (Proc.devRef .tc main_v718) = W (Proc.devRef .tc main_v718) := by
  unfold w31; rw [after_append]; unfold f31_0 f31_1; after_results_simp
theorem w31_keep20 (W : Valuation τ sig (Elt F)) :
    after w31 W (Proc.devRef .tc main_v755) = W (Proc.devRef .tc main_v755) := by
  unfold w31; rw [after_append]; unfold f31_0 f31_1; after_results_simp
theorem w31_keep21 (W : Valuation τ sig (Elt F)) :
    after w31 W (Proc.devRef .tc main_v792) = W (Proc.devRef .tc main_v792) := by
  unfold w31; rw [after_append]; unfold f31_0 f31_1; after_results_simp
theorem w31_keep22 (W : Valuation τ sig (Elt F)) :
    after w31 W (Proc.devRef .tc main_v829) = W (Proc.devRef .tc main_v829) := by
  unfold w31; rw [after_append]; unfold f31_0 f31_1; after_results_simp
theorem w31_keep23 (W : Valuation τ sig (Elt F)) :
    after w31 W (Proc.devRef .tc main_v866) = W (Proc.devRef .tc main_v866) := by
  unfold w31; rw [after_append]; unfold f31_0 f31_1; after_results_simp
theorem w31_keep24 (W : Valuation τ sig (Elt F)) :
    after w31 W (Proc.devRef .tc main_v903) = W (Proc.devRef .tc main_v903) := by
  unfold w31; rw [after_append]; unfold f31_0 f31_1; after_results_simp
theorem w31_keep25 (W : Valuation τ sig (Elt F)) :
    after w31 W (Proc.devRef .tc main_v940) = W (Proc.devRef .tc main_v940) := by
  unfold w31; rw [after_append]; unfold f31_0 f31_1; after_results_simp
theorem w31_keep26 (W : Valuation τ sig (Elt F)) :
    after w31 W (Proc.devRef .tc main_v977) = W (Proc.devRef .tc main_v977) := by
  unfold w31; rw [after_append]; unfold f31_0 f31_1; after_results_simp
theorem w31_keep27 (W : Valuation τ sig (Elt F)) :
    after w31 W (Proc.devRef .tc main_v1014) = W (Proc.devRef .tc main_v1014) := by
  unfold w31; rw [after_append]; unfold f31_0 f31_1; after_results_simp
theorem w31_keep28 (W : Valuation τ sig (Elt F)) :
    after w31 W (Proc.devRef .tc main_v1051) = W (Proc.devRef .tc main_v1051) := by
  unfold w31; rw [after_append]; unfold f31_0 f31_1; after_results_simp
theorem w31_keep29 (W : Valuation τ sig (Elt F)) :
    after w31 W (Proc.devRef .tc main_v1088) = W (Proc.devRef .tc main_v1088) := by
  unfold w31; rw [after_append]; unfold f31_0 f31_1; after_results_simp
theorem w31_keep30 (W : Valuation τ sig (Elt F)) :
    after w31 W (Proc.devRef .tc main_v1125) = W (Proc.devRef .tc main_v1125) := by
  unfold w31; rw [after_append]; unfold f31_0 f31_1; after_results_simp
theorem w31_out (W : Valuation τ sig (Elt F)) :
    after w31 W (Proc.devRef .tc main_v1162) = val_main_v1162 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  unfold w31; rw [after_append]; unfold f31_0 f31_1; after_results_simp <;> rfl

/-! ## The three concatenations -/

theorem wT_arg0 (W : Valuation τ sig (Elt F)) :
    after wT W (Proc.devRef .tc main_arg0) = W (Proc.devRef .tc main_arg0) := by
  unfold wT fT_0; after_results_simp
theorem wT_arg1 (W : Valuation τ sig (Elt F)) :
    after wT W (Proc.devRef .tc main_arg1) = W (Proc.devRef .tc main_arg1) := by
  unfold wT fT_0; after_results_simp
theorem wT_arg2 (W : Valuation τ sig (Elt F)) :
    after wT W (Proc.devRef .tc main_arg2) = W (Proc.devRef .tc main_arg2) := by
  unfold wT fT_0; after_results_simp
theorem wT_arg3 (W : Valuation τ sig (Elt F)) :
    after wT W (Proc.devRef .tc main_arg3) = W (Proc.devRef .tc main_arg3) := by
  unfold wT fT_0; after_results_simp
theorem wT_arg4 (W : Valuation τ sig (Elt F)) :
    after wT W (Proc.devRef .tc main_arg4) = W (Proc.devRef .tc main_arg4) := by
  unfold wT fT_0; after_results_simp
theorem wT_arg5 (W : Valuation τ sig (Elt F)) :
    after wT W (Proc.devRef .tc main_arg5) = W (Proc.devRef .tc main_arg5) := by
  unfold wT fT_0; after_results_simp
theorem wT_arg6 (W : Valuation τ sig (Elt F)) :
    after wT W (Proc.devRef .tc main_arg6) = W (Proc.devRef .tc main_arg6) := by
  unfold wT fT_0; after_results_simp
/-- The concatenations leave the result array at its stage function, once every component's column holds its own. -/
theorem wT_out (W : Valuation τ sig (Elt F))
    (x0 : (⟨S262144x32, .f32⟩ : BufTy).Contents (Elt F)) (x1 : (⟨S32x32x32, .f32⟩ : BufTy).Contents (Elt F))
    (x2 : (⟨S32x32, .f32⟩ : BufTy).Contents (Elt F)) (x3 : (⟨S32x32x32, .f32⟩ : BufTy).Contents (Elt F))
    (x4 : (⟨S32x32, .f32⟩ : BufTy).Contents (Elt F)) (x5 : (⟨S32x32x8, .f32⟩ : BufTy).Contents (Elt F))
    (x6 : (⟨S32x8, .f32⟩ : BufTy).Contents (Elt F))
    (h0 : W (Proc.devRef .tc main_v15) = val_main_v15 (F := F) x0 x5 x6)
    (h1 : W (Proc.devRef .tc main_v52) = val_main_v52 (F := F) x0 x1 x2 x3 x4 x5 x6)
    (h2 : W (Proc.devRef .tc main_v89) = val_main_v89 (F := F) x0 x1 x2 x3 x4 x5 x6)
    (h3 : W (Proc.devRef .tc main_v126) = val_main_v126 (F := F) x0 x1 x2 x3 x4 x5 x6)
    (h4 : W (Proc.devRef .tc main_v163) = val_main_v163 (F := F) x0 x1 x2 x3 x4 x5 x6)
    (h5 : W (Proc.devRef .tc main_v200) = val_main_v200 (F := F) x0 x1 x2 x3 x4 x5 x6)
    (h6 : W (Proc.devRef .tc main_v237) = val_main_v237 (F := F) x0 x1 x2 x3 x4 x5 x6)
    (h7 : W (Proc.devRef .tc main_v274) = val_main_v274 (F := F) x0 x1 x2 x3 x4 x5 x6)
    (h8 : W (Proc.devRef .tc main_v311) = val_main_v311 (F := F) x0 x1 x2 x3 x4 x5 x6)
    (h9 : W (Proc.devRef .tc main_v348) = val_main_v348 (F := F) x0 x1 x2 x3 x4 x5 x6)
    (h10 : W (Proc.devRef .tc main_v385) = val_main_v385 (F := F) x0 x1 x2 x3 x4 x5 x6)
    (h11 : W (Proc.devRef .tc main_v422) = val_main_v422 (F := F) x0 x1 x2 x3 x4 x5 x6)
    (h12 : W (Proc.devRef .tc main_v459) = val_main_v459 (F := F) x0 x1 x2 x3 x4 x5 x6)
    (h13 : W (Proc.devRef .tc main_v496) = val_main_v496 (F := F) x0 x1 x2 x3 x4 x5 x6)
    (h14 : W (Proc.devRef .tc main_v533) = val_main_v533 (F := F) x0 x1 x2 x3 x4 x5 x6)
    (h15 : W (Proc.devRef .tc main_v570) = val_main_v570 (F := F) x0 x1 x2 x3 x4 x5 x6)
    (h16 : W (Proc.devRef .tc main_v607) = val_main_v607 (F := F) x0 x1 x2 x3 x4 x5 x6)
    (h17 : W (Proc.devRef .tc main_v644) = val_main_v644 (F := F) x0 x1 x2 x3 x4 x5 x6)
    (h18 : W (Proc.devRef .tc main_v681) = val_main_v681 (F := F) x0 x1 x2 x3 x4 x5 x6)
    (h19 : W (Proc.devRef .tc main_v718) = val_main_v718 (F := F) x0 x1 x2 x3 x4 x5 x6)
    (h20 : W (Proc.devRef .tc main_v755) = val_main_v755 (F := F) x0 x1 x2 x3 x4 x5 x6)
    (h21 : W (Proc.devRef .tc main_v792) = val_main_v792 (F := F) x0 x1 x2 x3 x4 x5 x6)
    (h22 : W (Proc.devRef .tc main_v829) = val_main_v829 (F := F) x0 x1 x2 x3 x4 x5 x6)
    (h23 : W (Proc.devRef .tc main_v866) = val_main_v866 (F := F) x0 x1 x2 x3 x4 x5 x6)
    (h24 : W (Proc.devRef .tc main_v903) = val_main_v903 (F := F) x0 x1 x2 x3 x4 x5 x6)
    (h25 : W (Proc.devRef .tc main_v940) = val_main_v940 (F := F) x0 x1 x2 x3 x4 x5 x6)
    (h26 : W (Proc.devRef .tc main_v977) = val_main_v977 (F := F) x0 x1 x2 x3 x4 x5 x6)
    (h27 : W (Proc.devRef .tc main_v1014) = val_main_v1014 (F := F) x0 x1 x2 x3 x4 x5 x6)
    (h28 : W (Proc.devRef .tc main_v1051) = val_main_v1051 (F := F) x0 x1 x2 x3 x4 x5 x6)
    (h29 : W (Proc.devRef .tc main_v1088) = val_main_v1088 (F := F) x0 x1 x2 x3 x4 x5 x6)
    (h30 : W (Proc.devRef .tc main_v1125) = val_main_v1125 (F := F) x0 x1 x2 x3 x4 x5 x6)
    (h31 : W (Proc.devRef .tc main_v1162) = val_main_v1162 (F := F) x0 x1 x2 x3 x4 x5 x6) :
    after wT W (Proc.devRef .tc main_v1165) = val_main_v1165 (F := F) x0 x1 x2 x3 x4 x5 x6 := by
  unfold wT fT_0; after_results_simp
  unfold val_main_v1165 val_main_v1163 val_main_v1164
  rw [← h0, ← h1, ← h2, ← h3, ← h4, ← h5, ← h6, ← h7, ← h8, ← h9, ← h10, ← h11, ← h12, ← h13, ← h14, ← h15, ← h16, ← h17, ← h18, ← h19, ← h20, ← h21, ← h22, ← h23, ← h24, ← h25, ← h26, ← h27, ← h28, ← h29, ← h30, ← h31]
  rfl

end Cert.ReferenceIdeal.RunW

end
-- ==== Proof.RunW.lean ====
/-
  The reference's run, read: it terminates with its result array at the last stage of its operations — a function of the
  seven argument arrays — and the argument arrays unchanged.

  The fold of the whole line is the fold window by window. Read from the outside in: the concatenations join the 32
  result columns; a column, untouched by the later components' windows, is what its own window left — the component's
  stage function of the argument arrays — and the argument arrays reach that window untouched by the earlier ones.
-/
import proofs.«166035_j57586921505191_2_alg».proof.Proof.RunWin
import proofs.«166035_j57586921505191_2_alg».proof.Proof.RW0
import proofs.«166035_j57586921505191_2_alg».proof.Proof.RW1
import proofs.«166035_j57586921505191_2_alg».proof.Proof.RW2
import proofs.«166035_j57586921505191_2_alg».proof.Proof.RW3

noncomputable section

namespace Cert.ReferenceIdeal.RunW

open Cert.ReferenceIdeal Cert.ReferenceIdeal.Gen Idealize.ShloMosaic Idealize.ShloMosaic.TcCoe Idealize.SL.Sem Idealize.ShloMosaic.StableHlo

variable {F : FTy → Type} [FloatOps F]

open Cert.ReferenceIdeal.Read

theorem arg0_kept (V : Valuation τ sig (Elt F)) :
    after opsAll V (Proc.devRef .tc main_arg0) = V (Proc.devRef .tc main_arg0) := by
  unfold opsAll
  simp only [after_append]
  rw [wT_arg0, w31_arg0, w30_arg0, w29_arg0, w28_arg0, w27_arg0, w26_arg0, w25_arg0, w24_arg0, w23_arg0, w22_arg0, w21_arg0, w20_arg0, w19_arg0, w18_arg0, w17_arg0, w16_arg0, w15_arg0, w14_arg0, w13_arg0, w12_arg0, w11_arg0, w10_arg0, w9_arg0, w8_arg0, w7_arg0, w6_arg0, w5_arg0, w4_arg0, w3_arg0, w2_arg0, w1_arg0, w0_arg0]

theorem arg1_kept (V : Valuation τ sig (Elt F)) :
    after opsAll V (Proc.devRef .tc main_arg1) = V (Proc.devRef .tc main_arg1) := by
  unfold opsAll
  simp only [after_append]
  rw [wT_arg1, w31_arg1, w30_arg1, w29_arg1, w28_arg1, w27_arg1, w26_arg1, w25_arg1, w24_arg1, w23_arg1, w22_arg1, w21_arg1, w20_arg1, w19_arg1, w18_arg1, w17_arg1, w16_arg1, w15_arg1, w14_arg1, w13_arg1, w12_arg1, w11_arg1, w10_arg1, w9_arg1, w8_arg1, w7_arg1, w6_arg1, w5_arg1, w4_arg1, w3_arg1, w2_arg1, w1_arg1, w0_arg1]

theorem arg2_kept (V : Valuation τ sig (Elt F)) :
    after opsAll V (Proc.devRef .tc main_arg2) = V (Proc.devRef .tc main_arg2) := by
  unfold opsAll
  simp only [after_append]
  rw [wT_arg2, w31_arg2, w30_arg2, w29_arg2, w28_arg2, w27_arg2, w26_arg2, w25_arg2, w24_arg2, w23_arg2, w22_arg2, w21_arg2, w20_arg2, w19_arg2, w18_arg2, w17_arg2, w16_arg2, w15_arg2, w14_arg2, w13_arg2, w12_arg2, w11_arg2, w10_arg2, w9_arg2, w8_arg2, w7_arg2, w6_arg2, w5_arg2, w4_arg2, w3_arg2, w2_arg2, w1_arg2, w0_arg2]

theorem arg3_kept (V : Valuation τ sig (Elt F)) :
    after opsAll V (Proc.devRef .tc main_arg3) = V (Proc.devRef .tc main_arg3) := by
  unfold opsAll
  simp only [after_append]
  rw [wT_arg3, w31_arg3, w30_arg3, w29_arg3, w28_arg3, w27_arg3, w26_arg3, w25_arg3, w24_arg3, w23_arg3, w22_arg3, w21_arg3, w20_arg3, w19_arg3, w18_arg3, w17_arg3, w16_arg3, w15_arg3, w14_arg3, w13_arg3, w12_arg3, w11_arg3, w10_arg3, w9_arg3, w8_arg3, w7_arg3, w6_arg3, w5_arg3, w4_arg3, w3_arg3, w2_arg3, w1_arg3, w0_arg3]

theorem arg4_kept (V : Valuation τ sig (Elt F)) :
    after opsAll V (Proc.devRef .tc main_arg4) = V (Proc.devRef .tc main_arg4) := by
  unfold opsAll
  simp only [after_append]
  rw [wT_arg4, w31_arg4, w30_arg4, w29_arg4, w28_arg4, w27_arg4, w26_arg4, w25_arg4, w24_arg4, w23_arg4, w22_arg4, w21_arg4, w20_arg4, w19_arg4, w18_arg4, w17_arg4, w16_arg4, w15_arg4, w14_arg4, w13_arg4, w12_arg4, w11_arg4, w10_arg4, w9_arg4, w8_arg4, w7_arg4, w6_arg4, w5_arg4, w4_arg4, w3_arg4, w2_arg4, w1_arg4, w0_arg4]

theorem arg5_kept (V : Valuation τ sig (Elt F)) :
    after opsAll V (Proc.devRef .tc main_arg5) = V (Proc.devRef .tc main_arg5) := by
  unfold opsAll
  simp only [after_append]
  rw [wT_arg5, w31_arg5, w30_arg5, w29_arg5, w28_arg5, w27_arg5, w26_arg5, w25_arg5, w24_arg5, w23_arg5, w22_arg5, w21_arg5, w20_arg5, w19_arg5, w18_arg5, w17_arg5, w16_arg5, w15_arg5, w14_arg5, w13_arg5, w12_arg5, w11_arg5, w10_arg5, w9_arg5, w8_arg5, w7_arg5, w6_arg5, w5_arg5, w4_arg5, w3_arg5, w2_arg5, w1_arg5, w0_arg5]

theorem arg6_kept (V : Valuation τ sig (Elt F)) :
    after opsAll V (Proc.devRef .tc main_arg6) = V (Proc.devRef .tc main_arg6) := by
  unfold opsAll
  simp only [after_append]
  rw [wT_arg6, w31_arg6, w30_arg6, w29_arg6, w28_arg6, w27_arg6, w26_arg6, w25_arg6, w24_arg6, w23_arg6, w22_arg6, w21_arg6, w20_arg6, w19_arg6, w18_arg6, w17_arg6, w16_arg6, w15_arg6, w14_arg6, w13_arg6, w12_arg6, w11_arg6, w10_arg6, w9_arg6, w8_arg6, w7_arg6, w6_arg6, w5_arg6, w4_arg6, w3_arg6, w2_arg6, w1_arg6, w0_arg6]

set_option maxRecDepth 8192 in
set_option maxHeartbeats 40000000 in
/-- The result array after the whole line: the last stage of the operations, of the launch contents of the arguments. -/
theorem result (V : Valuation τ sig (Elt F)) :
    after opsAll V (Proc.devRef .tc main_v1165) = val_main_v1165 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  unfold opsAll
  simp only [after_append]
  refine wT_out _ _ _ _ _ _ _ _ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
  · rw [w31_keep0, w30_keep0, w29_keep0, w28_keep0, w27_keep0, w26_keep0, w25_keep0, w24_keep0, w23_keep0, w22_keep0, w21_keep0, w20_keep0, w19_keep0, w18_keep0, w17_keep0, w16_keep0, w15_keep0, w14_keep0, w13_keep0, w12_keep0, w11_keep0, w10_keep0, w9_keep0, w8_keep0, w7_keep0, w6_keep0, w5_keep0, w4_keep0, w3_keep0, w2_keep0, w1_keep0, w0_out]
  · rw [w31_keep1, w30_keep1, w29_keep1, w28_keep1, w27_keep1, w26_keep1, w25_keep1, w24_keep1, w23_keep1, w22_keep1, w21_keep1, w20_keep1, w19_keep1, w18_keep1, w17_keep1, w16_keep1, w15_keep1, w14_keep1, w13_keep1, w12_keep1, w11_keep1, w10_keep1, w9_keep1, w8_keep1, w7_keep1, w6_keep1, w5_keep1, w4_keep1, w3_keep1, w2_keep1, w1_out, w0_arg0, w0_arg1, w0_arg2, w0_arg3, w0_arg4, w0_arg5, w0_arg6]
  · rw [w31_keep2, w30_keep2, w29_keep2, w28_keep2, w27_keep2, w26_keep2, w25_keep2, w24_keep2, w23_keep2, w22_keep2, w21_keep2, w20_keep2, w19_keep2, w18_keep2, w17_keep2, w16_keep2, w15_keep2, w14_keep2, w13_keep2, w12_keep2, w11_keep2, w10_keep2, w9_keep2, w8_keep2, w7_keep2, w6_keep2, w5_keep2, w4_keep2, w3_keep2, w2_out, w1_arg0, w1_arg1, w1_arg2, w1_arg3, w1_arg4, w1_arg5, w1_arg6, w0_arg0, w0_arg1, w0_arg2, w0_arg3, w0_arg4, w0_arg5, w0_arg6]
  · rw [w31_keep3, w30_keep3, w29_keep3, w28_keep3, w27_keep3, w26_keep3, w25_keep3, w24_keep3, w23_keep3, w22_keep3, w21_keep3, w20_keep3, w19_keep3, w18_keep3, w17_keep3, w16_keep3, w15_keep3, w14_keep3, w13_keep3, w12_keep3, w11_keep3, w10_keep3, w9_keep3, w8_keep3, w7_keep3, w6_keep3, w5_keep3, w4_keep3, w3_out, w2_arg0, w2_arg1, w2_arg2, w2_arg3, w2_arg4, w2_arg5, w2_arg6, w1_arg0, w1_arg1, w1_arg2, w1_arg3, w1_arg4, w1_arg5, w1_arg6, w0_arg0, w0_arg1, w0_arg2, w0_arg3, w0_arg4, w0_arg5, w0_arg6]
  · rw [w31_keep4, w30_keep4, w29_keep4, w28_keep4, w27_keep4, w26_keep4, w25_keep4, w24_keep4, w23_keep4, w22_keep4, w21_keep4, w20_keep4, w19_keep4, w18_keep4, w17_keep4, w16_keep4, w15_keep4, w14_keep4, w13_keep4, w12_keep4, w11_keep4, w10_keep4, w9_keep4, w8_keep4, w7_keep4, w6_keep4, w5_keep4, w4_out, w3_arg0, w3_arg1, w3_arg2, w3_arg3, w3_arg4, w3_arg5, w3_arg6, w2_arg0, w2_arg1, w2_arg2, w2_arg3, w2_arg4, w2_arg5, w2_arg6, w1_arg0, w1_arg1, w1_arg2, w1_arg3, w1_arg4, w1_arg5, w1_arg6, w0_arg0, w0_arg1, w0_arg2, w0_arg3, w0_arg4, w0_arg5, w0_arg6]
  · rw [w31_keep5, w30_keep5, w29_keep5, w28_keep5, w27_keep5, w26_keep5, w25_keep5, w24_keep5, w23_keep5, w22_keep5, w21_keep5, w20_keep5, w19_keep5, w18_keep5, w17_keep5, w16_keep5, w15_keep5, w14_keep5, w13_keep5, w12_keep5, w11_keep5, w10_keep5, w9_keep5, w8_keep5, w7_keep5, w6_keep5, w5_out, w4_arg0, w4_arg1, w4_arg2, w4_arg3, w4_arg4, w4_arg5, w4_arg6, w3_arg0, w3_arg1, w3_arg2, w3_arg3, w3_arg4, w3_arg5, w3_arg6, w2_arg0, w2_arg1, w2_arg2, w2_arg3, w2_arg4, w2_arg5, w2_arg6, w1_arg0, w1_arg1, w1_arg2, w1_arg3, w1_arg4, w1_arg5, w1_arg6, w0_arg0, w0_arg1, w0_arg2, w0_arg3, w0_arg4, w0_arg5, w0_arg6]
  · rw [w31_keep6, w30_keep6, w29_keep6, w28_keep6, w27_keep6, w26_keep6, w25_keep6, w24_keep6, w23_keep6, w22_keep6, w21_keep6, w20_keep6, w19_keep6, w18_keep6, w17_keep6, w16_keep6, w15_keep6, w14_keep6, w13_keep6, w12_keep6, w11_keep6, w10_keep6, w9_keep6, w8_keep6, w7_keep6, w6_out, w5_arg0, w5_arg1, w5_arg2, w5_arg3, w5_arg4, w5_arg5, w5_arg6, w4_arg0, w4_arg1, w4_arg2, w4_arg3, w4_arg4, w4_arg5, w4_arg6, w3_arg0, w3_arg1, w3_arg2, w3_arg3, w3_arg4, w3_arg5, w3_arg6, w2_arg0, w2_arg1, w2_arg2, w2_arg3, w2_arg4, w2_arg5, w2_arg6, w1_arg0, w1_arg1, w1_arg2, w1_arg3, w1_arg4, w1_arg5, w1_arg6, w0_arg0, w0_arg1, w0_arg2, w0_arg3, w0_arg4, w0_arg5, w0_arg6]
  · rw [w31_keep7, w30_keep7, w29_keep7, w28_keep7, w27_keep7, w26_keep7, w25_keep7, w24_keep7, w23_keep7, w22_keep7, w21_keep7, w20_keep7, w19_keep7, w18_keep7, w17_keep7, w16_keep7, w15_keep7, w14_keep7, w13_keep7, w12_keep7, w11_keep7, w10_keep7, w9_keep7, w8_keep7, w7_out, w6_arg0, w6_arg1, w6_arg2, w6_arg3, w6_arg4, w6_arg5, w6_arg6, w5_arg0, w5_arg1, w5_arg2, w5_arg3, w5_arg4, w5_arg5, w5_arg6, w4_arg0, w4_arg1, w4_arg2, w4_arg3, w4_arg4, w4_arg5, w4_arg6, w3_arg0, w3_arg1, w3_arg2, w3_arg3, w3_arg4, w3_arg5, w3_arg6, w2_arg0, w2_arg1, w2_arg2, w2_arg3, w2_arg4, w2_arg5, w2_arg6, w1_arg0, w1_arg1, w1_arg2, w1_arg3, w1_arg4, w1_arg5, w1_arg6, w0_arg0, w0_arg1, w0_arg2, w0_arg3, w0_arg4, w0_arg5, w0_arg6]
  · rw [w31_keep8, w30_keep8, w29_keep8, w28_keep8, w27_keep8, w26_keep8, w25_keep8, w24_keep8, w23_keep8, w22_keep8, w21_keep8, w20_keep8, w19_keep8, w18_keep8, w17_keep8, w16_keep8, w15_keep8, w14_keep8, w13_keep8, w12_keep8, w11_keep8, w10_keep8, w9_keep8, w8_out, w7_arg0, w7_arg1, w7_arg2, w7_arg3, w7_arg4, w7_arg5, w7_arg6, w6_arg0, w6_arg1, w6_arg2, w6_arg3, w6_arg4, w6_arg5, w6_arg6, w5_arg0, w5_arg1, w5_arg2, w5_arg3, w5_arg4, w5_arg5, w5_arg6, w4_arg0, w4_arg1, w4_arg2, w4_arg3, w4_arg4, w4_arg5, w4_arg6, w3_arg0, w3_arg1, w3_arg2, w3_arg3, w3_arg4, w3_arg5, w3_arg6, w2_arg0, w2_arg1, w2_arg2, w2_arg3, w2_arg4, w2_arg5, w2_arg6, w1_arg0, w1_arg1, w1_arg2, w1_arg3, w1_arg4, w1_arg5, w1_arg6, w0_arg0, w0_arg1, w0_arg2, w0_arg3, w0_arg4, w0_arg5, w0_arg6]
  · rw [w31_keep9, w30_keep9, w29_keep9, w28_keep9, w27_keep9, w26_keep9, w25_keep9, w24_keep9, w23_keep9, w22_keep9, w21_keep9, w20_keep9, w19_keep9, w18_keep9, w17_keep9, w16_keep9, w15_keep9, w14_keep9, w13_keep9, w12_keep9, w11_keep9, w10_keep9, w9_out, w8_arg0, w8_arg1, w8_arg2, w8_arg3, w8_arg4, w8_arg5, w8_arg6, w7_arg0, w7_arg1, w7_arg2, w7_arg3, w7_arg4, w7_arg5, w7_arg6, w6_arg0, w6_arg1, w6_arg2, w6_arg3, w6_arg4, w6_arg5, w6_arg6, w5_arg0, w5_arg1, w5_arg2, w5_arg3, w5_arg4, w5_arg5, w5_arg6, w4_arg0, w4_arg1, w4_arg2, w4_arg3, w4_arg4, w4_arg5, w4_arg6, w3_arg0, w3_arg1, w3_arg2, w3_arg3, w3_arg4, w3_arg5, w3_arg6, w2_arg0, w2_arg1, w2_arg2, w2_arg3, w2_arg4, w2_arg5, w2_arg6, w1_arg0, w1_arg1, w1_arg2, w1_arg3, w1_arg4, w1_arg5, w1_arg6, w0_arg0, w0_arg1, w0_arg2, w0_arg3, w0_arg4, w0_arg5, w0_arg6]
  · rw [w31_keep10, w30_keep10, w29_keep10, w28_keep10, w27_keep10, w26_keep10, w25_keep10, w24_keep10, w23_keep10, w22_keep10, w21_keep10, w20_keep10, w19_keep10, w18_keep10, w17_keep10, w16_keep10, w15_keep10, w14_keep10, w13_keep10, w12_keep10, w11_keep10, w10_out, w9_arg0, w9_arg1, w9_arg2, w9_arg3, w9_arg4, w9_arg5, w9_arg6, w8_arg0, w8_arg1, w8_arg2, w8_arg3, w8_arg4, w8_arg5, w8_arg6, w7_arg0, w7_arg1, w7_arg2, w7_arg3, w7_arg4, w7_arg5, w7_arg6, w6_arg0, w6_arg1, w6_arg2, w6_arg3, w6_arg4, w6_arg5, w6_arg6, w5_arg0, w5_arg1, w5_arg2, w5_arg3, w5_arg4, w5_arg5, w5_arg6, w4_arg0, w4_arg1, w4_arg2, w4_arg3, w4_arg4, w4_arg5, w4_arg6, w3_arg0, w3_arg1, w3_arg2, w3_arg3, w3_arg4, w3_arg5, w3_arg6, w2_arg0, w2_arg1, w2_arg2, w2_arg3, w2_arg4, w2_arg5, w2_arg6, w1_arg0, w1_arg1, w1_arg2, w1_arg3, w1_arg4, w1_arg5, w1_arg6, w0_arg0, w0_arg1, w0_arg2, w0_arg3, w0_arg4, w0_arg5, w0_arg6]
  · rw [w31_keep11, w30_keep11, w29_keep11, w28_keep11, w27_keep11, w26_keep11, w25_keep11, w24_keep11, w23_keep11, w22_keep11, w21_keep11, w20_keep11, w19_keep11, w18_keep11, w17_keep11, w16_keep11, w15_keep11, w14_keep11, w13_keep11, w12_keep11, w11_out, w10_arg0, w10_arg1, w10_arg2, w10_arg3, w10_arg4, w10_arg5, w10_arg6, w9_arg0, w9_arg1, w9_arg2, w9_arg3, w9_arg4, w9_arg5, w9_arg6, w8_arg0, w8_arg1, w8_arg2, w8_arg3, w8_arg4, w8_arg5, w8_arg6, w7_arg0, w7_arg1, w7_arg2, w7_arg3, w7_arg4, w7_arg5, w7_arg6, w6_arg0, w6_arg1, w6_arg2, w6_arg3, w6_arg4, w6_arg5, w6_arg6, w5_arg0, w5_arg1, w5_arg2, w5_arg3, w5_arg4, w5_arg5, w5_arg6, w4_arg0, w4_arg1, w4_arg2, w4_arg3, w4_arg4, w4_arg5, w4_arg6, w3_arg0, w3_arg1, w3_arg2, w3_arg3, w3_arg4, w3_arg5, w3_arg6, w2_arg0, w2_arg1, w2_arg2, w2_arg3, w2_arg4, w2_arg5, w2_arg6, w1_arg0, w1_arg1, w1_arg2, w1_arg3, w1_arg4, w1_arg5, w1_arg6, w0_arg0, w0_arg1, w0_arg2, w0_arg3, w0_arg4, w0_arg5, w0_arg6]
  · rw [w31_keep12, w30_keep12, w29_keep12, w28_keep12, w27_keep12, w26_keep12, w25_keep12, w24_keep12, w23_keep12, w22_keep12, w21_keep12, w20_keep12, w19_keep12, w18_keep12, w17_keep12, w16_keep12, w15_keep12, w14_keep12, w13_keep12, w12_out, w11_arg0, w11_arg1, w11_arg2, w11_arg3, w11_arg4, w11_arg5, w11_arg6, w10_arg0, w10_arg1, w10_arg2, w10_arg3, w10_arg4, w10_arg5, w10_arg6, w9_arg0, w9_arg1, w9_arg2, w9_arg3, w9_arg4, w9_arg5, w9_arg6, w8_arg0, w8_arg1, w8_arg2, w8_arg3, w8_arg4, w8_arg5, w8_arg6, w7_arg0, w7_arg1, w7_arg2, w7_arg3, w7_arg4, w7_arg5, w7_arg6, w6_arg0, w6_arg1, w6_arg2, w6_arg3, w6_arg4, w6_arg5, w6_arg6, w5_arg0, w5_arg1, w5_arg2, w5_arg3, w5_arg4, w5_arg5, w5_arg6, w4_arg0, w4_arg1, w4_arg2, w4_arg3, w4_arg4, w4_arg5, w4_arg6, w3_arg0, w3_arg1, w3_arg2, w3_arg3, w3_arg4, w3_arg5, w3_arg6, w2_arg0, w2_arg1, w2_arg2, w2_arg3, w2_arg4, w2_arg5, w2_arg6, w1_arg0, w1_arg1, w1_arg2, w1_arg3, w1_arg4, w1_arg5, w1_arg6, w0_arg0, w0_arg1, w0_arg2, w0_arg3, w0_arg4, w0_arg5, w0_arg6]
  · rw [w31_keep13, w30_keep13, w29_keep13, w28_keep13, w27_keep13, w26_keep13, w25_keep13, w24_keep13, w23_keep13, w22_keep13, w21_keep13, w20_keep13, w19_keep13, w18_keep13, w17_keep13, w16_keep13, w15_keep13, w14_keep13, w13_out, w12_arg0, w12_arg1, w12_arg2, w12_arg3, w12_arg4, w12_arg5, w12_arg6, w11_arg0, w11_arg1, w11_arg2, w11_arg3, w11_arg4, w11_arg5, w11_arg6, w10_arg0, w10_arg1, w10_arg2, w10_arg3, w10_arg4, w10_arg5, w10_arg6, w9_arg0, w9_arg1, w9_arg2, w9_arg3, w9_arg4, w9_arg5, w9_arg6, w8_arg0, w8_arg1, w8_arg2, w8_arg3, w8_arg4, w8_arg5, w8_arg6, w7_arg0, w7_arg1, w7_arg2, w7_arg3, w7_arg4, w7_arg5, w7_arg6, w6_arg0, w6_arg1, w6_arg2, w6_arg3, w6_arg4, w6_arg5, w6_arg6, w5_arg0, w5_arg1, w5_arg2, w5_arg3, w5_arg4, w5_arg5, w5_arg6, w4_arg0, w4_arg1, w4_arg2, w4_arg3, w4_arg4, w4_arg5, w4_arg6, w3_arg0, w3_arg1, w3_arg2, w3_arg3, w3_arg4, w3_arg5, w3_arg6, w2_arg0, w2_arg1, w2_arg2, w2_arg3, w2_arg4, w2_arg5, w2_arg6, w1_arg0, w1_arg1, w1_arg2, w1_arg3, w1_arg4, w1_arg5, w1_arg6, w0_arg0, w0_arg1, w0_arg2, w0_arg3, w0_arg4, w0_arg5, w0_arg6]
  · rw [w31_keep14, w30_keep14, w29_keep14, w28_keep14, w27_keep14, w26_keep14, w25_keep14, w24_keep14, w23_keep14, w22_keep14, w21_keep14, w20_keep14, w19_keep14, w18_keep14, w17_keep14, w16_keep14, w15_keep14, w14_out, w13_arg0, w13_arg1, w13_arg2, w13_arg3, w13_arg4, w13_arg5, w13_arg6, w12_arg0, w12_arg1, w12_arg2, w12_arg3, w12_arg4, w12_arg5, w12_arg6, w11_arg0, w11_arg1, w11_arg2, w11_arg3, w11_arg4, w11_arg5, w11_arg6, w10_arg0, w10_arg1, w10_arg2, w10_arg3, w10_arg4, w10_arg5, w10_arg6, w9_arg0, w9_arg1, w9_arg2, w9_arg3, w9_arg4, w9_arg5, w9_arg6, w8_arg0, w8_arg1, w8_arg2, w8_arg3, w8_arg4, w8_arg5, w8_arg6, w7_arg0, w7_arg1, w7_arg2, w7_arg3, w7_arg4, w7_arg5, w7_arg6, w6_arg0, w6_arg1, w6_arg2, w6_arg3, w6_arg4, w6_arg5, w6_arg6, w5_arg0, w5_arg1, w5_arg2, w5_arg3, w5_arg4, w5_arg5, w5_arg6, w4_arg0, w4_arg1, w4_arg2, w4_arg3, w4_arg4, w4_arg5, w4_arg6, w3_arg0, w3_arg1, w3_arg2, w3_arg3, w3_arg4, w3_arg5, w3_arg6, w2_arg0, w2_arg1, w2_arg2, w2_arg3, w2_arg4, w2_arg5, w2_arg6, w1_arg0, w1_arg1, w1_arg2, w1_arg3, w1_arg4, w1_arg5, w1_arg6, w0_arg0, w0_arg1, w0_arg2, w0_arg3, w0_arg4, w0_arg5, w0_arg6]
  · rw [w31_keep15, w30_keep15, w29_keep15, w28_keep15, w27_keep15, w26_keep15, w25_keep15, w24_keep15, w23_keep15, w22_keep15, w21_keep15, w20_keep15, w19_keep15, w18_keep15, w17_keep15, w16_keep15, w15_out, w14_arg0, w14_arg1, w14_arg2, w14_arg3, w14_arg4, w14_arg5, w14_arg6, w13_arg0, w13_arg1, w13_arg2, w13_arg3, w13_arg4, w13_arg5, w13_arg6, w12_arg0, w12_arg1, w12_arg2, w12_arg3, w12_arg4, w12_arg5, w12_arg6, w11_arg0, w11_arg1, w11_arg2, w11_arg3, w11_arg4, w11_arg5, w11_arg6, w10_arg0, w10_arg1, w10_arg2, w10_arg3, w10_arg4, w10_arg5, w10_arg6, w9_arg0, w9_arg1, w9_arg2, w9_arg3, w9_arg4, w9_arg5, w9_arg6, w8_arg0, w8_arg1, w8_arg2, w8_arg3, w8_arg4, w8_arg5, w8_arg6, w7_arg0, w7_arg1, w7_arg2, w7_arg3, w7_arg4, w7_arg5, w7_arg6, w6_arg0, w6_arg1, w6_arg2, w6_arg3, w6_arg4, w6_arg5, w6_arg6, w5_arg0, w5_arg1, w5_arg2, w5_arg3, w5_arg4, w5_arg5, w5_arg6, w4_arg0, w4_arg1, w4_arg2, w4_arg3, w4_arg4, w4_arg5, w4_arg6, w3_arg0, w3_arg1, w3_arg2, w3_arg3, w3_arg4, w3_arg5, w3_arg6, w2_arg0, w2_arg1, w2_arg2, w2_arg3, w2_arg4, w2_arg5, w2_arg6, w1_arg0, w1_arg1, w1_arg2, w1_arg3, w1_arg4, w1_arg5, w1_arg6, w0_arg0, w0_arg1, w0_arg2, w0_arg3, w0_arg4, w0_arg5, w0_arg6]
  · rw [w31_keep16, w30_keep16, w29_keep16, w28_keep16, w27_keep16, w26_keep16, w25_keep16, w24_keep16, w23_keep16, w22_keep16, w21_keep16, w20_keep16, w19_keep16, w18_keep16, w17_keep16, w16_out, w15_arg0, w15_arg1, w15_arg2, w15_arg3, w15_arg4, w15_arg5, w15_arg6, w14_arg0, w14_arg1, w14_arg2, w14_arg3, w14_arg4, w14_arg5, w14_arg6, w13_arg0, w13_arg1, w13_arg2, w13_arg3, w13_arg4, w13_arg5, w13_arg6, w12_arg0, w12_arg1, w12_arg2, w12_arg3, w12_arg4, w12_arg5, w12_arg6, w11_arg0, w11_arg1, w11_arg2, w11_arg3, w11_arg4, w11_arg5, w11_arg6, w10_arg0, w10_arg1, w10_arg2, w10_arg3, w10_arg4, w10_arg5, w10_arg6, w9_arg0, w9_arg1, w9_arg2, w9_arg3, w9_arg4, w9_arg5, w9_arg6, w8_arg0, w8_arg1, w8_arg2, w8_arg3, w8_arg4, w8_arg5, w8_arg6, w7_arg0, w7_arg1, w7_arg2, w7_arg3, w7_arg4, w7_arg5, w7_arg6, w6_arg0, w6_arg1, w6_arg2, w6_arg3, w6_arg4, w6_arg5, w6_arg6, w5_arg0, w5_arg1, w5_arg2, w5_arg3, w5_arg4, w5_arg5, w5_arg6, w4_arg0, w4_arg1, w4_arg2, w4_arg3, w4_arg4, w4_arg5, w4_arg6, w3_arg0, w3_arg1, w3_arg2, w3_arg3, w3_arg4, w3_arg5, w3_arg6, w2_arg0, w2_arg1, w2_arg2, w2_arg3, w2_arg4, w2_arg5, w2_arg6, w1_arg0, w1_arg1, w1_arg2, w1_arg3, w1_arg4, w1_arg5, w1_arg6, w0_arg0, w0_arg1, w0_arg2, w0_arg3, w0_arg4, w0_arg5, w0_arg6]
  · rw [w31_keep17, w30_keep17, w29_keep17, w28_keep17, w27_keep17, w26_keep17, w25_keep17, w24_keep17, w23_keep17, w22_keep17, w21_keep17, w20_keep17, w19_keep17, w18_keep17, w17_out, w16_arg0, w16_arg1, w16_arg2, w16_arg3, w16_arg4, w16_arg5, w16_arg6, w15_arg0, w15_arg1, w15_arg2, w15_arg3, w15_arg4, w15_arg5, w15_arg6, w14_arg0, w14_arg1, w14_arg2, w14_arg3, w14_arg4, w14_arg5, w14_arg6, w13_arg0, w13_arg1, w13_arg2, w13_arg3, w13_arg4, w13_arg5, w13_arg6, w12_arg0, w12_arg1, w12_arg2, w12_arg3, w12_arg4, w12_arg5, w12_arg6, w11_arg0, w11_arg1, w11_arg2, w11_arg3, w11_arg4, w11_arg5, w11_arg6, w10_arg0, w10_arg1, w10_arg2, w10_arg3, w10_arg4, w10_arg5, w10_arg6, w9_arg0, w9_arg1, w9_arg2, w9_arg3, w9_arg4, w9_arg5, w9_arg6, w8_arg0, w8_arg1, w8_arg2, w8_arg3, w8_arg4, w8_arg5, w8_arg6, w7_arg0, w7_arg1, w7_arg2, w7_arg3, w7_arg4, w7_arg5, w7_arg6, w6_arg0, w6_arg1, w6_arg2, w6_arg3, w6_arg4, w6_arg5, w6_arg6, w5_arg0, w5_arg1, w5_arg2, w5_arg3, w5_arg4, w5_arg5, w5_arg6, w4_arg0, w4_arg1, w4_arg2, w4_arg3, w4_arg4, w4_arg5, w4_arg6, w3_arg0, w3_arg1, w3_arg2, w3_arg3, w3_arg4, w3_arg5, w3_arg6, w2_arg0, w2_arg1, w2_arg2, w2_arg3, w2_arg4, w2_arg5, w2_arg6, w1_arg0, w1_arg1, w1_arg2, w1_arg3, w1_arg4, w1_arg5, w1_arg6, w0_arg0, w0_arg1, w0_arg2, w0_arg3, w0_arg4, w0_arg5, w0_arg6]
  · rw [w31_keep18, w30_keep18, w29_keep18, w28_keep18, w27_keep18, w26_keep18, w25_keep18, w24_keep18, w23_keep18, w22_keep18, w21_keep18, w20_keep18, w19_keep18, w18_out, w17_arg0, w17_arg1, w17_arg2, w17_arg3, w17_arg4, w17_arg5, w17_arg6, w16_arg0, w16_arg1, w16_arg2, w16_arg3, w16_arg4, w16_arg5, w16_arg6, w15_arg0, w15_arg1, w15_arg2, w15_arg3, w15_arg4, w15_arg5, w15_arg6, w14_arg0, w14_arg1, w14_arg2, w14_arg3, w14_arg4, w14_arg5, w14_arg6, w13_arg0, w13_arg1, w13_arg2, w13_arg3, w13_arg4, w13_arg5, w13_arg6, w12_arg0, w12_arg1, w12_arg2, w12_arg3, w12_arg4, w12_arg5, w12_arg6, w11_arg0, w11_arg1, w11_arg2, w11_arg3, w11_arg4, w11_arg5, w11_arg6, w10_arg0, w10_arg1, w10_arg2, w10_arg3, w10_arg4, w10_arg5, w10_arg6, w9_arg0, w9_arg1, w9_arg2, w9_arg3, w9_arg4, w9_arg5, w9_arg6, w8_arg0, w8_arg1, w8_arg2, w8_arg3, w8_arg4, w8_arg5, w8_arg6, w7_arg0, w7_arg1, w7_arg2, w7_arg3, w7_arg4, w7_arg5, w7_arg6, w6_arg0, w6_arg1, w6_arg2, w6_arg3, w6_arg4, w6_arg5, w6_arg6, w5_arg0, w5_arg1, w5_arg2, w5_arg3, w5_arg4, w5_arg5, w5_arg6, w4_arg0, w4_arg1, w4_arg2, w4_arg3, w4_arg4, w4_arg5, w4_arg6, w3_arg0, w3_arg1, w3_arg2, w3_arg3, w3_arg4, w3_arg5, w3_arg6, w2_arg0, w2_arg1, w2_arg2, w2_arg3, w2_arg4, w2_arg5, w2_arg6, w1_arg0, w1_arg1, w1_arg2, w1_arg3, w1_arg4, w1_arg5, w1_arg6, w0_arg0, w0_arg1, w0_arg2, w0_arg3, w0_arg4, w0_arg5, w0_arg6]
  · rw [w31_keep19, w30_keep19, w29_keep19, w28_keep19, w27_keep19, w26_keep19, w25_keep19, w24_keep19, w23_keep19, w22_keep19, w21_keep19, w20_keep19, w19_out, w18_arg0, w18_arg1, w18_arg2, w18_arg3, w18_arg4, w18_arg5, w18_arg6, w17_arg0, w17_arg1, w17_arg2, w17_arg3, w17_arg4, w17_arg5, w17_arg6, w16_arg0, w16_arg1, w16_arg2, w16_arg3, w16_arg4, w16_arg5, w16_arg6, w15_arg0, w15_arg1, w15_arg2, w15_arg3, w15_arg4, w15_arg5, w15_arg6, w14_arg0, w14_arg1, w14_arg2, w14_arg3, w14_arg4, w14_arg5, w14_arg6, w13_arg0, w13_arg1, w13_arg2, w13_arg3, w13_arg4, w13_arg5, w13_arg6, w12_arg0, w12_arg1, w12_arg2, w12_arg3, w12_arg4, w12_arg5, w12_arg6, w11_arg0, w11_arg1, w11_arg2, w11_arg3, w11_arg4, w11_arg5, w11_arg6, w10_arg0, w10_arg1, w10_arg2, w10_arg3, w10_arg4, w10_arg5, w10_arg6, w9_arg0, w9_arg1, w9_arg2, w9_arg3, w9_arg4, w9_arg5, w9_arg6, w8_arg0, w8_arg1, w8_arg2, w8_arg3, w8_arg4, w8_arg5, w8_arg6, w7_arg0, w7_arg1, w7_arg2, w7_arg3, w7_arg4, w7_arg5, w7_arg6, w6_arg0, w6_arg1, w6_arg2, w6_arg3, w6_arg4, w6_arg5, w6_arg6, w5_arg0, w5_arg1, w5_arg2, w5_arg3, w5_arg4, w5_arg5, w5_arg6, w4_arg0, w4_arg1, w4_arg2, w4_arg3, w4_arg4, w4_arg5, w4_arg6, w3_arg0, w3_arg1, w3_arg2, w3_arg3, w3_arg4, w3_arg5, w3_arg6, w2_arg0, w2_arg1, w2_arg2, w2_arg3, w2_arg4, w2_arg5, w2_arg6, w1_arg0, w1_arg1, w1_arg2, w1_arg3, w1_arg4, w1_arg5, w1_arg6, w0_arg0, w0_arg1, w0_arg2, w0_arg3, w0_arg4, w0_arg5, w0_arg6]
  · rw [w31_keep20, w30_keep20, w29_keep20, w28_keep20, w27_keep20, w26_keep20, w25_keep20, w24_keep20, w23_keep20, w22_keep20, w21_keep20, w20_out, w19_arg0, w19_arg1, w19_arg2, w19_arg3, w19_arg4, w19_arg5, w19_arg6, w18_arg0, w18_arg1, w18_arg2, w18_arg3, w18_arg4, w18_arg5, w18_arg6, w17_arg0, w17_arg1, w17_arg2, w17_arg3, w17_arg4, w17_arg5, w17_arg6, w16_arg0, w16_arg1, w16_arg2, w16_arg3, w16_arg4, w16_arg5, w16_arg6, w15_arg0, w15_arg1, w15_arg2, w15_arg3, w15_arg4, w15_arg5, w15_arg6, w14_arg0, w14_arg1, w14_arg2, w14_arg3, w14_arg4, w14_arg5, w14_arg6, w13_arg0, w13_arg1, w13_arg2, w13_arg3, w13_arg4, w13_arg5, w13_arg6, w12_arg0, w12_arg1, w12_arg2, w12_arg3, w12_arg4, w12_arg5, w12_arg6, w11_arg0, w11_arg1, w11_arg2, w11_arg3, w11_arg4, w11_arg5, w11_arg6, w10_arg0, w10_arg1, w10_arg2, w10_arg3, w10_arg4, w10_arg5, w10_arg6, w9_arg0, w9_arg1, w9_arg2, w9_arg3, w9_arg4, w9_arg5, w9_arg6, w8_arg0, w8_arg1, w8_arg2, w8_arg3, w8_arg4, w8_arg5, w8_arg6, w7_arg0, w7_arg1, w7_arg2, w7_arg3, w7_arg4, w7_arg5, w7_arg6, w6_arg0, w6_arg1, w6_arg2, w6_arg3, w6_arg4, w6_arg5, w6_arg6, w5_arg0, w5_arg1, w5_arg2, w5_arg3, w5_arg4, w5_arg5, w5_arg6, w4_arg0, w4_arg1, w4_arg2, w4_arg3, w4_arg4, w4_arg5, w4_arg6, w3_arg0, w3_arg1, w3_arg2, w3_arg3, w3_arg4, w3_arg5, w3_arg6, w2_arg0, w2_arg1, w2_arg2, w2_arg3, w2_arg4, w2_arg5, w2_arg6, w1_arg0, w1_arg1, w1_arg2, w1_arg3, w1_arg4, w1_arg5, w1_arg6, w0_arg0, w0_arg1, w0_arg2, w0_arg3, w0_arg4, w0_arg5, w0_arg6]
  · rw [w31_keep21, w30_keep21, w29_keep21, w28_keep21, w27_keep21, w26_keep21, w25_keep21, w24_keep21, w23_keep21, w22_keep21, w21_out, w20_arg0, w20_arg1, w20_arg2, w20_arg3, w20_arg4, w20_arg5, w20_arg6, w19_arg0, w19_arg1, w19_arg2, w19_arg3, w19_arg4, w19_arg5, w19_arg6, w18_arg0, w18_arg1, w18_arg2, w18_arg3, w18_arg4, w18_arg5, w18_arg6, w17_arg0, w17_arg1, w17_arg2, w17_arg3, w17_arg4, w17_arg5, w17_arg6, w16_arg0, w16_arg1, w16_arg2, w16_arg3, w16_arg4, w16_arg5, w16_arg6, w15_arg0, w15_arg1, w15_arg2, w15_arg3, w15_arg4, w15_arg5, w15_arg6, w14_arg0, w14_arg1, w14_arg2, w14_arg3, w14_arg4, w14_arg5, w14_arg6, w13_arg0, w13_arg1, w13_arg2, w13_arg3, w13_arg4, w13_arg5, w13_arg6, w12_arg0, w12_arg1, w12_arg2, w12_arg3, w12_arg4, w12_arg5, w12_arg6, w11_arg0, w11_arg1, w11_arg2, w11_arg3, w11_arg4, w11_arg5, w11_arg6, w10_arg0, w10_arg1, w10_arg2, w10_arg3, w10_arg4, w10_arg5, w10_arg6, w9_arg0, w9_arg1, w9_arg2, w9_arg3, w9_arg4, w9_arg5, w9_arg6, w8_arg0, w8_arg1, w8_arg2, w8_arg3, w8_arg4, w8_arg5, w8_arg6, w7_arg0, w7_arg1, w7_arg2, w7_arg3, w7_arg4, w7_arg5, w7_arg6, w6_arg0, w6_arg1, w6_arg2, w6_arg3, w6_arg4, w6_arg5, w6_arg6, w5_arg0, w5_arg1, w5_arg2, w5_arg3, w5_arg4, w5_arg5, w5_arg6, w4_arg0, w4_arg1, w4_arg2, w4_arg3, w4_arg4, w4_arg5, w4_arg6, w3_arg0, w3_arg1, w3_arg2, w3_arg3, w3_arg4, w3_arg5, w3_arg6, w2_arg0, w2_arg1, w2_arg2, w2_arg3, w2_arg4, w2_arg5, w2_arg6, w1_arg0, w1_arg1, w1_arg2, w1_arg3, w1_arg4, w1_arg5, w1_arg6, w0_arg0, w0_arg1, w0_arg2, w0_arg3, w0_arg4, w0_arg5, w0_arg6]
  · rw [w31_keep22, w30_keep22, w29_keep22, w28_keep22, w27_keep22, w26_keep22, w25_keep22, w24_keep22, w23_keep22, w22_out, w21_arg0, w21_arg1, w21_arg2, w21_arg3, w21_arg4, w21_arg5, w21_arg6, w20_arg0, w20_arg1, w20_arg2, w20_arg3, w20_arg4, w20_arg5, w20_arg6, w19_arg0, w19_arg1, w19_arg2, w19_arg3, w19_arg4, w19_arg5, w19_arg6, w18_arg0, w18_arg1, w18_arg2, w18_arg3, w18_arg4, w18_arg5, w18_arg6, w17_arg0, w17_arg1, w17_arg2, w17_arg3, w17_arg4, w17_arg5, w17_arg6, w16_arg0, w16_arg1, w16_arg2, w16_arg3, w16_arg4, w16_arg5, w16_arg6, w15_arg0, w15_arg1, w15_arg2, w15_arg3, w15_arg4, w15_arg5, w15_arg6, w14_arg0, w14_arg1, w14_arg2, w14_arg3, w14_arg4, w14_arg5, w14_arg6, w13_arg0, w13_arg1, w13_arg2, w13_arg3, w13_arg4, w13_arg5, w13_arg6, w12_arg0, w12_arg1, w12_arg2, w12_arg3, w12_arg4, w12_arg5, w12_arg6, w11_arg0, w11_arg1, w11_arg2, w11_arg3, w11_arg4, w11_arg5, w11_arg6, w10_arg0, w10_arg1, w10_arg2, w10_arg3, w10_arg4, w10_arg5, w10_arg6, w9_arg0, w9_arg1, w9_arg2, w9_arg3, w9_arg4, w9_arg5, w9_arg6, w8_arg0, w8_arg1, w8_arg2, w8_arg3, w8_arg4, w8_arg5, w8_arg6, w7_arg0, w7_arg1, w7_arg2, w7_arg3, w7_arg4, w7_arg5, w7_arg6, w6_arg0, w6_arg1, w6_arg2, w6_arg3, w6_arg4, w6_arg5, w6_arg6, w5_arg0, w5_arg1, w5_arg2, w5_arg3, w5_arg4, w5_arg5, w5_arg6, w4_arg0, w4_arg1, w4_arg2, w4_arg3, w4_arg4, w4_arg5, w4_arg6, w3_arg0, w3_arg1, w3_arg2, w3_arg3, w3_arg4, w3_arg5, w3_arg6, w2_arg0, w2_arg1, w2_arg2, w2_arg3, w2_arg4, w2_arg5, w2_arg6, w1_arg0, w1_arg1, w1_arg2, w1_arg3, w1_arg4, w1_arg5, w1_arg6, w0_arg0, w0_arg1, w0_arg2, w0_arg3, w0_arg4, w0_arg5, w0_arg6]
  · rw [w31_keep23, w30_keep23, w29_keep23, w28_keep23, w27_keep23, w26_keep23, w25_keep23, w24_keep23, w23_out, w22_arg0, w22_arg1, w22_arg2, w22_arg3, w22_arg4, w22_arg5, w22_arg6, w21_arg0, w21_arg1, w21_arg2, w21_arg3, w21_arg4, w21_arg5, w21_arg6, w20_arg0, w20_arg1, w20_arg2, w20_arg3, w20_arg4, w20_arg5, w20_arg6, w19_arg0, w19_arg1, w19_arg2, w19_arg3, w19_arg4, w19_arg5, w19_arg6, w18_arg0, w18_arg1, w18_arg2, w18_arg3, w18_arg4, w18_arg5, w18_arg6, w17_arg0, w17_arg1, w17_arg2, w17_arg3, w17_arg4, w17_arg5, w17_arg6, w16_arg0, w16_arg1, w16_arg2, w16_arg3, w16_arg4, w16_arg5, w16_arg6, w15_arg0, w15_arg1, w15_arg2, w15_arg3, w15_arg4, w15_arg5, w15_arg6, w14_arg0, w14_arg1, w14_arg2, w14_arg3, w14_arg4, w14_arg5, w14_arg6, w13_arg0, w13_arg1, w13_arg2, w13_arg3, w13_arg4, w13_arg5, w13_arg6, w12_arg0, w12_arg1, w12_arg2, w12_arg3, w12_arg4, w12_arg5, w12_arg6, w11_arg0, w11_arg1, w11_arg2, w11_arg3, w11_arg4, w11_arg5, w11_arg6, w10_arg0, w10_arg1, w10_arg2, w10_arg3, w10_arg4, w10_arg5, w10_arg6, w9_arg0, w9_arg1, w9_arg2, w9_arg3, w9_arg4, w9_arg5, w9_arg6, w8_arg0, w8_arg1, w8_arg2, w8_arg3, w8_arg4, w8_arg5, w8_arg6, w7_arg0, w7_arg1, w7_arg2, w7_arg3, w7_arg4, w7_arg5, w7_arg6, w6_arg0, w6_arg1, w6_arg2, w6_arg3, w6_arg4, w6_arg5, w6_arg6, w5_arg0, w5_arg1, w5_arg2, w5_arg3, w5_arg4, w5_arg5, w5_arg6, w4_arg0, w4_arg1, w4_arg2, w4_arg3, w4_arg4, w4_arg5, w4_arg6, w3_arg0, w3_arg1, w3_arg2, w3_arg3, w3_arg4, w3_arg5, w3_arg6, w2_arg0, w2_arg1, w2_arg2, w2_arg3, w2_arg4, w2_arg5, w2_arg6, w1_arg0, w1_arg1, w1_arg2, w1_arg3, w1_arg4, w1_arg5, w1_arg6, w0_arg0, w0_arg1, w0_arg2, w0_arg3, w0_arg4, w0_arg5, w0_arg6]
  · rw [w31_keep24, w30_keep24, w29_keep24, w28_keep24, w27_keep24, w26_keep24, w25_keep24, w24_out, w23_arg0, w23_arg1, w23_arg2, w23_arg3, w23_arg4, w23_arg5, w23_arg6, w22_arg0, w22_arg1, w22_arg2, w22_arg3, w22_arg4, w22_arg5, w22_arg6, w21_arg0, w21_arg1, w21_arg2, w21_arg3, w21_arg4, w21_arg5, w21_arg6, w20_arg0, w20_arg1, w20_arg2, w20_arg3, w20_arg4, w20_arg5, w20_arg6, w19_arg0, w19_arg1, w19_arg2, w19_arg3, w19_arg4, w19_arg5, w19_arg6, w18_arg0, w18_arg1, w18_arg2, w18_arg3, w18_arg4, w18_arg5, w18_arg6, w17_arg0, w17_arg1, w17_arg2, w17_arg3, w17_arg4, w17_arg5, w17_arg6, w16_arg0, w16_arg1, w16_arg2, w16_arg3, w16_arg4, w16_arg5, w16_arg6, w15_arg0, w15_arg1, w15_arg2, w15_arg3, w15_arg4, w15_arg5, w15_arg6, w14_arg0, w14_arg1, w14_arg2, w14_arg3, w14_arg4, w14_arg5, w14_arg6, w13_arg0, w13_arg1, w13_arg2, w13_arg3, w13_arg4, w13_arg5, w13_arg6, w12_arg0, w12_arg1, w12_arg2, w12_arg3, w12_arg4, w12_arg5, w12_arg6, w11_arg0, w11_arg1, w11_arg2, w11_arg3, w11_arg4, w11_arg5, w11_arg6, w10_arg0, w10_arg1, w10_arg2, w10_arg3, w10_arg4, w10_arg5, w10_arg6, w9_arg0, w9_arg1, w9_arg2, w9_arg3, w9_arg4, w9_arg5, w9_arg6, w8_arg0, w8_arg1, w8_arg2, w8_arg3, w8_arg4, w8_arg5, w8_arg6, w7_arg0, w7_arg1, w7_arg2, w7_arg3, w7_arg4, w7_arg5, w7_arg6, w6_arg0, w6_arg1, w6_arg2, w6_arg3, w6_arg4, w6_arg5, w6_arg6, w5_arg0, w5_arg1, w5_arg2, w5_arg3, w5_arg4, w5_arg5, w5_arg6, w4_arg0, w4_arg1, w4_arg2, w4_arg3, w4_arg4, w4_arg5, w4_arg6, w3_arg0, w3_arg1, w3_arg2, w3_arg3, w3_arg4, w3_arg5, w3_arg6, w2_arg0, w2_arg1, w2_arg2, w2_arg3, w2_arg4, w2_arg5, w2_arg6, w1_arg0, w1_arg1, w1_arg2, w1_arg3, w1_arg4, w1_arg5, w1_arg6, w0_arg0, w0_arg1, w0_arg2, w0_arg3, w0_arg4, w0_arg5, w0_arg6]
  · rw [w31_keep25, w30_keep25, w29_keep25, w28_keep25, w27_keep25, w26_keep25, w25_out, w24_arg0, w24_arg1, w24_arg2, w24_arg3, w24_arg4, w24_arg5, w24_arg6, w23_arg0, w23_arg1, w23_arg2, w23_arg3, w23_arg4, w23_arg5, w23_arg6, w22_arg0, w22_arg1, w22_arg2, w22_arg3, w22_arg4, w22_arg5, w22_arg6, w21_arg0, w21_arg1, w21_arg2, w21_arg3, w21_arg4, w21_arg5, w21_arg6, w20_arg0, w20_arg1, w20_arg2, w20_arg3, w20_arg4, w20_arg5, w20_arg6, w19_arg0, w19_arg1, w19_arg2, w19_arg3, w19_arg4, w19_arg5, w19_arg6, w18_arg0, w18_arg1, w18_arg2, w18_arg3, w18_arg4, w18_arg5, w18_arg6, w17_arg0, w17_arg1, w17_arg2, w17_arg3, w17_arg4, w17_arg5, w17_arg6, w16_arg0, w16_arg1, w16_arg2, w16_arg3, w16_arg4, w16_arg5, w16_arg6, w15_arg0, w15_arg1, w15_arg2, w15_arg3, w15_arg4, w15_arg5, w15_arg6, w14_arg0, w14_arg1, w14_arg2, w14_arg3, w14_arg4, w14_arg5, w14_arg6, w13_arg0, w13_arg1, w13_arg2, w13_arg3, w13_arg4, w13_arg5, w13_arg6, w12_arg0, w12_arg1, w12_arg2, w12_arg3, w12_arg4, w12_arg5, w12_arg6, w11_arg0, w11_arg1, w11_arg2, w11_arg3, w11_arg4, w11_arg5, w11_arg6, w10_arg0, w10_arg1, w10_arg2, w10_arg3, w10_arg4, w10_arg5, w10_arg6, w9_arg0, w9_arg1, w9_arg2, w9_arg3, w9_arg4, w9_arg5, w9_arg6, w8_arg0, w8_arg1, w8_arg2, w8_arg3, w8_arg4, w8_arg5, w8_arg6, w7_arg0, w7_arg1, w7_arg2, w7_arg3, w7_arg4, w7_arg5, w7_arg6, w6_arg0, w6_arg1, w6_arg2, w6_arg3, w6_arg4, w6_arg5, w6_arg6, w5_arg0, w5_arg1, w5_arg2, w5_arg3, w5_arg4, w5_arg5, w5_arg6, w4_arg0, w4_arg1, w4_arg2, w4_arg3, w4_arg4, w4_arg5, w4_arg6, w3_arg0, w3_arg1, w3_arg2, w3_arg3, w3_arg4, w3_arg5, w3_arg6, w2_arg0, w2_arg1, w2_arg2, w2_arg3, w2_arg4, w2_arg5, w2_arg6, w1_arg0, w1_arg1, w1_arg2, w1_arg3, w1_arg4, w1_arg5, w1_arg6, w0_arg0, w0_arg1, w0_arg2, w0_arg3, w0_arg4, w0_arg5, w0_arg6]
  · rw [w31_keep26, w30_keep26, w29_keep26, w28_keep26, w27_keep26, w26_out, w25_arg0, w25_arg1, w25_arg2, w25_arg3, w25_arg4, w25_arg5, w25_arg6, w24_arg0, w24_arg1, w24_arg2, w24_arg3, w24_arg4, w24_arg5, w24_arg6, w23_arg0, w23_arg1, w23_arg2, w23_arg3, w23_arg4, w23_arg5, w23_arg6, w22_arg0, w22_arg1, w22_arg2, w22_arg3, w22_arg4, w22_arg5, w22_arg6, w21_arg0, w21_arg1, w21_arg2, w21_arg3, w21_arg4, w21_arg5, w21_arg6, w20_arg0, w20_arg1, w20_arg2, w20_arg3, w20_arg4, w20_arg5, w20_arg6, w19_arg0, w19_arg1, w19_arg2, w19_arg3, w19_arg4, w19_arg5, w19_arg6, w18_arg0, w18_arg1, w18_arg2, w18_arg3, w18_arg4, w18_arg5, w18_arg6, w17_arg0, w17_arg1, w17_arg2, w17_arg3, w17_arg4, w17_arg5, w17_arg6, w16_arg0, w16_arg1, w16_arg2, w16_arg3, w16_arg4, w16_arg5, w16_arg6, w15_arg0, w15_arg1, w15_arg2, w15_arg3, w15_arg4, w15_arg5, w15_arg6, w14_arg0, w14_arg1, w14_arg2, w14_arg3, w14_arg4, w14_arg5, w14_arg6, w13_arg0, w13_arg1, w13_arg2, w13_arg3, w13_arg4, w13_arg5, w13_arg6, w12_arg0, w12_arg1, w12_arg2, w12_arg3, w12_arg4, w12_arg5, w12_arg6, w11_arg0, w11_arg1, w11_arg2, w11_arg3, w11_arg4, w11_arg5, w11_arg6, w10_arg0, w10_arg1, w10_arg2, w10_arg3, w10_arg4, w10_arg5, w10_arg6, w9_arg0, w9_arg1, w9_arg2, w9_arg3, w9_arg4, w9_arg5, w9_arg6, w8_arg0, w8_arg1, w8_arg2, w8_arg3, w8_arg4, w8_arg5, w8_arg6, w7_arg0, w7_arg1, w7_arg2, w7_arg3, w7_arg4, w7_arg5, w7_arg6, w6_arg0, w6_arg1, w6_arg2, w6_arg3, w6_arg4, w6_arg5, w6_arg6, w5_arg0, w5_arg1, w5_arg2, w5_arg3, w5_arg4, w5_arg5, w5_arg6, w4_arg0, w4_arg1, w4_arg2, w4_arg3, w4_arg4, w4_arg5, w4_arg6, w3_arg0, w3_arg1, w3_arg2, w3_arg3, w3_arg4, w3_arg5, w3_arg6, w2_arg0, w2_arg1, w2_arg2, w2_arg3, w2_arg4, w2_arg5, w2_arg6, w1_arg0, w1_arg1, w1_arg2, w1_arg3, w1_arg4, w1_arg5, w1_arg6, w0_arg0, w0_arg1, w0_arg2, w0_arg3, w0_arg4, w0_arg5, w0_arg6]
  · rw [w31_keep27, w30_keep27, w29_keep27, w28_keep27, w27_out, w26_arg0, w26_arg1, w26_arg2, w26_arg3, w26_arg4, w26_arg5, w26_arg6, w25_arg0, w25_arg1, w25_arg2, w25_arg3, w25_arg4, w25_arg5, w25_arg6, w24_arg0, w24_arg1, w24_arg2, w24_arg3, w24_arg4, w24_arg5, w24_arg6, w23_arg0, w23_arg1, w23_arg2, w23_arg3, w23_arg4, w23_arg5, w23_arg6, w22_arg0, w22_arg1, w22_arg2, w22_arg3, w22_arg4, w22_arg5, w22_arg6, w21_arg0, w21_arg1, w21_arg2, w21_arg3, w21_arg4, w21_arg5, w21_arg6, w20_arg0, w20_arg1, w20_arg2, w20_arg3, w20_arg4, w20_arg5, w20_arg6, w19_arg0, w19_arg1, w19_arg2, w19_arg3, w19_arg4, w19_arg5, w19_arg6, w18_arg0, w18_arg1, w18_arg2, w18_arg3, w18_arg4, w18_arg5, w18_arg6, w17_arg0, w17_arg1, w17_arg2, w17_arg3, w17_arg4, w17_arg5, w17_arg6, w16_arg0, w16_arg1, w16_arg2, w16_arg3, w16_arg4, w16_arg5, w16_arg6, w15_arg0, w15_arg1, w15_arg2, w15_arg3, w15_arg4, w15_arg5, w15_arg6, w14_arg0, w14_arg1, w14_arg2, w14_arg3, w14_arg4, w14_arg5, w14_arg6, w13_arg0, w13_arg1, w13_arg2, w13_arg3, w13_arg4, w13_arg5, w13_arg6, w12_arg0, w12_arg1, w12_arg2, w12_arg3, w12_arg4, w12_arg5, w12_arg6, w11_arg0, w11_arg1, w11_arg2, w11_arg3, w11_arg4, w11_arg5, w11_arg6, w10_arg0, w10_arg1, w10_arg2, w10_arg3, w10_arg4, w10_arg5, w10_arg6, w9_arg0, w9_arg1, w9_arg2, w9_arg3, w9_arg4, w9_arg5, w9_arg6, w8_arg0, w8_arg1, w8_arg2, w8_arg3, w8_arg4, w8_arg5, w8_arg6, w7_arg0, w7_arg1, w7_arg2, w7_arg3, w7_arg4, w7_arg5, w7_arg6, w6_arg0, w6_arg1, w6_arg2, w6_arg3, w6_arg4, w6_arg5, w6_arg6, w5_arg0, w5_arg1, w5_arg2, w5_arg3, w5_arg4, w5_arg5, w5_arg6, w4_arg0, w4_arg1, w4_arg2, w4_arg3, w4_arg4, w4_arg5, w4_arg6, w3_arg0, w3_arg1, w3_arg2, w3_arg3, w3_arg4, w3_arg5, w3_arg6, w2_arg0, w2_arg1, w2_arg2, w2_arg3, w2_arg4, w2_arg5, w2_arg6, w1_arg0, w1_arg1, w1_arg2, w1_arg3, w1_arg4, w1_arg5, w1_arg6, w0_arg0, w0_arg1, w0_arg2, w0_arg3, w0_arg4, w0_arg5, w0_arg6]
  · rw [w31_keep28, w30_keep28, w29_keep28, w28_out, w27_arg0, w27_arg1, w27_arg2, w27_arg3, w27_arg4, w27_arg5, w27_arg6, w26_arg0, w26_arg1, w26_arg2, w26_arg3, w26_arg4, w26_arg5, w26_arg6, w25_arg0, w25_arg1, w25_arg2, w25_arg3, w25_arg4, w25_arg5, w25_arg6, w24_arg0, w24_arg1, w24_arg2, w24_arg3, w24_arg4, w24_arg5, w24_arg6, w23_arg0, w23_arg1, w23_arg2, w23_arg3, w23_arg4, w23_arg5, w23_arg6, w22_arg0, w22_arg1, w22_arg2, w22_arg3, w22_arg4, w22_arg5, w22_arg6, w21_arg0, w21_arg1, w21_arg2, w21_arg3, w21_arg4, w21_arg5, w21_arg6, w20_arg0, w20_arg1, w20_arg2, w20_arg3, w20_arg4, w20_arg5, w20_arg6, w19_arg0, w19_arg1, w19_arg2, w19_arg3, w19_arg4, w19_arg5, w19_arg6, w18_arg0, w18_arg1, w18_arg2, w18_arg3, w18_arg4, w18_arg5, w18_arg6, w17_arg0, w17_arg1, w17_arg2, w17_arg3, w17_arg4, w17_arg5, w17_arg6, w16_arg0, w16_arg1, w16_arg2, w16_arg3, w16_arg4, w16_arg5, w16_arg6, w15_arg0, w15_arg1, w15_arg2, w15_arg3, w15_arg4, w15_arg5, w15_arg6, w14_arg0, w14_arg1, w14_arg2, w14_arg3, w14_arg4, w14_arg5, w14_arg6, w13_arg0, w13_arg1, w13_arg2, w13_arg3, w13_arg4, w13_arg5, w13_arg6, w12_arg0, w12_arg1, w12_arg2, w12_arg3, w12_arg4, w12_arg5, w12_arg6, w11_arg0, w11_arg1, w11_arg2, w11_arg3, w11_arg4, w11_arg5, w11_arg6, w10_arg0, w10_arg1, w10_arg2, w10_arg3, w10_arg4, w10_arg5, w10_arg6, w9_arg0, w9_arg1, w9_arg2, w9_arg3, w9_arg4, w9_arg5, w9_arg6, w8_arg0, w8_arg1, w8_arg2, w8_arg3, w8_arg4, w8_arg5, w8_arg6, w7_arg0, w7_arg1, w7_arg2, w7_arg3, w7_arg4, w7_arg5, w7_arg6, w6_arg0, w6_arg1, w6_arg2, w6_arg3, w6_arg4, w6_arg5, w6_arg6, w5_arg0, w5_arg1, w5_arg2, w5_arg3, w5_arg4, w5_arg5, w5_arg6, w4_arg0, w4_arg1, w4_arg2, w4_arg3, w4_arg4, w4_arg5, w4_arg6, w3_arg0, w3_arg1, w3_arg2, w3_arg3, w3_arg4, w3_arg5, w3_arg6, w2_arg0, w2_arg1, w2_arg2, w2_arg3, w2_arg4, w2_arg5, w2_arg6, w1_arg0, w1_arg1, w1_arg2, w1_arg3, w1_arg4, w1_arg5, w1_arg6, w0_arg0, w0_arg1, w0_arg2, w0_arg3, w0_arg4, w0_arg5, w0_arg6]
  · rw [w31_keep29, w30_keep29, w29_out, w28_arg0, w28_arg1, w28_arg2, w28_arg3, w28_arg4, w28_arg5, w28_arg6, w27_arg0, w27_arg1, w27_arg2, w27_arg3, w27_arg4, w27_arg5, w27_arg6, w26_arg0, w26_arg1, w26_arg2, w26_arg3, w26_arg4, w26_arg5, w26_arg6, w25_arg0, w25_arg1, w25_arg2, w25_arg3, w25_arg4, w25_arg5, w25_arg6, w24_arg0, w24_arg1, w24_arg2, w24_arg3, w24_arg4, w24_arg5, w24_arg6, w23_arg0, w23_arg1, w23_arg2, w23_arg3, w23_arg4, w23_arg5, w23_arg6, w22_arg0, w22_arg1, w22_arg2, w22_arg3, w22_arg4, w22_arg5, w22_arg6, w21_arg0, w21_arg1, w21_arg2, w21_arg3, w21_arg4, w21_arg5, w21_arg6, w20_arg0, w20_arg1, w20_arg2, w20_arg3, w20_arg4, w20_arg5, w20_arg6, w19_arg0, w19_arg1, w19_arg2, w19_arg3, w19_arg4, w19_arg5, w19_arg6, w18_arg0, w18_arg1, w18_arg2, w18_arg3, w18_arg4, w18_arg5, w18_arg6, w17_arg0, w17_arg1, w17_arg2, w17_arg3, w17_arg4, w17_arg5, w17_arg6, w16_arg0, w16_arg1, w16_arg2, w16_arg3, w16_arg4, w16_arg5, w16_arg6, w15_arg0, w15_arg1, w15_arg2, w15_arg3, w15_arg4, w15_arg5, w15_arg6, w14_arg0, w14_arg1, w14_arg2, w14_arg3, w14_arg4, w14_arg5, w14_arg6, w13_arg0, w13_arg1, w13_arg2, w13_arg3, w13_arg4, w13_arg5, w13_arg6, w12_arg0, w12_arg1, w12_arg2, w12_arg3, w12_arg4, w12_arg5, w12_arg6, w11_arg0, w11_arg1, w11_arg2, w11_arg3, w11_arg4, w11_arg5, w11_arg6, w10_arg0, w10_arg1, w10_arg2, w10_arg3, w10_arg4, w10_arg5, w10_arg6, w9_arg0, w9_arg1, w9_arg2, w9_arg3, w9_arg4, w9_arg5, w9_arg6, w8_arg0, w8_arg1, w8_arg2, w8_arg3, w8_arg4, w8_arg5, w8_arg6, w7_arg0, w7_arg1, w7_arg2, w7_arg3, w7_arg4, w7_arg5, w7_arg6, w6_arg0, w6_arg1, w6_arg2, w6_arg3, w6_arg4, w6_arg5, w6_arg6, w5_arg0, w5_arg1, w5_arg2, w5_arg3, w5_arg4, w5_arg5, w5_arg6, w4_arg0, w4_arg1, w4_arg2, w4_arg3, w4_arg4, w4_arg5, w4_arg6, w3_arg0, w3_arg1, w3_arg2, w3_arg3, w3_arg4, w3_arg5, w3_arg6, w2_arg0, w2_arg1, w2_arg2, w2_arg3, w2_arg4, w2_arg5, w2_arg6, w1_arg0, w1_arg1, w1_arg2, w1_arg3, w1_arg4, w1_arg5, w1_arg6, w0_arg0, w0_arg1, w0_arg2, w0_arg3, w0_arg4, w0_arg5, w0_arg6]
  · rw [w31_keep30, w30_out, w29_arg0, w29_arg1, w29_arg2, w29_arg3, w29_arg4, w29_arg5, w29_arg6, w28_arg0, w28_arg1, w28_arg2, w28_arg3, w28_arg4, w28_arg5, w28_arg6, w27_arg0, w27_arg1, w27_arg2, w27_arg3, w27_arg4, w27_arg5, w27_arg6, w26_arg0, w26_arg1, w26_arg2, w26_arg3, w26_arg4, w26_arg5, w26_arg6, w25_arg0, w25_arg1, w25_arg2, w25_arg3, w25_arg4, w25_arg5, w25_arg6, w24_arg0, w24_arg1, w24_arg2, w24_arg3, w24_arg4, w24_arg5, w24_arg6, w23_arg0, w23_arg1, w23_arg2, w23_arg3, w23_arg4, w23_arg5, w23_arg6, w22_arg0, w22_arg1, w22_arg2, w22_arg3, w22_arg4, w22_arg5, w22_arg6, w21_arg0, w21_arg1, w21_arg2, w21_arg3, w21_arg4, w21_arg5, w21_arg6, w20_arg0, w20_arg1, w20_arg2, w20_arg3, w20_arg4, w20_arg5, w20_arg6, w19_arg0, w19_arg1, w19_arg2, w19_arg3, w19_arg4, w19_arg5, w19_arg6, w18_arg0, w18_arg1, w18_arg2, w18_arg3, w18_arg4, w18_arg5, w18_arg6, w17_arg0, w17_arg1, w17_arg2, w17_arg3, w17_arg4, w17_arg5, w17_arg6, w16_arg0, w16_arg1, w16_arg2, w16_arg3, w16_arg4, w16_arg5, w16_arg6, w15_arg0, w15_arg1, w15_arg2, w15_arg3, w15_arg4, w15_arg5, w15_arg6, w14_arg0, w14_arg1, w14_arg2, w14_arg3, w14_arg4, w14_arg5, w14_arg6, w13_arg0, w13_arg1, w13_arg2, w13_arg3, w13_arg4, w13_arg5, w13_arg6, w12_arg0, w12_arg1, w12_arg2, w12_arg3, w12_arg4, w12_arg5, w12_arg6, w11_arg0, w11_arg1, w11_arg2, w11_arg3, w11_arg4, w11_arg5, w11_arg6, w10_arg0, w10_arg1, w10_arg2, w10_arg3, w10_arg4, w10_arg5, w10_arg6, w9_arg0, w9_arg1, w9_arg2, w9_arg3, w9_arg4, w9_arg5, w9_arg6, w8_arg0, w8_arg1, w8_arg2, w8_arg3, w8_arg4, w8_arg5, w8_arg6, w7_arg0, w7_arg1, w7_arg2, w7_arg3, w7_arg4, w7_arg5, w7_arg6, w6_arg0, w6_arg1, w6_arg2, w6_arg3, w6_arg4, w6_arg5, w6_arg6, w5_arg0, w5_arg1, w5_arg2, w5_arg3, w5_arg4, w5_arg5, w5_arg6, w4_arg0, w4_arg1, w4_arg2, w4_arg3, w4_arg4, w4_arg5, w4_arg6, w3_arg0, w3_arg1, w3_arg2, w3_arg3, w3_arg4, w3_arg5, w3_arg6, w2_arg0, w2_arg1, w2_arg2, w2_arg3, w2_arg4, w2_arg5, w2_arg6, w1_arg0, w1_arg1, w1_arg2, w1_arg3, w1_arg4, w1_arg5, w1_arg6, w0_arg0, w0_arg1, w0_arg2, w0_arg3, w0_arg4, w0_arg5, w0_arg6]
  · rw [w31_out, w30_arg0, w30_arg1, w30_arg2, w30_arg3, w30_arg4, w30_arg5, w30_arg6, w29_arg0, w29_arg1, w29_arg2, w29_arg3, w29_arg4, w29_arg5, w29_arg6, w28_arg0, w28_arg1, w28_arg2, w28_arg3, w28_arg4, w28_arg5, w28_arg6, w27_arg0, w27_arg1, w27_arg2, w27_arg3, w27_arg4, w27_arg5, w27_arg6, w26_arg0, w26_arg1, w26_arg2, w26_arg3, w26_arg4, w26_arg5, w26_arg6, w25_arg0, w25_arg1, w25_arg2, w25_arg3, w25_arg4, w25_arg5, w25_arg6, w24_arg0, w24_arg1, w24_arg2, w24_arg3, w24_arg4, w24_arg5, w24_arg6, w23_arg0, w23_arg1, w23_arg2, w23_arg3, w23_arg4, w23_arg5, w23_arg6, w22_arg0, w22_arg1, w22_arg2, w22_arg3, w22_arg4, w22_arg5, w22_arg6, w21_arg0, w21_arg1, w21_arg2, w21_arg3, w21_arg4, w21_arg5, w21_arg6, w20_arg0, w20_arg1, w20_arg2, w20_arg3, w20_arg4, w20_arg5, w20_arg6, w19_arg0, w19_arg1, w19_arg2, w19_arg3, w19_arg4, w19_arg5, w19_arg6, w18_arg0, w18_arg1, w18_arg2, w18_arg3, w18_arg4, w18_arg5, w18_arg6, w17_arg0, w17_arg1, w17_arg2, w17_arg3, w17_arg4, w17_arg5, w17_arg6, w16_arg0, w16_arg1, w16_arg2, w16_arg3, w16_arg4, w16_arg5, w16_arg6, w15_arg0, w15_arg1, w15_arg2, w15_arg3, w15_arg4, w15_arg5, w15_arg6, w14_arg0, w14_arg1, w14_arg2, w14_arg3, w14_arg4, w14_arg5, w14_arg6, w13_arg0, w13_arg1, w13_arg2, w13_arg3, w13_arg4, w13_arg5, w13_arg6, w12_arg0, w12_arg1, w12_arg2, w12_arg3, w12_arg4, w12_arg5, w12_arg6, w11_arg0, w11_arg1, w11_arg2, w11_arg3, w11_arg4, w11_arg5, w11_arg6, w10_arg0, w10_arg1, w10_arg2, w10_arg3, w10_arg4, w10_arg5, w10_arg6, w9_arg0, w9_arg1, w9_arg2, w9_arg3, w9_arg4, w9_arg5, w9_arg6, w8_arg0, w8_arg1, w8_arg2, w8_arg3, w8_arg4, w8_arg5, w8_arg6, w7_arg0, w7_arg1, w7_arg2, w7_arg3, w7_arg4, w7_arg5, w7_arg6, w6_arg0, w6_arg1, w6_arg2, w6_arg3, w6_arg4, w6_arg5, w6_arg6, w5_arg0, w5_arg1, w5_arg2, w5_arg3, w5_arg4, w5_arg5, w5_arg6, w4_arg0, w4_arg1, w4_arg2, w4_arg3, w4_arg4, w4_arg5, w4_arg6, w3_arg0, w3_arg1, w3_arg2, w3_arg3, w3_arg4, w3_arg5, w3_arg6, w2_arg0, w2_arg1, w2_arg2, w2_arg3, w2_arg4, w2_arg5, w2_arg6, w1_arg0, w1_arg1, w1_arg2, w1_arg3, w1_arg4, w1_arg5, w1_arg6, w0_arg0, w0_arg1, w0_arg2, w0_arg3, w0_arg4, w0_arg5, w0_arg6]

/-- Every weakly fair execution of the reference terminates, the result array at its last stage's function of the
    argument arrays, the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1165) = val_main_v1165 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v1165).trans (result _),
      (h c main_arg0).trans (arg0_kept _),
      (h c main_arg1).trans (arg1_kept _),
      (h c main_arg2).trans (arg2_kept _),
      (h c main_arg3).trans (arg3_kept _),
      (h c main_arg4).trans (arg4_kept _),
      (h c main_arg5).trans (arg5_kept _),
      (h c main_arg6).trans (arg6_kept _)⟩)
    (run_after m ρ)

end Cert.ReferenceIdeal.RunW

end
-- ==== Proof.Spec.lean ====
/-
  The mathematics of the monotone layer, stated once, away from both programs.

  Every output entry depends on ONE row of the input: for a row `xr : Fin 32 → EReal` and a component `d : Fin 32`,

    hid0 k = max (Σ_{i<d} xr i · W0 d i k + B0 d k) 0                      (32 hidden units)
    hid1 c = max (Σ_k hid0 k · W1 d k c + B1 d c) 0                        (used for c < d only)
    lay  h = (Σ_{c<d} hid1 c · WL d c h + xr d · exp (WL d d h)) + BL d h  (8 outputs, monotone in xr d)
    out    = max over the four pairs of the minimum of each pair of `lay`.

  Three readings of that number are defined here and nothing else:
  * `specOut`  — sums over all of `Fin 32`, an entry outside the strict lower triangle contributing `0`;
  * `refOut d` — sums over `Fin d` (the triangle cut out by slicing), the monotone input as a last summand;
  * `kerGrp`   — eight components at once: sums over `Fin 256 = 8 × 32` against block-diagonal slabs
                  (`slab0` … `slabE`: a weight times its 0/1 mask times a Kronecker delta on the component).
-/
import Idealize.ShloMosaic.PureOps.Ideal
import Idealize.ShloMosaic.Lib.ValueIdx

noncomputable section

namespace Cert.Monotone

open Idealize.ShloMosaic

/-- The exponential both programs apply on the host, on one extended real. -/
def eexp (a : EReal) : EReal := FloatOps.hostUnary (F := Ideal) (φ := .f32) .exp a

/-- Pooling of eight numbers: the largest of the four pairwise minima. -/
def pool (f : Fin 8 → EReal) : EReal :=
  max (max (min (f 0) (f 1)) (min (f 2) (f 3))) (max (min (f 4) (f 5)) (min (f 6) (f 7)))

section arrays
variable (xr : Fin 32 → EReal)
variable (W0 : Fin 32 → Fin 32 → Fin 32 → EReal) (B0 : Fin 32 → Fin 32 → EReal)
variable (W1 : Fin 32 → Fin 32 → Fin 32 → EReal) (B1 : Fin 32 → Fin 32 → EReal)
variable (WL : Fin 32 → Fin 32 → Fin 8 → EReal) (BL : Fin 32 → Fin 8 → EReal)

/-! ## The specification: full-width sums, zero outside the strict lower triangle -/

def hid0 (d k : Fin 32) : EReal :=
  max ((∑ i : Fin 32, if i.val < d.val then xr i * W0 d i k else 0) + B0 d k) 0

def hid1 (d c : Fin 32) : EReal :=
  max ((∑ k : Fin 32, hid0 xr W0 B0 d k * W1 d k c) + B1 d c) 0

def lay (d : Fin 32) (h : Fin 8) : EReal :=
  ((∑ c : Fin 32, if c.val < d.val then hid1 xr W0 B0 W1 B1 d c * WL d c h else 0) + xr d * eexp (WL d d h)) + BL d h

def specOut (d : Fin 32) : EReal := pool (lay xr W0 B0 W1 B1 WL BL d)

/-! ## The reference's reading: sums over the first `d` indices only -/

/-- An index below `d ≤ 32` as an index of the full axis. -/
def up {d : ℕ} (hd : d < 32) (i : Fin d) : Fin 32 := ⟨i.val, by omega⟩

def rhid0 (d : ℕ) (hd : d < 32) (k : Fin 32) : EReal :=
  max ((∑ i : Fin d, xr (up hd i) * W0 ⟨d, hd⟩ (up hd i) k) + B0 ⟨d, hd⟩ k) 0

def rhid1 (d : ℕ) (hd : d < 32) (c : Fin d) : EReal :=
  max ((∑ k : Fin 32, rhid0 xr W0 B0 d hd k * W1 ⟨d, hd⟩ k (up hd c)) + B1 ⟨d, hd⟩ (up hd c)) 0

def rlay (d : ℕ) (hd : d < 32) (h : Fin 8) : EReal :=
  ((∑ c : Fin d, rhid1 xr W0 B0 W1 B1 d hd c * WL ⟨d, hd⟩ (up hd c) h) + xr ⟨d, hd⟩ * eexp (WL ⟨d, hd⟩ ⟨d, hd⟩ h)) + BL ⟨d, hd⟩ h

def refOut (d : ℕ) (hd : d < 32) : EReal := pool (rlay xr W0 B0 W1 B1 WL BL d hd)

end arrays

/-! ## The kernel's reading: eight components per matrix product -/

/-- Component `8·cg + j`. -/
def dOf (cg : Fin 4) (j : Fin 8) : Fin 32 := ⟨8 * cg.val + j.val, by omega⟩
/-- A column `q = 32·j + k` of a 256-wide slab: its component `j` … -/
def hi8 (q : Fin 256) : Fin 8 := ⟨q.val / 32, by omega⟩
/-- … and its position `k` inside the component. -/
def lo32 (q : Fin 256) : Fin 32 := ⟨q.val % 32, Nat.mod_lt _ (by norm_num)⟩
/-- A column `p = 8·j + h` of a 64-wide slab: its component `j` … -/
def hi8' (p : Fin 64) : Fin 8 := ⟨p.val / 8, by omega⟩
/-- … and its output `h`. -/
def lo8 (p : Fin 64) : Fin 8 := ⟨p.val % 8, Nat.mod_lt _ (by norm_num)⟩
/-- Column `8·j + h` of a 64-wide slab. -/
def col64 (j h : Fin 8) : Fin 64 := ⟨8 * j.val + h.val, by omega⟩

/-- The strict-lower-triangle mask as a number. -/
def msk (i d : Fin 32) : EReal := if i.val < d.val then 1 else 0
/-- The Kronecker delta on components as a number. -/
def eye (a b : Fin 8) : EReal := if a = b then 1 else 0

section slabs
variable (W0 : Fin 32 → Fin 32 → Fin 32 → EReal) (B0 : Fin 32 → Fin 32 → EReal)
variable (W1 : Fin 32 → Fin 32 → Fin 32 → EReal) (B1 : Fin 32 → Fin 32 → EReal)
variable (WL : Fin 32 → Fin 32 → Fin 8 → EReal) (BL : Fin 32 → Fin 8 → EReal)

def slab0 (cg : Fin 4) (i : Fin 32) (q : Fin 256) : EReal :=
  W0 (dOf cg (hi8 q)) i (lo32 q) * msk i (dOf cg (hi8 q))
def slabB0 (cg : Fin 4) (q : Fin 256) : EReal := B0 (dOf cg (hi8 q)) (lo32 q)
def slab1 (cg : Fin 4) (q q' : Fin 256) : EReal :=
  (W1 (dOf cg (hi8 q)) (lo32 q) (lo32 q') * msk (lo32 q') (dOf cg (hi8 q))) * eye (hi8 q) (hi8 q')
def slabB1 (cg : Fin 4) (q : Fin 256) : EReal := B1 (dOf cg (hi8 q)) (lo32 q) * msk (lo32 q) (dOf cg (hi8 q))
def slabM (cg : Fin 4) (q : Fin 256) (p : Fin 64) : EReal :=
  (WL (dOf cg (hi8 q)) (lo32 q) (lo8 p) * msk (lo32 q) (dOf cg (hi8 q))) * eye (hi8 q) (hi8' p)
def slabBL (cg : Fin 4) (p : Fin 64) : EReal := BL (dOf cg (hi8' p)) (lo8 p)
def slabE (cg : Fin 4) (j : Fin 8) (p : Fin 64) : EReal :=
  eexp (WL (dOf cg j) (dOf cg j) (lo8 p)) * eye j (hi8' p)

end slabs

section group
-- One row `xr`, its eight monotone inputs `xg`, and one group's slices of the seven slabs.
variable (xr : Fin 32 → EReal) (xg : Fin 8 → EReal)
variable (s0 : Fin 32 → Fin 256 → EReal) (sb0 : Fin 256 → EReal)
variable (s1 : Fin 256 → Fin 256 → EReal) (sb1 : Fin 256 → EReal)
variable (sm : Fin 256 → Fin 64 → EReal) (sbl : Fin 64 → EReal) (se : Fin 8 → Fin 64 → EReal)

def kh1 (q : Fin 256) : EReal := max ((∑ i : Fin 32, xr i * s0 i q) + sb0 q) 0
def kh2 (q' : Fin 256) : EReal := max ((∑ q : Fin 256, kh1 xr s0 sb0 q * s1 q q') + sb1 q') 0
def klay (p : Fin 64) : EReal :=
  ((∑ q : Fin 256, kh2 xr s0 sb0 s1 sb1 q * sm q p) + sbl p) + ∑ j : Fin 8, xg j * se j p
def kerGrp (j : Fin 8) : EReal := pool fun h => klay xr xg s0 sb0 s1 sb1 sm sbl se (col64 j h)

end group

end Cert.Monotone

end
-- ==== Proof.Algebra.lean ====
/-
  The three readings of the monotone layer agree.

  * A sum over the first `d` indices is the full sum of the terms masked to zero from `d` on (`sum_up`),
    so the reference's reading `refOut d` is the specification `specOut d`.
  * A sum over `Fin 256 = 8 × 32` against a block-diagonal slab keeps one block only, the Kronecker delta
    annihilating the other seven (`a · 0 = 0`, `a + 0 = a` on the extended reals: no finiteness is needed),
    and a weight times its 0/1 mask is the weight or zero; so the kernel's eight-at-a-time reading `kerGrp`
    of the slabs built from the parameters is `specOut` of the group's components. The bias is added before the
    monotone term in one reading and after it in the other: addition on the extended reals is commutative and
    associative.
-/
import proofs.«166035_j57586921505191_2_alg».proof.Proof.Spec

noncomputable section

namespace Cert.Monotone

open Idealize.ShloMosaic

/-! ## Sums over an initial segment -/

/-- The sum over the first `d` indices is the sum over all 32 of the terms, zero from `d` on. -/
theorem sum_up {d : ℕ} (hd : d < 32) (g : Fin 32 → EReal) :
    ∑ i : Fin d, g (up hd i) = ∑ i : Fin 32, if i.val < d then g i else 0 := by
  rw [← Finset.sum_filter]
  refine Finset.sum_bij (fun i _ => up hd i) ?_ ?_ ?_ ?_
  · intro i _
    simp only [Finset.mem_filter, Finset.mem_univ, true_and]
    exact i.isLt
  · intro a _ b _ h
    exact Fin.ext (by simpa [up] using congrArg Fin.val h)
  · intro b hb
    simp only [Finset.mem_filter, Finset.mem_univ, true_and] at hb
    exact ⟨⟨b.val, hb⟩, Finset.mem_univ _, Fin.ext rfl⟩
  · intro i _
    rfl

section reference
variable (xr : Fin 32 → EReal)
variable (W0 : Fin 32 → Fin 32 → Fin 32 → EReal) (B0 : Fin 32 → Fin 32 → EReal)
variable (W1 : Fin 32 → Fin 32 → Fin 32 → EReal) (B1 : Fin 32 → Fin 32 → EReal)
variable (WL : Fin 32 → Fin 32 → Fin 8 → EReal) (BL : Fin 32 → Fin 8 → EReal)

theorem rhid0_eq (d : ℕ) (hd : d < 32) (k : Fin 32) :
    rhid0 xr W0 B0 d hd k = hid0 xr W0 B0 ⟨d, hd⟩ k := by
  unfold rhid0 hid0
  rw [sum_up hd (fun i => xr i * W0 ⟨d, hd⟩ i k)]

theorem rhid1_eq (d : ℕ) (hd : d < 32) (c : Fin d) :
    rhid1 xr W0 B0 W1 B1 d hd c = hid1 xr W0 B0 W1 B1 ⟨d, hd⟩ (up hd c) := by
  unfold rhid1 hid1
  simp only [rhid0_eq]

theorem rlay_eq (d : ℕ) (hd : d < 32) (h : Fin 8) :
    rlay xr W0 B0 W1 B1 WL BL d hd h = lay xr W0 B0 W1 B1 WL BL ⟨d, hd⟩ h := by
  unfold rlay lay
  simp only [rhid1_eq]
  rw [sum_up hd (fun c => hid1 xr W0 B0 W1 B1 ⟨d, hd⟩ c * WL ⟨d, hd⟩ c h)]

/-- The reference's reading is the specification. -/
theorem refOut_eq (d : ℕ) (hd : d < 32) :
    refOut xr W0 B0 W1 B1 WL BL d hd = specOut xr W0 B0 W1 B1 WL BL ⟨d, hd⟩ := by
  unfold refOut specOut
  exact congrArg pool (funext fun h => rlay_eq xr W0 B0 W1 B1 WL BL d hd h)

end reference

/-! ## Sums over eight blocks of 32 -/

/-- A sum over the 256 columns, column `q` read as (component, position), is the double sum. -/
theorem sum256 (G : Fin 8 → Fin 32 → EReal) :
    ∑ q : Fin 256, G (hi8 q) (lo32 q) = ∑ a : Fin 8, ∑ k : Fin 32, G a k := by
  have e : (Fin 8 × Fin 32) ≃ Fin 256 := finProdFinEquiv
  have hv : ∀ p : Fin 8 × Fin 32, (finProdFinEquiv p : Fin (8 * 32)).val = p.2.val + 32 * p.1.val := fun p => rfl
  calc ∑ q : Fin 256, G (hi8 q) (lo32 q)
      = ∑ p : Fin 8 × Fin 32, G (hi8 (finProdFinEquiv p : Fin (8 * 32))) (lo32 (finProdFinEquiv p : Fin (8 * 32))) :=
        (Equiv.sum_comp (finProdFinEquiv : (Fin 8 × Fin 32) ≃ Fin (8 * 32)) (fun q : Fin 256 => G (hi8 q) (lo32 q))).symm
    _ = ∑ p : Fin 8 × Fin 32, G p.1 p.2 := by
        refine Finset.sum_congr rfl fun p _ => ?_
        have h1 : hi8 (finProdFinEquiv p : Fin (8 * 32)) = p.1 := Fin.ext (by
          show (finProdFinEquiv p : Fin (8 * 32)).val / 32 = p.1.val
          rw [hv]; have := p.2.isLt; omega)
        have h2 : lo32 (finProdFinEquiv p : Fin (8 * 32)) = p.2 := Fin.ext (by
          show (finProdFinEquiv p : Fin (8 * 32)).val % 32 = p.2.val
          rw [hv]; have := p.2.isLt; omega)
        rw [h1, h2]
    _ = ∑ a : Fin 8, ∑ k : Fin 32, G a k := Fintype.sum_prod_type _

theorem hi8'_col64 (j h : Fin 8) : hi8' (col64 j h) = j := Fin.ext (by
  show (8 * j.val + h.val) / 8 = j.val
  have := h.isLt; omega)

theorem lo8_col64 (j h : Fin 8) : lo8 (col64 j h) = h := Fin.ext (by
  show (8 * j.val + h.val) % 8 = h.val
  have := h.isLt; omega)

/-- A number times a masked weight: the product inside the triangle, zero outside. -/
theorem mul_msk (a w : EReal) (i d : Fin 32) :
    a * (w * msk i d) = if i.val < d.val then a * w else 0 := by
  unfold msk
  split <;> simp

section kernel
variable (xr : Fin 32 → EReal)
variable (W0 : Fin 32 → Fin 32 → Fin 32 → EReal) (B0 : Fin 32 → Fin 32 → EReal)
variable (W1 : Fin 32 → Fin 32 → Fin 32 → EReal) (B1 : Fin 32 → Fin 32 → EReal)
variable (WL : Fin 32 → Fin 32 → Fin 8 → EReal) (BL : Fin 32 → Fin 8 → EReal)

/-- First layer: column `q` of the group is hidden unit `lo32 q` of component `hi8 q`. -/
theorem kh1_eq (cg : Fin 4) (q : Fin 256) :
    kh1 xr (slab0 W0 cg) (slabB0 B0 cg) q = hid0 xr W0 B0 (dOf cg (hi8 q)) (lo32 q) := by
  unfold kh1 hid0 slab0 slabB0
  simp only [mul_msk]

/-- Second layer: inside the triangle the component's second hidden layer, zero outside. -/
theorem kh2_eq (cg : Fin 4) (q' : Fin 256) :
    kh2 xr (slab0 W0 cg) (slabB0 B0 cg) (slab1 W1 cg) (slabB1 B1 cg) q'
      = if (lo32 q').val < (dOf cg (hi8 q')).val then hid1 xr W0 B0 W1 B1 (dOf cg (hi8 q')) (lo32 q') else 0 := by
  unfold kh2
  simp only [kh1_eq]
  have hs : ∑ q : Fin 256, hid0 xr W0 B0 (dOf cg (hi8 q)) (lo32 q) * slab1 W1 cg q q'
      = ∑ k : Fin 32, hid0 xr W0 B0 (dOf cg (hi8 q')) k
          * (W1 (dOf cg (hi8 q')) k (lo32 q') * msk (lo32 q') (dOf cg (hi8 q'))) := by
    unfold slab1
    refine Eq.trans (sum256 (fun a k => hid0 xr W0 B0 (dOf cg a) k
      * ((W1 (dOf cg a) k (lo32 q') * msk (lo32 q') (dOf cg a)) * eye a (hi8 q')))) ?_
    rw [Fintype.sum_eq_single (hi8 q')]
    · simp [eye]
    · intro a ha
      simp [eye, ha]
  rw [hs]
  unfold slabB1 msk hid1
  split <;> simp

/-- The last layer of column `8 j + h`: the component's eight outputs, bias and monotone term in the kernel's order. -/
theorem klay_eq (cg : Fin 4) (j h : Fin 8) :
    klay xr (fun j' => xr (dOf cg j')) (slab0 W0 cg) (slabB0 B0 cg) (slab1 W1 cg) (slabB1 B1 cg)
        (slabM WL cg) (slabBL BL cg) (slabE WL cg) (col64 j h)
      = lay xr W0 B0 W1 B1 WL BL (dOf cg j) h := by
  unfold klay lay
  simp only [kh2_eq]
  have hs : ∑ q : Fin 256, (if (lo32 q).val < (dOf cg (hi8 q)).val then hid1 xr W0 B0 W1 B1 (dOf cg (hi8 q)) (lo32 q) else 0)
        * slabM WL cg q (col64 j h)
      = ∑ c : Fin 32, if c.val < (dOf cg j).val then hid1 xr W0 B0 W1 B1 (dOf cg j) c * WL (dOf cg j) c h else 0 := by
    unfold slabM
    rw [hi8'_col64, lo8_col64]
    refine Eq.trans (sum256 (fun a c => (if c.val < (dOf cg a).val then hid1 xr W0 B0 W1 B1 (dOf cg a) c else 0)
      * ((WL (dOf cg a) c h * msk c (dOf cg a)) * eye a j))) ?_
    rw [Fintype.sum_eq_single j]
    · refine Finset.sum_congr rfl fun c _ => ?_
      unfold msk
      split <;> simp [eye]
    · intro a ha
      simp [eye, ha]
  have he : ∑ j' : Fin 8, xr (dOf cg j') * slabE WL cg j' (col64 j h)
      = xr (dOf cg j) * eexp (WL (dOf cg j) (dOf cg j) h) := by
    unfold slabE
    rw [hi8'_col64, lo8_col64, Fintype.sum_eq_single j]
    · simp [eye]
    · intro a ha
      simp [eye, ha]
  rw [hs, he]
  unfold slabBL
  rw [hi8'_col64, lo8_col64]
  exact add_right_comm _ _ _

/-- The kernel's eight-at-a-time reading of the slabs is the specification at component `8 cg + j`. -/
theorem kerGrp_eq (cg : Fin 4) (j : Fin 8) :
    kerGrp xr (fun j' => xr (dOf cg j')) (slab0 W0 cg) (slabB0 B0 cg) (slab1 W1 cg) (slabB1 B1 cg)
        (slabM WL cg) (slabBL BL cg) (slabE WL cg) j
      = specOut xr W0 B0 W1 B1 WL BL (dOf cg j) := by
  unfold kerGrp specOut
  exact congrArg pool (funext fun h => klay_eq xr W0 B0 W1 B1 WL BL cg j h)

/-- The same with the group's slab slices given as functions known to be the slabs: the form in which a block of the
    kernel meets it. -/
theorem kerGrp_of_slabs (cg : Fin 4) (j : Fin 8)
    (s0 : Fin 32 → Fin 256 → EReal) (sb0 : Fin 256 → EReal) (s1 : Fin 256 → Fin 256 → EReal) (sb1 : Fin 256 → EReal)
    (sm : Fin 256 → Fin 64 → EReal) (sbl : Fin 64 → EReal) (se : Fin 8 → Fin 64 → EReal)
    (h0 : ∀ i q, s0 i q = slab0 W0 cg i q) (hb0 : ∀ q, sb0 q = slabB0 B0 cg q)
    (h1 : ∀ q q', s1 q q' = slab1 W1 cg q q') (hb1 : ∀ q, sb1 q = slabB1 B1 cg q)
    (hm : ∀ q p, sm q p = slabM WL cg q p) (hbl : ∀ p, sbl p = slabBL BL cg p)
    (he : ∀ j' p, se j' p = slabE WL cg j' p) :
    kerGrp xr (fun j' => xr (dOf cg j')) s0 sb0 s1 sb1 sm sbl se j = specOut xr W0 B0 W1 B1 WL BL (dOf cg j) := by
  have e0 : s0 = slab0 W0 cg := funext fun i => funext fun q => h0 i q
  have eb0 : sb0 = slabB0 B0 cg := funext hb0
  have e1 : s1 = slab1 W1 cg := funext fun q => funext fun q' => h1 q q'
  have eb1 : sb1 = slabB1 B1 cg := funext hb1
  have em : sm = slabM WL cg := funext fun q => funext fun p => hm q p
  have ebl : sbl = slabBL BL cg := funext hbl
  have ee : se = slabE WL cg := funext fun j' => funext fun p => he j' p
  rw [e0, eb0, e1, eb1, em, ebl, ee]
  exact kerGrp_eq xr W0 B0 W1 B1 WL BL cg j

end kernel

/-! ## The whole result array -/

open Idealize.ShloMosaic.ValueIdx in
/-- The result array as one function of the seven argument arrays: entry `(n, d)` is component `d` of row `n`. -/
def G (x0 : (⟨2, ![262144, 32]⟩ : Shape).Idx → EReal) (x1 : (⟨3, ![32, 32, 32]⟩ : Shape).Idx → EReal)
    (x2 : (⟨2, ![32, 32]⟩ : Shape).Idx → EReal) (x3 : (⟨3, ![32, 32, 32]⟩ : Shape).Idx → EReal)
    (x4 : (⟨2, ![32, 32]⟩ : Shape).Idx → EReal) (x5 : (⟨3, ![32, 32, 8]⟩ : Shape).Idx → EReal)
    (x6 : (⟨2, ![32, 8]⟩ : Shape).Idx → EReal) : (⟨2, ![262144, 32]⟩ : Shape).Idx → EReal :=
  fun i => specOut (fun k : Fin 32 => x0 (ix2 (i 0 : Fin 262144) k)) (fun a b c : Fin 32 => x1 (ix3 a b c))
    (fun a b : Fin 32 => x2 (ix2 a b)) (fun a b c : Fin 32 => x3 (ix3 a b c)) (fun a b : Fin 32 => x4 (ix2 a b))
    (fun (a b : Fin 32) (h : Fin 8) => x5 (ix3 a b h)) (fun (a : Fin 32) (h : Fin 8) => x6 (ix2 a h)) (i 1 : Fin 32)

end Cert.Monotone

end
-- ==== Proof.Slabs.lean ====
/-
  The seven arrays the host builds before the kernel runs, each read at one index.

  Every array is a chain of layout operations (broadcasts along new axes, reshapes between row-major factorisations
  `32 = 4·8`, `256 = 8·32`, `64 = 8·8`, one transpose) applied to a parameter array times a 0/1 array: the
  strict-lower-triangle mask `[i < d]` and the Kronecker delta on the eight components of a group.  Read at an index,
  each is the block-diagonal slab of the specification.
-/
import proofs.«166035_j57586921505191_2_alg».proof.Proof.Gen.KernelIdeal.Frame
import proofs.«166035_j57586921505191_2_alg».proof.Proof.Spec
import Idealize.ShloMosaic.Lib.ValueIdx
import Idealize.ShloMosaic.Lib.Pipeline.Value
import Idealize.ShloMosaic.Lib.StableHlo.Run

noncomputable section

namespace Cert.Monotone.Slabs

open Cert.KernelIdeal Cert.KernelIdeal.Gen Idealize.ShloMosaic Idealize.ShloMosaic.ValueIdx Idealize.ShloMosaic.TcCoe Idealize.ShloMosaic.StableHlo Cert.Monotone

variable (m : (ℓ : Loc nD τ sig) → Buf (Elt Ideal) ℓ) (c : Dev nD)

/-! ## The 0/1 arrays: the strict-lower-triangle mask and the 8×8 identity -/

/-- `iota(axis 1) < iota(axis 0)` on `[32,32]`, converted to a float: entry `(d, i)` is `1` when `i < d`. -/
def maskT : FVec Ideal S32x32 .f32 :=
  uitofp (F := Ideal) .f32 (cmpi .slt
    (broadcastInDim S32x32 ![0, 1] bcast_S1x32_S32x32_0_1 (broadcastInDim S1x32 ![1] bcast_S32_S1x32_1 (iotaInDim S32 32 0)))
    (broadcastInDim S32x32 ![0, 1] bcast_S32x1_S32x32_0_1 (broadcastInDim S32x1 ![0] bcast_S32_S32x1_0 (iotaInDim S32 32 0))))

/-- `iota(axis 0) + 0 == iota(axis 1)` on `[8,8]`, converted to a float. -/
def eyeT : FVec Ideal S8x8 .f32 :=
  uitofp (F := Ideal) .f32 (cmpi .eq
    (addi (iotaInDim S8x8 32 0) (broadcastInDim S8x8 ![] bcast_S_S8x8 (constantI S_ 32 0#32)))
    (iotaInDim S8x8 32 1))

theorem slt_word : ∀ i d : Fin 32,
    IntOp.cmpi .slt (BitVec.ofNat 32 i.val) (BitVec.ofNat 32 d.val) = if i.val < d.val then 1#1 else 0#1 := by
  decide

theorem eq_word : ∀ a b : Fin 8,
    IntOp.cmpi .eq (IntOp.addi (BitVec.ofNat 32 a.val) 0#32) (BitVec.ofNat 32 b.val) = if a = b then 1#1 else 0#1 := by
  decide

theorem uitofp_one : FloatOps.uitofp (F := Ideal) .f32 1#1 = (1 : EReal) := by
  show (((1#1 : BitVec 1).toNat : ℝ) : EReal) = 1
  norm_num

theorem uitofp_zero : FloatOps.uitofp (F := Ideal) .f32 0#1 = (0 : EReal) := by
  show (((0#1 : BitVec 1).toNat : ℝ) : EReal) = 0
  norm_num

theorem maskT_apply (d i : Fin 32) : maskT (ix2 d i) = msk i d := by
  have hA : (broadcastInDim S32x32 ![0, 1] bcast_S1x32_S32x32_0_1
      (broadcastInDim S1x32 ![1] bcast_S32_S1x32_1 (iotaInDim S32 32 0)) : IVec S32x32 32) (ix2 d i) = BitVec.ofNat 32 i.val := by
    refine (broadcastInDim_apply _ _ _ (ix2 d i) (ix2 (0 : Fin 1) i) ?_).trans ?_
    · intro a; match a with | ⟨0, _⟩ => rfl | ⟨1, _⟩ => rfl
    refine (broadcastInDim_apply _ _ _ (ix2 (0 : Fin 1) i) (ix1 i) ?_).trans ?_
    · intro a; match a with | ⟨0, _⟩ => rfl
    rfl
  have hB : (broadcastInDim S32x32 ![0, 1] bcast_S32x1_S32x32_0_1
      (broadcastInDim S32x1 ![0] bcast_S32_S32x1_0 (iotaInDim S32 32 0)) : IVec S32x32 32) (ix2 d i) = BitVec.ofNat 32 d.val := by
    refine (broadcastInDim_apply _ _ _ (ix2 d i) (ix2 d (0 : Fin 1)) ?_).trans ?_
    · intro a; match a with | ⟨0, _⟩ => rfl | ⟨1, _⟩ => rfl
    refine (broadcastInDim_apply _ _ _ (ix2 d (0 : Fin 1)) (ix1 d) ?_).trans ?_
    · intro a; match a with | ⟨0, _⟩ => rfl
    rfl
  show FloatOps.uitofp (F := Ideal) .f32 (IntOp.cmpi .slt
    ((broadcastInDim S32x32 ![0, 1] bcast_S1x32_S32x32_0_1
      (broadcastInDim S1x32 ![1] bcast_S32_S1x32_1 (iotaInDim S32 32 0)) : IVec S32x32 32) (ix2 d i))
    ((broadcastInDim S32x32 ![0, 1] bcast_S32x1_S32x32_0_1
      (broadcastInDim S32x1 ![0] bcast_S32_S32x1_0 (iotaInDim S32 32 0)) : IVec S32x32 32) (ix2 d i))) = msk i d
  rw [hA, hB, slt_word i d]
  unfold msk
  by_cases h : i.val < d.val
  · rw [if_pos h, if_pos h]; exact uitofp_one
  · rw [if_neg h, if_neg h]; exact uitofp_zero

theorem eyeT_apply (a b : Fin 8) : eyeT (ix2 a b) = eye a b := by
  show FloatOps.uitofp (F := Ideal) .f32 (IntOp.cmpi .eq (IntOp.addi (BitVec.ofNat 32 a.val) 0#32) (BitVec.ofNat 32 b.val)) = eye a b
  rw [eq_word a b]
  unfold eye
  by_cases h : a = b
  · rw [if_pos h, if_pos h]; exact uitofp_one
  · rw [if_neg h, if_neg h]; exact uitofp_zero

/-! ## The two bias slabs that are reshapes of an argument -/

set_option maxHeartbeats 4000000 in
theorem v16_term : (V (F := Ideal) m c main_v16 : S4x256.Idx → EReal) =
    shapeCast S4x256 (shapeCast S4x8x32 (m ((c : Thread nD τ).loc main_arg2)) shapeCasts_S32x32_S4x8x32) shapeCasts_S4x8x32_S4x256 := by
  dsimp only [Gen.V, Gen.hostOps0]; after_results_simp; rfl

/-- Row-major position: `[32,32] → [4,8,32] → [4,256]` sends `(8·cg + j, k)` to `(cg, 32·j + k)`. -/
theorem v16_apply (cg : Fin 4) (q : Fin 256) :
    (V (F := Ideal) m c main_v16 : S4x256.Idx → EReal) (ix2 cg q)
      = slabB0 (fun a b => m ((c : Thread nD τ).loc main_arg2) (ix2 a b)) cg q := by
  refine (congrFun (v16_term m c) (ix2 cg q)).trans ?_
  refine (shapeCast_apply _ shapeCasts_S4x8x32_S4x256 (ix2 cg q) (ix3 cg (hi8 q) (lo32 q)) ?_).trans ?_
  · rw [Shape.rowMajor_val_three, Shape.rowMajor_val_two]
    show (cg.val * 8 + q.val / 32) * 32 + q.val % 32 = cg.val * 256 + q.val
    omega
  refine (shapeCast_apply _ shapeCasts_S32x32_S4x8x32 (ix3 cg (hi8 q) (lo32 q)) (ix2 (dOf cg (hi8 q)) (lo32 q)) ?_).trans ?_
  · rw [Shape.rowMajor_val_three, Shape.rowMajor_val_two]
    show (8 * cg.val + q.val / 32) * 32 + q.val % 32 = (cg.val * 8 + q.val / 32) * 32 + q.val % 32
    omega
  rfl

set_option maxHeartbeats 4000000 in
theorem v69_term : (V (F := Ideal) m c main_v69 : S4x64.Idx → EReal) =
    shapeCast S4x64 (shapeCast S4x8x8 (m ((c : Thread nD τ).loc main_arg6)) shapeCasts_S32x8_S4x8x8) shapeCasts_S4x8x8_S4x64 := by
  dsimp only [Gen.V, Gen.hostOps0]; after_results_simp; rfl

/-- Row-major position: `[32,8] → [4,8,8] → [4,64]` sends `(8·cg + j, h)` to `(cg, 8·j + h)`. -/
theorem v69_apply (cg : Fin 4) (p : Fin 64) :
    (V (F := Ideal) m c main_v69 : S4x64.Idx → EReal) (ix2 cg p)
      = slabBL (fun a b => m ((c : Thread nD τ).loc main_arg6) (ix2 a b)) cg p := by
  refine (congrFun (v69_term m c) (ix2 cg p)).trans ?_
  refine (shapeCast_apply _ shapeCasts_S4x8x8_S4x64 (ix2 cg p) (ix3 cg (hi8' p) (lo8 p)) ?_).trans ?_
  · rw [Shape.rowMajor_val_three, Shape.rowMajor_val_two]
    show (cg.val * 8 + p.val / 8) * 8 + p.val % 8 = cg.val * 64 + p.val
    omega
  refine (shapeCast_apply _ shapeCasts_S32x8_S4x8x8 (ix3 cg (hi8' p) (lo8 p)) (ix2 (dOf cg (hi8' p)) (lo8 p)) ?_).trans ?_
  · rw [Shape.rowMajor_val_three, Shape.rowMajor_val_two]
    show (8 * cg.val + p.val / 8) * 8 + p.val % 8 = (cg.val * 8 + p.val / 8) * 8 + p.val % 8
    omega
  rfl

/-! ## The masked bias slab -/

set_option maxHeartbeats 4000000 in
theorem v43_term : (V (F := Ideal) m c main_v43 : S4x256.Idx → EReal) =
    shapeCast S4x256 (shapeCast S4x8x32 (mulf (m ((c : Thread nD τ).loc main_arg4)) maskT) shapeCasts_S32x32_S4x8x32) shapeCasts_S4x8x32_S4x256 := by
  dsimp only [Gen.V, Gen.hostOps0]; after_results_simp; rfl

theorem v43_apply (cg : Fin 4) (q : Fin 256) :
    (V (F := Ideal) m c main_v43 : S4x256.Idx → EReal) (ix2 cg q)
      = slabB1 (fun a b => m ((c : Thread nD τ).loc main_arg4) (ix2 a b)) cg q := by
  refine (congrFun (v43_term m c) (ix2 cg q)).trans ?_
  refine (shapeCast_apply _ shapeCasts_S4x8x32_S4x256 (ix2 cg q) (ix3 cg (hi8 q) (lo32 q)) ?_).trans ?_
  · rw [Shape.rowMajor_val_three, Shape.rowMajor_val_two]
    show (cg.val * 8 + q.val / 32) * 32 + q.val % 32 = cg.val * 256 + q.val
    omega
  refine (shapeCast_apply _ shapeCasts_S32x32_S4x8x32 (ix3 cg (hi8 q) (lo32 q)) (ix2 (dOf cg (hi8 q)) (lo32 q)) ?_).trans ?_
  · rw [Shape.rowMajor_val_three, Shape.rowMajor_val_two]
    show (8 * cg.val + q.val / 32) * 32 + q.val % 32 = (cg.val * 8 + q.val / 32) * 32 + q.val % 32
    omega
  refine (mulf_apply _ _ _).trans ?_
  rw [maskT_apply]
  rfl

/-! ## The first-layer weight slab: mask, reshape, transpose, reshape -/

set_option maxHeartbeats 4000000 in
theorem v14_term : (V (F := Ideal) m c main_v14 : S4x32x256.Idx → EReal) =
    truncf .bf16 (shapeCast S4x32x256 (transpose S4x32x8x32 [0, 2, 1, 3] (shapeCast S4x8x32x32
      (mulf (m ((c : Thread nD τ).loc main_arg1))
        (broadcastInDim S32x32x32 ![0, 1, 2] bcast_S32x32x1_S32x32x32_0_1_2
          (broadcastInDim S32x32x1 ![0, 1] bcast_S32x32_S32x32x1_0_1 maskT)))
      shapeCasts_S32x32x32_S4x8x32x32) transposes_S4x8x32x32_S4x32x8x32_0_2_1_3) shapeCasts_S4x32x8x32_S4x32x256) bitsLt_bf16_f32 := by
  dsimp only [Gen.V, Gen.hostOps0]; after_results_simp; rfl

theorem v14_apply (cg : Fin 4) (i : Fin 32) (q : Fin 256) :
    (V (F := Ideal) m c main_v14 : S4x32x256.Idx → EReal) (ix3 cg i q)
      = slab0 (fun a b c' => m ((c : Thread nD τ).loc main_arg1) (ix3 a b c')) cg i q := by
  refine (congrFun (v14_term m c) (ix3 cg i q)).trans ?_
  refine (truncf_apply (ψ := .bf16) _ bitsLt_bf16_f32 _).trans ?_
  refine (shapeCast_apply _ shapeCasts_S4x32x8x32_S4x32x256 (ix3 cg i q) (ix4 cg i (hi8 q) (lo32 q)) ?_).trans ?_
  · rw [Shape.rowMajor_val_four, Shape.rowMajor_val_three]
    show ((cg.val * 32 + i.val) * 8 + q.val / 32) * 32 + q.val % 32 = (cg.val * 32 + i.val) * 256 + q.val
    omega
  refine (transpose_apply _ _ transposes_S4x8x32x32_S4x32x8x32_0_2_1_3 (ix4 cg i (hi8 q) (lo32 q)) (ix4 cg (hi8 q) i (lo32 q)) ?_).trans ?_
  · intro b; match b with | ⟨0, _⟩ => rfl | ⟨1, _⟩ => rfl | ⟨2, _⟩ => rfl | ⟨3, _⟩ => rfl
  refine (shapeCast_apply _ shapeCasts_S32x32x32_S4x8x32x32 (ix4 cg (hi8 q) i (lo32 q)) (ix3 (dOf cg (hi8 q)) i (lo32 q)) ?_).trans ?_
  · rw [Shape.rowMajor_val_three, Shape.rowMajor_val_four]
    show ((8 * cg.val + q.val / 32) * 32 + i.val) * 32 + q.val % 32 = ((cg.val * 8 + q.val / 32) * 32 + i.val) * 32 + q.val % 32
    omega
  refine (mulf_apply _ _ _).trans ?_
  have hm : (broadcastInDim S32x32x32 ![0, 1, 2] bcast_S32x32x1_S32x32x32_0_1_2
      (broadcastInDim S32x32x1 ![0, 1] bcast_S32x32_S32x32x1_0_1 maskT) : FVec Ideal S32x32x32 .f32)
      (ix3 (dOf cg (hi8 q)) i (lo32 q)) = msk i (dOf cg (hi8 q)) := by
    refine (broadcastInDim_apply _ _ _ (ix3 (dOf cg (hi8 q)) i (lo32 q)) (ix3 (dOf cg (hi8 q)) i (0 : Fin 1)) ?_).trans ?_
    · intro a; match a with | ⟨0, _⟩ => rfl | ⟨1, _⟩ => rfl | ⟨2, _⟩ => rfl
    refine (broadcastInDim_apply _ _ _ (ix3 (dOf cg (hi8 q)) i (0 : Fin 1)) (ix2 (dOf cg (hi8 q)) i) ?_).trans ?_
    · intro a; match a with | ⟨0, _⟩ => rfl | ⟨1, _⟩ => rfl
    exact maskT_apply _ _
  rw [hm]
  rfl

/-! ## The block-diagonal second-layer slab -/

/-- The masked weight, placed on the component diagonal, before the final reshape: a 5-axis array read at `(cg, j, k, j', c)`. -/
theorem w1exp_apply (X : FVec Ideal S32x32x32 .f32) (cg : Fin 4) (j : Fin 8) (k : Fin 32) (j' : Fin 8) (c' : Fin 32) :
    (mulf
      (broadcastInDim S4x8x32x8x32 ![0, 1, 2, 3, 4] bcast_S4x8x32x1x32_S4x8x32x8x32_0_1_2_3_4
        (broadcastInDim S4x8x32x1x32 ![0, 1, 2, 4] bcast_S4x8x32x32_S4x8x32x1x32_0_1_2_4
          (shapeCast S4x8x32x32
            (mulf X (broadcastInDim S32x32x32 ![0, 1, 2] bcast_S32x1x32_S32x32x32_0_1_2
              (broadcastInDim S32x1x32 ![0, 2] bcast_S32x32_S32x1x32_0_2 maskT)))
            shapeCasts_S32x32x32_S4x8x32x32)))
      (broadcastInDim S4x8x32x8x32 ![0, 1, 2, 3, 4] bcast_S1x8x1x8x1_S4x8x32x8x32_0_1_2_3_4
        (broadcastInDim S1x8x1x8x1 ![1, 3] bcast_S8x8_S1x8x1x8x1_1_3 eyeT)) : FVec Ideal S4x8x32x8x32 .f32)
      (ix5 cg j k j' c')
      = (X (ix3 (dOf cg j) k c') * msk c' (dOf cg j)) * eye j j' := by
  refine (mulf_apply _ _ _).trans ?_
  refine congrArg₂ (· * ·) ?_ ?_
  · refine (broadcastInDim_apply _ _ _ (ix5 cg j k j' c') (ix5 cg j k (0 : Fin 1) c') ?_).trans ?_
    · intro a; match a with | ⟨0, _⟩ => rfl | ⟨1, _⟩ => rfl | ⟨2, _⟩ => rfl | ⟨3, _⟩ => rfl | ⟨4, _⟩ => rfl
    refine (broadcastInDim_apply _ _ _ (ix5 cg j k (0 : Fin 1) c') (ix4 cg j k c') ?_).trans ?_
    · intro a; match a with | ⟨0, _⟩ => rfl | ⟨1, _⟩ => rfl | ⟨2, _⟩ => rfl | ⟨3, _⟩ => rfl
    refine (shapeCast_apply _ shapeCasts_S32x32x32_S4x8x32x32 (ix4 cg j k c') (ix3 (dOf cg j) k c') ?_).trans ?_
    · rw [Shape.rowMajor_val_three, Shape.rowMajor_val_four]
      show ((8 * cg.val + j.val) * 32 + k.val) * 32 + c'.val = ((cg.val * 8 + j.val) * 32 + k.val) * 32 + c'.val
      omega
    refine (mulf_apply _ _ _).trans ?_
    refine congrArg₂ (· * ·) rfl ?_
    refine (broadcastInDim_apply _ _ _ (ix3 (dOf cg j) k c') (ix3 (dOf cg j) (0 : Fin 1) c') ?_).trans ?_
    · intro a; match a with | ⟨0, _⟩ => rfl | ⟨1, _⟩ => rfl | ⟨2, _⟩ => rfl
    refine (broadcastInDim_apply _ _ _ (ix3 (dOf cg j) (0 : Fin 1) c') (ix2 (dOf cg j) c') ?_).trans ?_
    · intro a; match a with | ⟨0, _⟩ => rfl | ⟨1, _⟩ => rfl
    exact maskT_apply _ _
  · refine (broadcastInDim_apply _ _ _ (ix5 cg j k j' c') (ix5 (0 : Fin 1) j (0 : Fin 1) j' (0 : Fin 1)) ?_).trans ?_
    · intro a; match a with | ⟨0, _⟩ => rfl | ⟨1, _⟩ => rfl | ⟨2, _⟩ => rfl | ⟨3, _⟩ => rfl | ⟨4, _⟩ => rfl
    refine (broadcastInDim_apply _ _ _ (ix5 (0 : Fin 1) j (0 : Fin 1) j' (0 : Fin 1)) (ix2 j j') ?_).trans ?_
    · intro a; match a with | ⟨0, _⟩ => rfl | ⟨1, _⟩ => rfl
    exact eyeT_apply _ _

set_option maxHeartbeats 4000000 in
theorem v40_term : (V (F := Ideal) m c main_v40 : S4x256x256.Idx → EReal) =
    truncf .bf16 (shapeCast S4x256x256 (mulf
      (broadcastInDim S4x8x32x8x32 ![0, 1, 2, 3, 4] bcast_S4x8x32x1x32_S4x8x32x8x32_0_1_2_3_4
        (broadcastInDim S4x8x32x1x32 ![0, 1, 2, 4] bcast_S4x8x32x32_S4x8x32x1x32_0_1_2_4
          (shapeCast S4x8x32x32
            (mulf (m ((c : Thread nD τ).loc main_arg3)) (broadcastInDim S32x32x32 ![0, 1, 2] bcast_S32x1x32_S32x32x32_0_1_2
              (broadcastInDim S32x1x32 ![0, 2] bcast_S32x32_S32x1x32_0_2 maskT)))
            shapeCasts_S32x32x32_S4x8x32x32)))
      (broadcastInDim S4x8x32x8x32 ![0, 1, 2, 3, 4] bcast_S1x8x1x8x1_S4x8x32x8x32_0_1_2_3_4
        (broadcastInDim S1x8x1x8x1 ![1, 3] bcast_S8x8_S1x8x1x8x1_1_3 eyeT))) shapeCasts_S4x8x32x8x32_S4x256x256) bitsLt_bf16_f32 := by
  dsimp only [Gen.V, Gen.hostOps0]; after_results_simp; rfl

theorem v40_apply (cg : Fin 4) (q q' : Fin 256) :
    (V (F := Ideal) m c main_v40 : S4x256x256.Idx → EReal) (ix3 cg q q')
      = slab1 (fun a b c' => m ((c : Thread nD τ).loc main_arg3) (ix3 a b c')) cg q q' := by
  refine (congrFun (v40_term m c) (ix3 cg q q')).trans ?_
  refine (truncf_apply (ψ := .bf16) _ bitsLt_bf16_f32 _).trans ?_
  refine (shapeCast_apply _ shapeCasts_S4x8x32x8x32_S4x256x256 (ix3 cg q q') (ix5 cg (hi8 q) (lo32 q) (hi8 q') (lo32 q')) ?_).trans ?_
  · rw [Shape.rowMajor_val_five, Shape.rowMajor_val_three]
    show (((cg.val * 8 + q.val / 32) * 32 + q.val % 32) * 8 + q'.val / 32) * 32 + q'.val % 32 = (cg.val * 256 + q.val) * 256 + q'.val
    omega
  exact w1exp_apply _ cg (hi8 q) (lo32 q) (hi8 q') (lo32 q')

/-! ## The block-diagonal monotone-layer slab (the strict lower triangle) -/

theorem wlexp_apply (X : FVec Ideal S32x32x8 .f32) (cg : Fin 4) (j : Fin 8) (r : Fin 32) (j' : Fin 8) (h : Fin 8) :
    (mulf
      (broadcastInDim S4x8x32x8x8 ![0, 1, 2, 3, 4] bcast_S4x8x32x1x8_S4x8x32x8x8_0_1_2_3_4
        (broadcastInDim S4x8x32x1x8 ![0, 1, 2, 4] bcast_S4x8x32x8_S4x8x32x1x8_0_1_2_4
          (shapeCast S4x8x32x8
            (mulf X (broadcastInDim S32x32x8 ![0, 1, 2] bcast_S32x32x1_S32x32x8_0_1_2
              (broadcastInDim S32x32x1 ![0, 1] bcast_S32x32_S32x32x1_0_1 maskT)))
            shapeCasts_S32x32x8_S4x8x32x8)))
      (broadcastInDim S4x8x32x8x8 ![0, 1, 2, 3, 4] bcast_S1x8x1x8x1_S4x8x32x8x8_0_1_2_3_4
        (broadcastInDim S1x8x1x8x1 ![1, 3] bcast_S8x8_S1x8x1x8x1_1_3 eyeT)) : FVec Ideal S4x8x32x8x8 .f32)
      (ix5 cg j r j' h)
      = (X (ix3 (dOf cg j) r h) * msk r (dOf cg j)) * eye j j' := by
  refine (mulf_apply _ _ _).trans ?_
  refine congrArg₂ (· * ·) ?_ ?_
  · refine (broadcastInDim_apply _ _ _ (ix5 cg j r j' h) (ix5 cg j r (0 : Fin 1) h) ?_).trans ?_
    · intro a; match a with | ⟨0, _⟩ => rfl | ⟨1, _⟩ => rfl | ⟨2, _⟩ => rfl | ⟨3, _⟩ => rfl | ⟨4, _⟩ => rfl
    refine (broadcastInDim_apply _ _ _ (ix5 cg j r (0 : Fin 1) h) (ix4 cg j r h) ?_).trans ?_
    · intro a; match a with | ⟨0, _⟩ => rfl | ⟨1, _⟩ => rfl | ⟨2, _⟩ => rfl | ⟨3, _⟩ => rfl
    refine (shapeCast_apply _ shapeCasts_S32x32x8_S4x8x32x8 (ix4 cg j r h) (ix3 (dOf cg j) r h) ?_).trans ?_
    · rw [Shape.rowMajor_val_three, Shape.rowMajor_val_four]
      show ((8 * cg.val + j.val) * 32 + r.val) * 8 + h.val = ((cg.val * 8 + j.val) * 32 + r.val) * 8 + h.val
      omega
    refine (mulf_apply _ _ _).trans ?_
    refine congrArg₂ (· * ·) rfl ?_
    refine (broadcastInDim_apply _ _ _ (ix3 (dOf cg j) r h) (ix3 (dOf cg j) r (0 : Fin 1)) ?_).trans ?_
    · intro a; match a with | ⟨0, _⟩ => rfl | ⟨1, _⟩ => rfl | ⟨2, _⟩ => rfl
    refine (broadcastInDim_apply _ _ _ (ix3 (dOf cg j) r (0 : Fin 1)) (ix2 (dOf cg j) r) ?_).trans ?_
    · intro a; match a with | ⟨0, _⟩ => rfl | ⟨1, _⟩ => rfl
    exact maskT_apply _ _
  · refine (broadcastInDim_apply _ _ _ (ix5 cg j r j' h) (ix5 (0 : Fin 1) j (0 : Fin 1) j' (0 : Fin 1)) ?_).trans ?_
    · intro a; match a with | ⟨0, _⟩ => rfl | ⟨1, _⟩ => rfl | ⟨2, _⟩ => rfl | ⟨3, _⟩ => rfl | ⟨4, _⟩ => rfl
    refine (broadcastInDim_apply _ _ _ (ix5 (0 : Fin 1) j (0 : Fin 1) j' (0 : Fin 1)) (ix2 j j') ?_).trans ?_
    · intro a; match a with | ⟨0, _⟩ => rfl | ⟨1, _⟩ => rfl
    exact eyeT_apply _ _

set_option maxHeartbeats 4000000 in
theorem v67_term : (V (F := Ideal) m c main_v67 : S4x256x64.Idx → EReal) =
    truncf .bf16 (shapeCast S4x256x64 (mulf
      (broadcastInDim S4x8x32x8x8 ![0, 1, 2, 3, 4] bcast_S4x8x32x1x8_S4x8x32x8x8_0_1_2_3_4
        (broadcastInDim S4x8x32x1x8 ![0, 1, 2, 4] bcast_S4x8x32x8_S4x8x32x1x8_0_1_2_4
          (shapeCast S4x8x32x8
            (mulf (m ((c : Thread nD τ).loc main_arg5)) (broadcastInDim S32x32x8 ![0, 1, 2] bcast_S32x32x1_S32x32x8_0_1_2
              (broadcastInDim S32x32x1 ![0, 1] bcast_S32x32_S32x32x1_0_1 maskT)))
            shapeCasts_S32x32x8_S4x8x32x8)))
      (broadcastInDim S4x8x32x8x8 ![0, 1, 2, 3, 4] bcast_S1x8x1x8x1_S4x8x32x8x8_0_1_2_3_4
        (broadcastInDim S1x8x1x8x1 ![1, 3] bcast_S8x8_S1x8x1x8x1_1_3 eyeT))) shapeCasts_S4x8x32x8x8_S4x256x64) bitsLt_bf16_f32 := by
  dsimp only [Gen.V, Gen.hostOps0]; after_results_simp; rfl

theorem v67_apply (cg : Fin 4) (q : Fin 256) (p : Fin 64) :
    (V (F := Ideal) m c main_v67 : S4x256x64.Idx → EReal) (ix3 cg q p)
      = slabM (fun a b c' => m ((c : Thread nD τ).loc main_arg5) (ix3 a b c')) cg q p := by
  refine (congrFun (v67_term m c) (ix3 cg q p)).trans ?_
  refine (truncf_apply (ψ := .bf16) _ bitsLt_bf16_f32 _).trans ?_
  refine (shapeCast_apply _ shapeCasts_S4x8x32x8x8_S4x256x64 (ix3 cg q p) (ix5 cg (hi8 q) (lo32 q) (hi8' p) (lo8 p)) ?_).trans ?_
  · rw [Shape.rowMajor_val_five, Shape.rowMajor_val_three]
    show (((cg.val * 8 + q.val / 32) * 32 + q.val % 32) * 8 + p.val / 8) * 8 + p.val % 8 = (cg.val * 256 + q.val) * 64 + p.val
    omega
  exact wlexp_apply _ cg (hi8 q) (lo32 q) (hi8' p) (lo8 p)

/-! ## The diagonal slab: the gathered diagonal, its exponential, the Kronecker delta -/

/-- `select(iota < 0, iota + 32, iota)` on `[32]`: entry `d` is the word `d`. -/
def selT : IVec S32 32 :=
  select (cmpi .slt (iotaInDim S32 32 0) (broadcastInDim S32 ![] bcast_S_S32 (constantI S_ 32 0#32)))
    (addi (iotaInDim S32 32 0) (broadcastInDim S32 ![] bcast_S_S32 (constantI S_ 32 32#32)))
    (iotaInDim S32 32 0)

/-- The start indices of the diagonal gather: row `d` is `(d, d)`. -/
def diagIdx : IVec S32x2 32 :=
  concatenate S32x2 1
    [⟨S32x1, broadcastInDim S32x1 ![0] bcast_S32_S32x1_0 selT⟩, ⟨S32x1, broadcastInDim S32x1 ![0] bcast_S32_S32x1_0 selT⟩]
    concatenates_S32x1_S32x1_S32x2_d1

theorem sel_word : ∀ d : Fin 32,
    Scalar.select (IntOp.cmpi .slt (BitVec.ofNat 32 d.val) 0#32) (IntOp.addi (BitVec.ofNat 32 d.val) 32#32) (BitVec.ofNat 32 d.val)
      = BitVec.ofNat 32 d.val := by
  decide

/-- A word below 32 read signed and clamped into `[0, 31]` is itself. -/
theorem clamp_word : ∀ d : Fin 32, min (BitVec.ofNat 32 d.val).toInt.toNat 31 + 0 + 0 = d.val := by
  decide

theorem selT_apply (d : Fin 32) : selT (ix1 d) = BitVec.ofNat 32 d.val := sel_word d

theorem bsel_apply (d : Fin 32) :
    (broadcastInDim S32x1 ![0] bcast_S32_S32x1_0 selT : IVec S32x1 32) (ix2 d (0 : Fin 1)) = BitVec.ofNat 32 d.val := by
  refine (broadcastInDim_apply _ _ _ (ix2 d (0 : Fin 1)) (ix1 d) ?_).trans (selT_apply d)
  intro a; match a with | ⟨0, _⟩ => rfl

theorem diagIdx_apply0 (d : Fin 32) : diagIdx (ix2 d (0 : Fin 2)) = BitVec.ofNat 32 d.val := by
  unfold diagIdx
  refine (concatenate_pair_apply_left (1 : Fin S32x2.rank) _ _ concatenates_S32x1_S32x1_S32x2_d1 (ix2 d (0 : Fin 2)) rfl
    (ix2 d (0 : Fin 1)) ?_).trans (bsel_apply d)
  intro b; match b with | ⟨0, _⟩ => rfl | ⟨1, _⟩ => rfl

theorem diagIdx_apply1 (d : Fin 32) : diagIdx (ix2 d (1 : Fin 2)) = BitVec.ofNat 32 d.val := by
  unfold diagIdx
  refine (concatenate_pair_apply_right (1 : Fin S32x2.rank) _ _ concatenates_S32x1_S32x1_S32x2_d1 (ix2 d (1 : Fin 2)) rfl rfl
    (ix2 d (0 : Fin 1)) ?_ ?_).trans (bsel_apply d)
  · intro b hb
    match b, hb with
    | ⟨0, _⟩, _ => rfl
    | ⟨1, _⟩, hb => exact absurd rfl hb
  · rfl

/-- The gather with two collapsed, start-indexed axes and one offset axis, at start indices `(d, d)`: the diagonal. -/
theorem gather_diag_apply {α : Type} (X : S32x32x8.Idx → α) (idx : IVec S32x2 32) (d : Fin 32) (h : Fin 8)
    (h0 : idx (ix2 d (0 : Fin 2)) = BitVec.ofNat 32 d.val) (h1 : idx (ix2 d (1 : Fin 2)) = BitVec.ofNat 32 d.val) :
    Host.gather gather_S32x32x8_S32x2_S32x8_1_01_n_n_01_1_118 X idx (ix2 d h) = X (ix3 d d h) := by
  have e0 : (gather_S32x32x8_S32x2_S32x8_1_01_n_n_01_1_118.operandIdx (ix2 d h) idx (0 : Fin S32x32x8.rank)).val = d.val := by
    show gather_S32x32x8_S32x2_S32x8_1_01_n_n_01_1_118.start (ix2 d h) idx 0
      + gather_S32x32x8_S32x2_S32x8_1_01_n_n_01_1_118.batchCoord (ix2 d h) 0
      + gather_S32x32x8_S32x2_S32x8_1_01_n_n_01_1_118.offCoord (ix2 d h) 0 = d.val
    rw [GatherDims.batchCoord_eq_zero _ _ _ List.not_mem_nil,
      GatherDims.offCoord_eq_zero _ _ _ (fun hm => ((GatherDims.mem_sKept _ _).mp hm).1 (by decide))]
    unfold GatherDims.start
    rw [dif_pos (show (0 : Fin S32x32x8.rank) ∈ gather_S32x32x8_S32x2_S32x8_1_01_n_n_01_1_118.startIndexMap from by decide)]
    have hsi : gather_S32x32x8_S32x2_S32x8_1_01_n_n_01_1_118.siIdx (ix2 d h)
        ⟨List.idxOf (0 : Fin S32x32x8.rank) gather_S32x32x8_S32x2_S32x8_1_01_n_n_01_1_118.startIndexMap,
          List.idxOf_lt_length_iff.2 (by decide)⟩ = ix2 d (0 : Fin 2) := by
      funext b; refine Fin.ext ?_
      match b with
      | ⟨0, _⟩ => rfl
      | ⟨1, _⟩ => rfl
    rw [hsi, h0]
    exact clamp_word d
  have e1 : (gather_S32x32x8_S32x2_S32x8_1_01_n_n_01_1_118.operandIdx (ix2 d h) idx (1 : Fin S32x32x8.rank)).val = d.val := by
    show gather_S32x32x8_S32x2_S32x8_1_01_n_n_01_1_118.start (ix2 d h) idx 1
      + gather_S32x32x8_S32x2_S32x8_1_01_n_n_01_1_118.batchCoord (ix2 d h) 1
      + gather_S32x32x8_S32x2_S32x8_1_01_n_n_01_1_118.offCoord (ix2 d h) 1 = d.val
    rw [GatherDims.batchCoord_eq_zero _ _ _ List.not_mem_nil,
      GatherDims.offCoord_eq_zero _ _ _ (fun hm => ((GatherDims.mem_sKept _ _).mp hm).1 (by decide))]
    unfold GatherDims.start
    rw [dif_pos (show (1 : Fin S32x32x8.rank) ∈ gather_S32x32x8_S32x2_S32x8_1_01_n_n_01_1_118.startIndexMap from by decide)]
    have hsi : gather_S32x32x8_S32x2_S32x8_1_01_n_n_01_1_118.siIdx (ix2 d h)
        ⟨List.idxOf (1 : Fin S32x32x8.rank) gather_S32x32x8_S32x2_S32x8_1_01_n_n_01_1_118.startIndexMap,
          List.idxOf_lt_length_iff.2 (by decide)⟩ = ix2 d (1 : Fin 2) := by
      funext b; refine Fin.ext ?_
      match b with
      | ⟨0, _⟩ => rfl
      | ⟨1, _⟩ => rfl
    rw [hsi, h1]
    exact clamp_word d
  have e2 : (gather_S32x32x8_S32x2_S32x8_1_01_n_n_01_1_118.operandIdx (ix2 d h) idx (2 : Fin S32x32x8.rank)).val = h.val := by
    show gather_S32x32x8_S32x2_S32x8_1_01_n_n_01_1_118.start (ix2 d h) idx 2
      + gather_S32x32x8_S32x2_S32x8_1_01_n_n_01_1_118.batchCoord (ix2 d h) 2
      + gather_S32x32x8_S32x2_S32x8_1_01_n_n_01_1_118.offCoord (ix2 d h) 2 = h.val
    rw [GatherDims.batchCoord_eq_zero _ _ _ List.not_mem_nil]
    unfold GatherDims.start GatherDims.offCoord
    rw [dif_neg (show ¬ (2 : Fin S32x32x8.rank) ∈ gather_S32x32x8_S32x2_S32x8_1_01_n_n_01_1_118.startIndexMap from by decide),
      dif_pos (show (2 : Fin S32x32x8.rank) ∈ gather_S32x32x8_S32x2_S32x8_1_01_n_n_01_1_118.sKept from by decide)]
    have z : ∀ x : Nat, 0 + 0 + x = x := fun x => by omega
    exact (z _).trans rfl
  unfold Host.gather
  refine congrArg X (funext fun a => Fin.ext ?_)
  match a with
  | ⟨0, _⟩ => exact e0
  | ⟨1, _⟩ => exact e1
  | ⟨2, _⟩ => exact e2

/-- The exponentiated diagonal, placed on the component diagonal, before the final reshape: read at `(cg, j, j', h)`. -/
theorem eexp_expand_apply (Y : FVec Ideal S32x8 .f32) (cg : Fin 4) (j j' h : Fin 8) :
    (mulf
      (broadcastInDim S4x8x8x8 ![0, 1, 2, 3] bcast_S4x8x1x8_S4x8x8x8_0_1_2_3
        (broadcastInDim S4x8x1x8 ![0, 1, 3] bcast_S4x8x8_S4x8x1x8_0_1_3 (shapeCast S4x8x8 Y shapeCasts_S32x8_S4x8x8)))
      (broadcastInDim S4x8x8x8 ![0, 1, 2, 3] bcast_S1x8x8x1_S4x8x8x8_0_1_2_3
        (broadcastInDim S1x8x8x1 ![1, 2] bcast_S8x8_S1x8x8x1_1_2 eyeT)) : FVec Ideal S4x8x8x8 .f32)
      (ix4 cg j j' h)
      = Y (ix2 (dOf cg j) h) * eye j j' := by
  refine (mulf_apply _ _ _).trans ?_
  refine congrArg₂ (· * ·) ?_ ?_
  · refine (broadcastInDim_apply _ _ _ (ix4 cg j j' h) (ix4 cg j (0 : Fin 1) h) ?_).trans ?_
    · intro a; match a with | ⟨0, _⟩ => rfl | ⟨1, _⟩ => rfl | ⟨2, _⟩ => rfl | ⟨3, _⟩ => rfl
    refine (broadcastInDim_apply _ _ _ (ix4 cg j (0 : Fin 1) h) (ix3 cg j h) ?_).trans ?_
    · intro a; match a with | ⟨0, _⟩ => rfl | ⟨1, _⟩ => rfl | ⟨2, _⟩ => rfl
    refine shapeCast_apply _ shapeCasts_S32x8_S4x8x8 (ix3 cg j h) (ix2 (dOf cg j) h) ?_
    rw [Shape.rowMajor_val_two, Shape.rowMajor_val_three]
    show (8 * cg.val + j.val) * 8 + h.val = (cg.val * 8 + j.val) * 8 + h.val
    omega
  · refine (broadcastInDim_apply _ _ _ (ix4 cg j j' h) (ix4 (0 : Fin 1) j j' (0 : Fin 1)) ?_).trans ?_
    · intro a; match a with | ⟨0, _⟩ => rfl | ⟨1, _⟩ => rfl | ⟨2, _⟩ => rfl | ⟨3, _⟩ => rfl
    refine (broadcastInDim_apply _ _ _ (ix4 (0 : Fin 1) j j' (0 : Fin 1)) (ix2 j j') ?_).trans ?_
    · intro a; match a with | ⟨0, _⟩ => rfl | ⟨1, _⟩ => rfl
    exact eyeT_apply _ _

set_option maxHeartbeats 4000000 in
theorem v98_term : (V (F := Ideal) m c main_v98 : S4x8x64.Idx → EReal) =
    shapeCast S4x8x64 (mulf
      (broadcastInDim S4x8x8x8 ![0, 1, 2, 3] bcast_S4x8x1x8_S4x8x8x8_0_1_2_3
        (broadcastInDim S4x8x1x8 ![0, 1, 3] bcast_S4x8x8_S4x8x1x8_0_1_3
          (shapeCast S4x8x8
            (Host.exp (F := Ideal) (Host.gather gather_S32x32x8_S32x2_S32x8_1_01_n_n_01_1_118 (m ((c : Thread nD τ).loc main_arg5)) diagIdx))
            shapeCasts_S32x8_S4x8x8)))
      (broadcastInDim S4x8x8x8 ![0, 1, 2, 3] bcast_S1x8x8x1_S4x8x8x8_0_1_2_3
        (broadcastInDim S1x8x8x1 ![1, 2] bcast_S8x8_S1x8x8x1_1_2 eyeT))) shapeCasts_S4x8x8x8_S4x8x64 := by
  dsimp only [Gen.V, Gen.hostOps0]; after_results_simp; rfl

theorem v98_apply (cg : Fin 4) (j : Fin 8) (p : Fin 64) :
    (V (F := Ideal) m c main_v98 : S4x8x64.Idx → EReal) (ix3 cg j p)
      = slabE (fun a b c' => m ((c : Thread nD τ).loc main_arg5) (ix3 a b c')) cg j p := by
  refine (congrFun (v98_term m c) (ix3 cg j p)).trans ?_
  refine (shapeCast_apply _ shapeCasts_S4x8x8x8_S4x8x64 (ix3 cg j p) (ix4 cg j (hi8' p) (lo8 p)) ?_).trans ?_
  · rw [Shape.rowMajor_val_four, Shape.rowMajor_val_three]
    show ((cg.val * 8 + j.val) * 8 + p.val / 8) * 8 + p.val % 8 = (cg.val * 8 + j.val) * 64 + p.val
    omega
  refine (eexp_expand_apply _ cg j (hi8' p) (lo8 p)).trans ?_
  unfold slabE
  refine congrArg₂ (· * ·) ?_ rfl
  show eexp (Host.gather gather_S32x32x8_S32x2_S32x8_1_01_n_n_01_1_118 (m ((c : Thread nD τ).loc main_arg5)) diagIdx
    (ix2 (dOf cg j) (lo8 p))) = eexp _
  refine congrArg eexp ?_
  exact gather_diag_apply _ diagIdx (dOf cg j) (lo8 p) (diagIdx_apply0 _) (diagIdx_apply1 _)

end Cert.Monotone.Slabs

end
-- ==== Proof.Body.lean ====
/-
  The kernel body's 32 stored columns, each read at one row.

  The body handles four groups of eight components. For a group it computes, from the block x and the group's
  slices of the seven slabs,
    h1 = max (x · w0 + b0) 0,  h2 = max (h1 · w1 + b1) 0,  xl = (h2 · wm + bl) + x[:, 8cg … 8cg+7] · mm,
  and stores, for each component j, the pooling (largest of the four pairwise minima) of xl's columns 8j … 8j+7.
  The four groups are cut into named vector terms at different places, but each composes the same term
  (`xlayer`); read at a row that term is the specification's `klay` of the row (`xlayer_apply`), and a stored
  column is the specification's `kerGrp` (`col_of`, then one theorem per stored column).
  On extended reals every product, sum, maximum and minimum is the exact one and the narrowing to bf16 is the
  identity, so nothing here needs finiteness.
-/
import proofs.«166035_j57586921505191_2_alg».proof.Proof.Gen.KernelIdeal.Skeleton
import proofs.«166035_j57586921505191_2_alg».proof.Proof.Spec
import Idealize.ShloMosaic.Lib.ValueIdx
import Idealize.ShloMosaic.Lib.Pipeline.Value
import Idealize.ShloMosaic.PureOps.Ideal.Laws

noncomputable section

namespace Cert.Monotone.Body

open Idealize.ShloMosaic Idealize.ShloMosaic.ValueIdx Cert.KernelIdeal Cert.KernelIdeal.Gen
open scoped BigOperators

/-! ## Layout operations of the slabs, read at an index -/

/-- A cast that drops the leading unit axis of a [1,a,b] slab reads (0,i,q) at (i,q). -/
theorem cast3_apply {α : Type} {a b : Nat} (w : (⟨3, ![1, a, b]⟩ : Shape).Idx → α)
    (h : (⟨3, ![1, a, b]⟩ : Shape).ShapeCasts ⟨2, ![a, b]⟩) (i : Fin a) (q : Fin b) :
    shapeCast ⟨2, ![a, b]⟩ w h (ix2 i q) = w (ix3 0 i q) := by
  refine shapeCast_apply w h (ix2 i q) (ix3 0 i q) ?_
  rw [Shape.rowMajor_val_three, Shape.rowMajor_val_two]
  show (0 * a + i.val) * b + q.val = i.val * b + q.val
  simp

/-- A [1,n] bias cast to [n] and back, then broadcast over the rows, reads (0,q) at (r,q). -/
theorem bias_apply {α : Type} {m n : Nat} (b : (⟨2, ![1, n]⟩ : Shape).Idx → α)
    (h1 : (⟨2, ![1, n]⟩ : Shape).ShapeCasts ⟨1, ![n]⟩) (h2 : (⟨1, ![n]⟩ : Shape).ShapeCasts ⟨2, ![1, n]⟩)
    (h3 : (⟨2, ![1, n]⟩ : Shape).Broadcasts ⟨2, ![m, n]⟩) (r : Fin m) (q : Fin n) :
    broadcastTo ⟨2, ![m, n]⟩ (shapeCast ⟨2, ![1, n]⟩ (shapeCast ⟨1, ![n]⟩ b h1) h2) h3 (ix2 r q) = b (ix2 0 q) := by
  rw [shapeCast_shapeCast]
  refine broadcastTo_apply b h3 (ix2 r q) (ix2 0 q) fun a => ?_
  match a with
  | ⟨0, _⟩ => rfl
  | ⟨1, _⟩ =>
    show q.val = if n = 1 then 0 else q.val
    have := q.isLt
    split <;> omega

/-! ## The four matrix products, read at an index -/

theorem mm32_apply_l0 (j : S1024x256.Idx) (k : dot_S1024x32_S32x256_S1024x256_1_0_0_1_n_n.contr.Idx) : (dot_S1024x32_S32x256_S1024x256_1_0_0_1_n_n.lhsIdx j k 0).val = (j 0).val := by
  unfold DotDims.lhsIdx
  rw [dif_neg (show ¬(0 : Fin S1024x32.rank) ∈ dot_S1024x32_S32x256_S1024x256_1_0_0_1_n_n.lhsBatch by decide),
    dif_pos (show (0 : Fin S1024x32.rank) ∈ dot_S1024x32_S32x256_S1024x256_1_0_0_1_n_n.lhsNonContracting by decide)]
  rfl
theorem mm32_apply_r1 (j : S1024x256.Idx) (k : dot_S1024x32_S32x256_S1024x256_1_0_0_1_n_n.contr.Idx) : (dot_S1024x32_S32x256_S1024x256_1_0_0_1_n_n.rhsIdx j k 1).val = (j 1).val := by
  unfold DotDims.rhsIdx
  rw [dif_neg (show ¬(1 : Fin S32x256.rank) ∈ dot_S1024x32_S32x256_S1024x256_1_0_0_1_n_n.rhsBatch by decide),
    dif_pos (show (1 : Fin S32x256.rank) ∈ dot_S1024x32_S32x256_S1024x256_1_0_0_1_n_n.rhsNonContracting by decide)]
  rfl
/-- The [1024,32]·[32,256] product into the zero splat at (r,q): the sum over the 32 contracted positions. -/
theorem mm32_apply (A : FVec Ideal S1024x32 .bf16) (B : FVec Ideal S32x256 .bf16) (r : Fin 1024) (q : Fin 256) :
    matmul (F := Ideal) dot_S1024x32_S32x256_S1024x256_1_0_0_1_n_n none A B (constant S1024x256 .f32 0x00000000#32) (ix2 r q)
      = ∑ i : Fin 32, A (ix2 r i) * B (ix2 i q) := by
  simp only [matmul]
  rw [Ideal.matmul_constant_zero_apply, ← Equiv.sum_comp (contrEquiv1 dot_S1024x32_S32x256_S1024x256_1_0_0_1_n_n 32 rfl rfl).symm]
  refine Finset.sum_congr rfl fun k _ => ?_
  have hk := contrEquiv1_symm_val dot_S1024x32_S32x256_S1024x256_1_0_0_1_n_n 32 rfl rfl k
  have el : dot_S1024x32_S32x256_S1024x256_1_0_0_1_n_n.lhsIdx (ix2 r q) ((contrEquiv1 dot_S1024x32_S32x256_S1024x256_1_0_0_1_n_n 32 rfl rfl).symm k) = ix2 r k :=
    funext fun a => Fin.ext (by
      match a with
      | ⟨0, _⟩ => exact mm32_apply_l0 _ _
      | ⟨1, _⟩ => exact (dot_S1024x32_S32x256_S1024x256_1_0_0_1_n_n.lhsIdx_val_of_single rfl _ _).trans hk)
  have er : dot_S1024x32_S32x256_S1024x256_1_0_0_1_n_n.rhsIdx (ix2 r q) ((contrEquiv1 dot_S1024x32_S32x256_S1024x256_1_0_0_1_n_n 32 rfl rfl).symm k) = ix2 k q :=
    funext fun a => Fin.ext (by
      match a with
      | ⟨0, _⟩ => exact (dot_S1024x32_S32x256_S1024x256_1_0_0_1_n_n.rhsIdx_val_of_single rfl _ _).trans hk
      | ⟨1, _⟩ => exact mm32_apply_r1 _ _)
  rw [el, er]

theorem mm256_apply_l0 (j : S1024x256.Idx) (k : dot_S1024x256_S256x256_S1024x256_1_0_0_1_n_n.contr.Idx) : (dot_S1024x256_S256x256_S1024x256_1_0_0_1_n_n.lhsIdx j k 0).val = (j 0).val := by
  unfold DotDims.lhsIdx
  rw [dif_neg (show ¬(0 : Fin S1024x256.rank) ∈ dot_S1024x256_S256x256_S1024x256_1_0_0_1_n_n.lhsBatch by decide),
    dif_pos (show (0 : Fin S1024x256.rank) ∈ dot_S1024x256_S256x256_S1024x256_1_0_0_1_n_n.lhsNonContracting by decide)]
  rfl
theorem mm256_apply_r1 (j : S1024x256.Idx) (k : dot_S1024x256_S256x256_S1024x256_1_0_0_1_n_n.contr.Idx) : (dot_S1024x256_S256x256_S1024x256_1_0_0_1_n_n.rhsIdx j k 1).val = (j 1).val := by
  unfold DotDims.rhsIdx
  rw [dif_neg (show ¬(1 : Fin S256x256.rank) ∈ dot_S1024x256_S256x256_S1024x256_1_0_0_1_n_n.rhsBatch by decide),
    dif_pos (show (1 : Fin S256x256.rank) ∈ dot_S1024x256_S256x256_S1024x256_1_0_0_1_n_n.rhsNonContracting by decide)]
  rfl
/-- The [1024,256]·[256,256] product into the zero splat at (r,q): the sum over the 256 contracted positions. -/
theorem mm256_apply (A : FVec Ideal S1024x256 .bf16) (B : FVec Ideal S256x256 .bf16) (r : Fin 1024) (q : Fin 256) :
    matmul (F := Ideal) dot_S1024x256_S256x256_S1024x256_1_0_0_1_n_n none A B (constant S1024x256 .f32 0x00000000#32) (ix2 r q)
      = ∑ i : Fin 256, A (ix2 r i) * B (ix2 i q) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 r q) ((contrEquiv1 dot_S1024x256_S256x256_S1024x256_1_0_0_1_n_n 256 rfl rfl).symm k) = ix2 r k :=
    funext fun a => Fin.ext (by
      match a with
      | ⟨0, _⟩ => exact mm256_apply_l0 _ _
      | ⟨1, _⟩ => exact (dot_S1024x256_S256x256_S1024x256_1_0_0_1_n_n.lhsIdx_val_of_single rfl _ _).trans hk)
  have er : dot_S1024x256_S256x256_S1024x256_1_0_0_1_n_n.rhsIdx (ix2 r q) ((contrEquiv1 dot_S1024x256_S256x256_S1024x256_1_0_0_1_n_n 256 rfl rfl).symm k) = ix2 k q :=
    funext fun a => Fin.ext (by
      match a with
      | ⟨0, _⟩ => exact (dot_S1024x256_S256x256_S1024x256_1_0_0_1_n_n.rhsIdx_val_of_single rfl _ _).trans hk
      | ⟨1, _⟩ => exact mm256_apply_r1 _ _)
  rw [el, er]

theorem mm64_apply_l0 (j : S1024x64.Idx) (k : dot_S1024x256_S256x64_S1024x64_1_0_0_1_n_n.contr.Idx) : (dot_S1024x256_S256x64_S1024x64_1_0_0_1_n_n.lhsIdx j k 0).val = (j 0).val := by
  unfold DotDims.lhsIdx
  rw [dif_neg (show ¬(0 : Fin S1024x256.rank) ∈ dot_S1024x256_S256x64_S1024x64_1_0_0_1_n_n.lhsBatch by decide),
    dif_pos (show (0 : Fin S1024x256.rank) ∈ dot_S1024x256_S256x64_S1024x64_1_0_0_1_n_n.lhsNonContracting by decide)]
  rfl
theorem mm64_apply_r1 (j : S1024x64.Idx) (k : dot_S1024x256_S256x64_S1024x64_1_0_0_1_n_n.contr.Idx) : (dot_S1024x256_S256x64_S1024x64_1_0_0_1_n_n.rhsIdx j k 1).val = (j 1).val := by
  unfold DotDims.rhsIdx
  rw [dif_neg (show ¬(1 : Fin S256x64.rank) ∈ dot_S1024x256_S256x64_S1024x64_1_0_0_1_n_n.rhsBatch by decide),
    dif_pos (show (1 : Fin S256x64.rank) ∈ dot_S1024x256_S256x64_S1024x64_1_0_0_1_n_n.rhsNonContracting by decide)]
  rfl
/-- The [1024,256]·[256,64] product into the zero splat at (r,q): the sum over the 256 contracted positions. -/
theorem mm64_apply (A : FVec Ideal S1024x256 .bf16) (B : FVec Ideal S256x64 .bf16) (r : Fin 1024) (q : Fin 64) :
    matmul (F := Ideal) dot_S1024x256_S256x64_S1024x64_1_0_0_1_n_n none A B (constant S1024x64 .f32 0x00000000#32) (ix2 r q)
      = ∑ i : Fin 256, A (ix2 r i) * B (ix2 i q) := by
  simp only [matmul]
  rw [Ideal.matmul_constant_zero_apply, ← Equiv.sum_comp (contrEquiv1 dot_S1024x256_S256x64_S1024x64_1_0_0_1_n_n 256 rfl rfl).symm]
  refine Finset.sum_congr rfl fun k _ => ?_
  have hk := contrEquiv1_symm_val dot_S1024x256_S256x64_S1024x64_1_0_0_1_n_n 256 rfl rfl k
  have el : dot_S1024x256_S256x64_S1024x64_1_0_0_1_n_n.lhsIdx (ix2 r q) ((contrEquiv1 dot_S1024x256_S256x64_S1024x64_1_0_0_1_n_n 256 rfl rfl).symm k) = ix2 r k :=
    funext fun a => Fin.ext (by
      match a with
      | ⟨0, _⟩ => exact mm64_apply_l0 _ _
      | ⟨1, _⟩ => exact (dot_S1024x256_S256x64_S1024x64_1_0_0_1_n_n.lhsIdx_val_of_single rfl _ _).trans hk)
  have er : dot_S1024x256_S256x64_S1024x64_1_0_0_1_n_n.rhsIdx (ix2 r q) ((contrEquiv1 dot_S1024x256_S256x64_S1024x64_1_0_0_1_n_n 256 rfl rfl).symm k) = ix2 k q :=
    funext fun a => Fin.ext (by
      match a with
      | ⟨0, _⟩ => exact (dot_S1024x256_S256x64_S1024x64_1_0_0_1_n_n.rhsIdx_val_of_single rfl _ _).trans hk
      | ⟨1, _⟩ => exact mm64_apply_r1 _ _)
  rw [el, er]

theorem mm8_apply_l0 (j : S1024x64.Idx) (k : dot_S1024x8_S8x64_S1024x64_1_0_0_1_n_n.contr.Idx) : (dot_S1024x8_S8x64_S1024x64_1_0_0_1_n_n.lhsIdx j k 0).val = (j 0).val := by
  unfold DotDims.lhsIdx
  rw [dif_neg (show ¬(0 : Fin S1024x8.rank) ∈ dot_S1024x8_S8x64_S1024x64_1_0_0_1_n_n.lhsBatch by decide),
    dif_pos (show (0 : Fin S1024x8.rank) ∈ dot_S1024x8_S8x64_S1024x64_1_0_0_1_n_n.lhsNonContracting by decide)]
  rfl
theorem mm8_apply_r1 (j : S1024x64.Idx) (k : dot_S1024x8_S8x64_S1024x64_1_0_0_1_n_n.contr.Idx) : (dot_S1024x8_S8x64_S1024x64_1_0_0_1_n_n.rhsIdx j k 1).val = (j 1).val := by
  unfold DotDims.rhsIdx
  rw [dif_neg (show ¬(1 : Fin S8x64.rank) ∈ dot_S1024x8_S8x64_S1024x64_1_0_0_1_n_n.rhsBatch by decide),
    dif_pos (show (1 : Fin S8x64.rank) ∈ dot_S1024x8_S8x64_S1024x64_1_0_0_1_n_n.rhsNonContracting by decide)]
  rfl
/-- The [1024,8]·[8,64] product into the zero splat at (r,q): the sum over the 8 contracted positions. -/
theorem mm8_apply (A : FVec Ideal S1024x8 .f32) (B : FVec Ideal S8x64 .f32) (r : Fin 1024) (q : Fin 64) :
    matmul (F := Ideal) dot_S1024x8_S8x64_S1024x64_1_0_0_1_n_n (some .fp32) A B (constant S1024x64 .f32 0x00000000#32) (ix2 r q)
      = ∑ i : Fin 8, A (ix2 r i) * B (ix2 i q) := by
  simp only [matmul]
  rw [Ideal.matmul_constant_zero_apply, ← Equiv.sum_comp (contrEquiv1 dot_S1024x8_S8x64_S1024x64_1_0_0_1_n_n 8 rfl rfl).symm]
  refine Finset.sum_congr rfl fun k _ => ?_
  have hk := contrEquiv1_symm_val dot_S1024x8_S8x64_S1024x64_1_0_0_1_n_n 8 rfl rfl k
  have el : dot_S1024x8_S8x64_S1024x64_1_0_0_1_n_n.lhsIdx (ix2 r q) ((contrEquiv1 dot_S1024x8_S8x64_S1024x64_1_0_0_1_n_n 8 rfl rfl).symm k) = ix2 r k :=
    funext fun a => Fin.ext (by
      match a with
      | ⟨0, _⟩ => exact mm8_apply_l0 _ _
      | ⟨1, _⟩ => exact (dot_S1024x8_S8x64_S1024x64_1_0_0_1_n_n.lhsIdx_val_of_single rfl _ _).trans hk)
  have er : dot_S1024x8_S8x64_S1024x64_1_0_0_1_n_n.rhsIdx (ix2 r q) ((contrEquiv1 dot_S1024x8_S8x64_S1024x64_1_0_0_1_n_n 8 rfl rfl).symm k) = ix2 k q :=
    funext fun a => Fin.ext (by
      match a with
      | ⟨0, _⟩ => exact (dot_S1024x8_S8x64_S1024x64_1_0_0_1_n_n.rhsIdx_val_of_single rfl _ _).trans hk
      | ⟨1, _⟩ => exact mm8_apply_r1 _ _)
  rw [el, er]

/-! ## The layers as vector terms, and each read at an index -/

/-- The rectifier followed by the (exact) narrowing: max(v, 0) with the 0 a broadcast scalar. -/
def relu (v : FVec Ideal S1024x256 .f32) (c : Ideal .f32) : FVec Ideal S1024x256 .bf16 :=
  truncf .bf16 (maximumf v (broadcast S1024x256 c)) bitsLt_bf16_f32

/-- The second dense layer: h · w1 + b1 over a group's [1,256,256] and [1,256] slab slices. -/
def lin2 (H : FVec Ideal S1024x256 .bf16) (w1 : Vec Ideal S1x256x256 .bf16) (b1 : Vec Ideal S1x256 .f32) :
    FVec Ideal S1024x256 .f32 :=
  addf (matmul dot_S1024x256_S256x256_S1024x256_1_0_0_1_n_n none H (shapeCast S256x256 w1 shapeCasts_S1x256x256_S256x256 : FVec Ideal S256x256 .bf16)
      (constant S1024x256 .f32 0x00000000#32))
    (broadcastTo S1024x256 (shapeCast S1x256 (shapeCast S256 b1 shapeCasts_S1x256_S256 : FVec Ideal S256 .f32) shapeCasts_S256_S1x256 : FVec Ideal S1x256 .f32)
      broadcasts_S1x256_S1024x256)

/-- The monotone-weight layer without its pass-through term: h · wm + bl. -/
def lin3 (H : FVec Ideal S1024x256 .bf16) (wm : Vec Ideal S1x256x64 .bf16) (bl : Vec Ideal S1x64 .f32) :
    FVec Ideal S1024x64 .f32 :=
  addf (matmul dot_S1024x256_S256x64_S1024x64_1_0_0_1_n_n none H (shapeCast S256x64 wm shapeCasts_S1x256x64_S256x64 : FVec Ideal S256x64 .bf16)
      (constant S1024x64 .f32 0x00000000#32))
    (broadcastTo S1024x64 (shapeCast S1x64 (shapeCast S64 bl shapeCasts_S1x64_S64 : FVec Ideal S64 .f32) shapeCasts_S64_S1x64 : FVec Ideal S1x64 .f32)
      broadcasts_S1x64_S1024x64)

/-- The pass-through term: the group's eight inputs times the [1,8,64] slab slice. -/
def pass (E : FVec Ideal S1024x8 .f32) (mm : Vec Ideal S1x8x64 .f32) : FVec Ideal S1024x64 .f32 :=
  matmul dot_S1024x8_S8x64_S1024x64_1_0_0_1_n_n (some .fp32) E (shapeCast S8x64 mm shapeCasts_S1x8x64_S8x64 : FVec Ideal S8x64 .f32)
    (constant S1024x64 .f32 0x00000000#32)

/-- A group's 64 pre-pooling values, as every cut of the body composes them. -/
def xlayer (A : FVec Ideal S1024x32 .bf16) (E : FVec Ideal S1024x8 .f32) (w0 : Vec Ideal S1x32x256 .bf16)
    (b0 : Vec Ideal S1x256 .f32) (w1 : Vec Ideal S1x256x256 .bf16) (b1 : Vec Ideal S1x256 .f32)
    (wm : Vec Ideal S1x256x64 .bf16) (bl : Vec Ideal S1x64 .f32) (mm : Vec Ideal S1x8x64 .f32) :
    FVec Ideal S1024x64 .f32 :=
  addf (lin3 (relu (lin2 (relu (k0_pay16 A w0 b0) (Scalar.ofBits .f32 0x00000000#32)) w1 b1)
    (Scalar.ofBits .f32 0x00000000#32)) wm bl) (pass E mm)

section points
variable (A : FVec Ideal S1024x32 .bf16) (E : FVec Ideal S1024x8 .f32) (H : FVec Ideal S1024x256 .bf16)
variable (w0 : Vec Ideal S1x32x256 .bf16) (b0 : Vec Ideal S1x256 .f32) (w1 : Vec Ideal S1x256x256 .bf16)
variable (b1 : Vec Ideal S1x256 .f32) (wm : Vec Ideal S1x256x64 .bf16) (bl : Vec Ideal S1x64 .f32)
variable (mm : Vec Ideal S1x8x64 .f32) (r : Fin 1024)

theorem lin1_apply (q : Fin 256) :
    k0_pay16 A w0 b0 (ix2 r q) = (∑ i : Fin 32, A (ix2 r i) * w0 (ix3 0 i q)) + b0 (ix2 0 q) := by
  unfold k0_pay16
  refine (addf_apply _ _ _).trans (congrArg₂ (· + ·) ?_ (bias_apply b0 _ _ _ r q))
  refine (mm32_apply A _ r q).trans (Finset.sum_congr rfl fun i _ => ?_)
  exact congrArg (A (ix2 r i) * ·) (cast3_apply w0 _ i q)

theorem relu_apply (v : FVec Ideal S1024x256 .f32) (q : Fin 256) :
    relu v (Scalar.ofBits .f32 0x00000000#32) (ix2 r q) = max (v (ix2 r q)) 0 := by
  show max (v (ix2 r q)) (Ideal.ofBits .f32 0x00000000#32) = _
  rw [Ideal.ofBits_zero_f32]

theorem lin2_apply (q' : Fin 256) :
    lin2 H w1 b1 (ix2 r q') = (∑ q : Fin 256, H (ix2 r q) * w1 (ix3 0 q q')) + b1 (ix2 0 q') := by
  unfold lin2
  refine (addf_apply _ _ _).trans (congrArg₂ (· + ·) ?_ (bias_apply b1 _ _ _ r q'))
  refine (mm256_apply H _ r q').trans (Finset.sum_congr rfl fun q _ => ?_)
  exact congrArg (H (ix2 r q) * ·) (cast3_apply w1 _ q q')

theorem lin3_apply (p : Fin 64) :
    lin3 H wm bl (ix2 r p) = (∑ q : Fin 256, H (ix2 r q) * wm (ix3 0 q p)) + bl (ix2 0 p) := by
  unfold lin3
  refine (addf_apply _ _ _).trans (congrArg₂ (· + ·) ?_ (bias_apply bl _ _ _ r p))
  refine (mm64_apply H _ r p).trans (Finset.sum_congr rfl fun q _ => ?_)
  exact congrArg (H (ix2 r q) * ·) (cast3_apply wm _ q p)

theorem pass_apply (p : Fin 64) :
    pass E mm (ix2 r p) = ∑ j : Fin 8, E (ix2 r j) * mm (ix3 0 j p) := by
  unfold pass
  refine (mm8_apply E _ r p).trans (Finset.sum_congr rfl fun j _ => ?_)
  exact congrArg (E (ix2 r j) * ·) (cast3_apply mm _ j p)

/-- The 64 pre-pooling values at a row are the specification's `klay` of that row. -/
theorem xlayer_apply (p : Fin 64) :
    xlayer A E w0 b0 w1 b1 wm bl mm (ix2 r p)
      = klay (fun i => A (ix2 r i)) (fun j => E (ix2 r j)) (fun i q => w0 (ix3 0 i q)) (fun q => b0 (ix2 0 q))
          (fun q q' => w1 (ix3 0 q q')) (fun q => b1 (ix2 0 q)) (fun q p => wm (ix3 0 q p)) (fun p => bl (ix2 0 p))
          (fun j p => mm (ix3 0 j p)) p := by
  unfold xlayer klay
  refine (addf_apply _ _ _).trans (congrArg₂ (· + ·) ?_ (pass_apply E mm r p))
  refine (lin3_apply _ wm bl r p).trans (congrArg (· + bl (ix2 0 p)) (Finset.sum_congr rfl fun q _ => ?_))
  refine congrArg (· * wm (ix3 0 q p)) ?_
  refine (relu_apply r _ q).trans ?_
  unfold kh2
  refine congrArg (max · 0) ?_
  refine (lin2_apply _ w1 b1 r q).trans (congrArg (· + b1 (ix2 0 q)) (Finset.sum_congr rfl fun q₀ _ => ?_))
  refine congrArg (· * w1 (ix3 0 q₀ q)) ?_
  refine (relu_apply r _ q₀).trans ?_
  unfold kh1
  exact congrArg (max · 0) (lin1_apply A w0 b0 r q₀)

end points

/-! ## The four groups' compositions are that term -/

section groups
variable (X : Vec Ideal S1024x32 .f32) (w0 : Vec Ideal S1x32x256 .bf16) (b0 : Vec Ideal S1x256 .f32)
variable (w1 : Vec Ideal S1x256x256 .bf16) (b1 : Vec Ideal S1x256 .f32) (wm : Vec Ideal S1x256x64 .bf16)
variable (bl : Vec Ideal S1x64 .f32) (mm : Vec Ideal S1x8x64 .f32) (r : Fin 1024)

theorem xl0_eq : k0_pay6 (k0_pay4 X) (k0_pay5 X w0 b0 w1 b1 wm bl) mm
    = xlayer (k0_pay3 X) (k0_pay4 X) w0 b0 w1 b1 wm bl mm := rfl

theorem xl1_eq : k0_pay17 (k0_pay15 X) (k0_pay16 (k0_pay3 X) w0 b0) (Scalar.ofBits .f32 0x00000000#32) w1 b1 wm bl mm
    = xlayer (k0_pay3 X) (k0_pay15 X) w0 b0 w1 b1 wm bl mm := rfl

theorem xl2_eq : k0_pay28 (k0_pay26 X) (k0_pay27 (k0_pay3 X) w0 b0 w1 b1) wm bl mm
    = xlayer (k0_pay3 X) (k0_pay26 X) w0 b0 w1 b1 wm bl mm := rfl

theorem xl3_eq : k0_pay39 (k0_pay37 (k0_pay3 X) w0 b0 w1 b1 wm bl) (k0_pay38 X mm)
    = xlayer (k0_pay3 X) (extractStridedSlice S1024x8 ![0, 24] X slices_S1024x32_o0_24_S1024x8) w0 b0 w1 b1 wm bl mm := rfl

/-- The eight columns of the block from column `8·cg` on, at a row. -/
theorem slice_apply (cg : Fin 4) (K : Nat) (hK : K = 8 * cg.val) (h : S1024x32.Slices ![0, K] S1024x8) (j : Fin 8) :
    extractStridedSlice S1024x8 ![0, K] X h (ix2 r j) = X (ix2 r (dOf cg j)) := by
  refine extractStridedSlice_apply ![0, K] X h (ix2 r j) (ix2 r (dOf cg j)) fun a => ?_
  match a with
  | ⟨0, _⟩ => show r.val = 0 + r.val; omega
  | ⟨1, _⟩ => show 8 * cg.val + j.val = K + j.val; omega

/-- Each group's 64 pre-pooling values at a row, as the specification's `klay`. -/
theorem xl_apply (cg : Fin 4) (K : Nat) (hK : K = 8 * cg.val) (h : S1024x32.Slices ![0, K] S1024x8) (p : Fin 64) :
    xlayer (k0_pay3 X) (extractStridedSlice S1024x8 ![0, K] X h) w0 b0 w1 b1 wm bl mm (ix2 r p)
      = klay (fun i => X (ix2 r i)) (fun j' => X (ix2 r (dOf cg j'))) (fun i q => w0 (ix3 0 i q)) (fun q => b0 (ix2 0 q))
          (fun q q' => w1 (ix3 0 q q')) (fun q => b1 (ix2 0 q)) (fun q p => wm (ix3 0 q p)) (fun p => bl (ix2 0 p))
          (fun j' p => mm (ix3 0 j' p)) p := by
  refine (xlayer_apply _ _ w0 b0 w1 b1 wm bl mm r p).trans ?_
  exact congrArg (fun g => klay (fun i => X (ix2 r i)) g (fun i q => w0 (ix3 0 i q)) (fun q => b0 (ix2 0 q))
    (fun q q' => w1 (ix3 0 q q')) (fun q => b1 (ix2 0 q)) (fun q p => wm (ix3 0 q p)) (fun p => bl (ix2 0 p))
    (fun j' p => mm (ix3 0 j' p)) p) (funext fun j => slice_apply X r cg K hK h j)

end groups

/-! ## The eight-way pooling of one component's segment -/

/-- The pooling of columns `K … K+7` of the 64 values, as every stored column composes it. -/
def poolv (K : Nat) (hK : S1024x64.Slices ![0, K] S1024x8) (xl : FVec Ideal S1024x64 .f32) : FVec Ideal S1024x1 .f32 :=
  have seg : FVec Ideal S1024x8 .f32 := extractStridedSlice S1024x8 ![0, K] xl hK
  maximumf
    (maximumf (minimumf (extractStridedSlice S1024x1 ![0, 0] seg slices_S1024x8_o0_0_S1024x1) (extractStridedSlice S1024x1 ![0, 1] seg slices_S1024x8_o0_1_S1024x1))
      (minimumf (extractStridedSlice S1024x1 ![0, 2] seg slices_S1024x8_o0_2_S1024x1) (extractStridedSlice S1024x1 ![0, 3] seg slices_S1024x8_o0_3_S1024x1)))
    (maximumf (minimumf (extractStridedSlice S1024x1 ![0, 4] seg slices_S1024x8_o0_4_S1024x1) (extractStridedSlice S1024x1 ![0, 5] seg slices_S1024x8_o0_5_S1024x1))
      (minimumf (extractStridedSlice S1024x1 ![0, 6] seg slices_S1024x8_o0_6_S1024x1) (extractStridedSlice S1024x1 ![0, 7] seg slices_S1024x8_o0_7_S1024x1)))

/-- Column `h` of component `j`'s segment, at a row. -/
theorem seg_apply (K : Nat) (hK : S1024x64.Slices ![0, K] S1024x8) (xl : FVec Ideal S1024x64 .f32) (r : Fin 1024)
    (j : Fin 8) (hj : K = 8 * j.val) (h : Fin 8) (hh : S1024x8.Slices ![0, h.val] S1024x1) :
    extractStridedSlice S1024x1 ![0, h.val] (extractStridedSlice S1024x8 ![0, K] xl hK) hh (ix2 r 0)
      = xl (ix2 r (col64 j h)) := by
  refine (extractStridedSlice_apply ![0, h.val] _ hh (ix2 r 0) (ix2 r h) fun a => ?_).trans
    (extractStridedSlice_apply ![0, K] xl hK (ix2 r h) (ix2 r (col64 j h)) fun a => ?_)
  · match a with
    | ⟨0, _⟩ => show r.val = 0 + r.val; omega
    | ⟨1, _⟩ => show h.val = h.val + 0; omega
  · match a with
    | ⟨0, _⟩ => show r.val = 0 + r.val; omega
    | ⟨1, _⟩ => show 8 * j.val + h.val = K + h.val; omega

/-- The pooled column at a row is the specification's `pool` of the component's eight values. -/
theorem poolv_apply (K : Nat) (hK : S1024x64.Slices ![0, K] S1024x8) (xl : FVec Ideal S1024x64 .f32) (r : Fin 1024)
    (j : Fin 8) (hj : K = 8 * j.val) :
    poolv K hK xl (ix2 r 0) = pool fun h => xl (ix2 r (col64 j h)) := by
  unfold poolv pool
  show max (max (min _ _) (min _ _)) (max (min _ _) (min _ _)) = _
  exact congrArg₂ max
    (congrArg₂ max (congrArg₂ min (seg_apply K hK xl r j hj 0 _) (seg_apply K hK xl r j hj 1 _))
      (congrArg₂ min (seg_apply K hK xl r j hj 2 _) (seg_apply K hK xl r j hj 3 _)))
    (congrArg₂ max (congrArg₂ min (seg_apply K hK xl r j hj 4 _) (seg_apply K hK xl r j hj 5 _))
      (congrArg₂ min (seg_apply K hK xl r j hj 6 _) (seg_apply K hK xl r j hj 7 _)))

/-! ## The 32 stored columns -/

section columns

/-- A stored column that pools segment `j` of group `cg`'s 64 values is, at a row, the specification's group
    value `kerGrp … j` of that row. -/
theorem col_of (X : Vec Ideal S1024x32 .f32) (w0 : Vec Ideal S1x32x256 .bf16) (b0 : Vec Ideal S1x256 .f32)
    (w1 : Vec Ideal S1x256x256 .bf16) (b1 : Vec Ideal S1x256 .f32) (wm : Vec Ideal S1x256x64 .bf16)
    (bl : Vec Ideal S1x64 .f32) (mm : Vec Ideal S1x8x64 .f32) (r : Fin 1024)
    (cg : Fin 4) (K : Nat) (hK : K = 8 * cg.val) (h : S1024x32.Slices ![0, K] S1024x8)
    (j : Fin 8) (Kj : Nat) (hKj : Kj = 8 * j.val) (hs : S1024x64.Slices ![0, Kj] S1024x8)
    (V : FVec Ideal S1024x1 .f32) (XL : FVec Ideal S1024x64 .f32) (hV : V = poolv Kj hs XL)
    (hX : XL = xlayer (k0_pay3 X) (extractStridedSlice S1024x8 ![0, K] X h) w0 b0 w1 b1 wm bl mm) :
    V (ix2 r 0)
      = kerGrp (fun i => X (ix2 r i)) (fun j' => X (ix2 r (dOf cg j'))) (fun i q => w0 (ix3 0 i q))
        (fun q => b0 (ix2 0 q)) (fun q q' => w1 (ix3 0 q q')) (fun q => b1 (ix2 0 q)) (fun q p => wm (ix3 0 q p))
        (fun p => bl (ix2 0 p)) (fun j' p => mm (ix3 0 j' p)) j := by
  subst hV hX
  unfold kerGrp
  refine (poolv_apply Kj hs _ r j hKj).trans (congrArg pool (funext fun h' => ?_))
  exact xl_apply X w0 b0 w1 b1 wm bl mm r cg K hK h (col64 j h')

theorem col_0_0 (X : Vec Ideal S1024x32 .f32) (w0 : Vec Ideal S1x32x256 .bf16) (b0 : Vec Ideal S1x256 .f32)
    (w1 : Vec Ideal S1x256x256 .bf16) (b1 : Vec Ideal S1x256 .f32) (wm : Vec Ideal S1x256x64 .bf16)
    (bl : Vec Ideal S1x64 .f32) (mm : Vec Ideal S1x8x64 .f32) (r : Fin 1024) :
    k0_pay7 (k0_pay4 X) (k0_pay5 X w0 b0 w1 b1 wm bl) mm (ix2 r 0)
      = kerGrp (fun i => X (ix2 r i)) (fun j' => X (ix2 r (dOf 0 j'))) (fun i q => w0 (ix3 0 i q))
        (fun q => b0 (ix2 0 q)) (fun q q' => w1 (ix3 0 q q')) (fun q => b1 (ix2 0 q)) (fun q p => wm (ix3 0 q p))
        (fun p => bl (ix2 0 p)) (fun j' p => mm (ix3 0 j' p)) 0 :=
  col_of X w0 b0 w1 b1 wm bl mm r 0 0 rfl slices_S1024x32_o0_0_S1024x8 0 0 rfl slices_S1024x64_o0_0_S1024x8 _ _ rfl
    (xl0_eq X w0 b0 w1 b1 wm bl mm)

theorem col_0_1 (X : Vec Ideal S1024x32 .f32) (w0 : Vec Ideal S1x32x256 .bf16) (b0 : Vec Ideal S1x256 .f32)
    (w1 : Vec Ideal S1x256x256 .bf16) (b1 : Vec Ideal S1x256 .f32) (wm : Vec Ideal S1x256x64 .bf16)
    (bl : Vec Ideal S1x64 .f32) (mm : Vec Ideal S1x8x64 .f32) (r : Fin 1024) :
    k0_pay8 (k0_pay4 X) (k0_pay5 X w0 b0 w1 b1 wm bl) mm (ix2 r 0)
      = kerGrp (fun i => X (ix2 r i)) (fun j' => X (ix2 r (dOf 0 j'))) (fun i q => w0 (ix3 0 i q))
        (fun q => b0 (ix2 0 q)) (fun q q' => w1 (ix3 0 q q')) (fun q => b1 (ix2 0 q)) (fun q p => wm (ix3 0 q p))
        (fun p => bl (ix2 0 p)) (fun j' p => mm (ix3 0 j' p)) 1 :=
  col_of X w0 b0 w1 b1 wm bl mm r 0 0 rfl slices_S1024x32_o0_0_S1024x8 1 8 rfl slices_S1024x64_o0_8_S1024x8 _ _ rfl
    (xl0_eq X w0 b0 w1 b1 wm bl mm)

theorem col_0_2 (X : Vec Ideal S1024x32 .f32) (w0 : Vec Ideal S1x32x256 .bf16) (b0 : Vec Ideal S1x256 .f32)
    (w1 : Vec Ideal S1x256x256 .bf16) (b1 : Vec Ideal S1x256 .f32) (wm : Vec Ideal S1x256x64 .bf16)
    (bl : Vec Ideal S1x64 .f32) (mm : Vec Ideal S1x8x64 .f32) (r : Fin 1024) :
    k0_pay9 (k0_pay4 X) (k0_pay5 X w0 b0 w1 b1 wm bl) mm (ix2 r 0)
      = kerGrp (fun i => X (ix2 r i)) (fun j' => X (ix2 r (dOf 0 j'))) (fun i q => w0 (ix3 0 i q))
        (fun q => b0 (ix2 0 q)) (fun q q' => w1 (ix3 0 q q')) (fun q => b1 (ix2 0 q)) (fun q p => wm (ix3 0 q p))
        (fun p => bl (ix2 0 p)) (fun j' p => mm (ix3 0 j' p)) 2 :=
  col_of X w0 b0 w1 b1 wm bl mm r 0 0 rfl slices_S1024x32_o0_0_S1024x8 2 16 rfl slices_S1024x64_o0_16_S1024x8 _ _ rfl
    (xl0_eq X w0 b0 w1 b1 wm bl mm)

theorem col_0_3 (X : Vec Ideal S1024x32 .f32) (w0 : Vec Ideal S1x32x256 .bf16) (b0 : Vec Ideal S1x256 .f32)
    (w1 : Vec Ideal S1x256x256 .bf16) (b1 : Vec Ideal S1x256 .f32) (wm : Vec Ideal S1x256x64 .bf16)
    (bl : Vec Ideal S1x64 .f32) (mm : Vec Ideal S1x8x64 .f32) (r : Fin 1024) :
    k0_pay10 (k0_pay6 (k0_pay4 X) (k0_pay5 X w0 b0 w1 b1 wm bl) mm) (ix2 r 0)
      = kerGrp (fun i => X (ix2 r i)) (fun j' => X (ix2 r (dOf 0 j'))) (fun i q => w0 (ix3 0 i q))
        (fun q => b0 (ix2 0 q)) (fun q q' => w1 (ix3 0 q q')) (fun q => b1 (ix2 0 q)) (fun q p => wm (ix3 0 q p))
        (fun p => bl (ix2 0 p)) (fun j' p => mm (ix3 0 j' p)) 3 :=
  col_of X w0 b0 w1 b1 wm bl mm r 0 0 rfl slices_S1024x32_o0_0_S1024x8 3 24 rfl slices_S1024x64_o0_24_S1024x8 _ _ rfl
    (xl0_eq X w0 b0 w1 b1 wm bl mm)

theorem col_0_4 (X : Vec Ideal S1024x32 .f32) (w0 : Vec Ideal S1x32x256 .bf16) (b0 : Vec Ideal S1x256 .f32)
    (w1 : Vec Ideal S1x256x256 .bf16) (b1 : Vec Ideal S1x256 .f32) (wm : Vec Ideal S1x256x64 .bf16)
    (bl : Vec Ideal S1x64 .f32) (mm : Vec Ideal S1x8x64 .f32) (r : Fin 1024) :
    k0_pay11 (k0_pay6 (k0_pay4 X) (k0_pay5 X w0 b0 w1 b1 wm bl) mm) (ix2 r 0)
      = kerGrp (fun i => X (ix2 r i)) (fun j' => X (ix2 r (dOf 0 j'))) (fun i q => w0 (ix3 0 i q))
        (fun q => b0 (ix2 0 q)) (fun q q' => w1 (ix3 0 q q')) (fun q => b1 (ix2 0 q)) (fun q p => wm (ix3 0 q p))
        (fun p => bl (ix2 0 p)) (fun j' p => mm (ix3 0 j' p)) 4 :=
  col_of X w0 b0 w1 b1 wm bl mm r 0 0 rfl slices_S1024x32_o0_0_S1024x8 4 32 rfl slices_S1024x64_o0_32_S1024x8 _ _ rfl
    (xl0_eq X w0 b0 w1 b1 wm bl mm)

theorem col_0_5 (X : Vec Ideal S1024x32 .f32) (w0 : Vec Ideal S1x32x256 .bf16) (b0 : Vec Ideal S1x256 .f32)
    (w1 : Vec Ideal S1x256x256 .bf16) (b1 : Vec Ideal S1x256 .f32) (wm : Vec Ideal S1x256x64 .bf16)
    (bl : Vec Ideal S1x64 .f32) (mm : Vec Ideal S1x8x64 .f32) (r : Fin 1024) :
    k0_pay12 (k0_pay6 (k0_pay4 X) (k0_pay5 X w0 b0 w1 b1 wm bl) mm) (ix2 r 0)
      = kerGrp (fun i => X (ix2 r i)) (fun j' => X (ix2 r (dOf 0 j'))) (fun i q => w0 (ix3 0 i q))
        (fun q => b0 (ix2 0 q)) (fun q q' => w1 (ix3 0 q q')) (fun q => b1 (ix2 0 q)) (fun q p => wm (ix3 0 q p))
        (fun p => bl (ix2 0 p)) (fun j' p => mm (ix3 0 j' p)) 5 :=
  col_of X w0 b0 w1 b1 wm bl mm r 0 0 rfl slices_S1024x32_o0_0_S1024x8 5 40 rfl slices_S1024x64_o0_40_S1024x8 _ _ rfl
    (xl0_eq X w0 b0 w1 b1 wm bl mm)

theorem col_0_6 (X : Vec Ideal S1024x32 .f32) (w0 : Vec Ideal S1x32x256 .bf16) (b0 : Vec Ideal S1x256 .f32)
    (w1 : Vec Ideal S1x256x256 .bf16) (b1 : Vec Ideal S1x256 .f32) (wm : Vec Ideal S1x256x64 .bf16)
    (bl : Vec Ideal S1x64 .f32) (mm : Vec Ideal S1x8x64 .f32) (r : Fin 1024) :
    k0_pay13 (k0_pay6 (k0_pay4 X) (k0_pay5 X w0 b0 w1 b1 wm bl) mm) (ix2 r 0)
      = kerGrp (fun i => X (ix2 r i)) (fun j' => X (ix2 r (dOf 0 j'))) (fun i q => w0 (ix3 0 i q))
        (fun q => b0 (ix2 0 q)) (fun q q' => w1 (ix3 0 q q')) (fun q => b1 (ix2 0 q)) (fun q p => wm (ix3 0 q p))
        (fun p => bl (ix2 0 p)) (fun j' p => mm (ix3 0 j' p)) 6 :=
  col_of X w0 b0 w1 b1 wm bl mm r 0 0 rfl slices_S1024x32_o0_0_S1024x8 6 48 rfl slices_S1024x64_o0_48_S1024x8 _ _ rfl
    (xl0_eq X w0 b0 w1 b1 wm bl mm)

theorem col_0_7 (X : Vec Ideal S1024x32 .f32) (w0 : Vec Ideal S1x32x256 .bf16) (b0 : Vec Ideal S1x256 .f32)
    (w1 : Vec Ideal S1x256x256 .bf16) (b1 : Vec Ideal S1x256 .f32) (wm : Vec Ideal S1x256x64 .bf16)
    (bl : Vec Ideal S1x64 .f32) (mm : Vec Ideal S1x8x64 .f32) (r : Fin 1024) :
    k0_pay14 (k0_pay6 (k0_pay4 X) (k0_pay5 X w0 b0 w1 b1 wm bl) mm) (ix2 r 0)
      = kerGrp (fun i => X (ix2 r i)) (fun j' => X (ix2 r (dOf 0 j'))) (fun i q => w0 (ix3 0 i q))
        (fun q => b0 (ix2 0 q)) (fun q q' => w1 (ix3 0 q q')) (fun q => b1 (ix2 0 q)) (fun q p => wm (ix3 0 q p))
        (fun p => bl (ix2 0 p)) (fun j' p => mm (ix3 0 j' p)) 7 :=
  col_of X w0 b0 w1 b1 wm bl mm r 0 0 rfl slices_S1024x32_o0_0_S1024x8 7 56 rfl slices_S1024x64_o0_56_S1024x8 _ _ rfl
    (xl0_eq X w0 b0 w1 b1 wm bl mm)

theorem col_1_0 (X : Vec Ideal S1024x32 .f32) (w0 : Vec Ideal S1x32x256 .bf16) (b0 : Vec Ideal S1x256 .f32)
    (w1 : Vec Ideal S1x256x256 .bf16) (b1 : Vec Ideal S1x256 .f32) (wm : Vec Ideal S1x256x64 .bf16)
    (bl : Vec Ideal S1x64 .f32) (mm : Vec Ideal S1x8x64 .f32) (r : Fin 1024) :
    k0_pay18 (k0_pay15 X) (k0_pay16 (k0_pay3 X) w0 b0) (Scalar.ofBits .f32 0x00000000#32) w1 b1 wm bl mm (ix2 r 0)
      = kerGrp (fun i => X (ix2 r i)) (fun j' => X (ix2 r (dOf 1 j'))) (fun i q => w0 (ix3 0 i q))
        (fun q => b0 (ix2 0 q)) (fun q q' => w1 (ix3 0 q q')) (fun q => b1 (ix2 0 q)) (fun q p => wm (ix3 0 q p))
        (fun p => bl (ix2 0 p)) (fun j' p => mm (ix3 0 j' p)) 0 :=
  col_of X w0 b0 w1 b1 wm bl mm r 1 8 rfl slices_S1024x32_o0_8_S1024x8 0 0 rfl slices_S1024x64_o0_0_S1024x8 _ _ rfl
    (xl1_eq X w0 b0 w1 b1 wm bl mm)

theorem col_1_1 (X : Vec Ideal S1024x32 .f32) (w0 : Vec Ideal S1x32x256 .bf16) (b0 : Vec Ideal S1x256 .f32)
    (w1 : Vec Ideal S1x256x256 .bf16) (b1 : Vec Ideal S1x256 .f32) (wm : Vec Ideal S1x256x64 .bf16)
    (bl : Vec Ideal S1x64 .f32) (mm : Vec Ideal S1x8x64 .f32) (r : Fin 1024) :
    k0_pay19 (k0_pay17 (k0_pay15 X) (k0_pay16 (k0_pay3 X) w0 b0) (Scalar.ofBits .f32 0x00000000#32) w1 b1 wm bl mm) (ix2 r 0)
      = kerGrp (fun i => X (ix2 r i)) (fun j' => X (ix2 r (dOf 1 j'))) (fun i q => w0 (ix3 0 i q))
        (fun q => b0 (ix2 0 q)) (fun q q' => w1 (ix3 0 q q')) (fun q => b1 (ix2 0 q)) (fun q p => wm (ix3 0 q p))
        (fun p => bl (ix2 0 p)) (fun j' p => mm (ix3 0 j' p)) 1 :=
  col_of X w0 b0 w1 b1 wm bl mm r 1 8 rfl slices_S1024x32_o0_8_S1024x8 1 8 rfl slices_S1024x64_o0_8_S1024x8 _ _ rfl
    (xl1_eq X w0 b0 w1 b1 wm bl mm)

theorem col_1_2 (X : Vec Ideal S1024x32 .f32) (w0 : Vec Ideal S1x32x256 .bf16) (b0 : Vec Ideal S1x256 .f32)
    (w1 : Vec Ideal S1x256x256 .bf16) (b1 : Vec Ideal S1x256 .f32) (wm : Vec Ideal S1x256x64 .bf16)
    (bl : Vec Ideal S1x64 .f32) (mm : Vec Ideal S1x8x64 .f32) (r : Fin 1024) :
    k0_pay20 (k0_pay17 (k0_pay15 X) (k0_pay16 (k0_pay3 X) w0 b0) (Scalar.ofBits .f32 0x00000000#32) w1 b1 wm bl mm) (ix2 r 0)
      = kerGrp (fun i => X (ix2 r i)) (fun j' => X (ix2 r (dOf 1 j'))) (fun i q => w0 (ix3 0 i q))
        (fun q => b0 (ix2 0 q)) (fun q q' => w1 (ix3 0 q q')) (fun q => b1 (ix2 0 q)) (fun q p => wm (ix3 0 q p))
        (fun p => bl (ix2 0 p)) (fun j' p => mm (ix3 0 j' p)) 2 :=
  col_of X w0 b0 w1 b1 wm bl mm r 1 8 rfl slices_S1024x32_o0_8_S1024x8 2 16 rfl slices_S1024x64_o0_16_S1024x8 _ _ rfl
    (xl1_eq X w0 b0 w1 b1 wm bl mm)

theorem col_1_3 (X : Vec Ideal S1024x32 .f32) (w0 : Vec Ideal S1x32x256 .bf16) (b0 : Vec Ideal S1x256 .f32)
    (w1 : Vec Ideal S1x256x256 .bf16) (b1 : Vec Ideal S1x256 .f32) (wm : Vec Ideal S1x256x64 .bf16)
    (bl : Vec Ideal S1x64 .f32) (mm : Vec Ideal S1x8x64 .f32) (r : Fin 1024) :
    k0_pay21 (k0_pay17 (k0_pay15 X) (k0_pay16 (k0_pay3 X) w0 b0) (Scalar.ofBits .f32 0x00000000#32) w1 b1 wm bl mm) (ix2 r 0)
      = kerGrp (fun i => X (ix2 r i)) (fun j' => X (ix2 r (dOf 1 j'))) (fun i q => w0 (ix3 0 i q))
        (fun q => b0 (ix2 0 q)) (fun q q' => w1 (ix3 0 q q')) (fun q => b1 (ix2 0 q)) (fun q p => wm (ix3 0 q p))
        (fun p => bl (ix2 0 p)) (fun j' p => mm (ix3 0 j' p)) 3 :=
  col_of X w0 b0 w1 b1 wm bl mm r 1 8 rfl slices_S1024x32_o0_8_S1024x8 3 24 rfl slices_S1024x64_o0_24_S1024x8 _ _ rfl
    (xl1_eq X w0 b0 w1 b1 wm bl mm)

theorem col_1_4 (X : Vec Ideal S1024x32 .f32) (w0 : Vec Ideal S1x32x256 .bf16) (b0 : Vec Ideal S1x256 .f32)
    (w1 : Vec Ideal S1x256x256 .bf16) (b1 : Vec Ideal S1x256 .f32) (wm : Vec Ideal S1x256x64 .bf16)
    (bl : Vec Ideal S1x64 .f32) (mm : Vec Ideal S1x8x64 .f32) (r : Fin 1024) :
    k0_pay22 (k0_pay17 (k0_pay15 X) (k0_pay16 (k0_pay3 X) w0 b0) (Scalar.ofBits .f32 0x00000000#32) w1 b1 wm bl mm) (ix2 r 0)
      = kerGrp (fun i => X (ix2 r i)) (fun j' => X (ix2 r (dOf 1 j'))) (fun i q => w0 (ix3 0 i q))
        (fun q => b0 (ix2 0 q)) (fun q q' => w1 (ix3 0 q q')) (fun q => b1 (ix2 0 q)) (fun q p => wm (ix3 0 q p))
        (fun p => bl (ix2 0 p)) (fun j' p => mm (ix3 0 j' p)) 4 :=
  col_of X w0 b0 w1 b1 wm bl mm r 1 8 rfl slices_S1024x32_o0_8_S1024x8 4 32 rfl slices_S1024x64_o0_32_S1024x8 _ _ rfl
    (xl1_eq X w0 b0 w1 b1 wm bl mm)

theorem col_1_5 (X : Vec Ideal S1024x32 .f32) (w0 : Vec Ideal S1x32x256 .bf16) (b0 : Vec Ideal S1x256 .f32)
    (w1 : Vec Ideal S1x256x256 .bf16) (b1 : Vec Ideal S1x256 .f32) (wm : Vec Ideal S1x256x64 .bf16)
    (bl : Vec Ideal S1x64 .f32) (mm : Vec Ideal S1x8x64 .f32) (r : Fin 1024) :
    k0_pay23 (k0_pay17 (k0_pay15 X) (k0_pay16 (k0_pay3 X) w0 b0) (Scalar.ofBits .f32 0x00000000#32) w1 b1 wm bl mm) (ix2 r 0)
      = kerGrp (fun i => X (ix2 r i)) (fun j' => X (ix2 r (dOf 1 j'))) (fun i q => w0 (ix3 0 i q))
        (fun q => b0 (ix2 0 q)) (fun q q' => w1 (ix3 0 q q')) (fun q => b1 (ix2 0 q)) (fun q p => wm (ix3 0 q p))
        (fun p => bl (ix2 0 p)) (fun j' p => mm (ix3 0 j' p)) 5 :=
  col_of X w0 b0 w1 b1 wm bl mm r 1 8 rfl slices_S1024x32_o0_8_S1024x8 5 40 rfl slices_S1024x64_o0_40_S1024x8 _ _ rfl
    (xl1_eq X w0 b0 w1 b1 wm bl mm)

theorem col_1_6 (X : Vec Ideal S1024x32 .f32) (w0 : Vec Ideal S1x32x256 .bf16) (b0 : Vec Ideal S1x256 .f32)
    (w1 : Vec Ideal S1x256x256 .bf16) (b1 : Vec Ideal S1x256 .f32) (wm : Vec Ideal S1x256x64 .bf16)
    (bl : Vec Ideal S1x64 .f32) (mm : Vec Ideal S1x8x64 .f32) (r : Fin 1024) :
    k0_pay24 (k0_pay17 (k0_pay15 X) (k0_pay16 (k0_pay3 X) w0 b0) (Scalar.ofBits .f32 0x00000000#32) w1 b1 wm bl mm) (ix2 r 0)
      = kerGrp (fun i => X (ix2 r i)) (fun j' => X (ix2 r (dOf 1 j'))) (fun i q => w0 (ix3 0 i q))
        (fun q => b0 (ix2 0 q)) (fun q q' => w1 (ix3 0 q q')) (fun q => b1 (ix2 0 q)) (fun q p => wm (ix3 0 q p))
        (fun p => bl (ix2 0 p)) (fun j' p => mm (ix3 0 j' p)) 6 :=
  col_of X w0 b0 w1 b1 wm bl mm r 1 8 rfl slices_S1024x32_o0_8_S1024x8 6 48 rfl slices_S1024x64_o0_48_S1024x8 _ _ rfl
    (xl1_eq X w0 b0 w1 b1 wm bl mm)

theorem col_1_7 (X : Vec Ideal S1024x32 .f32) (w0 : Vec Ideal S1x32x256 .bf16) (b0 : Vec Ideal S1x256 .f32)
    (w1 : Vec Ideal S1x256x256 .bf16) (b1 : Vec Ideal S1x256 .f32) (wm : Vec Ideal S1x256x64 .bf16)
    (bl : Vec Ideal S1x64 .f32) (mm : Vec Ideal S1x8x64 .f32) (r : Fin 1024) :
    k0_pay25 (k0_pay17 (k0_pay15 X) (k0_pay16 (k0_pay3 X) w0 b0) (Scalar.ofBits .f32 0x00000000#32) w1 b1 wm bl mm) (ix2 r 0)
      = kerGrp (fun i => X (ix2 r i)) (fun j' => X (ix2 r (dOf 1 j'))) (fun i q => w0 (ix3 0 i q))
        (fun q => b0 (ix2 0 q)) (fun q q' => w1 (ix3 0 q q')) (fun q => b1 (ix2 0 q)) (fun q p => wm (ix3 0 q p))
        (fun p => bl (ix2 0 p)) (fun j' p => mm (ix3 0 j' p)) 7 :=
  col_of X w0 b0 w1 b1 wm bl mm r 1 8 rfl slices_S1024x32_o0_8_S1024x8 7 56 rfl slices_S1024x64_o0_56_S1024x8 _ _ rfl
    (xl1_eq X w0 b0 w1 b1 wm bl mm)

theorem col_2_0 (X : Vec Ideal S1024x32 .f32) (w0 : Vec Ideal S1x32x256 .bf16) (b0 : Vec Ideal S1x256 .f32)
    (w1 : Vec Ideal S1x256x256 .bf16) (b1 : Vec Ideal S1x256 .f32) (wm : Vec Ideal S1x256x64 .bf16)
    (bl : Vec Ideal S1x64 .f32) (mm : Vec Ideal S1x8x64 .f32) (r : Fin 1024) :
    k0_pay29 (k0_pay26 X) (k0_pay27 (k0_pay3 X) w0 b0 w1 b1) wm bl mm (ix2 r 0)
      = kerGrp (fun i => X (ix2 r i)) (fun j' => X (ix2 r (dOf 2 j'))) (fun i q => w0 (ix3 0 i q))
        (fun q => b0 (ix2 0 q)) (fun q q' => w1 (ix3 0 q q')) (fun q => b1 (ix2 0 q)) (fun q p => wm (ix3 0 q p))
        (fun p => bl (ix2 0 p)) (fun j' p => mm (ix3 0 j' p)) 0 :=
  col_of X w0 b0 w1 b1 wm bl mm r 2 16 rfl slices_S1024x32_o0_16_S1024x8 0 0 rfl slices_S1024x64_o0_0_S1024x8 _ _ rfl
    (xl2_eq X w0 b0 w1 b1 wm bl mm)

theorem col_2_1 (X : Vec Ideal S1024x32 .f32) (w0 : Vec Ideal S1x32x256 .bf16) (b0 : Vec Ideal S1x256 .f32)
    (w1 : Vec Ideal S1x256x256 .bf16) (b1 : Vec Ideal S1x256 .f32) (wm : Vec Ideal S1x256x64 .bf16)
    (bl : Vec Ideal S1x64 .f32) (mm : Vec Ideal S1x8x64 .f32) (r : Fin 1024) :
    k0_pay30 (k0_pay26 X) (k0_pay27 (k0_pay3 X) w0 b0 w1 b1) wm bl mm (ix2 r 0)
      = kerGrp (fun i => X (ix2 r i)) (fun j' => X (ix2 r (dOf 2 j'))) (fun i q => w0 (ix3 0 i q))
        (fun q => b0 (ix2 0 q)) (fun q q' => w1 (ix3 0 q q')) (fun q => b1 (ix2 0 q)) (fun q p => wm (ix3 0 q p))
        (fun p => bl (ix2 0 p)) (fun j' p => mm (ix3 0 j' p)) 1 :=
  col_of X w0 b0 w1 b1 wm bl mm r 2 16 rfl slices_S1024x32_o0_16_S1024x8 1 8 rfl slices_S1024x64_o0_8_S1024x8 _ _ rfl
    (xl2_eq X w0 b0 w1 b1 wm bl mm)

theorem col_2_2 (X : Vec Ideal S1024x32 .f32) (w0 : Vec Ideal S1x32x256 .bf16) (b0 : Vec Ideal S1x256 .f32)
    (w1 : Vec Ideal S1x256x256 .bf16) (b1 : Vec Ideal S1x256 .f32) (wm : Vec Ideal S1x256x64 .bf16)
    (bl : Vec Ideal S1x64 .f32) (mm : Vec Ideal S1x8x64 .f32) (r : Fin 1024) :
    k0_pay31 (k0_pay28 (k0_pay26 X) (k0_pay27 (k0_pay3 X) w0 b0 w1 b1) wm bl mm) (ix2 r 0)
      = kerGrp (fun i => X (ix2 r i)) (fun j' => X (ix2 r (dOf 2 j'))) (fun i q => w0 (ix3 0 i q))
        (fun q => b0 (ix2 0 q)) (fun q q' => w1 (ix3 0 q q')) (fun q => b1 (ix2 0 q)) (fun q p => wm (ix3 0 q p))
        (fun p => bl (ix2 0 p)) (fun j' p => mm (ix3 0 j' p)) 2 :=
  col_of X w0 b0 w1 b1 wm bl mm r 2 16 rfl slices_S1024x32_o0_16_S1024x8 2 16 rfl slices_S1024x64_o0_16_S1024x8 _ _ rfl
    (xl2_eq X w0 b0 w1 b1 wm bl mm)

theorem col_2_3 (X : Vec Ideal S1024x32 .f32) (w0 : Vec Ideal S1x32x256 .bf16) (b0 : Vec Ideal S1x256 .f32)
    (w1 : Vec Ideal S1x256x256 .bf16) (b1 : Vec Ideal S1x256 .f32) (wm : Vec Ideal S1x256x64 .bf16)
    (bl : Vec Ideal S1x64 .f32) (mm : Vec Ideal S1x8x64 .f32) (r : Fin 1024) :
    k0_pay32 (k0_pay28 (k0_pay26 X) (k0_pay27 (k0_pay3 X) w0 b0 w1 b1) wm bl mm) (ix2 r 0)
      = kerGrp (fun i => X (ix2 r i)) (fun j' => X (ix2 r (dOf 2 j'))) (fun i q => w0 (ix3 0 i q))
        (fun q => b0 (ix2 0 q)) (fun q q' => w1 (ix3 0 q q')) (fun q => b1 (ix2 0 q)) (fun q p => wm (ix3 0 q p))
        (fun p => bl (ix2 0 p)) (fun j' p => mm (ix3 0 j' p)) 3 :=
  col_of X w0 b0 w1 b1 wm bl mm r 2 16 rfl slices_S1024x32_o0_16_S1024x8 3 24 rfl slices_S1024x64_o0_24_S1024x8 _ _ rfl
    (xl2_eq X w0 b0 w1 b1 wm bl mm)

theorem col_2_4 (X : Vec Ideal S1024x32 .f32) (w0 : Vec Ideal S1x32x256 .bf16) (b0 : Vec Ideal S1x256 .f32)
    (w1 : Vec Ideal S1x256x256 .bf16) (b1 : Vec Ideal S1x256 .f32) (wm : Vec Ideal S1x256x64 .bf16)
    (bl : Vec Ideal S1x64 .f32) (mm : Vec Ideal S1x8x64 .f32) (r : Fin 1024) :
    k0_pay33 (k0_pay28 (k0_pay26 X) (k0_pay27 (k0_pay3 X) w0 b0 w1 b1) wm bl mm) (ix2 r 0)
      = kerGrp (fun i => X (ix2 r i)) (fun j' => X (ix2 r (dOf 2 j'))) (fun i q => w0 (ix3 0 i q))
        (fun q => b0 (ix2 0 q)) (fun q q' => w1 (ix3 0 q q')) (fun q => b1 (ix2 0 q)) (fun q p => wm (ix3 0 q p))
        (fun p => bl (ix2 0 p)) (fun j' p => mm (ix3 0 j' p)) 4 :=
  col_of X w0 b0 w1 b1 wm bl mm r 2 16 rfl slices_S1024x32_o0_16_S1024x8 4 32 rfl slices_S1024x64_o0_32_S1024x8 _ _ rfl
    (xl2_eq X w0 b0 w1 b1 wm bl mm)

theorem col_2_5 (X : Vec Ideal S1024x32 .f32) (w0 : Vec Ideal S1x32x256 .bf16) (b0 : Vec Ideal S1x256 .f32)
    (w1 : Vec Ideal S1x256x256 .bf16) (b1 : Vec Ideal S1x256 .f32) (wm : Vec Ideal S1x256x64 .bf16)
    (bl : Vec Ideal S1x64 .f32) (mm : Vec Ideal S1x8x64 .f32) (r : Fin 1024) :
    k0_pay34 (k0_pay28 (k0_pay26 X) (k0_pay27 (k0_pay3 X) w0 b0 w1 b1) wm bl mm) (ix2 r 0)
      = kerGrp (fun i => X (ix2 r i)) (fun j' => X (ix2 r (dOf 2 j'))) (fun i q => w0 (ix3 0 i q))
        (fun q => b0 (ix2 0 q)) (fun q q' => w1 (ix3 0 q q')) (fun q => b1 (ix2 0 q)) (fun q p => wm (ix3 0 q p))
        (fun p => bl (ix2 0 p)) (fun j' p => mm (ix3 0 j' p)) 5 :=
  col_of X w0 b0 w1 b1 wm bl mm r 2 16 rfl slices_S1024x32_o0_16_S1024x8 5 40 rfl slices_S1024x64_o0_40_S1024x8 _ _ rfl
    (xl2_eq X w0 b0 w1 b1 wm bl mm)

theorem col_2_6 (X : Vec Ideal S1024x32 .f32) (w0 : Vec Ideal S1x32x256 .bf16) (b0 : Vec Ideal S1x256 .f32)
    (w1 : Vec Ideal S1x256x256 .bf16) (b1 : Vec Ideal S1x256 .f32) (wm : Vec Ideal S1x256x64 .bf16)
    (bl : Vec Ideal S1x64 .f32) (mm : Vec Ideal S1x8x64 .f32) (r : Fin 1024) :
    k0_pay35 (k0_pay28 (k0_pay26 X) (k0_pay27 (k0_pay3 X) w0 b0 w1 b1) wm bl mm) (ix2 r 0)
      = kerGrp (fun i => X (ix2 r i)) (fun j' => X (ix2 r (dOf 2 j'))) (fun i q => w0 (ix3 0 i q))
        (fun q => b0 (ix2 0 q)) (fun q q' => w1 (ix3 0 q q')) (fun q => b1 (ix2 0 q)) (fun q p => wm (ix3 0 q p))
        (fun p => bl (ix2 0 p)) (fun j' p => mm (ix3 0 j' p)) 6 :=
  col_of X w0 b0 w1 b1 wm bl mm r 2 16 rfl slices_S1024x32_o0_16_S1024x8 6 48 rfl slices_S1024x64_o0_48_S1024x8 _ _ rfl
    (xl2_eq X w0 b0 w1 b1 wm bl mm)

theorem col_2_7 (X : Vec Ideal S1024x32 .f32) (w0 : Vec Ideal S1x32x256 .bf16) (b0 : Vec Ideal S1x256 .f32)
    (w1 : Vec Ideal S1x256x256 .bf16) (b1 : Vec Ideal S1x256 .f32) (wm : Vec Ideal S1x256x64 .bf16)
    (bl : Vec Ideal S1x64 .f32) (mm : Vec Ideal S1x8x64 .f32) (r : Fin 1024) :
    k0_pay36 (k0_pay28 (k0_pay26 X) (k0_pay27 (k0_pay3 X) w0 b0 w1 b1) wm bl mm) (ix2 r 0)
      = kerGrp (fun i => X (ix2 r i)) (fun j' => X (ix2 r (dOf 2 j'))) (fun i q => w0 (ix3 0 i q))
        (fun q => b0 (ix2 0 q)) (fun q q' => w1 (ix3 0 q q')) (fun q => b1 (ix2 0 q)) (fun q p => wm (ix3 0 q p))
        (fun p => bl (ix2 0 p)) (fun j' p => mm (ix3 0 j' p)) 7 :=
  col_of X w0 b0 w1 b1 wm bl mm r 2 16 rfl slices_S1024x32_o0_16_S1024x8 7 56 rfl slices_S1024x64_o0_56_S1024x8 _ _ rfl
    (xl2_eq X w0 b0 w1 b1 wm bl mm)

theorem col_3_0 (X : Vec Ideal S1024x32 .f32) (w0 : Vec Ideal S1x32x256 .bf16) (b0 : Vec Ideal S1x256 .f32)
    (w1 : Vec Ideal S1x256x256 .bf16) (b1 : Vec Ideal S1x256 .f32) (wm : Vec Ideal S1x256x64 .bf16)
    (bl : Vec Ideal S1x64 .f32) (mm : Vec Ideal S1x8x64 .f32) (r : Fin 1024) :
    k0_pay40 (k0_pay37 (k0_pay3 X) w0 b0 w1 b1 wm bl) (k0_pay38 X mm) (ix2 r 0)
      = kerGrp (fun i => X (ix2 r i)) (fun j' => X (ix2 r (dOf 3 j'))) (fun i q => w0 (ix3 0 i q))
        (fun q => b0 (ix2 0 q)) (fun q q' => w1 (ix3 0 q q')) (fun q => b1 (ix2 0 q)) (fun q p => wm (ix3 0 q p))
        (fun p => bl (ix2 0 p)) (fun j' p => mm (ix3 0 j' p)) 0 :=
  col_of X w0 b0 w1 b1 wm bl mm r 3 24 rfl slices_S1024x32_o0_24_S1024x8 0 0 rfl slices_S1024x64_o0_0_S1024x8 _ _ rfl
    (xl3_eq X w0 b0 w1 b1 wm bl mm)

theorem col_3_1 (X : Vec Ideal S1024x32 .f32) (w0 : Vec Ideal S1x32x256 .bf16) (b0 : Vec Ideal S1x256 .f32)
    (w1 : Vec Ideal S1x256x256 .bf16) (b1 : Vec Ideal S1x256 .f32) (wm : Vec Ideal S1x256x64 .bf16)
    (bl : Vec Ideal S1x64 .f32) (mm : Vec Ideal S1x8x64 .f32) (r : Fin 1024) :
    k0_pay41 (k0_pay37 (k0_pay3 X) w0 b0 w1 b1 wm bl) (k0_pay38 X mm) (ix2 r 0)
      = kerGrp (fun i => X (ix2 r i)) (fun j' => X (ix2 r (dOf 3 j'))) (fun i q => w0 (ix3 0 i q))
        (fun q => b0 (ix2 0 q)) (fun q q' => w1 (ix3 0 q q')) (fun q => b1 (ix2 0 q)) (fun q p => wm (ix3 0 q p))
        (fun p => bl (ix2 0 p)) (fun j' p => mm (ix3 0 j' p)) 1 :=
  col_of X w0 b0 w1 b1 wm bl mm r 3 24 rfl slices_S1024x32_o0_24_S1024x8 1 8 rfl slices_S1024x64_o0_8_S1024x8 _ _ rfl
    (xl3_eq X w0 b0 w1 b1 wm bl mm)

theorem col_3_2 (X : Vec Ideal S1024x32 .f32) (w0 : Vec Ideal S1x32x256 .bf16) (b0 : Vec Ideal S1x256 .f32)
    (w1 : Vec Ideal S1x256x256 .bf16) (b1 : Vec Ideal S1x256 .f32) (wm : Vec Ideal S1x256x64 .bf16)
    (bl : Vec Ideal S1x64 .f32) (mm : Vec Ideal S1x8x64 .f32) (r : Fin 1024) :
    k0_pay42 (k0_pay37 (k0_pay3 X) w0 b0 w1 b1 wm bl) (k0_pay38 X mm) (ix2 r 0)
      = kerGrp (fun i => X (ix2 r i)) (fun j' => X (ix2 r (dOf 3 j'))) (fun i q => w0 (ix3 0 i q))
        (fun q => b0 (ix2 0 q)) (fun q q' => w1 (ix3 0 q q')) (fun q => b1 (ix2 0 q)) (fun q p => wm (ix3 0 q p))
        (fun p => bl (ix2 0 p)) (fun j' p => mm (ix3 0 j' p)) 2 :=
  col_of X w0 b0 w1 b1 wm bl mm r 3 24 rfl slices_S1024x32_o0_24_S1024x8 2 16 rfl slices_S1024x64_o0_16_S1024x8 _ _ rfl
    (xl3_eq X w0 b0 w1 b1 wm bl mm)

theorem col_3_3 (X : Vec Ideal S1024x32 .f32) (w0 : Vec Ideal S1x32x256 .bf16) (b0 : Vec Ideal S1x256 .f32)
    (w1 : Vec Ideal S1x256x256 .bf16) (b1 : Vec Ideal S1x256 .f32) (wm : Vec Ideal S1x256x64 .bf16)
    (bl : Vec Ideal S1x64 .f32) (mm : Vec Ideal S1x8x64 .f32) (r : Fin 1024) :
    k0_pay43 (k0_pay39 (k0_pay37 (k0_pay3 X) w0 b0 w1 b1 wm bl) (k0_pay38 X mm)) (ix2 r 0)
      = kerGrp (fun i => X (ix2 r i)) (fun j' => X (ix2 r (dOf 3 j'))) (fun i q => w0 (ix3 0 i q))
        (fun q => b0 (ix2 0 q)) (fun q q' => w1 (ix3 0 q q')) (fun q => b1 (ix2 0 q)) (fun q p => wm (ix3 0 q p))
        (fun p => bl (ix2 0 p)) (fun j' p => mm (ix3 0 j' p)) 3 :=
  col_of X w0 b0 w1 b1 wm bl mm r 3 24 rfl slices_S1024x32_o0_24_S1024x8 3 24 rfl slices_S1024x64_o0_24_S1024x8 _ _ rfl
    (xl3_eq X w0 b0 w1 b1 wm bl mm)

theorem col_3_4 (X : Vec Ideal S1024x32 .f32) (w0 : Vec Ideal S1x32x256 .bf16) (b0 : Vec Ideal S1x256 .f32)
    (w1 : Vec Ideal S1x256x256 .bf16) (b1 : Vec Ideal S1x256 .f32) (wm : Vec Ideal S1x256x64 .bf16)
    (bl : Vec Ideal S1x64 .f32) (mm : Vec Ideal S1x8x64 .f32) (r : Fin 1024) :
    k0_pay44 (k0_pay39 (k0_pay37 (k0_pay3 X) w0 b0 w1 b1 wm bl) (k0_pay38 X mm)) (ix2 r 0)
      = kerGrp (fun i => X (ix2 r i)) (fun j' => X (ix2 r (dOf 3 j'))) (fun i q => w0 (ix3 0 i q))
        (fun q => b0 (ix2 0 q)) (fun q q' => w1 (ix3 0 q q')) (fun q => b1 (ix2 0 q)) (fun q p => wm (ix3 0 q p))
        (fun p => bl (ix2 0 p)) (fun j' p => mm (ix3 0 j' p)) 4 :=
  col_of X w0 b0 w1 b1 wm bl mm r 3 24 rfl slices_S1024x32_o0_24_S1024x8 4 32 rfl slices_S1024x64_o0_32_S1024x8 _ _ rfl
    (xl3_eq X w0 b0 w1 b1 wm bl mm)

theorem col_3_5 (X : Vec Ideal S1024x32 .f32) (w0 : Vec Ideal S1x32x256 .bf16) (b0 : Vec Ideal S1x256 .f32)
    (w1 : Vec Ideal S1x256x256 .bf16) (b1 : Vec Ideal S1x256 .f32) (wm : Vec Ideal S1x256x64 .bf16)
    (bl : Vec Ideal S1x64 .f32) (mm : Vec Ideal S1x8x64 .f32) (r : Fin 1024) :
    k0_pay45 (k0_pay39 (k0_pay37 (k0_pay3 X) w0 b0 w1 b1 wm bl) (k0_pay38 X mm)) (ix2 r 0)
      = kerGrp (fun i => X (ix2 r i)) (fun j' => X (ix2 r (dOf 3 j'))) (fun i q => w0 (ix3 0 i q))
        (fun q => b0 (ix2 0 q)) (fun q q' => w1 (ix3 0 q q')) (fun q => b1 (ix2 0 q)) (fun q p => wm (ix3 0 q p))
        (fun p => bl (ix2 0 p)) (fun j' p => mm (ix3 0 j' p)) 5 :=
  col_of X w0 b0 w1 b1 wm bl mm r 3 24 rfl slices_S1024x32_o0_24_S1024x8 5 40 rfl slices_S1024x64_o0_40_S1024x8 _ _ rfl
    (xl3_eq X w0 b0 w1 b1 wm bl mm)

theorem col_3_6 (X : Vec Ideal S1024x32 .f32) (w0 : Vec Ideal S1x32x256 .bf16) (b0 : Vec Ideal S1x256 .f32)
    (w1 : Vec Ideal S1x256x256 .bf16) (b1 : Vec Ideal S1x256 .f32) (wm : Vec Ideal S1x256x64 .bf16)
    (bl : Vec Ideal S1x64 .f32) (mm : Vec Ideal S1x8x64 .f32) (r : Fin 1024) :
    k0_pay1 (k0_pay39 (k0_pay37 (k0_pay3 X) w0 b0 w1 b1 wm bl) (k0_pay38 X mm)) (ix2 r 0)
      = kerGrp (fun i => X (ix2 r i)) (fun j' => X (ix2 r (dOf 3 j'))) (fun i q => w0 (ix3 0 i q))
        (fun q => b0 (ix2 0 q)) (fun q q' => w1 (ix3 0 q q')) (fun q => b1 (ix2 0 q)) (fun q p => wm (ix3 0 q p))
        (fun p => bl (ix2 0 p)) (fun j' p => mm (ix3 0 j' p)) 6 :=
  col_of X w0 b0 w1 b1 wm bl mm r 3 24 rfl slices_S1024x32_o0_24_S1024x8 6 48 rfl slices_S1024x64_o0_48_S1024x8 _ _ rfl
    (xl3_eq X w0 b0 w1 b1 wm bl mm)

theorem col_3_7 (X : Vec Ideal S1024x32 .f32) (w0 : Vec Ideal S1x32x256 .bf16) (b0 : Vec Ideal S1x256 .f32)
    (w1 : Vec Ideal S1x256x256 .bf16) (b1 : Vec Ideal S1x256 .f32) (wm : Vec Ideal S1x256x64 .bf16)
    (bl : Vec Ideal S1x64 .f32) (mm : Vec Ideal S1x8x64 .f32) (r : Fin 1024) :
    k0_pay2 (k0_pay39 (k0_pay37 (k0_pay3 X) w0 b0 w1 b1 wm bl) (k0_pay38 X mm)) (ix2 r 0)
      = kerGrp (fun i => X (ix2 r i)) (fun j' => X (ix2 r (dOf 3 j'))) (fun i q => w0 (ix3 0 i q))
        (fun q => b0 (ix2 0 q)) (fun q q' => w1 (ix3 0 q q')) (fun q => b1 (ix2 0 q)) (fun q p => wm (ix3 0 q p))
        (fun p => bl (ix2 0 p)) (fun j' p => mm (ix3 0 j' p)) 7 :=
  col_of X w0 b0 w1 b1 wm bl mm r 3 24 rfl slices_S1024x32_o0_24_S1024x8 7 56 rfl slices_S1024x64_o0_56_S1024x8 _ _ rfl
    (xl3_eq X w0 b0 w1 b1 wm bl mm)

end columns

end Cert.Monotone.Body

end
-- ==== Proof.Final.lean ====
/-
  The kernel's result array, from its blocks.

  A grid point `t` stages rows `1024 t … 1024 t + 1023` of the input and the seven slabs whole, and its body stores the
  32 columns of the result block one at a time. Column `8 cg + j` of the block is, row by row, the group reading
  `kerGrp` of that row and of group `cg`'s slices of the slabs (Proof/Body.lean); the slabs are the masked, block-diagonal
  arrangements of the parameters (Proof/Slabs.lean); so the column is the specification's component `8 cg + j`
  (Proof/Algebra.lean). The 32 column pieces tile the block, the 256 blocks tile the array, and the array after the run is
  the one function `G` of the argument arrays.
-/
import proofs.«166035_j57586921505191_2_alg».proof.Proof.Gen.KernelIdeal.Value
import proofs.«166035_j57586921505191_2_alg».proof.Proof.Spec
import proofs.«166035_j57586921505191_2_alg».proof.Proof.Algebra
import proofs.«166035_j57586921505191_2_alg».proof.Proof.Slabs
import proofs.«166035_j57586921505191_2_alg».proof.Proof.Body

noncomputable section

namespace Cert.Monotone.Final

open Cert.KernelIdeal Cert.KernelIdeal.Gen Idealize.ShloMosaic Idealize.ShloMosaic.ValueIdx Idealize.ShloMosaic.TcCoe Idealize.SL.Sem Cert.Monotone Cert.Monotone.Body
open Idealize.ShloMosaic.Pipeline (Dat)

/-! ## Reading a block through the body's rectangles -/

/-- The whole block of the input rows, loaded at offset zero, is the block. -/
theorem ld_x (x0 : Vec Ideal S1024x32 .f32) (r : Fin 1024) (i : Fin 32) : View.ld x0 r0_0 (ix2 r i) = x0 (ix2 r i) := by
  show x0 (r0_0.idx (ix2 r i)) = _
  refine congrArg x0 (funext fun a => Fin.ext ?_)
  match a with
  | ⟨0, _⟩ => (show 0 + 1 * r.val = r.val); omega
  | ⟨1, _⟩ => (show 0 + 1 * i.val = i.val); omega
theorem ld_w0_0 (x1 : Vec Ideal S4x32x256 .bf16) (i : Fin 32) (q : Fin 256) : View.ld x1 r0_1 (ix3 0 i q) = x1 (ix3 0 i q) := by
  show x1 (r0_1.idx (ix3 0 i q)) = _
  refine congrArg x1 (funext fun a => Fin.ext ?_)
  match a with
  | ⟨0, _⟩ => rfl
  | ⟨1, _⟩ => (show 0 + 1 * i.val = i.val); omega
  | ⟨2, _⟩ => (show 0 + 1 * q.val = q.val); omega
theorem ld_b0_0 (x2 : Vec Ideal S4x256 .f32) (q : Fin 256) : View.ld x2 r0_2 (ix2 0 q) = x2 (ix2 0 q) := by
  show x2 (r0_2.idx (ix2 0 q)) = _
  refine congrArg x2 (funext fun a => Fin.ext ?_)
  match a with
  | ⟨0, _⟩ => rfl
  | ⟨1, _⟩ => (show 0 + 1 * q.val = q.val); omega
theorem ld_w1_0 (x3 : Vec Ideal S4x256x256 .bf16) (q q' : Fin 256) : View.ld x3 r0_3 (ix3 0 q q') = x3 (ix3 0 q q') := by
  show x3 (r0_3.idx (ix3 0 q q')) = _
  refine congrArg x3 (funext fun a => Fin.ext ?_)
  match a with
  | ⟨0, _⟩ => rfl
  | ⟨1, _⟩ => (show 0 + 1 * q.val = q.val); omega
  | ⟨2, _⟩ => (show 0 + 1 * q'.val = q'.val); omega
theorem ld_b1_0 (x4 : Vec Ideal S4x256 .f32) (q : Fin 256) : View.ld x4 r0_2 (ix2 0 q) = x4 (ix2 0 q) := by
  show x4 (r0_2.idx (ix2 0 q)) = _
  refine congrArg x4 (funext fun a => Fin.ext ?_)
  match a with
  | ⟨0, _⟩ => rfl
  | ⟨1, _⟩ => (show 0 + 1 * q.val = q.val); omega
theorem ld_wm_0 (x5 : Vec Ideal S4x256x64 .bf16) (q : Fin 256) (p : Fin 64) : View.ld x5 r0_4 (ix3 0 q p) = x5 (ix3 0 q p) := by
  show x5 (r0_4.idx (ix3 0 q p)) = _
  refine congrArg x5 (funext fun a => Fin.ext ?_)
  match a with
  | ⟨0, _⟩ => rfl
  | ⟨1, _⟩ => (show 0 + 1 * q.val = q.val); omega
  | ⟨2, _⟩ => (show 0 + 1 * p.val = p.val); omega
theorem ld_bl_0 (x6 : Vec Ideal S4x64 .f32) (p : Fin 64) : View.ld x6 r0_5 (ix2 0 p) = x6 (ix2 0 p) := by
  show x6 (r0_5.idx (ix2 0 p)) = _
  refine congrArg x6 (funext fun a => Fin.ext ?_)
  match a with
  | ⟨0, _⟩ => rfl
  | ⟨1, _⟩ => (show 0 + 1 * p.val = p.val); omega
theorem ld_mm_0 (x7 : Vec Ideal S4x8x64 .f32) (j' : Fin 8) (p : Fin 64) : View.ld x7 r0_6 (ix3 0 j' p) = x7 (ix3 0 j' p) := by
  show x7 (r0_6.idx (ix3 0 j' p)) = _
  refine congrArg x7 (funext fun a => Fin.ext ?_)
  match a with
  | ⟨0, _⟩ => rfl
  | ⟨1, _⟩ => (show 0 + 1 * j'.val = j'.val); omega
  | ⟨2, _⟩ => (show 0 + 1 * p.val = p.val); omega
theorem ld_w0_1 (x1 : Vec Ideal S4x32x256 .bf16) (i : Fin 32) (q : Fin 256) : View.ld x1 r0_15 (ix3 0 i q) = x1 (ix3 1 i q) := by
  show x1 (r0_15.idx (ix3 0 i q)) = _
  refine congrArg x1 (funext fun a => Fin.ext ?_)
  match a with
  | ⟨0, _⟩ => rfl
  | ⟨1, _⟩ => (show 0 + 1 * i.val = i.val); omega
  | ⟨2, _⟩ => (show 0 + 1 * q.val = q.val); omega
theorem ld_b0_1 (x2 : Vec Ideal S4x256 .f32) (q : Fin 256) : View.ld x2 r0_16 (ix2 0 q) = x2 (ix2 1 q) := by
  show x2 (r0_16.idx (ix2 0 q)) = _
  refine congrArg x2 (funext fun a => Fin.ext ?_)
  match a with
  | ⟨0, _⟩ => rfl
  | ⟨1, _⟩ => (show 0 + 1 * q.val = q.val); omega
theorem ld_w1_1 (x3 : Vec Ideal S4x256x256 .bf16) (q q' : Fin 256) : View.ld x3 r0_17 (ix3 0 q q') = x3 (ix3 1 q q') := by
  show x3 (r0_17.idx (ix3 0 q q')) = _
  refine congrArg x3 (funext fun a => Fin.ext ?_)
  match a with
  | ⟨0, _⟩ => rfl
  | ⟨1, _⟩ => (show 0 + 1 * q.val = q.val); omega
  | ⟨2, _⟩ => (show 0 + 1 * q'.val = q'.val); omega
theorem ld_b1_1 (x4 : Vec Ideal S4x256 .f32) (q : Fin 256) : View.ld x4 r0_16 (ix2 0 q) = x4 (ix2 1 q) := by
  show x4 (r0_16.idx (ix2 0 q)) = _
  refine congrArg x4 (funext fun a => Fin.ext ?_)
  match a with
  | ⟨0, _⟩ => rfl
  | ⟨1, _⟩ => (show 0 + 1 * q.val = q.val); omega
theorem ld_wm_1 (x5 : Vec Ideal S4x256x64 .bf16) (q : Fin 256) (p : Fin 64) : View.ld x5 r0_18 (ix3 0 q p) = x5 (ix3 1 q p) := by
  show x5 (r0_18.idx (ix3 0 q p)) = _
  refine congrArg x5 (funext fun a => Fin.ext ?_)
  match a with
  | ⟨0, _⟩ => rfl
  | ⟨1, _⟩ => (show 0 + 1 * q.val = q.val); omega
  | ⟨2, _⟩ => (show 0 + 1 * p.val = p.val); omega
theorem ld_bl_1 (x6 : Vec Ideal S4x64 .f32) (p : Fin 64) : View.ld x6 r0_19 (ix2 0 p) = x6 (ix2 1 p) := by
  show x6 (r0_19.idx (ix2 0 p)) = _
  refine congrArg x6 (funext fun a => Fin.ext ?_)
  match a with
  | ⟨0, _⟩ => rfl
  | ⟨1, _⟩ => (show 0 + 1 * p.val = p.val); omega
theorem ld_mm_1 (x7 : Vec Ideal S4x8x64 .f32) (j' : Fin 8) (p : Fin 64) : View.ld x7 r0_20 (ix3 0 j' p) = x7 (ix3 1 j' p) := by
  show x7 (r0_20.idx (ix3 0 j' p)) = _
  refine congrArg x7 (funext fun a => Fin.ext ?_)
  match a with
  | ⟨0, _⟩ => rfl
  | ⟨1, _⟩ => (show 0 + 1 * j'.val = j'.val); omega
  | ⟨2, _⟩ => (show 0 + 1 * p.val = p.val); omega
theorem ld_w0_2 (x1 : Vec Ideal S4x32x256 .bf16) (i : Fin 32) (q : Fin 256) : View.ld x1 r0_29 (ix3 0 i q) = x1 (ix3 2 i q) := by
  show x1 (r0_29.idx (ix3 0 i q)) = _
  refine congrArg x1 (funext fun a => Fin.ext ?_)
  match a with
  | ⟨0, _⟩ => rfl
  | ⟨1, _⟩ => (show 0 + 1 * i.val = i.val); omega
  | ⟨2, _⟩ => (show 0 + 1 * q.val = q.val); omega
theorem ld_b0_2 (x2 : Vec Ideal S4x256 .f32) (q : Fin 256) : View.ld x2 r0_30 (ix2 0 q) = x2 (ix2 2 q) := by
  show x2 (r0_30.idx (ix2 0 q)) = _
  refine congrArg x2 (funext fun a => Fin.ext ?_)
  match a with
  | ⟨0, _⟩ => rfl
  | ⟨1, _⟩ => (show 0 + 1 * q.val = q.val); omega
theorem ld_w1_2 (x3 : Vec Ideal S4x256x256 .bf16) (q q' : Fin 256) : View.ld x3 r0_31 (ix3 0 q q') = x3 (ix3 2 q q') := by
  show x3 (r0_31.idx (ix3 0 q q')) = _
  refine congrArg x3 (funext fun a => Fin.ext ?_)
  match a with
  | ⟨0, _⟩ => rfl
  | ⟨1, _⟩ => (show 0 + 1 * q.val = q.val); omega
  | ⟨2, _⟩ => (show 0 + 1 * q'.val = q'.val); omega
theorem ld_b1_2 (x4 : Vec Ideal S4x256 .f32) (q : Fin 256) : View.ld x4 r0_30 (ix2 0 q) = x4 (ix2 2 q) := by
  show x4 (r0_30.idx (ix2 0 q)) = _
  refine congrArg x4 (funext fun a => Fin.ext ?_)
  match a with
  | ⟨0, _⟩ => rfl
  | ⟨1, _⟩ => (show 0 + 1 * q.val = q.val); omega
theorem ld_wm_2 (x5 : Vec Ideal S4x256x64 .bf16) (q : Fin 256) (p : Fin 64) : View.ld x5 r0_32 (ix3 0 q p) = x5 (ix3 2 q p) := by
  show x5 (r0_32.idx (ix3 0 q p)) = _
  refine congrArg x5 (funext fun a => Fin.ext ?_)
  match a with
  | ⟨0, _⟩ => rfl
  | ⟨1, _⟩ => (show 0 + 1 * q.val = q.val); omega
  | ⟨2, _⟩ => (show 0 + 1 * p.val = p.val); omega
theorem ld_bl_2 (x6 : Vec Ideal S4x64 .f32) (p : Fin 64) : View.ld x6 r0_33 (ix2 0 p) = x6 (ix2 2 p) := by
  show x6 (r0_33.idx (ix2 0 p)) = _
  refine congrArg x6 (funext fun a => Fin.ext ?_)
  match a with
  | ⟨0, _⟩ => rfl
  | ⟨1, _⟩ => (show 0 + 1 * p.val = p.val); omega
theorem ld_mm_2 (x7 : Vec Ideal S4x8x64 .f32) (j' : Fin 8) (p : Fin 64) : View.ld x7 r0_34 (ix3 0 j' p) = x7 (ix3 2 j' p) := by
  show x7 (r0_34.idx (ix3 0 j' p)) = _
  refine congrArg x7 (funext fun a => Fin.ext ?_)
  match a with
  | ⟨0, _⟩ => rfl
  | ⟨1, _⟩ => (show 0 + 1 * j'.val = j'.val); omega
  | ⟨2, _⟩ => (show 0 + 1 * p.val = p.val); omega
theorem ld_w0_3 (x1 : Vec Ideal S4x32x256 .bf16) (i : Fin 32) (q : Fin 256) : View.ld x1 r0_43 (ix3 0 i q) = x1 (ix3 3 i q) := by
  show x1 (r0_43.idx (ix3 0 i q)) = _
  refine congrArg x1 (funext fun a => Fin.ext ?_)
  match a with
  | ⟨0, _⟩ => rfl
  | ⟨1, _⟩ => (show 0 + 1 * i.val = i.val); omega
  | ⟨2, _⟩ => (show 0 + 1 * q.val = q.val); omega
theorem ld_b0_3 (x2 : Vec Ideal S4x256 .f32) (q : Fin 256) : View.ld x2 r0_44 (ix2 0 q) = x2 (ix2 3 q) := by
  show x2 (r0_44.idx (ix2 0 q)) = _
  refine congrArg x2 (funext fun a => Fin.ext ?_)
  match a with
  | ⟨0, _⟩ => rfl
  | ⟨1, _⟩ => (show 0 + 1 * q.val = q.val); omega
theorem ld_w1_3 (x3 : Vec Ideal S4x256x256 .bf16) (q q' : Fin 256) : View.ld x3 r0_45 (ix3 0 q q') = x3 (ix3 3 q q') := by
  show x3 (r0_45.idx (ix3 0 q q')) = _
  refine congrArg x3 (funext fun a => Fin.ext ?_)
  match a with
  | ⟨0, _⟩ => rfl
  | ⟨1, _⟩ => (show 0 + 1 * q.val = q.val); omega
  | ⟨2, _⟩ => (show 0 + 1 * q'.val = q'.val); omega
theorem ld_b1_3 (x4 : Vec Ideal S4x256 .f32) (q : Fin 256) : View.ld x4 r0_44 (ix2 0 q) = x4 (ix2 3 q) := by
  show x4 (r0_44.idx (ix2 0 q)) = _
  refine congrArg x4 (funext fun a => Fin.ext ?_)
  match a with
  | ⟨0, _⟩ => rfl
  | ⟨1, _⟩ => (show 0 + 1 * q.val = q.val); omega
theorem ld_wm_3 (x5 : Vec Ideal S4x256x64 .bf16) (q : Fin 256) (p : Fin 64) : View.ld x5 r0_46 (ix3 0 q p) = x5 (ix3 3 q p) := by
  show x5 (r0_46.idx (ix3 0 q p)) = _
  refine congrArg x5 (funext fun a => Fin.ext ?_)
  match a with
  | ⟨0, _⟩ => rfl
  | ⟨1, _⟩ => (show 0 + 1 * q.val = q.val); omega
  | ⟨2, _⟩ => (show 0 + 1 * p.val = p.val); omega
theorem ld_bl_3 (x6 : Vec Ideal S4x64 .f32) (p : Fin 64) : View.ld x6 r0_47 (ix2 0 p) = x6 (ix2 3 p) := by
  show x6 (r0_47.idx (ix2 0 p)) = _
  refine congrArg x6 (funext fun a => Fin.ext ?_)
  match a with
  | ⟨0, _⟩ => rfl
  | ⟨1, _⟩ => (show 0 + 1 * p.val = p.val); omega
theorem ld_mm_3 (x7 : Vec Ideal S4x8x64 .f32) (j' : Fin 8) (p : Fin 64) : View.ld x7 r0_48 (ix3 0 j' p) = x7 (ix3 3 j' p) := by
  show x7 (r0_48.idx (ix3 0 j' p)) = _
  refine congrArg x7 (funext fun a => Fin.ext ?_)
  match a with
  | ⟨0, _⟩ => rfl
  | ⟨1, _⟩ => (show 0 + 1 * j'.val = j'.val); omega
  | ⟨2, _⟩ => (show 0 + 1 * p.val = p.val); omega

/-- A column piece's rectangle sends row `r` of the piece to entry `(r, column)` of the block. -/
theorem emb_0_0 (r : Fin 1024) : (r0_7 : Rect S1024x32).emb (ix2 r 0) = ix2 r (dOf 0 0) := by
  funext a; apply Fin.ext
  match a with
  | ⟨0, _⟩ => (show 0 + 1 * r.val = r.val); omega
  | ⟨1, _⟩ => rfl
theorem emb_0_1 (r : Fin 1024) : (r0_8 : Rect S1024x32).emb (ix2 r 0) = ix2 r (dOf 0 1) := by
  funext a; apply Fin.ext
  match a with
  | ⟨0, _⟩ => (show 0 + 1 * r.val = r.val); omega
  | ⟨1, _⟩ => rfl
theorem emb_0_2 (r : Fin 1024) : (r0_9 : Rect S1024x32).emb (ix2 r 0) = ix2 r (dOf 0 2) := by
  funext a; apply Fin.ext
  match a with
  | ⟨0, _⟩ => (show 0 + 1 * r.val = r.val); omega
  | ⟨1, _⟩ => rfl
theorem emb_0_3 (r : Fin 1024) : (r0_10 : Rect S1024x32).emb (ix2 r 0) = ix2 r (dOf 0 3) := by
  funext a; apply Fin.ext
  match a with
  | ⟨0, _⟩ => (show 0 + 1 * r.val = r.val); omega
  | ⟨1, _⟩ => rfl
theorem emb_0_4 (r : Fin 1024) : (r0_11 : Rect S1024x32).emb (ix2 r 0) = ix2 r (dOf 0 4) := by
  funext a; apply Fin.ext
  match a with
  | ⟨0, _⟩ => (show 0 + 1 * r.val = r.val); omega
  | ⟨1, _⟩ => rfl
theorem emb_0_5 (r : Fin 1024) : (r0_12 : Rect S1024x32).emb (ix2 r 0) = ix2 r (dOf 0 5) := by
  funext a; apply Fin.ext
  match a with
  | ⟨0, _⟩ => (show 0 + 1 * r.val = r.val); omega
  | ⟨1, _⟩ => rfl
theorem emb_0_6 (r : Fin 1024) : (r0_13 : Rect S1024x32).emb (ix2 r 0) = ix2 r (dOf 0 6) := by
  funext a; apply Fin.ext
  match a with
  | ⟨0, _⟩ => (show 0 + 1 * r.val = r.val); omega
  | ⟨1, _⟩ => rfl
theorem emb_0_7 (r : Fin 1024) : (r0_14 : Rect S1024x32).emb (ix2 r 0) = ix2 r (dOf 0 7) := by
  funext a; apply Fin.ext
  match a with
  | ⟨0, _⟩ => (show 0 + 1 * r.val = r.val); omega
  | ⟨1, _⟩ => rfl
theorem emb_1_0 (r : Fin 1024) : (r0_21 : Rect S1024x32).emb (ix2 r 0) = ix2 r (dOf 1 0) := by
  funext a; apply Fin.ext
  match a with
  | ⟨0, _⟩ => (show 0 + 1 * r.val = r.val); omega
  | ⟨1, _⟩ => rfl
theorem emb_1_1 (r : Fin 1024) : (r0_22 : Rect S1024x32).emb (ix2 r 0) = ix2 r (dOf 1 1) := by
  funext a; apply Fin.ext
  match a with
  | ⟨0, _⟩ => (show 0 + 1 * r.val = r.val); omega
  | ⟨1, _⟩ => rfl
theorem emb_1_2 (r : Fin 1024) : (r0_23 : Rect S1024x32).emb (ix2 r 0) = ix2 r (dOf 1 2) := by
  funext a; apply Fin.ext
  match a with
  | ⟨0, _⟩ => (show 0 + 1 * r.val = r.val); omega
  | ⟨1, _⟩ => rfl
theorem emb_1_3 (r : Fin 1024) : (r0_24 : Rect S1024x32).emb (ix2 r 0) = ix2 r (dOf 1 3) := by
  funext a; apply Fin.ext
  match a with
  | ⟨0, _⟩ => (show 0 + 1 * r.val = r.val); omega
  | ⟨1, _⟩ => rfl
theorem emb_1_4 (r : Fin 1024) : (r0_25 : Rect S1024x32).emb (ix2 r 0) = ix2 r (dOf 1 4) := by
  funext a; apply Fin.ext
  match a with
  | ⟨0, _⟩ => (show 0 + 1 * r.val = r.val); omega
  | ⟨1, _⟩ => rfl
theorem emb_1_5 (r : Fin 1024) : (r0_26 : Rect S1024x32).emb (ix2 r 0) = ix2 r (dOf 1 5) := by
  funext a; apply Fin.ext
  match a with
  | ⟨0, _⟩ => (show 0 + 1 * r.val = r.val); omega
  | ⟨1, _⟩ => rfl
theorem emb_1_6 (r : Fin 1024) : (r0_27 : Rect S1024x32).emb (ix2 r 0) = ix2 r (dOf 1 6) := by
  funext a; apply Fin.ext
  match a with
  | ⟨0, _⟩ => (show 0 + 1 * r.val = r.val); omega
  | ⟨1, _⟩ => rfl
theorem emb_1_7 (r : Fin 1024) : (r0_28 : Rect S1024x32).emb (ix2 r 0) = ix2 r (dOf 1 7) := by
  funext a; apply Fin.ext
  match a with
  | ⟨0, _⟩ => (show 0 + 1 * r.val = r.val); omega
  | ⟨1, _⟩ => rfl
theorem emb_2_0 (r : Fin 1024) : (r0_35 : Rect S1024x32).emb (ix2 r 0) = ix2 r (dOf 2 0) := by
  funext a; apply Fin.ext
  match a with
  | ⟨0, _⟩ => (show 0 + 1 * r.val = r.val); omega
  | ⟨1, _⟩ => rfl
theorem emb_2_1 (r : Fin 1024) : (r0_36 : Rect S1024x32).emb (ix2 r 0) = ix2 r (dOf 2 1) := by
  funext a; apply Fin.ext
  match a with
  | ⟨0, _⟩ => (show 0 + 1 * r.val = r.val); omega
  | ⟨1, _⟩ => rfl
theorem emb_2_2 (r : Fin 1024) : (r0_37 : Rect S1024x32).emb (ix2 r 0) = ix2 r (dOf 2 2) := by
  funext a; apply Fin.ext
  match a with
  | ⟨0, _⟩ => (show 0 + 1 * r.val = r.val); omega
  | ⟨1, _⟩ => rfl
theorem emb_2_3 (r : Fin 1024) : (r0_38 : Rect S1024x32).emb (ix2 r 0) = ix2 r (dOf 2 3) := by
  funext a; apply Fin.ext
  match a with
  | ⟨0, _⟩ => (show 0 + 1 * r.val = r.val); omega
  | ⟨1, _⟩ => rfl
theorem emb_2_4 (r : Fin 1024) : (r0_39 : Rect S1024x32).emb (ix2 r 0) = ix2 r (dOf 2 4) := by
  funext a; apply Fin.ext
  match a with
  | ⟨0, _⟩ => (show 0 + 1 * r.val = r.val); omega
  | ⟨1, _⟩ => rfl
theorem emb_2_5 (r : Fin 1024) : (r0_40 : Rect S1024x32).emb (ix2 r 0) = ix2 r (dOf 2 5) := by
  funext a; apply Fin.ext
  match a with
  | ⟨0, _⟩ => (show 0 + 1 * r.val = r.val); omega
  | ⟨1, _⟩ => rfl
theorem emb_2_6 (r : Fin 1024) : (r0_41 : Rect S1024x32).emb (ix2 r 0) = ix2 r (dOf 2 6) := by
  funext a; apply Fin.ext
  match a with
  | ⟨0, _⟩ => (show 0 + 1 * r.val = r.val); omega
  | ⟨1, _⟩ => rfl
theorem emb_2_7 (r : Fin 1024) : (r0_42 : Rect S1024x32).emb (ix2 r 0) = ix2 r (dOf 2 7) := by
  funext a; apply Fin.ext
  match a with
  | ⟨0, _⟩ => (show 0 + 1 * r.val = r.val); omega
  | ⟨1, _⟩ => rfl
theorem emb_3_0 (r : Fin 1024) : (r0_49 : Rect S1024x32).emb (ix2 r 0) = ix2 r (dOf 3 0) := by
  funext a; apply Fin.ext
  match a with
  | ⟨0, _⟩ => (show 0 + 1 * r.val = r.val); omega
  | ⟨1, _⟩ => rfl
theorem emb_3_1 (r : Fin 1024) : (r0_50 : Rect S1024x32).emb (ix2 r 0) = ix2 r (dOf 3 1) := by
  funext a; apply Fin.ext
  match a with
  | ⟨0, _⟩ => (show 0 + 1 * r.val = r.val); omega
  | ⟨1, _⟩ => rfl
theorem emb_3_2 (r : Fin 1024) : (r0_51 : Rect S1024x32).emb (ix2 r 0) = ix2 r (dOf 3 2) := by
  funext a; apply Fin.ext
  match a with
  | ⟨0, _⟩ => (show 0 + 1 * r.val = r.val); omega
  | ⟨1, _⟩ => rfl
theorem emb_3_3 (r : Fin 1024) : (r0_52 : Rect S1024x32).emb (ix2 r 0) = ix2 r (dOf 3 3) := by
  funext a; apply Fin.ext
  match a with
  | ⟨0, _⟩ => (show 0 + 1 * r.val = r.val); omega
  | ⟨1, _⟩ => rfl
theorem emb_3_4 (r : Fin 1024) : (r0_53 : Rect S1024x32).emb (ix2 r 0) = ix2 r (dOf 3 4) := by
  funext a; apply Fin.ext
  match a with
  | ⟨0, _⟩ => (show 0 + 1 * r.val = r.val); omega
  | ⟨1, _⟩ => rfl
theorem emb_3_5 (r : Fin 1024) : (r0_54 : Rect S1024x32).emb (ix2 r 0) = ix2 r (dOf 3 5) := by
  funext a; apply Fin.ext
  match a with
  | ⟨0, _⟩ => (show 0 + 1 * r.val = r.val); omega
  | ⟨1, _⟩ => rfl
theorem emb_3_6 (r : Fin 1024) : (r0_55 : Rect S1024x32).emb (ix2 r 0) = ix2 r (dOf 3 6) := by
  funext a; apply Fin.ext
  match a with
  | ⟨0, _⟩ => (show 0 + 1 * r.val = r.val); omega
  | ⟨1, _⟩ => rfl
theorem emb_3_7 (r : Fin 1024) : (r0_56 : Rect S1024x32).emb (ix2 r 0) = ix2 r (dOf 3 7) := by
  funext a; apply Fin.ext
  match a with
  | ⟨0, _⟩ => (show 0 + 1 * r.val = r.val); omega
  | ⟨1, _⟩ => rfl

/-- An index of a one-column piece is its row. -/
theorem col_idx (x : S1024x1.Idx) : ∃ r : Fin 1024, x = ix2 r 0 := by
  refine ⟨x 0, ?_⟩
  funext a
  match a with
  | ⟨0, _⟩ => rfl
  | ⟨1, h1⟩ =>
    have h : (x ⟨1, h1⟩).val < S1024x1.size ⟨1, h1⟩ := (x ⟨1, h1⟩).isLt
    have e : S1024x1.size ⟨1, h1⟩ = 1 := rfl
    exact Fin.ext (by show (x ⟨1, h1⟩).val = 0; omega)

/-! ## One block of the result -/

/-- The group reading of a row whose inputs and slab slices are KNOWN to be the row and the slabs (each read through its
    own rectangle) is the specification at the group's component. -/
theorem grp_of_block (W0 : Fin 32 → Fin 32 → Fin 32 → EReal) (B0 : Fin 32 → Fin 32 → EReal)
    (W1 : Fin 32 → Fin 32 → Fin 32 → EReal) (B1 : Fin 32 → Fin 32 → EReal)
    (WL : Fin 32 → Fin 32 → Fin 8 → EReal) (BL : Fin 32 → Fin 8 → EReal) (cg : Fin 4) (j : Fin 8)
    (xr xr' : Fin 32 → EReal) (xg : Fin 8 → EReal)
    (s0 : Fin 32 → Fin 256 → EReal) (sb0 : Fin 256 → EReal) (s1 : Fin 256 → Fin 256 → EReal) (sb1 : Fin 256 → EReal)
    (sm : Fin 256 → Fin 64 → EReal) (sbl : Fin 64 → EReal) (se : Fin 8 → Fin 64 → EReal)
    (hxr : ∀ i, xr' i = xr i) (hxg : ∀ j', xg j' = xr (dOf cg j'))
    (h0 : ∀ i q, s0 i q = slab0 W0 cg i q) (hb0 : ∀ q, sb0 q = slabB0 B0 cg q)
    (h1 : ∀ q q', s1 q q' = slab1 W1 cg q q') (hb1 : ∀ q, sb1 q = slabB1 B1 cg q)
    (hm : ∀ q p, sm q p = slabM WL cg q p) (hbl : ∀ p, sbl p = slabBL BL cg p)
    (he : ∀ j' p, se j' p = slabE WL cg j' p) :
    kerGrp xr' xg s0 sb0 s1 sb1 sm sbl se j = specOut xr W0 B0 W1 B1 WL BL (dOf cg j) := by
  have e1 : xr' = xr := funext hxr
  have e2 : xg = fun j' => xr (dOf cg j') := funext hxg
  rw [e1, e2]
  exact kerGrp_of_slabs xr W0 B0 W1 B1 WL BL cg j s0 sb0 s1 sb1 sm sbl se h0 hb0 h1 hb1 hm hbl he

section block
variable (x0 : Vec Ideal S1024x32 .f32) (x1 : Vec Ideal S4x32x256 .bf16) (x2 : Vec Ideal S4x256 .f32)
  (x3 : Vec Ideal S4x256x256 .bf16) (x4 : Vec Ideal S4x256 .f32) (x5 : Vec Ideal S4x256x64 .bf16)
  (x6 : Vec Ideal S4x64 .f32) (x7 : Vec Ideal S4x8x64 .f32)
variable (W0 : Fin 32 → Fin 32 → Fin 32 → EReal) (B0 : Fin 32 → Fin 32 → EReal)
  (W1 : Fin 32 → Fin 32 → Fin 32 → EReal) (B1 : Fin 32 → Fin 32 → EReal)
  (WL : Fin 32 → Fin 32 → Fin 8 → EReal) (BL : Fin 32 → Fin 8 → EReal)
variable (h1 : ∀ (cg : Fin 4) (i : Fin 32) (q : Fin 256), x1 (ix3 cg i q) = slab0 W0 cg i q)
  (h2 : ∀ (cg : Fin 4) (q : Fin 256), x2 (ix2 cg q) = slabB0 B0 cg q)
  (h3 : ∀ (cg : Fin 4) (q q' : Fin 256), x3 (ix3 cg q q') = slab1 W1 cg q q')
  (h4 : ∀ (cg : Fin 4) (q : Fin 256), x4 (ix2 cg q) = slabB1 B1 cg q)
  (h5 : ∀ (cg : Fin 4) (q : Fin 256) (p : Fin 64), x5 (ix3 cg q p) = slabM WL cg q p)
  (h6 : ∀ (cg : Fin 4) (p : Fin 64), x6 (ix2 cg p) = slabBL BL cg p)
  (h7 : ∀ (cg : Fin 4) (j : Fin 8) (p : Fin 64), x7 (ix3 cg j p) = slabE WL cg j p)

/-- The function a block of the result is: entry `(r, d)` is component `d` of row `r` of the block of inputs. -/
def blockG : Vec Ideal S1024x32 .f32 :=
  fun y => specOut (fun i : Fin 32 => x0 (ix2 (y 0 : Fin 1024) i)) W0 B0 W1 B1 WL BL (y 1 : Fin 32)

include h1 h2 h3 h4 h5 h6 h7 in
/-- The body's 32 column stores leave `blockG`: each column piece is, row by row, the group reading of the slabs,
    which is the specification at the column's component. -/
theorem block_apply (y : S1024x32.Idx) :
    out0_8 x0 x1 x2 x3 x4 x5 x6 x7 y = blockG x0 W0 B0 W1 B1 WL BL y := by
  unfold out0_8
  refine View.canon_apply_of_pieces (Val := Elt Ideal) (blockG x0 W0 B0 W1 B1 WL BL) _ ?_ y (cover0_8 _ _ _ _ _ _ _ _ _ _ _ _ _ _ _ _ _ _ _ _ _ _ _ _ _ _ _ _ _ _ _ _ y)
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun p hp => absurd hp List.not_mem_nil⟩
  · intro x
    obtain ⟨r, rfl⟩ := col_idx x
    refine ((col_3_7 (View.ld x0 r0_0) (View.ld x1 r0_43) (View.ld x2 r0_44) (View.ld x3 r0_45) (View.ld x4 r0_44) (View.ld x5 r0_46) (View.ld x6 r0_47) (View.ld x7 r0_48) r).trans ?_).trans (congrArg (blockG x0 W0 B0 W1 B1 WL BL) (emb_3_7 r)).symm
    show kerGrp _ _ _ _ _ _ _ _ _ _ = specOut (fun i : Fin 32 => x0 (ix2 r i)) W0 B0 W1 B1 WL BL (dOf 3 7)
    exact grp_of_block W0 B0 W1 B1 WL BL 3 7 (fun i : Fin 32 => x0 (ix2 r i)) _ _ _ _ _ _ _ _ _
      (fun i => ld_x x0 r i) (fun j' => ld_x x0 r (dOf 3 j'))
      (fun i q => (ld_w0_3 x1 i q).trans (h1 3 i q)) (fun q => (ld_b0_3 x2 q).trans (h2 3 q))
      (fun q q' => (ld_w1_3 x3 q q').trans (h3 3 q q')) (fun q => (ld_b1_3 x4 q).trans (h4 3 q))
      (fun q p => (ld_wm_3 x5 q p).trans (h5 3 q p)) (fun p => (ld_bl_3 x6 p).trans (h6 3 p))
      (fun j' p => (ld_mm_3 x7 j' p).trans (h7 3 j' p))
  · intro x
    obtain ⟨r, rfl⟩ := col_idx x
    refine ((col_3_6 (View.ld x0 r0_0) (View.ld x1 r0_43) (View.ld x2 r0_44) (View.ld x3 r0_45) (View.ld x4 r0_44) (View.ld x5 r0_46) (View.ld x6 r0_47) (View.ld x7 r0_48) r).trans ?_).trans (congrArg (blockG x0 W0 B0 W1 B1 WL BL) (emb_3_6 r)).symm
    show kerGrp _ _ _ _ _ _ _ _ _ _ = specOut (fun i : Fin 32 => x0 (ix2 r i)) W0 B0 W1 B1 WL BL (dOf 3 6)
    exact grp_of_block W0 B0 W1 B1 WL BL 3 6 (fun i : Fin 32 => x0 (ix2 r i)) _ _ _ _ _ _ _ _ _
      (fun i => ld_x x0 r i) (fun j' => ld_x x0 r (dOf 3 j'))
      (fun i q => (ld_w0_3 x1 i q).trans (h1 3 i q)) (fun q => (ld_b0_3 x2 q).trans (h2 3 q))
      (fun q q' => (ld_w1_3 x3 q q').trans (h3 3 q q')) (fun q => (ld_b1_3 x4 q).trans (h4 3 q))
      (fun q p => (ld_wm_3 x5 q p).trans (h5 3 q p)) (fun p => (ld_bl_3 x6 p).trans (h6 3 p))
      (fun j' p => (ld_mm_3 x7 j' p).trans (h7 3 j' p))
  · intro x
    obtain ⟨r, rfl⟩ := col_idx x
    refine ((col_3_5 (View.ld x0 r0_0) (View.ld x1 r0_43) (View.ld x2 r0_44) (View.ld x3 r0_45) (View.ld x4 r0_44) (View.ld x5 r0_46) (View.ld x6 r0_47) (View.ld x7 r0_48) r).trans ?_).trans (congrArg (blockG x0 W0 B0 W1 B1 WL BL) (emb_3_5 r)).symm
    show kerGrp _ _ _ _ _ _ _ _ _ _ = specOut (fun i : Fin 32 => x0 (ix2 r i)) W0 B0 W1 B1 WL BL (dOf 3 5)
    exact grp_of_block W0 B0 W1 B1 WL BL 3 5 (fun i : Fin 32 => x0 (ix2 r i)) _ _ _ _ _ _ _ _ _
      (fun i => ld_x x0 r i) (fun j' => ld_x x0 r (dOf 3 j'))
      (fun i q => (ld_w0_3 x1 i q).trans (h1 3 i q)) (fun q => (ld_b0_3 x2 q).trans (h2 3 q))
      (fun q q' => (ld_w1_3 x3 q q').trans (h3 3 q q')) (fun q => (ld_b1_3 x4 q).trans (h4 3 q))
      (fun q p => (ld_wm_3 x5 q p).trans (h5 3 q p)) (fun p => (ld_bl_3 x6 p).trans (h6 3 p))
      (fun j' p => (ld_mm_3 x7 j' p).trans (h7 3 j' p))
  · intro x
    obtain ⟨r, rfl⟩ := col_idx x
    refine ((col_3_4 (View.ld x0 r0_0) (View.ld x1 r0_43) (View.ld x2 r0_44) (View.ld x3 r0_45) (View.ld x4 r0_44) (View.ld x5 r0_46) (View.ld x6 r0_47) (View.ld x7 r0_48) r).trans ?_).trans (congrArg (blockG x0 W0 B0 W1 B1 WL BL) (emb_3_4 r)).symm
    show kerGrp _ _ _ _ _ _ _ _ _ _ = specOut (fun i : Fin 32 => x0 (ix2 r i)) W0 B0 W1 B1 WL BL (dOf 3 4)
    exact grp_of_block W0 B0 W1 B1 WL BL 3 4 (fun i : Fin 32 => x0 (ix2 r i)) _ _ _ _ _ _ _ _ _
      (fun i => ld_x x0 r i) (fun j' => ld_x x0 r (dOf 3 j'))
      (fun i q => (ld_w0_3 x1 i q).trans (h1 3 i q)) (fun q => (ld_b0_3 x2 q).trans (h2 3 q))
      (fun q q' => (ld_w1_3 x3 q q').trans (h3 3 q q')) (fun q => (ld_b1_3 x4 q).trans (h4 3 q))
      (fun q p => (ld_wm_3 x5 q p).trans (h5 3 q p)) (fun p => (ld_bl_3 x6 p).trans (h6 3 p))
      (fun j' p => (ld_mm_3 x7 j' p).trans (h7 3 j' p))
  · intro x
    obtain ⟨r, rfl⟩ := col_idx x
    refine ((col_3_3 (View.ld x0 r0_0) (View.ld x1 r0_43) (View.ld x2 r0_44) (View.ld x3 r0_45) (View.ld x4 r0_44) (View.ld x5 r0_46) (View.ld x6 r0_47) (View.ld x7 r0_48) r).trans ?_).trans (congrArg (blockG x0 W0 B0 W1 B1 WL BL) (emb_3_3 r)).symm
    show kerGrp _ _ _ _ _ _ _ _ _ _ = specOut (fun i : Fin 32 => x0 (ix2 r i)) W0 B0 W1 B1 WL BL (dOf 3 3)
    exact grp_of_block W0 B0 W1 B1 WL BL 3 3 (fun i : Fin 32 => x0 (ix2 r i)) _ _ _ _ _ _ _ _ _
      (fun i => ld_x x0 r i) (fun j' => ld_x x0 r (dOf 3 j'))
      (fun i q => (ld_w0_3 x1 i q).trans (h1 3 i q)) (fun q => (ld_b0_3 x2 q).trans (h2 3 q))
      (fun q q' => (ld_w1_3 x3 q q').trans (h3 3 q q')) (fun q => (ld_b1_3 x4 q).trans (h4 3 q))
      (fun q p => (ld_wm_3 x5 q p).trans (h5 3 q p)) (fun p => (ld_bl_3 x6 p).trans (h6 3 p))
      (fun j' p => (ld_mm_3 x7 j' p).trans (h7 3 j' p))
  · intro x
    obtain ⟨r, rfl⟩ := col_idx x
    refine ((col_3_2 (View.ld x0 r0_0) (View.ld x1 r0_43) (View.ld x2 r0_44) (View.ld x3 r0_45) (View.ld x4 r0_44) (View.ld x5 r0_46) (View.ld x6 r0_47) (View.ld x7 r0_48) r).trans ?_).trans (congrArg (blockG x0 W0 B0 W1 B1 WL BL) (emb_3_2 r)).symm
    show kerGrp _ _ _ _ _ _ _ _ _ _ = specOut (fun i : Fin 32 => x0 (ix2 r i)) W0 B0 W1 B1 WL BL (dOf 3 2)
    exact grp_of_block W0 B0 W1 B1 WL BL 3 2 (fun i : Fin 32 => x0 (ix2 r i)) _ _ _ _ _ _ _ _ _
      (fun i => ld_x x0 r i) (fun j' => ld_x x0 r (dOf 3 j'))
      (fun i q => (ld_w0_3 x1 i q).trans (h1 3 i q)) (fun q => (ld_b0_3 x2 q).trans (h2 3 q))
      (fun q q' => (ld_w1_3 x3 q q').trans (h3 3 q q')) (fun q => (ld_b1_3 x4 q).trans (h4 3 q))
      (fun q p => (ld_wm_3 x5 q p).trans (h5 3 q p)) (fun p => (ld_bl_3 x6 p).trans (h6 3 p))
      (fun j' p => (ld_mm_3 x7 j' p).trans (h7 3 j' p))
  · intro x
    obtain ⟨r, rfl⟩ := col_idx x
    refine ((col_3_1 (View.ld x0 r0_0) (View.ld x1 r0_43) (View.ld x2 r0_44) (View.ld x3 r0_45) (View.ld x4 r0_44) (View.ld x5 r0_46) (View.ld x6 r0_47) (View.ld x7 r0_48) r).trans ?_).trans (congrArg (blockG x0 W0 B0 W1 B1 WL BL) (emb_3_1 r)).symm
    show kerGrp _ _ _ _ _ _ _ _ _ _ = specOut (fun i : Fin 32 => x0 (ix2 r i)) W0 B0 W1 B1 WL BL (dOf 3 1)
    exact grp_of_block W0 B0 W1 B1 WL BL 3 1 (fun i : Fin 32 => x0 (ix2 r i)) _ _ _ _ _ _ _ _ _
      (fun i => ld_x x0 r i) (fun j' => ld_x x0 r (dOf 3 j'))
      (fun i q => (ld_w0_3 x1 i q).trans (h1 3 i q)) (fun q => (ld_b0_3 x2 q).trans (h2 3 q))
      (fun q q' => (ld_w1_3 x3 q q').trans (h3 3 q q')) (fun q => (ld_b1_3 x4 q).trans (h4 3 q))
      (fun q p => (ld_wm_3 x5 q p).trans (h5 3 q p)) (fun p => (ld_bl_3 x6 p).trans (h6 3 p))
      (fun j' p => (ld_mm_3 x7 j' p).trans (h7 3 j' p))
  · intro x
    obtain ⟨r, rfl⟩ := col_idx x
    refine ((col_3_0 (View.ld x0 r0_0) (View.ld x1 r0_43) (View.ld x2 r0_44) (View.ld x3 r0_45) (View.ld x4 r0_44) (View.ld x5 r0_46) (View.ld x6 r0_47) (View.ld x7 r0_48) r).trans ?_).trans (congrArg (blockG x0 W0 B0 W1 B1 WL BL) (emb_3_0 r)).symm
    show kerGrp _ _ _ _ _ _ _ _ _ _ = specOut (fun i : Fin 32 => x0 (ix2 r i)) W0 B0 W1 B1 WL BL (dOf 3 0)
    exact grp_of_block W0 B0 W1 B1 WL BL 3 0 (fun i : Fin 32 => x0 (ix2 r i)) _ _ _ _ _ _ _ _ _
      (fun i => ld_x x0 r i) (fun j' => ld_x x0 r (dOf 3 j'))
      (fun i q => (ld_w0_3 x1 i q).trans (h1 3 i q)) (fun q => (ld_b0_3 x2 q).trans (h2 3 q))
      (fun q q' => (ld_w1_3 x3 q q').trans (h3 3 q q')) (fun q => (ld_b1_3 x4 q).trans (h4 3 q))
      (fun q p => (ld_wm_3 x5 q p).trans (h5 3 q p)) (fun p => (ld_bl_3 x6 p).trans (h6 3 p))
      (fun j' p => (ld_mm_3 x7 j' p).trans (h7 3 j' p))
  · intro x
    obtain ⟨r, rfl⟩ := col_idx x
    refine ((col_2_7 (View.ld x0 r0_0) (View.ld x1 r0_29) (View.ld x2 r0_30) (View.ld x3 r0_31) (View.ld x4 r0_30) (View.ld x5 r0_32) (View.ld x6 r0_33) (View.ld x7 r0_34) r).trans ?_).trans (congrArg (blockG x0 W0 B0 W1 B1 WL BL) (emb_2_7 r)).symm
    show kerGrp _ _ _ _ _ _ _ _ _ _ = specOut (fun i : Fin 32 => x0 (ix2 r i)) W0 B0 W1 B1 WL BL (dOf 2 7)
    exact grp_of_block W0 B0 W1 B1 WL BL 2 7 (fun i : Fin 32 => x0 (ix2 r i)) _ _ _ _ _ _ _ _ _
      (fun i => ld_x x0 r i) (fun j' => ld_x x0 r (dOf 2 j'))
      (fun i q => (ld_w0_2 x1 i q).trans (h1 2 i q)) (fun q => (ld_b0_2 x2 q).trans (h2 2 q))
      (fun q q' => (ld_w1_2 x3 q q').trans (h3 2 q q')) (fun q => (ld_b1_2 x4 q).trans (h4 2 q))
      (fun q p => (ld_wm_2 x5 q p).trans (h5 2 q p)) (fun p => (ld_bl_2 x6 p).trans (h6 2 p))
      (fun j' p => (ld_mm_2 x7 j' p).trans (h7 2 j' p))
  · intro x
    obtain ⟨r, rfl⟩ := col_idx x
    refine ((col_2_6 (View.ld x0 r0_0) (View.ld x1 r0_29) (View.ld x2 r0_30) (View.ld x3 r0_31) (View.ld x4 r0_30) (View.ld x5 r0_32) (View.ld x6 r0_33) (View.ld x7 r0_34) r).trans ?_).trans (congrArg (blockG x0 W0 B0 W1 B1 WL BL) (emb_2_6 r)).symm
    show kerGrp _ _ _ _ _ _ _ _ _ _ = specOut (fun i : Fin 32 => x0 (ix2 r i)) W0 B0 W1 B1 WL BL (dOf 2 6)
    exact grp_of_block W0 B0 W1 B1 WL BL 2 6 (fun i : Fin 32 => x0 (ix2 r i)) _ _ _ _ _ _ _ _ _
      (fun i => ld_x x0 r i) (fun j' => ld_x x0 r (dOf 2 j'))
      (fun i q => (ld_w0_2 x1 i q).trans (h1 2 i q)) (fun q => (ld_b0_2 x2 q).trans (h2 2 q))
      (fun q q' => (ld_w1_2 x3 q q').trans (h3 2 q q')) (fun q => (ld_b1_2 x4 q).trans (h4 2 q))
      (fun q p => (ld_wm_2 x5 q p).trans (h5 2 q p)) (fun p => (ld_bl_2 x6 p).trans (h6 2 p))
      (fun j' p => (ld_mm_2 x7 j' p).trans (h7 2 j' p))
  · intro x
    obtain ⟨r, rfl⟩ := col_idx x
    refine ((col_2_5 (View.ld x0 r0_0) (View.ld x1 r0_29) (View.ld x2 r0_30) (View.ld x3 r0_31) (View.ld x4 r0_30) (View.ld x5 r0_32) (View.ld x6 r0_33) (View.ld x7 r0_34) r).trans ?_).trans (congrArg (blockG x0 W0 B0 W1 B1 WL BL) (emb_2_5 r)).symm
    show kerGrp _ _ _ _ _ _ _ _ _ _ = specOut (fun i : Fin 32 => x0 (ix2 r i)) W0 B0 W1 B1 WL BL (dOf 2 5)
    exact grp_of_block W0 B0 W1 B1 WL BL 2 5 (fun i : Fin 32 => x0 (ix2 r i)) _ _ _ _ _ _ _ _ _
      (fun i => ld_x x0 r i) (fun j' => ld_x x0 r (dOf 2 j'))
      (fun i q => (ld_w0_2 x1 i q).trans (h1 2 i q)) (fun q => (ld_b0_2 x2 q).trans (h2 2 q))
      (fun q q' => (ld_w1_2 x3 q q').trans (h3 2 q q')) (fun q => (ld_b1_2 x4 q).trans (h4 2 q))
      (fun q p => (ld_wm_2 x5 q p).trans (h5 2 q p)) (fun p => (ld_bl_2 x6 p).trans (h6 2 p))
      (fun j' p => (ld_mm_2 x7 j' p).trans (h7 2 j' p))
  · intro x
    obtain ⟨r, rfl⟩ := col_idx x
    refine ((col_2_4 (View.ld x0 r0_0) (View.ld x1 r0_29) (View.ld x2 r0_30) (View.ld x3 r0_31) (View.ld x4 r0_30) (View.ld x5 r0_32) (View.ld x6 r0_33) (View.ld x7 r0_34) r).trans ?_).trans (congrArg (blockG x0 W0 B0 W1 B1 WL BL) (emb_2_4 r)).symm
    show kerGrp _ _ _ _ _ _ _ _ _ _ = specOut (fun i : Fin 32 => x0 (ix2 r i)) W0 B0 W1 B1 WL BL (dOf 2 4)
    exact grp_of_block W0 B0 W1 B1 WL BL 2 4 (fun i : Fin 32 => x0 (ix2 r i)) _ _ _ _ _ _ _ _ _
      (fun i => ld_x x0 r i) (fun j' => ld_x x0 r (dOf 2 j'))
      (fun i q => (ld_w0_2 x1 i q).trans (h1 2 i q)) (fun q => (ld_b0_2 x2 q).trans (h2 2 q))
      (fun q q' => (ld_w1_2 x3 q q').trans (h3 2 q q')) (fun q => (ld_b1_2 x4 q).trans (h4 2 q))
      (fun q p => (ld_wm_2 x5 q p).trans (h5 2 q p)) (fun p => (ld_bl_2 x6 p).trans (h6 2 p))
      (fun j' p => (ld_mm_2 x7 j' p).trans (h7 2 j' p))
  · intro x
    obtain ⟨r, rfl⟩ := col_idx x
    refine ((col_2_3 (View.ld x0 r0_0) (View.ld x1 r0_29) (View.ld x2 r0_30) (View.ld x3 r0_31) (View.ld x4 r0_30) (View.ld x5 r0_32) (View.ld x6 r0_33) (View.ld x7 r0_34) r).trans ?_).trans (congrArg (blockG x0 W0 B0 W1 B1 WL BL) (emb_2_3 r)).symm
    show kerGrp _ _ _ _ _ _ _ _ _ _ = specOut (fun i : Fin 32 => x0 (ix2 r i)) W0 B0 W1 B1 WL BL (dOf 2 3)
    exact grp_of_block W0 B0 W1 B1 WL BL 2 3 (fun i : Fin 32 => x0 (ix2 r i)) _ _ _ _ _ _ _ _ _
      (fun i => ld_x x0 r i) (fun j' => ld_x x0 r (dOf 2 j'))
      (fun i q => (ld_w0_2 x1 i q).trans (h1 2 i q)) (fun q => (ld_b0_2 x2 q).trans (h2 2 q))
      (fun q q' => (ld_w1_2 x3 q q').trans (h3 2 q q')) (fun q => (ld_b1_2 x4 q).trans (h4 2 q))
      (fun q p => (ld_wm_2 x5 q p).trans (h5 2 q p)) (fun p => (ld_bl_2 x6 p).trans (h6 2 p))
      (fun j' p => (ld_mm_2 x7 j' p).trans (h7 2 j' p))
  · intro x
    obtain ⟨r, rfl⟩ := col_idx x
    refine ((col_2_2 (View.ld x0 r0_0) (View.ld x1 r0_29) (View.ld x2 r0_30) (View.ld x3 r0_31) (View.ld x4 r0_30) (View.ld x5 r0_32) (View.ld x6 r0_33) (View.ld x7 r0_34) r).trans ?_).trans (congrArg (blockG x0 W0 B0 W1 B1 WL BL) (emb_2_2 r)).symm
    show kerGrp _ _ _ _ _ _ _ _ _ _ = specOut (fun i : Fin 32 => x0 (ix2 r i)) W0 B0 W1 B1 WL BL (dOf 2 2)
    exact grp_of_block W0 B0 W1 B1 WL BL 2 2 (fun i : Fin 32 => x0 (ix2 r i)) _ _ _ _ _ _ _ _ _
      (fun i => ld_x x0 r i) (fun j' => ld_x x0 r (dOf 2 j'))
      (fun i q => (ld_w0_2 x1 i q).trans (h1 2 i q)) (fun q => (ld_b0_2 x2 q).trans (h2 2 q))
      (fun q q' => (ld_w1_2 x3 q q').trans (h3 2 q q')) (fun q => (ld_b1_2 x4 q).trans (h4 2 q))
      (fun q p => (ld_wm_2 x5 q p).trans (h5 2 q p)) (fun p => (ld_bl_2 x6 p).trans (h6 2 p))
      (fun j' p => (ld_mm_2 x7 j' p).trans (h7 2 j' p))
  · intro x
    obtain ⟨r, rfl⟩ := col_idx x
    refine ((col_2_1 (View.ld x0 r0_0) (View.ld x1 r0_29) (View.ld x2 r0_30) (View.ld x3 r0_31) (View.ld x4 r0_30) (View.ld x5 r0_32) (View.ld x6 r0_33) (View.ld x7 r0_34) r).trans ?_).trans (congrArg (blockG x0 W0 B0 W1 B1 WL BL) (emb_2_1 r)).symm
    show kerGrp _ _ _ _ _ _ _ _ _ _ = specOut (fun i : Fin 32 => x0 (ix2 r i)) W0 B0 W1 B1 WL BL (dOf 2 1)
    exact grp_of_block W0 B0 W1 B1 WL BL 2 1 (fun i : Fin 32 => x0 (ix2 r i)) _ _ _ _ _ _ _ _ _
      (fun i => ld_x x0 r i) (fun j' => ld_x x0 r (dOf 2 j'))
      (fun i q => (ld_w0_2 x1 i q).trans (h1 2 i q)) (fun q => (ld_b0_2 x2 q).trans (h2 2 q))
      (fun q q' => (ld_w1_2 x3 q q').trans (h3 2 q q')) (fun q => (ld_b1_2 x4 q).trans (h4 2 q))
      (fun q p => (ld_wm_2 x5 q p).trans (h5 2 q p)) (fun p => (ld_bl_2 x6 p).trans (h6 2 p))
      (fun j' p => (ld_mm_2 x7 j' p).trans (h7 2 j' p))
  · intro x
    obtain ⟨r, rfl⟩ := col_idx x
    refine ((col_2_0 (View.ld x0 r0_0) (View.ld x1 r0_29) (View.ld x2 r0_30) (View.ld x3 r0_31) (View.ld x4 r0_30) (View.ld x5 r0_32) (View.ld x6 r0_33) (View.ld x7 r0_34) r).trans ?_).trans (congrArg (blockG x0 W0 B0 W1 B1 WL BL) (emb_2_0 r)).symm
    show kerGrp _ _ _ _ _ _ _ _ _ _ = specOut (fun i : Fin 32 => x0 (ix2 r i)) W0 B0 W1 B1 WL BL (dOf 2 0)
    exact grp_of_block W0 B0 W1 B1 WL BL 2 0 (fun i : Fin 32 => x0 (ix2 r i)) _ _ _ _ _ _ _ _ _
      (fun i => ld_x x0 r i) (fun j' => ld_x x0 r (dOf 2 j'))
      (fun i q => (ld_w0_2 x1 i q).trans (h1 2 i q)) (fun q => (ld_b0_2 x2 q).trans (h2 2 q))
      (fun q q' => (ld_w1_2 x3 q q').trans (h3 2 q q')) (fun q => (ld_b1_2 x4 q).trans (h4 2 q))
      (fun q p => (ld_wm_2 x5 q p).trans (h5 2 q p)) (fun p => (ld_bl_2 x6 p).trans (h6 2 p))
      (fun j' p => (ld_mm_2 x7 j' p).trans (h7 2 j' p))
  · intro x
    obtain ⟨r, rfl⟩ := col_idx x
    refine ((col_1_7 (View.ld x0 r0_0) (View.ld x1 r0_15) (View.ld x2 r0_16) (View.ld x3 r0_17) (View.ld x4 r0_16) (View.ld x5 r0_18) (View.ld x6 r0_19) (View.ld x7 r0_20) r).trans ?_).trans (congrArg (blockG x0 W0 B0 W1 B1 WL BL) (emb_1_7 r)).symm
    show kerGrp _ _ _ _ _ _ _ _ _ _ = specOut (fun i : Fin 32 => x0 (ix2 r i)) W0 B0 W1 B1 WL BL (dOf 1 7)
    exact grp_of_block W0 B0 W1 B1 WL BL 1 7 (fun i : Fin 32 => x0 (ix2 r i)) _ _ _ _ _ _ _ _ _
      (fun i => ld_x x0 r i) (fun j' => ld_x x0 r (dOf 1 j'))
      (fun i q => (ld_w0_1 x1 i q).trans (h1 1 i q)) (fun q => (ld_b0_1 x2 q).trans (h2 1 q))
      (fun q q' => (ld_w1_1 x3 q q').trans (h3 1 q q')) (fun q => (ld_b1_1 x4 q).trans (h4 1 q))
      (fun q p => (ld_wm_1 x5 q p).trans (h5 1 q p)) (fun p => (ld_bl_1 x6 p).trans (h6 1 p))
      (fun j' p => (ld_mm_1 x7 j' p).trans (h7 1 j' p))
  · intro x
    obtain ⟨r, rfl⟩ := col_idx x
    refine ((col_1_6 (View.ld x0 r0_0) (View.ld x1 r0_15) (View.ld x2 r0_16) (View.ld x3 r0_17) (View.ld x4 r0_16) (View.ld x5 r0_18) (View.ld x6 r0_19) (View.ld x7 r0_20) r).trans ?_).trans (congrArg (blockG x0 W0 B0 W1 B1 WL BL) (emb_1_6 r)).symm
    show kerGrp _ _ _ _ _ _ _ _ _ _ = specOut (fun i : Fin 32 => x0 (ix2 r i)) W0 B0 W1 B1 WL BL (dOf 1 6)
    exact grp_of_block W0 B0 W1 B1 WL BL 1 6 (fun i : Fin 32 => x0 (ix2 r i)) _ _ _ _ _ _ _ _ _
      (fun i => ld_x x0 r i) (fun j' => ld_x x0 r (dOf 1 j'))
      (fun i q => (ld_w0_1 x1 i q).trans (h1 1 i q)) (fun q => (ld_b0_1 x2 q).trans (h2 1 q))
      (fun q q' => (ld_w1_1 x3 q q').trans (h3 1 q q')) (fun q => (ld_b1_1 x4 q).trans (h4 1 q))
      (fun q p => (ld_wm_1 x5 q p).trans (h5 1 q p)) (fun p => (ld_bl_1 x6 p).trans (h6 1 p))
      (fun j' p => (ld_mm_1 x7 j' p).trans (h7 1 j' p))
  · intro x
    obtain ⟨r, rfl⟩ := col_idx x
    refine ((col_1_5 (View.ld x0 r0_0) (View.ld x1 r0_15) (View.ld x2 r0_16) (View.ld x3 r0_17) (View.ld x4 r0_16) (View.ld x5 r0_18) (View.ld x6 r0_19) (View.ld x7 r0_20) r).trans ?_).trans (congrArg (blockG x0 W0 B0 W1 B1 WL BL) (emb_1_5 r)).symm
    show kerGrp _ _ _ _ _ _ _ _ _ _ = specOut (fun i : Fin 32 => x0 (ix2 r i)) W0 B0 W1 B1 WL BL (dOf 1 5)
    exact grp_of_block W0 B0 W1 B1 WL BL 1 5 (fun i : Fin 32 => x0 (ix2 r i)) _ _ _ _ _ _ _ _ _
      (fun i => ld_x x0 r i) (fun j' => ld_x x0 r (dOf 1 j'))
      (fun i q => (ld_w0_1 x1 i q).trans (h1 1 i q)) (fun q => (ld_b0_1 x2 q).trans (h2 1 q))
      (fun q q' => (ld_w1_1 x3 q q').trans (h3 1 q q')) (fun q => (ld_b1_1 x4 q).trans (h4 1 q))
      (fun q p => (ld_wm_1 x5 q p).trans (h5 1 q p)) (fun p => (ld_bl_1 x6 p).trans (h6 1 p))
      (fun j' p => (ld_mm_1 x7 j' p).trans (h7 1 j' p))
  · intro x
    obtain ⟨r, rfl⟩ := col_idx x
    refine ((col_1_4 (View.ld x0 r0_0) (View.ld x1 r0_15) (View.ld x2 r0_16) (View.ld x3 r0_17) (View.ld x4 r0_16) (View.ld x5 r0_18) (View.ld x6 r0_19) (View.ld x7 r0_20) r).trans ?_).trans (congrArg (blockG x0 W0 B0 W1 B1 WL BL) (emb_1_4 r)).symm
    show kerGrp _ _ _ _ _ _ _ _ _ _ = specOut (fun i : Fin 32 => x0 (ix2 r i)) W0 B0 W1 B1 WL BL (dOf 1 4)
    exact grp_of_block W0 B0 W1 B1 WL BL 1 4 (fun i : Fin 32 => x0 (ix2 r i)) _ _ _ _ _ _ _ _ _
      (fun i => ld_x x0 r i) (fun j' => ld_x x0 r (dOf 1 j'))
      (fun i q => (ld_w0_1 x1 i q).trans (h1 1 i q)) (fun q => (ld_b0_1 x2 q).trans (h2 1 q))
      (fun q q' => (ld_w1_1 x3 q q').trans (h3 1 q q')) (fun q => (ld_b1_1 x4 q).trans (h4 1 q))
      (fun q p => (ld_wm_1 x5 q p).trans (h5 1 q p)) (fun p => (ld_bl_1 x6 p).trans (h6 1 p))
      (fun j' p => (ld_mm_1 x7 j' p).trans (h7 1 j' p))
  · intro x
    obtain ⟨r, rfl⟩ := col_idx x
    refine ((col_1_3 (View.ld x0 r0_0) (View.ld x1 r0_15) (View.ld x2 r0_16) (View.ld x3 r0_17) (View.ld x4 r0_16) (View.ld x5 r0_18) (View.ld x6 r0_19) (View.ld x7 r0_20) r).trans ?_).trans (congrArg (blockG x0 W0 B0 W1 B1 WL BL) (emb_1_3 r)).symm
    show kerGrp _ _ _ _ _ _ _ _ _ _ = specOut (fun i : Fin 32 => x0 (ix2 r i)) W0 B0 W1 B1 WL BL (dOf 1 3)
    exact grp_of_block W0 B0 W1 B1 WL BL 1 3 (fun i : Fin 32 => x0 (ix2 r i)) _ _ _ _ _ _ _ _ _
      (fun i => ld_x x0 r i) (fun j' => ld_x x0 r (dOf 1 j'))
      (fun i q => (ld_w0_1 x1 i q).trans (h1 1 i q)) (fun q => (ld_b0_1 x2 q).trans (h2 1 q))
      (fun q q' => (ld_w1_1 x3 q q').trans (h3 1 q q')) (fun q => (ld_b1_1 x4 q).trans (h4 1 q))
      (fun q p => (ld_wm_1 x5 q p).trans (h5 1 q p)) (fun p => (ld_bl_1 x6 p).trans (h6 1 p))
      (fun j' p => (ld_mm_1 x7 j' p).trans (h7 1 j' p))
  · intro x
    obtain ⟨r, rfl⟩ := col_idx x
    refine ((col_1_2 (View.ld x0 r0_0) (View.ld x1 r0_15) (View.ld x2 r0_16) (View.ld x3 r0_17) (View.ld x4 r0_16) (View.ld x5 r0_18) (View.ld x6 r0_19) (View.ld x7 r0_20) r).trans ?_).trans (congrArg (blockG x0 W0 B0 W1 B1 WL BL) (emb_1_2 r)).symm
    show kerGrp _ _ _ _ _ _ _ _ _ _ = specOut (fun i : Fin 32 => x0 (ix2 r i)) W0 B0 W1 B1 WL BL (dOf 1 2)
    exact grp_of_block W0 B0 W1 B1 WL BL 1 2 (fun i : Fin 32 => x0 (ix2 r i)) _ _ _ _ _ _ _ _ _
      (fun i => ld_x x0 r i) (fun j' => ld_x x0 r (dOf 1 j'))
      (fun i q => (ld_w0_1 x1 i q).trans (h1 1 i q)) (fun q => (ld_b0_1 x2 q).trans (h2 1 q))
      (fun q q' => (ld_w1_1 x3 q q').trans (h3 1 q q')) (fun q => (ld_b1_1 x4 q).trans (h4 1 q))
      (fun q p => (ld_wm_1 x5 q p).trans (h5 1 q p)) (fun p => (ld_bl_1 x6 p).trans (h6 1 p))
      (fun j' p => (ld_mm_1 x7 j' p).trans (h7 1 j' p))
  · intro x
    obtain ⟨r, rfl⟩ := col_idx x
    refine ((col_1_1 (View.ld x0 r0_0) (View.ld x1 r0_15) (View.ld x2 r0_16) (View.ld x3 r0_17) (View.ld x4 r0_16) (View.ld x5 r0_18) (View.ld x6 r0_19) (View.ld x7 r0_20) r).trans ?_).trans (congrArg (blockG x0 W0 B0 W1 B1 WL BL) (emb_1_1 r)).symm
    show kerGrp _ _ _ _ _ _ _ _ _ _ = specOut (fun i : Fin 32 => x0 (ix2 r i)) W0 B0 W1 B1 WL BL (dOf 1 1)
    exact grp_of_block W0 B0 W1 B1 WL BL 1 1 (fun i : Fin 32 => x0 (ix2 r i)) _ _ _ _ _ _ _ _ _
      (fun i => ld_x x0 r i) (fun j' => ld_x x0 r (dOf 1 j'))
      (fun i q => (ld_w0_1 x1 i q).trans (h1 1 i q)) (fun q => (ld_b0_1 x2 q).trans (h2 1 q))
      (fun q q' => (ld_w1_1 x3 q q').trans (h3 1 q q')) (fun q => (ld_b1_1 x4 q).trans (h4 1 q))
      (fun q p => (ld_wm_1 x5 q p).trans (h5 1 q p)) (fun p => (ld_bl_1 x6 p).trans (h6 1 p))
      (fun j' p => (ld_mm_1 x7 j' p).trans (h7 1 j' p))
  · intro x
    obtain ⟨r, rfl⟩ := col_idx x
    refine ((col_1_0 (View.ld x0 r0_0) (View.ld x1 r0_15) (View.ld x2 r0_16) (View.ld x3 r0_17) (View.ld x4 r0_16) (View.ld x5 r0_18) (View.ld x6 r0_19) (View.ld x7 r0_20) r).trans ?_).trans (congrArg (blockG x0 W0 B0 W1 B1 WL BL) (emb_1_0 r)).symm
    show kerGrp _ _ _ _ _ _ _ _ _ _ = specOut (fun i : Fin 32 => x0 (ix2 r i)) W0 B0 W1 B1 WL BL (dOf 1 0)
    exact grp_of_block W0 B0 W1 B1 WL BL 1 0 (fun i : Fin 32 => x0 (ix2 r i)) _ _ _ _ _ _ _ _ _
      (fun i => ld_x x0 r i) (fun j' => ld_x x0 r (dOf 1 j'))
      (fun i q => (ld_w0_1 x1 i q).trans (h1 1 i q)) (fun q => (ld_b0_1 x2 q).trans (h2 1 q))
      (fun q q' => (ld_w1_1 x3 q q').trans (h3 1 q q')) (fun q => (ld_b1_1 x4 q).trans (h4 1 q))
      (fun q p => (ld_wm_1 x5 q p).trans (h5 1 q p)) (fun p => (ld_bl_1 x6 p).trans (h6 1 p))
      (fun j' p => (ld_mm_1 x7 j' p).trans (h7 1 j' p))
  · intro x
    obtain ⟨r, rfl⟩ := col_idx x
    refine ((col_0_7 (View.ld x0 r0_0) (View.ld x1 r0_1) (View.ld x2 r0_2) (View.ld x3 r0_3) (View.ld x4 r0_2) (View.ld x5 r0_4) (View.ld x6 r0_5) (View.ld x7 r0_6) r).trans ?_).trans (congrArg (blockG x0 W0 B0 W1 B1 WL BL) (emb_0_7 r)).symm
    show kerGrp _ _ _ _ _ _ _ _ _ _ = specOut (fun i : Fin 32 => x0 (ix2 r i)) W0 B0 W1 B1 WL BL (dOf 0 7)
    exact grp_of_block W0 B0 W1 B1 WL BL 0 7 (fun i : Fin 32 => x0 (ix2 r i)) _ _ _ _ _ _ _ _ _
      (fun i => ld_x x0 r i) (fun j' => ld_x x0 r (dOf 0 j'))
      (fun i q => (ld_w0_0 x1 i q).trans (h1 0 i q)) (fun q => (ld_b0_0 x2 q).trans (h2 0 q))
      (fun q q' => (ld_w1_0 x3 q q').trans (h3 0 q q')) (fun q => (ld_b1_0 x4 q).trans (h4 0 q))
      (fun q p => (ld_wm_0 x5 q p).trans (h5 0 q p)) (fun p => (ld_bl_0 x6 p).trans (h6 0 p))
      (fun j' p => (ld_mm_0 x7 j' p).trans (h7 0 j' p))
  · intro x
    obtain ⟨r, rfl⟩ := col_idx x
    refine ((col_0_6 (View.ld x0 r0_0) (View.ld x1 r0_1) (View.ld x2 r0_2) (View.ld x3 r0_3) (View.ld x4 r0_2) (View.ld x5 r0_4) (View.ld x6 r0_5) (View.ld x7 r0_6) r).trans ?_).trans (congrArg (blockG x0 W0 B0 W1 B1 WL BL) (emb_0_6 r)).symm
    show kerGrp _ _ _ _ _ _ _ _ _ _ = specOut (fun i : Fin 32 => x0 (ix2 r i)) W0 B0 W1 B1 WL BL (dOf 0 6)
    exact grp_of_block W0 B0 W1 B1 WL BL 0 6 (fun i : Fin 32 => x0 (ix2 r i)) _ _ _ _ _ _ _ _ _
      (fun i => ld_x x0 r i) (fun j' => ld_x x0 r (dOf 0 j'))
      (fun i q => (ld_w0_0 x1 i q).trans (h1 0 i q)) (fun q => (ld_b0_0 x2 q).trans (h2 0 q))
      (fun q q' => (ld_w1_0 x3 q q').trans (h3 0 q q')) (fun q => (ld_b1_0 x4 q).trans (h4 0 q))
      (fun q p => (ld_wm_0 x5 q p).trans (h5 0 q p)) (fun p => (ld_bl_0 x6 p).trans (h6 0 p))
      (fun j' p => (ld_mm_0 x7 j' p).trans (h7 0 j' p))
  · intro x
    obtain ⟨r, rfl⟩ := col_idx x
    refine ((col_0_5 (View.ld x0 r0_0) (View.ld x1 r0_1) (View.ld x2 r0_2) (View.ld x3 r0_3) (View.ld x4 r0_2) (View.ld x5 r0_4) (View.ld x6 r0_5) (View.ld x7 r0_6) r).trans ?_).trans (congrArg (blockG x0 W0 B0 W1 B1 WL BL) (emb_0_5 r)).symm
    show kerGrp _ _ _ _ _ _ _ _ _ _ = specOut (fun i : Fin 32 => x0 (ix2 r i)) W0 B0 W1 B1 WL BL (dOf 0 5)
    exact grp_of_block W0 B0 W1 B1 WL BL 0 5 (fun i : Fin 32 => x0 (ix2 r i)) _ _ _ _ _ _ _ _ _
      (fun i => ld_x x0 r i) (fun j' => ld_x x0 r (dOf 0 j'))
      (fun i q => (ld_w0_0 x1 i q).trans (h1 0 i q)) (fun q => (ld_b0_0 x2 q).trans (h2 0 q))
      (fun q q' => (ld_w1_0 x3 q q').trans (h3 0 q q')) (fun q => (ld_b1_0 x4 q).trans (h4 0 q))
      (fun q p => (ld_wm_0 x5 q p).trans (h5 0 q p)) (fun p => (ld_bl_0 x6 p).trans (h6 0 p))
      (fun j' p => (ld_mm_0 x7 j' p).trans (h7 0 j' p))
  · intro x
    obtain ⟨r, rfl⟩ := col_idx x
    refine ((col_0_4 (View.ld x0 r0_0) (View.ld x1 r0_1) (View.ld x2 r0_2) (View.ld x3 r0_3) (View.ld x4 r0_2) (View.ld x5 r0_4) (View.ld x6 r0_5) (View.ld x7 r0_6) r).trans ?_).trans (congrArg (blockG x0 W0 B0 W1 B1 WL BL) (emb_0_4 r)).symm
    show kerGrp _ _ _ _ _ _ _ _ _ _ = specOut (fun i : Fin 32 => x0 (ix2 r i)) W0 B0 W1 B1 WL BL (dOf 0 4)
    exact grp_of_block W0 B0 W1 B1 WL BL 0 4 (fun i : Fin 32 => x0 (ix2 r i)) _ _ _ _ _ _ _ _ _
      (fun i => ld_x x0 r i) (fun j' => ld_x x0 r (dOf 0 j'))
      (fun i q => (ld_w0_0 x1 i q).trans (h1 0 i q)) (fun q => (ld_b0_0 x2 q).trans (h2 0 q))
      (fun q q' => (ld_w1_0 x3 q q').trans (h3 0 q q')) (fun q => (ld_b1_0 x4 q).trans (h4 0 q))
      (fun q p => (ld_wm_0 x5 q p).trans (h5 0 q p)) (fun p => (ld_bl_0 x6 p).trans (h6 0 p))
      (fun j' p => (ld_mm_0 x7 j' p).trans (h7 0 j' p))
  · intro x
    obtain ⟨r, rfl⟩ := col_idx x
    refine ((col_0_3 (View.ld x0 r0_0) (View.ld x1 r0_1) (View.ld x2 r0_2) (View.ld x3 r0_3) (View.ld x4 r0_2) (View.ld x5 r0_4) (View.ld x6 r0_5) (View.ld x7 r0_6) r).trans ?_).trans (congrArg (blockG x0 W0 B0 W1 B1 WL BL) (emb_0_3 r)).symm
    show kerGrp _ _ _ _ _ _ _ _ _ _ = specOut (fun i : Fin 32 => x0 (ix2 r i)) W0 B0 W1 B1 WL BL (dOf 0 3)
    exact grp_of_block W0 B0 W1 B1 WL BL 0 3 (fun i : Fin 32 => x0 (ix2 r i)) _ _ _ _ _ _ _ _ _
      (fun i => ld_x x0 r i) (fun j' => ld_x x0 r (dOf 0 j'))
      (fun i q => (ld_w0_0 x1 i q).trans (h1 0 i q)) (fun q => (ld_b0_0 x2 q).trans (h2 0 q))
      (fun q q' => (ld_w1_0 x3 q q').trans (h3 0 q q')) (fun q => (ld_b1_0 x4 q).trans (h4 0 q))
      (fun q p => (ld_wm_0 x5 q p).trans (h5 0 q p)) (fun p => (ld_bl_0 x6 p).trans (h6 0 p))
      (fun j' p => (ld_mm_0 x7 j' p).trans (h7 0 j' p))
  · intro x
    obtain ⟨r, rfl⟩ := col_idx x
    refine ((col_0_2 (View.ld x0 r0_0) (View.ld x1 r0_1) (View.ld x2 r0_2) (View.ld x3 r0_3) (View.ld x4 r0_2) (View.ld x5 r0_4) (View.ld x6 r0_5) (View.ld x7 r0_6) r).trans ?_).trans (congrArg (blockG x0 W0 B0 W1 B1 WL BL) (emb_0_2 r)).symm
    show kerGrp _ _ _ _ _ _ _ _ _ _ = specOut (fun i : Fin 32 => x0 (ix2 r i)) W0 B0 W1 B1 WL BL (dOf 0 2)
    exact grp_of_block W0 B0 W1 B1 WL BL 0 2 (fun i : Fin 32 => x0 (ix2 r i)) _ _ _ _ _ _ _ _ _
      (fun i => ld_x x0 r i) (fun j' => ld_x x0 r (dOf 0 j'))
      (fun i q => (ld_w0_0 x1 i q).trans (h1 0 i q)) (fun q => (ld_b0_0 x2 q).trans (h2 0 q))
      (fun q q' => (ld_w1_0 x3 q q').trans (h3 0 q q')) (fun q => (ld_b1_0 x4 q).trans (h4 0 q))
      (fun q p => (ld_wm_0 x5 q p).trans (h5 0 q p)) (fun p => (ld_bl_0 x6 p).trans (h6 0 p))
      (fun j' p => (ld_mm_0 x7 j' p).trans (h7 0 j' p))
  · intro x
    obtain ⟨r, rfl⟩ := col_idx x
    refine ((col_0_1 (View.ld x0 r0_0) (View.ld x1 r0_1) (View.ld x2 r0_2) (View.ld x3 r0_3) (View.ld x4 r0_2) (View.ld x5 r0_4) (View.ld x6 r0_5) (View.ld x7 r0_6) r).trans ?_).trans (congrArg (blockG x0 W0 B0 W1 B1 WL BL) (emb_0_1 r)).symm
    show kerGrp _ _ _ _ _ _ _ _ _ _ = specOut (fun i : Fin 32 => x0 (ix2 r i)) W0 B0 W1 B1 WL BL (dOf 0 1)
    exact grp_of_block W0 B0 W1 B1 WL BL 0 1 (fun i : Fin 32 => x0 (ix2 r i)) _ _ _ _ _ _ _ _ _
      (fun i => ld_x x0 r i) (fun j' => ld_x x0 r (dOf 0 j'))
      (fun i q => (ld_w0_0 x1 i q).trans (h1 0 i q)) (fun q => (ld_b0_0 x2 q).trans (h2 0 q))
      (fun q q' => (ld_w1_0 x3 q q').trans (h3 0 q q')) (fun q => (ld_b1_0 x4 q).trans (h4 0 q))
      (fun q p => (ld_wm_0 x5 q p).trans (h5 0 q p)) (fun p => (ld_bl_0 x6 p).trans (h6 0 p))
      (fun j' p => (ld_mm_0 x7 j' p).trans (h7 0 j' p))
  · intro x
    obtain ⟨r, rfl⟩ := col_idx x
    refine ((col_0_0 (View.ld x0 r0_0) (View.ld x1 r0_1) (View.ld x2 r0_2) (View.ld x3 r0_3) (View.ld x4 r0_2) (View.ld x5 r0_4) (View.ld x6 r0_5) (View.ld x7 r0_6) r).trans ?_).trans (congrArg (blockG x0 W0 B0 W1 B1 WL BL) (emb_0_0 r)).symm
    show kerGrp _ _ _ _ _ _ _ _ _ _ = specOut (fun i : Fin 32 => x0 (ix2 r i)) W0 B0 W1 B1 WL BL (dOf 0 0)
    exact grp_of_block W0 B0 W1 B1 WL BL 0 0 (fun i : Fin 32 => x0 (ix2 r i)) _ _ _ _ _ _ _ _ _
      (fun i => ld_x x0 r i) (fun j' => ld_x x0 r (dOf 0 j'))
      (fun i q => (ld_w0_0 x1 i q).trans (h1 0 i q)) (fun q => (ld_b0_0 x2 q).trans (h2 0 q))
      (fun q q' => (ld_w1_0 x3 q q').trans (h3 0 q q')) (fun q => (ld_b1_0 x4 q).trans (h4 0 q))
      (fun q p => (ld_wm_0 x5 q p).trans (h5 0 q p)) (fun p => (ld_bl_0 x6 p).trans (h6 0 p))
      (fun j' p => (ld_mm_0 x7 j' p).trans (h7 0 j' p))

end block

/-! ## From blocks to the array -/

section array
variable (m : (ℓ : Loc nD τ sig) → Buf (Elt Ideal) ℓ) (ρ : Dev nD → PrngReg)

/-- The printed index maps over the 256 grid points: the rows window and the result window sit at block `t` of axis 0,
    every slab window at block zero. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0
    ∧ win0_6.index t (0 : Fin 2) = 0 ∧ win0_6.index t (1 : Fin 2) = 0
    ∧ win0_7.index t (0 : Fin 3) = 0 ∧ win0_7.index t (1 : Fin 3) = 0 ∧ win0_7.index t (2 : Fin 3) = 0
    ∧ win0_8.index t (0 : Fin 2) = t.val ∧ win0_8.index t (1 : Fin 2) = 0 :=
  (by decide +kernel : ∀ t : Fin grid0.N, _)

/-- A slab window's block is the whole slab, whatever the point. -/
theorem iblk1 (c : Dev nD) (t : Fin cfg0.N) (cg : Fin 4) (i : Fin 32) (q : Fin 256) :
    iblk m c 1 t (ix3 cg i q) = V m c main_v14 (ix3 cg i q) := by
  show V m c main_v14 (((cfg0.win 1).blk t).view.emb (ix3 cg i q)) = _
  obtain ⟨-, -, e0, e1, e2, -⟩ := idx_facts t
  refine congrArg _ (funext fun a => Fin.ext ?_)
  match a with
  | ⟨0, _⟩ => (show win0_1.index t (0 : Fin 3) * 4 + 1 * cg.val = cg.val); omega
  | ⟨1, _⟩ => (show win0_1.index t (1 : Fin 3) * 32 + 1 * i.val = i.val); omega
  | ⟨2, _⟩ => (show win0_1.index t (2 : Fin 3) * 256 + 1 * q.val = q.val); omega

theorem iblk2 (c : Dev nD) (t : Fin cfg0.N) (cg : Fin 4) (q : Fin 256) :
    iblk m c 2 t (ix2 cg q) = V m c main_v16 (ix2 cg q) := by
  show V m c main_v16 (((cfg0.win 2).blk t).view.emb (ix2 cg q)) = _
  obtain ⟨-, -, -, -, -, e0, e1, -⟩ := idx_facts t
  refine congrArg _ (funext fun a => Fin.ext ?_)
  match a with
  | ⟨0, _⟩ => (show win0_2.index t (0 : Fin 2) * 4 + 1 * cg.val = cg.val); omega
  | ⟨1, _⟩ => (show win0_2.index t (1 : Fin 2) * 256 + 1 * q.val = q.val); omega

theorem iblk3 (c : Dev nD) (t : Fin cfg0.N) (cg : Fin 4) (q q' : Fin 256) :
    iblk m c 3 t (ix3 cg q q') = V m c main_v40 (ix3 cg q q') := by
  show V m c main_v40 (((cfg0.win 3).blk t).view.emb (ix3 cg q q')) = _
  obtain ⟨-, -, -, -, -, -, -, e0, e1, e2, -⟩ := idx_facts t
  refine congrArg _ (funext fun a => Fin.ext ?_)
  match a with
  | ⟨0, _⟩ => (show win0_3.index t (0 : Fin 3) * 4 + 1 * cg.val = cg.val); omega
  | ⟨1, _⟩ => (show win0_3.index t (1 : Fin 3) * 256 + 1 * q.val = q.val); omega
  | ⟨2, _⟩ => (show win0_3.index t (2 : Fin 3) * 256 + 1 * q'.val = q'.val); omega

theorem iblk4 (c : Dev nD) (t : Fin cfg0.N) (cg : Fin 4) (q : Fin 256) :
    iblk m c 4 t (ix2 cg q) = V m c main_v43 (ix2 cg q) := by
  show V m c main_v43 (((cfg0.win 4).blk t).view.emb (ix2 cg q)) = _
  obtain ⟨-, -, -, -, -, -, -, -, -, -, e0, e1, -⟩ := idx_facts t
  refine congrArg _ (funext fun a => Fin.ext ?_)
  match a with
  | ⟨0, _⟩ => (show win0_4.index t (0 : Fin 2) * 4 + 1 * cg.val = cg.val); omega
  | ⟨1, _⟩ => (show win0_4.index t (1 : Fin 2) * 256 + 1 * q.val = q.val); omega

theorem iblk5 (c : Dev nD) (t : Fin cfg0.N) (cg : Fin 4) (q : Fin 256) (p : Fin 64) :
    iblk m c 5 t (ix3 cg q p) = V m c main_v67 (ix3 cg q p) := by
  show V m c main_v67 (((cfg0.win 5).blk t).view.emb (ix3 cg q p)) = _
  obtain ⟨-, -, -, -, -, -, -, -, -, -, -, -, e0, e1, e2, -⟩ := idx_facts t
  refine congrArg _ (funext fun a => Fin.ext ?_)
  match a with
  | ⟨0, _⟩ => (show win0_5.index t (0 : Fin 3) * 4 + 1 * cg.val = cg.val); omega
  | ⟨1, _⟩ => (show win0_5.index t (1 : Fin 3) * 256 + 1 * q.val = q.val); omega
  | ⟨2, _⟩ => (show win0_5.index t (2 : Fin 3) * 64 + 1 * p.val = p.val); omega

theorem iblk6 (c : Dev nD) (t : Fin cfg0.N) (cg : Fin 4) (p : Fin 64) :
    iblk m c 6 t (ix2 cg p) = V m c main_v69 (ix2 cg p) := by
  show V m c main_v69 (((cfg0.win 6).blk t).view.emb (ix2 cg p)) = _
  obtain ⟨-, -, -, -, -, -, -, -, -, -, -, -, -, -, -, e0, e1, -⟩ := idx_facts t
  refine congrArg _ (funext fun a => Fin.ext ?_)
  match a with
  | ⟨0, _⟩ => (show win0_6.index t (0 : Fin 2) * 4 + 1 * cg.val = cg.val); omega
  | ⟨1, _⟩ => (show win0_6.index t (1 : Fin 2) * 64 + 1 * p.val = p.val); omega

theorem iblk7 (c : Dev nD) (t : Fin cfg0.N) (cg : Fin 4) (j : Fin 8) (p : Fin 64) :
    iblk m c 7 t (ix3 cg j p) = V m c main_v98 (ix3 cg j p) := by
  show V m c main_v98 (((cfg0.win 7).blk t).view.emb (ix3 cg j p)) = _
  obtain ⟨-, -, -, -, -, -, -, -, -, -, -, -, -, -, -, -, -, e0, e1, e2, -⟩ := idx_facts t
  refine congrArg _ (funext fun a => Fin.ext ?_)
  match a with
  | ⟨0, _⟩ => (show win0_7.index t (0 : Fin 3) * 4 + 1 * cg.val = cg.val); omega
  | ⟨1, _⟩ => (show win0_7.index t (1 : Fin 3) * 8 + 1 * j.val = j.val); omega
  | ⟨2, _⟩ => (show win0_7.index t (2 : Fin 3) * 64 + 1 * p.val = p.val); omega

/-- The parameter arrays as functions of coordinates. -/
abbrev pW0 (c : Dev nD) : Fin 32 → Fin 32 → Fin 32 → EReal := fun a b k => m ((c : Thread nD τ).loc main_arg1) (ix3 a b k)
abbrev pB0 (c : Dev nD) : Fin 32 → Fin 32 → EReal := fun a b => m ((c : Thread nD τ).loc main_arg2) (ix2 a b)
abbrev pW1 (c : Dev nD) : Fin 32 → Fin 32 → Fin 32 → EReal := fun a b k => m ((c : Thread nD τ).loc main_arg3) (ix3 a b k)
abbrev pB1 (c : Dev nD) : Fin 32 → Fin 32 → EReal := fun a b => m ((c : Thread nD τ).loc main_arg4) (ix2 a b)
abbrev pWL (c : Dev nD) : Fin 32 → Fin 32 → Fin 8 → EReal := fun a b h => m ((c : Thread nD τ).loc main_arg5) (ix3 a b h)
abbrev pBL (c : Dev nD) : Fin 32 → Fin 8 → EReal := fun a h => m ((c : Thread nD τ).loc main_arg6) (ix2 a h)

/-- The result array as a function of the argument arrays at launch. -/
abbrev Gm (c : Dev nD) : S262144x32.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- What point `t` writes back is block `t` of `G`: rows `1024 t … 1024 t + 1023`, all 32 components. -/
theorem flushed_eq (c : Dev nD) (t : Fin cfg0.N) :
    (dats m 0 c).flushed 8 t = ((cfg0.win 8).blk t).view.read (Elt Ideal) (Gm m c) := by
  rw [Cert.KernelIdeal.Value.flushed8]
  funext y
  show out0_8 (iblk m c 0 t) (iblk m c 1 t) (iblk m c 2 t) (iblk m c 3 t) (iblk m c 4 t) (iblk m c 5 t) (iblk m c 6 t) (iblk m c 7 t) y
    = Gm m c (((cfg0.win 8).blk t).view.emb y)
  refine (block_apply (iblk m c 0 t) (iblk m c 1 t) (iblk m c 2 t) (iblk m c 3 t) (iblk m c 4 t) (iblk m c 5 t) (iblk m c 6 t) (iblk m c 7 t)
    (pW0 m c) (pB0 m c) (pW1 m c) (pB1 m c) (pWL m c) (pBL m c)
    (fun cg i q => (iblk1 m c t cg i q).trans (Slabs.v14_apply m c cg i q))
    (fun cg q => (iblk2 m c t cg q).trans (Slabs.v16_apply m c cg q))
    (fun cg q q' => (iblk3 m c t cg q q').trans (Slabs.v40_apply m c cg q q'))
    (fun cg q => (iblk4 m c t cg q).trans (Slabs.v43_apply m c cg q))
    (fun cg q p => (iblk5 m c t cg q p).trans (Slabs.v67_apply m c cg q p))
    (fun cg p => (iblk6 m c t cg p).trans (Slabs.v69_apply m c cg p))
    (fun cg j p => (iblk7 m c t cg j p).trans (Slabs.v98_apply m c cg j p)) y).trans ?_
  obtain ⟨a0, a1, -, -, -, -, -, -, -, -, -, -, -, -, -, -, -, -, -, -, o0, o1⟩ := idx_facts t
  have e1 : (((cfg0.win 8).blk t).view.emb y 1 : Fin 32) = (y 1 : Fin 32) :=
    Fin.ext (by show win0_8.index t (1 : Fin 2) * 32 + 1 * (y 1).val = (y 1).val; omega)
  have e0 : (fun i : Fin 32 => iblk m c 0 t (ix2 (y 0 : Fin 1024) i))
      = fun k : Fin 32 => m ((c : Thread nD τ).loc main_arg0) (ix2 (((cfg0.win 8).blk t).view.emb y 0 : Fin 262144) k) :=
    funext fun i => by
      show V m c main_arg0 (((cfg0.win 0).blk t).view.emb (ix2 (y 0 : Fin 1024) i)) = _
      rw [V_main_arg0]
      refine congrArg _ (funext fun a => Fin.ext ?_)
      match a with
      | ⟨0, _⟩ =>
        show win0_0.index t (0 : Fin 2) * 1024 + 1 * (y 0).val = win0_8.index t (0 : Fin 2) * 1024 + 1 * (y 0).val
        omega
      | ⟨1, _⟩ => (show win0_0.index t (1 : Fin 2) * 32 + 1 * i.val = i.val); omega
  show specOut (fun i : Fin 32 => iblk m c 0 t (ix2 (y 0 : Fin 1024) i)) (pW0 m c) (pB0 m c) (pW1 m c) (pB1 m c) (pWL m c) (pBL m c) (y 1 : Fin 32)
    = specOut (fun k : Fin 32 => m ((c : Thread nD τ).loc main_arg0) (ix2 (((cfg0.win 8).blk t).view.emb y 0 : Fin 262144) k))
        (pW0 m c) (pB0 m c) (pW1 m c) (pB1 m c) (pWL m c) (pBL m c) (((cfg0.win 8).blk t).view.emb y 1 : Fin 32)
  rw [e0, e1]

/-- An index of the result array is in point `t`'s block iff each coordinate is in the block's range on its axis. -/
theorem mem_blk (t : Fin cfg0.N) (i : S262144x32.Idx) :
    i ∈ ((cfg0.win 8).blk t).view.set ↔ ∀ a : Fin 2, win0_8.index t a * S1024x32.size a ≤ (i a).val ∧ (i a).val < win0_8.index t a * S1024x32.size a + S1024x32.size a := by
  show i ∈ ((View.whole main_v99).slice (win0_8.rect t)).set ↔ _
  rw [View.set_slice_whole, Rect.mem_set_unit]
  exact Iff.rfl

/-- Every row lies in exactly the block of its quotient by 1024: the 256 blocks cover the array. -/
theorem cover (i : S262144x32.Idx) :
    ∃ t : Fin cfg0.N, (cfg0.win 8).flush t = true ∧ i ∈ ((cfg0.win 8).blk t).view.set := by
  have hi0 : (i 0).val < 262144 := (i 0).isLt
  have hi1 : (i 1).val < 32 := (i 1).isLt
  have ht : (i 0).val / 1024 < cfg0.N := by show (i 0).val / 1024 < 256; omega
  refine ⟨⟨(i 0).val / 1024, ht⟩, flush0_8 _, ?_⟩
  rw [mem_blk]
  obtain ⟨-, -, -, -, -, -, -, -, -, -, -, -, -, -, -, -, -, -, -, -, o0, o1⟩ := idx_facts ⟨(i 0).val / 1024, ht⟩
  intro a
  match a with
  | ⟨0, _⟩ =>
    show win0_8.index ⟨(i 0).val / 1024, ht⟩ (0 : Fin 2) * 1024 ≤ (i 0).val ∧ (i 0).val < win0_8.index ⟨(i 0).val / 1024, ht⟩ (0 : Fin 2) * 1024 + 1024
    rw [o0]; show (i 0).val / 1024 * 1024 ≤ (i 0).val ∧ (i 0).val < (i 0).val / 1024 * 1024 + 1024; omega
  | ⟨1, _⟩ =>
    show win0_8.index ⟨(i 0).val / 1024, ht⟩ (1 : Fin 2) * 32 ≤ (i 1).val ∧ (i 1).val < win0_8.index ⟨(i 0).val / 1024, ht⟩ (1 : Fin 2) * 32 + 32
    rw [o1]; omega

/-- The result array after the run is `G` of the argument arrays. -/
theorem final (c : Dev nD) : (dats m 0 c).arrAt 8 cfg0.N = Gm m c :=
  (dats m 0 c).arrAt_eq_of_cover 8 (Gm m c) (fun t _ => flushed_eq m c t) cover

/-- The kernel's run: it terminates with the result array at `G` of the arguments, the arguments unchanged. -/
theorem run : θ_run defs (onTc (τ := τ) (main (F := Ideal))) ⟨m, fun _ => 0, ρ⟩ fun r => ∀ c : Dev nD,
      r.2.mem ((c : Thread nD τ).loc main_v99) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end array

end Cert.Monotone.Final

end
-- ==== Proof.RefLib.lean ====
/-
  Facts about the reference's program that do not depend on the component: the two reductions that
  close every component (the minimum over each of four pairs, then the maximum over the four minima)
  are the pooling of the specification, and the three float words the program names are +∞, −∞ and 0.
-/
import Idealize.ShloMosaic.Lib.Pipeline.Value
import Idealize.ShloMosaic.Lib.ValueIdx
import Idealize.ShloMosaic.Lib.IdealHost
import Idealize.ShloMosaic.PureOps.Ideal.Laws
import proofs.«166035_j57586921505191_2_alg».proof.Proof.Spec

noncomputable section

namespace Cert.Monotone.Ref

open Idealize.ShloMosaic Idealize.ShloMosaic.ValueIdx Cert.Monotone

/-! ## The three float words -/

theorem ofBits_pinf : Ideal.ofBits .f32 0x7F800000#32 = (⊤ : EReal) := by simp [Ideal.ofBits, Ideal.ieee]
theorem ofBits_ninf : Ideal.ofBits .f32 0xFF800000#32 = (⊥ : EReal) := by simp [Ideal.ofBits, Ideal.ieee]

/-- A rectifier against the zero word: `max a 0`. -/
theorem max_zero_word (a : EReal) : max a (Ideal.ofBits .f32 0x00000000#32) = max a 0 := by
  rw [Ideal.ofBits_zero_f32]

/-! ## Folds over two and over four coordinates -/

theorem fold_min_two (b : EReal) (g : Fin 2 → EReal) :
    (Finset.univ : Finset (Fin 2)).fold min b g = min b (min (g 0) (g 1)) := by
  simp only [Fin.univ_succ, Finset.fold_cons, Finset.fold_map, Finset.univ_unique, Finset.fold_singleton]
  show min (g 0) (min (g 1) b) = _
  ac_rfl

theorem fold_max_four (b : EReal) (g : Fin 4 → EReal) :
    (Finset.univ : Finset (Fin 4)).fold max b g = max b (max (max (g 0) (g 1)) (max (g 2) (g 3))) := by
  simp only [Fin.univ_succ, Finset.fold_cons, Finset.fold_map, Finset.univ_unique, Finset.fold_singleton]
  show max (g 0) (max (g 1) (max (g 2) (max (g 3) b))) = _
  ac_rfl

/-! ## The two reductions at a row -/

/-- The index (n, g) of the pair minima with the coordinate `k` of the pair put back is (n, g, k). -/
theorem lift_pair (h : (⟨3, ![262144, 4, 2]⟩ : Shape).Reduces [2] (⟨2, ![262144, 4]⟩ : Shape)) (n : Fin 262144) (g : Fin 4)
    (k : Fin ((⟨3, ![262144, 4, 2]⟩ : Shape).size 2)) :
    h.lift (ix2 n g) k = ix3 n g (⟨k.val, k.isLt⟩ : Fin 2) := by
  funext c; apply Fin.ext
  fin_cases c <;> rfl

/-- The index n of the row maxima with the group `k` put back is (n, k). -/
theorem lift_group (h : (⟨2, ![262144, 4]⟩ : Shape).Reduces [1] (⟨1, ![262144]⟩ : Shape)) (n : Fin 262144)
    (k : Fin ((⟨2, ![262144, 4]⟩ : Shape).size 1)) :
    h.lift (ix1 n) k = ix2 n (⟨k.val, k.isLt⟩ : Fin 4) := by
  funext c; apply Fin.ext
  fin_cases c <;> rfl

/-- From +∞, the minimum over the last axis of an [N, 4, 2] array at (n, g) is the smaller of the pair. -/
theorem reduce_min_pair (z : (⟨3, ![262144, 4, 2]⟩ : Shape).Idx → EReal) (cmin : (⟨0, ![]⟩ : Shape).Idx → EReal)
    (h1 : (⟨3, ![262144, 4, 2]⟩ : Shape).ReducesTo [2] (⟨2, ![262144, 4]⟩ : Shape))
    (hu : 0 < (⟨0, ![]⟩ : Shape).numel)
    (hmin : cmin (Shape.Idx.first hu) = Ideal.ofBits .f32 0x7F800000#32)
    (n : Fin 262144) (g : Fin 4) :
    Host.reduce (FloatOps.minimumf (F := Ideal) (φ := .f32)) z cmin h1 hu (ix2 n g)
      = min (z (ix3 n g 0)) (z (ix3 n g 1)) := by
  have h : (⟨3, ![262144, 4, 2]⟩ : Shape).Reduces [2] (⟨2, ![262144, 4]⟩ : Shape) := by decide
  refine (Host.reduce_eq_fold_single (FloatOps.minimumf (F := Ideal) (φ := .f32)) z cmin h1 h hu (ix2 n g)).trans ?_
  rw [hmin, ofBits_pinf]
  have hf : (z ∘ h.lift (ix2 n g)) = fun k : Fin 2 => z (ix3 n g k) :=
    funext fun k => congrArg z (lift_pair h n g k)
  refine (congrArg (fun f => Finset.fold min (⊤ : EReal) f (Finset.univ : Finset (Fin 2))) hf).trans ?_
  rw [fold_min_two, min_top_left]

/-- From −∞, the maximum over the last axis of an [N, 4] array at n is the largest of the four. -/
theorem reduce_max_four (w : (⟨2, ![262144, 4]⟩ : Shape).Idx → EReal) (cmax : (⟨0, ![]⟩ : Shape).Idx → EReal)
    (h2 : (⟨2, ![262144, 4]⟩ : Shape).ReducesTo [1] (⟨1, ![262144]⟩ : Shape))
    (hu : 0 < (⟨0, ![]⟩ : Shape).numel)
    (hmax : cmax (Shape.Idx.first hu) = Ideal.ofBits .f32 0xFF800000#32)
    (n : Fin 262144) :
    Host.reduce (FloatOps.maximumf (F := Ideal) (φ := .f32)) w cmax h2 hu (ix1 n)
      = max (max (w (ix2 n 0)) (w (ix2 n 1))) (max (w (ix2 n 2)) (w (ix2 n 3))) := by
  have h : (⟨2, ![262144, 4]⟩ : Shape).Reduces [1] (⟨1, ![262144]⟩ : Shape) := by decide
  refine (Host.reduce_eq_fold_single (FloatOps.maximumf (F := Ideal) (φ := .f32)) w cmax h2 h hu (ix1 n)).trans ?_
  rw [hmax, ofBits_ninf]
  have hf : (w ∘ h.lift (ix1 n)) = fun k : Fin 4 => w (ix2 n k) :=
    funext fun k => congrArg w (lift_group h n k)
  refine (congrArg (fun f => Finset.fold max (⊥ : EReal) f (Finset.univ : Finset (Fin 4))) hf).trans ?_
  rw [fold_max_four, max_bot_left]

/-- **The two reductions are the pooling.** If the [N, 4, 2] array `z` holds at (n, g, p) the entry `2 g + p` of a
    row `f` of eight numbers, the maximum over the four groups of the minimum over each pair is `pool f`. -/
theorem pool_read (z : (⟨3, ![262144, 4, 2]⟩ : Shape).Idx → EReal) (cmin cmax : (⟨0, ![]⟩ : Shape).Idx → EReal)
    (h1 : (⟨3, ![262144, 4, 2]⟩ : Shape).ReducesTo [2] (⟨2, ![262144, 4]⟩ : Shape))
    (h2 : (⟨2, ![262144, 4]⟩ : Shape).ReducesTo [1] (⟨1, ![262144]⟩ : Shape))
    (hu : 0 < (⟨0, ![]⟩ : Shape).numel)
    (hmin : cmin (Shape.Idx.first hu) = Ideal.ofBits .f32 0x7F800000#32)
    (hmax : cmax (Shape.Idx.first hu) = Ideal.ofBits .f32 0xFF800000#32)
    (n : Fin 262144) (f : Fin 8 → EReal)
    (hz : ∀ (g : Fin 4) (p : Fin 2), z (ix3 n g p) = f ⟨2 * g.val + p.val, by omega⟩) :
    Host.reduce (FloatOps.maximumf (F := Ideal) (φ := .f32))
      (Host.reduce (FloatOps.minimumf (F := Ideal) (φ := .f32)) z cmin h1 hu) cmax h2 hu (ix1 n) = pool f := by
  rw [reduce_max_four _ cmax h2 hu hmax n]
  rw [reduce_min_pair z cmin h1 hu hmin n 0, reduce_min_pair z cmin h1 hu hmin n 1,
    reduce_min_pair z cmin h1 hu hmin n 2, reduce_min_pair z cmin h1 hu hmin n 3]
  rw [hz 0 0, hz 0 1, hz 1 0, hz 1 1, hz 2 0, hz 2 1, hz 3 0, hz 3 1]
  rfl

/-! ## Two pieces joined along an axis, read at an index

A block of `d` rows with one more row below it, and a block of `d` columns with one more column to its right: an index in
the first `d` reads the first piece there, the last index reads the second piece at 0. -/

theorem cat_rows_top {d : Nat} (a : (⟨2, ![d, 8]⟩ : Shape).Idx → EReal) (b : (⟨2, ![1, 8]⟩ : Shape).Idx → EReal)
    (h : Shape.Concatenates [(⟨2, ![d, 8]⟩ : Shape), (⟨2, ![1, 8]⟩ : Shape)] (⟨2, ![d + 1, 8]⟩ : Shape) 0)
    (c : Fin d) (q : Fin 8) :
    concatenate (⟨2, ![d + 1, 8]⟩ : Shape) 0 [⟨(⟨2, ![d, 8]⟩ : Shape), a⟩, ⟨(⟨2, ![1, 8]⟩ : Shape), b⟩] h
      (ix2 (Fin.castSucc c) q) = a (ix2 c q) :=
  concatenate_pair_apply_left 0 a b h _ rfl _ (fun e => by
    match e with
    | ⟨0, _⟩ => rfl
    | ⟨1, _⟩ => rfl)

theorem cat_rows_last {d : Nat} (a : (⟨2, ![d, 8]⟩ : Shape).Idx → EReal) (b : (⟨2, ![1, 8]⟩ : Shape).Idx → EReal)
    (h : Shape.Concatenates [(⟨2, ![d, 8]⟩ : Shape), (⟨2, ![1, 8]⟩ : Shape)] (⟨2, ![d + 1, 8]⟩ : Shape) 0)
    (q : Fin 8) :
    concatenate (⟨2, ![d + 1, 8]⟩ : Shape) 0 [⟨(⟨2, ![d, 8]⟩ : Shape), a⟩, ⟨(⟨2, ![1, 8]⟩ : Shape), b⟩] h
      (ix2 (Fin.last d) q) = b (ix2 (0 : Fin 1) q) :=
  concatenate_pair_apply_right 0 a b h _ rfl rfl _
    (fun e he => by
      match e with
      | ⟨0, _⟩ => exact absurd rfl he
      | ⟨1, _⟩ => rfl)
    (by show 0 + d = d; omega)

theorem cat_cols_left {d : Nat} (a : (⟨2, ![262144, d]⟩ : Shape).Idx → EReal) (b : (⟨2, ![262144, 1]⟩ : Shape).Idx → EReal)
    (h : Shape.Concatenates [(⟨2, ![262144, d]⟩ : Shape), (⟨2, ![262144, 1]⟩ : Shape)] (⟨2, ![262144, d + 1]⟩ : Shape) 1)
    (n : Fin 262144) (c : Fin d) :
    concatenate (⟨2, ![262144, d + 1]⟩ : Shape) 1 [⟨(⟨2, ![262144, d]⟩ : Shape), a⟩, ⟨(⟨2, ![262144, 1]⟩ : Shape), b⟩] h
      (ix2 n (Fin.castSucc c)) = a (ix2 n c) :=
  concatenate_pair_apply_left 1 a b h _ rfl _ (fun e => by
    match e with
    | ⟨0, _⟩ => rfl
    | ⟨1, _⟩ => rfl)

theorem cat_cols_last {d : Nat} (a : (⟨2, ![262144, d]⟩ : Shape).Idx → EReal) (b : (⟨2, ![262144, 1]⟩ : Shape).Idx → EReal)
    (h : Shape.Concatenates [(⟨2, ![262144, d]⟩ : Shape), (⟨2, ![262144, 1]⟩ : Shape)] (⟨2, ![262144, d + 1]⟩ : Shape) 1)
    (n : Fin 262144) :
    concatenate (⟨2, ![262144, d + 1]⟩ : Shape) 1 [⟨(⟨2, ![262144, d]⟩ : Shape), a⟩, ⟨(⟨2, ![262144, 1]⟩ : Shape), b⟩] h
      (ix2 n (Fin.last d)) = b (ix2 n (0 : Fin 1)) :=
  concatenate_pair_apply_right 1 a b h _ rfl rfl _
    (fun e he => by
      match e with
      | ⟨0, _⟩ => rfl
      | ⟨1, _⟩ => exact absurd rfl he)
    (by show 0 + d = d; omega)

/-- The two halves of the result, sixteen columns each. -/
theorem cat_halves_left (a b : (⟨2, ![262144, 16]⟩ : Shape).Idx → EReal)
    (h : Shape.Concatenates [(⟨2, ![262144, 16]⟩ : Shape), (⟨2, ![262144, 16]⟩ : Shape)] (⟨2, ![262144, 32]⟩ : Shape) 1)
    (n : Fin 262144) (c : Fin 16) (c' : Fin 32) (hc : c'.val = c.val) :
    concatenate (⟨2, ![262144, 32]⟩ : Shape) 1 [⟨(⟨2, ![262144, 16]⟩ : Shape), a⟩, ⟨(⟨2, ![262144, 16]⟩ : Shape), b⟩] h
      (ix2 n c') = a (ix2 n c) :=
  concatenate_pair_apply_left 1 a b h _ rfl _ (fun e => by
    match e with
    | ⟨0, _⟩ => rfl
    | ⟨1, _⟩ => exact hc.symm)

theorem cat_halves_right (a b : (⟨2, ![262144, 16]⟩ : Shape).Idx → EReal)
    (h : Shape.Concatenates [(⟨2, ![262144, 16]⟩ : Shape), (⟨2, ![262144, 16]⟩ : Shape)] (⟨2, ![262144, 32]⟩ : Shape) 1)
    (n : Fin 262144) (c : Fin 16) (c' : Fin 32) (hc : c.val + 16 = c'.val) :
    concatenate (⟨2, ![262144, 32]⟩ : Shape) 1 [⟨(⟨2, ![262144, 16]⟩ : Shape), a⟩, ⟨(⟨2, ![262144, 16]⟩ : Shape), b⟩] h
      (ix2 n c') = b (ix2 n c) :=
  concatenate_pair_apply_right 1 a b h _ rfl rfl _
    (fun e he => by
      match e with
      | ⟨0, _⟩ => rfl
      | ⟨1, _⟩ => exact absurd rfl he)
    hc

/-! ## The shapes of a hidden layer and of the last layer -/

/-- A rectified affine unit: sums agreeing term by term, the same bias, a rectifier against a zero. -/
theorem relu_affine_congr {ι : Type} [Fintype ι] (f g : ι → EReal) (b z : EReal) (hz : z = 0) (h : ∀ i, f i = g i) :
    FloatOps.maximumf (F := Ideal) (φ := .f32) (FloatOps.addf (F := Ideal) (φ := .f32) (∑ i, f i) b) z
      = max ((∑ i, g i) + b) 0 := by
  subst hz
  show max ((∑ i, f i) + b) 0 = _
  rw [Finset.sum_congr rfl fun i _ => h i]

/-- The last layer: a sum over `d + 1` inputs is the sum over the first `d` plus the last one, then the bias. -/
theorem lay_congr {d : Nat} (f : Fin (d + 1) → EReal) (g : Fin d → EReal) (l b : EReal)
    (hg : ∀ c : Fin d, f (Fin.castSucc c) = g c) (hl : f (Fin.last d) = l) :
    FloatOps.addf (F := Ideal) (φ := .f32) (∑ k : Fin (d + 1), f k) b = ((∑ c : Fin d, g c) + l) + b := by
  show (∑ k : Fin (d + 1), f k) + b = _
  rw [Fin.sum_univ_castSucc, hl, Finset.sum_congr rfl fun c _ => hg c]

end Cert.Monotone.Ref

end
-- ==== Proof.RefComp0.lean ====
/-
  The reference's components 0 … 7, each read stage by stage at a row `n` and identified with the
  specification's `refOut`. A component's column of the result is the pooling of its last layer; the last layer is read
  through the two joins (the exponentiated last weight row under the earlier rows; the component's own input after the
  hidden units), the hidden layers through their products and rectifiers.
-/
import proofs.«166035_j57586921505191_2_alg».proof.Proof.ReadP
import proofs.«166035_j57586921505191_2_alg».proof.Proof.RefLib

noncomputable section

namespace Cert.Monotone.Ref

open Cert.ReferenceIdeal Cert.ReferenceIdeal.Read Cert.ReferenceIdeal.Gen Idealize.ShloMosaic Idealize.ShloMosaic.ValueIdx Cert.Monotone

/-! ## Component 0

It has no earlier inputs and no hidden layers: its last layer is x[n, 0] weighted by the exponential of wlast[0, 0, h], plus
the bias; the sum over hidden units is empty. -/

/-- The weight on x[n, 0]: the exponential of row 0 of `wlast[0]` (the block of rows above it is empty). -/
theorem c0_we (x5 : (⟨S32x32x8, .f32⟩ : BufTy).Contents (Elt Ideal)) (h : Fin 8) :
    val_main_v4 (F := Ideal) x5 (ix2 (Fin.last 0 : Fin 1) h) = eexp (x5 (ix3 (⟨0, by norm_num⟩ : Fin 32) (⟨0, by norm_num⟩ : Fin 32) h)) := by
  unfold val_main_v4
  refine (cat_rows_last (val_main_v2 (F := Ideal) x5) (val_main_v3 (F := Ideal) x5) _ h).trans ?_
  rw [val_main_v3_apply, val_main_v1_apply, val_main_v0_apply]
  exact congrArg eexp (congrArg x5 (funext fun a => by
    match a with
    | ⟨0, _⟩ => rfl
    | ⟨1, _⟩ => rfl
    | ⟨2, _⟩ => exact Fin.ext (by have := h.isLt; show (0 * 8 + h.val) % 8 = h.val; omega)))

/-- The input x[n, 0]. -/
theorem c0_xl (x0 : (⟨S262144x32, .f32⟩ : BufTy).Contents (Elt Ideal)) (n : Fin 262144) :
    val_main_v5 (F := Ideal) x0 (ix2 n (Fin.last 0 : Fin 1)) = x0 (ix2 n (⟨0, by norm_num⟩ : Fin 32)) :=
  (val_main_v5_apply x0 _).trans (congrArg x0 (funext fun a => by
    match a with
    | ⟨0, _⟩ => rfl
    | ⟨1, _⟩ => rfl))

/-- The bias. -/
theorem c0_bl (x6 : (⟨S32x8, .f32⟩ : BufTy).Contents (Elt Ideal)) (n : Fin 262144) (h : Fin 8) :
    val_main_v10 (F := Ideal) x6 (ix2 n h) = x6 (ix2 (⟨0, by norm_num⟩ : Fin 32) h) := by
  rw [val_main_v10_apply, val_main_v9_apply, val_main_v8_apply, val_main_v7_apply]
  exact congrArg x6 (funext fun a => by
    match a with
    | ⟨0, _⟩ => rfl
    | ⟨1, _⟩ => exact Fin.ext (by have := h.isLt; show h.val % 8 = h.val; omega))

/-- The last (and only) layer. -/
theorem c0_lay (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) (h : Fin 8) :
    val_main_v11 (F := Ideal) x0 x5 x6 (ix2 n h)
      = rlay (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 0 (by norm_num) h := by
  rw [val_main_v11_apply, val_main_v6_apply, c0_bl]
  have el : ∀ k : Fin 1, lidx_main_v6 (ix2 n h) k = ix2 n k := fun k => funext fun a => by
    match a with
    | ⟨0, _⟩ => rfl
    | ⟨1, _⟩ => rfl
  have er : ∀ k : Fin 1, ridx_main_v6 (ix2 n h) k = ix2 k h := fun k => funext fun a => by
    match a with
    | ⟨0, _⟩ => rfl
    | ⟨1, _⟩ => rfl
  refine lay_congr (d := 0) _ _ _ _ (fun c => c.elim0) ?_
  rw [el, er, c0_xl, c0_we]

/-- **Component 0** of the reference at row `n`. -/
theorem comp_0 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v15 (F := Ideal) x0 x5 x6 (ix2 n (0 : Fin 1))
      = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 0 (by norm_num) := by
  rw [val_main_v15_apply]
  have e : idx_main_v15 (ix2 n (0 : Fin 1)) = ix1 n := funext fun a => by
    match a with
    | ⟨0, _⟩ => rfl
  rw [e]
  unfold val_main_v14 val_main_v13 refOut
  refine (pool_read (val_main_v12 (F := Ideal) x0 x5 x6) (val_main_cst (F := Ideal)) (val_main_cst_0 (F := Ideal))
    _ _ _ rfl rfl n (fun h => val_main_v11 (F := Ideal) x0 x5 x6 (ix2 n h)) (fun g p => ?_)).trans ?_
  · rw [val_main_v12_apply]
    exact congrArg (val_main_v11 (F := Ideal) x0 x5 x6) (funext fun a => by
      match a with
      | ⟨0, _⟩ => exact Fin.ext (by have := g.isLt; have := p.isLt; show ((n.val * 4 + g.val) * 2 + p.val) / 8 = n.val; omega)
      | ⟨1, _⟩ => exact Fin.ext (by have := g.isLt; have := p.isLt; show ((n.val * 4 + g.val) * 2 + p.val) % 8 = 2 * g.val + p.val; omega))
  · exact congrArg pool (funext fun h => c0_lay x0 x1 x2 x3 x4 x5 x6 n h)

/-! ## Component 1

Its 1 earlier inputs x[n, i], i < 1, go through the two hidden layers (weights ws0[1, i, k], bs0[1, k] and
ws1[1, k, c], bs1[1, c] for c < 1); the last layer adds the input x[n, 1] itself, weighted by the exponential
of wlast[1, 1, h]. -/

/-- The earlier inputs: column `i < 1` of the row. -/
theorem c1_x (x0 : (⟨S262144x32, .f32⟩ : BufTy).Contents (Elt Ideal)) (n : Fin 262144) (i : Fin 1) :
    val_main_v22 (F := Ideal) x0 (ix2 n i) = x0 (ix2 n (up (d := 1) (by norm_num) i)) :=
  (val_main_v22_apply x0 _).trans (congrArg x0 (funext fun a => by
    match a with
    | ⟨0, _⟩ => rfl
    | ⟨1, _⟩ => rfl))

/-- The first layer's weights: row 1 of `ws0`, its first 1 inputs. -/
theorem c1_w0 (x1 : (⟨S32x32x32, .f32⟩ : BufTy).Contents (Elt Ideal)) (i : Fin 1) (k : Fin 32) :
    val_main_v24 (F := Ideal) x1 (ix2 i k) = x1 (ix3 (⟨1, by norm_num⟩ : Fin 32) (up (d := 1) (by norm_num) i) k) := by
  rw [val_main_v24_apply, val_main_v23_apply]
  exact congrArg x1 (funext fun a => by
    match a with
    | ⟨0, _⟩ => rfl
    | ⟨1, _⟩ => exact Fin.ext (by have := i.isLt; have := k.isLt; show 0 = i.val; omega)
    | ⟨2, _⟩ => exact Fin.ext (by have := i.isLt; have := k.isLt; show (i.val * 32 + k.val) % 32 = k.val; omega))

/-- The first layer's bias, the same in every row. -/
theorem c1_b0 (x2 : (⟨S32x32, .f32⟩ : BufTy).Contents (Elt Ideal)) (n : Fin 262144) (k : Fin 32) :
    val_main_v29 (F := Ideal) x2 (ix2 n k) = x2 (ix2 (⟨1, by norm_num⟩ : Fin 32) k) := by
  rw [val_main_v29_apply, val_main_v28_apply, val_main_v27_apply, val_main_v26_apply]
  exact congrArg x2 (funext fun a => by
    match a with
    | ⟨0, _⟩ => rfl
    | ⟨1, _⟩ => exact Fin.ext (by have := k.isLt; show k.val % 32 = k.val; omega))

theorem c1_z0 (n : Fin 262144) (k : Fin 32) : val_main_call0_v0 (F := Ideal) (ix2 n k) = 0 := by
  rw [val_main_call0_v0_apply, val_main_call0_cst_apply]
  exact Ideal.ofBits_zero_f32

/-- The first hidden layer. -/
theorem c1_hid0 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (n : Fin 262144) (k : Fin 32) :
    val_main_v31 (F := Ideal) x0 x1 x2 (ix2 n k) = rhid0 (fun i : Fin 32 => x0 (ix2 n i)) (fun a b c : Fin 32 => x1 (ix3 a b c)) (fun a b : Fin 32 => x2 (ix2 a b)) 1 (by norm_num) k := by
  rw [val_main_v31_apply, val_main_v30_apply, val_main_v25_apply, c1_b0]
  refine relu_affine_congr _ _ _ _ (c1_z0 n k) fun i => ?_
  have el : lidx_main_v25 (ix2 n k) i = ix2 n i := funext fun a => by
    match a with
    | ⟨0, _⟩ => rfl
    | ⟨1, _⟩ => rfl
  have er : ridx_main_v25 (ix2 n k) i = ix2 i k := funext fun a => by
    match a with
    | ⟨0, _⟩ => rfl
    | ⟨1, _⟩ => rfl
  rw [el, er, c1_x, c1_w0]

/-- The second layer's weights: row 1 of `ws1`, its first 1 outputs. -/
theorem c1_w1 (x3 : (⟨S32x32x32, .f32⟩ : BufTy).Contents (Elt Ideal)) (k : Fin 32) (c : Fin 1) :
    val_main_v33 (F := Ideal) x3 (ix2 k c) = x3 (ix3 (⟨1, by norm_num⟩ : Fin 32) k (up (d := 1) (by norm_num) c)) := by
  rw [val_main_v33_apply, val_main_v32_apply]
  exact congrArg x3 (funext fun a => by
    match a with
    | ⟨0, _⟩ => rfl
    | ⟨1, _⟩ => exact Fin.ext (by have := k.isLt; have := c.isLt; show (k.val * 1 + c.val) / 1 % 32 = k.val; omega)
    | ⟨2, _⟩ => exact Fin.ext (by have := k.isLt; have := c.isLt; show 0 = c.val; omega))

/-- The second layer's bias. -/
theorem c1_b1 (x4 : (⟨S32x32, .f32⟩ : BufTy).Contents (Elt Ideal)) (n : Fin 262144) (c : Fin 1) :
    val_main_v38 (F := Ideal) x4 (ix2 n c) = x4 (ix2 (⟨1, by norm_num⟩ : Fin 32) (up (d := 1) (by norm_num) c)) := by
  rw [val_main_v38_apply, val_main_v37_apply, val_main_v36_apply, val_main_v35_apply]
  exact congrArg x4 (funext fun a => by
    match a with
    | ⟨0, _⟩ => rfl
    | ⟨1, _⟩ => exact Fin.ext (by have := c.isLt; show 0 = c.val; omega))

theorem c1_z1 (n : Fin 262144) (c : Fin 1) : val_main_call1_v0 (F := Ideal) (ix2 n c) = 0 := by
  rw [val_main_call1_v0_apply, val_main_call1_cst_apply]
  exact Ideal.ofBits_zero_f32

/-- The second hidden layer. -/
theorem c1_hid1 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 1) :
    val_main_v40 (F := Ideal) x0 x1 x2 x3 x4 (ix2 n c)
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 1 (by norm_num) c := by
  rw [val_main_v40_apply, val_main_v39_apply, val_main_v34_apply, c1_b1]
  refine relu_affine_congr _ _ _ _ (c1_z1 n c) fun k => ?_
  have el : lidx_main_v34 (ix2 n c) k = ix2 n k := funext fun a => by
    match a with
    | ⟨0, _⟩ => rfl
    | ⟨1, _⟩ => rfl
  have er : ridx_main_v34 (ix2 n c) k = ix2 k c := funext fun a => by
    match a with
    | ⟨0, _⟩ => rfl
    | ⟨1, _⟩ => rfl
  rw [el, er, c1_hid0, c1_w1]

/-- The last layer's weights on the hidden units: the first 1 rows of `wlast[1]`. -/
theorem c1_wl (x5 : (⟨S32x32x8, .f32⟩ : BufTy).Contents (Elt Ideal)) (c : Fin 1) (h : Fin 8) :
    val_main_v21 (F := Ideal) x5 (ix2 (Fin.castSucc c : Fin 2) h) = x5 (ix3 (⟨1, by norm_num⟩ : Fin 32) (up (d := 1) (by norm_num) c) h) := by
  unfold val_main_v21
  refine (cat_rows_top (val_main_v18 (F := Ideal) x5) (val_main_v20 (F := Ideal) x5) _ c h).trans ?_
  rw [val_main_v18_apply, val_main_v17_apply, val_main_v16_apply]
  exact congrArg x5 (funext fun a => by
    match a with
    | ⟨0, _⟩ => rfl
    | ⟨1, _⟩ => exact Fin.ext (by have := c.isLt; have := h.isLt; show (c.val * 8 + h.val) / 8 % 2 = c.val; omega)
    | ⟨2, _⟩ => exact Fin.ext (by have := c.isLt; have := h.isLt; show (c.val * 8 + h.val) % 8 = h.val; omega))

/-- The last layer's weight on the input x[n, 1]: the exponential of row 1 of `wlast[1]`. -/
theorem c1_we (x5 : (⟨S32x32x8, .f32⟩ : BufTy).Contents (Elt Ideal)) (h : Fin 8) :
    val_main_v21 (F := Ideal) x5 (ix2 (Fin.last 1 : Fin 2) h) = eexp (x5 (ix3 (⟨1, by norm_num⟩ : Fin 32) (⟨1, by norm_num⟩ : Fin 32) h)) := by
  unfold val_main_v21
  refine (cat_rows_last (val_main_v18 (F := Ideal) x5) (val_main_v20 (F := Ideal) x5) _ h).trans ?_
  rw [val_main_v20_apply, val_main_v19_apply, val_main_v17_apply, val_main_v16_apply]
  exact congrArg eexp (congrArg x5 (funext fun a => by
    match a with
    | ⟨0, _⟩ => rfl
    | ⟨1, _⟩ => exact Fin.ext (by have := h.isLt; show (1 * 8 + h.val) / 8 % 2 = 1; omega)
    | ⟨2, _⟩ => exact Fin.ext (by have := h.isLt; show (1 * 8 + h.val) % 8 = h.val; omega)))

/-- The last layer's inputs: hidden unit `c < 1` … -/
theorem c1_xc (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 1) :
    val_main_v42 (F := Ideal) x0 x1 x2 x3 x4 (ix2 n (Fin.castSucc c : Fin 2))
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 1 (by norm_num) c := by
  unfold val_main_v42
  exact (cat_cols_left (val_main_v40 (F := Ideal) x0 x1 x2 x3 x4) (val_main_v41 (F := Ideal) x0) _ n c).trans
    (c1_hid1 x0 x1 x2 x3 x4 n c)

/-- … and, last, the input x[n, 1]. -/
theorem c1_xl (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) :
    val_main_v42 (F := Ideal) x0 x1 x2 x3 x4 (ix2 n (Fin.last 1 : Fin 2)) = x0 (ix2 n (⟨1, by norm_num⟩ : Fin 32)) := by
  unfold val_main_v42
  refine (cat_cols_last (val_main_v40 (F := Ideal) x0 x1 x2 x3 x4) (val_main_v41 (F := Ideal) x0) _ n).trans ?_
  rw [val_main_v41_apply]
  exact congrArg x0 (funext fun a => by
    match a with
    | ⟨0, _⟩ => rfl
    | ⟨1, _⟩ => rfl)

/-- The last layer's bias. -/
theorem c1_bl (x6 : (⟨S32x8, .f32⟩ : BufTy).Contents (Elt Ideal)) (n : Fin 262144) (h : Fin 8) :
    val_main_v47 (F := Ideal) x6 (ix2 n h) = x6 (ix2 (⟨1, by norm_num⟩ : Fin 32) h) := by
  rw [val_main_v47_apply, val_main_v46_apply, val_main_v45_apply, val_main_v44_apply]
  exact congrArg x6 (funext fun a => by
    match a with
    | ⟨0, _⟩ => rfl
    | ⟨1, _⟩ => exact Fin.ext (by have := h.isLt; show h.val % 8 = h.val; omega))

/-- The last layer. -/
theorem c1_lay (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) (h : Fin 8) :
    val_main_v48 (F := Ideal) x0 x1 x2 x3 x4 x5 x6 (ix2 n h)
      = rlay (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 1 (by norm_num) h := by
  rw [val_main_v48_apply, val_main_v43_apply, c1_bl]
  have el : ∀ k : Fin 2, lidx_main_v43 (ix2 n h) k = ix2 n k := fun k => funext fun a => by
    match a with
    | ⟨0, _⟩ => rfl
    | ⟨1, _⟩ => rfl
  have er : ∀ k : Fin 2, ridx_main_v43 (ix2 n h) k = ix2 k h := fun k => funext fun a => by
    match a with
    | ⟨0, _⟩ => rfl
    | ⟨1, _⟩ => rfl
  refine lay_congr (d := 1) _ _ _ _ (fun c => ?_) ?_
  · rw [el, er, c1_xc, c1_wl]
  · rw [el, er, c1_xl, c1_we]

/-- **Component 1** of the reference at row `n`. -/
theorem comp_1 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v52 (F := Ideal) x0 x1 x2 x3 x4 x5 x6 (ix2 n (0 : Fin 1))
      = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 1 (by norm_num) := by
  rw [val_main_v52_apply]
  have e : idx_main_v52 (ix2 n (0 : Fin 1)) = ix1 n := funext fun a => by
    match a with
    | ⟨0, _⟩ => rfl
  rw [e]
  unfold val_main_v51 val_main_v50 refOut
  refine (pool_read (val_main_v49 (F := Ideal) x0 x1 x2 x3 x4 x5 x6) (val_main_cst_1 (F := Ideal)) (val_main_cst_2 (F := Ideal))
    _ _ _ rfl rfl n (fun h => val_main_v48 (F := Ideal) x0 x1 x2 x3 x4 x5 x6 (ix2 n h)) (fun g p => ?_)).trans ?_
  · rw [val_main_v49_apply]
    exact congrArg (val_main_v48 (F := Ideal) x0 x1 x2 x3 x4 x5 x6) (funext fun a => by
      match a with
      | ⟨0, _⟩ => exact Fin.ext (by have := g.isLt; have := p.isLt; show ((n.val * 4 + g.val) * 2 + p.val) / 8 = n.val; omega)
      | ⟨1, _⟩ => exact Fin.ext (by have := g.isLt; have := p.isLt; show ((n.val * 4 + g.val) * 2 + p.val) % 8 = 2 * g.val + p.val; omega))
  · exact congrArg pool (funext fun h => c1_lay x0 x1 x2 x3 x4 x5 x6 n h)

/-! ## Component 2

Its 2 earlier inputs x[n, i], i < 2, go through the two hidden layers (weights ws0[2, i, k], bs0[2, k] and
ws1[2, k, c], bs1[2, c] for c < 2); the last layer adds the input x[n, 2] itself, weighted by the exponential
of wlast[2, 2, h]. -/

/-- The earlier inputs: column `i < 2` of the row. -/
theorem c2_x (x0 : (⟨S262144x32, .f32⟩ : BufTy).Contents (Elt Ideal)) (n : Fin 262144) (i : Fin 2) :
    val_main_v59 (F := Ideal) x0 (ix2 n i) = x0 (ix2 n (up (d := 2) (by norm_num) i)) :=
  (val_main_v59_apply x0 _).trans (congrArg x0 (funext fun a => by
    match a with
    | ⟨0, _⟩ => rfl
    | ⟨1, _⟩ => rfl))

/-- The first layer's weights: row 2 of `ws0`, its first 2 inputs. -/
theorem c2_w0 (x1 : (⟨S32x32x32, .f32⟩ : BufTy).Contents (Elt Ideal)) (i : Fin 2) (k : Fin 32) :
    val_main_v61 (F := Ideal) x1 (ix2 i k) = x1 (ix3 (⟨2, by norm_num⟩ : Fin 32) (up (d := 2) (by norm_num) i) k) := by
  rw [val_main_v61_apply, val_main_v60_apply]
  exact congrArg x1 (funext fun a => by
    match a with
    | ⟨0, _⟩ => rfl
    | ⟨1, _⟩ => exact Fin.ext (by have := i.isLt; have := k.isLt; show (i.val * 32 + k.val) / 32 % 2 = i.val; omega)
    | ⟨2, _⟩ => exact Fin.ext (by have := i.isLt; have := k.isLt; show (i.val * 32 + k.val) % 32 = k.val; omega))

/-- The first layer's bias, the same in every row. -/
theorem c2_b0 (x2 : (⟨S32x32, .f32⟩ : BufTy).Contents (Elt Ideal)) (n : Fin 262144) (k : Fin 32) :
    val_main_v66 (F := Ideal) x2 (ix2 n k) = x2 (ix2 (⟨2, by norm_num⟩ : Fin 32) k) := by
  rw [val_main_v66_apply, val_main_v65_apply, val_main_v64_apply, val_main_v63_apply]
  exact congrArg x2 (funext fun a => by
    match a with
    | ⟨0, _⟩ => rfl
    | ⟨1, _⟩ => exact Fin.ext (by have := k.isLt; show k.val % 32 = k.val; omega))

theorem c2_z0 (n : Fin 262144) (k : Fin 32) : val_main_call2_v0 (F := Ideal) (ix2 n k) = 0 := by
  rw [val_main_call2_v0_apply, val_main_call2_cst_apply]
  exact Ideal.ofBits_zero_f32

/-- The first hidden layer. -/
theorem c2_hid0 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (n : Fin 262144) (k : Fin 32) :
    val_main_v68 (F := Ideal) x0 x1 x2 (ix2 n k) = rhid0 (fun i : Fin 32 => x0 (ix2 n i)) (fun a b c : Fin 32 => x1 (ix3 a b c)) (fun a b : Fin 32 => x2 (ix2 a b)) 2 (by norm_num) k := by
  rw [val_main_v68_apply, val_main_v67_apply, val_main_v62_apply, c2_b0]
  refine relu_affine_congr _ _ _ _ (c2_z0 n k) fun i => ?_
  have el : lidx_main_v62 (ix2 n k) i = ix2 n i := funext fun a => by
    match a with
    | ⟨0, _⟩ => rfl
    | ⟨1, _⟩ => rfl
  have er : ridx_main_v62 (ix2 n k) i = ix2 i k := funext fun a => by
    match a with
    | ⟨0, _⟩ => rfl
    | ⟨1, _⟩ => rfl
  rw [el, er, c2_x, c2_w0]

/-- The second layer's weights: row 2 of `ws1`, its first 2 outputs. -/
theorem c2_w1 (x3 : (⟨S32x32x32, .f32⟩ : BufTy).Contents (Elt Ideal)) (k : Fin 32) (c : Fin 2) :
    val_main_v70 (F := Ideal) x3 (ix2 k c) = x3 (ix3 (⟨2, by norm_num⟩ : Fin 32) k (up (d := 2) (by norm_num) c)) := by
  rw [val_main_v70_apply, val_main_v69_apply]
  exact congrArg x3 (funext fun a => by
    match a with
    | ⟨0, _⟩ => rfl
    | ⟨1, _⟩ => exact Fin.ext (by have := k.isLt; have := c.isLt; show (k.val * 2 + c.val) / 2 % 32 = k.val; omega)
    | ⟨2, _⟩ => exact Fin.ext (by have := k.isLt; have := c.isLt; show (k.val * 2 + c.val) % 2 = c.val; omega))

/-- The second layer's bias. -/
theorem c2_b1 (x4 : (⟨S32x32, .f32⟩ : BufTy).Contents (Elt Ideal)) (n : Fin 262144) (c : Fin 2) :
    val_main_v75 (F := Ideal) x4 (ix2 n c) = x4 (ix2 (⟨2, by norm_num⟩ : Fin 32) (up (d := 2) (by norm_num) c)) := by
  rw [val_main_v75_apply, val_main_v74_apply, val_main_v73_apply, val_main_v72_apply]
  exact congrArg x4 (funext fun a => by
    match a with
    | ⟨0, _⟩ => rfl
    | ⟨1, _⟩ => exact Fin.ext (by have := c.isLt; show c.val % 2 = c.val; omega))

theorem c2_z1 (n : Fin 262144) (c : Fin 2) : val_main_call3_v0 (F := Ideal) (ix2 n c) = 0 := by
  rw [val_main_call3_v0_apply, val_main_call3_cst_apply]
  exact Ideal.ofBits_zero_f32

/-- The second hidden layer. -/
theorem c2_hid1 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 2) :
    val_main_v77 (F := Ideal) x0 x1 x2 x3 x4 (ix2 n c)
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 2 (by norm_num) c := by
  rw [val_main_v77_apply, val_main_v76_apply, val_main_v71_apply, c2_b1]
  refine relu_affine_congr _ _ _ _ (c2_z1 n c) fun k => ?_
  have el : lidx_main_v71 (ix2 n c) k = ix2 n k := funext fun a => by
    match a with
    | ⟨0, _⟩ => rfl
    | ⟨1, _⟩ => rfl
  have er : ridx_main_v71 (ix2 n c) k = ix2 k c := funext fun a => by
    match a with
    | ⟨0, _⟩ => rfl
    | ⟨1, _⟩ => rfl
  rw [el, er, c2_hid0, c2_w1]

/-- The last layer's weights on the hidden units: the first 2 rows of `wlast[2]`. -/
theorem c2_wl (x5 : (⟨S32x32x8, .f32⟩ : BufTy).Contents (Elt Ideal)) (c : Fin 2) (h : Fin 8) :
    val_main_v58 (F := Ideal) x5 (ix2 (Fin.castSucc c : Fin 3) h) = x5 (ix3 (⟨2, by norm_num⟩ : Fin 32) (up (d := 2) (by norm_num) c) h) := by
  unfold val_main_v58
  refine (cat_rows_top (val_main_v55 (F := Ideal) x5) (val_main_v57 (F := Ideal) x5) _ c h).trans ?_
  rw [val_main_v55_apply, val_main_v54_apply, val_main_v53_apply]
  exact congrArg x5 (funext fun a => by
    match a with
    | ⟨0, _⟩ => rfl
    | ⟨1, _⟩ => exact Fin.ext (by have := c.isLt; have := h.isLt; show (c.val * 8 + h.val) / 8 % 3 = c.val; omega)
    | ⟨2, _⟩ => exact Fin.ext (by have := c.isLt; have := h.isLt; show (c.val * 8 + h.val) % 8 = h.val; omega))

/-- The last layer's weight on the input x[n, 2]: the exponential of row 2 of `wlast[2]`. -/
theorem c2_we (x5 : (⟨S32x32x8, .f32⟩ : BufTy).Contents (Elt Ideal)) (h : Fin 8) :
    val_main_v58 (F := Ideal) x5 (ix2 (Fin.last 2 : Fin 3) h) = eexp (x5 (ix3 (⟨2, by norm_num⟩ : Fin 32) (⟨2, by norm_num⟩ : Fin 32) h)) := by
  unfold val_main_v58
  refine (cat_rows_last (val_main_v55 (F := Ideal) x5) (val_main_v57 (F := Ideal) x5) _ h).trans ?_
  rw [val_main_v57_apply, val_main_v56_apply, val_main_v54_apply, val_main_v53_apply]
  exact congrArg eexp (congrArg x5 (funext fun a => by
    match a with
    | ⟨0, _⟩ => rfl
    | ⟨1, _⟩ => exact Fin.ext (by have := h.isLt; show (2 * 8 + h.val) / 8 % 3 = 2; omega)
    | ⟨2, _⟩ => exact Fin.ext (by have := h.isLt; show (2 * 8 + h.val) % 8 = h.val; omega)))

/-- The last layer's inputs: hidden unit `c < 2` … -/
theorem c2_xc (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 2) :
    val_main_v79 (F := Ideal) x0 x1 x2 x3 x4 (ix2 n (Fin.castSucc c : Fin 3))
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 2 (by norm_num) c := by
  unfold val_main_v79
  exact (cat_cols_left (val_main_v77 (F := Ideal) x0 x1 x2 x3 x4) (val_main_v78 (F := Ideal) x0) _ n c).trans
    (c2_hid1 x0 x1 x2 x3 x4 n c)

/-- … and, last, the input x[n, 2]. -/
theorem c2_xl (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) :
    val_main_v79 (F := Ideal) x0 x1 x2 x3 x4 (ix2 n (Fin.last 2 : Fin 3)) = x0 (ix2 n (⟨2, by norm_num⟩ : Fin 32)) := by
  unfold val_main_v79
  refine (cat_cols_last (val_main_v77 (F := Ideal) x0 x1 x2 x3 x4) (val_main_v78 (F := Ideal) x0) _ n).trans ?_
  rw [val_main_v78_apply]
  exact congrArg x0 (funext fun a => by
    match a with
    | ⟨0, _⟩ => rfl
    | ⟨1, _⟩ => rfl)

/-- The last layer's bias. -/
theorem c2_bl (x6 : (⟨S32x8, .f32⟩ : BufTy).Contents (Elt Ideal)) (n : Fin 262144) (h : Fin 8) :
    val_main_v84 (F := Ideal) x6 (ix2 n h) = x6 (ix2 (⟨2, by norm_num⟩ : Fin 32) h) := by
  rw [val_main_v84_apply, val_main_v83_apply, val_main_v82_apply, val_main_v81_apply]
  exact congrArg x6 (funext fun a => by
    match a with
    | ⟨0, _⟩ => rfl
    | ⟨1, _⟩ => exact Fin.ext (by have := h.isLt; show h.val % 8 = h.val; omega))

/-- The last layer. -/
theorem c2_lay (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) (h : Fin 8) :
    val_main_v85 (F := Ideal) x0 x1 x2 x3 x4 x5 x6 (ix2 n h)
      = rlay (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 2 (by norm_num) h := by
  rw [val_main_v85_apply, val_main_v80_apply, c2_bl]
  have el : ∀ k : Fin 3, lidx_main_v80 (ix2 n h) k = ix2 n k := fun k => funext fun a => by
    match a with
    | ⟨0, _⟩ => rfl
    | ⟨1, _⟩ => rfl
  have er : ∀ k : Fin 3, ridx_main_v80 (ix2 n h) k = ix2 k h := fun k => funext fun a => by
    match a with
    | ⟨0, _⟩ => rfl
    | ⟨1, _⟩ => rfl
  refine lay_congr (d := 2) _ _ _ _ (fun c => ?_) ?_
  · rw [el, er, c2_xc, c2_wl]
  · rw [el, er, c2_xl, c2_we]

/-- **Component 2** of the reference at row `n`. -/
theorem comp_2 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v89 (F := Ideal) x0 x1 x2 x3 x4 x5 x6 (ix2 n (0 : Fin 1))
      = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 2 (by norm_num) := by
  rw [val_main_v89_apply]
  have e : idx_main_v89 (ix2 n (0 : Fin 1)) = ix1 n := funext fun a => by
    match a with
    | ⟨0, _⟩ => rfl
  rw [e]
  unfold val_main_v88 val_main_v87 refOut
  refine (pool_read (val_main_v86 (F := Ideal) x0 x1 x2 x3 x4 x5 x6) (val_main_cst_3 (F := Ideal)) (val_main_cst_4 (F := Ideal))
    _ _ _ rfl rfl n (fun h => val_main_v85 (F := Ideal) x0 x1 x2 x3 x4 x5 x6 (ix2 n h)) (fun g p => ?_)).trans ?_
  · rw [val_main_v86_apply]
    exact congrArg (val_main_v85 (F := Ideal) x0 x1 x2 x3 x4 x5 x6) (funext fun a => by
      match a with
      | ⟨0, _⟩ => exact Fin.ext (by have := g.isLt; have := p.isLt; show ((n.val * 4 + g.val) * 2 + p.val) / 8 = n.val; omega)
      | ⟨1, _⟩ => exact Fin.ext (by have := g.isLt; have := p.isLt; show ((n.val * 4 + g.val) * 2 + p.val) % 8 = 2 * g.val + p.val; omega))
  · exact congrArg pool (funext fun h => c2_lay x0 x1 x2 x3 x4 x5 x6 n h)

/-! ## Component 3

Its 3 earlier inputs x[n, i], i < 3, go through the two hidden layers (weights ws0[3, i, k], bs0[3, k] and
ws1[3, k, c], bs1[3, c] for c < 3); the last layer adds the input x[n, 3] itself, weighted by the exponential
of wlast[3, 3, h]. -/

/-- The earlier inputs: column `i < 3` of the row. -/
theorem c3_x (x0 : (⟨S262144x32, .f32⟩ : BufTy).Contents (Elt Ideal)) (n : Fin 262144) (i : Fin 3) :
    val_main_v96 (F := Ideal) x0 (ix2 n i) = x0 (ix2 n (up (d := 3) (by norm_num) i)) :=
  (val_main_v96_apply x0 _).trans (congrArg x0 (funext fun a => by
    match a with
    | ⟨0, _⟩ => rfl
    | ⟨1, _⟩ => rfl))

/-- The first layer's weights: row 3 of `ws0`, its first 3 inputs. -/
theorem c3_w0 (x1 : (⟨S32x32x32, .f32⟩ : BufTy).Contents (Elt Ideal)) (i : Fin 3) (k : Fin 32) :
    val_main_v98 (F := Ideal) x1 (ix2 i k) = x1 (ix3 (⟨3, by norm_num⟩ : Fin 32) (up (d := 3) (by norm_num) i) k) := by
  rw [val_main_v98_apply, val_main_v97_apply]
  exact congrArg x1 (funext fun a => by
    match a with
    | ⟨0, _⟩ => rfl
    | ⟨1, _⟩ => exact Fin.ext (by have := i.isLt; have := k.isLt; show (i.val * 32 + k.val) / 32 % 3 = i.val; omega)
    | ⟨2, _⟩ => exact Fin.ext (by have := i.isLt; have := k.isLt; show (i.val * 32 + k.val) % 32 = k.val; omega))

/-- The first layer's bias, the same in every row. -/
theorem c3_b0 (x2 : (⟨S32x32, .f32⟩ : BufTy).Contents (Elt Ideal)) (n : Fin 262144) (k : Fin 32) :
    val_main_v103 (F := Ideal) x2 (ix2 n k) = x2 (ix2 (⟨3, by norm_num⟩ : Fin 32) k) := by
  rw [val_main_v103_apply, val_main_v102_apply, val_main_v101_apply, val_main_v100_apply]
  exact congrArg x2 (funext fun a => by
    match a with
    | ⟨0, _⟩ => rfl
    | ⟨1, _⟩ => exact Fin.ext (by have := k.isLt; show k.val % 32 = k.val; omega))

theorem c3_z0 (n : Fin 262144) (k : Fin 32) : val_main_call4_v0 (F := Ideal) (ix2 n k) = 0 := by
  rw [val_main_call4_v0_apply, val_main_call4_cst_apply]
  exact Ideal.ofBits_zero_f32

/-- The first hidden layer. -/
theorem c3_hid0 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (n : Fin 262144) (k : Fin 32) :
    val_main_v105 (F := Ideal) x0 x1 x2 (ix2 n k) = rhid0 (fun i : Fin 32 => x0 (ix2 n i)) (fun a b c : Fin 32 => x1 (ix3 a b c)) (fun a b : Fin 32 => x2 (ix2 a b)) 3 (by norm_num) k := by
  rw [val_main_v105_apply, val_main_v104_apply, val_main_v99_apply, c3_b0]
  refine relu_affine_congr _ _ _ _ (c3_z0 n k) fun i => ?_
  have el : lidx_main_v99 (ix2 n k) i = ix2 n i := funext fun a => by
    match a with
    | ⟨0, _⟩ => rfl
    | ⟨1, _⟩ => rfl
  have er : ridx_main_v99 (ix2 n k) i = ix2 i k := funext fun a => by
    match a with
    | ⟨0, _⟩ => rfl
    | ⟨1, _⟩ => rfl
  rw [el, er, c3_x, c3_w0]

/-- The second layer's weights: row 3 of `ws1`, its first 3 outputs. -/
theorem c3_w1 (x3 : (⟨S32x32x32, .f32⟩ : BufTy).Contents (Elt Ideal)) (k : Fin 32) (c : Fin 3) :
    val_main_v107 (F := Ideal) x3 (ix2 k c) = x3 (ix3 (⟨3, by norm_num⟩ : Fin 32) k (up (d := 3) (by norm_num) c)) := by
  rw [val_main_v107_apply, val_main_v106_apply]
  exact congrArg x3 (funext fun a => by
    match a with
    | ⟨0, _⟩ => rfl
    | ⟨1, _⟩ => exact Fin.ext (by have := k.isLt; have := c.isLt; show (k.val * 3 + c.val) / 3 % 32 = k.val; omega)
    | ⟨2, _⟩ => exact Fin.ext (by have := k.isLt; have := c.isLt; show (k.val * 3 + c.val) % 3 = c.val; omega))

/-- The second layer's bias. -/
theorem c3_b1 (x4 : (⟨S32x32, .f32⟩ : BufTy).Contents (Elt Ideal)) (n : Fin 262144) (c : Fin 3) :
    val_main_v112 (F := Ideal) x4 (ix2 n c) = x4 (ix2 (⟨3, by norm_num⟩ : Fin 32) (up (d := 3) (by norm_num) c)) := by
  rw [val_main_v112_apply, val_main_v111_apply, val_main_v110_apply, val_main_v109_apply]
  exact congrArg x4 (funext fun a => by
    match a with
    | ⟨0, _⟩ => rfl
    | ⟨1, _⟩ => exact Fin.ext (by have := c.isLt; show c.val % 3 = c.val; omega))

theorem c3_z1 (n : Fin 262144) (c : Fin 3) : val_main_call5_v0 (F := Ideal) (ix2 n c) = 0 := by
  rw [val_main_call5_v0_apply, val_main_call5_cst_apply]
  exact Ideal.ofBits_zero_f32

/-- The second hidden layer. -/
theorem c3_hid1 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 3) :
    val_main_v114 (F := Ideal) x0 x1 x2 x3 x4 (ix2 n c)
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 3 (by norm_num) c := by
  rw [val_main_v114_apply, val_main_v113_apply, val_main_v108_apply, c3_b1]
  refine relu_affine_congr _ _ _ _ (c3_z1 n c) fun k => ?_
  have el : lidx_main_v108 (ix2 n c) k = ix2 n k := funext fun a => by
    match a with
    | ⟨0, _⟩ => rfl
    | ⟨1, _⟩ => rfl
  have er : ridx_main_v108 (ix2 n c) k = ix2 k c := funext fun a => by
    match a with
    | ⟨0, _⟩ => rfl
    | ⟨1, _⟩ => rfl
  rw [el, er, c3_hid0, c3_w1]

/-- The last layer's weights on the hidden units: the first 3 rows of `wlast[3]`. -/
theorem c3_wl (x5 : (⟨S32x32x8, .f32⟩ : BufTy).Contents (Elt Ideal)) (c : Fin 3) (h : Fin 8) :
    val_main_v95 (F := Ideal) x5 (ix2 (Fin.castSucc c : Fin 4) h) = x5 (ix3 (⟨3, by norm_num⟩ : Fin 32) (up (d := 3) (by norm_num) c) h) := by
  unfold val_main_v95
  refine (cat_rows_top (val_main_v92 (F := Ideal) x5) (val_main_v94 (F := Ideal) x5) _ c h).trans ?_
  rw [val_main_v92_apply, val_main_v91_apply, val_main_v90_apply]
  exact congrArg x5 (funext fun a => by
    match a with
    | ⟨0, _⟩ => rfl
    | ⟨1, _⟩ => exact Fin.ext (by have := c.isLt; have := h.isLt; show (c.val * 8 + h.val) / 8 % 4 = c.val; omega)
    | ⟨2, _⟩ => exact Fin.ext (by have := c.isLt; have := h.isLt; show (c.val * 8 + h.val) % 8 = h.val; omega))

/-- The last layer's weight on the input x[n, 3]: the exponential of row 3 of `wlast[3]`. -/
theorem c3_we (x5 : (⟨S32x32x8, .f32⟩ : BufTy).Contents (Elt Ideal)) (h : Fin 8) :
    val_main_v95 (F := Ideal) x5 (ix2 (Fin.last 3 : Fin 4) h) = eexp (x5 (ix3 (⟨3, by norm_num⟩ : Fin 32) (⟨3, by norm_num⟩ : Fin 32) h)) := by
  unfold val_main_v95
  refine (cat_rows_last (val_main_v92 (F := Ideal) x5) (val_main_v94 (F := Ideal) x5) _ h).trans ?_
  rw [val_main_v94_apply, val_main_v93_apply, val_main_v91_apply, val_main_v90_apply]
  exact congrArg eexp (congrArg x5 (funext fun a => by
    match a with
    | ⟨0, _⟩ => rfl
    | ⟨1, _⟩ => exact Fin.ext (by have := h.isLt; show (3 * 8 + h.val) / 8 % 4 = 3; omega)
    | ⟨2, _⟩ => exact Fin.ext (by have := h.isLt; show (3 * 8 + h.val) % 8 = h.val; omega)))

/-- The last layer's inputs: hidden unit `c < 3` … -/
theorem c3_xc (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 3) :
    val_main_v116 (F := Ideal) x0 x1 x2 x3 x4 (ix2 n (Fin.castSucc c : Fin 4))
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 3 (by norm_num) c := by
  unfold val_main_v116
  exact (cat_cols_left (val_main_v114 (F := Ideal) x0 x1 x2 x3 x4) (val_main_v115 (F := Ideal) x0) _ n c).trans
    (c3_hid1 x0 x1 x2 x3 x4 n c)

/-- … and, last, the input x[n, 3]. -/
theorem c3_xl (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) :
    val_main_v116 (F := Ideal) x0 x1 x2 x3 x4 (ix2 n (Fin.last 3 : Fin 4)) = x0 (ix2 n (⟨3, by norm_num⟩ : Fin 32)) := by
  unfold val_main_v116
  refine (cat_cols_last (val_main_v114 (F := Ideal) x0 x1 x2 x3 x4) (val_main_v115 (F := Ideal) x0) _ n).trans ?_
  rw [val_main_v115_apply]
  exact congrArg x0 (funext fun a => by
    match a with
    | ⟨0, _⟩ => rfl
    | ⟨1, _⟩ => rfl)

/-- The last layer's bias. -/
theorem c3_bl (x6 : (⟨S32x8, .f32⟩ : BufTy).Contents (Elt Ideal)) (n : Fin 262144) (h : Fin 8) :
    val_main_v121 (F := Ideal) x6 (ix2 n h) = x6 (ix2 (⟨3, by norm_num⟩ : Fin 32) h) := by
  rw [val_main_v121_apply, val_main_v120_apply, val_main_v119_apply, val_main_v118_apply]
  exact congrArg x6 (funext fun a => by
    match a with
    | ⟨0, _⟩ => rfl
    | ⟨1, _⟩ => exact Fin.ext (by have := h.isLt; show h.val % 8 = h.val; omega))

/-- The last layer. -/
theorem c3_lay (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) (h : Fin 8) :
    val_main_v122 (F := Ideal) x0 x1 x2 x3 x4 x5 x6 (ix2 n h)
      = rlay (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 3 (by norm_num) h := by
  rw [val_main_v122_apply, val_main_v117_apply, c3_bl]
  have el : ∀ k : Fin 4, lidx_main_v117 (ix2 n h) k = ix2 n k := fun k => funext fun a => by
    match a with
    | ⟨0, _⟩ => rfl
    | ⟨1, _⟩ => rfl
  have er : ∀ k : Fin 4, ridx_main_v117 (ix2 n h) k = ix2 k h := fun k => funext fun a => by
    match a with
    | ⟨0, _⟩ => rfl
    | ⟨1, _⟩ => rfl
  refine lay_congr (d := 3) _ _ _ _ (fun c => ?_) ?_
  · rw [el, er, c3_xc, c3_wl]
  · rw [el, er, c3_xl, c3_we]

/-- **Component 3** of the reference at row `n`. -/
theorem comp_3 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v126 (F := Ideal) x0 x1 x2 x3 x4 x5 x6 (ix2 n (0 : Fin 1))
      = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 3 (by norm_num) := by
  rw [val_main_v126_apply]
  have e : idx_main_v126 (ix2 n (0 : Fin 1)) = ix1 n := funext fun a => by
    match a with
    | ⟨0, _⟩ => rfl
  rw [e]
  unfold val_main_v125 val_main_v124 refOut
  refine (pool_read (val_main_v123 (F := Ideal) x0 x1 x2 x3 x4 x5 x6) (val_main_cst_5 (F := Ideal)) (val_main_cst_6 (F := Ideal))
    _ _ _ rfl rfl n (fun h => val_main_v122 (F := Ideal) x0 x1 x2 x3 x4 x5 x6 (ix2 n h)) (fun g p => ?_)).trans ?_
  · rw [val_main_v123_apply]
    exact congrArg (val_main_v122 (F := Ideal) x0 x1 x2 x3 x4 x5 x6) (funext fun a => by
      match a with
      | ⟨0, _⟩ => exact Fin.ext (by have := g.isLt; have := p.isLt; show ((n.val * 4 + g.val) * 2 + p.val) / 8 = n.val; omega)
      | ⟨1, _⟩ => exact Fin.ext (by have := g.isLt; have := p.isLt; show ((n.val * 4 + g.val) * 2 + p.val) % 8 = 2 * g.val + p.val; omega))
  · exact congrArg pool (funext fun h => c3_lay x0 x1 x2 x3 x4 x5 x6 n h)

/-! ## Component 4

Its 4 earlier inputs x[n, i], i < 4, go through the two hidden layers (weights ws0[4, i, k], bs0[4, k] and
ws1[4, k, c], bs1[4, c] for c < 4); the last layer adds the input x[n, 4] itself, weighted by the exponential
of wlast[4, 4, h]. -/

/-- The earlier inputs: column `i < 4` of the row. -/
theorem c4_x (x0 : (⟨S262144x32, .f32⟩ : BufTy).Contents (Elt Ideal)) (n : Fin 262144) (i : Fin 4) :
    val_main_v133 (F := Ideal) x0 (ix2 n i) = x0 (ix2 n (up (d := 4) (by norm_num) i)) :=
  (val_main_v133_apply x0 _).trans (congrArg x0 (funext fun a => by
    match a with
    | ⟨0, _⟩ => rfl
    | ⟨1, _⟩ => rfl))

/-- The first layer's weights: row 4 of `ws0`, its first 4 inputs. -/
theorem c4_w0 (x1 : (⟨S32x32x32, .f32⟩ : BufTy).Contents (Elt Ideal)) (i : Fin 4) (k : Fin 32) :
    val_main_v135 (F := Ideal) x1 (ix2 i k) = x1 (ix3 (⟨4, by norm_num⟩ : Fin 32) (up (d := 4) (by norm_num) i) k) := by
  rw [val_main_v135_apply, val_main_v134_apply]
  exact congrArg x1 (funext fun a => by
    match a with
    | ⟨0, _⟩ => rfl
    | ⟨1, _⟩ => exact Fin.ext (by have := i.isLt; have := k.isLt; show (i.val * 32 + k.val) / 32 % 4 = i.val; omega)
    | ⟨2, _⟩ => exact Fin.ext (by have := i.isLt; have := k.isLt; show (i.val * 32 + k.val) % 32 = k.val; omega))

/-- The first layer's bias, the same in every row. -/
theorem c4_b0 (x2 : (⟨S32x32, .f32⟩ : BufTy).Contents (Elt Ideal)) (n : Fin 262144) (k : Fin 32) :
    val_main_v140 (F := Ideal) x2 (ix2 n k) = x2 (ix2 (⟨4, by norm_num⟩ : Fin 32) k) := by
  rw [val_main_v140_apply, val_main_v139_apply, val_main_v138_apply, val_main_v137_apply]
  exact congrArg x2 (funext fun a => by
    match a with
    | ⟨0, _⟩ => rfl
    | ⟨1, _⟩ => exact Fin.ext (by have := k.isLt; show k.val % 32 = k.val; omega))

theorem c4_z0 (n : Fin 262144) (k : Fin 32) : val_main_call6_v0 (F := Ideal) (ix2 n k) = 0 := by
  rw [val_main_call6_v0_apply, val_main_call6_cst_apply]
  exact Ideal.ofBits_zero_f32

/-- The first hidden layer. -/
theorem c4_hid0 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (n : Fin 262144) (k : Fin 32) :
    val_main_v142 (F := Ideal) x0 x1 x2 (ix2 n k) = rhid0 (fun i : Fin 32 => x0 (ix2 n i)) (fun a b c : Fin 32 => x1 (ix3 a b c)) (fun a b : Fin 32 => x2 (ix2 a b)) 4 (by norm_num) k := by
  rw [val_main_v142_apply, val_main_v141_apply, val_main_v136_apply, c4_b0]
  refine relu_affine_congr _ _ _ _ (c4_z0 n k) fun i => ?_
  have el : lidx_main_v136 (ix2 n k) i = ix2 n i := funext fun a => by
    match a with
    | ⟨0, _⟩ => rfl
    | ⟨1, _⟩ => rfl
  have er : ridx_main_v136 (ix2 n k) i = ix2 i k := funext fun a => by
    match a with
    | ⟨0, _⟩ => rfl
    | ⟨1, _⟩ => rfl
  rw [el, er, c4_x, c4_w0]

/-- The second layer's weights: row 4 of `ws1`, its first 4 outputs. -/
theorem c4_w1 (x3 : (⟨S32x32x32, .f32⟩ : BufTy).Contents (Elt Ideal)) (k : Fin 32) (c : Fin 4) :
    val_main_v144 (F := Ideal) x3 (ix2 k c) = x3 (ix3 (⟨4, by norm_num⟩ : Fin 32) k (up (d := 4) (by norm_num) c)) := by
  rw [val_main_v144_apply, val_main_v143_apply]
  exact congrArg x3 (funext fun a => by
    match a with
    | ⟨0, _⟩ => rfl
    | ⟨1, _⟩ => exact Fin.ext (by have := k.isLt; have := c.isLt; show (k.val * 4 + c.val) / 4 % 32 = k.val; omega)
    | ⟨2, _⟩ => exact Fin.ext (by have := k.isLt; have := c.isLt; show (k.val * 4 + c.val) % 4 = c.val; omega))

/-- The second layer's bias. -/
theorem c4_b1 (x4 : (⟨S32x32, .f32⟩ : BufTy).Contents (Elt Ideal)) (n : Fin 262144) (c : Fin 4) :
    val_main_v149 (F := Ideal) x4 (ix2 n c) = x4 (ix2 (⟨4, by norm_num⟩ : Fin 32) (up (d := 4) (by norm_num) c)) := by
  rw [val_main_v149_apply, val_main_v148_apply, val_main_v147_apply, val_main_v146_apply]
  exact congrArg x4 (funext fun a => by
    match a with
    | ⟨0, _⟩ => rfl
    | ⟨1, _⟩ => exact Fin.ext (by have := c.isLt; show c.val % 4 = c.val; omega))

theorem c4_z1 (n : Fin 262144) (c : Fin 4) : val_main_call7_v0 (F := Ideal) (ix2 n c) = 0 := by
  rw [val_main_call7_v0_apply, val_main_call7_cst_apply]
  exact Ideal.ofBits_zero_f32

/-- The second hidden layer. -/
theorem c4_hid1 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 4) :
    val_main_v151 (F := Ideal) x0 x1 x2 x3 x4 (ix2 n c)
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 4 (by norm_num) c := by
  rw [val_main_v151_apply, val_main_v150_apply, val_main_v145_apply, c4_b1]
  refine relu_affine_congr _ _ _ _ (c4_z1 n c) fun k => ?_
  have el : lidx_main_v145 (ix2 n c) k = ix2 n k := funext fun a => by
    match a with
    | ⟨0, _⟩ => rfl
    | ⟨1, _⟩ => rfl
  have er : ridx_main_v145 (ix2 n c) k = ix2 k c := funext fun a => by
    match a with
    | ⟨0, _⟩ => rfl
    | ⟨1, _⟩ => rfl
  rw [el, er, c4_hid0, c4_w1]

/-- The last layer's weights on the hidden units: the first 4 rows of `wlast[4]`. -/
theorem c4_wl (x5 : (⟨S32x32x8, .f32⟩ : BufTy).Contents (Elt Ideal)) (c : Fin 4) (h : Fin 8) :
    val_main_v132 (F := Ideal) x5 (ix2 (Fin.castSucc c : Fin 5) h) = x5 (ix3 (⟨4, by norm_num⟩ : Fin 32) (up (d := 4) (by norm_num) c) h) := by
  unfold val_main_v132
  refine (cat_rows_top (val_main_v129 (F := Ideal) x5) (val_main_v131 (F := Ideal) x5) _ c h).trans ?_
  rw [val_main_v129_apply, val_main_v128_apply, val_main_v127_apply]
  exact congrArg x5 (funext fun a => by
    match a with
    | ⟨0, _⟩ => rfl
    | ⟨1, _⟩ => exact Fin.ext (by have := c.isLt; have := h.isLt; show (c.val * 8 + h.val) / 8 % 5 = c.val; omega)
    | ⟨2, _⟩ => exact Fin.ext (by have := c.isLt; have := h.isLt; show (c.val * 8 + h.val) % 8 = h.val; omega))

/-- The last layer's weight on the input x[n, 4]: the exponential of row 4 of `wlast[4]`. -/
theorem c4_we (x5 : (⟨S32x32x8, .f32⟩ : BufTy).Contents (Elt Ideal)) (h : Fin 8) :
    val_main_v132 (F := Ideal) x5 (ix2 (Fin.last 4 : Fin 5) h) = eexp (x5 (ix3 (⟨4, by norm_num⟩ : Fin 32) (⟨4, by norm_num⟩ : Fin 32) h)) := by
  unfold val_main_v132
  refine (cat_rows_last (val_main_v129 (F := Ideal) x5) (val_main_v131 (F := Ideal) x5) _ h).trans ?_
  rw [val_main_v131_apply, val_main_v130_apply, val_main_v128_apply, val_main_v127_apply]
  exact congrArg eexp (congrArg x5 (funext fun a => by
    match a with
    | ⟨0, _⟩ => rfl
    | ⟨1, _⟩ => exact Fin.ext (by have := h.isLt; show (4 * 8 + h.val) / 8 % 5 = 4; omega)
    | ⟨2, _⟩ => exact Fin.ext (by have := h.isLt; show (4 * 8 + h.val) % 8 = h.val; omega)))

/-- The last layer's inputs: hidden unit `c < 4` … -/
theorem c4_xc (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 4) :
    val_main_v153 (F := Ideal) x0 x1 x2 x3 x4 (ix2 n (Fin.castSucc c : Fin 5))
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 4 (by norm_num) c := by
  unfold val_main_v153
  exact (cat_cols_left (val_main_v151 (F := Ideal) x0 x1 x2 x3 x4) (val_main_v152 (F := Ideal) x0) _ n c).trans
    (c4_hid1 x0 x1 x2 x3 x4 n c)

/-- … and, last, the input x[n, 4]. -/
theorem c4_xl (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) :
    val_main_v153 (F := Ideal) x0 x1 x2 x3 x4 (ix2 n (Fin.last 4 : Fin 5)) = x0 (ix2 n (⟨4, by norm_num⟩ : Fin 32)) := by
  unfold val_main_v153
  refine (cat_cols_last (val_main_v151 (F := Ideal) x0 x1 x2 x3 x4) (val_main_v152 (F := Ideal) x0) _ n).trans ?_
  rw [val_main_v152_apply]
  exact congrArg x0 (funext fun a => by
    match a with
    | ⟨0, _⟩ => rfl
    | ⟨1, _⟩ => rfl)

/-- The last layer's bias. -/
theorem c4_bl (x6 : (⟨S32x8, .f32⟩ : BufTy).Contents (Elt Ideal)) (n : Fin 262144) (h : Fin 8) :
    val_main_v158 (F := Ideal) x6 (ix2 n h) = x6 (ix2 (⟨4, by norm_num⟩ : Fin 32) h) := by
  rw [val_main_v158_apply, val_main_v157_apply, val_main_v156_apply, val_main_v155_apply]
  exact congrArg x6 (funext fun a => by
    match a with
    | ⟨0, _⟩ => rfl
    | ⟨1, _⟩ => exact Fin.ext (by have := h.isLt; show h.val % 8 = h.val; omega))

/-- The last layer. -/
theorem c4_lay (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) (h : Fin 8) :
    val_main_v159 (F := Ideal) x0 x1 x2 x3 x4 x5 x6 (ix2 n h)
      = rlay (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 4 (by norm_num) h := by
  rw [val_main_v159_apply, val_main_v154_apply, c4_bl]
  have el : ∀ k : Fin 5, lidx_main_v154 (ix2 n h) k = ix2 n k := fun k => funext fun a => by
    match a with
    | ⟨0, _⟩ => rfl
    | ⟨1, _⟩ => rfl
  have er : ∀ k : Fin 5, ridx_main_v154 (ix2 n h) k = ix2 k h := fun k => funext fun a => by
    match a with
    | ⟨0, _⟩ => rfl
    | ⟨1, _⟩ => rfl
  refine lay_congr (d := 4) _ _ _ _ (fun c => ?_) ?_
  · rw [el, er, c4_xc, c4_wl]
  · rw [el, er, c4_xl, c4_we]

/-- **Component 4** of the reference at row `n`. -/
theorem comp_4 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v163 (F := Ideal) x0 x1 x2 x3 x4 x5 x6 (ix2 n (0 : Fin 1))
      = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 4 (by norm_num) := by
  rw [val_main_v163_apply]
  have e : idx_main_v163 (ix2 n (0 : Fin 1)) = ix1 n := funext fun a => by
    match a with
    | ⟨0, _⟩ => rfl
  rw [e]
  unfold val_main_v162 val_main_v161 refOut
  refine (pool_read (val_main_v160 (F := Ideal) x0 x1 x2 x3 x4 x5 x6) (val_main_cst_7 (F := Ideal)) (val_main_cst_8 (F := Ideal))
    _ _ _ rfl rfl n (fun h => val_main_v159 (F := Ideal) x0 x1 x2 x3 x4 x5 x6 (ix2 n h)) (fun g p => ?_)).trans ?_
  · rw [val_main_v160_apply]
    exact congrArg (val_main_v159 (F := Ideal) x0 x1 x2 x3 x4 x5 x6) (funext fun a => by
      match a with
      | ⟨0, _⟩ => exact Fin.ext (by have := g.isLt; have := p.isLt; show ((n.val * 4 + g.val) * 2 + p.val) / 8 = n.val; omega)
      | ⟨1, _⟩ => exact Fin.ext (by have := g.isLt; have := p.isLt; show ((n.val * 4 + g.val) * 2 + p.val) % 8 = 2 * g.val + p.val; omega))
  · exact congrArg pool (funext fun h => c4_lay x0 x1 x2 x3 x4 x5 x6 n h)

/-! ## Component 5

Its 5 earlier inputs x[n, i], i < 5, go through the two hidden layers (weights ws0[5, i, k], bs0[5, k] and
ws1[5, k, c], bs1[5, c] for c < 5); the last layer adds the input x[n, 5] itself, weighted by the exponential
of wlast[5, 5, h]. -/

/-- The earlier inputs: column `i < 5` of the row. -/
theorem c5_x (x0 : (⟨S262144x32, .f32⟩ : BufTy).Contents (Elt Ideal)) (n : Fin 262144) (i : Fin 5) :
    val_main_v170 (F := Ideal) x0 (ix2 n i) = x0 (ix2 n (up (d := 5) (by norm_num) i)) :=
  (val_main_v170_apply x0 _).trans (congrArg x0 (funext fun a => by
    match a with
    | ⟨0, _⟩ => rfl
    | ⟨1, _⟩ => rfl))

/-- The first layer's weights: row 5 of `ws0`, its first 5 inputs. -/
theorem c5_w0 (x1 : (⟨S32x32x32, .f32⟩ : BufTy).Contents (Elt Ideal)) (i : Fin 5) (k : Fin 32) :
    val_main_v172 (F := Ideal) x1 (ix2 i k) = x1 (ix3 (⟨5, by norm_num⟩ : Fin 32) (up (d := 5) (by norm_num) i) k) := by
  rw [val_main_v172_apply, val_main_v171_apply]
  exact congrArg x1 (funext fun a => by
    match a with
    | ⟨0, _⟩ => rfl
    | ⟨1, _⟩ => exact Fin.ext (by have := i.isLt; have := k.isLt; show (i.val * 32 + k.val) / 32 % 5 = i.val; omega)
    | ⟨2, _⟩ => exact Fin.ext (by have := i.isLt; have := k.isLt; show (i.val * 32 + k.val) % 32 = k.val; omega))

/-- The first layer's bias, the same in every row. -/
theorem c5_b0 (x2 : (⟨S32x32, .f32⟩ : BufTy).Contents (Elt Ideal)) (n : Fin 262144) (k : Fin 32) :
    val_main_v177 (F := Ideal) x2 (ix2 n k) = x2 (ix2 (⟨5, by norm_num⟩ : Fin 32) k) := by
  rw [val_main_v177_apply, val_main_v176_apply, val_main_v175_apply, val_main_v174_apply]
  exact congrArg x2 (funext fun a => by
    match a with
    | ⟨0, _⟩ => rfl
    | ⟨1, _⟩ => exact Fin.ext (by have := k.isLt; show k.val % 32 = k.val; omega))

theorem c5_z0 (n : Fin 262144) (k : Fin 32) : val_main_call8_v0 (F := Ideal) (ix2 n k) = 0 := by
  rw [val_main_call8_v0_apply, val_main_call8_cst_apply]
  exact Ideal.ofBits_zero_f32

/-- The first hidden layer. -/
theorem c5_hid0 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (n : Fin 262144) (k : Fin 32) :
    val_main_v179 (F := Ideal) x0 x1 x2 (ix2 n k) = rhid0 (fun i : Fin 32 => x0 (ix2 n i)) (fun a b c : Fin 32 => x1 (ix3 a b c)) (fun a b : Fin 32 => x2 (ix2 a b)) 5 (by norm_num) k := by
  rw [val_main_v179_apply, val_main_v178_apply, val_main_v173_apply, c5_b0]
  refine relu_affine_congr _ _ _ _ (c5_z0 n k) fun i => ?_
  have el : lidx_main_v173 (ix2 n k) i = ix2 n i := funext fun a => by
    match a with
    | ⟨0, _⟩ => rfl
    | ⟨1, _⟩ => rfl
  have er : ridx_main_v173 (ix2 n k) i = ix2 i k := funext fun a => by
    match a with
    | ⟨0, _⟩ => rfl
    | ⟨1, _⟩ => rfl
  rw [el, er, c5_x, c5_w0]

/-- The second layer's weights: row 5 of `ws1`, its first 5 outputs. -/
theorem c5_w1 (x3 : (⟨S32x32x32, .f32⟩ : BufTy).Contents (Elt Ideal)) (k : Fin 32) (c : Fin 5) :
    val_main_v181 (F := Ideal) x3 (ix2 k c) = x3 (ix3 (⟨5, by norm_num⟩ : Fin 32) k (up (d := 5) (by norm_num) c)) := by
  rw [val_main_v181_apply, val_main_v180_apply]
  exact congrArg x3 (funext fun a => by
    match a with
    | ⟨0, _⟩ => rfl
    | ⟨1, _⟩ => exact Fin.ext (by have := k.isLt; have := c.isLt; show (k.val * 5 + c.val) / 5 % 32 = k.val; omega)
    | ⟨2, _⟩ => exact Fin.ext (by have := k.isLt; have := c.isLt; show (k.val * 5 + c.val) % 5 = c.val; omega))

/-- The second layer's bias. -/
theorem c5_b1 (x4 : (⟨S32x32, .f32⟩ : BufTy).Contents (Elt Ideal)) (n : Fin 262144) (c : Fin 5) :
    val_main_v186 (F := Ideal) x4 (ix2 n c) = x4 (ix2 (⟨5, by norm_num⟩ : Fin 32) (up (d := 5) (by norm_num) c)) := by
  rw [val_main_v186_apply, val_main_v185_apply, val_main_v184_apply, val_main_v183_apply]
  exact congrArg x4 (funext fun a => by
    match a with
    | ⟨0, _⟩ => rfl
    | ⟨1, _⟩ => exact Fin.ext (by have := c.isLt; show c.val % 5 = c.val; omega))

theorem c5_z1 (n : Fin 262144) (c : Fin 5) : val_main_call9_v0 (F := Ideal) (ix2 n c) = 0 := by
  rw [val_main_call9_v0_apply, val_main_call9_cst_apply]
  exact Ideal.ofBits_zero_f32

/-- The second hidden layer. -/
theorem c5_hid1 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 5) :
    val_main_v188 (F := Ideal) x0 x1 x2 x3 x4 (ix2 n c)
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 5 (by norm_num) c := by
  rw [val_main_v188_apply, val_main_v187_apply, val_main_v182_apply, c5_b1]
  refine relu_affine_congr _ _ _ _ (c5_z1 n c) fun k => ?_
  have el : lidx_main_v182 (ix2 n c) k = ix2 n k := funext fun a => by
    match a with
    | ⟨0, _⟩ => rfl
    | ⟨1, _⟩ => rfl
  have er : ridx_main_v182 (ix2 n c) k = ix2 k c := funext fun a => by
    match a with
    | ⟨0, _⟩ => rfl
    | ⟨1, _⟩ => rfl
  rw [el, er, c5_hid0, c5_w1]

/-- The last layer's weights on the hidden units: the first 5 rows of `wlast[5]`. -/
theorem c5_wl (x5 : (⟨S32x32x8, .f32⟩ : BufTy).Contents (Elt Ideal)) (c : Fin 5) (h : Fin 8) :
    val_main_v169 (F := Ideal) x5 (ix2 (Fin.castSucc c : Fin 6) h) = x5 (ix3 (⟨5, by norm_num⟩ : Fin 32) (up (d := 5) (by norm_num) c) h) := by
  unfold val_main_v169
  refine (cat_rows_top (val_main_v166 (F := Ideal) x5) (val_main_v168 (F := Ideal) x5) _ c h).trans ?_
  rw [val_main_v166_apply, val_main_v165_apply, val_main_v164_apply]
  exact congrArg x5 (funext fun a => by
    match a with
    | ⟨0, _⟩ => rfl
    | ⟨1, _⟩ => exact Fin.ext (by have := c.isLt; have := h.isLt; show (c.val * 8 + h.val) / 8 % 6 = c.val; omega)
    | ⟨2, _⟩ => exact Fin.ext (by have := c.isLt; have := h.isLt; show (c.val * 8 + h.val) % 8 = h.val; omega))

/-- The last layer's weight on the input x[n, 5]: the exponential of row 5 of `wlast[5]`. -/
theorem c5_we (x5 : (⟨S32x32x8, .f32⟩ : BufTy).Contents (Elt Ideal)) (h : Fin 8) :
    val_main_v169 (F := Ideal) x5 (ix2 (Fin.last 5 : Fin 6) h) = eexp (x5 (ix3 (⟨5, by norm_num⟩ : Fin 32) (⟨5, by norm_num⟩ : Fin 32) h)) := by
  unfold val_main_v169
  refine (cat_rows_last (val_main_v166 (F := Ideal) x5) (val_main_v168 (F := Ideal) x5) _ h).trans ?_
  rw [val_main_v168_apply, val_main_v167_apply, val_main_v165_apply, val_main_v164_apply]
  exact congrArg eexp (congrArg x5 (funext fun a => by
    match a with
    | ⟨0, _⟩ => rfl
    | ⟨1, _⟩ => exact Fin.ext (by have := h.isLt; show (5 * 8 + h.val) / 8 % 6 = 5; omega)
    | ⟨2, _⟩ => exact Fin.ext (by have := h.isLt; show (5 * 8 + h.val) % 8 = h.val; omega)))

/-- The last layer's inputs: hidden unit `c < 5` … -/
theorem c5_xc (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 5) :
    val_main_v190 (F := Ideal) x0 x1 x2 x3 x4 (ix2 n (Fin.castSucc c : Fin 6))
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 5 (by norm_num) c := by
  unfold val_main_v190
  exact (cat_cols_left (val_main_v188 (F := Ideal) x0 x1 x2 x3 x4) (val_main_v189 (F := Ideal) x0) _ n c).trans
    (c5_hid1 x0 x1 x2 x3 x4 n c)

/-- … and, last, the input x[n, 5]. -/
theorem c5_xl (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) :
    val_main_v190 (F := Ideal) x0 x1 x2 x3 x4 (ix2 n (Fin.last 5 : Fin 6)) = x0 (ix2 n (⟨5, by norm_num⟩ : Fin 32)) := by
  unfold val_main_v190
  refine (cat_cols_last (val_main_v188 (F := Ideal) x0 x1 x2 x3 x4) (val_main_v189 (F := Ideal) x0) _ n).trans ?_
  rw [val_main_v189_apply]
  exact congrArg x0 (funext fun a => by
    match a with
    | ⟨0, _⟩ => rfl
    | ⟨1, _⟩ => rfl)

/-- The last layer's bias. -/
theorem c5_bl (x6 : (⟨S32x8, .f32⟩ : BufTy).Contents (Elt Ideal)) (n : Fin 262144) (h : Fin 8) :
    val_main_v195 (F := Ideal) x6 (ix2 n h) = x6 (ix2 (⟨5, by norm_num⟩ : Fin 32) h) := by
  rw [val_main_v195_apply, val_main_v194_apply, val_main_v193_apply, val_main_v192_apply]
  exact congrArg x6 (funext fun a => by
    match a with
    | ⟨0, _⟩ => rfl
    | ⟨1, _⟩ => exact Fin.ext (by have := h.isLt; show h.val % 8 = h.val; omega))

/-- The last layer. -/
theorem c5_lay (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) (h : Fin 8) :
    val_main_v196 (F := Ideal) x0 x1 x2 x3 x4 x5 x6 (ix2 n h)
      = rlay (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 5 (by norm_num) h := by
  rw [val_main_v196_apply, val_main_v191_apply, c5_bl]
  have el : ∀ k : Fin 6, lidx_main_v191 (ix2 n h) k = ix2 n k := fun k => funext fun a => by
    match a with
    | ⟨0, _⟩ => rfl
    | ⟨1, _⟩ => rfl
  have er : ∀ k : Fin 6, ridx_main_v191 (ix2 n h) k = ix2 k h := fun k => funext fun a => by
    match a with
    | ⟨0, _⟩ => rfl
    | ⟨1, _⟩ => rfl
  refine lay_congr (d := 5) _ _ _ _ (fun c => ?_) ?_
  · rw [el, er, c5_xc, c5_wl]
  · rw [el, er, c5_xl, c5_we]

/-- **Component 5** of the reference at row `n`. -/
theorem comp_5 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v200 (F := Ideal) x0 x1 x2 x3 x4 x5 x6 (ix2 n (0 : Fin 1))
      = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 5 (by norm_num) := by
  rw [val_main_v200_apply]
  have e : idx_main_v200 (ix2 n (0 : Fin 1)) = ix1 n := funext fun a => by
    match a with
    | ⟨0, _⟩ => rfl
  rw [e]
  unfold val_main_v199 val_main_v198 refOut
  refine (pool_read (val_main_v197 (F := Ideal) x0 x1 x2 x3 x4 x5 x6) (val_main_cst_9 (F := Ideal)) (val_main_cst_10 (F := Ideal))
    _ _ _ rfl rfl n (fun h => val_main_v196 (F := Ideal) x0 x1 x2 x3 x4 x5 x6 (ix2 n h)) (fun g p => ?_)).trans ?_
  · rw [val_main_v197_apply]
    exact congrArg (val_main_v196 (F := Ideal) x0 x1 x2 x3 x4 x5 x6) (funext fun a => by
      match a with
      | ⟨0, _⟩ => exact Fin.ext (by have := g.isLt; have := p.isLt; show ((n.val * 4 + g.val) * 2 + p.val) / 8 = n.val; omega)
      | ⟨1, _⟩ => exact Fin.ext (by have := g.isLt; have := p.isLt; show ((n.val * 4 + g.val) * 2 + p.val) % 8 = 2 * g.val + p.val; omega))
  · exact congrArg pool (funext fun h => c5_lay x0 x1 x2 x3 x4 x5 x6 n h)

/-! ## Component 6

Its 6 earlier inputs x[n, i], i < 6, go through the two hidden layers (weights ws0[6, i, k], bs0[6, k] and
ws1[6, k, c], bs1[6, c] for c < 6); the last layer adds the input x[n, 6] itself, weighted by the exponential
of wlast[6, 6, h]. -/

/-- The earlier inputs: column `i < 6` of the row. -/
theorem c6_x (x0 : (⟨S262144x32, .f32⟩ : BufTy).Contents (Elt Ideal)) (n : Fin 262144) (i : Fin 6) :
    val_main_v207 (F := Ideal) x0 (ix2 n i) = x0 (ix2 n (up (d := 6) (by norm_num) i)) :=
  (val_main_v207_apply x0 _).trans (congrArg x0 (funext fun a => by
    match a with
    | ⟨0, _⟩ => rfl
    | ⟨1, _⟩ => rfl))

/-- The first layer's weights: row 6 of `ws0`, its first 6 inputs. -/
theorem c6_w0 (x1 : (⟨S32x32x32, .f32⟩ : BufTy).Contents (Elt Ideal)) (i : Fin 6) (k : Fin 32) :
    val_main_v209 (F := Ideal) x1 (ix2 i k) = x1 (ix3 (⟨6, by norm_num⟩ : Fin 32) (up (d := 6) (by norm_num) i) k) := by
  rw [val_main_v209_apply, val_main_v208_apply]
  exact congrArg x1 (funext fun a => by
    match a with
    | ⟨0, _⟩ => rfl
    | ⟨1, _⟩ => exact Fin.ext (by have := i.isLt; have := k.isLt; show (i.val * 32 + k.val) / 32 % 6 = i.val; omega)
    | ⟨2, _⟩ => exact Fin.ext (by have := i.isLt; have := k.isLt; show (i.val * 32 + k.val) % 32 = k.val; omega))

/-- The first layer's bias, the same in every row. -/
theorem c6_b0 (x2 : (⟨S32x32, .f32⟩ : BufTy).Contents (Elt Ideal)) (n : Fin 262144) (k : Fin 32) :
    val_main_v214 (F := Ideal) x2 (ix2 n k) = x2 (ix2 (⟨6, by norm_num⟩ : Fin 32) k) := by
  rw [val_main_v214_apply, val_main_v213_apply, val_main_v212_apply, val_main_v211_apply]
  exact congrArg x2 (funext fun a => by
    match a with
    | ⟨0, _⟩ => rfl
    | ⟨1, _⟩ => exact Fin.ext (by have := k.isLt; show k.val % 32 = k.val; omega))

theorem c6_z0 (n : Fin 262144) (k : Fin 32) : val_main_call10_v0 (F := Ideal) (ix2 n k) = 0 := by
  rw [val_main_call10_v0_apply, val_main_call10_cst_apply]
  exact Ideal.ofBits_zero_f32

/-- The first hidden layer. -/
theorem c6_hid0 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (n : Fin 262144) (k : Fin 32) :
    val_main_v216 (F := Ideal) x0 x1 x2 (ix2 n k) = rhid0 (fun i : Fin 32 => x0 (ix2 n i)) (fun a b c : Fin 32 => x1 (ix3 a b c)) (fun a b : Fin 32 => x2 (ix2 a b)) 6 (by norm_num) k := by
  rw [val_main_v216_apply, val_main_v215_apply, val_main_v210_apply, c6_b0]
  refine relu_affine_congr _ _ _ _ (c6_z0 n k) fun i => ?_
  have el : lidx_main_v210 (ix2 n k) i = ix2 n i := funext fun a => by
    match a with
    | ⟨0, _⟩ => rfl
    | ⟨1, _⟩ => rfl
  have er : ridx_main_v210 (ix2 n k) i = ix2 i k := funext fun a => by
    match a with
    | ⟨0, _⟩ => rfl
    | ⟨1, _⟩ => rfl
  rw [el, er, c6_x, c6_w0]

/-- The second layer's weights: row 6 of `ws1`, its first 6 outputs. -/
theorem c6_w1 (x3 : (⟨S32x32x32, .f32⟩ : BufTy).Contents (Elt Ideal)) (k : Fin 32) (c : Fin 6) :
    val_main_v218 (F := Ideal) x3 (ix2 k c) = x3 (ix3 (⟨6, by norm_num⟩ : Fin 32) k (up (d := 6) (by norm_num) c)) := by
  rw [val_main_v218_apply, val_main_v217_apply]
  exact congrArg x3 (funext fun a => by
    match a with
    | ⟨0, _⟩ => rfl
    | ⟨1, _⟩ => exact Fin.ext (by have := k.isLt; have := c.isLt; show (k.val * 6 + c.val) / 6 % 32 = k.val; omega)
    | ⟨2, _⟩ => exact Fin.ext (by have := k.isLt; have := c.isLt; show (k.val * 6 + c.val) % 6 = c.val; omega))

/-- The second layer's bias. -/
theorem c6_b1 (x4 : (⟨S32x32, .f32⟩ : BufTy).Contents (Elt Ideal)) (n : Fin 262144) (c : Fin 6) :
    val_main_v223 (F := Ideal) x4 (ix2 n c) = x4 (ix2 (⟨6, by norm_num⟩ : Fin 32) (up (d := 6) (by norm_num) c)) := by
  rw [val_main_v223_apply, val_main_v222_apply, val_main_v221_apply, val_main_v220_apply]
  exact congrArg x4 (funext fun a => by
    match a with
    | ⟨0, _⟩ => rfl
    | ⟨1, _⟩ => exact Fin.ext (by have := c.isLt; show c.val % 6 = c.val; omega))

theorem c6_z1 (n : Fin 262144) (c : Fin 6) : val_main_call11_v0 (F := Ideal) (ix2 n c) = 0 := by
  rw [val_main_call11_v0_apply, val_main_call11_cst_apply]
  exact Ideal.ofBits_zero_f32

/-- The second hidden layer. -/
theorem c6_hid1 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 6) :
    val_main_v225 (F := Ideal) x0 x1 x2 x3 x4 (ix2 n c)
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 6 (by norm_num) c := by
  rw [val_main_v225_apply, val_main_v224_apply, val_main_v219_apply, c6_b1]
  refine relu_affine_congr _ _ _ _ (c6_z1 n c) fun k => ?_
  have el : lidx_main_v219 (ix2 n c) k = ix2 n k := funext fun a => by
    match a with
    | ⟨0, _⟩ => rfl
    | ⟨1, _⟩ => rfl
  have er : ridx_main_v219 (ix2 n c) k = ix2 k c := funext fun a => by
    match a with
    | ⟨0, _⟩ => rfl
    | ⟨1, _⟩ => rfl
  rw [el, er, c6_hid0, c6_w1]

/-- The last layer's weights on the hidden units: the first 6 rows of `wlast[6]`. -/
theorem c6_wl (x5 : (⟨S32x32x8, .f32⟩ : BufTy).Contents (Elt Ideal)) (c : Fin 6) (h : Fin 8) :
    val_main_v206 (F := Ideal) x5 (ix2 (Fin.castSucc c : Fin 7) h) = x5 (ix3 (⟨6, by norm_num⟩ : Fin 32) (up (d := 6) (by norm_num) c) h) := by
  unfold val_main_v206
  refine (cat_rows_top (val_main_v203 (F := Ideal) x5) (val_main_v205 (F := Ideal) x5) _ c h).trans ?_
  rw [val_main_v203_apply, val_main_v202_apply, val_main_v201_apply]
  exact congrArg x5 (funext fun a => by
    match a with
    | ⟨0, _⟩ => rfl
    | ⟨1, _⟩ => exact Fin.ext (by have := c.isLt; have := h.isLt; show (c.val * 8 + h.val) / 8 % 7 = c.val; omega)
    | ⟨2, _⟩ => exact Fin.ext (by have := c.isLt; have := h.isLt; show (c.val * 8 + h.val) % 8 = h.val; omega))

/-- The last layer's weight on the input x[n, 6]: the exponential of row 6 of `wlast[6]`. -/
theorem c6_we (x5 : (⟨S32x32x8, .f32⟩ : BufTy).Contents (Elt Ideal)) (h : Fin 8) :
    val_main_v206 (F := Ideal) x5 (ix2 (Fin.last 6 : Fin 7) h) = eexp (x5 (ix3 (⟨6, by norm_num⟩ : Fin 32) (⟨6, by norm_num⟩ : Fin 32) h)) := by
  unfold val_main_v206
  refine (cat_rows_last (val_main_v203 (F := Ideal) x5) (val_main_v205 (F := Ideal) x5) _ h).trans ?_
  rw [val_main_v205_apply, val_main_v204_apply, val_main_v202_apply, val_main_v201_apply]
  exact congrArg eexp (congrArg x5 (funext fun a => by
    match a with
    | ⟨0, _⟩ => rfl
    | ⟨1, _⟩ => exact Fin.ext (by have := h.isLt; show (6 * 8 + h.val) / 8 % 7 = 6; omega)
    | ⟨2, _⟩ => exact Fin.ext (by have := h.isLt; show (6 * 8 + h.val) % 8 = h.val; omega)))

/-- The last layer's inputs: hidden unit `c < 6` … -/
theorem c6_xc (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 6) :
    val_main_v227 (F := Ideal) x0 x1 x2 x3 x4 (ix2 n (Fin.castSucc c : Fin 7))
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 6 (by norm_num) c := by
  unfold val_main_v227
  exact (cat_cols_left (val_main_v225 (F := Ideal) x0 x1 x2 x3 x4) (val_main_v226 (F := Ideal) x0) _ n c).trans
    (c6_hid1 x0 x1 x2 x3 x4 n c)

/-- … and, last, the input x[n, 6]. -/
theorem c6_xl (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) :
    val_main_v227 (F := Ideal) x0 x1 x2 x3 x4 (ix2 n (Fin.last 6 : Fin 7)) = x0 (ix2 n (⟨6, by norm_num⟩ : Fin 32)) := by
  unfold val_main_v227
  refine (cat_cols_last (val_main_v225 (F := Ideal) x0 x1 x2 x3 x4) (val_main_v226 (F := Ideal) x0) _ n).trans ?_
  rw [val_main_v226_apply]
  exact congrArg x0 (funext fun a => by
    match a with
    | ⟨0, _⟩ => rfl
    | ⟨1, _⟩ => rfl)

/-- The last layer's bias. -/
theorem c6_bl (x6 : (⟨S32x8, .f32⟩ : BufTy).Contents (Elt Ideal)) (n : Fin 262144) (h : Fin 8) :
    val_main_v232 (F := Ideal) x6 (ix2 n h) = x6 (ix2 (⟨6, by norm_num⟩ : Fin 32) h) := by
  rw [val_main_v232_apply, val_main_v231_apply, val_main_v230_apply, val_main_v229_apply]
  exact congrArg x6 (funext fun a => by
    match a with
    | ⟨0, _⟩ => rfl
    | ⟨1, _⟩ => exact Fin.ext (by have := h.isLt; show h.val % 8 = h.val; omega))

/-- The last layer. -/
theorem c6_lay (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) (h : Fin 8) :
    val_main_v233 (F := Ideal) x0 x1 x2 x3 x4 x5 x6 (ix2 n h)
      = rlay (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 6 (by norm_num) h := by
  rw [val_main_v233_apply, val_main_v228_apply, c6_bl]
  have el : ∀ k : Fin 7, lidx_main_v228 (ix2 n h) k = ix2 n k := fun k => funext fun a => by
    match a with
    | ⟨0, _⟩ => rfl
    | ⟨1, _⟩ => rfl
  have er : ∀ k : Fin 7, ridx_main_v228 (ix2 n h) k = ix2 k h := fun k => funext fun a => by
    match a with
    | ⟨0, _⟩ => rfl
    | ⟨1, _⟩ => rfl
  refine lay_congr (d := 6) _ _ _ _ (fun c => ?_) ?_
  · rw [el, er, c6_xc, c6_wl]
  · rw [el, er, c6_xl, c6_we]

/-- **Component 6** of the reference at row `n`. -/
theorem comp_6 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v237 (F := Ideal) x0 x1 x2 x3 x4 x5 x6 (ix2 n (0 : Fin 1))
      = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 6 (by norm_num) := by
  rw [val_main_v237_apply]
  have e : idx_main_v237 (ix2 n (0 : Fin 1)) = ix1 n := funext fun a => by
    match a with
    | ⟨0, _⟩ => rfl
  rw [e]
  unfold val_main_v236 val_main_v235 refOut
  refine (pool_read (val_main_v234 (F := Ideal) x0 x1 x2 x3 x4 x5 x6) (val_main_cst_11 (F := Ideal)) (val_main_cst_12 (F := Ideal))
    _ _ _ rfl rfl n (fun h => val_main_v233 (F := Ideal) x0 x1 x2 x3 x4 x5 x6 (ix2 n h)) (fun g p => ?_)).trans ?_
  · rw [val_main_v234_apply]
    exact congrArg (val_main_v233 (F := Ideal) x0 x1 x2 x3 x4 x5 x6) (funext fun a => by
      match a with
      | ⟨0, _⟩ => exact Fin.ext (by have := g.isLt; have := p.isLt; show ((n.val * 4 + g.val) * 2 + p.val) / 8 = n.val; omega)
      | ⟨1, _⟩ => exact Fin.ext (by have := g.isLt; have := p.isLt; show ((n.val * 4 + g.val) * 2 + p.val) % 8 = 2 * g.val + p.val; omega))
  · exact congrArg pool (funext fun h => c6_lay x0 x1 x2 x3 x4 x5 x6 n h)

/-! ## Component 7

Its 7 earlier inputs x[n, i], i < 7, go through the two hidden layers (weights ws0[7, i, k], bs0[7, k] and
ws1[7, k, c], bs1[7, c] for c < 7); the last layer adds the input x[n, 7] itself, weighted by the exponential
of wlast[7, 7, h]. -/

/-- The earlier inputs: column `i < 7` of the row. -/
theorem c7_x (x0 : (⟨S262144x32, .f32⟩ : BufTy).Contents (Elt Ideal)) (n : Fin 262144) (i : Fin 7) :
    val_main_v244 (F := Ideal) x0 (ix2 n i) = x0 (ix2 n (up (d := 7) (by norm_num) i)) :=
  (val_main_v244_apply x0 _).trans (congrArg x0 (funext fun a => by
    match a with
    | ⟨0, _⟩ => rfl
    | ⟨1, _⟩ => rfl))

/-- The first layer's weights: row 7 of `ws0`, its first 7 inputs. -/
theorem c7_w0 (x1 : (⟨S32x32x32, .f32⟩ : BufTy).Contents (Elt Ideal)) (i : Fin 7) (k : Fin 32) :
    val_main_v246 (F := Ideal) x1 (ix2 i k) = x1 (ix3 (⟨7, by norm_num⟩ : Fin 32) (up (d := 7) (by norm_num) i) k) := by
  rw [val_main_v246_apply, val_main_v245_apply]
  exact congrArg x1 (funext fun a => by
    match a with
    | ⟨0, _⟩ => rfl
    | ⟨1, _⟩ => exact Fin.ext (by have := i.isLt; have := k.isLt; show (i.val * 32 + k.val) / 32 % 7 = i.val; omega)
    | ⟨2, _⟩ => exact Fin.ext (by have := i.isLt; have := k.isLt; show (i.val * 32 + k.val) % 32 = k.val; omega))

/-- The first layer's bias, the same in every row. -/
theorem c7_b0 (x2 : (⟨S32x32, .f32⟩ : BufTy).Contents (Elt Ideal)) (n : Fin 262144) (k : Fin 32) :
    val_main_v251 (F := Ideal) x2 (ix2 n k) = x2 (ix2 (⟨7, by norm_num⟩ : Fin 32) k) := by
  rw [val_main_v251_apply, val_main_v250_apply, val_main_v249_apply, val_main_v248_apply]
  exact congrArg x2 (funext fun a => by
    match a with
    | ⟨0, _⟩ => rfl
    | ⟨1, _⟩ => exact Fin.ext (by have := k.isLt; show k.val % 32 = k.val; omega))

theorem c7_z0 (n : Fin 262144) (k : Fin 32) : val_main_call12_v0 (F := Ideal) (ix2 n k) = 0 := by
  rw [val_main_call12_v0_apply, val_main_call12_cst_apply]
  exact Ideal.ofBits_zero_f32

/-- The first hidden layer. -/
theorem c7_hid0 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (n : Fin 262144) (k : Fin 32) :
    val_main_v253 (F := Ideal) x0 x1 x2 (ix2 n k) = rhid0 (fun i : Fin 32 => x0 (ix2 n i)) (fun a b c : Fin 32 => x1 (ix3 a b c)) (fun a b : Fin 32 => x2 (ix2 a b)) 7 (by norm_num) k := by
  rw [val_main_v253_apply, val_main_v252_apply, val_main_v247_apply, c7_b0]
  refine relu_affine_congr _ _ _ _ (c7_z0 n k) fun i => ?_
  have el : lidx_main_v247 (ix2 n k) i = ix2 n i := funext fun a => by
    match a with
    | ⟨0, _⟩ => rfl
    | ⟨1, _⟩ => rfl
  have er : ridx_main_v247 (ix2 n k) i = ix2 i k := funext fun a => by
    match a with
    | ⟨0, _⟩ => rfl
    | ⟨1, _⟩ => rfl
  rw [el, er, c7_x, c7_w0]

/-- The second layer's weights: row 7 of `ws1`, its first 7 outputs. -/
theorem c7_w1 (x3 : (⟨S32x32x32, .f32⟩ : BufTy).Contents (Elt Ideal)) (k : Fin 32) (c : Fin 7) :
    val_main_v255 (F := Ideal) x3 (ix2 k c) = x3 (ix3 (⟨7, by norm_num⟩ : Fin 32) k (up (d := 7) (by norm_num) c)) := by
  rw [val_main_v255_apply, val_main_v254_apply]
  exact congrArg x3 (funext fun a => by
    match a with
    | ⟨0, _⟩ => rfl
    | ⟨1, _⟩ => exact Fin.ext (by have := k.isLt; have := c.isLt; show (k.val * 7 + c.val) / 7 % 32 = k.val; omega)
    | ⟨2, _⟩ => exact Fin.ext (by have := k.isLt; have := c.isLt; show (k.val * 7 + c.val) % 7 = c.val; omega))

/-- The second layer's bias. -/
theorem c7_b1 (x4 : (⟨S32x32, .f32⟩ : BufTy).Contents (Elt Ideal)) (n : Fin 262144) (c : Fin 7) :
    val_main_v260 (F := Ideal) x4 (ix2 n c) = x4 (ix2 (⟨7, by norm_num⟩ : Fin 32) (up (d := 7) (by norm_num) c)) := by
  rw [val_main_v260_apply, val_main_v259_apply, val_main_v258_apply, val_main_v257_apply]
  exact congrArg x4 (funext fun a => by
    match a with
    | ⟨0, _⟩ => rfl
    | ⟨1, _⟩ => exact Fin.ext (by have := c.isLt; show c.val % 7 = c.val; omega))

theorem c7_z1 (n : Fin 262144) (c : Fin 7) : val_main_call13_v0 (F := Ideal) (ix2 n c) = 0 := by
  rw [val_main_call13_v0_apply, val_main_call13_cst_apply]
  exact Ideal.ofBits_zero_f32

/-- The second hidden layer. -/
theorem c7_hid1 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 7) :
    val_main_v262 (F := Ideal) x0 x1 x2 x3 x4 (ix2 n c)
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 7 (by norm_num) c := by
  rw [val_main_v262_apply, val_main_v261_apply, val_main_v256_apply, c7_b1]
  refine relu_affine_congr _ _ _ _ (c7_z1 n c) fun k => ?_
  have el : lidx_main_v256 (ix2 n c) k = ix2 n k := funext fun a => by
    match a with
    | ⟨0, _⟩ => rfl
    | ⟨1, _⟩ => rfl
  have er : ridx_main_v256 (ix2 n c) k = ix2 k c := funext fun a => by
    match a with
    | ⟨0, _⟩ => rfl
    | ⟨1, _⟩ => rfl
  rw [el, er, c7_hid0, c7_w1]

/-- The last layer's weights on the hidden units: the first 7 rows of `wlast[7]`. -/
theorem c7_wl (x5 : (⟨S32x32x8, .f32⟩ : BufTy).Contents (Elt Ideal)) (c : Fin 7) (h : Fin 8) :
    val_main_v243 (F := Ideal) x5 (ix2 (Fin.castSucc c : Fin 8) h) = x5 (ix3 (⟨7, by norm_num⟩ : Fin 32) (up (d := 7) (by norm_num) c) h) := by
  unfold val_main_v243
  refine (cat_rows_top (val_main_v240 (F := Ideal) x5) (val_main_v242 (F := Ideal) x5) _ c h).trans ?_
  rw [val_main_v240_apply, val_main_v239_apply, val_main_v238_apply]
  exact congrArg x5 (funext fun a => by
    match a with
    | ⟨0, _⟩ => rfl
    | ⟨1, _⟩ => exact Fin.ext (by have := c.isLt; have := h.isLt; show (c.val * 8 + h.val) / 8 % 8 = c.val; omega)
    | ⟨2, _⟩ => exact Fin.ext (by have := c.isLt; have := h.isLt; show (c.val * 8 + h.val) % 8 = h.val; omega))

/-- The last layer's weight on the input x[n, 7]: the exponential of row 7 of `wlast[7]`. -/
theorem c7_we (x5 : (⟨S32x32x8, .f32⟩ : BufTy).Contents (Elt Ideal)) (h : Fin 8) :
    val_main_v243 (F := Ideal) x5 (ix2 (Fin.last 7 : Fin 8) h) = eexp (x5 (ix3 (⟨7, by norm_num⟩ : Fin 32) (⟨7, by norm_num⟩ : Fin 32) h)) := by
  unfold val_main_v243
  refine (cat_rows_last (val_main_v240 (F := Ideal) x5) (val_main_v242 (F := Ideal) x5) _ h).trans ?_
  rw [val_main_v242_apply, val_main_v241_apply, val_main_v239_apply, val_main_v238_apply]
  exact congrArg eexp (congrArg x5 (funext fun a => by
    match a with
    | ⟨0, _⟩ => rfl
    | ⟨1, _⟩ => exact Fin.ext (by have := h.isLt; show (7 * 8 + h.val) / 8 % 8 = 7; omega)
    | ⟨2, _⟩ => exact Fin.ext (by have := h.isLt; show (7 * 8 + h.val) % 8 = h.val; omega)))

/-- The last layer's inputs: hidden unit `c < 7` … -/
theorem c7_xc (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 7) :
    val_main_v264 (F := Ideal) x0 x1 x2 x3 x4 (ix2 n (Fin.castSucc c : Fin 8))
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 7 (by norm_num) c := by
  unfold val_main_v264
  exact (cat_cols_left (val_main_v262 (F := Ideal) x0 x1 x2 x3 x4) (val_main_v263 (F := Ideal) x0) _ n c).trans
    (c7_hid1 x0 x1 x2 x3 x4 n c)

/-- … and, last, the input x[n, 7]. -/
theorem c7_xl (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) :
    val_main_v264 (F := Ideal) x0 x1 x2 x3 x4 (ix2 n (Fin.last 7 : Fin 8)) = x0 (ix2 n (⟨7, by norm_num⟩ : Fin 32)) := by
  unfold val_main_v264
  refine (cat_cols_last (val_main_v262 (F := Ideal) x0 x1 x2 x3 x4) (val_main_v263 (F := Ideal) x0) _ n).trans ?_
  rw [val_main_v263_apply]
  exact congrArg x0 (funext fun a => by
    match a with
    | ⟨0, _⟩ => rfl
    | ⟨1, _⟩ => rfl)

/-- The last layer's bias. -/
theorem c7_bl (x6 : (⟨S32x8, .f32⟩ : BufTy).Contents (Elt Ideal)) (n : Fin 262144) (h : Fin 8) :
    val_main_v269 (F := Ideal) x6 (ix2 n h) = x6 (ix2 (⟨7, by norm_num⟩ : Fin 32) h) := by
  rw [val_main_v269_apply, val_main_v268_apply, val_main_v267_apply, val_main_v266_apply]
  exact congrArg x6 (funext fun a => by
    match a with
    | ⟨0, _⟩ => rfl
    | ⟨1, _⟩ => exact Fin.ext (by have := h.isLt; show h.val % 8 = h.val; omega))

/-- The last layer. -/
theorem c7_lay (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) (h : Fin 8) :
    val_main_v270 (F := Ideal) x0 x1 x2 x3 x4 x5 x6 (ix2 n h)
      = rlay (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 7 (by norm_num) h := by
  rw [val_main_v270_apply, val_main_v265_apply, c7_bl]
  have el : ∀ k : Fin 8, lidx_main_v265 (ix2 n h) k = ix2 n k := fun k => funext fun a => by
    match a with
    | ⟨0, _⟩ => rfl
    | ⟨1, _⟩ => rfl
  have er : ∀ k : Fin 8, ridx_main_v265 (ix2 n h) k = ix2 k h := fun k => funext fun a => by
    match a with
    | ⟨0, _⟩ => rfl
    | ⟨1, _⟩ => rfl
  refine lay_congr (d := 7) _ _ _ _ (fun c => ?_) ?_
  · rw [el, er, c7_xc, c7_wl]
  · rw [el, er, c7_xl, c7_we]

/-- **Component 7** of the reference at row `n`. -/
theorem comp_7 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v274 (F := Ideal) x0 x1 x2 x3 x4 x5 x6 (ix2 n (0 : Fin 1))
      = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 7 (by norm_num) := by
  rw [val_main_v274_apply]
  have e : idx_main_v274 (ix2 n (0 : Fin 1)) = ix1 n := funext fun a => by
    match a with
    | ⟨0, _⟩ => rfl
  rw [e]
  unfold val_main_v273 val_main_v272 refOut
  refine (pool_read (val_main_v271 (F := Ideal) x0 x1 x2 x3 x4 x5 x6) (val_main_cst_13 (F := Ideal)) (val_main_cst_14 (F := Ideal))
    _ _ _ rfl rfl n (fun h => val_main_v270 (F := Ideal) x0 x1 x2 x3 x4 x5 x6 (ix2 n h)) (fun g p => ?_)).trans ?_
  · rw [val_main_v271_apply]
    exact congrArg (val_main_v270 (F := Ideal) x0 x1 x2 x3 x4 x5 x6) (funext fun a => by
      match a with
      | ⟨0, _⟩ => exact Fin.ext (by have := g.isLt; have := p.isLt; show ((n.val * 4 + g.val) * 2 + p.val) / 8 = n.val; omega)
      | ⟨1, _⟩ => exact Fin.ext (by have := g.isLt; have := p.isLt; show ((n.val * 4 + g.val) * 2 + p.val) % 8 = 2 * g.val + p.val; omega))
  · exact congrArg pool (funext fun h => c7_lay x0 x1 x2 x3 x4 x5 x6 n h)

end Cert.Monotone.Ref

end
-- ==== Proof.RefComp1.lean ====
/-
  The reference's components 8 … 15, each read stage by stage at a row `n` and identified with the
  specification's `refOut`. A component's column of the result is the pooling of its last layer; the last layer is read
  through the two joins (the exponentiated last weight row under the earlier rows; the component's own input after the
  hidden units), the hidden layers through their products and rectifiers.
-/
import proofs.«166035_j57586921505191_2_alg».proof.Proof.ReadP
import proofs.«166035_j57586921505191_2_alg».proof.Proof.RefLib

noncomputable section

namespace Cert.Monotone.Ref

open Cert.ReferenceIdeal Cert.ReferenceIdeal.Read Cert.ReferenceIdeal.Gen Idealize.ShloMosaic Idealize.ShloMosaic.ValueIdx Cert.Monotone

/-! ## Component 8

Its 8 earlier inputs x[n, i], i < 8, go through the two hidden layers (weights ws0[8, i, k], bs0[8, k] and
ws1[8, k, c], bs1[8, c] for c < 8); the last layer adds the input x[n, 8] itself, weighted by the exponential
of wlast[8, 8, h]. -/

/-- The earlier inputs: column `i < 8` of the row. -/
theorem c8_x (x0 : (⟨S262144x32, .f32⟩ : BufTy).Contents (Elt Ideal)) (n : Fin 262144) (i : Fin 8) :
    val_main_v281 (F := Ideal) x0 (ix2 n i) = x0 (ix2 n (up (d := 8) (by norm_num) i)) :=
  (val_main_v281_apply x0 _).trans (congrArg x0 (funext fun a => by
    match a with
    | ⟨0, _⟩ => rfl
    | ⟨1, _⟩ => rfl))

/-- The first layer's weights: row 8 of `ws0`, its first 8 inputs. -/
theorem c8_w0 (x1 : (⟨S32x32x32, .f32⟩ : BufTy).Contents (Elt Ideal)) (i : Fin 8) (k : Fin 32) :
    val_main_v283 (F := Ideal) x1 (ix2 i k) = x1 (ix3 (⟨8, by norm_num⟩ : Fin 32) (up (d := 8) (by norm_num) i) k) := by
  rw [val_main_v283_apply, val_main_v282_apply]
  exact congrArg x1 (funext fun a => by
    match a with
    | ⟨0, _⟩ => rfl
    | ⟨1, _⟩ => exact Fin.ext (by have := i.isLt; have := k.isLt; show (i.val * 32 + k.val) / 32 % 8 = i.val; omega)
    | ⟨2, _⟩ => exact Fin.ext (by have := i.isLt; have := k.isLt; show (i.val * 32 + k.val) % 32 = k.val; omega))

/-- The first layer's bias, the same in every row. -/
theorem c8_b0 (x2 : (⟨S32x32, .f32⟩ : BufTy).Contents (Elt Ideal)) (n : Fin 262144) (k : Fin 32) :
    val_main_v288 (F := Ideal) x2 (ix2 n k) = x2 (ix2 (⟨8, by norm_num⟩ : Fin 32) k) := by
  rw [val_main_v288_apply, val_main_v287_apply, val_main_v286_apply, val_main_v285_apply]
  exact congrArg x2 (funext fun a => by
    match a with
    | ⟨0, _⟩ => rfl
    | ⟨1, _⟩ => exact Fin.ext (by have := k.isLt; show k.val % 32 = k.val; omega))

theorem c8_z0 (n : Fin 262144) (k : Fin 32) : val_main_call14_v0 (F := Ideal) (ix2 n k) = 0 := by
  rw [val_main_call14_v0_apply, val_main_call14_cst_apply]
  exact Ideal.ofBits_zero_f32

/-- The first hidden layer. -/
theorem c8_hid0 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (n : Fin 262144) (k : Fin 32) :
    val_main_v290 (F := Ideal) x0 x1 x2 (ix2 n k) = rhid0 (fun i : Fin 32 => x0 (ix2 n i)) (fun a b c : Fin 32 => x1 (ix3 a b c)) (fun a b : Fin 32 => x2 (ix2 a b)) 8 (by norm_num) k := by
  rw [val_main_v290_apply, val_main_v289_apply, val_main_v284_apply, c8_b0]
  refine relu_affine_congr _ _ _ _ (c8_z0 n k) fun i => ?_
  have el : lidx_main_v284 (ix2 n k) i = ix2 n i := funext fun a => by
    match a with
    | ⟨0, _⟩ => rfl
    | ⟨1, _⟩ => rfl
  have er : ridx_main_v284 (ix2 n k) i = ix2 i k := funext fun a => by
    match a with
    | ⟨0, _⟩ => rfl
    | ⟨1, _⟩ => rfl
  rw [el, er, c8_x, c8_w0]

/-- The second layer's weights: row 8 of `ws1`, its first 8 outputs. -/
theorem c8_w1 (x3 : (⟨S32x32x32, .f32⟩ : BufTy).Contents (Elt Ideal)) (k : Fin 32) (c : Fin 8) :
    val_main_v292 (F := Ideal) x3 (ix2 k c) = x3 (ix3 (⟨8, by norm_num⟩ : Fin 32) k (up (d := 8) (by norm_num) c)) := by
  rw [val_main_v292_apply, val_main_v291_apply]
  exact congrArg x3 (funext fun a => by
    match a with
    | ⟨0, _⟩ => rfl
    | ⟨1, _⟩ => exact Fin.ext (by have := k.isLt; have := c.isLt; show (k.val * 8 + c.val) / 8 % 32 = k.val; omega)
    | ⟨2, _⟩ => exact Fin.ext (by have := k.isLt; have := c.isLt; show (k.val * 8 + c.val) % 8 = c.val; omega))

/-- The second layer's bias. -/
theorem c8_b1 (x4 : (⟨S32x32, .f32⟩ : BufTy).Contents (Elt Ideal)) (n : Fin 262144) (c : Fin 8) :
    val_main_v297 (F := Ideal) x4 (ix2 n c) = x4 (ix2 (⟨8, by norm_num⟩ : Fin 32) (up (d := 8) (by norm_num) c)) := by
  rw [val_main_v297_apply, val_main_v296_apply, val_main_v295_apply, val_main_v294_apply]
  exact congrArg x4 (funext fun a => by
    match a with
    | ⟨0, _⟩ => rfl
    | ⟨1, _⟩ => exact Fin.ext (by have := c.isLt; show c.val % 8 = c.val; omega))

theorem c8_z1 (n : Fin 262144) (c : Fin 8) : val_main_call15_v0 (F := Ideal) (ix2 n c) = 0 := by
  rw [val_main_call15_v0_apply, val_main_call15_cst_apply]
  exact Ideal.ofBits_zero_f32

/-- The second hidden layer. -/
theorem c8_hid1 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 8) :
    val_main_v299 (F := Ideal) x0 x1 x2 x3 x4 (ix2 n c)
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 8 (by norm_num) c := by
  rw [val_main_v299_apply, val_main_v298_apply, val_main_v293_apply, c8_b1]
  refine relu_affine_congr _ _ _ _ (c8_z1 n c) fun k => ?_
  have el : lidx_main_v293 (ix2 n c) k = ix2 n k := funext fun a => by
    match a with
    | ⟨0, _⟩ => rfl
    | ⟨1, _⟩ => rfl
  have er : ridx_main_v293 (ix2 n c) k = ix2 k c := funext fun a => by
    match a with
    | ⟨0, _⟩ => rfl
    | ⟨1, _⟩ => rfl
  rw [el, er, c8_hid0, c8_w1]

/-- The last layer's weights on the hidden units: the first 8 rows of `wlast[8]`. -/
theorem c8_wl (x5 : (⟨S32x32x8, .f32⟩ : BufTy).Contents (Elt Ideal)) (c : Fin 8) (h : Fin 8) :
    val_main_v280 (F := Ideal) x5 (ix2 (Fin.castSucc c : Fin 9) h) = x5 (ix3 (⟨8, by norm_num⟩ : Fin 32) (up (d := 8) (by norm_num) c) h) := by
  unfold val_main_v280
  refine (cat_rows_top (val_main_v277 (F := Ideal) x5) (val_main_v279 (F := Ideal) x5) _ c h).trans ?_
  rw [val_main_v277_apply, val_main_v276_apply, val_main_v275_apply]
  exact congrArg x5 (funext fun a => by
    match a with
    | ⟨0, _⟩ => rfl
    | ⟨1, _⟩ => exact Fin.ext (by have := c.isLt; have := h.isLt; show (c.val * 8 + h.val) / 8 % 9 = c.val; omega)
    | ⟨2, _⟩ => exact Fin.ext (by have := c.isLt; have := h.isLt; show (c.val * 8 + h.val) % 8 = h.val; omega))

/-- The last layer's weight on the input x[n, 8]: the exponential of row 8 of `wlast[8]`. -/
theorem c8_we (x5 : (⟨S32x32x8, .f32⟩ : BufTy).Contents (Elt Ideal)) (h : Fin 8) :
    val_main_v280 (F := Ideal) x5 (ix2 (Fin.last 8 : Fin 9) h) = eexp (x5 (ix3 (⟨8, by norm_num⟩ : Fin 32) (⟨8, by norm_num⟩ : Fin 32) h)) := by
  unfold val_main_v280
  refine (cat_rows_last (val_main_v277 (F := Ideal) x5) (val_main_v279 (F := Ideal) x5) _ h).trans ?_
  rw [val_main_v279_apply, val_main_v278_apply, val_main_v276_apply, val_main_v275_apply]
  exact congrArg eexp (congrArg x5 (funext fun a => by
    match a with
    | ⟨0, _⟩ => rfl
    | ⟨1, _⟩ => exact Fin.ext (by have := h.isLt; show (8 * 8 + h.val) / 8 % 9 = 8; omega)
    | ⟨2, _⟩ => exact Fin.ext (by have := h.isLt; show (8 * 8 + h.val) % 8 = h.val; omega)))

/-- The last layer's inputs: hidden unit `c < 8` … -/
theorem c8_xc (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 8) :
    val_main_v301 (F := Ideal) x0 x1 x2 x3 x4 (ix2 n (Fin.castSucc c : Fin 9))
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 8 (by norm_num) c := by
  unfold val_main_v301
  exact (cat_cols_left (val_main_v299 (F := Ideal) x0 x1 x2 x3 x4) (val_main_v300 (F := Ideal) x0) _ n c).trans
    (c8_hid1 x0 x1 x2 x3 x4 n c)

/-- … and, last, the input x[n, 8]. -/
theorem c8_xl (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) :
    val_main_v301 (F := Ideal) x0 x1 x2 x3 x4 (ix2 n (Fin.last 8 : Fin 9)) = x0 (ix2 n (⟨8, by norm_num⟩ : Fin 32)) := by
  unfold val_main_v301
  refine (cat_cols_last (val_main_v299 (F := Ideal) x0 x1 x2 x3 x4) (val_main_v300 (F := Ideal) x0) _ n).trans ?_
  rw [val_main_v300_apply]
  exact congrArg x0 (funext fun a => by
    match a with
    | ⟨0, _⟩ => rfl
    | ⟨1, _⟩ => rfl)

/-- The last layer's bias. -/
theorem c8_bl (x6 : (⟨S32x8, .f32⟩ : BufTy).Contents (Elt Ideal)) (n : Fin 262144) (h : Fin 8) :
    val_main_v306 (F := Ideal) x6 (ix2 n h) = x6 (ix2 (⟨8, by norm_num⟩ : Fin 32) h) := by
  rw [val_main_v306_apply, val_main_v305_apply, val_main_v304_apply, val_main_v303_apply]
  exact congrArg x6 (funext fun a => by
    match a with
    | ⟨0, _⟩ => rfl
    | ⟨1, _⟩ => exact Fin.ext (by have := h.isLt; show h.val % 8 = h.val; omega))

/-- The last layer. -/
theorem c8_lay (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) (h : Fin 8) :
    val_main_v307 (F := Ideal) x0 x1 x2 x3 x4 x5 x6 (ix2 n h)
      = rlay (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 8 (by norm_num) h := by
  rw [val_main_v307_apply, val_main_v302_apply, c8_bl]
  have el : ∀ k : Fin 9, lidx_main_v302 (ix2 n h) k = ix2 n k := fun k => funext fun a => by
    match a with
    | ⟨0, _⟩ => rfl
    | ⟨1, _⟩ => rfl
  have er : ∀ k : Fin 9, ridx_main_v302 (ix2 n h) k = ix2 k h := fun k => funext fun a => by
    match a with
    | ⟨0, _⟩ => rfl
    | ⟨1, _⟩ => rfl
  refine lay_congr (d := 8) _ _ _ _ (fun c => ?_) ?_
  · rw [el, er, c8_xc, c8_wl]
  · rw [el, er, c8_xl, c8_we]

/-- **Component 8** of the reference at row `n`. -/
theorem comp_8 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v311 (F := Ideal) x0 x1 x2 x3 x4 x5 x6 (ix2 n (0 : Fin 1))
      = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 8 (by norm_num) := by
  rw [val_main_v311_apply]
  have e : idx_main_v311 (ix2 n (0 : Fin 1)) = ix1 n := funext fun a => by
    match a with
    | ⟨0, _⟩ => rfl
  rw [e]
  unfold val_main_v310 val_main_v309 refOut
  refine (pool_read (val_main_v308 (F := Ideal) x0 x1 x2 x3 x4 x5 x6) (val_main_cst_15 (F := Ideal)) (val_main_cst_16 (F := Ideal))
    _ _ _ rfl rfl n (fun h => val_main_v307 (F := Ideal) x0 x1 x2 x3 x4 x5 x6 (ix2 n h)) (fun g p => ?_)).trans ?_
  · rw [val_main_v308_apply]
    exact congrArg (val_main_v307 (F := Ideal) x0 x1 x2 x3 x4 x5 x6) (funext fun a => by
      match a with
      | ⟨0, _⟩ => exact Fin.ext (by have := g.isLt; have := p.isLt; show ((n.val * 4 + g.val) * 2 + p.val) / 8 = n.val; omega)
      | ⟨1, _⟩ => exact Fin.ext (by have := g.isLt; have := p.isLt; show ((n.val * 4 + g.val) * 2 + p.val) % 8 = 2 * g.val + p.val; omega))
  · exact congrArg pool (funext fun h => c8_lay x0 x1 x2 x3 x4 x5 x6 n h)

/-! ## Component 9

Its 9 earlier inputs x[n, i], i < 9, go through the two hidden layers (weights ws0[9, i, k], bs0[9, k] and
ws1[9, k, c], bs1[9, c] for c < 9); the last layer adds the input x[n, 9] itself, weighted by the exponential
of wlast[9, 9, h]. -/

/-- The earlier inputs: column `i < 9` of the row. -/
theorem c9_x (x0 : (⟨S262144x32, .f32⟩ : BufTy).Contents (Elt Ideal)) (n : Fin 262144) (i : Fin 9) :
    val_main_v318 (F := Ideal) x0 (ix2 n i) = x0 (ix2 n (up (d := 9) (by norm_num) i)) :=
  (val_main_v318_apply x0 _).trans (congrArg x0 (funext fun a => by
    match a with
    | ⟨0, _⟩ => rfl
    | ⟨1, _⟩ => rfl))

/-- The first layer's weights: row 9 of `ws0`, its first 9 inputs. -/
theorem c9_w0 (x1 : (⟨S32x32x32, .f32⟩ : BufTy).Contents (Elt Ideal)) (i : Fin 9) (k : Fin 32) :
    val_main_v320 (F := Ideal) x1 (ix2 i k) = x1 (ix3 (⟨9, by norm_num⟩ : Fin 32) (up (d := 9) (by norm_num) i) k) := by
  rw [val_main_v320_apply, val_main_v319_apply]
  exact congrArg x1 (funext fun a => by
    match a with
    | ⟨0, _⟩ => rfl
    | ⟨1, _⟩ => exact Fin.ext (by have := i.isLt; have := k.isLt; show (i.val * 32 + k.val) / 32 % 9 = i.val; omega)
    | ⟨2, _⟩ => exact Fin.ext (by have := i.isLt; have := k.isLt; show (i.val * 32 + k.val) % 32 = k.val; omega))

/-- The first layer's bias, the same in every row. -/
theorem c9_b0 (x2 : (⟨S32x32, .f32⟩ : BufTy).Contents (Elt Ideal)) (n : Fin 262144) (k : Fin 32) :
    val_main_v325 (F := Ideal) x2 (ix2 n k) = x2 (ix2 (⟨9, by norm_num⟩ : Fin 32) k) := by
  rw [val_main_v325_apply, val_main_v324_apply, val_main_v323_apply, val_main_v322_apply]
  exact congrArg x2 (funext fun a => by
    match a with
    | ⟨0, _⟩ => rfl
    | ⟨1, _⟩ => exact Fin.ext (by have := k.isLt; show k.val % 32 = k.val; omega))

theorem c9_z0 (n : Fin 262144) (k : Fin 32) : val_main_call16_v0 (F := Ideal) (ix2 n k) = 0 := by
  rw [val_main_call16_v0_apply, val_main_call16_cst_apply]
  exact Ideal.ofBits_zero_f32

/-- The first hidden layer. -/
theorem c9_hid0 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (n : Fin 262144) (k : Fin 32) :
    val_main_v327 (F := Ideal) x0 x1 x2 (ix2 n k) = rhid0 (fun i : Fin 32 => x0 (ix2 n i)) (fun a b c : Fin 32 => x1 (ix3 a b c)) (fun a b : Fin 32 => x2 (ix2 a b)) 9 (by norm_num) k := by
  rw [val_main_v327_apply, val_main_v326_apply, val_main_v321_apply, c9_b0]
  refine relu_affine_congr _ _ _ _ (c9_z0 n k) fun i => ?_
  have el : lidx_main_v321 (ix2 n k) i = ix2 n i := funext fun a => by
    match a with
    | ⟨0, _⟩ => rfl
    | ⟨1, _⟩ => rfl
  have er : ridx_main_v321 (ix2 n k) i = ix2 i k := funext fun a => by
    match a with
    | ⟨0, _⟩ => rfl
    | ⟨1, _⟩ => rfl
  rw [el, er, c9_x, c9_w0]

/-- The second layer's weights: row 9 of `ws1`, its first 9 outputs. -/
theorem c9_w1 (x3 : (⟨S32x32x32, .f32⟩ : BufTy).Contents (Elt Ideal)) (k : Fin 32) (c : Fin 9) :
    val_main_v329 (F := Ideal) x3 (ix2 k c) = x3 (ix3 (⟨9, by norm_num⟩ : Fin 32) k (up (d := 9) (by norm_num) c)) := by
  rw [val_main_v329_apply, val_main_v328_apply]
  exact congrArg x3 (funext fun a => by
    match a with
    | ⟨0, _⟩ => rfl
    | ⟨1, _⟩ => exact Fin.ext (by have := k.isLt; have := c.isLt; show (k.val * 9 + c.val) / 9 % 32 = k.val; omega)
    | ⟨2, _⟩ => exact Fin.ext (by have := k.isLt; have := c.isLt; show (k.val * 9 + c.val) % 9 = c.val; omega))

/-- The second layer's bias. -/
theorem c9_b1 (x4 : (⟨S32x32, .f32⟩ : BufTy).Contents (Elt Ideal)) (n : Fin 262144) (c : Fin 9) :
    val_main_v334 (F := Ideal) x4 (ix2 n c) = x4 (ix2 (⟨9, by norm_num⟩ : Fin 32) (up (d := 9) (by norm_num) c)) := by
  rw [val_main_v334_apply, val_main_v333_apply, val_main_v332_apply, val_main_v331_apply]
  exact congrArg x4 (funext fun a => by
    match a with
    | ⟨0, _⟩ => rfl
    | ⟨1, _⟩ => exact Fin.ext (by have := c.isLt; show c.val % 9 = c.val; omega))

theorem c9_z1 (n : Fin 262144) (c : Fin 9) : val_main_call17_v0 (F := Ideal) (ix2 n c) = 0 := by
  rw [val_main_call17_v0_apply, val_main_call17_cst_apply]
  exact Ideal.ofBits_zero_f32

/-- The second hidden layer. -/
theorem c9_hid1 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 9) :
    val_main_v336 (F := Ideal) x0 x1 x2 x3 x4 (ix2 n c)
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 9 (by norm_num) c := by
  rw [val_main_v336_apply, val_main_v335_apply, val_main_v330_apply, c9_b1]
  refine relu_affine_congr _ _ _ _ (c9_z1 n c) fun k => ?_
  have el : lidx_main_v330 (ix2 n c) k = ix2 n k := funext fun a => by
    match a with
    | ⟨0, _⟩ => rfl
    | ⟨1, _⟩ => rfl
  have er : ridx_main_v330 (ix2 n c) k = ix2 k c := funext fun a => by
    match a with
    | ⟨0, _⟩ => rfl
    | ⟨1, _⟩ => rfl
  rw [el, er, c9_hid0, c9_w1]

/-- The last layer's weights on the hidden units: the first 9 rows of `wlast[9]`. -/
theorem c9_wl (x5 : (⟨S32x32x8, .f32⟩ : BufTy).Contents (Elt Ideal)) (c : Fin 9) (h : Fin 8) :
    val_main_v317 (F := Ideal) x5 (ix2 (Fin.castSucc c : Fin 10) h) = x5 (ix3 (⟨9, by norm_num⟩ : Fin 32) (up (d := 9) (by norm_num) c) h) := by
  unfold val_main_v317
  refine (cat_rows_top (val_main_v314 (F := Ideal) x5) (val_main_v316 (F := Ideal) x5) _ c h).trans ?_
  rw [val_main_v314_apply, val_main_v313_apply, val_main_v312_apply]
  exact congrArg x5 (funext fun a => by
    match a with
    | ⟨0, _⟩ => rfl
    | ⟨1, _⟩ => exact Fin.ext (by have := c.isLt; have := h.isLt; show (c.val * 8 + h.val) / 8 % 10 = c.val; omega)
    | ⟨2, _⟩ => exact Fin.ext (by have := c.isLt; have := h.isLt; show (c.val * 8 + h.val) % 8 = h.val; omega))

/-- The last layer's weight on the input x[n, 9]: the exponential of row 9 of `wlast[9]`. -/
theorem c9_we (x5 : (⟨S32x32x8, .f32⟩ : BufTy).Contents (Elt Ideal)) (h : Fin 8) :
    val_main_v317 (F := Ideal) x5 (ix2 (Fin.last 9 : Fin 10) h) = eexp (x5 (ix3 (⟨9, by norm_num⟩ : Fin 32) (⟨9, by norm_num⟩ : Fin 32) h)) := by
  unfold val_main_v317
  refine (cat_rows_last (val_main_v314 (F := Ideal) x5) (val_main_v316 (F := Ideal) x5) _ h).trans ?_
  rw [val_main_v316_apply, val_main_v315_apply, val_main_v313_apply, val_main_v312_apply]
  exact congrArg eexp (congrArg x5 (funext fun a => by
    match a with
    | ⟨0, _⟩ => rfl
    | ⟨1, _⟩ => exact Fin.ext (by have := h.isLt; show (9 * 8 + h.val) / 8 % 10 = 9; omega)
    | ⟨2, _⟩ => exact Fin.ext (by have := h.isLt; show (9 * 8 + h.val) % 8 = h.val; omega)))

/-- The last layer's inputs: hidden unit `c < 9` … -/
theorem c9_xc (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 9) :
    val_main_v338 (F := Ideal) x0 x1 x2 x3 x4 (ix2 n (Fin.castSucc c : Fin 10))
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 9 (by norm_num) c := by
  unfold val_main_v338
  exact (cat_cols_left (val_main_v336 (F := Ideal) x0 x1 x2 x3 x4) (val_main_v337 (F := Ideal) x0) _ n c).trans
    (c9_hid1 x0 x1 x2 x3 x4 n c)

/-- … and, last, the input x[n, 9]. -/
theorem c9_xl (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) :
    val_main_v338 (F := Ideal) x0 x1 x2 x3 x4 (ix2 n (Fin.last 9 : Fin 10)) = x0 (ix2 n (⟨9, by norm_num⟩ : Fin 32)) := by
  unfold val_main_v338
  refine (cat_cols_last (val_main_v336 (F := Ideal) x0 x1 x2 x3 x4) (val_main_v337 (F := Ideal) x0) _ n).trans ?_
  rw [val_main_v337_apply]
  exact congrArg x0 (funext fun a => by
    match a with
    | ⟨0, _⟩ => rfl
    | ⟨1, _⟩ => rfl)

/-- The last layer's bias. -/
theorem c9_bl (x6 : (⟨S32x8, .f32⟩ : BufTy).Contents (Elt Ideal)) (n : Fin 262144) (h : Fin 8) :
    val_main_v343 (F := Ideal) x6 (ix2 n h) = x6 (ix2 (⟨9, by norm_num⟩ : Fin 32) h) := by
  rw [val_main_v343_apply, val_main_v342_apply, val_main_v341_apply, val_main_v340_apply]
  exact congrArg x6 (funext fun a => by
    match a with
    | ⟨0, _⟩ => rfl
    | ⟨1, _⟩ => exact Fin.ext (by have := h.isLt; show h.val % 8 = h.val; omega))

/-- The last layer. -/
theorem c9_lay (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) (h : Fin 8) :
    val_main_v344 (F := Ideal) x0 x1 x2 x3 x4 x5 x6 (ix2 n h)
      = rlay (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 9 (by norm_num) h := by
  rw [val_main_v344_apply, val_main_v339_apply, c9_bl]
  have el : ∀ k : Fin 10, lidx_main_v339 (ix2 n h) k = ix2 n k := fun k => funext fun a => by
    match a with
    | ⟨0, _⟩ => rfl
    | ⟨1, _⟩ => rfl
  have er : ∀ k : Fin 10, ridx_main_v339 (ix2 n h) k = ix2 k h := fun k => funext fun a => by
    match a with
    | ⟨0, _⟩ => rfl
    | ⟨1, _⟩ => rfl
  refine lay_congr (d := 9) _ _ _ _ (fun c => ?_) ?_
  · rw [el, er, c9_xc, c9_wl]
  · rw [el, er, c9_xl, c9_we]

/-- **Component 9** of the reference at row `n`. -/
theorem comp_9 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v348 (F := Ideal) x0 x1 x2 x3 x4 x5 x6 (ix2 n (0 : Fin 1))
      = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 9 (by norm_num) := by
  rw [val_main_v348_apply]
  have e : idx_main_v348 (ix2 n (0 : Fin 1)) = ix1 n := funext fun a => by
    match a with
    | ⟨0, _⟩ => rfl
  rw [e]
  unfold val_main_v347 val_main_v346 refOut
  refine (pool_read (val_main_v345 (F := Ideal) x0 x1 x2 x3 x4 x5 x6) (val_main_cst_17 (F := Ideal)) (val_main_cst_18 (F := Ideal))
    _ _ _ rfl rfl n (fun h => val_main_v344 (F := Ideal) x0 x1 x2 x3 x4 x5 x6 (ix2 n h)) (fun g p => ?_)).trans ?_
  · rw [val_main_v345_apply]
    exact congrArg (val_main_v344 (F := Ideal) x0 x1 x2 x3 x4 x5 x6) (funext fun a => by
      match a with
      | ⟨0, _⟩ => exact Fin.ext (by have := g.isLt; have := p.isLt; show ((n.val * 4 + g.val) * 2 + p.val) / 8 = n.val; omega)
      | ⟨1, _⟩ => exact Fin.ext (by have := g.isLt; have := p.isLt; show ((n.val * 4 + g.val) * 2 + p.val) % 8 = 2 * g.val + p.val; omega))
  · exact congrArg pool (funext fun h => c9_lay x0 x1 x2 x3 x4 x5 x6 n h)

/-! ## Component 10

Its 10 earlier inputs x[n, i], i < 10, go through the two hidden layers (weights ws0[10, i, k], bs0[10, k] and
ws1[10, k, c], bs1[10, c] for c < 10); the last layer adds the input x[n, 10] itself, weighted by the exponential
of wlast[10, 10, h]. -/

/-- The earlier inputs: column `i < 10` of the row. -/
theorem c10_x (x0 : (⟨S262144x32, .f32⟩ : BufTy).Contents (Elt Ideal)) (n : Fin 262144) (i : Fin 10) :
    val_main_v355 (F := Ideal) x0 (ix2 n i) = x0 (ix2 n (up (d := 10) (by norm_num) i)) :=
  (val_main_v355_apply x0 _).trans (congrArg x0 (funext fun a => by
    match a with
    | ⟨0, _⟩ => rfl
    | ⟨1, _⟩ => rfl))

/-- The first layer's weights: row 10 of `ws0`, its first 10 inputs. -/
theorem c10_w0 (x1 : (⟨S32x32x32, .f32⟩ : BufTy).Contents (Elt Ideal)) (i : Fin 10) (k : Fin 32) :
    val_main_v357 (F := Ideal) x1 (ix2 i k) = x1 (ix3 (⟨10, by norm_num⟩ : Fin 32) (up (d := 10) (by norm_num) i) k) := by
  rw [val_main_v357_apply, val_main_v356_apply]
  exact congrArg x1 (funext fun a => by
    match a with
    | ⟨0, _⟩ => rfl
    | ⟨1, _⟩ => exact Fin.ext (by have := i.isLt; have := k.isLt; show (i.val * 32 + k.val) / 32 % 10 = i.val; omega)
    | ⟨2, _⟩ => exact Fin.ext (by have := i.isLt; have := k.isLt; show (i.val * 32 + k.val) % 32 = k.val; omega))

/-- The first layer's bias, the same in every row. -/
theorem c10_b0 (x2 : (⟨S32x32, .f32⟩ : BufTy).Contents (Elt Ideal)) (n : Fin 262144) (k : Fin 32) :
    val_main_v362 (F := Ideal) x2 (ix2 n k) = x2 (ix2 (⟨10, by norm_num⟩ : Fin 32) k) := by
  rw [val_main_v362_apply, val_main_v361_apply, val_main_v360_apply, val_main_v359_apply]
  exact congrArg x2 (funext fun a => by
    match a with
    | ⟨0, _⟩ => rfl
    | ⟨1, _⟩ => exact Fin.ext (by have := k.isLt; show k.val % 32 = k.val; omega))

theorem c10_z0 (n : Fin 262144) (k : Fin 32) : val_main_call18_v0 (F := Ideal) (ix2 n k) = 0 := by
  rw [val_main_call18_v0_apply, val_main_call18_cst_apply]
  exact Ideal.ofBits_zero_f32

/-- The first hidden layer. -/
theorem c10_hid0 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (n : Fin 262144) (k : Fin 32) :
    val_main_v364 (F := Ideal) x0 x1 x2 (ix2 n k) = rhid0 (fun i : Fin 32 => x0 (ix2 n i)) (fun a b c : Fin 32 => x1 (ix3 a b c)) (fun a b : Fin 32 => x2 (ix2 a b)) 10 (by norm_num) k := by
  rw [val_main_v364_apply, val_main_v363_apply, val_main_v358_apply, c10_b0]
  refine relu_affine_congr _ _ _ _ (c10_z0 n k) fun i => ?_
  have el : lidx_main_v358 (ix2 n k) i = ix2 n i := funext fun a => by
    match a with
    | ⟨0, _⟩ => rfl
    | ⟨1, _⟩ => rfl
  have er : ridx_main_v358 (ix2 n k) i = ix2 i k := funext fun a => by
    match a with
    | ⟨0, _⟩ => rfl
    | ⟨1, _⟩ => rfl
  rw [el, er, c10_x, c10_w0]

/-- The second layer's weights: row 10 of `ws1`, its first 10 outputs. -/
theorem c10_w1 (x3 : (⟨S32x32x32, .f32⟩ : BufTy).Contents (Elt Ideal)) (k : Fin 32) (c : Fin 10) :
    val_main_v366 (F := Ideal) x3 (ix2 k c) = x3 (ix3 (⟨10, by norm_num⟩ : Fin 32) k (up (d := 10) (by norm_num) c)) := by
  rw [val_main_v366_apply, val_main_v365_apply]
  exact congrArg x3 (funext fun a => by
    match a with
    | ⟨0, _⟩ => rfl
    | ⟨1, _⟩ => exact Fin.ext (by have := k.isLt; have := c.isLt; show (k.val * 10 + c.val) / 10 % 32 = k.val; omega)
    | ⟨2, _⟩ => exact Fin.ext (by have := k.isLt; have := c.isLt; show (k.val * 10 + c.val) % 10 = c.val; omega))

/-- The second layer's bias. -/
theorem c10_b1 (x4 : (⟨S32x32, .f32⟩ : BufTy).Contents (Elt Ideal)) (n : Fin 262144) (c : Fin 10) :
    val_main_v371 (F := Ideal) x4 (ix2 n c) = x4 (ix2 (⟨10, by norm_num⟩ : Fin 32) (up (d := 10) (by norm_num) c)) := by
  rw [val_main_v371_apply, val_main_v370_apply, val_main_v369_apply, val_main_v368_apply]
  exact congrArg x4 (funext fun a => by
    match a with
    | ⟨0, _⟩ => rfl
    | ⟨1, _⟩ => exact Fin.ext (by have := c.isLt; show c.val % 10 = c.val; omega))

theorem c10_z1 (n : Fin 262144) (c : Fin 10) : val_main_call19_v0 (F := Ideal) (ix2 n c) = 0 := by
  rw [val_main_call19_v0_apply, val_main_call19_cst_apply]
  exact Ideal.ofBits_zero_f32

/-- The second hidden layer. -/
theorem c10_hid1 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 10) :
    val_main_v373 (F := Ideal) x0 x1 x2 x3 x4 (ix2 n c)
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 10 (by norm_num) c := by
  rw [val_main_v373_apply, val_main_v372_apply, val_main_v367_apply, c10_b1]
  refine relu_affine_congr _ _ _ _ (c10_z1 n c) fun k => ?_
  have el : lidx_main_v367 (ix2 n c) k = ix2 n k := funext fun a => by
    match a with
    | ⟨0, _⟩ => rfl
    | ⟨1, _⟩ => rfl
  have er : ridx_main_v367 (ix2 n c) k = ix2 k c := funext fun a => by
    match a with
    | ⟨0, _⟩ => rfl
    | ⟨1, _⟩ => rfl
  rw [el, er, c10_hid0, c10_w1]

/-- The last layer's weights on the hidden units: the first 10 rows of `wlast[10]`. -/
theorem c10_wl (x5 : (⟨S32x32x8, .f32⟩ : BufTy).Contents (Elt Ideal)) (c : Fin 10) (h : Fin 8) :
    val_main_v354 (F := Ideal) x5 (ix2 (Fin.castSucc c : Fin 11) h) = x5 (ix3 (⟨10, by norm_num⟩ : Fin 32) (up (d := 10) (by norm_num) c) h) := by
  unfold val_main_v354
  refine (cat_rows_top (val_main_v351 (F := Ideal) x5) (val_main_v353 (F := Ideal) x5) _ c h).trans ?_
  rw [val_main_v351_apply, val_main_v350_apply, val_main_v349_apply]
  exact congrArg x5 (funext fun a => by
    match a with
    | ⟨0, _⟩ => rfl
    | ⟨1, _⟩ => exact Fin.ext (by have := c.isLt; have := h.isLt; show (c.val * 8 + h.val) / 8 % 11 = c.val; omega)
    | ⟨2, _⟩ => exact Fin.ext (by have := c.isLt; have := h.isLt; show (c.val * 8 + h.val) % 8 = h.val; omega))

/-- The last layer's weight on the input x[n, 10]: the exponential of row 10 of `wlast[10]`. -/
theorem c10_we (x5 : (⟨S32x32x8, .f32⟩ : BufTy).Contents (Elt Ideal)) (h : Fin 8) :
    val_main_v354 (F := Ideal) x5 (ix2 (Fin.last 10 : Fin 11) h) = eexp (x5 (ix3 (⟨10, by norm_num⟩ : Fin 32) (⟨10, by norm_num⟩ : Fin 32) h)) := by
  unfold val_main_v354
  refine (cat_rows_last (val_main_v351 (F := Ideal) x5) (val_main_v353 (F := Ideal) x5) _ h).trans ?_
  rw [val_main_v353_apply, val_main_v352_apply, val_main_v350_apply, val_main_v349_apply]
  exact congrArg eexp (congrArg x5 (funext fun a => by
    match a with
    | ⟨0, _⟩ => rfl
    | ⟨1, _⟩ => exact Fin.ext (by have := h.isLt; show (10 * 8 + h.val) / 8 % 11 = 10; omega)
    | ⟨2, _⟩ => exact Fin.ext (by have := h.isLt; show (10 * 8 + h.val) % 8 = h.val; omega)))

/-- The last layer's inputs: hidden unit `c < 10` … -/
theorem c10_xc (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 10) :
    val_main_v375 (F := Ideal) x0 x1 x2 x3 x4 (ix2 n (Fin.castSucc c : Fin 11))
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 10 (by norm_num) c := by
  unfold val_main_v375
  exact (cat_cols_left (val_main_v373 (F := Ideal) x0 x1 x2 x3 x4) (val_main_v374 (F := Ideal) x0) _ n c).trans
    (c10_hid1 x0 x1 x2 x3 x4 n c)

/-- … and, last, the input x[n, 10]. -/
theorem c10_xl (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) :
    val_main_v375 (F := Ideal) x0 x1 x2 x3 x4 (ix2 n (Fin.last 10 : Fin 11)) = x0 (ix2 n (⟨10, by norm_num⟩ : Fin 32)) := by
  unfold val_main_v375
  refine (cat_cols_last (val_main_v373 (F := Ideal) x0 x1 x2 x3 x4) (val_main_v374 (F := Ideal) x0) _ n).trans ?_
  rw [val_main_v374_apply]
  exact congrArg x0 (funext fun a => by
    match a with
    | ⟨0, _⟩ => rfl
    | ⟨1, _⟩ => rfl)

/-- The last layer's bias. -/
theorem c10_bl (x6 : (⟨S32x8, .f32⟩ : BufTy).Contents (Elt Ideal)) (n : Fin 262144) (h : Fin 8) :
    val_main_v380 (F := Ideal) x6 (ix2 n h) = x6 (ix2 (⟨10, by norm_num⟩ : Fin 32) h) := by
  rw [val_main_v380_apply, val_main_v379_apply, val_main_v378_apply, val_main_v377_apply]
  exact congrArg x6 (funext fun a => by
    match a with
    | ⟨0, _⟩ => rfl
    | ⟨1, _⟩ => exact Fin.ext (by have := h.isLt; show h.val % 8 = h.val; omega))

/-- The last layer. -/
theorem c10_lay (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) (h : Fin 8) :
    val_main_v381 (F := Ideal) x0 x1 x2 x3 x4 x5 x6 (ix2 n h)
      = rlay (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 10 (by norm_num) h := by
  rw [val_main_v381_apply, val_main_v376_apply, c10_bl]
  have el : ∀ k : Fin 11, lidx_main_v376 (ix2 n h) k = ix2 n k := fun k => funext fun a => by
    match a with
    | ⟨0, _⟩ => rfl
    | ⟨1, _⟩ => rfl
  have er : ∀ k : Fin 11, ridx_main_v376 (ix2 n h) k = ix2 k h := fun k => funext fun a => by
    match a with
    | ⟨0, _⟩ => rfl
    | ⟨1, _⟩ => rfl
  refine lay_congr (d := 10) _ _ _ _ (fun c => ?_) ?_
  · rw [el, er, c10_xc, c10_wl]
  · rw [el, er, c10_xl, c10_we]

/-- **Component 10** of the reference at row `n`. -/
theorem comp_10 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v385 (F := Ideal) x0 x1 x2 x3 x4 x5 x6 (ix2 n (0 : Fin 1))
      = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 10 (by norm_num) := by
  rw [val_main_v385_apply]
  have e : idx_main_v385 (ix2 n (0 : Fin 1)) = ix1 n := funext fun a => by
    match a with
    | ⟨0, _⟩ => rfl
  rw [e]
  unfold val_main_v384 val_main_v383 refOut
  refine (pool_read (val_main_v382 (F := Ideal) x0 x1 x2 x3 x4 x5 x6) (val_main_cst_19 (F := Ideal)) (val_main_cst_20 (F := Ideal))
    _ _ _ rfl rfl n (fun h => val_main_v381 (F := Ideal) x0 x1 x2 x3 x4 x5 x6 (ix2 n h)) (fun g p => ?_)).trans ?_
  · rw [val_main_v382_apply]
    exact congrArg (val_main_v381 (F := Ideal) x0 x1 x2 x3 x4 x5 x6) (funext fun a => by
      match a with
      | ⟨0, _⟩ => exact Fin.ext (by have := g.isLt; have := p.isLt; show ((n.val * 4 + g.val) * 2 + p.val) / 8 = n.val; omega)
      | ⟨1, _⟩ => exact Fin.ext (by have := g.isLt; have := p.isLt; show ((n.val * 4 + g.val) * 2 + p.val) % 8 = 2 * g.val + p.val; omega))
  · exact congrArg pool (funext fun h => c10_lay x0 x1 x2 x3 x4 x5 x6 n h)

/-! ## Component 11

Its 11 earlier inputs x[n, i], i < 11, go through the two hidden layers (weights ws0[11, i, k], bs0[11, k] and
ws1[11, k, c], bs1[11, c] for c < 11); the last layer adds the input x[n, 11] itself, weighted by the exponential
of wlast[11, 11, h]. -/

/-- The earlier inputs: column `i < 11` of the row. -/
theorem c11_x (x0 : (⟨S262144x32, .f32⟩ : BufTy).Contents (Elt Ideal)) (n : Fin 262144) (i : Fin 11) :
    val_main_v392 (F := Ideal) x0 (ix2 n i) = x0 (ix2 n (up (d := 11) (by norm_num) i)) :=
  (val_main_v392_apply x0 _).trans (congrArg x0 (funext fun a => by
    match a with
    | ⟨0, _⟩ => rfl
    | ⟨1, _⟩ => rfl))

/-- The first layer's weights: row 11 of `ws0`, its first 11 inputs. -/
theorem c11_w0 (x1 : (⟨S32x32x32, .f32⟩ : BufTy).Contents (Elt Ideal)) (i : Fin 11) (k : Fin 32) :
    val_main_v394 (F := Ideal) x1 (ix2 i k) = x1 (ix3 (⟨11, by norm_num⟩ : Fin 32) (up (d := 11) (by norm_num) i) k) := by
  rw [val_main_v394_apply, val_main_v393_apply]
  exact congrArg x1 (funext fun a => by
    match a with
    | ⟨0, _⟩ => rfl
    | ⟨1, _⟩ => exact Fin.ext (by have := i.isLt; have := k.isLt; show (i.val * 32 + k.val) / 32 % 11 = i.val; omega)
    | ⟨2, _⟩ => exact Fin.ext (by have := i.isLt; have := k.isLt; show (i.val * 32 + k.val) % 32 = k.val; omega))

/-- The first layer's bias, the same in every row. -/
theorem c11_b0 (x2 : (⟨S32x32, .f32⟩ : BufTy).Contents (Elt Ideal)) (n : Fin 262144) (k : Fin 32) :
    val_main_v399 (F := Ideal) x2 (ix2 n k) = x2 (ix2 (⟨11, by norm_num⟩ : Fin 32) k) := by
  rw [val_main_v399_apply, val_main_v398_apply, val_main_v397_apply, val_main_v396_apply]
  exact congrArg x2 (funext fun a => by
    match a with
    | ⟨0, _⟩ => rfl
    | ⟨1, _⟩ => exact Fin.ext (by have := k.isLt; show k.val % 32 = k.val; omega))

theorem c11_z0 (n : Fin 262144) (k : Fin 32) : val_main_call20_v0 (F := Ideal) (ix2 n k) = 0 := by
  rw [val_main_call20_v0_apply, val_main_call20_cst_apply]
  exact Ideal.ofBits_zero_f32

/-- The first hidden layer. -/
theorem c11_hid0 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (n : Fin 262144) (k : Fin 32) :
    val_main_v401 (F := Ideal) x0 x1 x2 (ix2 n k) = rhid0 (fun i : Fin 32 => x0 (ix2 n i)) (fun a b c : Fin 32 => x1 (ix3 a b c)) (fun a b : Fin 32 => x2 (ix2 a b)) 11 (by norm_num) k := by
  rw [val_main_v401_apply, val_main_v400_apply, val_main_v395_apply, c11_b0]
  refine relu_affine_congr _ _ _ _ (c11_z0 n k) fun i => ?_
  have el : lidx_main_v395 (ix2 n k) i = ix2 n i := funext fun a => by
    match a with
    | ⟨0, _⟩ => rfl
    | ⟨1, _⟩ => rfl
  have er : ridx_main_v395 (ix2 n k) i = ix2 i k := funext fun a => by
    match a with
    | ⟨0, _⟩ => rfl
    | ⟨1, _⟩ => rfl
  rw [el, er, c11_x, c11_w0]

/-- The second layer's weights: row 11 of `ws1`, its first 11 outputs. -/
theorem c11_w1 (x3 : (⟨S32x32x32, .f32⟩ : BufTy).Contents (Elt Ideal)) (k : Fin 32) (c : Fin 11) :
    val_main_v403 (F := Ideal) x3 (ix2 k c) = x3 (ix3 (⟨11, by norm_num⟩ : Fin 32) k (up (d := 11) (by norm_num) c)) := by
  rw [val_main_v403_apply, val_main_v402_apply]
  exact congrArg x3 (funext fun a => by
    match a with
    | ⟨0, _⟩ => rfl
    | ⟨1, _⟩ => exact Fin.ext (by have := k.isLt; have := c.isLt; show (k.val * 11 + c.val) / 11 % 32 = k.val; omega)
    | ⟨2, _⟩ => exact Fin.ext (by have := k.isLt; have := c.isLt; show (k.val * 11 + c.val) % 11 = c.val; omega))

/-- The second layer's bias. -/
theorem c11_b1 (x4 : (⟨S32x32, .f32⟩ : BufTy).Contents (Elt Ideal)) (n : Fin 262144) (c : Fin 11) :
    val_main_v408 (F := Ideal) x4 (ix2 n c) = x4 (ix2 (⟨11, by norm_num⟩ : Fin 32) (up (d := 11) (by norm_num) c)) := by
  rw [val_main_v408_apply, val_main_v407_apply, val_main_v406_apply, val_main_v405_apply]
  exact congrArg x4 (funext fun a => by
    match a with
    | ⟨0, _⟩ => rfl
    | ⟨1, _⟩ => exact Fin.ext (by have := c.isLt; show c.val % 11 = c.val; omega))

theorem c11_z1 (n : Fin 262144) (c : Fin 11) : val_main_call21_v0 (F := Ideal) (ix2 n c) = 0 := by
  rw [val_main_call21_v0_apply, val_main_call21_cst_apply]
  exact Ideal.ofBits_zero_f32

/-- The second hidden layer. -/
theorem c11_hid1 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 11) :
    val_main_v410 (F := Ideal) x0 x1 x2 x3 x4 (ix2 n c)
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 11 (by norm_num) c := by
  rw [val_main_v410_apply, val_main_v409_apply, val_main_v404_apply, c11_b1]
  refine relu_affine_congr _ _ _ _ (c11_z1 n c) fun k => ?_
  have el : lidx_main_v404 (ix2 n c) k = ix2 n k := funext fun a => by
    match a with
    | ⟨0, _⟩ => rfl
    | ⟨1, _⟩ => rfl
  have er : ridx_main_v404 (ix2 n c) k = ix2 k c := funext fun a => by
    match a with
    | ⟨0, _⟩ => rfl
    | ⟨1, _⟩ => rfl
  rw [el, er, c11_hid0, c11_w1]

/-- The last layer's weights on the hidden units: the first 11 rows of `wlast[11]`. -/
theorem c11_wl (x5 : (⟨S32x32x8, .f32⟩ : BufTy).Contents (Elt Ideal)) (c : Fin 11) (h : Fin 8) :
    val_main_v391 (F := Ideal) x5 (ix2 (Fin.castSucc c : Fin 12) h) = x5 (ix3 (⟨11, by norm_num⟩ : Fin 32) (up (d := 11) (by norm_num) c) h) := by
  unfold val_main_v391
  refine (cat_rows_top (val_main_v388 (F := Ideal) x5) (val_main_v390 (F := Ideal) x5) _ c h).trans ?_
  rw [val_main_v388_apply, val_main_v387_apply, val_main_v386_apply]
  exact congrArg x5 (funext fun a => by
    match a with
    | ⟨0, _⟩ => rfl
    | ⟨1, _⟩ => exact Fin.ext (by have := c.isLt; have := h.isLt; show (c.val * 8 + h.val) / 8 % 12 = c.val; omega)
    | ⟨2, _⟩ => exact Fin.ext (by have := c.isLt; have := h.isLt; show (c.val * 8 + h.val) % 8 = h.val; omega))

/-- The last layer's weight on the input x[n, 11]: the exponential of row 11 of `wlast[11]`. -/
theorem c11_we (x5 : (⟨S32x32x8, .f32⟩ : BufTy).Contents (Elt Ideal)) (h : Fin 8) :
    val_main_v391 (F := Ideal) x5 (ix2 (Fin.last 11 : Fin 12) h) = eexp (x5 (ix3 (⟨11, by norm_num⟩ : Fin 32) (⟨11, by norm_num⟩ : Fin 32) h)) := by
  unfold val_main_v391
  refine (cat_rows_last (val_main_v388 (F := Ideal) x5) (val_main_v390 (F := Ideal) x5) _ h).trans ?_
  rw [val_main_v390_apply, val_main_v389_apply, val_main_v387_apply, val_main_v386_apply]
  exact congrArg eexp (congrArg x5 (funext fun a => by
    match a with
    | ⟨0, _⟩ => rfl
    | ⟨1, _⟩ => exact Fin.ext (by have := h.isLt; show (11 * 8 + h.val) / 8 % 12 = 11; omega)
    | ⟨2, _⟩ => exact Fin.ext (by have := h.isLt; show (11 * 8 + h.val) % 8 = h.val; omega)))

/-- The last layer's inputs: hidden unit `c < 11` … -/
theorem c11_xc (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 11) :
    val_main_v412 (F := Ideal) x0 x1 x2 x3 x4 (ix2 n (Fin.castSucc c : Fin 12))
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 11 (by norm_num) c := by
  unfold val_main_v412
  exact (cat_cols_left (val_main_v410 (F := Ideal) x0 x1 x2 x3 x4) (val_main_v411 (F := Ideal) x0) _ n c).trans
    (c11_hid1 x0 x1 x2 x3 x4 n c)

/-- … and, last, the input x[n, 11]. -/
theorem c11_xl (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) :
    val_main_v412 (F := Ideal) x0 x1 x2 x3 x4 (ix2 n (Fin.last 11 : Fin 12)) = x0 (ix2 n (⟨11, by norm_num⟩ : Fin 32)) := by
  unfold val_main_v412
  refine (cat_cols_last (val_main_v410 (F := Ideal) x0 x1 x2 x3 x4) (val_main_v411 (F := Ideal) x0) _ n).trans ?_
  rw [val_main_v411_apply]
  exact congrArg x0 (funext fun a => by
    match a with
    | ⟨0, _⟩ => rfl
    | ⟨1, _⟩ => rfl)

/-- The last layer's bias. -/
theorem c11_bl (x6 : (⟨S32x8, .f32⟩ : BufTy).Contents (Elt Ideal)) (n : Fin 262144) (h : Fin 8) :
    val_main_v417 (F := Ideal) x6 (ix2 n h) = x6 (ix2 (⟨11, by norm_num⟩ : Fin 32) h) := by
  rw [val_main_v417_apply, val_main_v416_apply, val_main_v415_apply, val_main_v414_apply]
  exact congrArg x6 (funext fun a => by
    match a with
    | ⟨0, _⟩ => rfl
    | ⟨1, _⟩ => exact Fin.ext (by have := h.isLt; show h.val % 8 = h.val; omega))

/-- The last layer. -/
theorem c11_lay (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) (h : Fin 8) :
    val_main_v418 (F := Ideal) x0 x1 x2 x3 x4 x5 x6 (ix2 n h)
      = rlay (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 11 (by norm_num) h := by
  rw [val_main_v418_apply, val_main_v413_apply, c11_bl]
  have el : ∀ k : Fin 12, lidx_main_v413 (ix2 n h) k = ix2 n k := fun k => funext fun a => by
    match a with
    | ⟨0, _⟩ => rfl
    | ⟨1, _⟩ => rfl
  have er : ∀ k : Fin 12, ridx_main_v413 (ix2 n h) k = ix2 k h := fun k => funext fun a => by
    match a with
    | ⟨0, _⟩ => rfl
    | ⟨1, _⟩ => rfl
  refine lay_congr (d := 11) _ _ _ _ (fun c => ?_) ?_
  · rw [el, er, c11_xc, c11_wl]
  · rw [el, er, c11_xl, c11_we]

/-- **Component 11** of the reference at row `n`. -/
theorem comp_11 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v422 (F := Ideal) x0 x1 x2 x3 x4 x5 x6 (ix2 n (0 : Fin 1))
      = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 11 (by norm_num) := by
  rw [val_main_v422_apply]
  have e : idx_main_v422 (ix2 n (0 : Fin 1)) = ix1 n := funext fun a => by
    match a with
    | ⟨0, _⟩ => rfl
  rw [e]
  unfold val_main_v421 val_main_v420 refOut
  refine (pool_read (val_main_v419 (F := Ideal) x0 x1 x2 x3 x4 x5 x6) (val_main_cst_21 (F := Ideal)) (val_main_cst_22 (F := Ideal))
    _ _ _ rfl rfl n (fun h => val_main_v418 (F := Ideal) x0 x1 x2 x3 x4 x5 x6 (ix2 n h)) (fun g p => ?_)).trans ?_
  · rw [val_main_v419_apply]
    exact congrArg (val_main_v418 (F := Ideal) x0 x1 x2 x3 x4 x5 x6) (funext fun a => by
      match a with
      | ⟨0, _⟩ => exact Fin.ext (by have := g.isLt; have := p.isLt; show ((n.val * 4 + g.val) * 2 + p.val) / 8 = n.val; omega)
      | ⟨1, _⟩ => exact Fin.ext (by have := g.isLt; have := p.isLt; show ((n.val * 4 + g.val) * 2 + p.val) % 8 = 2 * g.val + p.val; omega))
  · exact congrArg pool (funext fun h => c11_lay x0 x1 x2 x3 x4 x5 x6 n h)

/-! ## Component 12

Its 12 earlier inputs x[n, i], i < 12, go through the two hidden layers (weights ws0[12, i, k], bs0[12, k] and
ws1[12, k, c], bs1[12, c] for c < 12); the last layer adds the input x[n, 12] itself, weighted by the exponential
of wlast[12, 12, h]. -/

/-- The earlier inputs: column `i < 12` of the row. -/
theorem c12_x (x0 : (⟨S262144x32, .f32⟩ : BufTy).Contents (Elt Ideal)) (n : Fin 262144) (i : Fin 12) :
    val_main_v429 (F := Ideal) x0 (ix2 n i) = x0 (ix2 n (up (d := 12) (by norm_num) i)) :=
  (val_main_v429_apply x0 _).trans (congrArg x0 (funext fun a => by
    match a with
    | ⟨0, _⟩ => rfl
    | ⟨1, _⟩ => rfl))

/-- The first layer's weights: row 12 of `ws0`, its first 12 inputs. -/
theorem c12_w0 (x1 : (⟨S32x32x32, .f32⟩ : BufTy).Contents (Elt Ideal)) (i : Fin 12) (k : Fin 32) :
    val_main_v431 (F := Ideal) x1 (ix2 i k) = x1 (ix3 (⟨12, by norm_num⟩ : Fin 32) (up (d := 12) (by norm_num) i) k) := by
  rw [val_main_v431_apply, val_main_v430_apply]
  exact congrArg x1 (funext fun a => by
    match a with
    | ⟨0, _⟩ => rfl
    | ⟨1, _⟩ => exact Fin.ext (by have := i.isLt; have := k.isLt; show (i.val * 32 + k.val) / 32 % 12 = i.val; omega)
    | ⟨2, _⟩ => exact Fin.ext (by have := i.isLt; have := k.isLt; show (i.val * 32 + k.val) % 32 = k.val; omega))

/-- The first layer's bias, the same in every row. -/
theorem c12_b0 (x2 : (⟨S32x32, .f32⟩ : BufTy).Contents (Elt Ideal)) (n : Fin 262144) (k : Fin 32) :
    val_main_v436 (F := Ideal) x2 (ix2 n k) = x2 (ix2 (⟨12, by norm_num⟩ : Fin 32) k) := by
  rw [val_main_v436_apply, val_main_v435_apply, val_main_v434_apply, val_main_v433_apply]
  exact congrArg x2 (funext fun a => by
    match a with
    | ⟨0, _⟩ => rfl
    | ⟨1, _⟩ => exact Fin.ext (by have := k.isLt; show k.val % 32 = k.val; omega))

theorem c12_z0 (n : Fin 262144) (k : Fin 32) : val_main_call22_v0 (F := Ideal) (ix2 n k) = 0 := by
  rw [val_main_call22_v0_apply, val_main_call22_cst_apply]
  exact Ideal.ofBits_zero_f32

/-- The first hidden layer. -/
theorem c12_hid0 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (n : Fin 262144) (k : Fin 32) :
    val_main_v438 (F := Ideal) x0 x1 x2 (ix2 n k) = rhid0 (fun i : Fin 32 => x0 (ix2 n i)) (fun a b c : Fin 32 => x1 (ix3 a b c)) (fun a b : Fin 32 => x2 (ix2 a b)) 12 (by norm_num) k := by
  rw [val_main_v438_apply, val_main_v437_apply, val_main_v432_apply, c12_b0]
  refine relu_affine_congr _ _ _ _ (c12_z0 n k) fun i => ?_
  have el : lidx_main_v432 (ix2 n k) i = ix2 n i := funext fun a => by
    match a with
    | ⟨0, _⟩ => rfl
    | ⟨1, _⟩ => rfl
  have er : ridx_main_v432 (ix2 n k) i = ix2 i k := funext fun a => by
    match a with
    | ⟨0, _⟩ => rfl
    | ⟨1, _⟩ => rfl
  rw [el, er, c12_x, c12_w0]

/-- The second layer's weights: row 12 of `ws1`, its first 12 outputs. -/
theorem c12_w1 (x3 : (⟨S32x32x32, .f32⟩ : BufTy).Contents (Elt Ideal)) (k : Fin 32) (c : Fin 12) :
    val_main_v440 (F := Ideal) x3 (ix2 k c) = x3 (ix3 (⟨12, by norm_num⟩ : Fin 32) k (up (d := 12) (by norm_num) c)) := by
  rw [val_main_v440_apply, val_main_v439_apply]
  exact congrArg x3 (funext fun a => by
    match a with
    | ⟨0, _⟩ => rfl
    | ⟨1, _⟩ => exact Fin.ext (by have := k.isLt; have := c.isLt; show (k.val * 12 + c.val) / 12 % 32 = k.val; omega)
    | ⟨2, _⟩ => exact Fin.ext (by have := k.isLt; have := c.isLt; show (k.val * 12 + c.val) % 12 = c.val; omega))

/-- The second layer's bias. -/
theorem c12_b1 (x4 : (⟨S32x32, .f32⟩ : BufTy).Contents (Elt Ideal)) (n : Fin 262144) (c : Fin 12) :
    val_main_v445 (F := Ideal) x4 (ix2 n c) = x4 (ix2 (⟨12, by norm_num⟩ : Fin 32) (up (d := 12) (by norm_num) c)) := by
  rw [val_main_v445_apply, val_main_v444_apply, val_main_v443_apply, val_main_v442_apply]
  exact congrArg x4 (funext fun a => by
    match a with
    | ⟨0, _⟩ => rfl
    | ⟨1, _⟩ => exact Fin.ext (by have := c.isLt; show c.val % 12 = c.val; omega))

theorem c12_z1 (n : Fin 262144) (c : Fin 12) : val_main_call23_v0 (F := Ideal) (ix2 n c) = 0 := by
  rw [val_main_call23_v0_apply, val_main_call23_cst_apply]
  exact Ideal.ofBits_zero_f32

/-- The second hidden layer. -/
theorem c12_hid1 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 12) :
    val_main_v447 (F := Ideal) x0 x1 x2 x3 x4 (ix2 n c)
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 12 (by norm_num) c := by
  rw [val_main_v447_apply, val_main_v446_apply, val_main_v441_apply, c12_b1]
  refine relu_affine_congr _ _ _ _ (c12_z1 n c) fun k => ?_
  have el : lidx_main_v441 (ix2 n c) k = ix2 n k := funext fun a => by
    match a with
    | ⟨0, _⟩ => rfl
    | ⟨1, _⟩ => rfl
  have er : ridx_main_v441 (ix2 n c) k = ix2 k c := funext fun a => by
    match a with
    | ⟨0, _⟩ => rfl
    | ⟨1, _⟩ => rfl
  rw [el, er, c12_hid0, c12_w1]

/-- The last layer's weights on the hidden units: the first 12 rows of `wlast[12]`. -/
theorem c12_wl (x5 : (⟨S32x32x8, .f32⟩ : BufTy).Contents (Elt Ideal)) (c : Fin 12) (h : Fin 8) :
    val_main_v428 (F := Ideal) x5 (ix2 (Fin.castSucc c : Fin 13) h) = x5 (ix3 (⟨12, by norm_num⟩ : Fin 32) (up (d := 12) (by norm_num) c) h) := by
  unfold val_main_v428
  refine (cat_rows_top (val_main_v425 (F := Ideal) x5) (val_main_v427 (F := Ideal) x5) _ c h).trans ?_
  rw [val_main_v425_apply, val_main_v424_apply, val_main_v423_apply]
  exact congrArg x5 (funext fun a => by
    match a with
    | ⟨0, _⟩ => rfl
    | ⟨1, _⟩ => exact Fin.ext (by have := c.isLt; have := h.isLt; show (c.val * 8 + h.val) / 8 % 13 = c.val; omega)
    | ⟨2, _⟩ => exact Fin.ext (by have := c.isLt; have := h.isLt; show (c.val * 8 + h.val) % 8 = h.val; omega))

/-- The last layer's weight on the input x[n, 12]: the exponential of row 12 of `wlast[12]`. -/
theorem c12_we (x5 : (⟨S32x32x8, .f32⟩ : BufTy).Contents (Elt Ideal)) (h : Fin 8) :
    val_main_v428 (F := Ideal) x5 (ix2 (Fin.last 12 : Fin 13) h) = eexp (x5 (ix3 (⟨12, by norm_num⟩ : Fin 32) (⟨12, by norm_num⟩ : Fin 32) h)) := by
  unfold val_main_v428
  refine (cat_rows_last (val_main_v425 (F := Ideal) x5) (val_main_v427 (F := Ideal) x5) _ h).trans ?_
  rw [val_main_v427_apply, val_main_v426_apply, val_main_v424_apply, val_main_v423_apply]
  exact congrArg eexp (congrArg x5 (funext fun a => by
    match a with
    | ⟨0, _⟩ => rfl
    | ⟨1, _⟩ => exact Fin.ext (by have := h.isLt; show (12 * 8 + h.val) / 8 % 13 = 12; omega)
    | ⟨2, _⟩ => exact Fin.ext (by have := h.isLt; show (12 * 8 + h.val) % 8 = h.val; omega)))

/-- The last layer's inputs: hidden unit `c < 12` … -/
theorem c12_xc (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 12) :
    val_main_v449 (F := Ideal) x0 x1 x2 x3 x4 (ix2 n (Fin.castSucc c : Fin 13))
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 12 (by norm_num) c := by
  unfold val_main_v449
  exact (cat_cols_left (val_main_v447 (F := Ideal) x0 x1 x2 x3 x4) (val_main_v448 (F := Ideal) x0) _ n c).trans
    (c12_hid1 x0 x1 x2 x3 x4 n c)

/-- … and, last, the input x[n, 12]. -/
theorem c12_xl (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) :
    val_main_v449 (F := Ideal) x0 x1 x2 x3 x4 (ix2 n (Fin.last 12 : Fin 13)) = x0 (ix2 n (⟨12, by norm_num⟩ : Fin 32)) := by
  unfold val_main_v449
  refine (cat_cols_last (val_main_v447 (F := Ideal) x0 x1 x2 x3 x4) (val_main_v448 (F := Ideal) x0) _ n).trans ?_
  rw [val_main_v448_apply]
  exact congrArg x0 (funext fun a => by
    match a with
    | ⟨0, _⟩ => rfl
    | ⟨1, _⟩ => rfl)

/-- The last layer's bias. -/
theorem c12_bl (x6 : (⟨S32x8, .f32⟩ : BufTy).Contents (Elt Ideal)) (n : Fin 262144) (h : Fin 8) :
    val_main_v454 (F := Ideal) x6 (ix2 n h) = x6 (ix2 (⟨12, by norm_num⟩ : Fin 32) h) := by
  rw [val_main_v454_apply, val_main_v453_apply, val_main_v452_apply, val_main_v451_apply]
  exact congrArg x6 (funext fun a => by
    match a with
    | ⟨0, _⟩ => rfl
    | ⟨1, _⟩ => exact Fin.ext (by have := h.isLt; show h.val % 8 = h.val; omega))

/-- The last layer. -/
theorem c12_lay (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) (h : Fin 8) :
    val_main_v455 (F := Ideal) x0 x1 x2 x3 x4 x5 x6 (ix2 n h)
      = rlay (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 12 (by norm_num) h := by
  rw [val_main_v455_apply, val_main_v450_apply, c12_bl]
  have el : ∀ k : Fin 13, lidx_main_v450 (ix2 n h) k = ix2 n k := fun k => funext fun a => by
    match a with
    | ⟨0, _⟩ => rfl
    | ⟨1, _⟩ => rfl
  have er : ∀ k : Fin 13, ridx_main_v450 (ix2 n h) k = ix2 k h := fun k => funext fun a => by
    match a with
    | ⟨0, _⟩ => rfl
    | ⟨1, _⟩ => rfl
  refine lay_congr (d := 12) _ _ _ _ (fun c => ?_) ?_
  · rw [el, er, c12_xc, c12_wl]
  · rw [el, er, c12_xl, c12_we]

/-- **Component 12** of the reference at row `n`. -/
theorem comp_12 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v459 (F := Ideal) x0 x1 x2 x3 x4 x5 x6 (ix2 n (0 : Fin 1))
      = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 12 (by norm_num) := by
  rw [val_main_v459_apply]
  have e : idx_main_v459 (ix2 n (0 : Fin 1)) = ix1 n := funext fun a => by
    match a with
    | ⟨0, _⟩ => rfl
  rw [e]
  unfold val_main_v458 val_main_v457 refOut
  refine (pool_read (val_main_v456 (F := Ideal) x0 x1 x2 x3 x4 x5 x6) (val_main_cst_23 (F := Ideal)) (val_main_cst_24 (F := Ideal))
    _ _ _ rfl rfl n (fun h => val_main_v455 (F := Ideal) x0 x1 x2 x3 x4 x5 x6 (ix2 n h)) (fun g p => ?_)).trans ?_
  · rw [val_main_v456_apply]
    exact congrArg (val_main_v455 (F := Ideal) x0 x1 x2 x3 x4 x5 x6) (funext fun a => by
      match a with
      | ⟨0, _⟩ => exact Fin.ext (by have := g.isLt; have := p.isLt; show ((n.val * 4 + g.val) * 2 + p.val) / 8 = n.val; omega)
      | ⟨1, _⟩ => exact Fin.ext (by have := g.isLt; have := p.isLt; show ((n.val * 4 + g.val) * 2 + p.val) % 8 = 2 * g.val + p.val; omega))
  · exact congrArg pool (funext fun h => c12_lay x0 x1 x2 x3 x4 x5 x6 n h)

/-! ## Component 13

Its 13 earlier inputs x[n, i], i < 13, go through the two hidden layers (weights ws0[13, i, k], bs0[13, k] and
ws1[13, k, c], bs1[13, c] for c < 13); the last layer adds the input x[n, 13] itself, weighted by the exponential
of wlast[13, 13, h]. -/

/-- The earlier inputs: column `i < 13` of the row. -/
theorem c13_x (x0 : (⟨S262144x32, .f32⟩ : BufTy).Contents (Elt Ideal)) (n : Fin 262144) (i : Fin 13) :
    val_main_v466 (F := Ideal) x0 (ix2 n i) = x0 (ix2 n (up (d := 13) (by norm_num) i)) :=
  (val_main_v466_apply x0 _).trans (congrArg x0 (funext fun a => by
    match a with
    | ⟨0, _⟩ => rfl
    | ⟨1, _⟩ => rfl))

/-- The first layer's weights: row 13 of `ws0`, its first 13 inputs. -/
theorem c13_w0 (x1 : (⟨S32x32x32, .f32⟩ : BufTy).Contents (Elt Ideal)) (i : Fin 13) (k : Fin 32) :
    val_main_v468 (F := Ideal) x1 (ix2 i k) = x1 (ix3 (⟨13, by norm_num⟩ : Fin 32) (up (d := 13) (by norm_num) i) k) := by
  rw [val_main_v468_apply, val_main_v467_apply]
  exact congrArg x1 (funext fun a => by
    match a with
    | ⟨0, _⟩ => rfl
    | ⟨1, _⟩ => exact Fin.ext (by have := i.isLt; have := k.isLt; show (i.val * 32 + k.val) / 32 % 13 = i.val; omega)
    | ⟨2, _⟩ => exact Fin.ext (by have := i.isLt; have := k.isLt; show (i.val * 32 + k.val) % 32 = k.val; omega))

/-- The first layer's bias, the same in every row. -/
theorem c13_b0 (x2 : (⟨S32x32, .f32⟩ : BufTy).Contents (Elt Ideal)) (n : Fin 262144) (k : Fin 32) :
    val_main_v473 (F := Ideal) x2 (ix2 n k) = x2 (ix2 (⟨13, by norm_num⟩ : Fin 32) k) := by
  rw [val_main_v473_apply, val_main_v472_apply, val_main_v471_apply, val_main_v470_apply]
  exact congrArg x2 (funext fun a => by
    match a with
    | ⟨0, _⟩ => rfl
    | ⟨1, _⟩ => exact Fin.ext (by have := k.isLt; show k.val % 32 = k.val; omega))

theorem c13_z0 (n : Fin 262144) (k : Fin 32) : val_main_call24_v0 (F := Ideal) (ix2 n k) = 0 := by
  rw [val_main_call24_v0_apply, val_main_call24_cst_apply]
  exact Ideal.ofBits_zero_f32

/-- The first hidden layer. -/
theorem c13_hid0 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (n : Fin 262144) (k : Fin 32) :
    val_main_v475 (F := Ideal) x0 x1 x2 (ix2 n k) = rhid0 (fun i : Fin 32 => x0 (ix2 n i)) (fun a b c : Fin 32 => x1 (ix3 a b c)) (fun a b : Fin 32 => x2 (ix2 a b)) 13 (by norm_num) k := by
  rw [val_main_v475_apply, val_main_v474_apply, val_main_v469_apply, c13_b0]
  refine relu_affine_congr _ _ _ _ (c13_z0 n k) fun i => ?_
  have el : lidx_main_v469 (ix2 n k) i = ix2 n i := funext fun a => by
    match a with
    | ⟨0, _⟩ => rfl
    | ⟨1, _⟩ => rfl
  have er : ridx_main_v469 (ix2 n k) i = ix2 i k := funext fun a => by
    match a with
    | ⟨0, _⟩ => rfl
    | ⟨1, _⟩ => rfl
  rw [el, er, c13_x, c13_w0]

/-- The second layer's weights: row 13 of `ws1`, its first 13 outputs. -/
theorem c13_w1 (x3 : (⟨S32x32x32, .f32⟩ : BufTy).Contents (Elt Ideal)) (k : Fin 32) (c : Fin 13) :
    val_main_v477 (F := Ideal) x3 (ix2 k c) = x3 (ix3 (⟨13, by norm_num⟩ : Fin 32) k (up (d := 13) (by norm_num) c)) := by
  rw [val_main_v477_apply, val_main_v476_apply]
  exact congrArg x3 (funext fun a => by
    match a with
    | ⟨0, _⟩ => rfl
    | ⟨1, _⟩ => exact Fin.ext (by have := k.isLt; have := c.isLt; show (k.val * 13 + c.val) / 13 % 32 = k.val; omega)
    | ⟨2, _⟩ => exact Fin.ext (by have := k.isLt; have := c.isLt; show (k.val * 13 + c.val) % 13 = c.val; omega))

/-- The second layer's bias. -/
theorem c13_b1 (x4 : (⟨S32x32, .f32⟩ : BufTy).Contents (Elt Ideal)) (n : Fin 262144) (c : Fin 13) :
    val_main_v482 (F := Ideal) x4 (ix2 n c) = x4 (ix2 (⟨13, by norm_num⟩ : Fin 32) (up (d := 13) (by norm_num) c)) := by
  rw [val_main_v482_apply, val_main_v481_apply, val_main_v480_apply, val_main_v479_apply]
  exact congrArg x4 (funext fun a => by
    match a with
    | ⟨0, _⟩ => rfl
    | ⟨1, _⟩ => exact Fin.ext (by have := c.isLt; show c.val % 13 = c.val; omega))

theorem c13_z1 (n : Fin 262144) (c : Fin 13) : val_main_call25_v0 (F := Ideal) (ix2 n c) = 0 := by
  rw [val_main_call25_v0_apply, val_main_call25_cst_apply]
  exact Ideal.ofBits_zero_f32

/-- The second hidden layer. -/
theorem c13_hid1 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 13) :
    val_main_v484 (F := Ideal) x0 x1 x2 x3 x4 (ix2 n c)
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 13 (by norm_num) c := by
  rw [val_main_v484_apply, val_main_v483_apply, val_main_v478_apply, c13_b1]
  refine relu_affine_congr _ _ _ _ (c13_z1 n c) fun k => ?_
  have el : lidx_main_v478 (ix2 n c) k = ix2 n k := funext fun a => by
    match a with
    | ⟨0, _⟩ => rfl
    | ⟨1, _⟩ => rfl
  have er : ridx_main_v478 (ix2 n c) k = ix2 k c := funext fun a => by
    match a with
    | ⟨0, _⟩ => rfl
    | ⟨1, _⟩ => rfl
  rw [el, er, c13_hid0, c13_w1]

/-- The last layer's weights on the hidden units: the first 13 rows of `wlast[13]`. -/
theorem c13_wl (x5 : (⟨S32x32x8, .f32⟩ : BufTy).Contents (Elt Ideal)) (c : Fin 13) (h : Fin 8) :
    val_main_v465 (F := Ideal) x5 (ix2 (Fin.castSucc c : Fin 14) h) = x5 (ix3 (⟨13, by norm_num⟩ : Fin 32) (up (d := 13) (by norm_num) c) h) := by
  unfold val_main_v465
  refine (cat_rows_top (val_main_v462 (F := Ideal) x5) (val_main_v464 (F := Ideal) x5) _ c h).trans ?_
  rw [val_main_v462_apply, val_main_v461_apply, val_main_v460_apply]
  exact congrArg x5 (funext fun a => by
    match a with
    | ⟨0, _⟩ => rfl
    | ⟨1, _⟩ => exact Fin.ext (by have := c.isLt; have := h.isLt; show (c.val * 8 + h.val) / 8 % 14 = c.val; omega)
    | ⟨2, _⟩ => exact Fin.ext (by have := c.isLt; have := h.isLt; show (c.val * 8 + h.val) % 8 = h.val; omega))

/-- The last layer's weight on the input x[n, 13]: the exponential of row 13 of `wlast[13]`. -/
theorem c13_we (x5 : (⟨S32x32x8, .f32⟩ : BufTy).Contents (Elt Ideal)) (h : Fin 8) :
    val_main_v465 (F := Ideal) x5 (ix2 (Fin.last 13 : Fin 14) h) = eexp (x5 (ix3 (⟨13, by norm_num⟩ : Fin 32) (⟨13, by norm_num⟩ : Fin 32) h)) := by
  unfold val_main_v465
  refine (cat_rows_last (val_main_v462 (F := Ideal) x5) (val_main_v464 (F := Ideal) x5) _ h).trans ?_
  rw [val_main_v464_apply, val_main_v463_apply, val_main_v461_apply, val_main_v460_apply]
  exact congrArg eexp (congrArg x5 (funext fun a => by
    match a with
    | ⟨0, _⟩ => rfl
    | ⟨1, _⟩ => exact Fin.ext (by have := h.isLt; show (13 * 8 + h.val) / 8 % 14 = 13; omega)
    | ⟨2, _⟩ => exact Fin.ext (by have := h.isLt; show (13 * 8 + h.val) % 8 = h.val; omega)))

/-- The last layer's inputs: hidden unit `c < 13` … -/
theorem c13_xc (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 13) :
    val_main_v486 (F := Ideal) x0 x1 x2 x3 x4 (ix2 n (Fin.castSucc c : Fin 14))
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 13 (by norm_num) c := by
  unfold val_main_v486
  exact (cat_cols_left (val_main_v484 (F := Ideal) x0 x1 x2 x3 x4) (val_main_v485 (F := Ideal) x0) _ n c).trans
    (c13_hid1 x0 x1 x2 x3 x4 n c)

/-- … and, last, the input x[n, 13]. -/
theorem c13_xl (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) :
    val_main_v486 (F := Ideal) x0 x1 x2 x3 x4 (ix2 n (Fin.last 13 : Fin 14)) = x0 (ix2 n (⟨13, by norm_num⟩ : Fin 32)) := by
  unfold val_main_v486
  refine (cat_cols_last (val_main_v484 (F := Ideal) x0 x1 x2 x3 x4) (val_main_v485 (F := Ideal) x0) _ n).trans ?_
  rw [val_main_v485_apply]
  exact congrArg x0 (funext fun a => by
    match a with
    | ⟨0, _⟩ => rfl
    | ⟨1, _⟩ => rfl)

/-- The last layer's bias. -/
theorem c13_bl (x6 : (⟨S32x8, .f32⟩ : BufTy).Contents (Elt Ideal)) (n : Fin 262144) (h : Fin 8) :
    val_main_v491 (F := Ideal) x6 (ix2 n h) = x6 (ix2 (⟨13, by norm_num⟩ : Fin 32) h) := by
  rw [val_main_v491_apply, val_main_v490_apply, val_main_v489_apply, val_main_v488_apply]
  exact congrArg x6 (funext fun a => by
    match a with
    | ⟨0, _⟩ => rfl
    | ⟨1, _⟩ => exact Fin.ext (by have := h.isLt; show h.val % 8 = h.val; omega))

/-- The last layer. -/
theorem c13_lay (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) (h : Fin 8) :
    val_main_v492 (F := Ideal) x0 x1 x2 x3 x4 x5 x6 (ix2 n h)
      = rlay (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 13 (by norm_num) h := by
  rw [val_main_v492_apply, val_main_v487_apply, c13_bl]
  have el : ∀ k : Fin 14, lidx_main_v487 (ix2 n h) k = ix2 n k := fun k => funext fun a => by
    match a with
    | ⟨0, _⟩ => rfl
    | ⟨1, _⟩ => rfl
  have er : ∀ k : Fin 14, ridx_main_v487 (ix2 n h) k = ix2 k h := fun k => funext fun a => by
    match a with
    | ⟨0, _⟩ => rfl
    | ⟨1, _⟩ => rfl
  refine lay_congr (d := 13) _ _ _ _ (fun c => ?_) ?_
  · rw [el, er, c13_xc, c13_wl]
  · rw [el, er, c13_xl, c13_we]

/-- **Component 13** of the reference at row `n`. -/
theorem comp_13 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v496 (F := Ideal) x0 x1 x2 x3 x4 x5 x6 (ix2 n (0 : Fin 1))
      = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 13 (by norm_num) := by
  rw [val_main_v496_apply]
  have e : idx_main_v496 (ix2 n (0 : Fin 1)) = ix1 n := funext fun a => by
    match a with
    | ⟨0, _⟩ => rfl
  rw [e]
  unfold val_main_v495 val_main_v494 refOut
  refine (pool_read (val_main_v493 (F := Ideal) x0 x1 x2 x3 x4 x5 x6) (val_main_cst_25 (F := Ideal)) (val_main_cst_26 (F := Ideal))
    _ _ _ rfl rfl n (fun h => val_main_v492 (F := Ideal) x0 x1 x2 x3 x4 x5 x6 (ix2 n h)) (fun g p => ?_)).trans ?_
  · rw [val_main_v493_apply]
    exact congrArg (val_main_v492 (F := Ideal) x0 x1 x2 x3 x4 x5 x6) (funext fun a => by
      match a with
      | ⟨0, _⟩ => exact Fin.ext (by have := g.isLt; have := p.isLt; show ((n.val * 4 + g.val) * 2 + p.val) / 8 = n.val; omega)
      | ⟨1, _⟩ => exact Fin.ext (by have := g.isLt; have := p.isLt; show ((n.val * 4 + g.val) * 2 + p.val) % 8 = 2 * g.val + p.val; omega))
  · exact congrArg pool (funext fun h => c13_lay x0 x1 x2 x3 x4 x5 x6 n h)

/-! ## Component 14

Its 14 earlier inputs x[n, i], i < 14, go through the two hidden layers (weights ws0[14, i, k], bs0[14, k] and
ws1[14, k, c], bs1[14, c] for c < 14); the last layer adds the input x[n, 14] itself, weighted by the exponential
of wlast[14, 14, h]. -/

/-- The earlier inputs: column `i < 14` of the row. -/
theorem c14_x (x0 : (⟨S262144x32, .f32⟩ : BufTy).Contents (Elt Ideal)) (n : Fin 262144) (i : Fin 14) :
    val_main_v503 (F := Ideal) x0 (ix2 n i) = x0 (ix2 n (up (d := 14) (by norm_num) i)) :=
  (val_main_v503_apply x0 _).trans (congrArg x0 (funext fun a => by
    match a with
    | ⟨0, _⟩ => rfl
    | ⟨1, _⟩ => rfl))

/-- The first layer's weights: row 14 of `ws0`, its first 14 inputs. -/
theorem c14_w0 (x1 : (⟨S32x32x32, .f32⟩ : BufTy).Contents (Elt Ideal)) (i : Fin 14) (k : Fin 32) :
    val_main_v505 (F := Ideal) x1 (ix2 i k) = x1 (ix3 (⟨14, by norm_num⟩ : Fin 32) (up (d := 14) (by norm_num) i) k) := by
  rw [val_main_v505_apply, val_main_v504_apply]
  exact congrArg x1 (funext fun a => by
    match a with
    | ⟨0, _⟩ => rfl
    | ⟨1, _⟩ => exact Fin.ext (by have := i.isLt; have := k.isLt; show (i.val * 32 + k.val) / 32 % 14 = i.val; omega)
    | ⟨2, _⟩ => exact Fin.ext (by have := i.isLt; have := k.isLt; show (i.val * 32 + k.val) % 32 = k.val; omega))

/-- The first layer's bias, the same in every row. -/
theorem c14_b0 (x2 : (⟨S32x32, .f32⟩ : BufTy).Contents (Elt Ideal)) (n : Fin 262144) (k : Fin 32) :
    val_main_v510 (F := Ideal) x2 (ix2 n k) = x2 (ix2 (⟨14, by norm_num⟩ : Fin 32) k) := by
  rw [val_main_v510_apply, val_main_v509_apply, val_main_v508_apply, val_main_v507_apply]
  exact congrArg x2 (funext fun a => by
    match a with
    | ⟨0, _⟩ => rfl
    | ⟨1, _⟩ => exact Fin.ext (by have := k.isLt; show k.val % 32 = k.val; omega))

theorem c14_z0 (n : Fin 262144) (k : Fin 32) : val_main_call26_v0 (F := Ideal) (ix2 n k) = 0 := by
  rw [val_main_call26_v0_apply, val_main_call26_cst_apply]
  exact Ideal.ofBits_zero_f32

/-- The first hidden layer. -/
theorem c14_hid0 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (n : Fin 262144) (k : Fin 32) :
    val_main_v512 (F := Ideal) x0 x1 x2 (ix2 n k) = rhid0 (fun i : Fin 32 => x0 (ix2 n i)) (fun a b c : Fin 32 => x1 (ix3 a b c)) (fun a b : Fin 32 => x2 (ix2 a b)) 14 (by norm_num) k := by
  rw [val_main_v512_apply, val_main_v511_apply, val_main_v506_apply, c14_b0]
  refine relu_affine_congr _ _ _ _ (c14_z0 n k) fun i => ?_
  have el : lidx_main_v506 (ix2 n k) i = ix2 n i := funext fun a => by
    match a with
    | ⟨0, _⟩ => rfl
    | ⟨1, _⟩ => rfl
  have er : ridx_main_v506 (ix2 n k) i = ix2 i k := funext fun a => by
    match a with
    | ⟨0, _⟩ => rfl
    | ⟨1, _⟩ => rfl
  rw [el, er, c14_x, c14_w0]

/-- The second layer's weights: row 14 of `ws1`, its first 14 outputs. -/
theorem c14_w1 (x3 : (⟨S32x32x32, .f32⟩ : BufTy).Contents (Elt Ideal)) (k : Fin 32) (c : Fin 14) :
    val_main_v514 (F := Ideal) x3 (ix2 k c) = x3 (ix3 (⟨14, by norm_num⟩ : Fin 32) k (up (d := 14) (by norm_num) c)) := by
  rw [val_main_v514_apply, val_main_v513_apply]
  exact congrArg x3 (funext fun a => by
    match a with
    | ⟨0, _⟩ => rfl
    | ⟨1, _⟩ => exact Fin.ext (by have := k.isLt; have := c.isLt; show (k.val * 14 + c.val) / 14 % 32 = k.val; omega)
    | ⟨2, _⟩ => exact Fin.ext (by have := k.isLt; have := c.isLt; show (k.val * 14 + c.val) % 14 = c.val; omega))

/-- The second layer's bias. -/
theorem c14_b1 (x4 : (⟨S32x32, .f32⟩ : BufTy).Contents (Elt Ideal)) (n : Fin 262144) (c : Fin 14) :
    val_main_v519 (F := Ideal) x4 (ix2 n c) = x4 (ix2 (⟨14, by norm_num⟩ : Fin 32) (up (d := 14) (by norm_num) c)) := by
  rw [val_main_v519_apply, val_main_v518_apply, val_main_v517_apply, val_main_v516_apply]
  exact congrArg x4 (funext fun a => by
    match a with
    | ⟨0, _⟩ => rfl
    | ⟨1, _⟩ => exact Fin.ext (by have := c.isLt; show c.val % 14 = c.val; omega))

theorem c14_z1 (n : Fin 262144) (c : Fin 14) : val_main_call27_v0 (F := Ideal) (ix2 n c) = 0 := by
  rw [val_main_call27_v0_apply, val_main_call27_cst_apply]
  exact Ideal.ofBits_zero_f32

/-- The second hidden layer. -/
theorem c14_hid1 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 14) :
    val_main_v521 (F := Ideal) x0 x1 x2 x3 x4 (ix2 n c)
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 14 (by norm_num) c := by
  rw [val_main_v521_apply, val_main_v520_apply, val_main_v515_apply, c14_b1]
  refine relu_affine_congr _ _ _ _ (c14_z1 n c) fun k => ?_
  have el : lidx_main_v515 (ix2 n c) k = ix2 n k := funext fun a => by
    match a with
    | ⟨0, _⟩ => rfl
    | ⟨1, _⟩ => rfl
  have er : ridx_main_v515 (ix2 n c) k = ix2 k c := funext fun a => by
    match a with
    | ⟨0, _⟩ => rfl
    | ⟨1, _⟩ => rfl
  rw [el, er, c14_hid0, c14_w1]

/-- The last layer's weights on the hidden units: the first 14 rows of `wlast[14]`. -/
theorem c14_wl (x5 : (⟨S32x32x8, .f32⟩ : BufTy).Contents (Elt Ideal)) (c : Fin 14) (h : Fin 8) :
    val_main_v502 (F := Ideal) x5 (ix2 (Fin.castSucc c : Fin 15) h) = x5 (ix3 (⟨14, by norm_num⟩ : Fin 32) (up (d := 14) (by norm_num) c) h) := by
  unfold val_main_v502
  refine (cat_rows_top (val_main_v499 (F := Ideal) x5) (val_main_v501 (F := Ideal) x5) _ c h).trans ?_
  rw [val_main_v499_apply, val_main_v498_apply, val_main_v497_apply]
  exact congrArg x5 (funext fun a => by
    match a with
    | ⟨0, _⟩ => rfl
    | ⟨1, _⟩ => exact Fin.ext (by have := c.isLt; have := h.isLt; show (c.val * 8 + h.val) / 8 % 15 = c.val; omega)
    | ⟨2, _⟩ => exact Fin.ext (by have := c.isLt; have := h.isLt; show (c.val * 8 + h.val) % 8 = h.val; omega))

/-- The last layer's weight on the input x[n, 14]: the exponential of row 14 of `wlast[14]`. -/
theorem c14_we (x5 : (⟨S32x32x8, .f32⟩ : BufTy).Contents (Elt Ideal)) (h : Fin 8) :
    val_main_v502 (F := Ideal) x5 (ix2 (Fin.last 14 : Fin 15) h) = eexp (x5 (ix3 (⟨14, by norm_num⟩ : Fin 32) (⟨14, by norm_num⟩ : Fin 32) h)) := by
  unfold val_main_v502
  refine (cat_rows_last (val_main_v499 (F := Ideal) x5) (val_main_v501 (F := Ideal) x5) _ h).trans ?_
  rw [val_main_v501_apply, val_main_v500_apply, val_main_v498_apply, val_main_v497_apply]
  exact congrArg eexp (congrArg x5 (funext fun a => by
    match a with
    | ⟨0, _⟩ => rfl
    | ⟨1, _⟩ => exact Fin.ext (by have := h.isLt; show (14 * 8 + h.val) / 8 % 15 = 14; omega)
    | ⟨2, _⟩ => exact Fin.ext (by have := h.isLt; show (14 * 8 + h.val) % 8 = h.val; omega)))

/-- The last layer's inputs: hidden unit `c < 14` … -/
theorem c14_xc (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 14) :
    val_main_v523 (F := Ideal) x0 x1 x2 x3 x4 (ix2 n (Fin.castSucc c : Fin 15))
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 14 (by norm_num) c := by
  unfold val_main_v523
  exact (cat_cols_left (val_main_v521 (F := Ideal) x0 x1 x2 x3 x4) (val_main_v522 (F := Ideal) x0) _ n c).trans
    (c14_hid1 x0 x1 x2 x3 x4 n c)

/-- … and, last, the input x[n, 14]. -/
theorem c14_xl (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) :
    val_main_v523 (F := Ideal) x0 x1 x2 x3 x4 (ix2 n (Fin.last 14 : Fin 15)) = x0 (ix2 n (⟨14, by norm_num⟩ : Fin 32)) := by
  unfold val_main_v523
  refine (cat_cols_last (val_main_v521 (F := Ideal) x0 x1 x2 x3 x4) (val_main_v522 (F := Ideal) x0) _ n).trans ?_
  rw [val_main_v522_apply]
  exact congrArg x0 (funext fun a => by
    match a with
    | ⟨0, _⟩ => rfl
    | ⟨1, _⟩ => rfl)

/-- The last layer's bias. -/
theorem c14_bl (x6 : (⟨S32x8, .f32⟩ : BufTy).Contents (Elt Ideal)) (n : Fin 262144) (h : Fin 8) :
    val_main_v528 (F := Ideal) x6 (ix2 n h) = x6 (ix2 (⟨14, by norm_num⟩ : Fin 32) h) := by
  rw [val_main_v528_apply, val_main_v527_apply, val_main_v526_apply, val_main_v525_apply]
  exact congrArg x6 (funext fun a => by
    match a with
    | ⟨0, _⟩ => rfl
    | ⟨1, _⟩ => exact Fin.ext (by have := h.isLt; show h.val % 8 = h.val; omega))

/-- The last layer. -/
theorem c14_lay (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) (h : Fin 8) :
    val_main_v529 (F := Ideal) x0 x1 x2 x3 x4 x5 x6 (ix2 n h)
      = rlay (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 14 (by norm_num) h := by
  rw [val_main_v529_apply, val_main_v524_apply, c14_bl]
  have el : ∀ k : Fin 15, lidx_main_v524 (ix2 n h) k = ix2 n k := fun k => funext fun a => by
    match a with
    | ⟨0, _⟩ => rfl
    | ⟨1, _⟩ => rfl
  have er : ∀ k : Fin 15, ridx_main_v524 (ix2 n h) k = ix2 k h := fun k => funext fun a => by
    match a with
    | ⟨0, _⟩ => rfl
    | ⟨1, _⟩ => rfl
  refine lay_congr (d := 14) _ _ _ _ (fun c => ?_) ?_
  · rw [el, er, c14_xc, c14_wl]
  · rw [el, er, c14_xl, c14_we]

/-- **Component 14** of the reference at row `n`. -/
theorem comp_14 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v533 (F := Ideal) x0 x1 x2 x3 x4 x5 x6 (ix2 n (0 : Fin 1))
      = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 14 (by norm_num) := by
  rw [val_main_v533_apply]
  have e : idx_main_v533 (ix2 n (0 : Fin 1)) = ix1 n := funext fun a => by
    match a with
    | ⟨0, _⟩ => rfl
  rw [e]
  unfold val_main_v532 val_main_v531 refOut
  refine (pool_read (val_main_v530 (F := Ideal) x0 x1 x2 x3 x4 x5 x6) (val_main_cst_27 (F := Ideal)) (val_main_cst_28 (F := Ideal))
    _ _ _ rfl rfl n (fun h => val_main_v529 (F := Ideal) x0 x1 x2 x3 x4 x5 x6 (ix2 n h)) (fun g p => ?_)).trans ?_
  · rw [val_main_v530_apply]
    exact congrArg (val_main_v529 (F := Ideal) x0 x1 x2 x3 x4 x5 x6) (funext fun a => by
      match a with
      | ⟨0, _⟩ => exact Fin.ext (by have := g.isLt; have := p.isLt; show ((n.val * 4 + g.val) * 2 + p.val) / 8 = n.val; omega)
      | ⟨1, _⟩ => exact Fin.ext (by have := g.isLt; have := p.isLt; show ((n.val * 4 + g.val) * 2 + p.val) % 8 = 2 * g.val + p.val; omega))
  · exact congrArg pool (funext fun h => c14_lay x0 x1 x2 x3 x4 x5 x6 n h)

/-! ## Component 15

Its 15 earlier inputs x[n, i], i < 15, go through the two hidden layers (weights ws0[15, i, k], bs0[15, k] and
ws1[15, k, c], bs1[15, c] for c < 15); the last layer adds the input x[n, 15] itself, weighted by the exponential
of wlast[15, 15, h]. -/

/-- The earlier inputs: column `i < 15` of the row. -/
theorem c15_x (x0 : (⟨S262144x32, .f32⟩ : BufTy).Contents (Elt Ideal)) (n : Fin 262144) (i : Fin 15) :
    val_main_v540 (F := Ideal) x0 (ix2 n i) = x0 (ix2 n (up (d := 15) (by norm_num) i)) :=
  (val_main_v540_apply x0 _).trans (congrArg x0 (funext fun a => by
    match a with
    | ⟨0, _⟩ => rfl
    | ⟨1, _⟩ => rfl))

/-- The first layer's weights: row 15 of `ws0`, its first 15 inputs. -/
theorem c15_w0 (x1 : (⟨S32x32x32, .f32⟩ : BufTy).Contents (Elt Ideal)) (i : Fin 15) (k : Fin 32) :
    val_main_v542 (F := Ideal) x1 (ix2 i k) = x1 (ix3 (⟨15, by norm_num⟩ : Fin 32) (up (d := 15) (by norm_num) i) k) := by
  rw [val_main_v542_apply, val_main_v541_apply]
  exact congrArg x1 (funext fun a => by
    match a with
    | ⟨0, _⟩ => rfl
    | ⟨1, _⟩ => exact Fin.ext (by have := i.isLt; have := k.isLt; show (i.val * 32 + k.val) / 32 % 15 = i.val; omega)
    | ⟨2, _⟩ => exact Fin.ext (by have := i.isLt; have := k.isLt; show (i.val * 32 + k.val) % 32 = k.val; omega))

/-- The first layer's bias, the same in every row. -/
theorem c15_b0 (x2 : (⟨S32x32, .f32⟩ : BufTy).Contents (Elt Ideal)) (n : Fin 262144) (k : Fin 32) :
    val_main_v547 (F := Ideal) x2 (ix2 n k) = x2 (ix2 (⟨15, by norm_num⟩ : Fin 32) k) := by
  rw [val_main_v547_apply, val_main_v546_apply, val_main_v545_apply, val_main_v544_apply]
  exact congrArg x2 (funext fun a => by
    match a with
    | ⟨0, _⟩ => rfl
    | ⟨1, _⟩ => exact Fin.ext (by have := k.isLt; show k.val % 32 = k.val; omega))

theorem c15_z0 (n : Fin 262144) (k : Fin 32) : val_main_call28_v0 (F := Ideal) (ix2 n k) = 0 := by
  rw [val_main_call28_v0_apply, val_main_call28_cst_apply]
  exact Ideal.ofBits_zero_f32

/-- The first hidden layer. -/
theorem c15_hid0 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (n : Fin 262144) (k : Fin 32) :
    val_main_v549 (F := Ideal) x0 x1 x2 (ix2 n k) = rhid0 (fun i : Fin 32 => x0 (ix2 n i)) (fun a b c : Fin 32 => x1 (ix3 a b c)) (fun a b : Fin 32 => x2 (ix2 a b)) 15 (by norm_num) k := by
  rw [val_main_v549_apply, val_main_v548_apply, val_main_v543_apply, c15_b0]
  refine relu_affine_congr _ _ _ _ (c15_z0 n k) fun i => ?_
  have el : lidx_main_v543 (ix2 n k) i = ix2 n i := funext fun a => by
    match a with
    | ⟨0, _⟩ => rfl
    | ⟨1, _⟩ => rfl
  have er : ridx_main_v543 (ix2 n k) i = ix2 i k := funext fun a => by
    match a with
    | ⟨0, _⟩ => rfl
    | ⟨1, _⟩ => rfl
  rw [el, er, c15_x, c15_w0]

/-- The second layer's weights: row 15 of `ws1`, its first 15 outputs. -/
theorem c15_w1 (x3 : (⟨S32x32x32, .f32⟩ : BufTy).Contents (Elt Ideal)) (k : Fin 32) (c : Fin 15) :
    val_main_v551 (F := Ideal) x3 (ix2 k c) = x3 (ix3 (⟨15, by norm_num⟩ : Fin 32) k (up (d := 15) (by norm_num) c)) := by
  rw [val_main_v551_apply, val_main_v550_apply]
  exact congrArg x3 (funext fun a => by
    match a with
    | ⟨0, _⟩ => rfl
    | ⟨1, _⟩ => exact Fin.ext (by have := k.isLt; have := c.isLt; show (k.val * 15 + c.val) / 15 % 32 = k.val; omega)
    | ⟨2, _⟩ => exact Fin.ext (by have := k.isLt; have := c.isLt; show (k.val * 15 + c.val) % 15 = c.val; omega))

/-- The second layer's bias. -/
theorem c15_b1 (x4 : (⟨S32x32, .f32⟩ : BufTy).Contents (Elt Ideal)) (n : Fin 262144) (c : Fin 15) :
    val_main_v556 (F := Ideal) x4 (ix2 n c) = x4 (ix2 (⟨15, by norm_num⟩ : Fin 32) (up (d := 15) (by norm_num) c)) := by
  rw [val_main_v556_apply, val_main_v555_apply, val_main_v554_apply, val_main_v553_apply]
  exact congrArg x4 (funext fun a => by
    match a with
    | ⟨0, _⟩ => rfl
    | ⟨1, _⟩ => exact Fin.ext (by have := c.isLt; show c.val % 15 = c.val; omega))

theorem c15_z1 (n : Fin 262144) (c : Fin 15) : val_main_call29_v0 (F := Ideal) (ix2 n c) = 0 := by
  rw [val_main_call29_v0_apply, val_main_call29_cst_apply]
  exact Ideal.ofBits_zero_f32

/-- The second hidden layer. -/
theorem c15_hid1 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 15) :
    val_main_v558 (F := Ideal) x0 x1 x2 x3 x4 (ix2 n c)
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 15 (by norm_num) c := by
  rw [val_main_v558_apply, val_main_v557_apply, val_main_v552_apply, c15_b1]
  refine relu_affine_congr _ _ _ _ (c15_z1 n c) fun k => ?_
  have el : lidx_main_v552 (ix2 n c) k = ix2 n k := funext fun a => by
    match a with
    | ⟨0, _⟩ => rfl
    | ⟨1, _⟩ => rfl
  have er : ridx_main_v552 (ix2 n c) k = ix2 k c := funext fun a => by
    match a with
    | ⟨0, _⟩ => rfl
    | ⟨1, _⟩ => rfl
  rw [el, er, c15_hid0, c15_w1]

/-- The last layer's weights on the hidden units: the first 15 rows of `wlast[15]`. -/
theorem c15_wl (x5 : (⟨S32x32x8, .f32⟩ : BufTy).Contents (Elt Ideal)) (c : Fin 15) (h : Fin 8) :
    val_main_v539 (F := Ideal) x5 (ix2 (Fin.castSucc c : Fin 16) h) = x5 (ix3 (⟨15, by norm_num⟩ : Fin 32) (up (d := 15) (by norm_num) c) h) := by
  unfold val_main_v539
  refine (cat_rows_top (val_main_v536 (F := Ideal) x5) (val_main_v538 (F := Ideal) x5) _ c h).trans ?_
  rw [val_main_v536_apply, val_main_v535_apply, val_main_v534_apply]
  exact congrArg x5 (funext fun a => by
    match a with
    | ⟨0, _⟩ => rfl
    | ⟨1, _⟩ => exact Fin.ext (by have := c.isLt; have := h.isLt; show (c.val * 8 + h.val) / 8 % 16 = c.val; omega)
    | ⟨2, _⟩ => exact Fin.ext (by have := c.isLt; have := h.isLt; show (c.val * 8 + h.val) % 8 = h.val; omega))

/-- The last layer's weight on the input x[n, 15]: the exponential of row 15 of `wlast[15]`. -/
theorem c15_we (x5 : (⟨S32x32x8, .f32⟩ : BufTy).Contents (Elt Ideal)) (h : Fin 8) :
    val_main_v539 (F := Ideal) x5 (ix2 (Fin.last 15 : Fin 16) h) = eexp (x5 (ix3 (⟨15, by norm_num⟩ : Fin 32) (⟨15, by norm_num⟩ : Fin 32) h)) := by
  unfold val_main_v539
  refine (cat_rows_last (val_main_v536 (F := Ideal) x5) (val_main_v538 (F := Ideal) x5) _ h).trans ?_
  rw [val_main_v538_apply, val_main_v537_apply, val_main_v535_apply, val_main_v534_apply]
  exact congrArg eexp (congrArg x5 (funext fun a => by
    match a with
    | ⟨0, _⟩ => rfl
    | ⟨1, _⟩ => exact Fin.ext (by have := h.isLt; show (15 * 8 + h.val) / 8 % 16 = 15; omega)
    | ⟨2, _⟩ => exact Fin.ext (by have := h.isLt; show (15 * 8 + h.val) % 8 = h.val; omega)))

/-- The last layer's inputs: hidden unit `c < 15` … -/
theorem c15_xc (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 15) :
    val_main_v560 (F := Ideal) x0 x1 x2 x3 x4 (ix2 n (Fin.castSucc c : Fin 16))
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 15 (by norm_num) c := by
  unfold val_main_v560
  exact (cat_cols_left (val_main_v558 (F := Ideal) x0 x1 x2 x3 x4) (val_main_v559 (F := Ideal) x0) _ n c).trans
    (c15_hid1 x0 x1 x2 x3 x4 n c)

/-- … and, last, the input x[n, 15]. -/
theorem c15_xl (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) :
    val_main_v560 (F := Ideal) x0 x1 x2 x3 x4 (ix2 n (Fin.last 15 : Fin 16)) = x0 (ix2 n (⟨15, by norm_num⟩ : Fin 32)) := by
  unfold val_main_v560
  refine (cat_cols_last (val_main_v558 (F := Ideal) x0 x1 x2 x3 x4) (val_main_v559 (F := Ideal) x0) _ n).trans ?_
  rw [val_main_v559_apply]
  exact congrArg x0 (funext fun a => by
    match a with
    | ⟨0, _⟩ => rfl
    | ⟨1, _⟩ => rfl)

/-- The last layer's bias. -/
theorem c15_bl (x6 : (⟨S32x8, .f32⟩ : BufTy).Contents (Elt Ideal)) (n : Fin 262144) (h : Fin 8) :
    val_main_v565 (F := Ideal) x6 (ix2 n h) = x6 (ix2 (⟨15, by norm_num⟩ : Fin 32) h) := by
  rw [val_main_v565_apply, val_main_v564_apply, val_main_v563_apply, val_main_v562_apply]
  exact congrArg x6 (funext fun a => by
    match a with
    | ⟨0, _⟩ => rfl
    | ⟨1, _⟩ => exact Fin.ext (by have := h.isLt; show h.val % 8 = h.val; omega))

/-- The last layer. -/
theorem c15_lay (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) (h : Fin 8) :
    val_main_v566 (F := Ideal) x0 x1 x2 x3 x4 x5 x6 (ix2 n h)
      = rlay (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 15 (by norm_num) h := by
  rw [val_main_v566_apply, val_main_v561_apply, c15_bl]
  have el : ∀ k : Fin 16, lidx_main_v561 (ix2 n h) k = ix2 n k := fun k => funext fun a => by
    match a with
    | ⟨0, _⟩ => rfl
    | ⟨1, _⟩ => rfl
  have er : ∀ k : Fin 16, ridx_main_v561 (ix2 n h) k = ix2 k h := fun k => funext fun a => by
    match a with
    | ⟨0, _⟩ => rfl
    | ⟨1, _⟩ => rfl
  refine lay_congr (d := 15) _ _ _ _ (fun c => ?_) ?_
  · rw [el, er, c15_xc, c15_wl]
  · rw [el, er, c15_xl, c15_we]

/-- **Component 15** of the reference at row `n`. -/
theorem comp_15 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v570 (F := Ideal) x0 x1 x2 x3 x4 x5 x6 (ix2 n (0 : Fin 1))
      = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 15 (by norm_num) := by
  rw [val_main_v570_apply]
  have e : idx_main_v570 (ix2 n (0 : Fin 1)) = ix1 n := funext fun a => by
    match a with
    | ⟨0, _⟩ => rfl
  rw [e]
  unfold val_main_v569 val_main_v568 refOut
  refine (pool_read (val_main_v567 (F := Ideal) x0 x1 x2 x3 x4 x5 x6) (val_main_cst_29 (F := Ideal)) (val_main_cst_30 (F := Ideal))
    _ _ _ rfl rfl n (fun h => val_main_v566 (F := Ideal) x0 x1 x2 x3 x4 x5 x6 (ix2 n h)) (fun g p => ?_)).trans ?_
  · rw [val_main_v567_apply]
    exact congrArg (val_main_v566 (F := Ideal) x0 x1 x2 x3 x4 x5 x6) (funext fun a => by
      match a with
      | ⟨0, _⟩ => exact Fin.ext (by have := g.isLt; have := p.isLt; show ((n.val * 4 + g.val) * 2 + p.val) / 8 = n.val; omega)
      | ⟨1, _⟩ => exact Fin.ext (by have := g.isLt; have := p.isLt; show ((n.val * 4 + g.val) * 2 + p.val) % 8 = 2 * g.val + p.val; omega))
  · exact congrArg pool (funext fun h => c15_lay x0 x1 x2 x3 x4 x5 x6 n h)

end Cert.Monotone.Ref

end
-- ==== Proof.RefComp2.lean ====
/-
  The reference's components 16 … 23, each read stage by stage at a row `n` and identified with the
  specification's `refOut`. A component's column of the result is the pooling of its last layer; the last layer is read
  through the two joins (the exponentiated last weight row under the earlier rows; the component's own input after the
  hidden units), the hidden layers through their products and rectifiers.
-/
import proofs.«166035_j57586921505191_2_alg».proof.Proof.ReadP
import proofs.«166035_j57586921505191_2_alg».proof.Proof.RefLib

noncomputable section

namespace Cert.Monotone.Ref

open Cert.ReferenceIdeal Cert.ReferenceIdeal.Read Cert.ReferenceIdeal.Gen Idealize.ShloMosaic Idealize.ShloMosaic.ValueIdx Cert.Monotone

/-! ## Component 16

Its 16 earlier inputs x[n, i], i < 16, go through the two hidden layers (weights ws0[16, i, k], bs0[16, k] and
ws1[16, k, c], bs1[16, c] for c < 16); the last layer adds the input x[n, 16] itself, weighted by the exponential
of wlast[16, 16, h]. -/

/-- The earlier inputs: column `i < 16` of the row. -/
theorem c16_x (x0 : (⟨S262144x32, .f32⟩ : BufTy).Contents (Elt Ideal)) (n : Fin 262144) (i : Fin 16) :
    val_main_v577 (F := Ideal) x0 (ix2 n i) = x0 (ix2 n (up (d := 16) (by norm_num) i)) :=
  (val_main_v577_apply x0 _).trans (congrArg x0 (funext fun a => by
    match a with
    | ⟨0, _⟩ => rfl
    | ⟨1, _⟩ => rfl))

/-- The first layer's weights: row 16 of `ws0`, its first 16 inputs. -/
theorem c16_w0 (x1 : (⟨S32x32x32, .f32⟩ : BufTy).Contents (Elt Ideal)) (i : Fin 16) (k : Fin 32) :
    val_main_v579 (F := Ideal) x1 (ix2 i k) = x1 (ix3 (⟨16, by norm_num⟩ : Fin 32) (up (d := 16) (by norm_num) i) k) := by
  rw [val_main_v579_apply, val_main_v578_apply]
  exact congrArg x1 (funext fun a => by
    match a with
    | ⟨0, _⟩ => rfl
    | ⟨1, _⟩ => exact Fin.ext (by have := i.isLt; have := k.isLt; show (i.val * 32 + k.val) / 32 % 16 = i.val; omega)
    | ⟨2, _⟩ => exact Fin.ext (by have := i.isLt; have := k.isLt; show (i.val * 32 + k.val) % 32 = k.val; omega))

/-- The first layer's bias, the same in every row. -/
theorem c16_b0 (x2 : (⟨S32x32, .f32⟩ : BufTy).Contents (Elt Ideal)) (n : Fin 262144) (k : Fin 32) :
    val_main_v584 (F := Ideal) x2 (ix2 n k) = x2 (ix2 (⟨16, by norm_num⟩ : Fin 32) k) := by
  rw [val_main_v584_apply, val_main_v583_apply, val_main_v582_apply, val_main_v581_apply]
  exact congrArg x2 (funext fun a => by
    match a with
    | ⟨0, _⟩ => rfl
    | ⟨1, _⟩ => exact Fin.ext (by have := k.isLt; show k.val % 32 = k.val; omega))

theorem c16_z0 (n : Fin 262144) (k : Fin 32) : val_main_call30_v0 (F := Ideal) (ix2 n k) = 0 := by
  rw [val_main_call30_v0_apply, val_main_call30_cst_apply]
  exact Ideal.ofBits_zero_f32

/-- The first hidden layer. -/
theorem c16_hid0 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (n : Fin 262144) (k : Fin 32) :
    val_main_v586 (F := Ideal) x0 x1 x2 (ix2 n k) = rhid0 (fun i : Fin 32 => x0 (ix2 n i)) (fun a b c : Fin 32 => x1 (ix3 a b c)) (fun a b : Fin 32 => x2 (ix2 a b)) 16 (by norm_num) k := by
  rw [val_main_v586_apply, val_main_v585_apply, val_main_v580_apply, c16_b0]
  refine relu_affine_congr _ _ _ _ (c16_z0 n k) fun i => ?_
  have el : lidx_main_v580 (ix2 n k) i = ix2 n i := funext fun a => by
    match a with
    | ⟨0, _⟩ => rfl
    | ⟨1, _⟩ => rfl
  have er : ridx_main_v580 (ix2 n k) i = ix2 i k := funext fun a => by
    match a with
    | ⟨0, _⟩ => rfl
    | ⟨1, _⟩ => rfl
  rw [el, er, c16_x, c16_w0]

/-- The second layer's weights: row 16 of `ws1`, its first 16 outputs. -/
theorem c16_w1 (x3 : (⟨S32x32x32, .f32⟩ : BufTy).Contents (Elt Ideal)) (k : Fin 32) (c : Fin 16) :
    val_main_v588 (F := Ideal) x3 (ix2 k c) = x3 (ix3 (⟨16, by norm_num⟩ : Fin 32) k (up (d := 16) (by norm_num) c)) := by
  rw [val_main_v588_apply, val_main_v587_apply]
  exact congrArg x3 (funext fun a => by
    match a with
    | ⟨0, _⟩ => rfl
    | ⟨1, _⟩ => exact Fin.ext (by have := k.isLt; have := c.isLt; show (k.val * 16 + c.val) / 16 % 32 = k.val; omega)
    | ⟨2, _⟩ => exact Fin.ext (by have := k.isLt; have := c.isLt; show (k.val * 16 + c.val) % 16 = c.val; omega))

/-- The second layer's bias. -/
theorem c16_b1 (x4 : (⟨S32x32, .f32⟩ : BufTy).Contents (Elt Ideal)) (n : Fin 262144) (c : Fin 16) :
    val_main_v593 (F := Ideal) x4 (ix2 n c) = x4 (ix2 (⟨16, by norm_num⟩ : Fin 32) (up (d := 16) (by norm_num) c)) := by
  rw [val_main_v593_apply, val_main_v592_apply, val_main_v591_apply, val_main_v590_apply]
  exact congrArg x4 (funext fun a => by
    match a with
    | ⟨0, _⟩ => rfl
    | ⟨1, _⟩ => exact Fin.ext (by have := c.isLt; show c.val % 16 = c.val; omega))

theorem c16_z1 (n : Fin 262144) (c : Fin 16) : val_main_call31_v0 (F := Ideal) (ix2 n c) = 0 := by
  rw [val_main_call31_v0_apply, val_main_call31_cst_apply]
  exact Ideal.ofBits_zero_f32

/-- The second hidden layer. -/
theorem c16_hid1 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 16) :
    val_main_v595 (F := Ideal) x0 x1 x2 x3 x4 (ix2 n c)
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 16 (by norm_num) c := by
  rw [val_main_v595_apply, val_main_v594_apply, val_main_v589_apply, c16_b1]
  refine relu_affine_congr _ _ _ _ (c16_z1 n c) fun k => ?_
  have el : lidx_main_v589 (ix2 n c) k = ix2 n k := funext fun a => by
    match a with
    | ⟨0, _⟩ => rfl
    | ⟨1, _⟩ => rfl
  have er : ridx_main_v589 (ix2 n c) k = ix2 k c := funext fun a => by
    match a with
    | ⟨0, _⟩ => rfl
    | ⟨1, _⟩ => rfl
  rw [el, er, c16_hid0, c16_w1]

/-- The last layer's weights on the hidden units: the first 16 rows of `wlast[16]`. -/
theorem c16_wl (x5 : (⟨S32x32x8, .f32⟩ : BufTy).Contents (Elt Ideal)) (c : Fin 16) (h : Fin 8) :
    val_main_v576 (F := Ideal) x5 (ix2 (Fin.castSucc c : Fin 17) h) = x5 (ix3 (⟨16, by norm_num⟩ : Fin 32) (up (d := 16) (by norm_num) c) h) := by
  unfold val_main_v576
  refine (cat_rows_top (val_main_v573 (F := Ideal) x5) (val_main_v575 (F := Ideal) x5) _ c h).trans ?_
  rw [val_main_v573_apply, val_main_v572_apply, val_main_v571_apply]
  exact congrArg x5 (funext fun a => by
    match a with
    | ⟨0, _⟩ => rfl
    | ⟨1, _⟩ => exact Fin.ext (by have := c.isLt; have := h.isLt; show (c.val * 8 + h.val) / 8 % 17 = c.val; omega)
    | ⟨2, _⟩ => exact Fin.ext (by have := c.isLt; have := h.isLt; show (c.val * 8 + h.val) % 8 = h.val; omega))

/-- The last layer's weight on the input x[n, 16]: the exponential of row 16 of `wlast[16]`. -/
theorem c16_we (x5 : (⟨S32x32x8, .f32⟩ : BufTy).Contents (Elt Ideal)) (h : Fin 8) :
    val_main_v576 (F := Ideal) x5 (ix2 (Fin.last 16 : Fin 17) h) = eexp (x5 (ix3 (⟨16, by norm_num⟩ : Fin 32) (⟨16, by norm_num⟩ : Fin 32) h)) := by
  unfold val_main_v576
  refine (cat_rows_last (val_main_v573 (F := Ideal) x5) (val_main_v575 (F := Ideal) x5) _ h).trans ?_
  rw [val_main_v575_apply, val_main_v574_apply, val_main_v572_apply, val_main_v571_apply]
  exact congrArg eexp (congrArg x5 (funext fun a => by
    match a with
    | ⟨0, _⟩ => rfl
    | ⟨1, _⟩ => exact Fin.ext (by have := h.isLt; show (16 * 8 + h.val) / 8 % 17 = 16; omega)
    | ⟨2, _⟩ => exact Fin.ext (by have := h.isLt; show (16 * 8 + h.val) % 8 = h.val; omega)))

/-- The last layer's inputs: hidden unit `c < 16` … -/
theorem c16_xc (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 16) :
    val_main_v597 (F := Ideal) x0 x1 x2 x3 x4 (ix2 n (Fin.castSucc c : Fin 17))
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 16 (by norm_num) c := by
  unfold val_main_v597
  exact (cat_cols_left (val_main_v595 (F := Ideal) x0 x1 x2 x3 x4) (val_main_v596 (F := Ideal) x0) _ n c).trans
    (c16_hid1 x0 x1 x2 x3 x4 n c)

/-- … and, last, the input x[n, 16]. -/
theorem c16_xl (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) :
    val_main_v597 (F := Ideal) x0 x1 x2 x3 x4 (ix2 n (Fin.last 16 : Fin 17)) = x0 (ix2 n (⟨16, by norm_num⟩ : Fin 32)) := by
  unfold val_main_v597
  refine (cat_cols_last (val_main_v595 (F := Ideal) x0 x1 x2 x3 x4) (val_main_v596 (F := Ideal) x0) _ n).trans ?_
  rw [val_main_v596_apply]
  exact congrArg x0 (funext fun a => by
    match a with
    | ⟨0, _⟩ => rfl
    | ⟨1, _⟩ => rfl)

/-- The last layer's bias. -/
theorem c16_bl (x6 : (⟨S32x8, .f32⟩ : BufTy).Contents (Elt Ideal)) (n : Fin 262144) (h : Fin 8) :
    val_main_v602 (F := Ideal) x6 (ix2 n h) = x6 (ix2 (⟨16, by norm_num⟩ : Fin 32) h) := by
  rw [val_main_v602_apply, val_main_v601_apply, val_main_v600_apply, val_main_v599_apply]
  exact congrArg x6 (funext fun a => by
    match a with
    | ⟨0, _⟩ => rfl
    | ⟨1, _⟩ => exact Fin.ext (by have := h.isLt; show h.val % 8 = h.val; omega))

/-- The last layer. -/
theorem c16_lay (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) (h : Fin 8) :
    val_main_v603 (F := Ideal) x0 x1 x2 x3 x4 x5 x6 (ix2 n h)
      = rlay (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 16 (by norm_num) h := by
  rw [val_main_v603_apply, val_main_v598_apply, c16_bl]
  have el : ∀ k : Fin 17, lidx_main_v598 (ix2 n h) k = ix2 n k := fun k => funext fun a => by
    match a with
    | ⟨0, _⟩ => rfl
    | ⟨1, _⟩ => rfl
  have er : ∀ k : Fin 17, ridx_main_v598 (ix2 n h) k = ix2 k h := fun k => funext fun a => by
    match a with
    | ⟨0, _⟩ => rfl
    | ⟨1, _⟩ => rfl
  refine lay_congr (d := 16) _ _ _ _ (fun c => ?_) ?_
  · rw [el, er, c16_xc, c16_wl]
  · rw [el, er, c16_xl, c16_we]

/-- **Component 16** of the reference at row `n`. -/
theorem comp_16 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v607 (F := Ideal) x0 x1 x2 x3 x4 x5 x6 (ix2 n (0 : Fin 1))
      = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 16 (by norm_num) := by
  rw [val_main_v607_apply]
  have e : idx_main_v607 (ix2 n (0 : Fin 1)) = ix1 n := funext fun a => by
    match a with
    | ⟨0, _⟩ => rfl
  rw [e]
  unfold val_main_v606 val_main_v605 refOut
  refine (pool_read (val_main_v604 (F := Ideal) x0 x1 x2 x3 x4 x5 x6) (val_main_cst_31 (F := Ideal)) (val_main_cst_32 (F := Ideal))
    _ _ _ rfl rfl n (fun h => val_main_v603 (F := Ideal) x0 x1 x2 x3 x4 x5 x6 (ix2 n h)) (fun g p => ?_)).trans ?_
  · rw [val_main_v604_apply]
    exact congrArg (val_main_v603 (F := Ideal) x0 x1 x2 x3 x4 x5 x6) (funext fun a => by
      match a with
      | ⟨0, _⟩ => exact Fin.ext (by have := g.isLt; have := p.isLt; show ((n.val * 4 + g.val) * 2 + p.val) / 8 = n.val; omega)
      | ⟨1, _⟩ => exact Fin.ext (by have := g.isLt; have := p.isLt; show ((n.val * 4 + g.val) * 2 + p.val) % 8 = 2 * g.val + p.val; omega))
  · exact congrArg pool (funext fun h => c16_lay x0 x1 x2 x3 x4 x5 x6 n h)

/-! ## Component 17

Its 17 earlier inputs x[n, i], i < 17, go through the two hidden layers (weights ws0[17, i, k], bs0[17, k] and
ws1[17, k, c], bs1[17, c] for c < 17); the last layer adds the input x[n, 17] itself, weighted by the exponential
of wlast[17, 17, h]. -/

/-- The earlier inputs: column `i < 17` of the row. -/
theorem c17_x (x0 : (⟨S262144x32, .f32⟩ : BufTy).Contents (Elt Ideal)) (n : Fin 262144) (i : Fin 17) :
    val_main_v614 (F := Ideal) x0 (ix2 n i) = x0 (ix2 n (up (d := 17) (by norm_num) i)) :=
  (val_main_v614_apply x0 _).trans (congrArg x0 (funext fun a => by
    match a with
    | ⟨0, _⟩ => rfl
    | ⟨1, _⟩ => rfl))

/-- The first layer's weights: row 17 of `ws0`, its first 17 inputs. -/
theorem c17_w0 (x1 : (⟨S32x32x32, .f32⟩ : BufTy).Contents (Elt Ideal)) (i : Fin 17) (k : Fin 32) :
    val_main_v616 (F := Ideal) x1 (ix2 i k) = x1 (ix3 (⟨17, by norm_num⟩ : Fin 32) (up (d := 17) (by norm_num) i) k) := by
  rw [val_main_v616_apply, val_main_v615_apply]
  exact congrArg x1 (funext fun a => by
    match a with
    | ⟨0, _⟩ => rfl
    | ⟨1, _⟩ => exact Fin.ext (by have := i.isLt; have := k.isLt; show (i.val * 32 + k.val) / 32 % 17 = i.val; omega)
    | ⟨2, _⟩ => exact Fin.ext (by have := i.isLt; have := k.isLt; show (i.val * 32 + k.val) % 32 = k.val; omega))

/-- The first layer's bias, the same in every row. -/
theorem c17_b0 (x2 : (⟨S32x32, .f32⟩ : BufTy).Contents (Elt Ideal)) (n : Fin 262144) (k : Fin 32) :
    val_main_v621 (F := Ideal) x2 (ix2 n k) = x2 (ix2 (⟨17, by norm_num⟩ : Fin 32) k) := by
  rw [val_main_v621_apply, val_main_v620_apply, val_main_v619_apply, val_main_v618_apply]
  exact congrArg x2 (funext fun a => by
    match a with
    | ⟨0, _⟩ => rfl
    | ⟨1, _⟩ => exact Fin.ext (by have := k.isLt; show k.val % 32 = k.val; omega))

theorem c17_z0 (n : Fin 262144) (k : Fin 32) : val_main_call32_v0 (F := Ideal) (ix2 n k) = 0 := by
  rw [val_main_call32_v0_apply, val_main_call32_cst_apply]
  exact Ideal.ofBits_zero_f32

/-- The first hidden layer. -/
theorem c17_hid0 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (n : Fin 262144) (k : Fin 32) :
    val_main_v623 (F := Ideal) x0 x1 x2 (ix2 n k) = rhid0 (fun i : Fin 32 => x0 (ix2 n i)) (fun a b c : Fin 32 => x1 (ix3 a b c)) (fun a b : Fin 32 => x2 (ix2 a b)) 17 (by norm_num) k := by
  rw [val_main_v623_apply, val_main_v622_apply, val_main_v617_apply, c17_b0]
  refine relu_affine_congr _ _ _ _ (c17_z0 n k) fun i => ?_
  have el : lidx_main_v617 (ix2 n k) i = ix2 n i := funext fun a => by
    match a with
    | ⟨0, _⟩ => rfl
    | ⟨1, _⟩ => rfl
  have er : ridx_main_v617 (ix2 n k) i = ix2 i k := funext fun a => by
    match a with
    | ⟨0, _⟩ => rfl
    | ⟨1, _⟩ => rfl
  rw [el, er, c17_x, c17_w0]

/-- The second layer's weights: row 17 of `ws1`, its first 17 outputs. -/
theorem c17_w1 (x3 : (⟨S32x32x32, .f32⟩ : BufTy).Contents (Elt Ideal)) (k : Fin 32) (c : Fin 17) :
    val_main_v625 (F := Ideal) x3 (ix2 k c) = x3 (ix3 (⟨17, by norm_num⟩ : Fin 32) k (up (d := 17) (by norm_num) c)) := by
  rw [val_main_v625_apply, val_main_v624_apply]
  exact congrArg x3 (funext fun a => by
    match a with
    | ⟨0, _⟩ => rfl
    | ⟨1, _⟩ => exact Fin.ext (by have := k.isLt; have := c.isLt; show (k.val * 17 + c.val) / 17 % 32 = k.val; omega)
    | ⟨2, _⟩ => exact Fin.ext (by have := k.isLt; have := c.isLt; show (k.val * 17 + c.val) % 17 = c.val; omega))

/-- The second layer's bias. -/
theorem c17_b1 (x4 : (⟨S32x32, .f32⟩ : BufTy).Contents (Elt Ideal)) (n : Fin 262144) (c : Fin 17) :
    val_main_v630 (F := Ideal) x4 (ix2 n c) = x4 (ix2 (⟨17, by norm_num⟩ : Fin 32) (up (d := 17) (by norm_num) c)) := by
  rw [val_main_v630_apply, val_main_v629_apply, val_main_v628_apply, val_main_v627_apply]
  exact congrArg x4 (funext fun a => by
    match a with
    | ⟨0, _⟩ => rfl
    | ⟨1, _⟩ => exact Fin.ext (by have := c.isLt; show c.val % 17 = c.val; omega))

theorem c17_z1 (n : Fin 262144) (c : Fin 17) : val_main_call33_v0 (F := Ideal) (ix2 n c) = 0 := by
  rw [val_main_call33_v0_apply, val_main_call33_cst_apply]
  exact Ideal.ofBits_zero_f32

/-- The second hidden layer. -/
theorem c17_hid1 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 17) :
    val_main_v632 (F := Ideal) x0 x1 x2 x3 x4 (ix2 n c)
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 17 (by norm_num) c := by
  rw [val_main_v632_apply, val_main_v631_apply, val_main_v626_apply, c17_b1]
  refine relu_affine_congr _ _ _ _ (c17_z1 n c) fun k => ?_
  have el : lidx_main_v626 (ix2 n c) k = ix2 n k := funext fun a => by
    match a with
    | ⟨0, _⟩ => rfl
    | ⟨1, _⟩ => rfl
  have er : ridx_main_v626 (ix2 n c) k = ix2 k c := funext fun a => by
    match a with
    | ⟨0, _⟩ => rfl
    | ⟨1, _⟩ => rfl
  rw [el, er, c17_hid0, c17_w1]

/-- The last layer's weights on the hidden units: the first 17 rows of `wlast[17]`. -/
theorem c17_wl (x5 : (⟨S32x32x8, .f32⟩ : BufTy).Contents (Elt Ideal)) (c : Fin 17) (h : Fin 8) :
    val_main_v613 (F := Ideal) x5 (ix2 (Fin.castSucc c : Fin 18) h) = x5 (ix3 (⟨17, by norm_num⟩ : Fin 32) (up (d := 17) (by norm_num) c) h) := by
  unfold val_main_v613
  refine (cat_rows_top (val_main_v610 (F := Ideal) x5) (val_main_v612 (F := Ideal) x5) _ c h).trans ?_
  rw [val_main_v610_apply, val_main_v609_apply, val_main_v608_apply]
  exact congrArg x5 (funext fun a => by
    match a with
    | ⟨0, _⟩ => rfl
    | ⟨1, _⟩ => exact Fin.ext (by have := c.isLt; have := h.isLt; show (c.val * 8 + h.val) / 8 % 18 = c.val; omega)
    | ⟨2, _⟩ => exact Fin.ext (by have := c.isLt; have := h.isLt; show (c.val * 8 + h.val) % 8 = h.val; omega))

/-- The last layer's weight on the input x[n, 17]: the exponential of row 17 of `wlast[17]`. -/
theorem c17_we (x5 : (⟨S32x32x8, .f32⟩ : BufTy).Contents (Elt Ideal)) (h : Fin 8) :
    val_main_v613 (F := Ideal) x5 (ix2 (Fin.last 17 : Fin 18) h) = eexp (x5 (ix3 (⟨17, by norm_num⟩ : Fin 32) (⟨17, by norm_num⟩ : Fin 32) h)) := by
  unfold val_main_v613
  refine (cat_rows_last (val_main_v610 (F := Ideal) x5) (val_main_v612 (F := Ideal) x5) _ h).trans ?_
  rw [val_main_v612_apply, val_main_v611_apply, val_main_v609_apply, val_main_v608_apply]
  exact congrArg eexp (congrArg x5 (funext fun a => by
    match a with
    | ⟨0, _⟩ => rfl
    | ⟨1, _⟩ => exact Fin.ext (by have := h.isLt; show (17 * 8 + h.val) / 8 % 18 = 17; omega)
    | ⟨2, _⟩ => exact Fin.ext (by have := h.isLt; show (17 * 8 + h.val) % 8 = h.val; omega)))

/-- The last layer's inputs: hidden unit `c < 17` … -/
theorem c17_xc (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 17) :
    val_main_v634 (F := Ideal) x0 x1 x2 x3 x4 (ix2 n (Fin.castSucc c : Fin 18))
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 17 (by norm_num) c := by
  unfold val_main_v634
  exact (cat_cols_left (val_main_v632 (F := Ideal) x0 x1 x2 x3 x4) (val_main_v633 (F := Ideal) x0) _ n c).trans
    (c17_hid1 x0 x1 x2 x3 x4 n c)

/-- … and, last, the input x[n, 17]. -/
theorem c17_xl (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) :
    val_main_v634 (F := Ideal) x0 x1 x2 x3 x4 (ix2 n (Fin.last 17 : Fin 18)) = x0 (ix2 n (⟨17, by norm_num⟩ : Fin 32)) := by
  unfold val_main_v634
  refine (cat_cols_last (val_main_v632 (F := Ideal) x0 x1 x2 x3 x4) (val_main_v633 (F := Ideal) x0) _ n).trans ?_
  rw [val_main_v633_apply]
  exact congrArg x0 (funext fun a => by
    match a with
    | ⟨0, _⟩ => rfl
    | ⟨1, _⟩ => rfl)

/-- The last layer's bias. -/
theorem c17_bl (x6 : (⟨S32x8, .f32⟩ : BufTy).Contents (Elt Ideal)) (n : Fin 262144) (h : Fin 8) :
    val_main_v639 (F := Ideal) x6 (ix2 n h) = x6 (ix2 (⟨17, by norm_num⟩ : Fin 32) h) := by
  rw [val_main_v639_apply, val_main_v638_apply, val_main_v637_apply, val_main_v636_apply]
  exact congrArg x6 (funext fun a => by
    match a with
    | ⟨0, _⟩ => rfl
    | ⟨1, _⟩ => exact Fin.ext (by have := h.isLt; show h.val % 8 = h.val; omega))

/-- The last layer. -/
theorem c17_lay (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) (h : Fin 8) :
    val_main_v640 (F := Ideal) x0 x1 x2 x3 x4 x5 x6 (ix2 n h)
      = rlay (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 17 (by norm_num) h := by
  rw [val_main_v640_apply, val_main_v635_apply, c17_bl]
  have el : ∀ k : Fin 18, lidx_main_v635 (ix2 n h) k = ix2 n k := fun k => funext fun a => by
    match a with
    | ⟨0, _⟩ => rfl
    | ⟨1, _⟩ => rfl
  have er : ∀ k : Fin 18, ridx_main_v635 (ix2 n h) k = ix2 k h := fun k => funext fun a => by
    match a with
    | ⟨0, _⟩ => rfl
    | ⟨1, _⟩ => rfl
  refine lay_congr (d := 17) _ _ _ _ (fun c => ?_) ?_
  · rw [el, er, c17_xc, c17_wl]
  · rw [el, er, c17_xl, c17_we]

/-- **Component 17** of the reference at row `n`. -/
theorem comp_17 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v644 (F := Ideal) x0 x1 x2 x3 x4 x5 x6 (ix2 n (0 : Fin 1))
      = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 17 (by norm_num) := by
  rw [val_main_v644_apply]
  have e : idx_main_v644 (ix2 n (0 : Fin 1)) = ix1 n := funext fun a => by
    match a with
    | ⟨0, _⟩ => rfl
  rw [e]
  unfold val_main_v643 val_main_v642 refOut
  refine (pool_read (val_main_v641 (F := Ideal) x0 x1 x2 x3 x4 x5 x6) (val_main_cst_33 (F := Ideal)) (val_main_cst_34 (F := Ideal))
    _ _ _ rfl rfl n (fun h => val_main_v640 (F := Ideal) x0 x1 x2 x3 x4 x5 x6 (ix2 n h)) (fun g p => ?_)).trans ?_
  · rw [val_main_v641_apply]
    exact congrArg (val_main_v640 (F := Ideal) x0 x1 x2 x3 x4 x5 x6) (funext fun a => by
      match a with
      | ⟨0, _⟩ => exact Fin.ext (by have := g.isLt; have := p.isLt; show ((n.val * 4 + g.val) * 2 + p.val) / 8 = n.val; omega)
      | ⟨1, _⟩ => exact Fin.ext (by have := g.isLt; have := p.isLt; show ((n.val * 4 + g.val) * 2 + p.val) % 8 = 2 * g.val + p.val; omega))
  · exact congrArg pool (funext fun h => c17_lay x0 x1 x2 x3 x4 x5 x6 n h)

/-! ## Component 18

Its 18 earlier inputs x[n, i], i < 18, go through the two hidden layers (weights ws0[18, i, k], bs0[18, k] and
ws1[18, k, c], bs1[18, c] for c < 18); the last layer adds the input x[n, 18] itself, weighted by the exponential
of wlast[18, 18, h]. -/

/-- The earlier inputs: column `i < 18` of the row. -/
theorem c18_x (x0 : (⟨S262144x32, .f32⟩ : BufTy).Contents (Elt Ideal)) (n : Fin 262144) (i : Fin 18) :
    val_main_v651 (F := Ideal) x0 (ix2 n i) = x0 (ix2 n (up (d := 18) (by norm_num) i)) :=
  (val_main_v651_apply x0 _).trans (congrArg x0 (funext fun a => by
    match a with
    | ⟨0, _⟩ => rfl
    | ⟨1, _⟩ => rfl))

/-- The first layer's weights: row 18 of `ws0`, its first 18 inputs. -/
theorem c18_w0 (x1 : (⟨S32x32x32, .f32⟩ : BufTy).Contents (Elt Ideal)) (i : Fin 18) (k : Fin 32) :
    val_main_v653 (F := Ideal) x1 (ix2 i k) = x1 (ix3 (⟨18, by norm_num⟩ : Fin 32) (up (d := 18) (by norm_num) i) k) := by
  rw [val_main_v653_apply, val_main_v652_apply]
  exact congrArg x1 (funext fun a => by
    match a with
    | ⟨0, _⟩ => rfl
    | ⟨1, _⟩ => exact Fin.ext (by have := i.isLt; have := k.isLt; show (i.val * 32 + k.val) / 32 % 18 = i.val; omega)
    | ⟨2, _⟩ => exact Fin.ext (by have := i.isLt; have := k.isLt; show (i.val * 32 + k.val) % 32 = k.val; omega))

/-- The first layer's bias, the same in every row. -/
theorem c18_b0 (x2 : (⟨S32x32, .f32⟩ : BufTy).Contents (Elt Ideal)) (n : Fin 262144) (k : Fin 32) :
    val_main_v658 (F := Ideal) x2 (ix2 n k) = x2 (ix2 (⟨18, by norm_num⟩ : Fin 32) k) := by
  rw [val_main_v658_apply, val_main_v657_apply, val_main_v656_apply, val_main_v655_apply]
  exact congrArg x2 (funext fun a => by
    match a with
    | ⟨0, _⟩ => rfl
    | ⟨1, _⟩ => exact Fin.ext (by have := k.isLt; show k.val % 32 = k.val; omega))

theorem c18_z0 (n : Fin 262144) (k : Fin 32) : val_main_call34_v0 (F := Ideal) (ix2 n k) = 0 := by
  rw [val_main_call34_v0_apply, val_main_call34_cst_apply]
  exact Ideal.ofBits_zero_f32

/-- The first hidden layer. -/
theorem c18_hid0 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (n : Fin 262144) (k : Fin 32) :
    val_main_v660 (F := Ideal) x0 x1 x2 (ix2 n k) = rhid0 (fun i : Fin 32 => x0 (ix2 n i)) (fun a b c : Fin 32 => x1 (ix3 a b c)) (fun a b : Fin 32 => x2 (ix2 a b)) 18 (by norm_num) k := by
  rw [val_main_v660_apply, val_main_v659_apply, val_main_v654_apply, c18_b0]
  refine relu_affine_congr _ _ _ _ (c18_z0 n k) fun i => ?_
  have el : lidx_main_v654 (ix2 n k) i = ix2 n i := funext fun a => by
    match a with
    | ⟨0, _⟩ => rfl
    | ⟨1, _⟩ => rfl
  have er : ridx_main_v654 (ix2 n k) i = ix2 i k := funext fun a => by
    match a with
    | ⟨0, _⟩ => rfl
    | ⟨1, _⟩ => rfl
  rw [el, er, c18_x, c18_w0]

/-- The second layer's weights: row 18 of `ws1`, its first 18 outputs. -/
theorem c18_w1 (x3 : (⟨S32x32x32, .f32⟩ : BufTy).Contents (Elt Ideal)) (k : Fin 32) (c : Fin 18) :
    val_main_v662 (F := Ideal) x3 (ix2 k c) = x3 (ix3 (⟨18, by norm_num⟩ : Fin 32) k (up (d := 18) (by norm_num) c)) := by
  rw [val_main_v662_apply, val_main_v661_apply]
  exact congrArg x3 (funext fun a => by
    match a with
    | ⟨0, _⟩ => rfl
    | ⟨1, _⟩ => exact Fin.ext (by have := k.isLt; have := c.isLt; show (k.val * 18 + c.val) / 18 % 32 = k.val; omega)
    | ⟨2, _⟩ => exact Fin.ext (by have := k.isLt; have := c.isLt; show (k.val * 18 + c.val) % 18 = c.val; omega))

/-- The second layer's bias. -/
theorem c18_b1 (x4 : (⟨S32x32, .f32⟩ : BufTy).Contents (Elt Ideal)) (n : Fin 262144) (c : Fin 18) :
    val_main_v667 (F := Ideal) x4 (ix2 n c) = x4 (ix2 (⟨18, by norm_num⟩ : Fin 32) (up (d := 18) (by norm_num) c)) := by
  rw [val_main_v667_apply, val_main_v666_apply, val_main_v665_apply, val_main_v664_apply]
  exact congrArg x4 (funext fun a => by
    match a with
    | ⟨0, _⟩ => rfl
    | ⟨1, _⟩ => exact Fin.ext (by have := c.isLt; show c.val % 18 = c.val; omega))

theorem c18_z1 (n : Fin 262144) (c : Fin 18) : val_main_call35_v0 (F := Ideal) (ix2 n c) = 0 := by
  rw [val_main_call35_v0_apply, val_main_call35_cst_apply]
  exact Ideal.ofBits_zero_f32

/-- The second hidden layer. -/
theorem c18_hid1 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 18) :
    val_main_v669 (F := Ideal) x0 x1 x2 x3 x4 (ix2 n c)
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 18 (by norm_num) c := by
  rw [val_main_v669_apply, val_main_v668_apply, val_main_v663_apply, c18_b1]
  refine relu_affine_congr _ _ _ _ (c18_z1 n c) fun k => ?_
  have el : lidx_main_v663 (ix2 n c) k = ix2 n k := funext fun a => by
    match a with
    | ⟨0, _⟩ => rfl
    | ⟨1, _⟩ => rfl
  have er : ridx_main_v663 (ix2 n c) k = ix2 k c := funext fun a => by
    match a with
    | ⟨0, _⟩ => rfl
    | ⟨1, _⟩ => rfl
  rw [el, er, c18_hid0, c18_w1]

/-- The last layer's weights on the hidden units: the first 18 rows of `wlast[18]`. -/
theorem c18_wl (x5 : (⟨S32x32x8, .f32⟩ : BufTy).Contents (Elt Ideal)) (c : Fin 18) (h : Fin 8) :
    val_main_v650 (F := Ideal) x5 (ix2 (Fin.castSucc c : Fin 19) h) = x5 (ix3 (⟨18, by norm_num⟩ : Fin 32) (up (d := 18) (by norm_num) c) h) := by
  unfold val_main_v650
  refine (cat_rows_top (val_main_v647 (F := Ideal) x5) (val_main_v649 (F := Ideal) x5) _ c h).trans ?_
  rw [val_main_v647_apply, val_main_v646_apply, val_main_v645_apply]
  exact congrArg x5 (funext fun a => by
    match a with
    | ⟨0, _⟩ => rfl
    | ⟨1, _⟩ => exact Fin.ext (by have := c.isLt; have := h.isLt; show (c.val * 8 + h.val) / 8 % 19 = c.val; omega)
    | ⟨2, _⟩ => exact Fin.ext (by have := c.isLt; have := h.isLt; show (c.val * 8 + h.val) % 8 = h.val; omega))

/-- The last layer's weight on the input x[n, 18]: the exponential of row 18 of `wlast[18]`. -/
theorem c18_we (x5 : (⟨S32x32x8, .f32⟩ : BufTy).Contents (Elt Ideal)) (h : Fin 8) :
    val_main_v650 (F := Ideal) x5 (ix2 (Fin.last 18 : Fin 19) h) = eexp (x5 (ix3 (⟨18, by norm_num⟩ : Fin 32) (⟨18, by norm_num⟩ : Fin 32) h)) := by
  unfold val_main_v650
  refine (cat_rows_last (val_main_v647 (F := Ideal) x5) (val_main_v649 (F := Ideal) x5) _ h).trans ?_
  rw [val_main_v649_apply, val_main_v648_apply, val_main_v646_apply, val_main_v645_apply]
  exact congrArg eexp (congrArg x5 (funext fun a => by
    match a with
    | ⟨0, _⟩ => rfl
    | ⟨1, _⟩ => exact Fin.ext (by have := h.isLt; show (18 * 8 + h.val) / 8 % 19 = 18; omega)
    | ⟨2, _⟩ => exact Fin.ext (by have := h.isLt; show (18 * 8 + h.val) % 8 = h.val; omega)))

/-- The last layer's inputs: hidden unit `c < 18` … -/
theorem c18_xc (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 18) :
    val_main_v671 (F := Ideal) x0 x1 x2 x3 x4 (ix2 n (Fin.castSucc c : Fin 19))
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 18 (by norm_num) c := by
  unfold val_main_v671
  exact (cat_cols_left (val_main_v669 (F := Ideal) x0 x1 x2 x3 x4) (val_main_v670 (F := Ideal) x0) _ n c).trans
    (c18_hid1 x0 x1 x2 x3 x4 n c)

/-- … and, last, the input x[n, 18]. -/
theorem c18_xl (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) :
    val_main_v671 (F := Ideal) x0 x1 x2 x3 x4 (ix2 n (Fin.last 18 : Fin 19)) = x0 (ix2 n (⟨18, by norm_num⟩ : Fin 32)) := by
  unfold val_main_v671
  refine (cat_cols_last (val_main_v669 (F := Ideal) x0 x1 x2 x3 x4) (val_main_v670 (F := Ideal) x0) _ n).trans ?_
  rw [val_main_v670_apply]
  exact congrArg x0 (funext fun a => by
    match a with
    | ⟨0, _⟩ => rfl
    | ⟨1, _⟩ => rfl)

/-- The last layer's bias. -/
theorem c18_bl (x6 : (⟨S32x8, .f32⟩ : BufTy).Contents (Elt Ideal)) (n : Fin 262144) (h : Fin 8) :
    val_main_v676 (F := Ideal) x6 (ix2 n h) = x6 (ix2 (⟨18, by norm_num⟩ : Fin 32) h) := by
  rw [val_main_v676_apply, val_main_v675_apply, val_main_v674_apply, val_main_v673_apply]
  exact congrArg x6 (funext fun a => by
    match a with
    | ⟨0, _⟩ => rfl
    | ⟨1, _⟩ => exact Fin.ext (by have := h.isLt; show h.val % 8 = h.val; omega))

/-- The last layer. -/
theorem c18_lay (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) (h : Fin 8) :
    val_main_v677 (F := Ideal) x0 x1 x2 x3 x4 x5 x6 (ix2 n h)
      = rlay (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 18 (by norm_num) h := by
  rw [val_main_v677_apply, val_main_v672_apply, c18_bl]
  have el : ∀ k : Fin 19, lidx_main_v672 (ix2 n h) k = ix2 n k := fun k => funext fun a => by
    match a with
    | ⟨0, _⟩ => rfl
    | ⟨1, _⟩ => rfl
  have er : ∀ k : Fin 19, ridx_main_v672 (ix2 n h) k = ix2 k h := fun k => funext fun a => by
    match a with
    | ⟨0, _⟩ => rfl
    | ⟨1, _⟩ => rfl
  refine lay_congr (d := 18) _ _ _ _ (fun c => ?_) ?_
  · rw [el, er, c18_xc, c18_wl]
  · rw [el, er, c18_xl, c18_we]

/-- **Component 18** of the reference at row `n`. -/
theorem comp_18 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v681 (F := Ideal) x0 x1 x2 x3 x4 x5 x6 (ix2 n (0 : Fin 1))
      = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 18 (by norm_num) := by
  rw [val_main_v681_apply]
  have e : idx_main_v681 (ix2 n (0 : Fin 1)) = ix1 n := funext fun a => by
    match a with
    | ⟨0, _⟩ => rfl
  rw [e]
  unfold val_main_v680 val_main_v679 refOut
  refine (pool_read (val_main_v678 (F := Ideal) x0 x1 x2 x3 x4 x5 x6) (val_main_cst_35 (F := Ideal)) (val_main_cst_36 (F := Ideal))
    _ _ _ rfl rfl n (fun h => val_main_v677 (F := Ideal) x0 x1 x2 x3 x4 x5 x6 (ix2 n h)) (fun g p => ?_)).trans ?_
  · rw [val_main_v678_apply]
    exact congrArg (val_main_v677 (F := Ideal) x0 x1 x2 x3 x4 x5 x6) (funext fun a => by
      match a with
      | ⟨0, _⟩ => exact Fin.ext (by have := g.isLt; have := p.isLt; show ((n.val * 4 + g.val) * 2 + p.val) / 8 = n.val; omega)
      | ⟨1, _⟩ => exact Fin.ext (by have := g.isLt; have := p.isLt; show ((n.val * 4 + g.val) * 2 + p.val) % 8 = 2 * g.val + p.val; omega))
  · exact congrArg pool (funext fun h => c18_lay x0 x1 x2 x3 x4 x5 x6 n h)

/-! ## Component 19

Its 19 earlier inputs x[n, i], i < 19, go through the two hidden layers (weights ws0[19, i, k], bs0[19, k] and
ws1[19, k, c], bs1[19, c] for c < 19); the last layer adds the input x[n, 19] itself, weighted by the exponential
of wlast[19, 19, h]. -/

/-- The earlier inputs: column `i < 19` of the row. -/
theorem c19_x (x0 : (⟨S262144x32, .f32⟩ : BufTy).Contents (Elt Ideal)) (n : Fin 262144) (i : Fin 19) :
    val_main_v688 (F := Ideal) x0 (ix2 n i) = x0 (ix2 n (up (d := 19) (by norm_num) i)) :=
  (val_main_v688_apply x0 _).trans (congrArg x0 (funext fun a => by
    match a with
    | ⟨0, _⟩ => rfl
    | ⟨1, _⟩ => rfl))

/-- The first layer's weights: row 19 of `ws0`, its first 19 inputs. -/
theorem c19_w0 (x1 : (⟨S32x32x32, .f32⟩ : BufTy).Contents (Elt Ideal)) (i : Fin 19) (k : Fin 32) :
    val_main_v690 (F := Ideal) x1 (ix2 i k) = x1 (ix3 (⟨19, by norm_num⟩ : Fin 32) (up (d := 19) (by norm_num) i) k) := by
  rw [val_main_v690_apply, val_main_v689_apply]
  exact congrArg x1 (funext fun a => by
    match a with
    | ⟨0, _⟩ => rfl
    | ⟨1, _⟩ => exact Fin.ext (by have := i.isLt; have := k.isLt; show (i.val * 32 + k.val) / 32 % 19 = i.val; omega)
    | ⟨2, _⟩ => exact Fin.ext (by have := i.isLt; have := k.isLt; show (i.val * 32 + k.val) % 32 = k.val; omega))

/-- The first layer's bias, the same in every row. -/
theorem c19_b0 (x2 : (⟨S32x32, .f32⟩ : BufTy).Contents (Elt Ideal)) (n : Fin 262144) (k : Fin 32) :
    val_main_v695 (F := Ideal) x2 (ix2 n k) = x2 (ix2 (⟨19, by norm_num⟩ : Fin 32) k) := by
  rw [val_main_v695_apply, val_main_v694_apply, val_main_v693_apply, val_main_v692_apply]
  exact congrArg x2 (funext fun a => by
    match a with
    | ⟨0, _⟩ => rfl
    | ⟨1, _⟩ => exact Fin.ext (by have := k.isLt; show k.val % 32 = k.val; omega))

theorem c19_z0 (n : Fin 262144) (k : Fin 32) : val_main_call36_v0 (F := Ideal) (ix2 n k) = 0 := by
  rw [val_main_call36_v0_apply, val_main_call36_cst_apply]
  exact Ideal.ofBits_zero_f32

/-- The first hidden layer. -/
theorem c19_hid0 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (n : Fin 262144) (k : Fin 32) :
    val_main_v697 (F := Ideal) x0 x1 x2 (ix2 n k) = rhid0 (fun i : Fin 32 => x0 (ix2 n i)) (fun a b c : Fin 32 => x1 (ix3 a b c)) (fun a b : Fin 32 => x2 (ix2 a b)) 19 (by norm_num) k := by
  rw [val_main_v697_apply, val_main_v696_apply, val_main_v691_apply, c19_b0]
  refine relu_affine_congr _ _ _ _ (c19_z0 n k) fun i => ?_
  have el : lidx_main_v691 (ix2 n k) i = ix2 n i := funext fun a => by
    match a with
    | ⟨0, _⟩ => rfl
    | ⟨1, _⟩ => rfl
  have er : ridx_main_v691 (ix2 n k) i = ix2 i k := funext fun a => by
    match a with
    | ⟨0, _⟩ => rfl
    | ⟨1, _⟩ => rfl
  rw [el, er, c19_x, c19_w0]

/-- The second layer's weights: row 19 of `ws1`, its first 19 outputs. -/
theorem c19_w1 (x3 : (⟨S32x32x32, .f32⟩ : BufTy).Contents (Elt Ideal)) (k : Fin 32) (c : Fin 19) :
    val_main_v699 (F := Ideal) x3 (ix2 k c) = x3 (ix3 (⟨19, by norm_num⟩ : Fin 32) k (up (d := 19) (by norm_num) c)) := by
  rw [val_main_v699_apply, val_main_v698_apply]
  exact congrArg x3 (funext fun a => by
    match a with
    | ⟨0, _⟩ => rfl
    | ⟨1, _⟩ => exact Fin.ext (by have := k.isLt; have := c.isLt; show (k.val * 19 + c.val) / 19 % 32 = k.val; omega)
    | ⟨2, _⟩ => exact Fin.ext (by have := k.isLt; have := c.isLt; show (k.val * 19 + c.val) % 19 = c.val; omega))

/-- The second layer's bias. -/
theorem c19_b1 (x4 : (⟨S32x32, .f32⟩ : BufTy).Contents (Elt Ideal)) (n : Fin 262144) (c : Fin 19) :
    val_main_v704 (F := Ideal) x4 (ix2 n c) = x4 (ix2 (⟨19, by norm_num⟩ : Fin 32) (up (d := 19) (by norm_num) c)) := by
  rw [val_main_v704_apply, val_main_v703_apply, val_main_v702_apply, val_main_v701_apply]
  exact congrArg x4 (funext fun a => by
    match a with
    | ⟨0, _⟩ => rfl
    | ⟨1, _⟩ => exact Fin.ext (by have := c.isLt; show c.val % 19 = c.val; omega))

theorem c19_z1 (n : Fin 262144) (c : Fin 19) : val_main_call37_v0 (F := Ideal) (ix2 n c) = 0 := by
  rw [val_main_call37_v0_apply, val_main_call37_cst_apply]
  exact Ideal.ofBits_zero_f32

/-- The second hidden layer. -/
theorem c19_hid1 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 19) :
    val_main_v706 (F := Ideal) x0 x1 x2 x3 x4 (ix2 n c)
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 19 (by norm_num) c := by
  rw [val_main_v706_apply, val_main_v705_apply, val_main_v700_apply, c19_b1]
  refine relu_affine_congr _ _ _ _ (c19_z1 n c) fun k => ?_
  have el : lidx_main_v700 (ix2 n c) k = ix2 n k := funext fun a => by
    match a with
    | ⟨0, _⟩ => rfl
    | ⟨1, _⟩ => rfl
  have er : ridx_main_v700 (ix2 n c) k = ix2 k c := funext fun a => by
    match a with
    | ⟨0, _⟩ => rfl
    | ⟨1, _⟩ => rfl
  rw [el, er, c19_hid0, c19_w1]

/-- The last layer's weights on the hidden units: the first 19 rows of `wlast[19]`. -/
theorem c19_wl (x5 : (⟨S32x32x8, .f32⟩ : BufTy).Contents (Elt Ideal)) (c : Fin 19) (h : Fin 8) :
    val_main_v687 (F := Ideal) x5 (ix2 (Fin.castSucc c : Fin 20) h) = x5 (ix3 (⟨19, by norm_num⟩ : Fin 32) (up (d := 19) (by norm_num) c) h) := by
  unfold val_main_v687
  refine (cat_rows_top (val_main_v684 (F := Ideal) x5) (val_main_v686 (F := Ideal) x5) _ c h).trans ?_
  rw [val_main_v684_apply, val_main_v683_apply, val_main_v682_apply]
  exact congrArg x5 (funext fun a => by
    match a with
    | ⟨0, _⟩ => rfl
    | ⟨1, _⟩ => exact Fin.ext (by have := c.isLt; have := h.isLt; show (c.val * 8 + h.val) / 8 % 20 = c.val; omega)
    | ⟨2, _⟩ => exact Fin.ext (by have := c.isLt; have := h.isLt; show (c.val * 8 + h.val) % 8 = h.val; omega))

/-- The last layer's weight on the input x[n, 19]: the exponential of row 19 of `wlast[19]`. -/
theorem c19_we (x5 : (⟨S32x32x8, .f32⟩ : BufTy).Contents (Elt Ideal)) (h : Fin 8) :
    val_main_v687 (F := Ideal) x5 (ix2 (Fin.last 19 : Fin 20) h) = eexp (x5 (ix3 (⟨19, by norm_num⟩ : Fin 32) (⟨19, by norm_num⟩ : Fin 32) h)) := by
  unfold val_main_v687
  refine (cat_rows_last (val_main_v684 (F := Ideal) x5) (val_main_v686 (F := Ideal) x5) _ h).trans ?_
  rw [val_main_v686_apply, val_main_v685_apply, val_main_v683_apply, val_main_v682_apply]
  exact congrArg eexp (congrArg x5 (funext fun a => by
    match a with
    | ⟨0, _⟩ => rfl
    | ⟨1, _⟩ => exact Fin.ext (by have := h.isLt; show (19 * 8 + h.val) / 8 % 20 = 19; omega)
    | ⟨2, _⟩ => exact Fin.ext (by have := h.isLt; show (19 * 8 + h.val) % 8 = h.val; omega)))

/-- The last layer's inputs: hidden unit `c < 19` … -/
theorem c19_xc (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 19) :
    val_main_v708 (F := Ideal) x0 x1 x2 x3 x4 (ix2 n (Fin.castSucc c : Fin 20))
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 19 (by norm_num) c := by
  unfold val_main_v708
  exact (cat_cols_left (val_main_v706 (F := Ideal) x0 x1 x2 x3 x4) (val_main_v707 (F := Ideal) x0) _ n c).trans
    (c19_hid1 x0 x1 x2 x3 x4 n c)

/-- … and, last, the input x[n, 19]. -/
theorem c19_xl (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) :
    val_main_v708 (F := Ideal) x0 x1 x2 x3 x4 (ix2 n (Fin.last 19 : Fin 20)) = x0 (ix2 n (⟨19, by norm_num⟩ : Fin 32)) := by
  unfold val_main_v708
  refine (cat_cols_last (val_main_v706 (F := Ideal) x0 x1 x2 x3 x4) (val_main_v707 (F := Ideal) x0) _ n).trans ?_
  rw [val_main_v707_apply]
  exact congrArg x0 (funext fun a => by
    match a with
    | ⟨0, _⟩ => rfl
    | ⟨1, _⟩ => rfl)

/-- The last layer's bias. -/
theorem c19_bl (x6 : (⟨S32x8, .f32⟩ : BufTy).Contents (Elt Ideal)) (n : Fin 262144) (h : Fin 8) :
    val_main_v713 (F := Ideal) x6 (ix2 n h) = x6 (ix2 (⟨19, by norm_num⟩ : Fin 32) h) := by
  rw [val_main_v713_apply, val_main_v712_apply, val_main_v711_apply, val_main_v710_apply]
  exact congrArg x6 (funext fun a => by
    match a with
    | ⟨0, _⟩ => rfl
    | ⟨1, _⟩ => exact Fin.ext (by have := h.isLt; show h.val % 8 = h.val; omega))

/-- The last layer. -/
theorem c19_lay (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) (h : Fin 8) :
    val_main_v714 (F := Ideal) x0 x1 x2 x3 x4 x5 x6 (ix2 n h)
      = rlay (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 19 (by norm_num) h := by
  rw [val_main_v714_apply, val_main_v709_apply, c19_bl]
  have el : ∀ k : Fin 20, lidx_main_v709 (ix2 n h) k = ix2 n k := fun k => funext fun a => by
    match a with
    | ⟨0, _⟩ => rfl
    | ⟨1, _⟩ => rfl
  have er : ∀ k : Fin 20, ridx_main_v709 (ix2 n h) k = ix2 k h := fun k => funext fun a => by
    match a with
    | ⟨0, _⟩ => rfl
    | ⟨1, _⟩ => rfl
  refine lay_congr (d := 19) _ _ _ _ (fun c => ?_) ?_
  · rw [el, er, c19_xc, c19_wl]
  · rw [el, er, c19_xl, c19_we]

/-- **Component 19** of the reference at row `n`. -/
theorem comp_19 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v718 (F := Ideal) x0 x1 x2 x3 x4 x5 x6 (ix2 n (0 : Fin 1))
      = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 19 (by norm_num) := by
  rw [val_main_v718_apply]
  have e : idx_main_v718 (ix2 n (0 : Fin 1)) = ix1 n := funext fun a => by
    match a with
    | ⟨0, _⟩ => rfl
  rw [e]
  unfold val_main_v717 val_main_v716 refOut
  refine (pool_read (val_main_v715 (F := Ideal) x0 x1 x2 x3 x4 x5 x6) (val_main_cst_37 (F := Ideal)) (val_main_cst_38 (F := Ideal))
    _ _ _ rfl rfl n (fun h => val_main_v714 (F := Ideal) x0 x1 x2 x3 x4 x5 x6 (ix2 n h)) (fun g p => ?_)).trans ?_
  · rw [val_main_v715_apply]
    exact congrArg (val_main_v714 (F := Ideal) x0 x1 x2 x3 x4 x5 x6) (funext fun a => by
      match a with
      | ⟨0, _⟩ => exact Fin.ext (by have := g.isLt; have := p.isLt; show ((n.val * 4 + g.val) * 2 + p.val) / 8 = n.val; omega)
      | ⟨1, _⟩ => exact Fin.ext (by have := g.isLt; have := p.isLt; show ((n.val * 4 + g.val) * 2 + p.val) % 8 = 2 * g.val + p.val; omega))
  · exact congrArg pool (funext fun h => c19_lay x0 x1 x2 x3 x4 x5 x6 n h)

/-! ## Component 20

Its 20 earlier inputs x[n, i], i < 20, go through the two hidden layers (weights ws0[20, i, k], bs0[20, k] and
ws1[20, k, c], bs1[20, c] for c < 20); the last layer adds the input x[n, 20] itself, weighted by the exponential
of wlast[20, 20, h]. -/

/-- The earlier inputs: column `i < 20` of the row. -/
theorem c20_x (x0 : (⟨S262144x32, .f32⟩ : BufTy).Contents (Elt Ideal)) (n : Fin 262144) (i : Fin 20) :
    val_main_v725 (F := Ideal) x0 (ix2 n i) = x0 (ix2 n (up (d := 20) (by norm_num) i)) :=
  (val_main_v725_apply x0 _).trans (congrArg x0 (funext fun a => by
    match a with
    | ⟨0, _⟩ => rfl
    | ⟨1, _⟩ => rfl))

/-- The first layer's weights: row 20 of `ws0`, its first 20 inputs. -/
theorem c20_w0 (x1 : (⟨S32x32x32, .f32⟩ : BufTy).Contents (Elt Ideal)) (i : Fin 20) (k : Fin 32) :
    val_main_v727 (F := Ideal) x1 (ix2 i k) = x1 (ix3 (⟨20, by norm_num⟩ : Fin 32) (up (d := 20) (by norm_num) i) k) := by
  rw [val_main_v727_apply, val_main_v726_apply]
  exact congrArg x1 (funext fun a => by
    match a with
    | ⟨0, _⟩ => rfl
    | ⟨1, _⟩ => exact Fin.ext (by have := i.isLt; have := k.isLt; show (i.val * 32 + k.val) / 32 % 20 = i.val; omega)
    | ⟨2, _⟩ => exact Fin.ext (by have := i.isLt; have := k.isLt; show (i.val * 32 + k.val) % 32 = k.val; omega))

/-- The first layer's bias, the same in every row. -/
theorem c20_b0 (x2 : (⟨S32x32, .f32⟩ : BufTy).Contents (Elt Ideal)) (n : Fin 262144) (k : Fin 32) :
    val_main_v732 (F := Ideal) x2 (ix2 n k) = x2 (ix2 (⟨20, by norm_num⟩ : Fin 32) k) := by
  rw [val_main_v732_apply, val_main_v731_apply, val_main_v730_apply, val_main_v729_apply]
  exact congrArg x2 (funext fun a => by
    match a with
    | ⟨0, _⟩ => rfl
    | ⟨1, _⟩ => exact Fin.ext (by have := k.isLt; show k.val % 32 = k.val; omega))

theorem c20_z0 (n : Fin 262144) (k : Fin 32) : val_main_call38_v0 (F := Ideal) (ix2 n k) = 0 := by
  rw [val_main_call38_v0_apply, val_main_call38_cst_apply]
  exact Ideal.ofBits_zero_f32

/-- The first hidden layer. -/
theorem c20_hid0 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (n : Fin 262144) (k : Fin 32) :
    val_main_v734 (F := Ideal) x0 x1 x2 (ix2 n k) = rhid0 (fun i : Fin 32 => x0 (ix2 n i)) (fun a b c : Fin 32 => x1 (ix3 a b c)) (fun a b : Fin 32 => x2 (ix2 a b)) 20 (by norm_num) k := by
  rw [val_main_v734_apply, val_main_v733_apply, val_main_v728_apply, c20_b0]
  refine relu_affine_congr _ _ _ _ (c20_z0 n k) fun i => ?_
  have el : lidx_main_v728 (ix2 n k) i = ix2 n i := funext fun a => by
    match a with
    | ⟨0, _⟩ => rfl
    | ⟨1, _⟩ => rfl
  have er : ridx_main_v728 (ix2 n k) i = ix2 i k := funext fun a => by
    match a with
    | ⟨0, _⟩ => rfl
    | ⟨1, _⟩ => rfl
  rw [el, er, c20_x, c20_w0]

/-- The second layer's weights: row 20 of `ws1`, its first 20 outputs. -/
theorem c20_w1 (x3 : (⟨S32x32x32, .f32⟩ : BufTy).Contents (Elt Ideal)) (k : Fin 32) (c : Fin 20) :
    val_main_v736 (F := Ideal) x3 (ix2 k c) = x3 (ix3 (⟨20, by norm_num⟩ : Fin 32) k (up (d := 20) (by norm_num) c)) := by
  rw [val_main_v736_apply, val_main_v735_apply]
  exact congrArg x3 (funext fun a => by
    match a with
    | ⟨0, _⟩ => rfl
    | ⟨1, _⟩ => exact Fin.ext (by have := k.isLt; have := c.isLt; show (k.val * 20 + c.val) / 20 % 32 = k.val; omega)
    | ⟨2, _⟩ => exact Fin.ext (by have := k.isLt; have := c.isLt; show (k.val * 20 + c.val) % 20 = c.val; omega))

/-- The second layer's bias. -/
theorem c20_b1 (x4 : (⟨S32x32, .f32⟩ : BufTy).Contents (Elt Ideal)) (n : Fin 262144) (c : Fin 20) :
    val_main_v741 (F := Ideal) x4 (ix2 n c) = x4 (ix2 (⟨20, by norm_num⟩ : Fin 32) (up (d := 20) (by norm_num) c)) := by
  rw [val_main_v741_apply, val_main_v740_apply, val_main_v739_apply, val_main_v738_apply]
  exact congrArg x4 (funext fun a => by
    match a with
    | ⟨0, _⟩ => rfl
    | ⟨1, _⟩ => exact Fin.ext (by have := c.isLt; show c.val % 20 = c.val; omega))

theorem c20_z1 (n : Fin 262144) (c : Fin 20) : val_main_call39_v0 (F := Ideal) (ix2 n c) = 0 := by
  rw [val_main_call39_v0_apply, val_main_call39_cst_apply]
  exact Ideal.ofBits_zero_f32

/-- The second hidden layer. -/
theorem c20_hid1 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 20) :
    val_main_v743 (F := Ideal) x0 x1 x2 x3 x4 (ix2 n c)
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 20 (by norm_num) c := by
  rw [val_main_v743_apply, val_main_v742_apply, val_main_v737_apply, c20_b1]
  refine relu_affine_congr _ _ _ _ (c20_z1 n c) fun k => ?_
  have el : lidx_main_v737 (ix2 n c) k = ix2 n k := funext fun a => by
    match a with
    | ⟨0, _⟩ => rfl
    | ⟨1, _⟩ => rfl
  have er : ridx_main_v737 (ix2 n c) k = ix2 k c := funext fun a => by
    match a with
    | ⟨0, _⟩ => rfl
    | ⟨1, _⟩ => rfl
  rw [el, er, c20_hid0, c20_w1]

/-- The last layer's weights on the hidden units: the first 20 rows of `wlast[20]`. -/
theorem c20_wl (x5 : (⟨S32x32x8, .f32⟩ : BufTy).Contents (Elt Ideal)) (c : Fin 20) (h : Fin 8) :
    val_main_v724 (F := Ideal) x5 (ix2 (Fin.castSucc c : Fin 21) h) = x5 (ix3 (⟨20, by norm_num⟩ : Fin 32) (up (d := 20) (by norm_num) c) h) := by
  unfold val_main_v724
  refine (cat_rows_top (val_main_v721 (F := Ideal) x5) (val_main_v723 (F := Ideal) x5) _ c h).trans ?_
  rw [val_main_v721_apply, val_main_v720_apply, val_main_v719_apply]
  exact congrArg x5 (funext fun a => by
    match a with
    | ⟨0, _⟩ => rfl
    | ⟨1, _⟩ => exact Fin.ext (by have := c.isLt; have := h.isLt; show (c.val * 8 + h.val) / 8 % 21 = c.val; omega)
    | ⟨2, _⟩ => exact Fin.ext (by have := c.isLt; have := h.isLt; show (c.val * 8 + h.val) % 8 = h.val; omega))

/-- The last layer's weight on the input x[n, 20]: the exponential of row 20 of `wlast[20]`. -/
theorem c20_we (x5 : (⟨S32x32x8, .f32⟩ : BufTy).Contents (Elt Ideal)) (h : Fin 8) :
    val_main_v724 (F := Ideal) x5 (ix2 (Fin.last 20 : Fin 21) h) = eexp (x5 (ix3 (⟨20, by norm_num⟩ : Fin 32) (⟨20, by norm_num⟩ : Fin 32) h)) := by
  unfold val_main_v724
  refine (cat_rows_last (val_main_v721 (F := Ideal) x5) (val_main_v723 (F := Ideal) x5) _ h).trans ?_
  rw [val_main_v723_apply, val_main_v722_apply, val_main_v720_apply, val_main_v719_apply]
  exact congrArg eexp (congrArg x5 (funext fun a => by
    match a with
    | ⟨0, _⟩ => rfl
    | ⟨1, _⟩ => exact Fin.ext (by have := h.isLt; show (20 * 8 + h.val) / 8 % 21 = 20; omega)
    | ⟨2, _⟩ => exact Fin.ext (by have := h.isLt; show (20 * 8 + h.val) % 8 = h.val; omega)))

/-- The last layer's inputs: hidden unit `c < 20` … -/
theorem c20_xc (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 20) :
    val_main_v745 (F := Ideal) x0 x1 x2 x3 x4 (ix2 n (Fin.castSucc c : Fin 21))
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 20 (by norm_num) c := by
  unfold val_main_v745
  exact (cat_cols_left (val_main_v743 (F := Ideal) x0 x1 x2 x3 x4) (val_main_v744 (F := Ideal) x0) _ n c).trans
    (c20_hid1 x0 x1 x2 x3 x4 n c)

/-- … and, last, the input x[n, 20]. -/
theorem c20_xl (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) :
    val_main_v745 (F := Ideal) x0 x1 x2 x3 x4 (ix2 n (Fin.last 20 : Fin 21)) = x0 (ix2 n (⟨20, by norm_num⟩ : Fin 32)) := by
  unfold val_main_v745
  refine (cat_cols_last (val_main_v743 (F := Ideal) x0 x1 x2 x3 x4) (val_main_v744 (F := Ideal) x0) _ n).trans ?_
  rw [val_main_v744_apply]
  exact congrArg x0 (funext fun a => by
    match a with
    | ⟨0, _⟩ => rfl
    | ⟨1, _⟩ => rfl)

/-- The last layer's bias. -/
theorem c20_bl (x6 : (⟨S32x8, .f32⟩ : BufTy).Contents (Elt Ideal)) (n : Fin 262144) (h : Fin 8) :
    val_main_v750 (F := Ideal) x6 (ix2 n h) = x6 (ix2 (⟨20, by norm_num⟩ : Fin 32) h) := by
  rw [val_main_v750_apply, val_main_v749_apply, val_main_v748_apply, val_main_v747_apply]
  exact congrArg x6 (funext fun a => by
    match a with
    | ⟨0, _⟩ => rfl
    | ⟨1, _⟩ => exact Fin.ext (by have := h.isLt; show h.val % 8 = h.val; omega))

/-- The last layer. -/
theorem c20_lay (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) (h : Fin 8) :
    val_main_v751 (F := Ideal) x0 x1 x2 x3 x4 x5 x6 (ix2 n h)
      = rlay (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 20 (by norm_num) h := by
  rw [val_main_v751_apply, val_main_v746_apply, c20_bl]
  have el : ∀ k : Fin 21, lidx_main_v746 (ix2 n h) k = ix2 n k := fun k => funext fun a => by
    match a with
    | ⟨0, _⟩ => rfl
    | ⟨1, _⟩ => rfl
  have er : ∀ k : Fin 21, ridx_main_v746 (ix2 n h) k = ix2 k h := fun k => funext fun a => by
    match a with
    | ⟨0, _⟩ => rfl
    | ⟨1, _⟩ => rfl
  refine lay_congr (d := 20) _ _ _ _ (fun c => ?_) ?_
  · rw [el, er, c20_xc, c20_wl]
  · rw [el, er, c20_xl, c20_we]

/-- **Component 20** of the reference at row `n`. -/
theorem comp_20 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v755 (F := Ideal) x0 x1 x2 x3 x4 x5 x6 (ix2 n (0 : Fin 1))
      = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 20 (by norm_num) := by
  rw [val_main_v755_apply]
  have e : idx_main_v755 (ix2 n (0 : Fin 1)) = ix1 n := funext fun a => by
    match a with
    | ⟨0, _⟩ => rfl
  rw [e]
  unfold val_main_v754 val_main_v753 refOut
  refine (pool_read (val_main_v752 (F := Ideal) x0 x1 x2 x3 x4 x5 x6) (val_main_cst_39 (F := Ideal)) (val_main_cst_40 (F := Ideal))
    _ _ _ rfl rfl n (fun h => val_main_v751 (F := Ideal) x0 x1 x2 x3 x4 x5 x6 (ix2 n h)) (fun g p => ?_)).trans ?_
  · rw [val_main_v752_apply]
    exact congrArg (val_main_v751 (F := Ideal) x0 x1 x2 x3 x4 x5 x6) (funext fun a => by
      match a with
      | ⟨0, _⟩ => exact Fin.ext (by have := g.isLt; have := p.isLt; show ((n.val * 4 + g.val) * 2 + p.val) / 8 = n.val; omega)
      | ⟨1, _⟩ => exact Fin.ext (by have := g.isLt; have := p.isLt; show ((n.val * 4 + g.val) * 2 + p.val) % 8 = 2 * g.val + p.val; omega))
  · exact congrArg pool (funext fun h => c20_lay x0 x1 x2 x3 x4 x5 x6 n h)

/-! ## Component 21

Its 21 earlier inputs x[n, i], i < 21, go through the two hidden layers (weights ws0[21, i, k], bs0[21, k] and
ws1[21, k, c], bs1[21, c] for c < 21); the last layer adds the input x[n, 21] itself, weighted by the exponential
of wlast[21, 21, h]. -/

/-- The earlier inputs: column `i < 21` of the row. -/
theorem c21_x (x0 : (⟨S262144x32, .f32⟩ : BufTy).Contents (Elt Ideal)) (n : Fin 262144) (i : Fin 21) :
    val_main_v762 (F := Ideal) x0 (ix2 n i) = x0 (ix2 n (up (d := 21) (by norm_num) i)) :=
  (val_main_v762_apply x0 _).trans (congrArg x0 (funext fun a => by
    match a with
    | ⟨0, _⟩ => rfl
    | ⟨1, _⟩ => rfl))

/-- The first layer's weights: row 21 of `ws0`, its first 21 inputs. -/
theorem c21_w0 (x1 : (⟨S32x32x32, .f32⟩ : BufTy).Contents (Elt Ideal)) (i : Fin 21) (k : Fin 32) :
    val_main_v764 (F := Ideal) x1 (ix2 i k) = x1 (ix3 (⟨21, by norm_num⟩ : Fin 32) (up (d := 21) (by norm_num) i) k) := by
  rw [val_main_v764_apply, val_main_v763_apply]
  exact congrArg x1 (funext fun a => by
    match a with
    | ⟨0, _⟩ => rfl
    | ⟨1, _⟩ => exact Fin.ext (by have := i.isLt; have := k.isLt; show (i.val * 32 + k.val) / 32 % 21 = i.val; omega)
    | ⟨2, _⟩ => exact Fin.ext (by have := i.isLt; have := k.isLt; show (i.val * 32 + k.val) % 32 = k.val; omega))

/-- The first layer's bias, the same in every row. -/
theorem c21_b0 (x2 : (⟨S32x32, .f32⟩ : BufTy).Contents (Elt Ideal)) (n : Fin 262144) (k : Fin 32) :
    val_main_v769 (F := Ideal) x2 (ix2 n k) = x2 (ix2 (⟨21, by norm_num⟩ : Fin 32) k) := by
  rw [val_main_v769_apply, val_main_v768_apply, val_main_v767_apply, val_main_v766_apply]
  exact congrArg x2 (funext fun a => by
    match a with
    | ⟨0, _⟩ => rfl
    | ⟨1, _⟩ => exact Fin.ext (by have := k.isLt; show k.val % 32 = k.val; omega))

theorem c21_z0 (n : Fin 262144) (k : Fin 32) : val_main_call40_v0 (F := Ideal) (ix2 n k) = 0 := by
  rw [val_main_call40_v0_apply, val_main_call40_cst_apply]
  exact Ideal.ofBits_zero_f32

/-- The first hidden layer. -/
theorem c21_hid0 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (n : Fin 262144) (k : Fin 32) :
    val_main_v771 (F := Ideal) x0 x1 x2 (ix2 n k) = rhid0 (fun i : Fin 32 => x0 (ix2 n i)) (fun a b c : Fin 32 => x1 (ix3 a b c)) (fun a b : Fin 32 => x2 (ix2 a b)) 21 (by norm_num) k := by
  rw [val_main_v771_apply, val_main_v770_apply, val_main_v765_apply, c21_b0]
  refine relu_affine_congr _ _ _ _ (c21_z0 n k) fun i => ?_
  have el : lidx_main_v765 (ix2 n k) i = ix2 n i := funext fun a => by
    match a with
    | ⟨0, _⟩ => rfl
    | ⟨1, _⟩ => rfl
  have er : ridx_main_v765 (ix2 n k) i = ix2 i k := funext fun a => by
    match a with
    | ⟨0, _⟩ => rfl
    | ⟨1, _⟩ => rfl
  rw [el, er, c21_x, c21_w0]

/-- The second layer's weights: row 21 of `ws1`, its first 21 outputs. -/
theorem c21_w1 (x3 : (⟨S32x32x32, .f32⟩ : BufTy).Contents (Elt Ideal)) (k : Fin 32) (c : Fin 21) :
    val_main_v773 (F := Ideal) x3 (ix2 k c) = x3 (ix3 (⟨21, by norm_num⟩ : Fin 32) k (up (d := 21) (by norm_num) c)) := by
  rw [val_main_v773_apply, val_main_v772_apply]
  exact congrArg x3 (funext fun a => by
    match a with
    | ⟨0, _⟩ => rfl
    | ⟨1, _⟩ => exact Fin.ext (by have := k.isLt; have := c.isLt; show (k.val * 21 + c.val) / 21 % 32 = k.val; omega)
    | ⟨2, _⟩ => exact Fin.ext (by have := k.isLt; have := c.isLt; show (k.val * 21 + c.val) % 21 = c.val; omega))

/-- The second layer's bias. -/
theorem c21_b1 (x4 : (⟨S32x32, .f32⟩ : BufTy).Contents (Elt Ideal)) (n : Fin 262144) (c : Fin 21) :
    val_main_v778 (F := Ideal) x4 (ix2 n c) = x4 (ix2 (⟨21, by norm_num⟩ : Fin 32) (up (d := 21) (by norm_num) c)) := by
  rw [val_main_v778_apply, val_main_v777_apply, val_main_v776_apply, val_main_v775_apply]
  exact congrArg x4 (funext fun a => by
    match a with
    | ⟨0, _⟩ => rfl
    | ⟨1, _⟩ => exact Fin.ext (by have := c.isLt; show c.val % 21 = c.val; omega))

theorem c21_z1 (n : Fin 262144) (c : Fin 21) : val_main_call41_v0 (F := Ideal) (ix2 n c) = 0 := by
  rw [val_main_call41_v0_apply, val_main_call41_cst_apply]
  exact Ideal.ofBits_zero_f32

/-- The second hidden layer. -/
theorem c21_hid1 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 21) :
    val_main_v780 (F := Ideal) x0 x1 x2 x3 x4 (ix2 n c)
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 21 (by norm_num) c := by
  rw [val_main_v780_apply, val_main_v779_apply, val_main_v774_apply, c21_b1]
  refine relu_affine_congr _ _ _ _ (c21_z1 n c) fun k => ?_
  have el : lidx_main_v774 (ix2 n c) k = ix2 n k := funext fun a => by
    match a with
    | ⟨0, _⟩ => rfl
    | ⟨1, _⟩ => rfl
  have er : ridx_main_v774 (ix2 n c) k = ix2 k c := funext fun a => by
    match a with
    | ⟨0, _⟩ => rfl
    | ⟨1, _⟩ => rfl
  rw [el, er, c21_hid0, c21_w1]

/-- The last layer's weights on the hidden units: the first 21 rows of `wlast[21]`. -/
theorem c21_wl (x5 : (⟨S32x32x8, .f32⟩ : BufTy).Contents (Elt Ideal)) (c : Fin 21) (h : Fin 8) :
    val_main_v761 (F := Ideal) x5 (ix2 (Fin.castSucc c : Fin 22) h) = x5 (ix3 (⟨21, by norm_num⟩ : Fin 32) (up (d := 21) (by norm_num) c) h) := by
  unfold val_main_v761
  refine (cat_rows_top (val_main_v758 (F := Ideal) x5) (val_main_v760 (F := Ideal) x5) _ c h).trans ?_
  rw [val_main_v758_apply, val_main_v757_apply, val_main_v756_apply]
  exact congrArg x5 (funext fun a => by
    match a with
    | ⟨0, _⟩ => rfl
    | ⟨1, _⟩ => exact Fin.ext (by have := c.isLt; have := h.isLt; show (c.val * 8 + h.val) / 8 % 22 = c.val; omega)
    | ⟨2, _⟩ => exact Fin.ext (by have := c.isLt; have := h.isLt; show (c.val * 8 + h.val) % 8 = h.val; omega))

/-- The last layer's weight on the input x[n, 21]: the exponential of row 21 of `wlast[21]`. -/
theorem c21_we (x5 : (⟨S32x32x8, .f32⟩ : BufTy).Contents (Elt Ideal)) (h : Fin 8) :
    val_main_v761 (F := Ideal) x5 (ix2 (Fin.last 21 : Fin 22) h) = eexp (x5 (ix3 (⟨21, by norm_num⟩ : Fin 32) (⟨21, by norm_num⟩ : Fin 32) h)) := by
  unfold val_main_v761
  refine (cat_rows_last (val_main_v758 (F := Ideal) x5) (val_main_v760 (F := Ideal) x5) _ h).trans ?_
  rw [val_main_v760_apply, val_main_v759_apply, val_main_v757_apply, val_main_v756_apply]
  exact congrArg eexp (congrArg x5 (funext fun a => by
    match a with
    | ⟨0, _⟩ => rfl
    | ⟨1, _⟩ => exact Fin.ext (by have := h.isLt; show (21 * 8 + h.val) / 8 % 22 = 21; omega)
    | ⟨2, _⟩ => exact Fin.ext (by have := h.isLt; show (21 * 8 + h.val) % 8 = h.val; omega)))

/-- The last layer's inputs: hidden unit `c < 21` … -/
theorem c21_xc (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 21) :
    val_main_v782 (F := Ideal) x0 x1 x2 x3 x4 (ix2 n (Fin.castSucc c : Fin 22))
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 21 (by norm_num) c := by
  unfold val_main_v782
  exact (cat_cols_left (val_main_v780 (F := Ideal) x0 x1 x2 x3 x4) (val_main_v781 (F := Ideal) x0) _ n c).trans
    (c21_hid1 x0 x1 x2 x3 x4 n c)

/-- … and, last, the input x[n, 21]. -/
theorem c21_xl (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) :
    val_main_v782 (F := Ideal) x0 x1 x2 x3 x4 (ix2 n (Fin.last 21 : Fin 22)) = x0 (ix2 n (⟨21, by norm_num⟩ : Fin 32)) := by
  unfold val_main_v782
  refine (cat_cols_last (val_main_v780 (F := Ideal) x0 x1 x2 x3 x4) (val_main_v781 (F := Ideal) x0) _ n).trans ?_
  rw [val_main_v781_apply]
  exact congrArg x0 (funext fun a => by
    match a with
    | ⟨0, _⟩ => rfl
    | ⟨1, _⟩ => rfl)

/-- The last layer's bias. -/
theorem c21_bl (x6 : (⟨S32x8, .f32⟩ : BufTy).Contents (Elt Ideal)) (n : Fin 262144) (h : Fin 8) :
    val_main_v787 (F := Ideal) x6 (ix2 n h) = x6 (ix2 (⟨21, by norm_num⟩ : Fin 32) h) := by
  rw [val_main_v787_apply, val_main_v786_apply, val_main_v785_apply, val_main_v784_apply]
  exact congrArg x6 (funext fun a => by
    match a with
    | ⟨0, _⟩ => rfl
    | ⟨1, _⟩ => exact Fin.ext (by have := h.isLt; show h.val % 8 = h.val; omega))

/-- The last layer. -/
theorem c21_lay (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) (h : Fin 8) :
    val_main_v788 (F := Ideal) x0 x1 x2 x3 x4 x5 x6 (ix2 n h)
      = rlay (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 21 (by norm_num) h := by
  rw [val_main_v788_apply, val_main_v783_apply, c21_bl]
  have el : ∀ k : Fin 22, lidx_main_v783 (ix2 n h) k = ix2 n k := fun k => funext fun a => by
    match a with
    | ⟨0, _⟩ => rfl
    | ⟨1, _⟩ => rfl
  have er : ∀ k : Fin 22, ridx_main_v783 (ix2 n h) k = ix2 k h := fun k => funext fun a => by
    match a with
    | ⟨0, _⟩ => rfl
    | ⟨1, _⟩ => rfl
  refine lay_congr (d := 21) _ _ _ _ (fun c => ?_) ?_
  · rw [el, er, c21_xc, c21_wl]
  · rw [el, er, c21_xl, c21_we]

/-- **Component 21** of the reference at row `n`. -/
theorem comp_21 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v792 (F := Ideal) x0 x1 x2 x3 x4 x5 x6 (ix2 n (0 : Fin 1))
      = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 21 (by norm_num) := by
  rw [val_main_v792_apply]
  have e : idx_main_v792 (ix2 n (0 : Fin 1)) = ix1 n := funext fun a => by
    match a with
    | ⟨0, _⟩ => rfl
  rw [e]
  unfold val_main_v791 val_main_v790 refOut
  refine (pool_read (val_main_v789 (F := Ideal) x0 x1 x2 x3 x4 x5 x6) (val_main_cst_41 (F := Ideal)) (val_main_cst_42 (F := Ideal))
    _ _ _ rfl rfl n (fun h => val_main_v788 (F := Ideal) x0 x1 x2 x3 x4 x5 x6 (ix2 n h)) (fun g p => ?_)).trans ?_
  · rw [val_main_v789_apply]
    exact congrArg (val_main_v788 (F := Ideal) x0 x1 x2 x3 x4 x5 x6) (funext fun a => by
      match a with
      | ⟨0, _⟩ => exact Fin.ext (by have := g.isLt; have := p.isLt; show ((n.val * 4 + g.val) * 2 + p.val) / 8 = n.val; omega)
      | ⟨1, _⟩ => exact Fin.ext (by have := g.isLt; have := p.isLt; show ((n.val * 4 + g.val) * 2 + p.val) % 8 = 2 * g.val + p.val; omega))
  · exact congrArg pool (funext fun h => c21_lay x0 x1 x2 x3 x4 x5 x6 n h)

/-! ## Component 22

Its 22 earlier inputs x[n, i], i < 22, go through the two hidden layers (weights ws0[22, i, k], bs0[22, k] and
ws1[22, k, c], bs1[22, c] for c < 22); the last layer adds the input x[n, 22] itself, weighted by the exponential
of wlast[22, 22, h]. -/

/-- The earlier inputs: column `i < 22` of the row. -/
theorem c22_x (x0 : (⟨S262144x32, .f32⟩ : BufTy).Contents (Elt Ideal)) (n : Fin 262144) (i : Fin 22) :
    val_main_v799 (F := Ideal) x0 (ix2 n i) = x0 (ix2 n (up (d := 22) (by norm_num) i)) :=
  (val_main_v799_apply x0 _).trans (congrArg x0 (funext fun a => by
    match a with
    | ⟨0, _⟩ => rfl
    | ⟨1, _⟩ => rfl))

/-- The first layer's weights: row 22 of `ws0`, its first 22 inputs. -/
theorem c22_w0 (x1 : (⟨S32x32x32, .f32⟩ : BufTy).Contents (Elt Ideal)) (i : Fin 22) (k : Fin 32) :
    val_main_v801 (F := Ideal) x1 (ix2 i k) = x1 (ix3 (⟨22, by norm_num⟩ : Fin 32) (up (d := 22) (by norm_num) i) k) := by
  rw [val_main_v801_apply, val_main_v800_apply]
  exact congrArg x1 (funext fun a => by
    match a with
    | ⟨0, _⟩ => rfl
    | ⟨1, _⟩ => exact Fin.ext (by have := i.isLt; have := k.isLt; show (i.val * 32 + k.val) / 32 % 22 = i.val; omega)
    | ⟨2, _⟩ => exact Fin.ext (by have := i.isLt; have := k.isLt; show (i.val * 32 + k.val) % 32 = k.val; omega))

/-- The first layer's bias, the same in every row. -/
theorem c22_b0 (x2 : (⟨S32x32, .f32⟩ : BufTy).Contents (Elt Ideal)) (n : Fin 262144) (k : Fin 32) :
    val_main_v806 (F := Ideal) x2 (ix2 n k) = x2 (ix2 (⟨22, by norm_num⟩ : Fin 32) k) := by
  rw [val_main_v806_apply, val_main_v805_apply, val_main_v804_apply, val_main_v803_apply]
  exact congrArg x2 (funext fun a => by
    match a with
    | ⟨0, _⟩ => rfl
    | ⟨1, _⟩ => exact Fin.ext (by have := k.isLt; show k.val % 32 = k.val; omega))

theorem c22_z0 (n : Fin 262144) (k : Fin 32) : val_main_call42_v0 (F := Ideal) (ix2 n k) = 0 := by
  rw [val_main_call42_v0_apply, val_main_call42_cst_apply]
  exact Ideal.ofBits_zero_f32

/-- The first hidden layer. -/
theorem c22_hid0 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (n : Fin 262144) (k : Fin 32) :
    val_main_v808 (F := Ideal) x0 x1 x2 (ix2 n k) = rhid0 (fun i : Fin 32 => x0 (ix2 n i)) (fun a b c : Fin 32 => x1 (ix3 a b c)) (fun a b : Fin 32 => x2 (ix2 a b)) 22 (by norm_num) k := by
  rw [val_main_v808_apply, val_main_v807_apply, val_main_v802_apply, c22_b0]
  refine relu_affine_congr _ _ _ _ (c22_z0 n k) fun i => ?_
  have el : lidx_main_v802 (ix2 n k) i = ix2 n i := funext fun a => by
    match a with
    | ⟨0, _⟩ => rfl
    | ⟨1, _⟩ => rfl
  have er : ridx_main_v802 (ix2 n k) i = ix2 i k := funext fun a => by
    match a with
    | ⟨0, _⟩ => rfl
    | ⟨1, _⟩ => rfl
  rw [el, er, c22_x, c22_w0]

/-- The second layer's weights: row 22 of `ws1`, its first 22 outputs. -/
theorem c22_w1 (x3 : (⟨S32x32x32, .f32⟩ : BufTy).Contents (Elt Ideal)) (k : Fin 32) (c : Fin 22) :
    val_main_v810 (F := Ideal) x3 (ix2 k c) = x3 (ix3 (⟨22, by norm_num⟩ : Fin 32) k (up (d := 22) (by norm_num) c)) := by
  rw [val_main_v810_apply, val_main_v809_apply]
  exact congrArg x3 (funext fun a => by
    match a with
    | ⟨0, _⟩ => rfl
    | ⟨1, _⟩ => exact Fin.ext (by have := k.isLt; have := c.isLt; show (k.val * 22 + c.val) / 22 % 32 = k.val; omega)
    | ⟨2, _⟩ => exact Fin.ext (by have := k.isLt; have := c.isLt; show (k.val * 22 + c.val) % 22 = c.val; omega))

/-- The second layer's bias. -/
theorem c22_b1 (x4 : (⟨S32x32, .f32⟩ : BufTy).Contents (Elt Ideal)) (n : Fin 262144) (c : Fin 22) :
    val_main_v815 (F := Ideal) x4 (ix2 n c) = x4 (ix2 (⟨22, by norm_num⟩ : Fin 32) (up (d := 22) (by norm_num) c)) := by
  rw [val_main_v815_apply, val_main_v814_apply, val_main_v813_apply, val_main_v812_apply]
  exact congrArg x4 (funext fun a => by
    match a with
    | ⟨0, _⟩ => rfl
    | ⟨1, _⟩ => exact Fin.ext (by have := c.isLt; show c.val % 22 = c.val; omega))

theorem c22_z1 (n : Fin 262144) (c : Fin 22) : val_main_call43_v0 (F := Ideal) (ix2 n c) = 0 := by
  rw [val_main_call43_v0_apply, val_main_call43_cst_apply]
  exact Ideal.ofBits_zero_f32

/-- The second hidden layer. -/
theorem c22_hid1 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 22) :
    val_main_v817 (F := Ideal) x0 x1 x2 x3 x4 (ix2 n c)
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 22 (by norm_num) c := by
  rw [val_main_v817_apply, val_main_v816_apply, val_main_v811_apply, c22_b1]
  refine relu_affine_congr _ _ _ _ (c22_z1 n c) fun k => ?_
  have el : lidx_main_v811 (ix2 n c) k = ix2 n k := funext fun a => by
    match a with
    | ⟨0, _⟩ => rfl
    | ⟨1, _⟩ => rfl
  have er : ridx_main_v811 (ix2 n c) k = ix2 k c := funext fun a => by
    match a with
    | ⟨0, _⟩ => rfl
    | ⟨1, _⟩ => rfl
  rw [el, er, c22_hid0, c22_w1]

/-- The last layer's weights on the hidden units: the first 22 rows of `wlast[22]`. -/
theorem c22_wl (x5 : (⟨S32x32x8, .f32⟩ : BufTy).Contents (Elt Ideal)) (c : Fin 22) (h : Fin 8) :
    val_main_v798 (F := Ideal) x5 (ix2 (Fin.castSucc c : Fin 23) h) = x5 (ix3 (⟨22, by norm_num⟩ : Fin 32) (up (d := 22) (by norm_num) c) h) := by
  unfold val_main_v798
  refine (cat_rows_top (val_main_v795 (F := Ideal) x5) (val_main_v797 (F := Ideal) x5) _ c h).trans ?_
  rw [val_main_v795_apply, val_main_v794_apply, val_main_v793_apply]
  exact congrArg x5 (funext fun a => by
    match a with
    | ⟨0, _⟩ => rfl
    | ⟨1, _⟩ => exact Fin.ext (by have := c.isLt; have := h.isLt; show (c.val * 8 + h.val) / 8 % 23 = c.val; omega)
    | ⟨2, _⟩ => exact Fin.ext (by have := c.isLt; have := h.isLt; show (c.val * 8 + h.val) % 8 = h.val; omega))

/-- The last layer's weight on the input x[n, 22]: the exponential of row 22 of `wlast[22]`. -/
theorem c22_we (x5 : (⟨S32x32x8, .f32⟩ : BufTy).Contents (Elt Ideal)) (h : Fin 8) :
    val_main_v798 (F := Ideal) x5 (ix2 (Fin.last 22 : Fin 23) h) = eexp (x5 (ix3 (⟨22, by norm_num⟩ : Fin 32) (⟨22, by norm_num⟩ : Fin 32) h)) := by
  unfold val_main_v798
  refine (cat_rows_last (val_main_v795 (F := Ideal) x5) (val_main_v797 (F := Ideal) x5) _ h).trans ?_
  rw [val_main_v797_apply, val_main_v796_apply, val_main_v794_apply, val_main_v793_apply]
  exact congrArg eexp (congrArg x5 (funext fun a => by
    match a with
    | ⟨0, _⟩ => rfl
    | ⟨1, _⟩ => exact Fin.ext (by have := h.isLt; show (22 * 8 + h.val) / 8 % 23 = 22; omega)
    | ⟨2, _⟩ => exact Fin.ext (by have := h.isLt; show (22 * 8 + h.val) % 8 = h.val; omega)))

/-- The last layer's inputs: hidden unit `c < 22` … -/
theorem c22_xc (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 22) :
    val_main_v819 (F := Ideal) x0 x1 x2 x3 x4 (ix2 n (Fin.castSucc c : Fin 23))
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 22 (by norm_num) c := by
  unfold val_main_v819
  exact (cat_cols_left (val_main_v817 (F := Ideal) x0 x1 x2 x3 x4) (val_main_v818 (F := Ideal) x0) _ n c).trans
    (c22_hid1 x0 x1 x2 x3 x4 n c)

/-- … and, last, the input x[n, 22]. -/
theorem c22_xl (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) :
    val_main_v819 (F := Ideal) x0 x1 x2 x3 x4 (ix2 n (Fin.last 22 : Fin 23)) = x0 (ix2 n (⟨22, by norm_num⟩ : Fin 32)) := by
  unfold val_main_v819
  refine (cat_cols_last (val_main_v817 (F := Ideal) x0 x1 x2 x3 x4) (val_main_v818 (F := Ideal) x0) _ n).trans ?_
  rw [val_main_v818_apply]
  exact congrArg x0 (funext fun a => by
    match a with
    | ⟨0, _⟩ => rfl
    | ⟨1, _⟩ => rfl)

/-- The last layer's bias. -/
theorem c22_bl (x6 : (⟨S32x8, .f32⟩ : BufTy).Contents (Elt Ideal)) (n : Fin 262144) (h : Fin 8) :
    val_main_v824 (F := Ideal) x6 (ix2 n h) = x6 (ix2 (⟨22, by norm_num⟩ : Fin 32) h) := by
  rw [val_main_v824_apply, val_main_v823_apply, val_main_v822_apply, val_main_v821_apply]
  exact congrArg x6 (funext fun a => by
    match a with
    | ⟨0, _⟩ => rfl
    | ⟨1, _⟩ => exact Fin.ext (by have := h.isLt; show h.val % 8 = h.val; omega))

/-- The last layer. -/
theorem c22_lay (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) (h : Fin 8) :
    val_main_v825 (F := Ideal) x0 x1 x2 x3 x4 x5 x6 (ix2 n h)
      = rlay (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 22 (by norm_num) h := by
  rw [val_main_v825_apply, val_main_v820_apply, c22_bl]
  have el : ∀ k : Fin 23, lidx_main_v820 (ix2 n h) k = ix2 n k := fun k => funext fun a => by
    match a with
    | ⟨0, _⟩ => rfl
    | ⟨1, _⟩ => rfl
  have er : ∀ k : Fin 23, ridx_main_v820 (ix2 n h) k = ix2 k h := fun k => funext fun a => by
    match a with
    | ⟨0, _⟩ => rfl
    | ⟨1, _⟩ => rfl
  refine lay_congr (d := 22) _ _ _ _ (fun c => ?_) ?_
  · rw [el, er, c22_xc, c22_wl]
  · rw [el, er, c22_xl, c22_we]

/-- **Component 22** of the reference at row `n`. -/
theorem comp_22 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v829 (F := Ideal) x0 x1 x2 x3 x4 x5 x6 (ix2 n (0 : Fin 1))
      = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 22 (by norm_num) := by
  rw [val_main_v829_apply]
  have e : idx_main_v829 (ix2 n (0 : Fin 1)) = ix1 n := funext fun a => by
    match a with
    | ⟨0, _⟩ => rfl
  rw [e]
  unfold val_main_v828 val_main_v827 refOut
  refine (pool_read (val_main_v826 (F := Ideal) x0 x1 x2 x3 x4 x5 x6) (val_main_cst_43 (F := Ideal)) (val_main_cst_44 (F := Ideal))
    _ _ _ rfl rfl n (fun h => val_main_v825 (F := Ideal) x0 x1 x2 x3 x4 x5 x6 (ix2 n h)) (fun g p => ?_)).trans ?_
  · rw [val_main_v826_apply]
    exact congrArg (val_main_v825 (F := Ideal) x0 x1 x2 x3 x4 x5 x6) (funext fun a => by
      match a with
      | ⟨0, _⟩ => exact Fin.ext (by have := g.isLt; have := p.isLt; show ((n.val * 4 + g.val) * 2 + p.val) / 8 = n.val; omega)
      | ⟨1, _⟩ => exact Fin.ext (by have := g.isLt; have := p.isLt; show ((n.val * 4 + g.val) * 2 + p.val) % 8 = 2 * g.val + p.val; omega))
  · exact congrArg pool (funext fun h => c22_lay x0 x1 x2 x3 x4 x5 x6 n h)

/-! ## Component 23

Its 23 earlier inputs x[n, i], i < 23, go through the two hidden layers (weights ws0[23, i, k], bs0[23, k] and
ws1[23, k, c], bs1[23, c] for c < 23); the last layer adds the input x[n, 23] itself, weighted by the exponential
of wlast[23, 23, h]. -/

/-- The earlier inputs: column `i < 23` of the row. -/
theorem c23_x (x0 : (⟨S262144x32, .f32⟩ : BufTy).Contents (Elt Ideal)) (n : Fin 262144) (i : Fin 23) :
    val_main_v836 (F := Ideal) x0 (ix2 n i) = x0 (ix2 n (up (d := 23) (by norm_num) i)) :=
  (val_main_v836_apply x0 _).trans (congrArg x0 (funext fun a => by
    match a with
    | ⟨0, _⟩ => rfl
    | ⟨1, _⟩ => rfl))

/-- The first layer's weights: row 23 of `ws0`, its first 23 inputs. -/
theorem c23_w0 (x1 : (⟨S32x32x32, .f32⟩ : BufTy).Contents (Elt Ideal)) (i : Fin 23) (k : Fin 32) :
    val_main_v838 (F := Ideal) x1 (ix2 i k) = x1 (ix3 (⟨23, by norm_num⟩ : Fin 32) (up (d := 23) (by norm_num) i) k) := by
  rw [val_main_v838_apply, val_main_v837_apply]
  exact congrArg x1 (funext fun a => by
    match a with
    | ⟨0, _⟩ => rfl
    | ⟨1, _⟩ => exact Fin.ext (by have := i.isLt; have := k.isLt; show (i.val * 32 + k.val) / 32 % 23 = i.val; omega)
    | ⟨2, _⟩ => exact Fin.ext (by have := i.isLt; have := k.isLt; show (i.val * 32 + k.val) % 32 = k.val; omega))

/-- The first layer's bias, the same in every row. -/
theorem c23_b0 (x2 : (⟨S32x32, .f32⟩ : BufTy).Contents (Elt Ideal)) (n : Fin 262144) (k : Fin 32) :
    val_main_v843 (F := Ideal) x2 (ix2 n k) = x2 (ix2 (⟨23, by norm_num⟩ : Fin 32) k) := by
  rw [val_main_v843_apply, val_main_v842_apply, val_main_v841_apply, val_main_v840_apply]
  exact congrArg x2 (funext fun a => by
    match a with
    | ⟨0, _⟩ => rfl
    | ⟨1, _⟩ => exact Fin.ext (by have := k.isLt; show k.val % 32 = k.val; omega))

theorem c23_z0 (n : Fin 262144) (k : Fin 32) : val_main_call44_v0 (F := Ideal) (ix2 n k) = 0 := by
  rw [val_main_call44_v0_apply, val_main_call44_cst_apply]
  exact Ideal.ofBits_zero_f32

/-- The first hidden layer. -/
theorem c23_hid0 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (n : Fin 262144) (k : Fin 32) :
    val_main_v845 (F := Ideal) x0 x1 x2 (ix2 n k) = rhid0 (fun i : Fin 32 => x0 (ix2 n i)) (fun a b c : Fin 32 => x1 (ix3 a b c)) (fun a b : Fin 32 => x2 (ix2 a b)) 23 (by norm_num) k := by
  rw [val_main_v845_apply, val_main_v844_apply, val_main_v839_apply, c23_b0]
  refine relu_affine_congr _ _ _ _ (c23_z0 n k) fun i => ?_
  have el : lidx_main_v839 (ix2 n k) i = ix2 n i := funext fun a => by
    match a with
    | ⟨0, _⟩ => rfl
    | ⟨1, _⟩ => rfl
  have er : ridx_main_v839 (ix2 n k) i = ix2 i k := funext fun a => by
    match a with
    | ⟨0, _⟩ => rfl
    | ⟨1, _⟩ => rfl
  rw [el, er, c23_x, c23_w0]

/-- The second layer's weights: row 23 of `ws1`, its first 23 outputs. -/
theorem c23_w1 (x3 : (⟨S32x32x32, .f32⟩ : BufTy).Contents (Elt Ideal)) (k : Fin 32) (c : Fin 23) :
    val_main_v847 (F := Ideal) x3 (ix2 k c) = x3 (ix3 (⟨23, by norm_num⟩ : Fin 32) k (up (d := 23) (by norm_num) c)) := by
  rw [val_main_v847_apply, val_main_v846_apply]
  exact congrArg x3 (funext fun a => by
    match a with
    | ⟨0, _⟩ => rfl
    | ⟨1, _⟩ => exact Fin.ext (by have := k.isLt; have := c.isLt; show (k.val * 23 + c.val) / 23 % 32 = k.val; omega)
    | ⟨2, _⟩ => exact Fin.ext (by have := k.isLt; have := c.isLt; show (k.val * 23 + c.val) % 23 = c.val; omega))

/-- The second layer's bias. -/
theorem c23_b1 (x4 : (⟨S32x32, .f32⟩ : BufTy).Contents (Elt Ideal)) (n : Fin 262144) (c : Fin 23) :
    val_main_v852 (F := Ideal) x4 (ix2 n c) = x4 (ix2 (⟨23, by norm_num⟩ : Fin 32) (up (d := 23) (by norm_num) c)) := by
  rw [val_main_v852_apply, val_main_v851_apply, val_main_v850_apply, val_main_v849_apply]
  exact congrArg x4 (funext fun a => by
    match a with
    | ⟨0, _⟩ => rfl
    | ⟨1, _⟩ => exact Fin.ext (by have := c.isLt; show c.val % 23 = c.val; omega))

theorem c23_z1 (n : Fin 262144) (c : Fin 23) : val_main_call45_v0 (F := Ideal) (ix2 n c) = 0 := by
  rw [val_main_call45_v0_apply, val_main_call45_cst_apply]
  exact Ideal.ofBits_zero_f32

/-- The second hidden layer. -/
theorem c23_hid1 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 23) :
    val_main_v854 (F := Ideal) x0 x1 x2 x3 x4 (ix2 n c)
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 23 (by norm_num) c := by
  rw [val_main_v854_apply, val_main_v853_apply, val_main_v848_apply, c23_b1]
  refine relu_affine_congr _ _ _ _ (c23_z1 n c) fun k => ?_
  have el : lidx_main_v848 (ix2 n c) k = ix2 n k := funext fun a => by
    match a with
    | ⟨0, _⟩ => rfl
    | ⟨1, _⟩ => rfl
  have er : ridx_main_v848 (ix2 n c) k = ix2 k c := funext fun a => by
    match a with
    | ⟨0, _⟩ => rfl
    | ⟨1, _⟩ => rfl
  rw [el, er, c23_hid0, c23_w1]

/-- The last layer's weights on the hidden units: the first 23 rows of `wlast[23]`. -/
theorem c23_wl (x5 : (⟨S32x32x8, .f32⟩ : BufTy).Contents (Elt Ideal)) (c : Fin 23) (h : Fin 8) :
    val_main_v835 (F := Ideal) x5 (ix2 (Fin.castSucc c : Fin 24) h) = x5 (ix3 (⟨23, by norm_num⟩ : Fin 32) (up (d := 23) (by norm_num) c) h) := by
  unfold val_main_v835
  refine (cat_rows_top (val_main_v832 (F := Ideal) x5) (val_main_v834 (F := Ideal) x5) _ c h).trans ?_
  rw [val_main_v832_apply, val_main_v831_apply, val_main_v830_apply]
  exact congrArg x5 (funext fun a => by
    match a with
    | ⟨0, _⟩ => rfl
    | ⟨1, _⟩ => exact Fin.ext (by have := c.isLt; have := h.isLt; show (c.val * 8 + h.val) / 8 % 24 = c.val; omega)
    | ⟨2, _⟩ => exact Fin.ext (by have := c.isLt; have := h.isLt; show (c.val * 8 + h.val) % 8 = h.val; omega))

/-- The last layer's weight on the input x[n, 23]: the exponential of row 23 of `wlast[23]`. -/
theorem c23_we (x5 : (⟨S32x32x8, .f32⟩ : BufTy).Contents (Elt Ideal)) (h : Fin 8) :
    val_main_v835 (F := Ideal) x5 (ix2 (Fin.last 23 : Fin 24) h) = eexp (x5 (ix3 (⟨23, by norm_num⟩ : Fin 32) (⟨23, by norm_num⟩ : Fin 32) h)) := by
  unfold val_main_v835
  refine (cat_rows_last (val_main_v832 (F := Ideal) x5) (val_main_v834 (F := Ideal) x5) _ h).trans ?_
  rw [val_main_v834_apply, val_main_v833_apply, val_main_v831_apply, val_main_v830_apply]
  exact congrArg eexp (congrArg x5 (funext fun a => by
    match a with
    | ⟨0, _⟩ => rfl
    | ⟨1, _⟩ => exact Fin.ext (by have := h.isLt; show (23 * 8 + h.val) / 8 % 24 = 23; omega)
    | ⟨2, _⟩ => exact Fin.ext (by have := h.isLt; show (23 * 8 + h.val) % 8 = h.val; omega)))

/-- The last layer's inputs: hidden unit `c < 23` … -/
theorem c23_xc (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 23) :
    val_main_v856 (F := Ideal) x0 x1 x2 x3 x4 (ix2 n (Fin.castSucc c : Fin 24))
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 23 (by norm_num) c := by
  unfold val_main_v856
  exact (cat_cols_left (val_main_v854 (F := Ideal) x0 x1 x2 x3 x4) (val_main_v855 (F := Ideal) x0) _ n c).trans
    (c23_hid1 x0 x1 x2 x3 x4 n c)

/-- … and, last, the input x[n, 23]. -/
theorem c23_xl (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) :
    val_main_v856 (F := Ideal) x0 x1 x2 x3 x4 (ix2 n (Fin.last 23 : Fin 24)) = x0 (ix2 n (⟨23, by norm_num⟩ : Fin 32)) := by
  unfold val_main_v856
  refine (cat_cols_last (val_main_v854 (F := Ideal) x0 x1 x2 x3 x4) (val_main_v855 (F := Ideal) x0) _ n).trans ?_
  rw [val_main_v855_apply]
  exact congrArg x0 (funext fun a => by
    match a with
    | ⟨0, _⟩ => rfl
    | ⟨1, _⟩ => rfl)

/-- The last layer's bias. -/
theorem c23_bl (x6 : (⟨S32x8, .f32⟩ : BufTy).Contents (Elt Ideal)) (n : Fin 262144) (h : Fin 8) :
    val_main_v861 (F := Ideal) x6 (ix2 n h) = x6 (ix2 (⟨23, by norm_num⟩ : Fin 32) h) := by
  rw [val_main_v861_apply, val_main_v860_apply, val_main_v859_apply, val_main_v858_apply]
  exact congrArg x6 (funext fun a => by
    match a with
    | ⟨0, _⟩ => rfl
    | ⟨1, _⟩ => exact Fin.ext (by have := h.isLt; show h.val % 8 = h.val; omega))

/-- The last layer. -/
theorem c23_lay (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) (h : Fin 8) :
    val_main_v862 (F := Ideal) x0 x1 x2 x3 x4 x5 x6 (ix2 n h)
      = rlay (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 23 (by norm_num) h := by
  rw [val_main_v862_apply, val_main_v857_apply, c23_bl]
  have el : ∀ k : Fin 24, lidx_main_v857 (ix2 n h) k = ix2 n k := fun k => funext fun a => by
    match a with
    | ⟨0, _⟩ => rfl
    | ⟨1, _⟩ => rfl
  have er : ∀ k : Fin 24, ridx_main_v857 (ix2 n h) k = ix2 k h := fun k => funext fun a => by
    match a with
    | ⟨0, _⟩ => rfl
    | ⟨1, _⟩ => rfl
  refine lay_congr (d := 23) _ _ _ _ (fun c => ?_) ?_
  · rw [el, er, c23_xc, c23_wl]
  · rw [el, er, c23_xl, c23_we]

/-- **Component 23** of the reference at row `n`. -/
theorem comp_23 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v866 (F := Ideal) x0 x1 x2 x3 x4 x5 x6 (ix2 n (0 : Fin 1))
      = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 23 (by norm_num) := by
  rw [val_main_v866_apply]
  have e : idx_main_v866 (ix2 n (0 : Fin 1)) = ix1 n := funext fun a => by
    match a with
    | ⟨0, _⟩ => rfl
  rw [e]
  unfold val_main_v865 val_main_v864 refOut
  refine (pool_read (val_main_v863 (F := Ideal) x0 x1 x2 x3 x4 x5 x6) (val_main_cst_45 (F := Ideal)) (val_main_cst_46 (F := Ideal))
    _ _ _ rfl rfl n (fun h => val_main_v862 (F := Ideal) x0 x1 x2 x3 x4 x5 x6 (ix2 n h)) (fun g p => ?_)).trans ?_
  · rw [val_main_v863_apply]
    exact congrArg (val_main_v862 (F := Ideal) x0 x1 x2 x3 x4 x5 x6) (funext fun a => by
      match a with
      | ⟨0, _⟩ => exact Fin.ext (by have := g.isLt; have := p.isLt; show ((n.val * 4 + g.val) * 2 + p.val) / 8 = n.val; omega)
      | ⟨1, _⟩ => exact Fin.ext (by have := g.isLt; have := p.isLt; show ((n.val * 4 + g.val) * 2 + p.val) % 8 = 2 * g.val + p.val; omega))
  · exact congrArg pool (funext fun h => c23_lay x0 x1 x2 x3 x4 x5 x6 n h)

end Cert.Monotone.Ref

end
-- ==== Proof.RefComp3.lean ====
/-
  The reference's components 24 … 31, each read stage by stage at a row `n` and identified with the
  specification's `refOut`. A component's column of the result is the pooling of its last layer; the last layer is read
  through the two joins (the exponentiated last weight row under the earlier rows; the component's own input after the
  hidden units), the hidden layers through their products and rectifiers.
-/
import proofs.«166035_j57586921505191_2_alg».proof.Proof.ReadP
import proofs.«166035_j57586921505191_2_alg».proof.Proof.RefLib

noncomputable section

namespace Cert.Monotone.Ref

open Cert.ReferenceIdeal Cert.ReferenceIdeal.Read Cert.ReferenceIdeal.Gen Idealize.ShloMosaic Idealize.ShloMosaic.ValueIdx Cert.Monotone

/-! ## Component 24

Its 24 earlier inputs x[n, i], i < 24, go through the two hidden layers (weights ws0[24, i, k], bs0[24, k] and
ws1[24, k, c], bs1[24, c] for c < 24); the last layer adds the input x[n, 24] itself, weighted by the exponential
of wlast[24, 24, h]. -/

/-- The earlier inputs: column `i < 24` of the row. -/
theorem c24_x (x0 : (⟨S262144x32, .f32⟩ : BufTy).Contents (Elt Ideal)) (n : Fin 262144) (i : Fin 24) :
    val_main_v873 (F := Ideal) x0 (ix2 n i) = x0 (ix2 n (up (d := 24) (by norm_num) i)) :=
  (val_main_v873_apply x0 _).trans (congrArg x0 (funext fun a => by
    match a with
    | ⟨0, _⟩ => rfl
    | ⟨1, _⟩ => rfl))

/-- The first layer's weights: row 24 of `ws0`, its first 24 inputs. -/
theorem c24_w0 (x1 : (⟨S32x32x32, .f32⟩ : BufTy).Contents (Elt Ideal)) (i : Fin 24) (k : Fin 32) :
    val_main_v875 (F := Ideal) x1 (ix2 i k) = x1 (ix3 (⟨24, by norm_num⟩ : Fin 32) (up (d := 24) (by norm_num) i) k) := by
  rw [val_main_v875_apply, val_main_v874_apply]
  exact congrArg x1 (funext fun a => by
    match a with
    | ⟨0, _⟩ => rfl
    | ⟨1, _⟩ => exact Fin.ext (by have := i.isLt; have := k.isLt; show (i.val * 32 + k.val) / 32 % 24 = i.val; omega)
    | ⟨2, _⟩ => exact Fin.ext (by have := i.isLt; have := k.isLt; show (i.val * 32 + k.val) % 32 = k.val; omega))

/-- The first layer's bias, the same in every row. -/
theorem c24_b0 (x2 : (⟨S32x32, .f32⟩ : BufTy).Contents (Elt Ideal)) (n : Fin 262144) (k : Fin 32) :
    val_main_v880 (F := Ideal) x2 (ix2 n k) = x2 (ix2 (⟨24, by norm_num⟩ : Fin 32) k) := by
  rw [val_main_v880_apply, val_main_v879_apply, val_main_v878_apply, val_main_v877_apply]
  exact congrArg x2 (funext fun a => by
    match a with
    | ⟨0, _⟩ => rfl
    | ⟨1, _⟩ => exact Fin.ext (by have := k.isLt; show k.val % 32 = k.val; omega))

theorem c24_z0 (n : Fin 262144) (k : Fin 32) : val_main_call46_v0 (F := Ideal) (ix2 n k) = 0 := by
  rw [val_main_call46_v0_apply, val_main_call46_cst_apply]
  exact Ideal.ofBits_zero_f32

/-- The first hidden layer. -/
theorem c24_hid0 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (n : Fin 262144) (k : Fin 32) :
    val_main_v882 (F := Ideal) x0 x1 x2 (ix2 n k) = rhid0 (fun i : Fin 32 => x0 (ix2 n i)) (fun a b c : Fin 32 => x1 (ix3 a b c)) (fun a b : Fin 32 => x2 (ix2 a b)) 24 (by norm_num) k := by
  rw [val_main_v882_apply, val_main_v881_apply, val_main_v876_apply, c24_b0]
  refine relu_affine_congr _ _ _ _ (c24_z0 n k) fun i => ?_
  have el : lidx_main_v876 (ix2 n k) i = ix2 n i := funext fun a => by
    match a with
    | ⟨0, _⟩ => rfl
    | ⟨1, _⟩ => rfl
  have er : ridx_main_v876 (ix2 n k) i = ix2 i k := funext fun a => by
    match a with
    | ⟨0, _⟩ => rfl
    | ⟨1, _⟩ => rfl
  rw [el, er, c24_x, c24_w0]

/-- The second layer's weights: row 24 of `ws1`, its first 24 outputs. -/
theorem c24_w1 (x3 : (⟨S32x32x32, .f32⟩ : BufTy).Contents (Elt Ideal)) (k : Fin 32) (c : Fin 24) :
    val_main_v884 (F := Ideal) x3 (ix2 k c) = x3 (ix3 (⟨24, by norm_num⟩ : Fin 32) k (up (d := 24) (by norm_num) c)) := by
  rw [val_main_v884_apply, val_main_v883_apply]
  exact congrArg x3 (funext fun a => by
    match a with
    | ⟨0, _⟩ => rfl
    | ⟨1, _⟩ => exact Fin.ext (by have := k.isLt; have := c.isLt; show (k.val * 24 + c.val) / 24 % 32 = k.val; omega)
    | ⟨2, _⟩ => exact Fin.ext (by have := k.isLt; have := c.isLt; show (k.val * 24 + c.val) % 24 = c.val; omega))

/-- The second layer's bias. -/
theorem c24_b1 (x4 : (⟨S32x32, .f32⟩ : BufTy).Contents (Elt Ideal)) (n : Fin 262144) (c : Fin 24) :
    val_main_v889 (F := Ideal) x4 (ix2 n c) = x4 (ix2 (⟨24, by norm_num⟩ : Fin 32) (up (d := 24) (by norm_num) c)) := by
  rw [val_main_v889_apply, val_main_v888_apply, val_main_v887_apply, val_main_v886_apply]
  exact congrArg x4 (funext fun a => by
    match a with
    | ⟨0, _⟩ => rfl
    | ⟨1, _⟩ => exact Fin.ext (by have := c.isLt; show c.val % 24 = c.val; omega))

theorem c24_z1 (n : Fin 262144) (c : Fin 24) : val_main_call47_v0 (F := Ideal) (ix2 n c) = 0 := by
  rw [val_main_call47_v0_apply, val_main_call47_cst_apply]
  exact Ideal.ofBits_zero_f32

/-- The second hidden layer. -/
theorem c24_hid1 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 24) :
    val_main_v891 (F := Ideal) x0 x1 x2 x3 x4 (ix2 n c)
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 24 (by norm_num) c := by
  rw [val_main_v891_apply, val_main_v890_apply, val_main_v885_apply, c24_b1]
  refine relu_affine_congr _ _ _ _ (c24_z1 n c) fun k => ?_
  have el : lidx_main_v885 (ix2 n c) k = ix2 n k := funext fun a => by
    match a with
    | ⟨0, _⟩ => rfl
    | ⟨1, _⟩ => rfl
  have er : ridx_main_v885 (ix2 n c) k = ix2 k c := funext fun a => by
    match a with
    | ⟨0, _⟩ => rfl
    | ⟨1, _⟩ => rfl
  rw [el, er, c24_hid0, c24_w1]

/-- The last layer's weights on the hidden units: the first 24 rows of `wlast[24]`. -/
theorem c24_wl (x5 : (⟨S32x32x8, .f32⟩ : BufTy).Contents (Elt Ideal)) (c : Fin 24) (h : Fin 8) :
    val_main_v872 (F := Ideal) x5 (ix2 (Fin.castSucc c : Fin 25) h) = x5 (ix3 (⟨24, by norm_num⟩ : Fin 32) (up (d := 24) (by norm_num) c) h) := by
  unfold val_main_v872
  refine (cat_rows_top (val_main_v869 (F := Ideal) x5) (val_main_v871 (F := Ideal) x5) _ c h).trans ?_
  rw [val_main_v869_apply, val_main_v868_apply, val_main_v867_apply]
  exact congrArg x5 (funext fun a => by
    match a with
    | ⟨0, _⟩ => rfl
    | ⟨1, _⟩ => exact Fin.ext (by have := c.isLt; have := h.isLt; show (c.val * 8 + h.val) / 8 % 25 = c.val; omega)
    | ⟨2, _⟩ => exact Fin.ext (by have := c.isLt; have := h.isLt; show (c.val * 8 + h.val) % 8 = h.val; omega))

/-- The last layer's weight on the input x[n, 24]: the exponential of row 24 of `wlast[24]`. -/
theorem c24_we (x5 : (⟨S32x32x8, .f32⟩ : BufTy).Contents (Elt Ideal)) (h : Fin 8) :
    val_main_v872 (F := Ideal) x5 (ix2 (Fin.last 24 : Fin 25) h) = eexp (x5 (ix3 (⟨24, by norm_num⟩ : Fin 32) (⟨24, by norm_num⟩ : Fin 32) h)) := by
  unfold val_main_v872
  refine (cat_rows_last (val_main_v869 (F := Ideal) x5) (val_main_v871 (F := Ideal) x5) _ h).trans ?_
  rw [val_main_v871_apply, val_main_v870_apply, val_main_v868_apply, val_main_v867_apply]
  exact congrArg eexp (congrArg x5 (funext fun a => by
    match a with
    | ⟨0, _⟩ => rfl
    | ⟨1, _⟩ => exact Fin.ext (by have := h.isLt; show (24 * 8 + h.val) / 8 % 25 = 24; omega)
    | ⟨2, _⟩ => exact Fin.ext (by have := h.isLt; show (24 * 8 + h.val) % 8 = h.val; omega)))

/-- The last layer's inputs: hidden unit `c < 24` … -/
theorem c24_xc (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 24) :
    val_main_v893 (F := Ideal) x0 x1 x2 x3 x4 (ix2 n (Fin.castSucc c : Fin 25))
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 24 (by norm_num) c := by
  unfold val_main_v893
  exact (cat_cols_left (val_main_v891 (F := Ideal) x0 x1 x2 x3 x4) (val_main_v892 (F := Ideal) x0) _ n c).trans
    (c24_hid1 x0 x1 x2 x3 x4 n c)

/-- … and, last, the input x[n, 24]. -/
theorem c24_xl (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) :
    val_main_v893 (F := Ideal) x0 x1 x2 x3 x4 (ix2 n (Fin.last 24 : Fin 25)) = x0 (ix2 n (⟨24, by norm_num⟩ : Fin 32)) := by
  unfold val_main_v893
  refine (cat_cols_last (val_main_v891 (F := Ideal) x0 x1 x2 x3 x4) (val_main_v892 (F := Ideal) x0) _ n).trans ?_
  rw [val_main_v892_apply]
  exact congrArg x0 (funext fun a => by
    match a with
    | ⟨0, _⟩ => rfl
    | ⟨1, _⟩ => rfl)

/-- The last layer's bias. -/
theorem c24_bl (x6 : (⟨S32x8, .f32⟩ : BufTy).Contents (Elt Ideal)) (n : Fin 262144) (h : Fin 8) :
    val_main_v898 (F := Ideal) x6 (ix2 n h) = x6 (ix2 (⟨24, by norm_num⟩ : Fin 32) h) := by
  rw [val_main_v898_apply, val_main_v897_apply, val_main_v896_apply, val_main_v895_apply]
  exact congrArg x6 (funext fun a => by
    match a with
    | ⟨0, _⟩ => rfl
    | ⟨1, _⟩ => exact Fin.ext (by have := h.isLt; show h.val % 8 = h.val; omega))

/-- The last layer. -/
theorem c24_lay (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) (h : Fin 8) :
    val_main_v899 (F := Ideal) x0 x1 x2 x3 x4 x5 x6 (ix2 n h)
      = rlay (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 24 (by norm_num) h := by
  rw [val_main_v899_apply, val_main_v894_apply, c24_bl]
  have el : ∀ k : Fin 25, lidx_main_v894 (ix2 n h) k = ix2 n k := fun k => funext fun a => by
    match a with
    | ⟨0, _⟩ => rfl
    | ⟨1, _⟩ => rfl
  have er : ∀ k : Fin 25, ridx_main_v894 (ix2 n h) k = ix2 k h := fun k => funext fun a => by
    match a with
    | ⟨0, _⟩ => rfl
    | ⟨1, _⟩ => rfl
  refine lay_congr (d := 24) _ _ _ _ (fun c => ?_) ?_
  · rw [el, er, c24_xc, c24_wl]
  · rw [el, er, c24_xl, c24_we]

/-- **Component 24** of the reference at row `n`. -/
theorem comp_24 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v903 (F := Ideal) x0 x1 x2 x3 x4 x5 x6 (ix2 n (0 : Fin 1))
      = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 24 (by norm_num) := by
  rw [val_main_v903_apply]
  have e : idx_main_v903 (ix2 n (0 : Fin 1)) = ix1 n := funext fun a => by
    match a with
    | ⟨0, _⟩ => rfl
  rw [e]
  unfold val_main_v902 val_main_v901 refOut
  refine (pool_read (val_main_v900 (F := Ideal) x0 x1 x2 x3 x4 x5 x6) (val_main_cst_47 (F := Ideal)) (val_main_cst_48 (F := Ideal))
    _ _ _ rfl rfl n (fun h => val_main_v899 (F := Ideal) x0 x1 x2 x3 x4 x5 x6 (ix2 n h)) (fun g p => ?_)).trans ?_
  · rw [val_main_v900_apply]
    exact congrArg (val_main_v899 (F := Ideal) x0 x1 x2 x3 x4 x5 x6) (funext fun a => by
      match a with
      | ⟨0, _⟩ => exact Fin.ext (by have := g.isLt; have := p.isLt; show ((n.val * 4 + g.val) * 2 + p.val) / 8 = n.val; omega)
      | ⟨1, _⟩ => exact Fin.ext (by have := g.isLt; have := p.isLt; show ((n.val * 4 + g.val) * 2 + p.val) % 8 = 2 * g.val + p.val; omega))
  · exact congrArg pool (funext fun h => c24_lay x0 x1 x2 x3 x4 x5 x6 n h)

/-! ## Component 25

Its 25 earlier inputs x[n, i], i < 25, go through the two hidden layers (weights ws0[25, i, k], bs0[25, k] and
ws1[25, k, c], bs1[25, c] for c < 25); the last layer adds the input x[n, 25] itself, weighted by the exponential
of wlast[25, 25, h]. -/

/-- The earlier inputs: column `i < 25` of the row. -/
theorem c25_x (x0 : (⟨S262144x32, .f32⟩ : BufTy).Contents (Elt Ideal)) (n : Fin 262144) (i : Fin 25) :
    val_main_v910 (F := Ideal) x0 (ix2 n i) = x0 (ix2 n (up (d := 25) (by norm_num) i)) :=
  (val_main_v910_apply x0 _).trans (congrArg x0 (funext fun a => by
    match a with
    | ⟨0, _⟩ => rfl
    | ⟨1, _⟩ => rfl))

/-- The first layer's weights: row 25 of `ws0`, its first 25 inputs. -/
theorem c25_w0 (x1 : (⟨S32x32x32, .f32⟩ : BufTy).Contents (Elt Ideal)) (i : Fin 25) (k : Fin 32) :
    val_main_v912 (F := Ideal) x1 (ix2 i k) = x1 (ix3 (⟨25, by norm_num⟩ : Fin 32) (up (d := 25) (by norm_num) i) k) := by
  rw [val_main_v912_apply, val_main_v911_apply]
  exact congrArg x1 (funext fun a => by
    match a with
    | ⟨0, _⟩ => rfl
    | ⟨1, _⟩ => exact Fin.ext (by have := i.isLt; have := k.isLt; show (i.val * 32 + k.val) / 32 % 25 = i.val; omega)
    | ⟨2, _⟩ => exact Fin.ext (by have := i.isLt; have := k.isLt; show (i.val * 32 + k.val) % 32 = k.val; omega))

/-- The first layer's bias, the same in every row. -/
theorem c25_b0 (x2 : (⟨S32x32, .f32⟩ : BufTy).Contents (Elt Ideal)) (n : Fin 262144) (k : Fin 32) :
    val_main_v917 (F := Ideal) x2 (ix2 n k) = x2 (ix2 (⟨25, by norm_num⟩ : Fin 32) k) := by
  rw [val_main_v917_apply, val_main_v916_apply, val_main_v915_apply, val_main_v914_apply]
  exact congrArg x2 (funext fun a => by
    match a with
    | ⟨0, _⟩ => rfl
    | ⟨1, _⟩ => exact Fin.ext (by have := k.isLt; show k.val % 32 = k.val; omega))

theorem c25_z0 (n : Fin 262144) (k : Fin 32) : val_main_call48_v0 (F := Ideal) (ix2 n k) = 0 := by
  rw [val_main_call48_v0_apply, val_main_call48_cst_apply]
  exact Ideal.ofBits_zero_f32

/-- The first hidden layer. -/
theorem c25_hid0 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (n : Fin 262144) (k : Fin 32) :
    val_main_v919 (F := Ideal) x0 x1 x2 (ix2 n k) = rhid0 (fun i : Fin 32 => x0 (ix2 n i)) (fun a b c : Fin 32 => x1 (ix3 a b c)) (fun a b : Fin 32 => x2 (ix2 a b)) 25 (by norm_num) k := by
  rw [val_main_v919_apply, val_main_v918_apply, val_main_v913_apply, c25_b0]
  refine relu_affine_congr _ _ _ _ (c25_z0 n k) fun i => ?_
  have el : lidx_main_v913 (ix2 n k) i = ix2 n i := funext fun a => by
    match a with
    | ⟨0, _⟩ => rfl
    | ⟨1, _⟩ => rfl
  have er : ridx_main_v913 (ix2 n k) i = ix2 i k := funext fun a => by
    match a with
    | ⟨0, _⟩ => rfl
    | ⟨1, _⟩ => rfl
  rw [el, er, c25_x, c25_w0]

/-- The second layer's weights: row 25 of `ws1`, its first 25 outputs. -/
theorem c25_w1 (x3 : (⟨S32x32x32, .f32⟩ : BufTy).Contents (Elt Ideal)) (k : Fin 32) (c : Fin 25) :
    val_main_v921 (F := Ideal) x3 (ix2 k c) = x3 (ix3 (⟨25, by norm_num⟩ : Fin 32) k (up (d := 25) (by norm_num) c)) := by
  rw [val_main_v921_apply, val_main_v920_apply]
  exact congrArg x3 (funext fun a => by
    match a with
    | ⟨0, _⟩ => rfl
    | ⟨1, _⟩ => exact Fin.ext (by have := k.isLt; have := c.isLt; show (k.val * 25 + c.val) / 25 % 32 = k.val; omega)
    | ⟨2, _⟩ => exact Fin.ext (by have := k.isLt; have := c.isLt; show (k.val * 25 + c.val) % 25 = c.val; omega))

/-- The second layer's bias. -/
theorem c25_b1 (x4 : (⟨S32x32, .f32⟩ : BufTy).Contents (Elt Ideal)) (n : Fin 262144) (c : Fin 25) :
    val_main_v926 (F := Ideal) x4 (ix2 n c) = x4 (ix2 (⟨25, by norm_num⟩ : Fin 32) (up (d := 25) (by norm_num) c)) := by
  rw [val_main_v926_apply, val_main_v925_apply, val_main_v924_apply, val_main_v923_apply]
  exact congrArg x4 (funext fun a => by
    match a with
    | ⟨0, _⟩ => rfl
    | ⟨1, _⟩ => exact Fin.ext (by have := c.isLt; show c.val % 25 = c.val; omega))

theorem c25_z1 (n : Fin 262144) (c : Fin 25) : val_main_call49_v0 (F := Ideal) (ix2 n c) = 0 := by
  rw [val_main_call49_v0_apply, val_main_call49_cst_apply]
  exact Ideal.ofBits_zero_f32

/-- The second hidden layer. -/
theorem c25_hid1 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 25) :
    val_main_v928 (F := Ideal) x0 x1 x2 x3 x4 (ix2 n c)
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 25 (by norm_num) c := by
  rw [val_main_v928_apply, val_main_v927_apply, val_main_v922_apply, c25_b1]
  refine relu_affine_congr _ _ _ _ (c25_z1 n c) fun k => ?_
  have el : lidx_main_v922 (ix2 n c) k = ix2 n k := funext fun a => by
    match a with
    | ⟨0, _⟩ => rfl
    | ⟨1, _⟩ => rfl
  have er : ridx_main_v922 (ix2 n c) k = ix2 k c := funext fun a => by
    match a with
    | ⟨0, _⟩ => rfl
    | ⟨1, _⟩ => rfl
  rw [el, er, c25_hid0, c25_w1]

/-- The last layer's weights on the hidden units: the first 25 rows of `wlast[25]`. -/
theorem c25_wl (x5 : (⟨S32x32x8, .f32⟩ : BufTy).Contents (Elt Ideal)) (c : Fin 25) (h : Fin 8) :
    val_main_v909 (F := Ideal) x5 (ix2 (Fin.castSucc c : Fin 26) h) = x5 (ix3 (⟨25, by norm_num⟩ : Fin 32) (up (d := 25) (by norm_num) c) h) := by
  unfold val_main_v909
  refine (cat_rows_top (val_main_v906 (F := Ideal) x5) (val_main_v908 (F := Ideal) x5) _ c h).trans ?_
  rw [val_main_v906_apply, val_main_v905_apply, val_main_v904_apply]
  exact congrArg x5 (funext fun a => by
    match a with
    | ⟨0, _⟩ => rfl
    | ⟨1, _⟩ => exact Fin.ext (by have := c.isLt; have := h.isLt; show (c.val * 8 + h.val) / 8 % 26 = c.val; omega)
    | ⟨2, _⟩ => exact Fin.ext (by have := c.isLt; have := h.isLt; show (c.val * 8 + h.val) % 8 = h.val; omega))

/-- The last layer's weight on the input x[n, 25]: the exponential of row 25 of `wlast[25]`. -/
theorem c25_we (x5 : (⟨S32x32x8, .f32⟩ : BufTy).Contents (Elt Ideal)) (h : Fin 8) :
    val_main_v909 (F := Ideal) x5 (ix2 (Fin.last 25 : Fin 26) h) = eexp (x5 (ix3 (⟨25, by norm_num⟩ : Fin 32) (⟨25, by norm_num⟩ : Fin 32) h)) := by
  unfold val_main_v909
  refine (cat_rows_last (val_main_v906 (F := Ideal) x5) (val_main_v908 (F := Ideal) x5) _ h).trans ?_
  rw [val_main_v908_apply, val_main_v907_apply, val_main_v905_apply, val_main_v904_apply]
  exact congrArg eexp (congrArg x5 (funext fun a => by
    match a with
    | ⟨0, _⟩ => rfl
    | ⟨1, _⟩ => exact Fin.ext (by have := h.isLt; show (25 * 8 + h.val) / 8 % 26 = 25; omega)
    | ⟨2, _⟩ => exact Fin.ext (by have := h.isLt; show (25 * 8 + h.val) % 8 = h.val; omega)))

/-- The last layer's inputs: hidden unit `c < 25` … -/
theorem c25_xc (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 25) :
    val_main_v930 (F := Ideal) x0 x1 x2 x3 x4 (ix2 n (Fin.castSucc c : Fin 26))
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 25 (by norm_num) c := by
  unfold val_main_v930
  exact (cat_cols_left (val_main_v928 (F := Ideal) x0 x1 x2 x3 x4) (val_main_v929 (F := Ideal) x0) _ n c).trans
    (c25_hid1 x0 x1 x2 x3 x4 n c)

/-- … and, last, the input x[n, 25]. -/
theorem c25_xl (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) :
    val_main_v930 (F := Ideal) x0 x1 x2 x3 x4 (ix2 n (Fin.last 25 : Fin 26)) = x0 (ix2 n (⟨25, by norm_num⟩ : Fin 32)) := by
  unfold val_main_v930
  refine (cat_cols_last (val_main_v928 (F := Ideal) x0 x1 x2 x3 x4) (val_main_v929 (F := Ideal) x0) _ n).trans ?_
  rw [val_main_v929_apply]
  exact congrArg x0 (funext fun a => by
    match a with
    | ⟨0, _⟩ => rfl
    | ⟨1, _⟩ => rfl)

/-- The last layer's bias. -/
theorem c25_bl (x6 : (⟨S32x8, .f32⟩ : BufTy).Contents (Elt Ideal)) (n : Fin 262144) (h : Fin 8) :
    val_main_v935 (F := Ideal) x6 (ix2 n h) = x6 (ix2 (⟨25, by norm_num⟩ : Fin 32) h) := by
  rw [val_main_v935_apply, val_main_v934_apply, val_main_v933_apply, val_main_v932_apply]
  exact congrArg x6 (funext fun a => by
    match a with
    | ⟨0, _⟩ => rfl
    | ⟨1, _⟩ => exact Fin.ext (by have := h.isLt; show h.val % 8 = h.val; omega))

/-- The last layer. -/
theorem c25_lay (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) (h : Fin 8) :
    val_main_v936 (F := Ideal) x0 x1 x2 x3 x4 x5 x6 (ix2 n h)
      = rlay (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 25 (by norm_num) h := by
  rw [val_main_v936_apply, val_main_v931_apply, c25_bl]
  have el : ∀ k : Fin 26, lidx_main_v931 (ix2 n h) k = ix2 n k := fun k => funext fun a => by
    match a with
    | ⟨0, _⟩ => rfl
    | ⟨1, _⟩ => rfl
  have er : ∀ k : Fin 26, ridx_main_v931 (ix2 n h) k = ix2 k h := fun k => funext fun a => by
    match a with
    | ⟨0, _⟩ => rfl
    | ⟨1, _⟩ => rfl
  refine lay_congr (d := 25) _ _ _ _ (fun c => ?_) ?_
  · rw [el, er, c25_xc, c25_wl]
  · rw [el, er, c25_xl, c25_we]

/-- **Component 25** of the reference at row `n`. -/
theorem comp_25 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v940 (F := Ideal) x0 x1 x2 x3 x4 x5 x6 (ix2 n (0 : Fin 1))
      = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 25 (by norm_num) := by
  rw [val_main_v940_apply]
  have e : idx_main_v940 (ix2 n (0 : Fin 1)) = ix1 n := funext fun a => by
    match a with
    | ⟨0, _⟩ => rfl
  rw [e]
  unfold val_main_v939 val_main_v938 refOut
  refine (pool_read (val_main_v937 (F := Ideal) x0 x1 x2 x3 x4 x5 x6) (val_main_cst_49 (F := Ideal)) (val_main_cst_50 (F := Ideal))
    _ _ _ rfl rfl n (fun h => val_main_v936 (F := Ideal) x0 x1 x2 x3 x4 x5 x6 (ix2 n h)) (fun g p => ?_)).trans ?_
  · rw [val_main_v937_apply]
    exact congrArg (val_main_v936 (F := Ideal) x0 x1 x2 x3 x4 x5 x6) (funext fun a => by
      match a with
      | ⟨0, _⟩ => exact Fin.ext (by have := g.isLt; have := p.isLt; show ((n.val * 4 + g.val) * 2 + p.val) / 8 = n.val; omega)
      | ⟨1, _⟩ => exact Fin.ext (by have := g.isLt; have := p.isLt; show ((n.val * 4 + g.val) * 2 + p.val) % 8 = 2 * g.val + p.val; omega))
  · exact congrArg pool (funext fun h => c25_lay x0 x1 x2 x3 x4 x5 x6 n h)

/-! ## Component 26

Its 26 earlier inputs x[n, i], i < 26, go through the two hidden layers (weights ws0[26, i, k], bs0[26, k] and
ws1[26, k, c], bs1[26, c] for c < 26); the last layer adds the input x[n, 26] itself, weighted by the exponential
of wlast[26, 26, h]. -/

/-- The earlier inputs: column `i < 26` of the row. -/
theorem c26_x (x0 : (⟨S262144x32, .f32⟩ : BufTy).Contents (Elt Ideal)) (n : Fin 262144) (i : Fin 26) :
    val_main_v947 (F := Ideal) x0 (ix2 n i) = x0 (ix2 n (up (d := 26) (by norm_num) i)) :=
  (val_main_v947_apply x0 _).trans (congrArg x0 (funext fun a => by
    match a with
    | ⟨0, _⟩ => rfl
    | ⟨1, _⟩ => rfl))

/-- The first layer's weights: row 26 of `ws0`, its first 26 inputs. -/
theorem c26_w0 (x1 : (⟨S32x32x32, .f32⟩ : BufTy).Contents (Elt Ideal)) (i : Fin 26) (k : Fin 32) :
    val_main_v949 (F := Ideal) x1 (ix2 i k) = x1 (ix3 (⟨26, by norm_num⟩ : Fin 32) (up (d := 26) (by norm_num) i) k) := by
  rw [val_main_v949_apply, val_main_v948_apply]
  exact congrArg x1 (funext fun a => by
    match a with
    | ⟨0, _⟩ => rfl
    | ⟨1, _⟩ => exact Fin.ext (by have := i.isLt; have := k.isLt; show (i.val * 32 + k.val) / 32 % 26 = i.val; omega)
    | ⟨2, _⟩ => exact Fin.ext (by have := i.isLt; have := k.isLt; show (i.val * 32 + k.val) % 32 = k.val; omega))

/-- The first layer's bias, the same in every row. -/
theorem c26_b0 (x2 : (⟨S32x32, .f32⟩ : BufTy).Contents (Elt Ideal)) (n : Fin 262144) (k : Fin 32) :
    val_main_v954 (F := Ideal) x2 (ix2 n k) = x2 (ix2 (⟨26, by norm_num⟩ : Fin 32) k) := by
  rw [val_main_v954_apply, val_main_v953_apply, val_main_v952_apply, val_main_v951_apply]
  exact congrArg x2 (funext fun a => by
    match a with
    | ⟨0, _⟩ => rfl
    | ⟨1, _⟩ => exact Fin.ext (by have := k.isLt; show k.val % 32 = k.val; omega))

theorem c26_z0 (n : Fin 262144) (k : Fin 32) : val_main_call50_v0 (F := Ideal) (ix2 n k) = 0 := by
  rw [val_main_call50_v0_apply, val_main_call50_cst_apply]
  exact Ideal.ofBits_zero_f32

/-- The first hidden layer. -/
theorem c26_hid0 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (n : Fin 262144) (k : Fin 32) :
    val_main_v956 (F := Ideal) x0 x1 x2 (ix2 n k) = rhid0 (fun i : Fin 32 => x0 (ix2 n i)) (fun a b c : Fin 32 => x1 (ix3 a b c)) (fun a b : Fin 32 => x2 (ix2 a b)) 26 (by norm_num) k := by
  rw [val_main_v956_apply, val_main_v955_apply, val_main_v950_apply, c26_b0]
  refine relu_affine_congr _ _ _ _ (c26_z0 n k) fun i => ?_
  have el : lidx_main_v950 (ix2 n k) i = ix2 n i := funext fun a => by
    match a with
    | ⟨0, _⟩ => rfl
    | ⟨1, _⟩ => rfl
  have er : ridx_main_v950 (ix2 n k) i = ix2 i k := funext fun a => by
    match a with
    | ⟨0, _⟩ => rfl
    | ⟨1, _⟩ => rfl
  rw [el, er, c26_x, c26_w0]

/-- The second layer's weights: row 26 of `ws1`, its first 26 outputs. -/
theorem c26_w1 (x3 : (⟨S32x32x32, .f32⟩ : BufTy).Contents (Elt Ideal)) (k : Fin 32) (c : Fin 26) :
    val_main_v958 (F := Ideal) x3 (ix2 k c) = x3 (ix3 (⟨26, by norm_num⟩ : Fin 32) k (up (d := 26) (by norm_num) c)) := by
  rw [val_main_v958_apply, val_main_v957_apply]
  exact congrArg x3 (funext fun a => by
    match a with
    | ⟨0, _⟩ => rfl
    | ⟨1, _⟩ => exact Fin.ext (by have := k.isLt; have := c.isLt; show (k.val * 26 + c.val) / 26 % 32 = k.val; omega)
    | ⟨2, _⟩ => exact Fin.ext (by have := k.isLt; have := c.isLt; show (k.val * 26 + c.val) % 26 = c.val; omega))

/-- The second layer's bias. -/
theorem c26_b1 (x4 : (⟨S32x32, .f32⟩ : BufTy).Contents (Elt Ideal)) (n : Fin 262144) (c : Fin 26) :
    val_main_v963 (F := Ideal) x4 (ix2 n c) = x4 (ix2 (⟨26, by norm_num⟩ : Fin 32) (up (d := 26) (by norm_num) c)) := by
  rw [val_main_v963_apply, val_main_v962_apply, val_main_v961_apply, val_main_v960_apply]
  exact congrArg x4 (funext fun a => by
    match a with
    | ⟨0, _⟩ => rfl
    | ⟨1, _⟩ => exact Fin.ext (by have := c.isLt; show c.val % 26 = c.val; omega))

theorem c26_z1 (n : Fin 262144) (c : Fin 26) : val_main_call51_v0 (F := Ideal) (ix2 n c) = 0 := by
  rw [val_main_call51_v0_apply, val_main_call51_cst_apply]
  exact Ideal.ofBits_zero_f32

/-- The second hidden layer. -/
theorem c26_hid1 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 26) :
    val_main_v965 (F := Ideal) x0 x1 x2 x3 x4 (ix2 n c)
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 26 (by norm_num) c := by
  rw [val_main_v965_apply, val_main_v964_apply, val_main_v959_apply, c26_b1]
  refine relu_affine_congr _ _ _ _ (c26_z1 n c) fun k => ?_
  have el : lidx_main_v959 (ix2 n c) k = ix2 n k := funext fun a => by
    match a with
    | ⟨0, _⟩ => rfl
    | ⟨1, _⟩ => rfl
  have er : ridx_main_v959 (ix2 n c) k = ix2 k c := funext fun a => by
    match a with
    | ⟨0, _⟩ => rfl
    | ⟨1, _⟩ => rfl
  rw [el, er, c26_hid0, c26_w1]

/-- The last layer's weights on the hidden units: the first 26 rows of `wlast[26]`. -/
theorem c26_wl (x5 : (⟨S32x32x8, .f32⟩ : BufTy).Contents (Elt Ideal)) (c : Fin 26) (h : Fin 8) :
    val_main_v946 (F := Ideal) x5 (ix2 (Fin.castSucc c : Fin 27) h) = x5 (ix3 (⟨26, by norm_num⟩ : Fin 32) (up (d := 26) (by norm_num) c) h) := by
  unfold val_main_v946
  refine (cat_rows_top (val_main_v943 (F := Ideal) x5) (val_main_v945 (F := Ideal) x5) _ c h).trans ?_
  rw [val_main_v943_apply, val_main_v942_apply, val_main_v941_apply]
  exact congrArg x5 (funext fun a => by
    match a with
    | ⟨0, _⟩ => rfl
    | ⟨1, _⟩ => exact Fin.ext (by have := c.isLt; have := h.isLt; show (c.val * 8 + h.val) / 8 % 27 = c.val; omega)
    | ⟨2, _⟩ => exact Fin.ext (by have := c.isLt; have := h.isLt; show (c.val * 8 + h.val) % 8 = h.val; omega))

/-- The last layer's weight on the input x[n, 26]: the exponential of row 26 of `wlast[26]`. -/
theorem c26_we (x5 : (⟨S32x32x8, .f32⟩ : BufTy).Contents (Elt Ideal)) (h : Fin 8) :
    val_main_v946 (F := Ideal) x5 (ix2 (Fin.last 26 : Fin 27) h) = eexp (x5 (ix3 (⟨26, by norm_num⟩ : Fin 32) (⟨26, by norm_num⟩ : Fin 32) h)) := by
  unfold val_main_v946
  refine (cat_rows_last (val_main_v943 (F := Ideal) x5) (val_main_v945 (F := Ideal) x5) _ h).trans ?_
  rw [val_main_v945_apply, val_main_v944_apply, val_main_v942_apply, val_main_v941_apply]
  exact congrArg eexp (congrArg x5 (funext fun a => by
    match a with
    | ⟨0, _⟩ => rfl
    | ⟨1, _⟩ => exact Fin.ext (by have := h.isLt; show (26 * 8 + h.val) / 8 % 27 = 26; omega)
    | ⟨2, _⟩ => exact Fin.ext (by have := h.isLt; show (26 * 8 + h.val) % 8 = h.val; omega)))

/-- The last layer's inputs: hidden unit `c < 26` … -/
theorem c26_xc (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 26) :
    val_main_v967 (F := Ideal) x0 x1 x2 x3 x4 (ix2 n (Fin.castSucc c : Fin 27))
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 26 (by norm_num) c := by
  unfold val_main_v967
  exact (cat_cols_left (val_main_v965 (F := Ideal) x0 x1 x2 x3 x4) (val_main_v966 (F := Ideal) x0) _ n c).trans
    (c26_hid1 x0 x1 x2 x3 x4 n c)

/-- … and, last, the input x[n, 26]. -/
theorem c26_xl (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) :
    val_main_v967 (F := Ideal) x0 x1 x2 x3 x4 (ix2 n (Fin.last 26 : Fin 27)) = x0 (ix2 n (⟨26, by norm_num⟩ : Fin 32)) := by
  unfold val_main_v967
  refine (cat_cols_last (val_main_v965 (F := Ideal) x0 x1 x2 x3 x4) (val_main_v966 (F := Ideal) x0) _ n).trans ?_
  rw [val_main_v966_apply]
  exact congrArg x0 (funext fun a => by
    match a with
    | ⟨0, _⟩ => rfl
    | ⟨1, _⟩ => rfl)

/-- The last layer's bias. -/
theorem c26_bl (x6 : (⟨S32x8, .f32⟩ : BufTy).Contents (Elt Ideal)) (n : Fin 262144) (h : Fin 8) :
    val_main_v972 (F := Ideal) x6 (ix2 n h) = x6 (ix2 (⟨26, by norm_num⟩ : Fin 32) h) := by
  rw [val_main_v972_apply, val_main_v971_apply, val_main_v970_apply, val_main_v969_apply]
  exact congrArg x6 (funext fun a => by
    match a with
    | ⟨0, _⟩ => rfl
    | ⟨1, _⟩ => exact Fin.ext (by have := h.isLt; show h.val % 8 = h.val; omega))

/-- The last layer. -/
theorem c26_lay (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) (h : Fin 8) :
    val_main_v973 (F := Ideal) x0 x1 x2 x3 x4 x5 x6 (ix2 n h)
      = rlay (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 26 (by norm_num) h := by
  rw [val_main_v973_apply, val_main_v968_apply, c26_bl]
  have el : ∀ k : Fin 27, lidx_main_v968 (ix2 n h) k = ix2 n k := fun k => funext fun a => by
    match a with
    | ⟨0, _⟩ => rfl
    | ⟨1, _⟩ => rfl
  have er : ∀ k : Fin 27, ridx_main_v968 (ix2 n h) k = ix2 k h := fun k => funext fun a => by
    match a with
    | ⟨0, _⟩ => rfl
    | ⟨1, _⟩ => rfl
  refine lay_congr (d := 26) _ _ _ _ (fun c => ?_) ?_
  · rw [el, er, c26_xc, c26_wl]
  · rw [el, er, c26_xl, c26_we]

/-- **Component 26** of the reference at row `n`. -/
theorem comp_26 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v977 (F := Ideal) x0 x1 x2 x3 x4 x5 x6 (ix2 n (0 : Fin 1))
      = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 26 (by norm_num) := by
  rw [val_main_v977_apply]
  have e : idx_main_v977 (ix2 n (0 : Fin 1)) = ix1 n := funext fun a => by
    match a with
    | ⟨0, _⟩ => rfl
  rw [e]
  unfold val_main_v976 val_main_v975 refOut
  refine (pool_read (val_main_v974 (F := Ideal) x0 x1 x2 x3 x4 x5 x6) (val_main_cst_51 (F := Ideal)) (val_main_cst_52 (F := Ideal))
    _ _ _ rfl rfl n (fun h => val_main_v973 (F := Ideal) x0 x1 x2 x3 x4 x5 x6 (ix2 n h)) (fun g p => ?_)).trans ?_
  · rw [val_main_v974_apply]
    exact congrArg (val_main_v973 (F := Ideal) x0 x1 x2 x3 x4 x5 x6) (funext fun a => by
      match a with
      | ⟨0, _⟩ => exact Fin.ext (by have := g.isLt; have := p.isLt; show ((n.val * 4 + g.val) * 2 + p.val) / 8 = n.val; omega)
      | ⟨1, _⟩ => exact Fin.ext (by have := g.isLt; have := p.isLt; show ((n.val * 4 + g.val) * 2 + p.val) % 8 = 2 * g.val + p.val; omega))
  · exact congrArg pool (funext fun h => c26_lay x0 x1 x2 x3 x4 x5 x6 n h)

/-! ## Component 27

Its 27 earlier inputs x[n, i], i < 27, go through the two hidden layers (weights ws0[27, i, k], bs0[27, k] and
ws1[27, k, c], bs1[27, c] for c < 27); the last layer adds the input x[n, 27] itself, weighted by the exponential
of wlast[27, 27, h]. -/

/-- The earlier inputs: column `i < 27` of the row. -/
theorem c27_x (x0 : (⟨S262144x32, .f32⟩ : BufTy).Contents (Elt Ideal)) (n : Fin 262144) (i : Fin 27) :
    val_main_v984 (F := Ideal) x0 (ix2 n i) = x0 (ix2 n (up (d := 27) (by norm_num) i)) :=
  (val_main_v984_apply x0 _).trans (congrArg x0 (funext fun a => by
    match a with
    | ⟨0, _⟩ => rfl
    | ⟨1, _⟩ => rfl))

/-- The first layer's weights: row 27 of `ws0`, its first 27 inputs. -/
theorem c27_w0 (x1 : (⟨S32x32x32, .f32⟩ : BufTy).Contents (Elt Ideal)) (i : Fin 27) (k : Fin 32) :
    val_main_v986 (F := Ideal) x1 (ix2 i k) = x1 (ix3 (⟨27, by norm_num⟩ : Fin 32) (up (d := 27) (by norm_num) i) k) := by
  rw [val_main_v986_apply, val_main_v985_apply]
  exact congrArg x1 (funext fun a => by
    match a with
    | ⟨0, _⟩ => rfl
    | ⟨1, _⟩ => exact Fin.ext (by have := i.isLt; have := k.isLt; show (i.val * 32 + k.val) / 32 % 27 = i.val; omega)
    | ⟨2, _⟩ => exact Fin.ext (by have := i.isLt; have := k.isLt; show (i.val * 32 + k.val) % 32 = k.val; omega))

/-- The first layer's bias, the same in every row. -/
theorem c27_b0 (x2 : (⟨S32x32, .f32⟩ : BufTy).Contents (Elt Ideal)) (n : Fin 262144) (k : Fin 32) :
    val_main_v991 (F := Ideal) x2 (ix2 n k) = x2 (ix2 (⟨27, by norm_num⟩ : Fin 32) k) := by
  rw [val_main_v991_apply, val_main_v990_apply, val_main_v989_apply, val_main_v988_apply]
  exact congrArg x2 (funext fun a => by
    match a with
    | ⟨0, _⟩ => rfl
    | ⟨1, _⟩ => exact Fin.ext (by have := k.isLt; show k.val % 32 = k.val; omega))

theorem c27_z0 (n : Fin 262144) (k : Fin 32) : val_main_call52_v0 (F := Ideal) (ix2 n k) = 0 := by
  rw [val_main_call52_v0_apply, val_main_call52_cst_apply]
  exact Ideal.ofBits_zero_f32

/-- The first hidden layer. -/
theorem c27_hid0 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (n : Fin 262144) (k : Fin 32) :
    val_main_v993 (F := Ideal) x0 x1 x2 (ix2 n k) = rhid0 (fun i : Fin 32 => x0 (ix2 n i)) (fun a b c : Fin 32 => x1 (ix3 a b c)) (fun a b : Fin 32 => x2 (ix2 a b)) 27 (by norm_num) k := by
  rw [val_main_v993_apply, val_main_v992_apply, val_main_v987_apply, c27_b0]
  refine relu_affine_congr _ _ _ _ (c27_z0 n k) fun i => ?_
  have el : lidx_main_v987 (ix2 n k) i = ix2 n i := funext fun a => by
    match a with
    | ⟨0, _⟩ => rfl
    | ⟨1, _⟩ => rfl
  have er : ridx_main_v987 (ix2 n k) i = ix2 i k := funext fun a => by
    match a with
    | ⟨0, _⟩ => rfl
    | ⟨1, _⟩ => rfl
  rw [el, er, c27_x, c27_w0]

/-- The second layer's weights: row 27 of `ws1`, its first 27 outputs. -/
theorem c27_w1 (x3 : (⟨S32x32x32, .f32⟩ : BufTy).Contents (Elt Ideal)) (k : Fin 32) (c : Fin 27) :
    val_main_v995 (F := Ideal) x3 (ix2 k c) = x3 (ix3 (⟨27, by norm_num⟩ : Fin 32) k (up (d := 27) (by norm_num) c)) := by
  rw [val_main_v995_apply, val_main_v994_apply]
  exact congrArg x3 (funext fun a => by
    match a with
    | ⟨0, _⟩ => rfl
    | ⟨1, _⟩ => exact Fin.ext (by have := k.isLt; have := c.isLt; show (k.val * 27 + c.val) / 27 % 32 = k.val; omega)
    | ⟨2, _⟩ => exact Fin.ext (by have := k.isLt; have := c.isLt; show (k.val * 27 + c.val) % 27 = c.val; omega))

/-- The second layer's bias. -/
theorem c27_b1 (x4 : (⟨S32x32, .f32⟩ : BufTy).Contents (Elt Ideal)) (n : Fin 262144) (c : Fin 27) :
    val_main_v1000 (F := Ideal) x4 (ix2 n c) = x4 (ix2 (⟨27, by norm_num⟩ : Fin 32) (up (d := 27) (by norm_num) c)) := by
  rw [val_main_v1000_apply, val_main_v999_apply, val_main_v998_apply, val_main_v997_apply]
  exact congrArg x4 (funext fun a => by
    match a with
    | ⟨0, _⟩ => rfl
    | ⟨1, _⟩ => exact Fin.ext (by have := c.isLt; show c.val % 27 = c.val; omega))

theorem c27_z1 (n : Fin 262144) (c : Fin 27) : val_main_call53_v0 (F := Ideal) (ix2 n c) = 0 := by
  rw [val_main_call53_v0_apply, val_main_call53_cst_apply]
  exact Ideal.ofBits_zero_f32

/-- The second hidden layer. -/
theorem c27_hid1 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 27) :
    val_main_v1002 (F := Ideal) x0 x1 x2 x3 x4 (ix2 n c)
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 27 (by norm_num) c := by
  rw [val_main_v1002_apply, val_main_v1001_apply, val_main_v996_apply, c27_b1]
  refine relu_affine_congr _ _ _ _ (c27_z1 n c) fun k => ?_
  have el : lidx_main_v996 (ix2 n c) k = ix2 n k := funext fun a => by
    match a with
    | ⟨0, _⟩ => rfl
    | ⟨1, _⟩ => rfl
  have er : ridx_main_v996 (ix2 n c) k = ix2 k c := funext fun a => by
    match a with
    | ⟨0, _⟩ => rfl
    | ⟨1, _⟩ => rfl
  rw [el, er, c27_hid0, c27_w1]

/-- The last layer's weights on the hidden units: the first 27 rows of `wlast[27]`. -/
theorem c27_wl (x5 : (⟨S32x32x8, .f32⟩ : BufTy).Contents (Elt Ideal)) (c : Fin 27) (h : Fin 8) :
    val_main_v983 (F := Ideal) x5 (ix2 (Fin.castSucc c : Fin 28) h) = x5 (ix3 (⟨27, by norm_num⟩ : Fin 32) (up (d := 27) (by norm_num) c) h) := by
  unfold val_main_v983
  refine (cat_rows_top (val_main_v980 (F := Ideal) x5) (val_main_v982 (F := Ideal) x5) _ c h).trans ?_
  rw [val_main_v980_apply, val_main_v979_apply, val_main_v978_apply]
  exact congrArg x5 (funext fun a => by
    match a with
    | ⟨0, _⟩ => rfl
    | ⟨1, _⟩ => exact Fin.ext (by have := c.isLt; have := h.isLt; show (c.val * 8 + h.val) / 8 % 28 = c.val; omega)
    | ⟨2, _⟩ => exact Fin.ext (by have := c.isLt; have := h.isLt; show (c.val * 8 + h.val) % 8 = h.val; omega))

/-- The last layer's weight on the input x[n, 27]: the exponential of row 27 of `wlast[27]`. -/
theorem c27_we (x5 : (⟨S32x32x8, .f32⟩ : BufTy).Contents (Elt Ideal)) (h : Fin 8) :
    val_main_v983 (F := Ideal) x5 (ix2 (Fin.last 27 : Fin 28) h) = eexp (x5 (ix3 (⟨27, by norm_num⟩ : Fin 32) (⟨27, by norm_num⟩ : Fin 32) h)) := by
  unfold val_main_v983
  refine (cat_rows_last (val_main_v980 (F := Ideal) x5) (val_main_v982 (F := Ideal) x5) _ h).trans ?_
  rw [val_main_v982_apply, val_main_v981_apply, val_main_v979_apply, val_main_v978_apply]
  exact congrArg eexp (congrArg x5 (funext fun a => by
    match a with
    | ⟨0, _⟩ => rfl
    | ⟨1, _⟩ => exact Fin.ext (by have := h.isLt; show (27 * 8 + h.val) / 8 % 28 = 27; omega)
    | ⟨2, _⟩ => exact Fin.ext (by have := h.isLt; show (27 * 8 + h.val) % 8 = h.val; omega)))

/-- The last layer's inputs: hidden unit `c < 27` … -/
theorem c27_xc (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 27) :
    val_main_v1004 (F := Ideal) x0 x1 x2 x3 x4 (ix2 n (Fin.castSucc c : Fin 28))
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 27 (by norm_num) c := by
  unfold val_main_v1004
  exact (cat_cols_left (val_main_v1002 (F := Ideal) x0 x1 x2 x3 x4) (val_main_v1003 (F := Ideal) x0) _ n c).trans
    (c27_hid1 x0 x1 x2 x3 x4 n c)

/-- … and, last, the input x[n, 27]. -/
theorem c27_xl (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) :
    val_main_v1004 (F := Ideal) x0 x1 x2 x3 x4 (ix2 n (Fin.last 27 : Fin 28)) = x0 (ix2 n (⟨27, by norm_num⟩ : Fin 32)) := by
  unfold val_main_v1004
  refine (cat_cols_last (val_main_v1002 (F := Ideal) x0 x1 x2 x3 x4) (val_main_v1003 (F := Ideal) x0) _ n).trans ?_
  rw [val_main_v1003_apply]
  exact congrArg x0 (funext fun a => by
    match a with
    | ⟨0, _⟩ => rfl
    | ⟨1, _⟩ => rfl)

/-- The last layer's bias. -/
theorem c27_bl (x6 : (⟨S32x8, .f32⟩ : BufTy).Contents (Elt Ideal)) (n : Fin 262144) (h : Fin 8) :
    val_main_v1009 (F := Ideal) x6 (ix2 n h) = x6 (ix2 (⟨27, by norm_num⟩ : Fin 32) h) := by
  rw [val_main_v1009_apply, val_main_v1008_apply, val_main_v1007_apply, val_main_v1006_apply]
  exact congrArg x6 (funext fun a => by
    match a with
    | ⟨0, _⟩ => rfl
    | ⟨1, _⟩ => exact Fin.ext (by have := h.isLt; show h.val % 8 = h.val; omega))

/-- The last layer. -/
theorem c27_lay (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) (h : Fin 8) :
    val_main_v1010 (F := Ideal) x0 x1 x2 x3 x4 x5 x6 (ix2 n h)
      = rlay (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 27 (by norm_num) h := by
  rw [val_main_v1010_apply, val_main_v1005_apply, c27_bl]
  have el : ∀ k : Fin 28, lidx_main_v1005 (ix2 n h) k = ix2 n k := fun k => funext fun a => by
    match a with
    | ⟨0, _⟩ => rfl
    | ⟨1, _⟩ => rfl
  have er : ∀ k : Fin 28, ridx_main_v1005 (ix2 n h) k = ix2 k h := fun k => funext fun a => by
    match a with
    | ⟨0, _⟩ => rfl
    | ⟨1, _⟩ => rfl
  refine lay_congr (d := 27) _ _ _ _ (fun c => ?_) ?_
  · rw [el, er, c27_xc, c27_wl]
  · rw [el, er, c27_xl, c27_we]

/-- **Component 27** of the reference at row `n`. -/
theorem comp_27 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v1014 (F := Ideal) x0 x1 x2 x3 x4 x5 x6 (ix2 n (0 : Fin 1))
      = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 27 (by norm_num) := by
  rw [val_main_v1014_apply]
  have e : idx_main_v1014 (ix2 n (0 : Fin 1)) = ix1 n := funext fun a => by
    match a with
    | ⟨0, _⟩ => rfl
  rw [e]
  unfold val_main_v1013 val_main_v1012 refOut
  refine (pool_read (val_main_v1011 (F := Ideal) x0 x1 x2 x3 x4 x5 x6) (val_main_cst_53 (F := Ideal)) (val_main_cst_54 (F := Ideal))
    _ _ _ rfl rfl n (fun h => val_main_v1010 (F := Ideal) x0 x1 x2 x3 x4 x5 x6 (ix2 n h)) (fun g p => ?_)).trans ?_
  · rw [val_main_v1011_apply]
    exact congrArg (val_main_v1010 (F := Ideal) x0 x1 x2 x3 x4 x5 x6) (funext fun a => by
      match a with
      | ⟨0, _⟩ => exact Fin.ext (by have := g.isLt; have := p.isLt; show ((n.val * 4 + g.val) * 2 + p.val) / 8 = n.val; omega)
      | ⟨1, _⟩ => exact Fin.ext (by have := g.isLt; have := p.isLt; show ((n.val * 4 + g.val) * 2 + p.val) % 8 = 2 * g.val + p.val; omega))
  · exact congrArg pool (funext fun h => c27_lay x0 x1 x2 x3 x4 x5 x6 n h)

/-! ## Component 28

Its 28 earlier inputs x[n, i], i < 28, go through the two hidden layers (weights ws0[28, i, k], bs0[28, k] and
ws1[28, k, c], bs1[28, c] for c < 28); the last layer adds the input x[n, 28] itself, weighted by the exponential
of wlast[28, 28, h]. -/

/-- The earlier inputs: column `i < 28` of the row. -/
theorem c28_x (x0 : (⟨S262144x32, .f32⟩ : BufTy).Contents (Elt Ideal)) (n : Fin 262144) (i : Fin 28) :
    val_main_v1021 (F := Ideal) x0 (ix2 n i) = x0 (ix2 n (up (d := 28) (by norm_num) i)) :=
  (val_main_v1021_apply x0 _).trans (congrArg x0 (funext fun a => by
    match a with
    | ⟨0, _⟩ => rfl
    | ⟨1, _⟩ => rfl))

/-- The first layer's weights: row 28 of `ws0`, its first 28 inputs. -/
theorem c28_w0 (x1 : (⟨S32x32x32, .f32⟩ : BufTy).Contents (Elt Ideal)) (i : Fin 28) (k : Fin 32) :
    val_main_v1023 (F := Ideal) x1 (ix2 i k) = x1 (ix3 (⟨28, by norm_num⟩ : Fin 32) (up (d := 28) (by norm_num) i) k) := by
  rw [val_main_v1023_apply, val_main_v1022_apply]
  exact congrArg x1 (funext fun a => by
    match a with
    | ⟨0, _⟩ => rfl
    | ⟨1, _⟩ => exact Fin.ext (by have := i.isLt; have := k.isLt; show (i.val * 32 + k.val) / 32 % 28 = i.val; omega)
    | ⟨2, _⟩ => exact Fin.ext (by have := i.isLt; have := k.isLt; show (i.val * 32 + k.val) % 32 = k.val; omega))

/-- The first layer's bias, the same in every row. -/
theorem c28_b0 (x2 : (⟨S32x32, .f32⟩ : BufTy).Contents (Elt Ideal)) (n : Fin 262144) (k : Fin 32) :
    val_main_v1028 (F := Ideal) x2 (ix2 n k) = x2 (ix2 (⟨28, by norm_num⟩ : Fin 32) k) := by
  rw [val_main_v1028_apply, val_main_v1027_apply, val_main_v1026_apply, val_main_v1025_apply]
  exact congrArg x2 (funext fun a => by
    match a with
    | ⟨0, _⟩ => rfl
    | ⟨1, _⟩ => exact Fin.ext (by have := k.isLt; show k.val % 32 = k.val; omega))

theorem c28_z0 (n : Fin 262144) (k : Fin 32) : val_main_call54_v0 (F := Ideal) (ix2 n k) = 0 := by
  rw [val_main_call54_v0_apply, val_main_call54_cst_apply]
  exact Ideal.ofBits_zero_f32

/-- The first hidden layer. -/
theorem c28_hid0 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (n : Fin 262144) (k : Fin 32) :
    val_main_v1030 (F := Ideal) x0 x1 x2 (ix2 n k) = rhid0 (fun i : Fin 32 => x0 (ix2 n i)) (fun a b c : Fin 32 => x1 (ix3 a b c)) (fun a b : Fin 32 => x2 (ix2 a b)) 28 (by norm_num) k := by
  rw [val_main_v1030_apply, val_main_v1029_apply, val_main_v1024_apply, c28_b0]
  refine relu_affine_congr _ _ _ _ (c28_z0 n k) fun i => ?_
  have el : lidx_main_v1024 (ix2 n k) i = ix2 n i := funext fun a => by
    match a with
    | ⟨0, _⟩ => rfl
    | ⟨1, _⟩ => rfl
  have er : ridx_main_v1024 (ix2 n k) i = ix2 i k := funext fun a => by
    match a with
    | ⟨0, _⟩ => rfl
    | ⟨1, _⟩ => rfl
  rw [el, er, c28_x, c28_w0]

/-- The second layer's weights: row 28 of `ws1`, its first 28 outputs. -/
theorem c28_w1 (x3 : (⟨S32x32x32, .f32⟩ : BufTy).Contents (Elt Ideal)) (k : Fin 32) (c : Fin 28) :
    val_main_v1032 (F := Ideal) x3 (ix2 k c) = x3 (ix3 (⟨28, by norm_num⟩ : Fin 32) k (up (d := 28) (by norm_num) c)) := by
  rw [val_main_v1032_apply, val_main_v1031_apply]
  exact congrArg x3 (funext fun a => by
    match a with
    | ⟨0, _⟩ => rfl
    | ⟨1, _⟩ => exact Fin.ext (by have := k.isLt; have := c.isLt; show (k.val * 28 + c.val) / 28 % 32 = k.val; omega)
    | ⟨2, _⟩ => exact Fin.ext (by have := k.isLt; have := c.isLt; show (k.val * 28 + c.val) % 28 = c.val; omega))

/-- The second layer's bias. -/
theorem c28_b1 (x4 : (⟨S32x32, .f32⟩ : BufTy).Contents (Elt Ideal)) (n : Fin 262144) (c : Fin 28) :
    val_main_v1037 (F := Ideal) x4 (ix2 n c) = x4 (ix2 (⟨28, by norm_num⟩ : Fin 32) (up (d := 28) (by norm_num) c)) := by
  rw [val_main_v1037_apply, val_main_v1036_apply, val_main_v1035_apply, val_main_v1034_apply]
  exact congrArg x4 (funext fun a => by
    match a with
    | ⟨0, _⟩ => rfl
    | ⟨1, _⟩ => exact Fin.ext (by have := c.isLt; show c.val % 28 = c.val; omega))

theorem c28_z1 (n : Fin 262144) (c : Fin 28) : val_main_call55_v0 (F := Ideal) (ix2 n c) = 0 := by
  rw [val_main_call55_v0_apply, val_main_call55_cst_apply]
  exact Ideal.ofBits_zero_f32

/-- The second hidden layer. -/
theorem c28_hid1 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 28) :
    val_main_v1039 (F := Ideal) x0 x1 x2 x3 x4 (ix2 n c)
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 28 (by norm_num) c := by
  rw [val_main_v1039_apply, val_main_v1038_apply, val_main_v1033_apply, c28_b1]
  refine relu_affine_congr _ _ _ _ (c28_z1 n c) fun k => ?_
  have el : lidx_main_v1033 (ix2 n c) k = ix2 n k := funext fun a => by
    match a with
    | ⟨0, _⟩ => rfl
    | ⟨1, _⟩ => rfl
  have er : ridx_main_v1033 (ix2 n c) k = ix2 k c := funext fun a => by
    match a with
    | ⟨0, _⟩ => rfl
    | ⟨1, _⟩ => rfl
  rw [el, er, c28_hid0, c28_w1]

/-- The last layer's weights on the hidden units: the first 28 rows of `wlast[28]`. -/
theorem c28_wl (x5 : (⟨S32x32x8, .f32⟩ : BufTy).Contents (Elt Ideal)) (c : Fin 28) (h : Fin 8) :
    val_main_v1020 (F := Ideal) x5 (ix2 (Fin.castSucc c : Fin 29) h) = x5 (ix3 (⟨28, by norm_num⟩ : Fin 32) (up (d := 28) (by norm_num) c) h) := by
  unfold val_main_v1020
  refine (cat_rows_top (val_main_v1017 (F := Ideal) x5) (val_main_v1019 (F := Ideal) x5) _ c h).trans ?_
  rw [val_main_v1017_apply, val_main_v1016_apply, val_main_v1015_apply]
  exact congrArg x5 (funext fun a => by
    match a with
    | ⟨0, _⟩ => rfl
    | ⟨1, _⟩ => exact Fin.ext (by have := c.isLt; have := h.isLt; show (c.val * 8 + h.val) / 8 % 29 = c.val; omega)
    | ⟨2, _⟩ => exact Fin.ext (by have := c.isLt; have := h.isLt; show (c.val * 8 + h.val) % 8 = h.val; omega))

/-- The last layer's weight on the input x[n, 28]: the exponential of row 28 of `wlast[28]`. -/
theorem c28_we (x5 : (⟨S32x32x8, .f32⟩ : BufTy).Contents (Elt Ideal)) (h : Fin 8) :
    val_main_v1020 (F := Ideal) x5 (ix2 (Fin.last 28 : Fin 29) h) = eexp (x5 (ix3 (⟨28, by norm_num⟩ : Fin 32) (⟨28, by norm_num⟩ : Fin 32) h)) := by
  unfold val_main_v1020
  refine (cat_rows_last (val_main_v1017 (F := Ideal) x5) (val_main_v1019 (F := Ideal) x5) _ h).trans ?_
  rw [val_main_v1019_apply, val_main_v1018_apply, val_main_v1016_apply, val_main_v1015_apply]
  exact congrArg eexp (congrArg x5 (funext fun a => by
    match a with
    | ⟨0, _⟩ => rfl
    | ⟨1, _⟩ => exact Fin.ext (by have := h.isLt; show (28 * 8 + h.val) / 8 % 29 = 28; omega)
    | ⟨2, _⟩ => exact Fin.ext (by have := h.isLt; show (28 * 8 + h.val) % 8 = h.val; omega)))

/-- The last layer's inputs: hidden unit `c < 28` … -/
theorem c28_xc (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 28) :
    val_main_v1041 (F := Ideal) x0 x1 x2 x3 x4 (ix2 n (Fin.castSucc c : Fin 29))
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 28 (by norm_num) c := by
  unfold val_main_v1041
  exact (cat_cols_left (val_main_v1039 (F := Ideal) x0 x1 x2 x3 x4) (val_main_v1040 (F := Ideal) x0) _ n c).trans
    (c28_hid1 x0 x1 x2 x3 x4 n c)

/-- … and, last, the input x[n, 28]. -/
theorem c28_xl (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) :
    val_main_v1041 (F := Ideal) x0 x1 x2 x3 x4 (ix2 n (Fin.last 28 : Fin 29)) = x0 (ix2 n (⟨28, by norm_num⟩ : Fin 32)) := by
  unfold val_main_v1041
  refine (cat_cols_last (val_main_v1039 (F := Ideal) x0 x1 x2 x3 x4) (val_main_v1040 (F := Ideal) x0) _ n).trans ?_
  rw [val_main_v1040_apply]
  exact congrArg x0 (funext fun a => by
    match a with
    | ⟨0, _⟩ => rfl
    | ⟨1, _⟩ => rfl)

/-- The last layer's bias. -/
theorem c28_bl (x6 : (⟨S32x8, .f32⟩ : BufTy).Contents (Elt Ideal)) (n : Fin 262144) (h : Fin 8) :
    val_main_v1046 (F := Ideal) x6 (ix2 n h) = x6 (ix2 (⟨28, by norm_num⟩ : Fin 32) h) := by
  rw [val_main_v1046_apply, val_main_v1045_apply, val_main_v1044_apply, val_main_v1043_apply]
  exact congrArg x6 (funext fun a => by
    match a with
    | ⟨0, _⟩ => rfl
    | ⟨1, _⟩ => exact Fin.ext (by have := h.isLt; show h.val % 8 = h.val; omega))

/-- The last layer. -/
theorem c28_lay (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) (h : Fin 8) :
    val_main_v1047 (F := Ideal) x0 x1 x2 x3 x4 x5 x6 (ix2 n h)
      = rlay (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 28 (by norm_num) h := by
  rw [val_main_v1047_apply, val_main_v1042_apply, c28_bl]
  have el : ∀ k : Fin 29, lidx_main_v1042 (ix2 n h) k = ix2 n k := fun k => funext fun a => by
    match a with
    | ⟨0, _⟩ => rfl
    | ⟨1, _⟩ => rfl
  have er : ∀ k : Fin 29, ridx_main_v1042 (ix2 n h) k = ix2 k h := fun k => funext fun a => by
    match a with
    | ⟨0, _⟩ => rfl
    | ⟨1, _⟩ => rfl
  refine lay_congr (d := 28) _ _ _ _ (fun c => ?_) ?_
  · rw [el, er, c28_xc, c28_wl]
  · rw [el, er, c28_xl, c28_we]

/-- **Component 28** of the reference at row `n`. -/
theorem comp_28 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v1051 (F := Ideal) x0 x1 x2 x3 x4 x5 x6 (ix2 n (0 : Fin 1))
      = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 28 (by norm_num) := by
  rw [val_main_v1051_apply]
  have e : idx_main_v1051 (ix2 n (0 : Fin 1)) = ix1 n := funext fun a => by
    match a with
    | ⟨0, _⟩ => rfl
  rw [e]
  unfold val_main_v1050 val_main_v1049 refOut
  refine (pool_read (val_main_v1048 (F := Ideal) x0 x1 x2 x3 x4 x5 x6) (val_main_cst_55 (F := Ideal)) (val_main_cst_56 (F := Ideal))
    _ _ _ rfl rfl n (fun h => val_main_v1047 (F := Ideal) x0 x1 x2 x3 x4 x5 x6 (ix2 n h)) (fun g p => ?_)).trans ?_
  · rw [val_main_v1048_apply]
    exact congrArg (val_main_v1047 (F := Ideal) x0 x1 x2 x3 x4 x5 x6) (funext fun a => by
      match a with
      | ⟨0, _⟩ => exact Fin.ext (by have := g.isLt; have := p.isLt; show ((n.val * 4 + g.val) * 2 + p.val) / 8 = n.val; omega)
      | ⟨1, _⟩ => exact Fin.ext (by have := g.isLt; have := p.isLt; show ((n.val * 4 + g.val) * 2 + p.val) % 8 = 2 * g.val + p.val; omega))
  · exact congrArg pool (funext fun h => c28_lay x0 x1 x2 x3 x4 x5 x6 n h)

/-! ## Component 29

Its 29 earlier inputs x[n, i], i < 29, go through the two hidden layers (weights ws0[29, i, k], bs0[29, k] and
ws1[29, k, c], bs1[29, c] for c < 29); the last layer adds the input x[n, 29] itself, weighted by the exponential
of wlast[29, 29, h]. -/

/-- The earlier inputs: column `i < 29` of the row. -/
theorem c29_x (x0 : (⟨S262144x32, .f32⟩ : BufTy).Contents (Elt Ideal)) (n : Fin 262144) (i : Fin 29) :
    val_main_v1058 (F := Ideal) x0 (ix2 n i) = x0 (ix2 n (up (d := 29) (by norm_num) i)) :=
  (val_main_v1058_apply x0 _).trans (congrArg x0 (funext fun a => by
    match a with
    | ⟨0, _⟩ => rfl
    | ⟨1, _⟩ => rfl))

/-- The first layer's weights: row 29 of `ws0`, its first 29 inputs. -/
theorem c29_w0 (x1 : (⟨S32x32x32, .f32⟩ : BufTy).Contents (Elt Ideal)) (i : Fin 29) (k : Fin 32) :
    val_main_v1060 (F := Ideal) x1 (ix2 i k) = x1 (ix3 (⟨29, by norm_num⟩ : Fin 32) (up (d := 29) (by norm_num) i) k) := by
  rw [val_main_v1060_apply, val_main_v1059_apply]
  exact congrArg x1 (funext fun a => by
    match a with
    | ⟨0, _⟩ => rfl
    | ⟨1, _⟩ => exact Fin.ext (by have := i.isLt; have := k.isLt; show (i.val * 32 + k.val) / 32 % 29 = i.val; omega)
    | ⟨2, _⟩ => exact Fin.ext (by have := i.isLt; have := k.isLt; show (i.val * 32 + k.val) % 32 = k.val; omega))

/-- The first layer's bias, the same in every row. -/
theorem c29_b0 (x2 : (⟨S32x32, .f32⟩ : BufTy).Contents (Elt Ideal)) (n : Fin 262144) (k : Fin 32) :
    val_main_v1065 (F := Ideal) x2 (ix2 n k) = x2 (ix2 (⟨29, by norm_num⟩ : Fin 32) k) := by
  rw [val_main_v1065_apply, val_main_v1064_apply, val_main_v1063_apply, val_main_v1062_apply]
  exact congrArg x2 (funext fun a => by
    match a with
    | ⟨0, _⟩ => rfl
    | ⟨1, _⟩ => exact Fin.ext (by have := k.isLt; show k.val % 32 = k.val; omega))

theorem c29_z0 (n : Fin 262144) (k : Fin 32) : val_main_call56_v0 (F := Ideal) (ix2 n k) = 0 := by
  rw [val_main_call56_v0_apply, val_main_call56_cst_apply]
  exact Ideal.ofBits_zero_f32

/-- The first hidden layer. -/
theorem c29_hid0 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (n : Fin 262144) (k : Fin 32) :
    val_main_v1067 (F := Ideal) x0 x1 x2 (ix2 n k) = rhid0 (fun i : Fin 32 => x0 (ix2 n i)) (fun a b c : Fin 32 => x1 (ix3 a b c)) (fun a b : Fin 32 => x2 (ix2 a b)) 29 (by norm_num) k := by
  rw [val_main_v1067_apply, val_main_v1066_apply, val_main_v1061_apply, c29_b0]
  refine relu_affine_congr _ _ _ _ (c29_z0 n k) fun i => ?_
  have el : lidx_main_v1061 (ix2 n k) i = ix2 n i := funext fun a => by
    match a with
    | ⟨0, _⟩ => rfl
    | ⟨1, _⟩ => rfl
  have er : ridx_main_v1061 (ix2 n k) i = ix2 i k := funext fun a => by
    match a with
    | ⟨0, _⟩ => rfl
    | ⟨1, _⟩ => rfl
  rw [el, er, c29_x, c29_w0]

/-- The second layer's weights: row 29 of `ws1`, its first 29 outputs. -/
theorem c29_w1 (x3 : (⟨S32x32x32, .f32⟩ : BufTy).Contents (Elt Ideal)) (k : Fin 32) (c : Fin 29) :
    val_main_v1069 (F := Ideal) x3 (ix2 k c) = x3 (ix3 (⟨29, by norm_num⟩ : Fin 32) k (up (d := 29) (by norm_num) c)) := by
  rw [val_main_v1069_apply, val_main_v1068_apply]
  exact congrArg x3 (funext fun a => by
    match a with
    | ⟨0, _⟩ => rfl
    | ⟨1, _⟩ => exact Fin.ext (by have := k.isLt; have := c.isLt; show (k.val * 29 + c.val) / 29 % 32 = k.val; omega)
    | ⟨2, _⟩ => exact Fin.ext (by have := k.isLt; have := c.isLt; show (k.val * 29 + c.val) % 29 = c.val; omega))

/-- The second layer's bias. -/
theorem c29_b1 (x4 : (⟨S32x32, .f32⟩ : BufTy).Contents (Elt Ideal)) (n : Fin 262144) (c : Fin 29) :
    val_main_v1074 (F := Ideal) x4 (ix2 n c) = x4 (ix2 (⟨29, by norm_num⟩ : Fin 32) (up (d := 29) (by norm_num) c)) := by
  rw [val_main_v1074_apply, val_main_v1073_apply, val_main_v1072_apply, val_main_v1071_apply]
  exact congrArg x4 (funext fun a => by
    match a with
    | ⟨0, _⟩ => rfl
    | ⟨1, _⟩ => exact Fin.ext (by have := c.isLt; show c.val % 29 = c.val; omega))

theorem c29_z1 (n : Fin 262144) (c : Fin 29) : val_main_call57_v0 (F := Ideal) (ix2 n c) = 0 := by
  rw [val_main_call57_v0_apply, val_main_call57_cst_apply]
  exact Ideal.ofBits_zero_f32

/-- The second hidden layer. -/
theorem c29_hid1 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 29) :
    val_main_v1076 (F := Ideal) x0 x1 x2 x3 x4 (ix2 n c)
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 29 (by norm_num) c := by
  rw [val_main_v1076_apply, val_main_v1075_apply, val_main_v1070_apply, c29_b1]
  refine relu_affine_congr _ _ _ _ (c29_z1 n c) fun k => ?_
  have el : lidx_main_v1070 (ix2 n c) k = ix2 n k := funext fun a => by
    match a with
    | ⟨0, _⟩ => rfl
    | ⟨1, _⟩ => rfl
  have er : ridx_main_v1070 (ix2 n c) k = ix2 k c := funext fun a => by
    match a with
    | ⟨0, _⟩ => rfl
    | ⟨1, _⟩ => rfl
  rw [el, er, c29_hid0, c29_w1]

/-- The last layer's weights on the hidden units: the first 29 rows of `wlast[29]`. -/
theorem c29_wl (x5 : (⟨S32x32x8, .f32⟩ : BufTy).Contents (Elt Ideal)) (c : Fin 29) (h : Fin 8) :
    val_main_v1057 (F := Ideal) x5 (ix2 (Fin.castSucc c : Fin 30) h) = x5 (ix3 (⟨29, by norm_num⟩ : Fin 32) (up (d := 29) (by norm_num) c) h) := by
  unfold val_main_v1057
  refine (cat_rows_top (val_main_v1054 (F := Ideal) x5) (val_main_v1056 (F := Ideal) x5) _ c h).trans ?_
  rw [val_main_v1054_apply, val_main_v1053_apply, val_main_v1052_apply]
  exact congrArg x5 (funext fun a => by
    match a with
    | ⟨0, _⟩ => rfl
    | ⟨1, _⟩ => exact Fin.ext (by have := c.isLt; have := h.isLt; show (c.val * 8 + h.val) / 8 % 30 = c.val; omega)
    | ⟨2, _⟩ => exact Fin.ext (by have := c.isLt; have := h.isLt; show (c.val * 8 + h.val) % 8 = h.val; omega))

/-- The last layer's weight on the input x[n, 29]: the exponential of row 29 of `wlast[29]`. -/
theorem c29_we (x5 : (⟨S32x32x8, .f32⟩ : BufTy).Contents (Elt Ideal)) (h : Fin 8) :
    val_main_v1057 (F := Ideal) x5 (ix2 (Fin.last 29 : Fin 30) h) = eexp (x5 (ix3 (⟨29, by norm_num⟩ : Fin 32) (⟨29, by norm_num⟩ : Fin 32) h)) := by
  unfold val_main_v1057
  refine (cat_rows_last (val_main_v1054 (F := Ideal) x5) (val_main_v1056 (F := Ideal) x5) _ h).trans ?_
  rw [val_main_v1056_apply, val_main_v1055_apply, val_main_v1053_apply, val_main_v1052_apply]
  exact congrArg eexp (congrArg x5 (funext fun a => by
    match a with
    | ⟨0, _⟩ => rfl
    | ⟨1, _⟩ => exact Fin.ext (by have := h.isLt; show (29 * 8 + h.val) / 8 % 30 = 29; omega)
    | ⟨2, _⟩ => exact Fin.ext (by have := h.isLt; show (29 * 8 + h.val) % 8 = h.val; omega)))

/-- The last layer's inputs: hidden unit `c < 29` … -/
theorem c29_xc (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 29) :
    val_main_v1078 (F := Ideal) x0 x1 x2 x3 x4 (ix2 n (Fin.castSucc c : Fin 30))
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 29 (by norm_num) c := by
  unfold val_main_v1078
  exact (cat_cols_left (val_main_v1076 (F := Ideal) x0 x1 x2 x3 x4) (val_main_v1077 (F := Ideal) x0) _ n c).trans
    (c29_hid1 x0 x1 x2 x3 x4 n c)

/-- … and, last, the input x[n, 29]. -/
theorem c29_xl (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) :
    val_main_v1078 (F := Ideal) x0 x1 x2 x3 x4 (ix2 n (Fin.last 29 : Fin 30)) = x0 (ix2 n (⟨29, by norm_num⟩ : Fin 32)) := by
  unfold val_main_v1078
  refine (cat_cols_last (val_main_v1076 (F := Ideal) x0 x1 x2 x3 x4) (val_main_v1077 (F := Ideal) x0) _ n).trans ?_
  rw [val_main_v1077_apply]
  exact congrArg x0 (funext fun a => by
    match a with
    | ⟨0, _⟩ => rfl
    | ⟨1, _⟩ => rfl)

/-- The last layer's bias. -/
theorem c29_bl (x6 : (⟨S32x8, .f32⟩ : BufTy).Contents (Elt Ideal)) (n : Fin 262144) (h : Fin 8) :
    val_main_v1083 (F := Ideal) x6 (ix2 n h) = x6 (ix2 (⟨29, by norm_num⟩ : Fin 32) h) := by
  rw [val_main_v1083_apply, val_main_v1082_apply, val_main_v1081_apply, val_main_v1080_apply]
  exact congrArg x6 (funext fun a => by
    match a with
    | ⟨0, _⟩ => rfl
    | ⟨1, _⟩ => exact Fin.ext (by have := h.isLt; show h.val % 8 = h.val; omega))

/-- The last layer. -/
theorem c29_lay (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) (h : Fin 8) :
    val_main_v1084 (F := Ideal) x0 x1 x2 x3 x4 x5 x6 (ix2 n h)
      = rlay (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 29 (by norm_num) h := by
  rw [val_main_v1084_apply, val_main_v1079_apply, c29_bl]
  have el : ∀ k : Fin 30, lidx_main_v1079 (ix2 n h) k = ix2 n k := fun k => funext fun a => by
    match a with
    | ⟨0, _⟩ => rfl
    | ⟨1, _⟩ => rfl
  have er : ∀ k : Fin 30, ridx_main_v1079 (ix2 n h) k = ix2 k h := fun k => funext fun a => by
    match a with
    | ⟨0, _⟩ => rfl
    | ⟨1, _⟩ => rfl
  refine lay_congr (d := 29) _ _ _ _ (fun c => ?_) ?_
  · rw [el, er, c29_xc, c29_wl]
  · rw [el, er, c29_xl, c29_we]

/-- **Component 29** of the reference at row `n`. -/
theorem comp_29 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v1088 (F := Ideal) x0 x1 x2 x3 x4 x5 x6 (ix2 n (0 : Fin 1))
      = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 29 (by norm_num) := by
  rw [val_main_v1088_apply]
  have e : idx_main_v1088 (ix2 n (0 : Fin 1)) = ix1 n := funext fun a => by
    match a with
    | ⟨0, _⟩ => rfl
  rw [e]
  unfold val_main_v1087 val_main_v1086 refOut
  refine (pool_read (val_main_v1085 (F := Ideal) x0 x1 x2 x3 x4 x5 x6) (val_main_cst_57 (F := Ideal)) (val_main_cst_58 (F := Ideal))
    _ _ _ rfl rfl n (fun h => val_main_v1084 (F := Ideal) x0 x1 x2 x3 x4 x5 x6 (ix2 n h)) (fun g p => ?_)).trans ?_
  · rw [val_main_v1085_apply]
    exact congrArg (val_main_v1084 (F := Ideal) x0 x1 x2 x3 x4 x5 x6) (funext fun a => by
      match a with
      | ⟨0, _⟩ => exact Fin.ext (by have := g.isLt; have := p.isLt; show ((n.val * 4 + g.val) * 2 + p.val) / 8 = n.val; omega)
      | ⟨1, _⟩ => exact Fin.ext (by have := g.isLt; have := p.isLt; show ((n.val * 4 + g.val) * 2 + p.val) % 8 = 2 * g.val + p.val; omega))
  · exact congrArg pool (funext fun h => c29_lay x0 x1 x2 x3 x4 x5 x6 n h)

/-! ## Component 30

Its 30 earlier inputs x[n, i], i < 30, go through the two hidden layers (weights ws0[30, i, k], bs0[30, k] and
ws1[30, k, c], bs1[30, c] for c < 30); the last layer adds the input x[n, 30] itself, weighted by the exponential
of wlast[30, 30, h]. -/

/-- The earlier inputs: column `i < 30` of the row. -/
theorem c30_x (x0 : (⟨S262144x32, .f32⟩ : BufTy).Contents (Elt Ideal)) (n : Fin 262144) (i : Fin 30) :
    val_main_v1095 (F := Ideal) x0 (ix2 n i) = x0 (ix2 n (up (d := 30) (by norm_num) i)) :=
  (val_main_v1095_apply x0 _).trans (congrArg x0 (funext fun a => by
    match a with
    | ⟨0, _⟩ => rfl
    | ⟨1, _⟩ => rfl))

/-- The first layer's weights: row 30 of `ws0`, its first 30 inputs. -/
theorem c30_w0 (x1 : (⟨S32x32x32, .f32⟩ : BufTy).Contents (Elt Ideal)) (i : Fin 30) (k : Fin 32) :
    val_main_v1097 (F := Ideal) x1 (ix2 i k) = x1 (ix3 (⟨30, by norm_num⟩ : Fin 32) (up (d := 30) (by norm_num) i) k) := by
  rw [val_main_v1097_apply, val_main_v1096_apply]
  exact congrArg x1 (funext fun a => by
    match a with
    | ⟨0, _⟩ => rfl
    | ⟨1, _⟩ => exact Fin.ext (by have := i.isLt; have := k.isLt; show (i.val * 32 + k.val) / 32 % 30 = i.val; omega)
    | ⟨2, _⟩ => exact Fin.ext (by have := i.isLt; have := k.isLt; show (i.val * 32 + k.val) % 32 = k.val; omega))

/-- The first layer's bias, the same in every row. -/
theorem c30_b0 (x2 : (⟨S32x32, .f32⟩ : BufTy).Contents (Elt Ideal)) (n : Fin 262144) (k : Fin 32) :
    val_main_v1102 (F := Ideal) x2 (ix2 n k) = x2 (ix2 (⟨30, by norm_num⟩ : Fin 32) k) := by
  rw [val_main_v1102_apply, val_main_v1101_apply, val_main_v1100_apply, val_main_v1099_apply]
  exact congrArg x2 (funext fun a => by
    match a with
    | ⟨0, _⟩ => rfl
    | ⟨1, _⟩ => exact Fin.ext (by have := k.isLt; show k.val % 32 = k.val; omega))

theorem c30_z0 (n : Fin 262144) (k : Fin 32) : val_main_call58_v0 (F := Ideal) (ix2 n k) = 0 := by
  rw [val_main_call58_v0_apply, val_main_call58_cst_apply]
  exact Ideal.ofBits_zero_f32

/-- The first hidden layer. -/
theorem c30_hid0 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (n : Fin 262144) (k : Fin 32) :
    val_main_v1104 (F := Ideal) x0 x1 x2 (ix2 n k) = rhid0 (fun i : Fin 32 => x0 (ix2 n i)) (fun a b c : Fin 32 => x1 (ix3 a b c)) (fun a b : Fin 32 => x2 (ix2 a b)) 30 (by norm_num) k := by
  rw [val_main_v1104_apply, val_main_v1103_apply, val_main_v1098_apply, c30_b0]
  refine relu_affine_congr _ _ _ _ (c30_z0 n k) fun i => ?_
  have el : lidx_main_v1098 (ix2 n k) i = ix2 n i := funext fun a => by
    match a with
    | ⟨0, _⟩ => rfl
    | ⟨1, _⟩ => rfl
  have er : ridx_main_v1098 (ix2 n k) i = ix2 i k := funext fun a => by
    match a with
    | ⟨0, _⟩ => rfl
    | ⟨1, _⟩ => rfl
  rw [el, er, c30_x, c30_w0]

/-- The second layer's weights: row 30 of `ws1`, its first 30 outputs. -/
theorem c30_w1 (x3 : (⟨S32x32x32, .f32⟩ : BufTy).Contents (Elt Ideal)) (k : Fin 32) (c : Fin 30) :
    val_main_v1106 (F := Ideal) x3 (ix2 k c) = x3 (ix3 (⟨30, by norm_num⟩ : Fin 32) k (up (d := 30) (by norm_num) c)) := by
  rw [val_main_v1106_apply, val_main_v1105_apply]
  exact congrArg x3 (funext fun a => by
    match a with
    | ⟨0, _⟩ => rfl
    | ⟨1, _⟩ => exact Fin.ext (by have := k.isLt; have := c.isLt; show (k.val * 30 + c.val) / 30 % 32 = k.val; omega)
    | ⟨2, _⟩ => exact Fin.ext (by have := k.isLt; have := c.isLt; show (k.val * 30 + c.val) % 30 = c.val; omega))

/-- The second layer's bias. -/
theorem c30_b1 (x4 : (⟨S32x32, .f32⟩ : BufTy).Contents (Elt Ideal)) (n : Fin 262144) (c : Fin 30) :
    val_main_v1111 (F := Ideal) x4 (ix2 n c) = x4 (ix2 (⟨30, by norm_num⟩ : Fin 32) (up (d := 30) (by norm_num) c)) := by
  rw [val_main_v1111_apply, val_main_v1110_apply, val_main_v1109_apply, val_main_v1108_apply]
  exact congrArg x4 (funext fun a => by
    match a with
    | ⟨0, _⟩ => rfl
    | ⟨1, _⟩ => exact Fin.ext (by have := c.isLt; show c.val % 30 = c.val; omega))

theorem c30_z1 (n : Fin 262144) (c : Fin 30) : val_main_call59_v0 (F := Ideal) (ix2 n c) = 0 := by
  rw [val_main_call59_v0_apply, val_main_call59_cst_apply]
  exact Ideal.ofBits_zero_f32

/-- The second hidden layer. -/
theorem c30_hid1 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 30) :
    val_main_v1113 (F := Ideal) x0 x1 x2 x3 x4 (ix2 n c)
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 30 (by norm_num) c := by
  rw [val_main_v1113_apply, val_main_v1112_apply, val_main_v1107_apply, c30_b1]
  refine relu_affine_congr _ _ _ _ (c30_z1 n c) fun k => ?_
  have el : lidx_main_v1107 (ix2 n c) k = ix2 n k := funext fun a => by
    match a with
    | ⟨0, _⟩ => rfl
    | ⟨1, _⟩ => rfl
  have er : ridx_main_v1107 (ix2 n c) k = ix2 k c := funext fun a => by
    match a with
    | ⟨0, _⟩ => rfl
    | ⟨1, _⟩ => rfl
  rw [el, er, c30_hid0, c30_w1]

/-- The last layer's weights on the hidden units: the first 30 rows of `wlast[30]`. -/
theorem c30_wl (x5 : (⟨S32x32x8, .f32⟩ : BufTy).Contents (Elt Ideal)) (c : Fin 30) (h : Fin 8) :
    val_main_v1094 (F := Ideal) x5 (ix2 (Fin.castSucc c : Fin 31) h) = x5 (ix3 (⟨30, by norm_num⟩ : Fin 32) (up (d := 30) (by norm_num) c) h) := by
  unfold val_main_v1094
  refine (cat_rows_top (val_main_v1091 (F := Ideal) x5) (val_main_v1093 (F := Ideal) x5) _ c h).trans ?_
  rw [val_main_v1091_apply, val_main_v1090_apply, val_main_v1089_apply]
  exact congrArg x5 (funext fun a => by
    match a with
    | ⟨0, _⟩ => rfl
    | ⟨1, _⟩ => exact Fin.ext (by have := c.isLt; have := h.isLt; show (c.val * 8 + h.val) / 8 % 31 = c.val; omega)
    | ⟨2, _⟩ => exact Fin.ext (by have := c.isLt; have := h.isLt; show (c.val * 8 + h.val) % 8 = h.val; omega))

/-- The last layer's weight on the input x[n, 30]: the exponential of row 30 of `wlast[30]`. -/
theorem c30_we (x5 : (⟨S32x32x8, .f32⟩ : BufTy).Contents (Elt Ideal)) (h : Fin 8) :
    val_main_v1094 (F := Ideal) x5 (ix2 (Fin.last 30 : Fin 31) h) = eexp (x5 (ix3 (⟨30, by norm_num⟩ : Fin 32) (⟨30, by norm_num⟩ : Fin 32) h)) := by
  unfold val_main_v1094
  refine (cat_rows_last (val_main_v1091 (F := Ideal) x5) (val_main_v1093 (F := Ideal) x5) _ h).trans ?_
  rw [val_main_v1093_apply, val_main_v1092_apply, val_main_v1090_apply, val_main_v1089_apply]
  exact congrArg eexp (congrArg x5 (funext fun a => by
    match a with
    | ⟨0, _⟩ => rfl
    | ⟨1, _⟩ => exact Fin.ext (by have := h.isLt; show (30 * 8 + h.val) / 8 % 31 = 30; omega)
    | ⟨2, _⟩ => exact Fin.ext (by have := h.isLt; show (30 * 8 + h.val) % 8 = h.val; omega)))

/-- The last layer's inputs: hidden unit `c < 30` … -/
theorem c30_xc (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 30) :
    val_main_v1115 (F := Ideal) x0 x1 x2 x3 x4 (ix2 n (Fin.castSucc c : Fin 31))
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 30 (by norm_num) c := by
  unfold val_main_v1115
  exact (cat_cols_left (val_main_v1113 (F := Ideal) x0 x1 x2 x3 x4) (val_main_v1114 (F := Ideal) x0) _ n c).trans
    (c30_hid1 x0 x1 x2 x3 x4 n c)

/-- … and, last, the input x[n, 30]. -/
theorem c30_xl (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) :
    val_main_v1115 (F := Ideal) x0 x1 x2 x3 x4 (ix2 n (Fin.last 30 : Fin 31)) = x0 (ix2 n (⟨30, by norm_num⟩ : Fin 32)) := by
  unfold val_main_v1115
  refine (cat_cols_last (val_main_v1113 (F := Ideal) x0 x1 x2 x3 x4) (val_main_v1114 (F := Ideal) x0) _ n).trans ?_
  rw [val_main_v1114_apply]
  exact congrArg x0 (funext fun a => by
    match a with
    | ⟨0, _⟩ => rfl
    | ⟨1, _⟩ => rfl)

/-- The last layer's bias. -/
theorem c30_bl (x6 : (⟨S32x8, .f32⟩ : BufTy).Contents (Elt Ideal)) (n : Fin 262144) (h : Fin 8) :
    val_main_v1120 (F := Ideal) x6 (ix2 n h) = x6 (ix2 (⟨30, by norm_num⟩ : Fin 32) h) := by
  rw [val_main_v1120_apply, val_main_v1119_apply, val_main_v1118_apply, val_main_v1117_apply]
  exact congrArg x6 (funext fun a => by
    match a with
    | ⟨0, _⟩ => rfl
    | ⟨1, _⟩ => exact Fin.ext (by have := h.isLt; show h.val % 8 = h.val; omega))

/-- The last layer. -/
theorem c30_lay (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) (h : Fin 8) :
    val_main_v1121 (F := Ideal) x0 x1 x2 x3 x4 x5 x6 (ix2 n h)
      = rlay (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 30 (by norm_num) h := by
  rw [val_main_v1121_apply, val_main_v1116_apply, c30_bl]
  have el : ∀ k : Fin 31, lidx_main_v1116 (ix2 n h) k = ix2 n k := fun k => funext fun a => by
    match a with
    | ⟨0, _⟩ => rfl
    | ⟨1, _⟩ => rfl
  have er : ∀ k : Fin 31, ridx_main_v1116 (ix2 n h) k = ix2 k h := fun k => funext fun a => by
    match a with
    | ⟨0, _⟩ => rfl
    | ⟨1, _⟩ => rfl
  refine lay_congr (d := 30) _ _ _ _ (fun c => ?_) ?_
  · rw [el, er, c30_xc, c30_wl]
  · rw [el, er, c30_xl, c30_we]

/-- **Component 30** of the reference at row `n`. -/
theorem comp_30 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v1125 (F := Ideal) x0 x1 x2 x3 x4 x5 x6 (ix2 n (0 : Fin 1))
      = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 30 (by norm_num) := by
  rw [val_main_v1125_apply]
  have e : idx_main_v1125 (ix2 n (0 : Fin 1)) = ix1 n := funext fun a => by
    match a with
    | ⟨0, _⟩ => rfl
  rw [e]
  unfold val_main_v1124 val_main_v1123 refOut
  refine (pool_read (val_main_v1122 (F := Ideal) x0 x1 x2 x3 x4 x5 x6) (val_main_cst_59 (F := Ideal)) (val_main_cst_60 (F := Ideal))
    _ _ _ rfl rfl n (fun h => val_main_v1121 (F := Ideal) x0 x1 x2 x3 x4 x5 x6 (ix2 n h)) (fun g p => ?_)).trans ?_
  · rw [val_main_v1122_apply]
    exact congrArg (val_main_v1121 (F := Ideal) x0 x1 x2 x3 x4 x5 x6) (funext fun a => by
      match a with
      | ⟨0, _⟩ => exact Fin.ext (by have := g.isLt; have := p.isLt; show ((n.val * 4 + g.val) * 2 + p.val) / 8 = n.val; omega)
      | ⟨1, _⟩ => exact Fin.ext (by have := g.isLt; have := p.isLt; show ((n.val * 4 + g.val) * 2 + p.val) % 8 = 2 * g.val + p.val; omega))
  · exact congrArg pool (funext fun h => c30_lay x0 x1 x2 x3 x4 x5 x6 n h)

/-! ## Component 31

Its 31 earlier inputs x[n, i], i < 31, go through the two hidden layers (weights ws0[31, i, k], bs0[31, k] and
ws1[31, k, c], bs1[31, c] for c < 31); the last layer adds the input x[n, 31] itself, weighted by the exponential
of wlast[31, 31, h]. -/

/-- The earlier inputs: column `i < 31` of the row. -/
theorem c31_x (x0 : (⟨S262144x32, .f32⟩ : BufTy).Contents (Elt Ideal)) (n : Fin 262144) (i : Fin 31) :
    val_main_v1132 (F := Ideal) x0 (ix2 n i) = x0 (ix2 n (up (d := 31) (by norm_num) i)) :=
  (val_main_v1132_apply x0 _).trans (congrArg x0 (funext fun a => by
    match a with
    | ⟨0, _⟩ => rfl
    | ⟨1, _⟩ => rfl))

/-- The first layer's weights: row 31 of `ws0`, its first 31 inputs. -/
theorem c31_w0 (x1 : (⟨S32x32x32, .f32⟩ : BufTy).Contents (Elt Ideal)) (i : Fin 31) (k : Fin 32) :
    val_main_v1134 (F := Ideal) x1 (ix2 i k) = x1 (ix3 (⟨31, by norm_num⟩ : Fin 32) (up (d := 31) (by norm_num) i) k) := by
  rw [val_main_v1134_apply, val_main_v1133_apply]
  exact congrArg x1 (funext fun a => by
    match a with
    | ⟨0, _⟩ => rfl
    | ⟨1, _⟩ => exact Fin.ext (by have := i.isLt; have := k.isLt; show (i.val * 32 + k.val) / 32 % 31 = i.val; omega)
    | ⟨2, _⟩ => exact Fin.ext (by have := i.isLt; have := k.isLt; show (i.val * 32 + k.val) % 32 = k.val; omega))

/-- The first layer's bias, the same in every row. -/
theorem c31_b0 (x2 : (⟨S32x32, .f32⟩ : BufTy).Contents (Elt Ideal)) (n : Fin 262144) (k : Fin 32) :
    val_main_v1139 (F := Ideal) x2 (ix2 n k) = x2 (ix2 (⟨31, by norm_num⟩ : Fin 32) k) := by
  rw [val_main_v1139_apply, val_main_v1138_apply, val_main_v1137_apply, val_main_v1136_apply]
  exact congrArg x2 (funext fun a => by
    match a with
    | ⟨0, _⟩ => rfl
    | ⟨1, _⟩ => exact Fin.ext (by have := k.isLt; show k.val % 32 = k.val; omega))

theorem c31_z0 (n : Fin 262144) (k : Fin 32) : val_main_call60_v0 (F := Ideal) (ix2 n k) = 0 := by
  rw [val_main_call60_v0_apply, val_main_call60_cst_apply]
  exact Ideal.ofBits_zero_f32

/-- The first hidden layer. -/
theorem c31_hid0 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (n : Fin 262144) (k : Fin 32) :
    val_main_v1141 (F := Ideal) x0 x1 x2 (ix2 n k) = rhid0 (fun i : Fin 32 => x0 (ix2 n i)) (fun a b c : Fin 32 => x1 (ix3 a b c)) (fun a b : Fin 32 => x2 (ix2 a b)) 31 (by norm_num) k := by
  rw [val_main_v1141_apply, val_main_v1140_apply, val_main_v1135_apply, c31_b0]
  refine relu_affine_congr _ _ _ _ (c31_z0 n k) fun i => ?_
  have el : lidx_main_v1135 (ix2 n k) i = ix2 n i := funext fun a => by
    match a with
    | ⟨0, _⟩ => rfl
    | ⟨1, _⟩ => rfl
  have er : ridx_main_v1135 (ix2 n k) i = ix2 i k := funext fun a => by
    match a with
    | ⟨0, _⟩ => rfl
    | ⟨1, _⟩ => rfl
  rw [el, er, c31_x, c31_w0]

/-- The second layer's weights: row 31 of `ws1`, its first 31 outputs. -/
theorem c31_w1 (x3 : (⟨S32x32x32, .f32⟩ : BufTy).Contents (Elt Ideal)) (k : Fin 32) (c : Fin 31) :
    val_main_v1143 (F := Ideal) x3 (ix2 k c) = x3 (ix3 (⟨31, by norm_num⟩ : Fin 32) k (up (d := 31) (by norm_num) c)) := by
  rw [val_main_v1143_apply, val_main_v1142_apply]
  exact congrArg x3 (funext fun a => by
    match a with
    | ⟨0, _⟩ => rfl
    | ⟨1, _⟩ => exact Fin.ext (by have := k.isLt; have := c.isLt; show (k.val * 31 + c.val) / 31 % 32 = k.val; omega)
    | ⟨2, _⟩ => exact Fin.ext (by have := k.isLt; have := c.isLt; show (k.val * 31 + c.val) % 31 = c.val; omega))

/-- The second layer's bias. -/
theorem c31_b1 (x4 : (⟨S32x32, .f32⟩ : BufTy).Contents (Elt Ideal)) (n : Fin 262144) (c : Fin 31) :
    val_main_v1148 (F := Ideal) x4 (ix2 n c) = x4 (ix2 (⟨31, by norm_num⟩ : Fin 32) (up (d := 31) (by norm_num) c)) := by
  rw [val_main_v1148_apply, val_main_v1147_apply, val_main_v1146_apply, val_main_v1145_apply]
  exact congrArg x4 (funext fun a => by
    match a with
    | ⟨0, _⟩ => rfl
    | ⟨1, _⟩ => exact Fin.ext (by have := c.isLt; show c.val % 31 = c.val; omega))

theorem c31_z1 (n : Fin 262144) (c : Fin 31) : val_main_call61_v0 (F := Ideal) (ix2 n c) = 0 := by
  rw [val_main_call61_v0_apply, val_main_call61_cst_apply]
  exact Ideal.ofBits_zero_f32

/-- The second hidden layer. -/
theorem c31_hid1 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 31) :
    val_main_v1150 (F := Ideal) x0 x1 x2 x3 x4 (ix2 n c)
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 31 (by norm_num) c := by
  rw [val_main_v1150_apply, val_main_v1149_apply, val_main_v1144_apply, c31_b1]
  refine relu_affine_congr _ _ _ _ (c31_z1 n c) fun k => ?_
  have el : lidx_main_v1144 (ix2 n c) k = ix2 n k := funext fun a => by
    match a with
    | ⟨0, _⟩ => rfl
    | ⟨1, _⟩ => rfl
  have er : ridx_main_v1144 (ix2 n c) k = ix2 k c := funext fun a => by
    match a with
    | ⟨0, _⟩ => rfl
    | ⟨1, _⟩ => rfl
  rw [el, er, c31_hid0, c31_w1]

/-- The last layer's weights on the hidden units: the first 31 rows of `wlast[31]`. -/
theorem c31_wl (x5 : (⟨S32x32x8, .f32⟩ : BufTy).Contents (Elt Ideal)) (c : Fin 31) (h : Fin 8) :
    val_main_v1131 (F := Ideal) x5 (ix2 (Fin.castSucc c : Fin 32) h) = x5 (ix3 (⟨31, by norm_num⟩ : Fin 32) (up (d := 31) (by norm_num) c) h) := by
  unfold val_main_v1131
  refine (cat_rows_top (val_main_v1128 (F := Ideal) x5) (val_main_v1130 (F := Ideal) x5) _ c h).trans ?_
  rw [val_main_v1128_apply, val_main_v1127_apply, val_main_v1126_apply]
  exact congrArg x5 (funext fun a => by
    match a with
    | ⟨0, _⟩ => rfl
    | ⟨1, _⟩ => exact Fin.ext (by have := c.isLt; have := h.isLt; show (c.val * 8 + h.val) / 8 % 32 = c.val; omega)
    | ⟨2, _⟩ => exact Fin.ext (by have := c.isLt; have := h.isLt; show (c.val * 8 + h.val) % 8 = h.val; omega))

/-- The last layer's weight on the input x[n, 31]: the exponential of row 31 of `wlast[31]`. -/
theorem c31_we (x5 : (⟨S32x32x8, .f32⟩ : BufTy).Contents (Elt Ideal)) (h : Fin 8) :
    val_main_v1131 (F := Ideal) x5 (ix2 (Fin.last 31 : Fin 32) h) = eexp (x5 (ix3 (⟨31, by norm_num⟩ : Fin 32) (⟨31, by norm_num⟩ : Fin 32) h)) := by
  unfold val_main_v1131
  refine (cat_rows_last (val_main_v1128 (F := Ideal) x5) (val_main_v1130 (F := Ideal) x5) _ h).trans ?_
  rw [val_main_v1130_apply, val_main_v1129_apply, val_main_v1127_apply, val_main_v1126_apply]
  exact congrArg eexp (congrArg x5 (funext fun a => by
    match a with
    | ⟨0, _⟩ => rfl
    | ⟨1, _⟩ => exact Fin.ext (by have := h.isLt; show (31 * 8 + h.val) / 8 % 32 = 31; omega)
    | ⟨2, _⟩ => exact Fin.ext (by have := h.isLt; show (31 * 8 + h.val) % 8 = h.val; omega)))

/-- The last layer's inputs: hidden unit `c < 31` … -/
theorem c31_xc (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) (c : Fin 31) :
    val_main_v1152 (F := Ideal) x0 x1 x2 x3 x4 (ix2 n (Fin.castSucc c : Fin 32))
      = rhid1 (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) 31 (by norm_num) c := by
  unfold val_main_v1152
  exact (cat_cols_left (val_main_v1150 (F := Ideal) x0 x1 x2 x3 x4) (val_main_v1151 (F := Ideal) x0) _ n c).trans
    (c31_hid1 x0 x1 x2 x3 x4 n c)

/-- … and, last, the input x[n, 31]. -/
theorem c31_xl (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (n : Fin 262144) :
    val_main_v1152 (F := Ideal) x0 x1 x2 x3 x4 (ix2 n (Fin.last 31 : Fin 32)) = x0 (ix2 n (⟨31, by norm_num⟩ : Fin 32)) := by
  unfold val_main_v1152
  refine (cat_cols_last (val_main_v1150 (F := Ideal) x0 x1 x2 x3 x4) (val_main_v1151 (F := Ideal) x0) _ n).trans ?_
  rw [val_main_v1151_apply]
  exact congrArg x0 (funext fun a => by
    match a with
    | ⟨0, _⟩ => rfl
    | ⟨1, _⟩ => rfl)

/-- The last layer's bias. -/
theorem c31_bl (x6 : (⟨S32x8, .f32⟩ : BufTy).Contents (Elt Ideal)) (n : Fin 262144) (h : Fin 8) :
    val_main_v1157 (F := Ideal) x6 (ix2 n h) = x6 (ix2 (⟨31, by norm_num⟩ : Fin 32) h) := by
  rw [val_main_v1157_apply, val_main_v1156_apply, val_main_v1155_apply, val_main_v1154_apply]
  exact congrArg x6 (funext fun a => by
    match a with
    | ⟨0, _⟩ => rfl
    | ⟨1, _⟩ => exact Fin.ext (by have := h.isLt; show h.val % 8 = h.val; omega))

/-- The last layer. -/
theorem c31_lay (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) (h : Fin 8) :
    val_main_v1158 (F := Ideal) x0 x1 x2 x3 x4 x5 x6 (ix2 n h)
      = rlay (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 31 (by norm_num) h := by
  rw [val_main_v1158_apply, val_main_v1153_apply, c31_bl]
  have el : ∀ k : Fin 32, lidx_main_v1153 (ix2 n h) k = ix2 n k := fun k => funext fun a => by
    match a with
    | ⟨0, _⟩ => rfl
    | ⟨1, _⟩ => rfl
  have er : ∀ k : Fin 32, ridx_main_v1153 (ix2 n h) k = ix2 k h := fun k => funext fun a => by
    match a with
    | ⟨0, _⟩ => rfl
    | ⟨1, _⟩ => rfl
  refine lay_congr (d := 31) _ _ _ _ (fun c => ?_) ?_
  · rw [el, er, c31_xc, c31_wl]
  · rw [el, er, c31_xl, c31_we]

/-- **Component 31** of the reference at row `n`. -/
theorem comp_31 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v1162 (F := Ideal) x0 x1 x2 x3 x4 x5 x6 (ix2 n (0 : Fin 1))
      = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 31 (by norm_num) := by
  rw [val_main_v1162_apply]
  have e : idx_main_v1162 (ix2 n (0 : Fin 1)) = ix1 n := funext fun a => by
    match a with
    | ⟨0, _⟩ => rfl
  rw [e]
  unfold val_main_v1161 val_main_v1160 refOut
  refine (pool_read (val_main_v1159 (F := Ideal) x0 x1 x2 x3 x4 x5 x6) (val_main_cst_61 (F := Ideal)) (val_main_cst_62 (F := Ideal))
    _ _ _ rfl rfl n (fun h => val_main_v1158 (F := Ideal) x0 x1 x2 x3 x4 x5 x6 (ix2 n h)) (fun g p => ?_)).trans ?_
  · rw [val_main_v1159_apply]
    exact congrArg (val_main_v1158 (F := Ideal) x0 x1 x2 x3 x4 x5 x6) (funext fun a => by
      match a with
      | ⟨0, _⟩ => exact Fin.ext (by have := g.isLt; have := p.isLt; show ((n.val * 4 + g.val) * 2 + p.val) / 8 = n.val; omega)
      | ⟨1, _⟩ => exact Fin.ext (by have := g.isLt; have := p.isLt; show ((n.val * 4 + g.val) * 2 + p.val) % 8 = 2 * g.val + p.val; omega))
  · exact congrArg pool (funext fun h => c31_lay x0 x1 x2 x3 x4 x5 x6 n h)

end Cert.Monotone.Ref

end
-- ==== Proof.RefAll.lean ====
/-
  The reference's result, column by column: its 32 columns are the 32 components, joined sixteen at a time and then
  the two halves; column `d` at row `n` is the specification's `refOut` at `d`, which is the specification itself.
-/
import proofs.«166035_j57586921505191_2_alg».proof.Proof.Algebra
import proofs.«166035_j57586921505191_2_alg».proof.Proof.RefComp0
import proofs.«166035_j57586921505191_2_alg».proof.Proof.RefComp1
import proofs.«166035_j57586921505191_2_alg».proof.Proof.RefComp2
import proofs.«166035_j57586921505191_2_alg».proof.Proof.RefComp3

noncomputable section

namespace Cert.Monotone.Ref

open Cert.ReferenceIdeal Cert.ReferenceIdeal.Read Cert.ReferenceIdeal.Gen Idealize.ShloMosaic Idealize.ShloMosaic.ValueIdx Cert.Monotone

/-- Columns of width one laid side by side: the first `k` of them are `k` wide. -/
theorem pre_unit_cols (xs : List ((s : Shape) × (s.Idx → EReal))) (hxs : ∀ p ∈ xs, p.1 = S262144x1) (k : Nat)
    (hk : k ≤ xs.length) :
    (((xs.take k).map (·.1)).map fun s : Shape =>
      if h : s.rank = S262144x16.rank then s.size ((1 : Fin S262144x16.rank).cast h.symm) else 0).sum = k := by
  rw [List.sum_eq_card_nsmul _ 1 (by
    intro x hx
    obtain ⟨s, hs, rfl⟩ := List.mem_map.1 hx
    obtain ⟨p, hp, rfl⟩ := List.mem_map.1 hs
    rw [hxs p (List.mem_of_mem_take hp)]
    rfl)]
  simp [Nat.min_eq_left hk]

/-- Column 0: piece 0 of the first half. -/
theorem col_0 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v1165 (F := Ideal) x0 x1 x2 x3 x4 x5 x6 (ix2 n (⟨0, by norm_num⟩ : Fin 32)) = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 0 (by norm_num) := by
  unfold val_main_v1165
  refine (cat_halves_left (val_main_v1163 (F := Ideal) x0 x1 x2 x3 x4 x5 x6) (val_main_v1164 (F := Ideal) x0 x1 x2 x3 x4 x5 x6) _ n
    (0 : Fin 16) (⟨0, by norm_num⟩ : Fin 32) rfl).trans ?_
  unfold val_main_v1163
  refine Eq.trans ?_ (comp_0 x0 x1 x2 x3 x4 x5 x6 n)
  exact concatenate_apply_piece (t := S262144x16) 1 _ _ (ix2 n (0 : Fin 16)) 0 (by simp) S262144x1
    (val_main_v15 (F := Ideal) x0 x5 x6) (by rfl) (by rfl) 0 (pre_unit_cols _ (by simp) 0 (by simp)) (ix2 n (0 : Fin 1))
    (fun e he => by
      match e with
      | ⟨0, _⟩ => rfl
      | ⟨1, _⟩ => exact absurd rfl he)
    (by rfl)

/-- Column 1: piece 1 of the first half. -/
theorem col_1 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v1165 (F := Ideal) x0 x1 x2 x3 x4 x5 x6 (ix2 n (⟨1, by norm_num⟩ : Fin 32)) = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 1 (by norm_num) := by
  unfold val_main_v1165
  refine (cat_halves_left (val_main_v1163 (F := Ideal) x0 x1 x2 x3 x4 x5 x6) (val_main_v1164 (F := Ideal) x0 x1 x2 x3 x4 x5 x6) _ n
    (1 : Fin 16) (⟨1, by norm_num⟩ : Fin 32) rfl).trans ?_
  unfold val_main_v1163
  refine Eq.trans ?_ (comp_1 x0 x1 x2 x3 x4 x5 x6 n)
  exact concatenate_apply_piece (t := S262144x16) 1 _ _ (ix2 n (1 : Fin 16)) 1 (by simp) S262144x1
    (val_main_v52 (F := Ideal) x0 x1 x2 x3 x4 x5 x6) (by rfl) (by rfl) 1 (pre_unit_cols _ (by simp) 1 (by simp)) (ix2 n (0 : Fin 1))
    (fun e he => by
      match e with
      | ⟨0, _⟩ => rfl
      | ⟨1, _⟩ => exact absurd rfl he)
    (by rfl)

/-- Column 2: piece 2 of the first half. -/
theorem col_2 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v1165 (F := Ideal) x0 x1 x2 x3 x4 x5 x6 (ix2 n (⟨2, by norm_num⟩ : Fin 32)) = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 2 (by norm_num) := by
  unfold val_main_v1165
  refine (cat_halves_left (val_main_v1163 (F := Ideal) x0 x1 x2 x3 x4 x5 x6) (val_main_v1164 (F := Ideal) x0 x1 x2 x3 x4 x5 x6) _ n
    (2 : Fin 16) (⟨2, by norm_num⟩ : Fin 32) rfl).trans ?_
  unfold val_main_v1163
  refine Eq.trans ?_ (comp_2 x0 x1 x2 x3 x4 x5 x6 n)
  exact concatenate_apply_piece (t := S262144x16) 1 _ _ (ix2 n (2 : Fin 16)) 2 (by simp) S262144x1
    (val_main_v89 (F := Ideal) x0 x1 x2 x3 x4 x5 x6) (by rfl) (by rfl) 2 (pre_unit_cols _ (by simp) 2 (by simp)) (ix2 n (0 : Fin 1))
    (fun e he => by
      match e with
      | ⟨0, _⟩ => rfl
      | ⟨1, _⟩ => exact absurd rfl he)
    (by rfl)

/-- Column 3: piece 3 of the first half. -/
theorem col_3 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v1165 (F := Ideal) x0 x1 x2 x3 x4 x5 x6 (ix2 n (⟨3, by norm_num⟩ : Fin 32)) = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 3 (by norm_num) := by
  unfold val_main_v1165
  refine (cat_halves_left (val_main_v1163 (F := Ideal) x0 x1 x2 x3 x4 x5 x6) (val_main_v1164 (F := Ideal) x0 x1 x2 x3 x4 x5 x6) _ n
    (3 : Fin 16) (⟨3, by norm_num⟩ : Fin 32) rfl).trans ?_
  unfold val_main_v1163
  refine Eq.trans ?_ (comp_3 x0 x1 x2 x3 x4 x5 x6 n)
  exact concatenate_apply_piece (t := S262144x16) 1 _ _ (ix2 n (3 : Fin 16)) 3 (by simp) S262144x1
    (val_main_v126 (F := Ideal) x0 x1 x2 x3 x4 x5 x6) (by rfl) (by rfl) 3 (pre_unit_cols _ (by simp) 3 (by simp)) (ix2 n (0 : Fin 1))
    (fun e he => by
      match e with
      | ⟨0, _⟩ => rfl
      | ⟨1, _⟩ => exact absurd rfl he)
    (by rfl)

/-- Column 4: piece 4 of the first half. -/
theorem col_4 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v1165 (F := Ideal) x0 x1 x2 x3 x4 x5 x6 (ix2 n (⟨4, by norm_num⟩ : Fin 32)) = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 4 (by norm_num) := by
  unfold val_main_v1165
  refine (cat_halves_left (val_main_v1163 (F := Ideal) x0 x1 x2 x3 x4 x5 x6) (val_main_v1164 (F := Ideal) x0 x1 x2 x3 x4 x5 x6) _ n
    (4 : Fin 16) (⟨4, by norm_num⟩ : Fin 32) rfl).trans ?_
  unfold val_main_v1163
  refine Eq.trans ?_ (comp_4 x0 x1 x2 x3 x4 x5 x6 n)
  exact concatenate_apply_piece (t := S262144x16) 1 _ _ (ix2 n (4 : Fin 16)) 4 (by simp) S262144x1
    (val_main_v163 (F := Ideal) x0 x1 x2 x3 x4 x5 x6) (by rfl) (by rfl) 4 (pre_unit_cols _ (by simp) 4 (by simp)) (ix2 n (0 : Fin 1))
    (fun e he => by
      match e with
      | ⟨0, _⟩ => rfl
      | ⟨1, _⟩ => exact absurd rfl he)
    (by rfl)

/-- Column 5: piece 5 of the first half. -/
theorem col_5 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v1165 (F := Ideal) x0 x1 x2 x3 x4 x5 x6 (ix2 n (⟨5, by norm_num⟩ : Fin 32)) = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 5 (by norm_num) := by
  unfold val_main_v1165
  refine (cat_halves_left (val_main_v1163 (F := Ideal) x0 x1 x2 x3 x4 x5 x6) (val_main_v1164 (F := Ideal) x0 x1 x2 x3 x4 x5 x6) _ n
    (5 : Fin 16) (⟨5, by norm_num⟩ : Fin 32) rfl).trans ?_
  unfold val_main_v1163
  refine Eq.trans ?_ (comp_5 x0 x1 x2 x3 x4 x5 x6 n)
  exact concatenate_apply_piece (t := S262144x16) 1 _ _ (ix2 n (5 : Fin 16)) 5 (by simp) S262144x1
    (val_main_v200 (F := Ideal) x0 x1 x2 x3 x4 x5 x6) (by rfl) (by rfl) 5 (pre_unit_cols _ (by simp) 5 (by simp)) (ix2 n (0 : Fin 1))
    (fun e he => by
      match e with
      | ⟨0, _⟩ => rfl
      | ⟨1, _⟩ => exact absurd rfl he)
    (by rfl)

/-- Column 6: piece 6 of the first half. -/
theorem col_6 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v1165 (F := Ideal) x0 x1 x2 x3 x4 x5 x6 (ix2 n (⟨6, by norm_num⟩ : Fin 32)) = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 6 (by norm_num) := by
  unfold val_main_v1165
  refine (cat_halves_left (val_main_v1163 (F := Ideal) x0 x1 x2 x3 x4 x5 x6) (val_main_v1164 (F := Ideal) x0 x1 x2 x3 x4 x5 x6) _ n
    (6 : Fin 16) (⟨6, by norm_num⟩ : Fin 32) rfl).trans ?_
  unfold val_main_v1163
  refine Eq.trans ?_ (comp_6 x0 x1 x2 x3 x4 x5 x6 n)
  exact concatenate_apply_piece (t := S262144x16) 1 _ _ (ix2 n (6 : Fin 16)) 6 (by simp) S262144x1
    (val_main_v237 (F := Ideal) x0 x1 x2 x3 x4 x5 x6) (by rfl) (by rfl) 6 (pre_unit_cols _ (by simp) 6 (by simp)) (ix2 n (0 : Fin 1))
    (fun e he => by
      match e with
      | ⟨0, _⟩ => rfl
      | ⟨1, _⟩ => exact absurd rfl he)
    (by rfl)

/-- Column 7: piece 7 of the first half. -/
theorem col_7 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v1165 (F := Ideal) x0 x1 x2 x3 x4 x5 x6 (ix2 n (⟨7, by norm_num⟩ : Fin 32)) = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 7 (by norm_num) := by
  unfold val_main_v1165
  refine (cat_halves_left (val_main_v1163 (F := Ideal) x0 x1 x2 x3 x4 x5 x6) (val_main_v1164 (F := Ideal) x0 x1 x2 x3 x4 x5 x6) _ n
    (7 : Fin 16) (⟨7, by norm_num⟩ : Fin 32) rfl).trans ?_
  unfold val_main_v1163
  refine Eq.trans ?_ (comp_7 x0 x1 x2 x3 x4 x5 x6 n)
  exact concatenate_apply_piece (t := S262144x16) 1 _ _ (ix2 n (7 : Fin 16)) 7 (by simp) S262144x1
    (val_main_v274 (F := Ideal) x0 x1 x2 x3 x4 x5 x6) (by rfl) (by rfl) 7 (pre_unit_cols _ (by simp) 7 (by simp)) (ix2 n (0 : Fin 1))
    (fun e he => by
      match e with
      | ⟨0, _⟩ => rfl
      | ⟨1, _⟩ => exact absurd rfl he)
    (by rfl)

/-- Column 8: piece 8 of the first half. -/
theorem col_8 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v1165 (F := Ideal) x0 x1 x2 x3 x4 x5 x6 (ix2 n (⟨8, by norm_num⟩ : Fin 32)) = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 8 (by norm_num) := by
  unfold val_main_v1165
  refine (cat_halves_left (val_main_v1163 (F := Ideal) x0 x1 x2 x3 x4 x5 x6) (val_main_v1164 (F := Ideal) x0 x1 x2 x3 x4 x5 x6) _ n
    (8 : Fin 16) (⟨8, by norm_num⟩ : Fin 32) rfl).trans ?_
  unfold val_main_v1163
  refine Eq.trans ?_ (comp_8 x0 x1 x2 x3 x4 x5 x6 n)
  exact concatenate_apply_piece (t := S262144x16) 1 _ _ (ix2 n (8 : Fin 16)) 8 (by simp) S262144x1
    (val_main_v311 (F := Ideal) x0 x1 x2 x3 x4 x5 x6) (by rfl) (by rfl) 8 (pre_unit_cols _ (by simp) 8 (by simp)) (ix2 n (0 : Fin 1))
    (fun e he => by
      match e with
      | ⟨0, _⟩ => rfl
      | ⟨1, _⟩ => exact absurd rfl he)
    (by rfl)

/-- Column 9: piece 9 of the first half. -/
theorem col_9 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v1165 (F := Ideal) x0 x1 x2 x3 x4 x5 x6 (ix2 n (⟨9, by norm_num⟩ : Fin 32)) = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 9 (by norm_num) := by
  unfold val_main_v1165
  refine (cat_halves_left (val_main_v1163 (F := Ideal) x0 x1 x2 x3 x4 x5 x6) (val_main_v1164 (F := Ideal) x0 x1 x2 x3 x4 x5 x6) _ n
    (9 : Fin 16) (⟨9, by norm_num⟩ : Fin 32) rfl).trans ?_
  unfold val_main_v1163
  refine Eq.trans ?_ (comp_9 x0 x1 x2 x3 x4 x5 x6 n)
  exact concatenate_apply_piece (t := S262144x16) 1 _ _ (ix2 n (9 : Fin 16)) 9 (by simp) S262144x1
    (val_main_v348 (F := Ideal) x0 x1 x2 x3 x4 x5 x6) (by rfl) (by rfl) 9 (pre_unit_cols _ (by simp) 9 (by simp)) (ix2 n (0 : Fin 1))
    (fun e he => by
      match e with
      | ⟨0, _⟩ => rfl
      | ⟨1, _⟩ => exact absurd rfl he)
    (by rfl)

/-- Column 10: piece 10 of the first half. -/
theorem col_10 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v1165 (F := Ideal) x0 x1 x2 x3 x4 x5 x6 (ix2 n (⟨10, by norm_num⟩ : Fin 32)) = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 10 (by norm_num) := by
  unfold val_main_v1165
  refine (cat_halves_left (val_main_v1163 (F := Ideal) x0 x1 x2 x3 x4 x5 x6) (val_main_v1164 (F := Ideal) x0 x1 x2 x3 x4 x5 x6) _ n
    (10 : Fin 16) (⟨10, by norm_num⟩ : Fin 32) rfl).trans ?_
  unfold val_main_v1163
  refine Eq.trans ?_ (comp_10 x0 x1 x2 x3 x4 x5 x6 n)
  exact concatenate_apply_piece (t := S262144x16) 1 _ _ (ix2 n (10 : Fin 16)) 10 (by simp) S262144x1
    (val_main_v385 (F := Ideal) x0 x1 x2 x3 x4 x5 x6) (by rfl) (by rfl) 10 (pre_unit_cols _ (by simp) 10 (by simp)) (ix2 n (0 : Fin 1))
    (fun e he => by
      match e with
      | ⟨0, _⟩ => rfl
      | ⟨1, _⟩ => exact absurd rfl he)
    (by rfl)

/-- Column 11: piece 11 of the first half. -/
theorem col_11 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v1165 (F := Ideal) x0 x1 x2 x3 x4 x5 x6 (ix2 n (⟨11, by norm_num⟩ : Fin 32)) = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 11 (by norm_num) := by
  unfold val_main_v1165
  refine (cat_halves_left (val_main_v1163 (F := Ideal) x0 x1 x2 x3 x4 x5 x6) (val_main_v1164 (F := Ideal) x0 x1 x2 x3 x4 x5 x6) _ n
    (11 : Fin 16) (⟨11, by norm_num⟩ : Fin 32) rfl).trans ?_
  unfold val_main_v1163
  refine Eq.trans ?_ (comp_11 x0 x1 x2 x3 x4 x5 x6 n)
  exact concatenate_apply_piece (t := S262144x16) 1 _ _ (ix2 n (11 : Fin 16)) 11 (by simp) S262144x1
    (val_main_v422 (F := Ideal) x0 x1 x2 x3 x4 x5 x6) (by rfl) (by rfl) 11 (pre_unit_cols _ (by simp) 11 (by simp)) (ix2 n (0 : Fin 1))
    (fun e he => by
      match e with
      | ⟨0, _⟩ => rfl
      | ⟨1, _⟩ => exact absurd rfl he)
    (by rfl)

/-- Column 12: piece 12 of the first half. -/
theorem col_12 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v1165 (F := Ideal) x0 x1 x2 x3 x4 x5 x6 (ix2 n (⟨12, by norm_num⟩ : Fin 32)) = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 12 (by norm_num) := by
  unfold val_main_v1165
  refine (cat_halves_left (val_main_v1163 (F := Ideal) x0 x1 x2 x3 x4 x5 x6) (val_main_v1164 (F := Ideal) x0 x1 x2 x3 x4 x5 x6) _ n
    (12 : Fin 16) (⟨12, by norm_num⟩ : Fin 32) rfl).trans ?_
  unfold val_main_v1163
  refine Eq.trans ?_ (comp_12 x0 x1 x2 x3 x4 x5 x6 n)
  exact concatenate_apply_piece (t := S262144x16) 1 _ _ (ix2 n (12 : Fin 16)) 12 (by simp) S262144x1
    (val_main_v459 (F := Ideal) x0 x1 x2 x3 x4 x5 x6) (by rfl) (by rfl) 12 (pre_unit_cols _ (by simp) 12 (by simp)) (ix2 n (0 : Fin 1))
    (fun e he => by
      match e with
      | ⟨0, _⟩ => rfl
      | ⟨1, _⟩ => exact absurd rfl he)
    (by rfl)

/-- Column 13: piece 13 of the first half. -/
theorem col_13 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v1165 (F := Ideal) x0 x1 x2 x3 x4 x5 x6 (ix2 n (⟨13, by norm_num⟩ : Fin 32)) = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 13 (by norm_num) := by
  unfold val_main_v1165
  refine (cat_halves_left (val_main_v1163 (F := Ideal) x0 x1 x2 x3 x4 x5 x6) (val_main_v1164 (F := Ideal) x0 x1 x2 x3 x4 x5 x6) _ n
    (13 : Fin 16) (⟨13, by norm_num⟩ : Fin 32) rfl).trans ?_
  unfold val_main_v1163
  refine Eq.trans ?_ (comp_13 x0 x1 x2 x3 x4 x5 x6 n)
  exact concatenate_apply_piece (t := S262144x16) 1 _ _ (ix2 n (13 : Fin 16)) 13 (by simp) S262144x1
    (val_main_v496 (F := Ideal) x0 x1 x2 x3 x4 x5 x6) (by rfl) (by rfl) 13 (pre_unit_cols _ (by simp) 13 (by simp)) (ix2 n (0 : Fin 1))
    (fun e he => by
      match e with
      | ⟨0, _⟩ => rfl
      | ⟨1, _⟩ => exact absurd rfl he)
    (by rfl)

/-- Column 14: piece 14 of the first half. -/
theorem col_14 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v1165 (F := Ideal) x0 x1 x2 x3 x4 x5 x6 (ix2 n (⟨14, by norm_num⟩ : Fin 32)) = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 14 (by norm_num) := by
  unfold val_main_v1165
  refine (cat_halves_left (val_main_v1163 (F := Ideal) x0 x1 x2 x3 x4 x5 x6) (val_main_v1164 (F := Ideal) x0 x1 x2 x3 x4 x5 x6) _ n
    (14 : Fin 16) (⟨14, by norm_num⟩ : Fin 32) rfl).trans ?_
  unfold val_main_v1163
  refine Eq.trans ?_ (comp_14 x0 x1 x2 x3 x4 x5 x6 n)
  exact concatenate_apply_piece (t := S262144x16) 1 _ _ (ix2 n (14 : Fin 16)) 14 (by simp) S262144x1
    (val_main_v533 (F := Ideal) x0 x1 x2 x3 x4 x5 x6) (by rfl) (by rfl) 14 (pre_unit_cols _ (by simp) 14 (by simp)) (ix2 n (0 : Fin 1))
    (fun e he => by
      match e with
      | ⟨0, _⟩ => rfl
      | ⟨1, _⟩ => exact absurd rfl he)
    (by rfl)

/-- Column 15: piece 15 of the first half. -/
theorem col_15 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v1165 (F := Ideal) x0 x1 x2 x3 x4 x5 x6 (ix2 n (⟨15, by norm_num⟩ : Fin 32)) = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 15 (by norm_num) := by
  unfold val_main_v1165
  refine (cat_halves_left (val_main_v1163 (F := Ideal) x0 x1 x2 x3 x4 x5 x6) (val_main_v1164 (F := Ideal) x0 x1 x2 x3 x4 x5 x6) _ n
    (15 : Fin 16) (⟨15, by norm_num⟩ : Fin 32) rfl).trans ?_
  unfold val_main_v1163
  refine Eq.trans ?_ (comp_15 x0 x1 x2 x3 x4 x5 x6 n)
  exact concatenate_apply_piece (t := S262144x16) 1 _ _ (ix2 n (15 : Fin 16)) 15 (by simp) S262144x1
    (val_main_v570 (F := Ideal) x0 x1 x2 x3 x4 x5 x6) (by rfl) (by rfl) 15 (pre_unit_cols _ (by simp) 15 (by simp)) (ix2 n (0 : Fin 1))
    (fun e he => by
      match e with
      | ⟨0, _⟩ => rfl
      | ⟨1, _⟩ => exact absurd rfl he)
    (by rfl)

/-- Column 16: piece 0 of the second half. -/
theorem col_16 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v1165 (F := Ideal) x0 x1 x2 x3 x4 x5 x6 (ix2 n (⟨16, by norm_num⟩ : Fin 32)) = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 16 (by norm_num) := by
  unfold val_main_v1165
  refine (cat_halves_right (val_main_v1163 (F := Ideal) x0 x1 x2 x3 x4 x5 x6) (val_main_v1164 (F := Ideal) x0 x1 x2 x3 x4 x5 x6) _ n
    (0 : Fin 16) (⟨16, by norm_num⟩ : Fin 32) rfl).trans ?_
  unfold val_main_v1164
  refine Eq.trans ?_ (comp_16 x0 x1 x2 x3 x4 x5 x6 n)
  exact concatenate_apply_piece (t := S262144x16) 1 _ _ (ix2 n (0 : Fin 16)) 0 (by simp) S262144x1
    (val_main_v607 (F := Ideal) x0 x1 x2 x3 x4 x5 x6) (by rfl) (by rfl) 0 (pre_unit_cols _ (by simp) 0 (by simp)) (ix2 n (0 : Fin 1))
    (fun e he => by
      match e with
      | ⟨0, _⟩ => rfl
      | ⟨1, _⟩ => exact absurd rfl he)
    (by rfl)

/-- Column 17: piece 1 of the second half. -/
theorem col_17 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v1165 (F := Ideal) x0 x1 x2 x3 x4 x5 x6 (ix2 n (⟨17, by norm_num⟩ : Fin 32)) = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 17 (by norm_num) := by
  unfold val_main_v1165
  refine (cat_halves_right (val_main_v1163 (F := Ideal) x0 x1 x2 x3 x4 x5 x6) (val_main_v1164 (F := Ideal) x0 x1 x2 x3 x4 x5 x6) _ n
    (1 : Fin 16) (⟨17, by norm_num⟩ : Fin 32) rfl).trans ?_
  unfold val_main_v1164
  refine Eq.trans ?_ (comp_17 x0 x1 x2 x3 x4 x5 x6 n)
  exact concatenate_apply_piece (t := S262144x16) 1 _ _ (ix2 n (1 : Fin 16)) 1 (by simp) S262144x1
    (val_main_v644 (F := Ideal) x0 x1 x2 x3 x4 x5 x6) (by rfl) (by rfl) 1 (pre_unit_cols _ (by simp) 1 (by simp)) (ix2 n (0 : Fin 1))
    (fun e he => by
      match e with
      | ⟨0, _⟩ => rfl
      | ⟨1, _⟩ => exact absurd rfl he)
    (by rfl)

/-- Column 18: piece 2 of the second half. -/
theorem col_18 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v1165 (F := Ideal) x0 x1 x2 x3 x4 x5 x6 (ix2 n (⟨18, by norm_num⟩ : Fin 32)) = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 18 (by norm_num) := by
  unfold val_main_v1165
  refine (cat_halves_right (val_main_v1163 (F := Ideal) x0 x1 x2 x3 x4 x5 x6) (val_main_v1164 (F := Ideal) x0 x1 x2 x3 x4 x5 x6) _ n
    (2 : Fin 16) (⟨18, by norm_num⟩ : Fin 32) rfl).trans ?_
  unfold val_main_v1164
  refine Eq.trans ?_ (comp_18 x0 x1 x2 x3 x4 x5 x6 n)
  exact concatenate_apply_piece (t := S262144x16) 1 _ _ (ix2 n (2 : Fin 16)) 2 (by simp) S262144x1
    (val_main_v681 (F := Ideal) x0 x1 x2 x3 x4 x5 x6) (by rfl) (by rfl) 2 (pre_unit_cols _ (by simp) 2 (by simp)) (ix2 n (0 : Fin 1))
    (fun e he => by
      match e with
      | ⟨0, _⟩ => rfl
      | ⟨1, _⟩ => exact absurd rfl he)
    (by rfl)

/-- Column 19: piece 3 of the second half. -/
theorem col_19 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v1165 (F := Ideal) x0 x1 x2 x3 x4 x5 x6 (ix2 n (⟨19, by norm_num⟩ : Fin 32)) = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 19 (by norm_num) := by
  unfold val_main_v1165
  refine (cat_halves_right (val_main_v1163 (F := Ideal) x0 x1 x2 x3 x4 x5 x6) (val_main_v1164 (F := Ideal) x0 x1 x2 x3 x4 x5 x6) _ n
    (3 : Fin 16) (⟨19, by norm_num⟩ : Fin 32) rfl).trans ?_
  unfold val_main_v1164
  refine Eq.trans ?_ (comp_19 x0 x1 x2 x3 x4 x5 x6 n)
  exact concatenate_apply_piece (t := S262144x16) 1 _ _ (ix2 n (3 : Fin 16)) 3 (by simp) S262144x1
    (val_main_v718 (F := Ideal) x0 x1 x2 x3 x4 x5 x6) (by rfl) (by rfl) 3 (pre_unit_cols _ (by simp) 3 (by simp)) (ix2 n (0 : Fin 1))
    (fun e he => by
      match e with
      | ⟨0, _⟩ => rfl
      | ⟨1, _⟩ => exact absurd rfl he)
    (by rfl)

/-- Column 20: piece 4 of the second half. -/
theorem col_20 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v1165 (F := Ideal) x0 x1 x2 x3 x4 x5 x6 (ix2 n (⟨20, by norm_num⟩ : Fin 32)) = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 20 (by norm_num) := by
  unfold val_main_v1165
  refine (cat_halves_right (val_main_v1163 (F := Ideal) x0 x1 x2 x3 x4 x5 x6) (val_main_v1164 (F := Ideal) x0 x1 x2 x3 x4 x5 x6) _ n
    (4 : Fin 16) (⟨20, by norm_num⟩ : Fin 32) rfl).trans ?_
  unfold val_main_v1164
  refine Eq.trans ?_ (comp_20 x0 x1 x2 x3 x4 x5 x6 n)
  exact concatenate_apply_piece (t := S262144x16) 1 _ _ (ix2 n (4 : Fin 16)) 4 (by simp) S262144x1
    (val_main_v755 (F := Ideal) x0 x1 x2 x3 x4 x5 x6) (by rfl) (by rfl) 4 (pre_unit_cols _ (by simp) 4 (by simp)) (ix2 n (0 : Fin 1))
    (fun e he => by
      match e with
      | ⟨0, _⟩ => rfl
      | ⟨1, _⟩ => exact absurd rfl he)
    (by rfl)

/-- Column 21: piece 5 of the second half. -/
theorem col_21 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v1165 (F := Ideal) x0 x1 x2 x3 x4 x5 x6 (ix2 n (⟨21, by norm_num⟩ : Fin 32)) = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 21 (by norm_num) := by
  unfold val_main_v1165
  refine (cat_halves_right (val_main_v1163 (F := Ideal) x0 x1 x2 x3 x4 x5 x6) (val_main_v1164 (F := Ideal) x0 x1 x2 x3 x4 x5 x6) _ n
    (5 : Fin 16) (⟨21, by norm_num⟩ : Fin 32) rfl).trans ?_
  unfold val_main_v1164
  refine Eq.trans ?_ (comp_21 x0 x1 x2 x3 x4 x5 x6 n)
  exact concatenate_apply_piece (t := S262144x16) 1 _ _ (ix2 n (5 : Fin 16)) 5 (by simp) S262144x1
    (val_main_v792 (F := Ideal) x0 x1 x2 x3 x4 x5 x6) (by rfl) (by rfl) 5 (pre_unit_cols _ (by simp) 5 (by simp)) (ix2 n (0 : Fin 1))
    (fun e he => by
      match e with
      | ⟨0, _⟩ => rfl
      | ⟨1, _⟩ => exact absurd rfl he)
    (by rfl)

/-- Column 22: piece 6 of the second half. -/
theorem col_22 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v1165 (F := Ideal) x0 x1 x2 x3 x4 x5 x6 (ix2 n (⟨22, by norm_num⟩ : Fin 32)) = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 22 (by norm_num) := by
  unfold val_main_v1165
  refine (cat_halves_right (val_main_v1163 (F := Ideal) x0 x1 x2 x3 x4 x5 x6) (val_main_v1164 (F := Ideal) x0 x1 x2 x3 x4 x5 x6) _ n
    (6 : Fin 16) (⟨22, by norm_num⟩ : Fin 32) rfl).trans ?_
  unfold val_main_v1164
  refine Eq.trans ?_ (comp_22 x0 x1 x2 x3 x4 x5 x6 n)
  exact concatenate_apply_piece (t := S262144x16) 1 _ _ (ix2 n (6 : Fin 16)) 6 (by simp) S262144x1
    (val_main_v829 (F := Ideal) x0 x1 x2 x3 x4 x5 x6) (by rfl) (by rfl) 6 (pre_unit_cols _ (by simp) 6 (by simp)) (ix2 n (0 : Fin 1))
    (fun e he => by
      match e with
      | ⟨0, _⟩ => rfl
      | ⟨1, _⟩ => exact absurd rfl he)
    (by rfl)

/-- Column 23: piece 7 of the second half. -/
theorem col_23 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v1165 (F := Ideal) x0 x1 x2 x3 x4 x5 x6 (ix2 n (⟨23, by norm_num⟩ : Fin 32)) = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 23 (by norm_num) := by
  unfold val_main_v1165
  refine (cat_halves_right (val_main_v1163 (F := Ideal) x0 x1 x2 x3 x4 x5 x6) (val_main_v1164 (F := Ideal) x0 x1 x2 x3 x4 x5 x6) _ n
    (7 : Fin 16) (⟨23, by norm_num⟩ : Fin 32) rfl).trans ?_
  unfold val_main_v1164
  refine Eq.trans ?_ (comp_23 x0 x1 x2 x3 x4 x5 x6 n)
  exact concatenate_apply_piece (t := S262144x16) 1 _ _ (ix2 n (7 : Fin 16)) 7 (by simp) S262144x1
    (val_main_v866 (F := Ideal) x0 x1 x2 x3 x4 x5 x6) (by rfl) (by rfl) 7 (pre_unit_cols _ (by simp) 7 (by simp)) (ix2 n (0 : Fin 1))
    (fun e he => by
      match e with
      | ⟨0, _⟩ => rfl
      | ⟨1, _⟩ => exact absurd rfl he)
    (by rfl)

/-- Column 24: piece 8 of the second half. -/
theorem col_24 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v1165 (F := Ideal) x0 x1 x2 x3 x4 x5 x6 (ix2 n (⟨24, by norm_num⟩ : Fin 32)) = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 24 (by norm_num) := by
  unfold val_main_v1165
  refine (cat_halves_right (val_main_v1163 (F := Ideal) x0 x1 x2 x3 x4 x5 x6) (val_main_v1164 (F := Ideal) x0 x1 x2 x3 x4 x5 x6) _ n
    (8 : Fin 16) (⟨24, by norm_num⟩ : Fin 32) rfl).trans ?_
  unfold val_main_v1164
  refine Eq.trans ?_ (comp_24 x0 x1 x2 x3 x4 x5 x6 n)
  exact concatenate_apply_piece (t := S262144x16) 1 _ _ (ix2 n (8 : Fin 16)) 8 (by simp) S262144x1
    (val_main_v903 (F := Ideal) x0 x1 x2 x3 x4 x5 x6) (by rfl) (by rfl) 8 (pre_unit_cols _ (by simp) 8 (by simp)) (ix2 n (0 : Fin 1))
    (fun e he => by
      match e with
      | ⟨0, _⟩ => rfl
      | ⟨1, _⟩ => exact absurd rfl he)
    (by rfl)

/-- Column 25: piece 9 of the second half. -/
theorem col_25 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v1165 (F := Ideal) x0 x1 x2 x3 x4 x5 x6 (ix2 n (⟨25, by norm_num⟩ : Fin 32)) = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 25 (by norm_num) := by
  unfold val_main_v1165
  refine (cat_halves_right (val_main_v1163 (F := Ideal) x0 x1 x2 x3 x4 x5 x6) (val_main_v1164 (F := Ideal) x0 x1 x2 x3 x4 x5 x6) _ n
    (9 : Fin 16) (⟨25, by norm_num⟩ : Fin 32) rfl).trans ?_
  unfold val_main_v1164
  refine Eq.trans ?_ (comp_25 x0 x1 x2 x3 x4 x5 x6 n)
  exact concatenate_apply_piece (t := S262144x16) 1 _ _ (ix2 n (9 : Fin 16)) 9 (by simp) S262144x1
    (val_main_v940 (F := Ideal) x0 x1 x2 x3 x4 x5 x6) (by rfl) (by rfl) 9 (pre_unit_cols _ (by simp) 9 (by simp)) (ix2 n (0 : Fin 1))
    (fun e he => by
      match e with
      | ⟨0, _⟩ => rfl
      | ⟨1, _⟩ => exact absurd rfl he)
    (by rfl)

/-- Column 26: piece 10 of the second half. -/
theorem col_26 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v1165 (F := Ideal) x0 x1 x2 x3 x4 x5 x6 (ix2 n (⟨26, by norm_num⟩ : Fin 32)) = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 26 (by norm_num) := by
  unfold val_main_v1165
  refine (cat_halves_right (val_main_v1163 (F := Ideal) x0 x1 x2 x3 x4 x5 x6) (val_main_v1164 (F := Ideal) x0 x1 x2 x3 x4 x5 x6) _ n
    (10 : Fin 16) (⟨26, by norm_num⟩ : Fin 32) rfl).trans ?_
  unfold val_main_v1164
  refine Eq.trans ?_ (comp_26 x0 x1 x2 x3 x4 x5 x6 n)
  exact concatenate_apply_piece (t := S262144x16) 1 _ _ (ix2 n (10 : Fin 16)) 10 (by simp) S262144x1
    (val_main_v977 (F := Ideal) x0 x1 x2 x3 x4 x5 x6) (by rfl) (by rfl) 10 (pre_unit_cols _ (by simp) 10 (by simp)) (ix2 n (0 : Fin 1))
    (fun e he => by
      match e with
      | ⟨0, _⟩ => rfl
      | ⟨1, _⟩ => exact absurd rfl he)
    (by rfl)

/-- Column 27: piece 11 of the second half. -/
theorem col_27 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v1165 (F := Ideal) x0 x1 x2 x3 x4 x5 x6 (ix2 n (⟨27, by norm_num⟩ : Fin 32)) = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 27 (by norm_num) := by
  unfold val_main_v1165
  refine (cat_halves_right (val_main_v1163 (F := Ideal) x0 x1 x2 x3 x4 x5 x6) (val_main_v1164 (F := Ideal) x0 x1 x2 x3 x4 x5 x6) _ n
    (11 : Fin 16) (⟨27, by norm_num⟩ : Fin 32) rfl).trans ?_
  unfold val_main_v1164
  refine Eq.trans ?_ (comp_27 x0 x1 x2 x3 x4 x5 x6 n)
  exact concatenate_apply_piece (t := S262144x16) 1 _ _ (ix2 n (11 : Fin 16)) 11 (by simp) S262144x1
    (val_main_v1014 (F := Ideal) x0 x1 x2 x3 x4 x5 x6) (by rfl) (by rfl) 11 (pre_unit_cols _ (by simp) 11 (by simp)) (ix2 n (0 : Fin 1))
    (fun e he => by
      match e with
      | ⟨0, _⟩ => rfl
      | ⟨1, _⟩ => exact absurd rfl he)
    (by rfl)

/-- Column 28: piece 12 of the second half. -/
theorem col_28 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v1165 (F := Ideal) x0 x1 x2 x3 x4 x5 x6 (ix2 n (⟨28, by norm_num⟩ : Fin 32)) = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 28 (by norm_num) := by
  unfold val_main_v1165
  refine (cat_halves_right (val_main_v1163 (F := Ideal) x0 x1 x2 x3 x4 x5 x6) (val_main_v1164 (F := Ideal) x0 x1 x2 x3 x4 x5 x6) _ n
    (12 : Fin 16) (⟨28, by norm_num⟩ : Fin 32) rfl).trans ?_
  unfold val_main_v1164
  refine Eq.trans ?_ (comp_28 x0 x1 x2 x3 x4 x5 x6 n)
  exact concatenate_apply_piece (t := S262144x16) 1 _ _ (ix2 n (12 : Fin 16)) 12 (by simp) S262144x1
    (val_main_v1051 (F := Ideal) x0 x1 x2 x3 x4 x5 x6) (by rfl) (by rfl) 12 (pre_unit_cols _ (by simp) 12 (by simp)) (ix2 n (0 : Fin 1))
    (fun e he => by
      match e with
      | ⟨0, _⟩ => rfl
      | ⟨1, _⟩ => exact absurd rfl he)
    (by rfl)

/-- Column 29: piece 13 of the second half. -/
theorem col_29 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v1165 (F := Ideal) x0 x1 x2 x3 x4 x5 x6 (ix2 n (⟨29, by norm_num⟩ : Fin 32)) = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 29 (by norm_num) := by
  unfold val_main_v1165
  refine (cat_halves_right (val_main_v1163 (F := Ideal) x0 x1 x2 x3 x4 x5 x6) (val_main_v1164 (F := Ideal) x0 x1 x2 x3 x4 x5 x6) _ n
    (13 : Fin 16) (⟨29, by norm_num⟩ : Fin 32) rfl).trans ?_
  unfold val_main_v1164
  refine Eq.trans ?_ (comp_29 x0 x1 x2 x3 x4 x5 x6 n)
  exact concatenate_apply_piece (t := S262144x16) 1 _ _ (ix2 n (13 : Fin 16)) 13 (by simp) S262144x1
    (val_main_v1088 (F := Ideal) x0 x1 x2 x3 x4 x5 x6) (by rfl) (by rfl) 13 (pre_unit_cols _ (by simp) 13 (by simp)) (ix2 n (0 : Fin 1))
    (fun e he => by
      match e with
      | ⟨0, _⟩ => rfl
      | ⟨1, _⟩ => exact absurd rfl he)
    (by rfl)

/-- Column 30: piece 14 of the second half. -/
theorem col_30 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v1165 (F := Ideal) x0 x1 x2 x3 x4 x5 x6 (ix2 n (⟨30, by norm_num⟩ : Fin 32)) = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 30 (by norm_num) := by
  unfold val_main_v1165
  refine (cat_halves_right (val_main_v1163 (F := Ideal) x0 x1 x2 x3 x4 x5 x6) (val_main_v1164 (F := Ideal) x0 x1 x2 x3 x4 x5 x6) _ n
    (14 : Fin 16) (⟨30, by norm_num⟩ : Fin 32) rfl).trans ?_
  unfold val_main_v1164
  refine Eq.trans ?_ (comp_30 x0 x1 x2 x3 x4 x5 x6 n)
  exact concatenate_apply_piece (t := S262144x16) 1 _ _ (ix2 n (14 : Fin 16)) 14 (by simp) S262144x1
    (val_main_v1125 (F := Ideal) x0 x1 x2 x3 x4 x5 x6) (by rfl) (by rfl) 14 (pre_unit_cols _ (by simp) 14 (by simp)) (ix2 n (0 : Fin 1))
    (fun e he => by
      match e with
      | ⟨0, _⟩ => rfl
      | ⟨1, _⟩ => exact absurd rfl he)
    (by rfl)

/-- Column 31: piece 15 of the second half. -/
theorem col_31 (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) :
    val_main_v1165 (F := Ideal) x0 x1 x2 x3 x4 x5 x6 (ix2 n (⟨31, by norm_num⟩ : Fin 32)) = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) 31 (by norm_num) := by
  unfold val_main_v1165
  refine (cat_halves_right (val_main_v1163 (F := Ideal) x0 x1 x2 x3 x4 x5 x6) (val_main_v1164 (F := Ideal) x0 x1 x2 x3 x4 x5 x6) _ n
    (15 : Fin 16) (⟨31, by norm_num⟩ : Fin 32) rfl).trans ?_
  unfold val_main_v1164
  refine Eq.trans ?_ (comp_31 x0 x1 x2 x3 x4 x5 x6 n)
  exact concatenate_apply_piece (t := S262144x16) 1 _ _ (ix2 n (15 : Fin 16)) 15 (by simp) S262144x1
    (val_main_v1162 (F := Ideal) x0 x1 x2 x3 x4 x5 x6) (by rfl) (by rfl) 15 (pre_unit_cols _ (by simp) 15 (by simp)) (ix2 n (0 : Fin 1))
    (fun e he => by
      match e with
      | ⟨0, _⟩ => rfl
      | ⟨1, _⟩ => exact absurd rfl he)
    (by rfl)

/-- **The reference's result at (n, d)** is the specification's `refOut` of row `n` at component `d`. -/
theorem result_apply (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) (n : Fin 262144) (d : Fin 32) :
    val_main_v1165 (F := Ideal) x0 x1 x2 x3 x4 x5 x6 (ix2 n d) = refOut (fun i : Fin 32 => x0 (ix2 n i)) (fun a b c : Fin 32 => x1 (ix3 a b c)) (fun a b : Fin 32 => x2 (ix2 a b)) (fun a b c : Fin 32 => x3 (ix3 a b c)) (fun a b : Fin 32 => x4 (ix2 a b)) (fun (a b : Fin 32) (h : Fin 8) => x5 (ix3 a b h)) (fun (a : Fin 32) (h : Fin 8) => x6 (ix2 a h)) d.val d.isLt := by
  obtain ⟨k, hk⟩ := d
  interval_cases k
  · exact col_0 x0 x1 x2 x3 x4 x5 x6 n
  · exact col_1 x0 x1 x2 x3 x4 x5 x6 n
  · exact col_2 x0 x1 x2 x3 x4 x5 x6 n
  · exact col_3 x0 x1 x2 x3 x4 x5 x6 n
  · exact col_4 x0 x1 x2 x3 x4 x5 x6 n
  · exact col_5 x0 x1 x2 x3 x4 x5 x6 n
  · exact col_6 x0 x1 x2 x3 x4 x5 x6 n
  · exact col_7 x0 x1 x2 x3 x4 x5 x6 n
  · exact col_8 x0 x1 x2 x3 x4 x5 x6 n
  · exact col_9 x0 x1 x2 x3 x4 x5 x6 n
  · exact col_10 x0 x1 x2 x3 x4 x5 x6 n
  · exact col_11 x0 x1 x2 x3 x4 x5 x6 n
  · exact col_12 x0 x1 x2 x3 x4 x5 x6 n
  · exact col_13 x0 x1 x2 x3 x4 x5 x6 n
  · exact col_14 x0 x1 x2 x3 x4 x5 x6 n
  · exact col_15 x0 x1 x2 x3 x4 x5 x6 n
  · exact col_16 x0 x1 x2 x3 x4 x5 x6 n
  · exact col_17 x0 x1 x2 x3 x4 x5 x6 n
  · exact col_18 x0 x1 x2 x3 x4 x5 x6 n
  · exact col_19 x0 x1 x2 x3 x4 x5 x6 n
  · exact col_20 x0 x1 x2 x3 x4 x5 x6 n
  · exact col_21 x0 x1 x2 x3 x4 x5 x6 n
  · exact col_22 x0 x1 x2 x3 x4 x5 x6 n
  · exact col_23 x0 x1 x2 x3 x4 x5 x6 n
  · exact col_24 x0 x1 x2 x3 x4 x5 x6 n
  · exact col_25 x0 x1 x2 x3 x4 x5 x6 n
  · exact col_26 x0 x1 x2 x3 x4 x5 x6 n
  · exact col_27 x0 x1 x2 x3 x4 x5 x6 n
  · exact col_28 x0 x1 x2 x3 x4 x5 x6 n
  · exact col_29 x0 x1 x2 x3 x4 x5 x6 n
  · exact col_30 x0 x1 x2 x3 x4 x5 x6 n
  · exact col_31 x0 x1 x2 x3 x4 x5 x6 n

/-- **The reference's result is the specification's array**: entry (n, d) is `specOut` of row `n` at component `d`,
    the sums over the first `d` indices being the full sums of the terms masked to zero from `d` on. -/
theorem result_eq (x0 : (⟨S262144x32, .f32⟩ : BufTy).Contents (Elt Ideal)) (x1 : (⟨S32x32x32, .f32⟩ : BufTy).Contents (Elt Ideal)) (x2 : (⟨S32x32, .f32⟩ : BufTy).Contents (Elt Ideal)) (x3 : (⟨S32x32x32, .f32⟩ : BufTy).Contents (Elt Ideal)) (x4 : (⟨S32x32, .f32⟩ : BufTy).Contents (Elt Ideal)) (x5 : (⟨S32x32x8, .f32⟩ : BufTy).Contents (Elt Ideal)) (x6 : (⟨S32x8, .f32⟩ : BufTy).Contents (Elt Ideal)) :
    val_main_v1165 (F := Ideal) x0 x1 x2 x3 x4 x5 x6 = Cert.Monotone.G x0 x1 x2 x3 x4 x5 x6 := by
  funext i
  obtain ⟨n, d, rfl⟩ : ∃ (n : Fin 262144) (d : Fin 32), i = ix2 n d := ⟨i 0, i 1, eq_ix2 i⟩
  rw [result_apply]
  exact refOut_eq _ _ _ _ _ _ _ d.val d.isLt

end Cert.Monotone.Ref

end
-- ==== Proof.lean ====
/-
  The monotone layer: a Pallas kernel that evaluates 32 triangular components eight at a time, through
  block-diagonal weight slabs built on the host, against a reference that evaluates each component on its own slices.

  Both programs, read over the extended reals, compute for every row `n` and component `d`

    max over the four pairs of the minimum of each pair of
      lay h = Σ_{c<d} relu(Σ_k relu(Σ_{i<d} x[n,i]·ws0[d,i,k] + bs0[d,k])·ws1[d,k,c] + bs1[d,c])·wlast[d,c,h]
              + x[n,d]·exp(wlast[d,d,h]) + blast[d,h].

  The reference restricts each sum to the triangle by slicing; the kernel sums over the full width with every weight
  outside the triangle multiplied by a 0/1 mask, and over all eight components of a group with a Kronecker delta that
  keeps one. On the extended reals `a · 0 = 0` and `a + 0 = a` hold without any finiteness, and addition is
  commutative and associative, so the two are the same number (Proof/Spec.lean, Proof/Algebra.lean); the precondition is
  not used.

  The reference's run is read window by window off its 1354 operations (Proof/RunOps0 … 3, Proof/RunWin.lean, Proof/RW0 … 3,
  Proof/RunW.lean); its operations read one at a time at an index are Proof/ReadP.lean.
  Kernel side: the seven slabs read at an index from the parameter arrays (Proof/Slabs.lean); the body's 32 column stores
  read at a row as the group formula of the slab slices (Proof/Body.lean); a block of the result, and from the 256 blocks
  the whole array (Proof/Final.lean, over the generated blockwise value leg). Reference side: each of the 32 component
  columns read at a row (Proof/RefComp*.lean over the generated stage lemmas), and the concatenated result (Proof/RefAll.lean).
  The kernels' frames are the generated ones; the reference's is its run with the result dropped.
-/
import proofs.«166035_j57586921505191_2_alg».proof.Defs
import proofs.«166035_j57586921505191_2_alg».proof.Proof.Gen.Kernel
import proofs.«166035_j57586921505191_2_alg».proof.Proof.Gen.Kernel.Skeleton
import proofs.«166035_j57586921505191_2_alg».proof.Proof.Gen.Kernel.Launch
import proofs.«166035_j57586921505191_2_alg».proof.Proof.Gen.Kernel.Points
import proofs.«166035_j57586921505191_2_alg».proof.Proof.Gen.Kernel.Frame
import proofs.«166035_j57586921505191_2_alg».proof.Proof.Gen.KernelIdeal
import proofs.«166035_j57586921505191_2_alg».proof.Proof.Gen.KernelIdeal.Skeleton
import proofs.«166035_j57586921505191_2_alg».proof.Proof.Gen.KernelIdeal.Launch
import proofs.«166035_j57586921505191_2_alg».proof.Proof.Gen.KernelIdeal.Points
import proofs.«166035_j57586921505191_2_alg».proof.Proof.Gen.KernelIdeal.Frame
import proofs.«166035_j57586921505191_2_alg».proof.Proof.Gen.ReferenceIdeal
import proofs.«166035_j57586921505191_2_alg».proof.Proof.Gen.Pre_finite_inputs
import proofs.«166035_j57586921505191_2_alg».proof.Proof.Gen.KernelIdeal.Value
import proofs.«166035_j57586921505191_2_alg».proof.Proof.ReadP
import proofs.«166035_j57586921505191_2_alg».proof.Proof.RunW
import proofs.«166035_j57586921505191_2_alg».proof.Proof.Final
import proofs.«166035_j57586921505191_2_alg».proof.Proof.RefAll
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunW.run (F := Ideal) m ρ)

/-- Both runs end with the result array at the one function `G` of the argument arrays, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Monotone.Final.Gm m c, Cert.Monotone.Final.run m ρ, ?_⟩
  refine (θ_run Cert.ReferenceIdeal.defs _ _).mono (fun _ h c => ⟨(h c).1.trans ?_, (h c).2⟩)
    (Cert.ReferenceIdeal.RunW.run (F := Ideal) m' ρ')
  obtain ⟨a0, a1, a2, a3, a4, a5, a6⟩ := hagree c
  rw [a0, a1, a2, a3, a4, a5, a6]
  exact Cert.Monotone.Ref.result_eq _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
